-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x9 : Shape := ⟨2, ![262144, 9]⟩
abbrev S2x2097152 : Shape := ⟨2, ![2, 2097152]⟩
abbrev S9x64 : Shape := ⟨2, ![9, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S262144x9 : S_.BroadcastsInDim S262144x9 (![] : Fin 0 → Fin S262144x9.rank)
  reducesTo_S262144x9_S_d0_1 : S262144x9.ReducesTo [0, 1] S_
  h_S_ : 0 < S_.numel
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg12 : FVec F S64 .f32) (main_arg13 : FVec F S64 .f32) (main_arg14 : FVec F S64 .f32) (main_arg15 : FVec F S64 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_v63 main_v67

def fn_part2 {F : FTy → Type} [FloatOps F] (main_arg8 : FVec F S64x16 .f32) (main_arg9 : FVec F S16 .f32) (main_arg10 : FVec F S16x1 .f32) (main_arg11 : FVec F S1 .f32) (main_arg12 : FVec F S64 .f32) (main_arg13 : FVec F S64 .f32) (main_arg14 : FVec F S64 .f32) (main_arg15 : FVec F S64 .f32) (main_v33 : IVec S_ 1) : IVec S_ 1 :=
  let main_v34 : FVec F S64x16 .f32 := Host.absf main_arg8
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x1 .f32 := Host.absf main_arg10
  let main_cst_16 : FVec F S_ .f32 := constant S_ .f32 0x7F800000#32
  let main_v45 : FVec F S16x1 .f32 := broadcastInDim S16x1 ![] bcast_S_S16x1 main_cst_16
  let main_v46 : IVec S16x1 1 := cmpf .olt main_v44 main_v45
  let main_c_17 : IVec S_ 1 := constantI S_ 1 1#1
  let main_v47 : IVec S_ 1 := (fun x v => Host.reduce IntOp.andi x v reducesTo_S16x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_arg14 main_arg15 main_v48 main_v49 main_v50

def fn_part1 {F : FTy → Type} [FloatOps F] (main_arg5 : FVec F S64 .f32) (main_arg6 : FVec F S64x64 .f32) (main_arg7 : FVec F S64 .f32) (main_arg8 : FVec F S64x16 .f32) (main_arg9 : FVec F S16 .f32) (main_arg10 : FVec F S16x1 .f32) (main_arg11 : FVec F S1 .f32) (main_arg12 : FVec F S64 .f32) (main_arg13 : FVec F S64 .f32) (main_arg14 : FVec F S64 .f32) (main_arg15 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S262144x9 .f32) (main_arg1 : IVec S2x2097152 32) (main_arg2 : FVec F S9x64 .f32) (main_arg3 : FVec F S64 .f32) (main_arg4 : FVec F S64x64 .f32) (main_arg5 : FVec F S64 .f32) (main_arg6 : FVec F S64x64 .f32) (main_arg7 : FVec F S64 .f32) (main_arg8 : FVec F S64x16 .f32) (main_arg9 : FVec F S16 .f32) (main_arg10 : FVec F S16x1 .f32) (main_arg11 : FVec F S1 .f32) (main_arg12 : FVec F S64 .f32) (main_arg13 : FVec F S64 .f32) (main_arg14 : FVec F S64 .f32) (main_arg15 : FVec F S64 .f32) : IVec S_ 1 :=
  let main_v0 : FVec F S262144x9 .f32 := Host.absf main_arg0
  let main_cst : FVec F S_ .f32 := constant S_ .f32 0x7F800000#32
  let main_v1 : FVec F S262144x9 .f32 := broadcastInDim S262144x9 ![] bcast_S_S262144x9 main_cst
  let main_v2 : IVec S262144x9 1 := cmpf .olt main_v0 main_v1
  let main_c : IVec S_ 1 := constantI S_ 1 1#1
  let main_v3 : IVec S_ 1 := (fun x v => Host.reduce IntOp.andi x v reducesTo_S262144x9_S_d0_1 h_S_) main_v2 main_c
  let main_v4 : FVec F S9x64 .f32 := Host.absf main_arg2
  let main_cst_0 : FVec F S_ .f32 := constant S_ .f32 0x7F800000#32
  let main_v5 : FVec F S9x64 .f32 := broadcastInDim S9x64 ![] bcast_S_S9x64 main_cst_0
  let main_v6 : IVec S9x64 1 := cmpf .olt main_v4 main_v5
  let main_c_1 : IVec S_ 1 := constantI S_ 1 1#1
  let main_v7 : IVec S_ 1 := (fun x v => Host.reduce IntOp.andi x v reducesTo_S9x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S262144x9 : Shape := ⟨2, ![262144, 9]⟩
abbrev S2x2097152 : Shape := ⟨2, ![2, 2097152]⟩
abbrev S9x64 : Shape := ⟨2, ![9, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S1x2097152 : Shape := ⟨2, ![1, 2097152]⟩
abbrev S2097152 : Shape := ⟨1, ![2097152]⟩
abbrev S_ : Shape := ⟨0, ![]⟩
abbrev S262144 : Shape := ⟨1, ![262144]⟩
abbrev S2097152x1 : Shape := ⟨2, ![2097152, 1]⟩
abbrev S262144x1 : Shape := ⟨2, ![262144, 1]⟩
abbrev S262144x64 : Shape := ⟨2, ![262144, 64]⟩
abbrev S8192x9 : Shape := ⟨2, ![8192, 9]⟩
abbrev S8192x64 : Shape := ⟨2, ![8192, 64]⟩
abbrev S2097152x64 : Shape := ⟨2, ![2097152, 64]⟩
abbrev S1x64 : Shape := ⟨2, ![1, 64]⟩
abbrev S1x1 : Shape := ⟨2, ![1, 1]⟩
abbrev S8192x1 : Shape := ⟨2, ![8192, 1]⟩
abbrev S8192 : Shape := ⟨1, ![8192]⟩
abbrev S262144x16 : Shape := ⟨2, ![262144, 16]⟩
abbrev S8192x16 : Shape := ⟨2, ![8192, 16]⟩
abbrev S2097152x16 : Shape := ⟨2, ![2097152, 16]⟩
abbrev S1x16 : Shape := ⟨2, ![1, 16]⟩
abbrev S512x512x1 : Shape := ⟨3, ![512, 512, 1]⟩
abbrev S1x512x512 : Shape := ⟨3, ![1, 512, 512]⟩

abbrev nBuf : Space → Nat
  | .hbm => 213
  | .vmem => 100
  | .smem => 0
  | _ => 0

abbrev hbmTy0_0 (i : Nat) : BufTy := match i % 128 with
  | 0 => ⟨S262144x9, .f32⟩
  | 1 => ⟨S2x2097152, .i32⟩
  | 2 => ⟨S9x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x16, .f32⟩
  | 9 => ⟨S16, .f32⟩
  | 10 => ⟨S16x1, .f32⟩
  | 11 => ⟨S1, .f32⟩
  | 12 => ⟨S64, .f32⟩
  | 13 => ⟨S64, .f32⟩
  | 14 => ⟨S64, .f32⟩
  | 15 => ⟨S64, .f32⟩
  | 16 => ⟨S1x2097152, .i32⟩
  | 17 => ⟨S2097152, .i32⟩
  | 18 => ⟨S1x2097152, .i32⟩
  | 19 => ⟨S2097152, .i32⟩
  | 20 => ⟨S_, .f32⟩
  | 21 => ⟨S2097152, .f32⟩
  | 22 => ⟨S_, .f32⟩
  | 23 => ⟨S262144, .f32⟩
  | 24 => ⟨S2097152x1, .i32⟩
  | 25 => ⟨S262144, .f32⟩
  | 26 => ⟨S_, .f32⟩
  | 27 => ⟨S262144, .f32⟩
  | 28 => ⟨S262144, .f32⟩
  | 29 => ⟨S262144, .f32⟩
  | 30 => ⟨S_, .i32⟩
  | 31 => ⟨S2097152, .i32⟩
  | 32 => ⟨S2097152, .i1⟩
  | 33 => ⟨S_, .i32⟩
  | 34 => ⟨S2097152, .i32⟩
  | 35 => ⟨S2097152, .i32⟩
  | 36 => ⟨S2097152, .i32⟩
  | 37 => ⟨S2097152x1, .i32⟩
  | 38 => ⟨S2097152, .f32⟩
  | 39 => ⟨S_, .i32⟩
  | 40 => ⟨S2097152, .i32⟩
  | 41 => ⟨S2097152, .i1⟩
  | 42 => ⟨S_, .i32⟩
  | 43 => ⟨S2097152, .i32⟩
  | 44 => ⟨S2097152, .i32⟩
  | 45 => ⟨S2097152, .i32⟩
  | 46 => ⟨S2097152x1, .i32⟩
  | 47 => ⟨S2097152, .f32⟩
  | 48 => ⟨S2097152, .f32⟩
  | 49 => ⟨S262144, .f32⟩
  | 50 => ⟨S262144x1, .f32⟩
  | 51 => ⟨S262144x64, .f32⟩
  | 52 => ⟨S_, .i32⟩
  | 53 => ⟨S2097152, .i32⟩
  | 54 => ⟨S2097152, .i1⟩
  | 55 => ⟨S_, .i32⟩
  | 56 => ⟨S2097152, .i32⟩
  | 57 => ⟨S2097152, .i32⟩
  | 58 => ⟨S2097152, .i32⟩
  | 59 => ⟨S2097152x1, .i32⟩
  | 60 => ⟨S2097152x64, .f32⟩
  | 61 => ⟨S2097152x1, .f32⟩
  | 62 => ⟨S2097152x64, .f32⟩
  | 63 => ⟨S2097152x64, .f32⟩
  | 64 => ⟨S_, .f32⟩
  | 65 => ⟨S262144x64, .f32⟩
  | 66 => ⟨S2097152x1, .i32⟩
  | 67 => ⟨S262144x64, .f32⟩
  | 68 => ⟨S1x64, .f32⟩
  | 69 => ⟨S262144x64, .f32⟩
  | 70 => ⟨S1x1, .f32⟩
  | 71 => ⟨S1x1, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S1x1, .f32⟩
  | 88 => ⟨S1x1, .f32⟩
  | 89 => ⟨S1x64, .f32⟩
  | 90 => ⟨S1x64, .f32⟩
  | 91 => ⟨S262144x64, .f32⟩
  | 92 => ⟨S262144x64, .f32⟩
  | 93 => ⟨S_, .i32⟩
  | 94 => ⟨S2097152, .i32⟩
  | 95 => ⟨S2097152, .i1⟩
  | 96 => ⟨S_, .i32⟩
  | 97 => ⟨S2097152, .i32⟩
  | 98 => ⟨S2097152, .i32⟩
  | 99 => ⟨S2097152, .i32⟩
  | 100 => ⟨S2097152x1, .i32⟩
  | 101 => ⟨S2097152x64, .f32⟩
  | 102 => ⟨S2097152x1, .f32⟩
  | 103 => ⟨S2097152x64, .f32⟩
  | 104 => ⟨S2097152x64, .f32⟩
  | 105 => ⟨S_, .f32⟩
  | 106 => ⟨S262144x64, .f32⟩
  | 107 => ⟨S2097152x1, .i32⟩
  | 108 => ⟨S262144x64, .f32⟩
  | 109 => ⟨S1x64, .f32⟩
  | 110 => ⟨S262144x64, .f32⟩
  | 111 => ⟨S1x1, .f32⟩
  | 112 => ⟨S1x1, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S262144x9, .f32⟩

abbrev hbmTy0_1 (i : Nat) : BufTy := match i % 128 with
  | 0 => ⟨S1x1, .f32⟩
  | 1 => ⟨S1x1, .f32⟩
  | 2 => ⟨S1x64, .f32⟩
  | 3 => ⟨S1x64, .f32⟩
  | 4 => ⟨S262144x64, .f32⟩
  | 5 => ⟨S262144x64, .f32⟩
  | 6 => ⟨S_, .i32⟩
  | 7 => ⟨S2097152, .i32⟩
  | 8 => ⟨S2097152, .i1⟩
  | 9 => ⟨S_, .i32⟩
  | 10 => ⟨S2097152, .i32⟩
  | 11 => ⟨S2097152, .i32⟩
  | 12 => ⟨S2097152, .i32⟩
  | 13 => ⟨S2097152x1, .i32⟩
  | 14 => ⟨S2097152x64, .f32⟩
  | 15 => ⟨S2097152x1, .f32⟩
  | 16 => ⟨S2097152x64, .f32⟩
  | 17 => ⟨S2097152x64, .f32⟩
  | 18 => ⟨S_, .f32⟩
  | 19 => ⟨S262144x64, .f32⟩
  | 20 => ⟨S2097152x1, .i32⟩
  | 21 => ⟨S262144x64, .f32⟩
  | 22 => ⟨S1x64, .f32⟩
  | 23 => ⟨S262144x64, .f32⟩
  | 24 => ⟨S1x1, .f32⟩
  | 25 => ⟨S1x1, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S1x1, .f32⟩
  | 42 => ⟨S1x1, .f32⟩
  | 43 => ⟨S1x64, .f32⟩
  | 44 => ⟨S1x64, .f32⟩
  | 45 => ⟨S262144x64, .f32⟩
  | 46 => ⟨S262144x16, .f32⟩
  | 47 => ⟨S_, .i32⟩
  | 48 => ⟨S2097152, .i32⟩
  | 49 => ⟨S2097152, .i1⟩
  | 50 => ⟨S_, .i32⟩
  | 51 => ⟨S2097152, .i32⟩
  | 52 => ⟨S2097152, .i32⟩
  | 53 => ⟨S2097152, .i32⟩
  | 54 => ⟨S2097152x1, .i32⟩
  | 55 => ⟨S2097152x16, .f32⟩
  | 56 => ⟨S2097152x1, .f32⟩
  | 57 => ⟨S2097152x16, .f32⟩
  | 58 => ⟨S2097152x16, .f32⟩
  | 59 => ⟨S_, .f32⟩
  | 60 => ⟨S262144x16, .f32⟩
  | 61 => ⟨S2097152x1, .i32⟩
  | 62 => ⟨S262144x16, .f32⟩
  | 63 => ⟨S1x16, .f32⟩
  | 64 => ⟨S262144x16, .f32⟩
  | 65 => ⟨S262144x1, .f32⟩
  | 66 => ⟨S_, .i32⟩
  | 67 => ⟨S2097152, .i32⟩
  | 68 => ⟨S2097152, .i1⟩
  | 69 => ⟨S_, .i32⟩
  | 70 => ⟨S2097152, .i32⟩
  | 71 => ⟨S2097152, .i32⟩
  | 72 => ⟨S2097152, .i32⟩
  | 73 => ⟨S2097152x1, .i32⟩
  | 74 => ⟨S2097152x1, .f32⟩
  | 75 => ⟨S2097152x1, .f32⟩
  | 76 => ⟨S2097152x1, .f32⟩
  | 77 => ⟨S_, .f32⟩
  | 78 => ⟨S262144x1, .f32⟩
  | 79 => ⟨S2097152x1, .i32⟩
  | 80 => ⟨S262144x1, .f32⟩
  | 81 => ⟨S1x1, .f32⟩
  | 82 => ⟨S262144x1, .f32⟩
  | 83 => ⟨S512x512x1, .f32⟩
  | 84 => ⟨S1x512x512, .f32⟩
  | _ => ⟨S262144x9, .f32⟩

abbrev hbmTy (i : Nat) : BufTy := match i / 128 with
  | 0 => hbmTy0_0 i
  | 1 => hbmTy0_1 i
  | _ => ⟨S262144x9, .f32⟩

abbrev bufTy : (tb : Table) → Fin (tcTables nBuf tb) → BufTy
  | .hbm, ⟨i, _⟩ => hbmTy i
  | .local _ .vmem, ⟨0, _⟩ => ⟨S8192x9, .f32⟩
  | .local _ .vmem, ⟨1, _⟩ => ⟨S8192x9, .f32⟩
  | .local _ .vmem, ⟨2, _⟩ => ⟨S9x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S8192x64, .f32⟩
  | .local _ .vmem, ⟨7, _⟩ => ⟨S8192x64, .f32⟩
  | .local _ .vmem, ⟨8, _⟩ => ⟨S8192x64, .f32⟩
  | .local _ .vmem, ⟨9, _⟩ => ⟨S8192x1, .f32⟩
  | .local _ .vmem, ⟨10, _⟩ => ⟨S8192x1, .f32⟩
  | .local _ .vmem, ⟨11, _⟩ => ⟨S1x64, .f32⟩
  | .local _ .vmem, ⟨12, _⟩ => ⟨S8192x64, .f32⟩
  | .local _ .vmem, ⟨13, _⟩ => ⟨S8192x64, .f32⟩
  | .local _ .vmem, ⟨14, _⟩ => ⟨S1x1, .f32⟩
  | .local _ .vmem, ⟨15, _⟩ => ⟨S1x1, .f32⟩
  | .local _ .vmem, ⟨16, _⟩ => ⟨S8192x64, .f32⟩
  | .local _ .vmem, ⟨17, _⟩ => ⟨S8192x64, .f32⟩
  | .local _ .vmem, ⟨18, _⟩ => ⟨S1x1, .f32⟩
  | .local _ .vmem, ⟨19, _⟩ => ⟨S1x1, .f32⟩
  | .local _ .vmem, ⟨20, _⟩ => ⟨S1x64, .f32⟩
  | .local _ .vmem, ⟨21, _⟩ => ⟨S1x64, .f32⟩
  | .local _ .vmem, ⟨22, _⟩ => ⟨S8192x64, .f32⟩
  | .local _ .vmem, ⟨23, _⟩ => ⟨S8192x64, .f32⟩
  | .local _ .vmem, ⟨24, _⟩ => ⟨S8192x64, .f32⟩
  | .local _ .vmem, ⟨25, _⟩ => ⟨S8192x64, .f32⟩
  | .local _ .vmem, ⟨26, _⟩ => ⟨S64x64, .f32⟩
  | .local _ .vmem, ⟨27, _⟩ => ⟨S8192x64, .f32⟩
  | .local _ .vmem, ⟨28, _⟩ => ⟨S8192x64, .f32⟩
  | .local _ .vmem, ⟨29, _⟩ => ⟨S8192x64, .f32⟩
  | .local _ .vmem, ⟨30, _⟩ => ⟨S8192x64, .f32⟩
  | .local _ .vmem, ⟨31, _⟩ => ⟨S8192x64, .f32⟩
  | .local _ .vmem, ⟨32, _⟩ => ⟨S8192x64, .f32⟩
  | .local _ .vmem, ⟨33, _⟩ => ⟨S8192x1, .f32⟩
  | .local _ .vmem, ⟨34, _⟩ => ⟨S8192x1, .f32⟩
  | .local _ .vmem, ⟨35, _⟩ => ⟨S1x64, .f32⟩
  | .local _ .vmem, ⟨36, _⟩ => ⟨S8192x64, .f32⟩
  | .local _ .vmem, ⟨37, _⟩ => ⟨S8192x64, .f32⟩
  | .local _ .vmem, ⟨38, _⟩ => ⟨S1x1, .f32⟩
  | .local _ .vmem, ⟨39, _⟩ => ⟨S1x1, .f32⟩
  | .local _ .vmem, ⟨40, _⟩ => ⟨S8192x64, .f32⟩
  | .local _ .vmem, ⟨41, _⟩ => ⟨S8192x64, .f32⟩
  | .local _ .vmem, ⟨42, _⟩ => ⟨S1x1, .f32⟩
  | .local _ .vmem, ⟨43, _⟩ => ⟨S1x1, .f32⟩
  | .local _ .vmem, ⟨44, _⟩ => ⟨S1x64, .f32⟩
  | .local _ .vmem, ⟨45, _⟩ => ⟨S1x64, .f32⟩
  | .local _ .vmem, ⟨46, _⟩ => ⟨S8192x64, .f32⟩
  | .local _ .vmem, ⟨47, _⟩ => ⟨S8192x64, .f32⟩
  | .local _ .vmem, ⟨48, _⟩ => ⟨S8192x64, .f32⟩
  | .local _ .vmem, ⟨49, _⟩ => ⟨S8192x64, .f32⟩
  | .local _ .vmem, ⟨50, _⟩ => ⟨S64x64, .f32⟩
  | .local _ .vmem, ⟨51, _⟩ => ⟨S8192x64, .f32⟩
  | .local _ .vmem, ⟨52, _⟩ => ⟨S8192x64, .f32⟩
  | .local _ .vmem, ⟨53, _⟩ => ⟨S8192x64, .f32⟩
  | .local _ .vmem, ⟨54, _⟩ => ⟨S8192x64, .f32⟩
  | .local _ .vmem, ⟨55, _⟩ => ⟨S8192x64, .f32⟩
  | .local _ .vmem, ⟨56, _⟩ => ⟨S8192x64, .f32⟩
  | .local _ .vmem, ⟨57, _⟩ => ⟨S8192x1, .f32⟩
  | .local _ .vmem, ⟨58, _⟩ => ⟨S8192x1, .f32⟩
  | .local _ .vmem, ⟨59, _⟩ => ⟨S1x64, .f32⟩
  | .local _ .vmem, ⟨60, _⟩ => ⟨S8192x64, .f32⟩
  | .local _ .vmem, ⟨61, _⟩ => ⟨S8192x64, .f32⟩
  | .local _ .vmem, ⟨62, _⟩ => ⟨S1x1, .f32⟩
  | .local _ .vmem, ⟨63, _⟩ => ⟨S1x1, .f32⟩
  | .local _ .vmem, ⟨64, _⟩ => ⟨S8192x64, .f32⟩
  | .local _ .vmem, ⟨65, _⟩ => ⟨S8192x64, .f32⟩
  | .local _ .vmem, ⟨66, _⟩ => ⟨S1x1, .f32⟩
  | .local _ .vmem, ⟨67, _⟩ => ⟨S1x1, .f32⟩
  | .local _ .vmem, ⟨68, _⟩ => ⟨S1x64, .f32⟩
  | .local _ .vmem, ⟨69, _⟩ => ⟨S1x64, .f32⟩
  | .local _ .vmem, ⟨70, _⟩ => ⟨S8192x64, .f32⟩
  | .local _ .vmem, ⟨71, _⟩ => ⟨S8192x64, .f32⟩
  | .local _ .vmem, ⟨72, _⟩ => ⟨S8192x64, .f32⟩
  | .local _ .vmem, ⟨73, _⟩ => ⟨S8192x64, .f32⟩
  | .local _ .vmem, ⟨74, _⟩ => ⟨S64x16, .f32⟩
  | .local _ .vmem, ⟨75, _⟩ => ⟨S8192x16, .f32⟩
  | .local _ .vmem, ⟨76, _⟩ => ⟨S8192x16, .f32⟩
  | .local _ .vmem, ⟨77, _⟩ => ⟨S8192x16, .f32⟩
  | .local _ .vmem, ⟨78, _⟩ => ⟨S8192x16, .f32⟩
  | .local _ .vmem, ⟨79, _⟩ => ⟨S8192x16, .f32⟩
  | .local _ .vmem, ⟨80, _⟩ => ⟨S8192x16, .f32⟩
  | .local _ .vmem, ⟨81, _⟩ => ⟨S8192x1, .f32⟩
  | .local _ .vmem, ⟨82, _⟩ => ⟨S8192x1, .f32⟩
  | .local _ .vmem, ⟨83, _⟩ => ⟨S1x16, .f32⟩
  | .local _ .vmem, ⟨84, _⟩ => ⟨S8192x16, .f32⟩
  | .local _ .vmem, ⟨85, _⟩ => ⟨S8192x16, .f32⟩
  | .local _ .vmem, ⟨86, _⟩ => ⟨S8192x16, .f32⟩
  | .local _ .vmem, ⟨87, _⟩ => ⟨S8192x16, .f32⟩
  | .local _ .vmem, ⟨88, _⟩ => ⟨S16x1, .f32⟩
  | .local _ .vmem, ⟨89, _⟩ => ⟨S8192x1, .f32⟩
  | .local _ .vmem, ⟨90, _⟩ => ⟨S8192x1, .f32⟩
  | .local _ .vmem, ⟨91, _⟩ => ⟨S8192x1, .f32⟩
  | .local _ .vmem, ⟨92, _⟩ => ⟨S8192x1, .f32⟩
  | .local _ .vmem, ⟨93, _⟩ => ⟨S8192x1, .f32⟩
  | .local _ .vmem, ⟨94, _⟩ => ⟨S8192x1, .f32⟩
  | .local _ .vmem, ⟨95, _⟩ => ⟨S8192x1, .f32⟩
  | .local _ .vmem, ⟨96, _⟩ => ⟨S8192x1, .f32⟩
  | .local _ .vmem, ⟨97, _⟩ => ⟨S1x1, .f32⟩
  | .local _ .vmem, ⟨98, _⟩ => ⟨S8192x1, .f32⟩
  | .local _ .vmem, ⟨99, _⟩ => ⟨S8192x1, .f32⟩
  | _, _ => ⟨S262144x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  ofTc nBuf bufTy 0 100 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43_0 : Ref sig .tc := ⟨.hbm, 69, rfl⟩
abbrev main_v43_1 : Ref sig .tc := ⟨.hbm, 70, rfl⟩
abbrev main_v43_2 : Ref sig .tc := ⟨.hbm, 71, rfl⟩
abbrev main_v44 : Ref sig .tc := ⟨.hbm, 72, rfl⟩
abbrev main_cst_8 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_10 : Ref sig .tc := ⟨.hbm, 80, rfl⟩
abbrev main_v50 : Ref sig .tc := ⟨.hbm, 81, rfl⟩
abbrev main_v51 : Ref sig .tc := ⟨.hbm, 82, rfl⟩
abbrev main_cst_11 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_13 : Ref sig .tc := ⟨.hbm, 93, rfl⟩
abbrev main_v60 : Ref sig .tc := ⟨.hbm, 94, rfl⟩
abbrev main_v61 : Ref sig .tc := ⟨.hbm, 95, rfl⟩
abbrev main_c_14 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74_0 : Ref sig .tc := ⟨.hbm, 110, rfl⟩
abbrev main_v74_1 : Ref sig .tc := ⟨.hbm, 111, rfl⟩
abbrev main_v74_2 : Ref sig .tc := ⟨.hbm, 112, rfl⟩
abbrev main_v75 : Ref sig .tc := ⟨.hbm, 113, rfl⟩
abbrev main_cst_16 : Ref sig .tc := ⟨.hbm, 114, rfl⟩
abbrev main_v76 : Ref sig .tc := ⟨.hbm, 115, rfl⟩
abbrev main_v77 : Ref sig .tc := ⟨.hbm, 116, rfl⟩
abbrev main_cst_17 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_18 : Ref sig .tc := ⟨.hbm, 121, rfl⟩
abbrev main_v81 : Ref sig .tc := ⟨.hbm, 122, rfl⟩
abbrev main_v82 : Ref sig .tc := ⟨.hbm, 123, rfl⟩
abbrev main_cst_19 : Ref sig .tc := ⟨.hbm, 124, rfl⟩
abbrev main_v83 : Ref sig .tc := ⟨.hbm, 125, rfl⟩
abbrev main_cst_20 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_c_21 : Ref sig .tc := ⟨.hbm, 134, rfl⟩
abbrev main_v91 : Ref sig .tc := ⟨.hbm, 135, rfl⟩
abbrev main_v92 : Ref sig .tc := ⟨.hbm, 136, rfl⟩
abbrev main_c_22 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_23 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105_0 : Ref sig .tc := ⟨.hbm, 151, rfl⟩
abbrev main_v105_1 : Ref sig .tc := ⟨.hbm, 152, rfl⟩
abbrev main_v105_2 : Ref sig .tc := ⟨.hbm, 153, rfl⟩
abbrev main_v106 : Ref sig .tc := ⟨.hbm, 154, rfl⟩
abbrev main_cst_24 : Ref sig .tc := ⟨.hbm, 155, rfl⟩
abbrev main_v107 : Ref sig .tc := ⟨.hbm, 156, rfl⟩
abbrev main_v108 : Ref sig .tc := ⟨.hbm, 157, rfl⟩
abbrev main_cst_25 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_cst_26 : Ref sig .tc := ⟨.hbm, 162, rfl⟩
abbrev main_v112 : Ref sig .tc := ⟨.hbm, 163, rfl⟩
abbrev main_v113 : Ref sig .tc := ⟨.hbm, 164, rfl⟩
abbrev main_cst_27 : Ref sig .tc := ⟨.hbm, 165, rfl⟩
abbrev main_v114 : Ref sig .tc := ⟨.hbm, 166, rfl⟩
abbrev main_cst_28 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_c_29 : Ref sig .tc := ⟨.hbm, 175, rfl⟩
abbrev main_v122 : Ref sig .tc := ⟨.hbm, 176, rfl⟩
abbrev main_v123 : Ref sig .tc := ⟨.hbm, 177, rfl⟩
abbrev main_c_30 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_31 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_c_32 : Ref sig .tc := ⟨.hbm, 194, rfl⟩
abbrev main_v138 : Ref sig .tc := ⟨.hbm, 195, rfl⟩
abbrev main_v139 : Ref sig .tc := ⟨.hbm, 196, rfl⟩
abbrev main_c_33 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_cst_34 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg6_0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg4_1 : Ref sig .tc := ⟨.vmem, 61, rfl⟩
abbrev cc7_stg5_0 : Ref sig .tc := ⟨.vmem, 62, rfl⟩
abbrev cc7_stg6_0 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg5_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg2_1 : Ref sig .tc := ⟨.vmem, 76, rfl⟩
abbrev cc10_stg0_0 : Ref sig .tc := ⟨.vmem, 77, rfl⟩
abbrev cc10_stg0_1 : Ref sig .tc := ⟨.vmem, 78, rfl⟩
abbrev cc10_stg1_0 : Ref sig .tc := ⟨.vmem, 79, rfl⟩
abbrev cc10_stg1_1 : Ref sig .tc := ⟨.vmem, 80, rfl⟩
abbrev cc10_stg2_0 : Ref sig .tc := ⟨.vmem, 81, rfl⟩
abbrev cc10_stg2_1 : Ref sig .tc := ⟨.vmem, 82, rfl⟩
abbrev cc10_stg3_0 : Ref sig .tc := ⟨.vmem, 83, rfl⟩
abbrev cc10_stg4_0 : Ref sig .tc := ⟨.vmem, 84, rfl⟩
abbrev cc10_stg4_1 : Ref sig .tc := ⟨.vmem, 85, rfl⟩
abbrev cc11_stg0_0 : Ref sig .tc := ⟨.vmem, 86, rfl⟩
abbrev cc11_stg0_1 : Ref sig .tc := ⟨.vmem, 87, rfl⟩
abbrev cc11_stg1_0 : Ref sig .tc := ⟨.vmem, 88, rfl⟩
abbrev cc11_stg2_0 : Ref sig .tc := ⟨.vmem, 89, rfl⟩
abbrev cc11_stg2_1 : Ref sig .tc := ⟨.vmem, 90, rfl⟩
abbrev cc12_stg0_0 : Ref sig .tc := ⟨.vmem, 91, rfl⟩
abbrev cc12_stg0_1 : Ref sig .tc := ⟨.vmem, 92, rfl⟩
abbrev cc12_stg1_0 : Ref sig .tc := ⟨.vmem, 93, rfl⟩
abbrev cc12_stg1_1 : Ref sig .tc := ⟨.vmem, 94, rfl⟩
abbrev cc12_stg2_0 : Ref sig .tc := ⟨.vmem, 95, rfl⟩
abbrev cc12_stg2_1 : Ref sig .tc := ⟨.vmem, 96, rfl⟩
abbrev cc12_stg3_0 : Ref sig .tc := ⟨.vmem, 97, rfl⟩
abbrev cc12_stg4_0 : Ref sig .tc := ⟨.vmem, 98, rfl⟩
abbrev cc12_stg4_1 : Ref sig .tc := ⟨.vmem, 99, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc4_sem5_0 : DmaSem sig := 38
abbrev cc4_sem6_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc7_sem3_0 : DmaSem sig := 59
abbrev cc7_sem4_0 : DmaSem sig := 60
abbrev cc7_sem4_1 : DmaSem sig := 61
abbrev cc7_sem5_0 : DmaSem sig := 62
abbrev cc7_sem6_0 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem2_1 : DmaSem sig := 76
abbrev cc10_sem0_0 : DmaSem sig := 77
abbrev cc10_sem0_1 : DmaSem sig := 78
abbrev cc10_sem1_0 : DmaSem sig := 79
abbrev cc10_sem1_1 : DmaSem sig := 80
abbrev cc10_sem2_0 : DmaSem sig := 81
abbrev cc10_sem2_1 : DmaSem sig := 82
abbrev cc10_sem3_0 : DmaSem sig := 83
abbrev cc10_sem4_0 : DmaSem sig := 84
abbrev cc10_sem4_1 : DmaSem sig := 85
abbrev cc11_sem0_0 : DmaSem sig := 86
abbrev cc11_sem0_1 : DmaSem sig := 87
abbrev cc11_sem1_0 : DmaSem sig := 88
abbrev cc11_sem2_0 : DmaSem sig := 89
abbrev cc11_sem2_1 : DmaSem sig := 90
abbrev cc12_sem0_0 : DmaSem sig := 91
abbrev cc12_sem0_1 : DmaSem sig := 92
abbrev cc12_sem1_0 : DmaSem sig := 93
abbrev cc12_sem1_1 : DmaSem sig := 94
abbrev cc12_sem2_0 : DmaSem sig := 95
abbrev cc12_sem2_1 : DmaSem sig := 96
abbrev cc12_sem3_0 : DmaSem sig := 97
abbrev cc12_sem4_0 : DmaSem sig := 98
abbrev cc12_sem4_1 : DmaSem sig := 99

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8192x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8192x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8192x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S8192x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S8192x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S8192x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8192x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S8192x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![32], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S8192x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8192x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S8192x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S8192x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x1 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![32], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8192x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S8192x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![32], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8192x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x16 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S8192x16 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![32], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S8192x16 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S8192x16 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S8192x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x16 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S8192x16 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![32], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S8192x16 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S16x1 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S8192x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![32], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S8192x1 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S8192x1 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S8192x1 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S1x1 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S8192x1 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

class Facts₀ : Prop where
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  bcast_S_S2097152 : S_.BroadcastsInDim S2097152 (![] : Fin 0 → Fin S2097152.rank)
  bcast_S_S262144 : S_.BroadcastsInDim S262144 (![] : Fin 0 → Fin S262144.rank)
  bcast_S2097152_S2097152x1_0 : S2097152.BroadcastsInDim S2097152x1 (![0] : Fin 1 → Fin S2097152x1.rank)
  shapeCasts_S262144_S262144x1 : S262144.ShapeCasts S262144x1
  inb_S8192x9_S8192x9_0_0 : ∀ a, (![0, 0] : Fin 2 → Nat) a + S8192x9.size a ≤ S8192x9.size a
  h_S8192x9 : 0 < S8192x9.numel
  bitsLt_bf16_f32 : FTy.bits .bf16 < FTy.bits .f32
  inb_S9x64_S9x64_0_0 : ∀ a, (![0, 0] : Fin 2 → Nat) a + S9x64.size a ≤ S9x64.size a
  h_S9x64 : 0 < S9x64.numel
  inb_S8192x64_S8192x64_0_0 : ∀ a, (![0, 0] : Fin 2 → Nat) a + S8192x64.size a ≤ S8192x64.size a
  h_S8192x64 : 0 < S8192x64.numel
  bcast_S2097152x1_S2097152x64_0_1 : S2097152x1.BroadcastsInDim S2097152x64 (![0, 1] : Fin 2 → Fin S2097152x64.rank)
  bcast_S_S262144x64 : S_.BroadcastsInDim S262144x64 (![] : Fin 0 → Fin S262144x64.rank)
  shapeCasts_S64_S1x64 : S64.ShapeCasts S1x64
  inb_S1x1_S1x1_0_0 : ∀ a, (![0, 0] : Fin 2 → Nat) a + S1x1.size a ≤ S1x1.size a
  h_S1x1 : 0 < S1x1.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  reduces_S8192x64_S8192 : S8192x64.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S1x1 : S1x1.ShapeCasts S1x1
  shapeCasts_S1x1_S_ : S1x1.ShapeCasts S_
  shapeCasts_S_S1x1 : S_.ShapeCasts S1x1
  broadcasts_S1x1_S8192x64 : S1x1.Broadcasts S8192x64
  inb_S64x64_S64x64_0_0 : ∀ a, (![0, 0] : Fin 2 → Nat) a + S64x64.size a ≤ S64x64.size a
  h_S64x64 : 0 < S64x64.numel
  inb_S64x16_S64x16_0_0 : ∀ a, (![0, 0] : Fin 2 → Nat) a + S64x16.size a ≤ S64x16.size a
  h_S64x16 : 0 < S64x16.numel
  inb_S8192x16_S8192x16_0_0 : ∀ a, (![0, 0] : Fin 2 → Nat) a + S8192x16.size a ≤ S8192x16.size a
  h_S8192x16 : 0 < S8192x16.numel
  bcast_S2097152x1_S2097152x16_0_1 : S2097152x1.BroadcastsInDim S2097152x16 (![0, 1] : Fin 2 → Fin S2097152x16.rank)
  bcast_S_S262144x16 : S_.BroadcastsInDim S262144x16 (![] : Fin 0 → Fin S262144x16.rank)
  shapeCasts_S16_S1x16 : S16.ShapeCasts S1x16
  shapeCasts_S8192x16_S8192x16 : S8192x16.ShapeCasts S8192x16
  broadcasts_S8192x1_S8192x16 : S8192x1.Broadcasts S8192x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  inb_S16x1_S16x1_0_0 : ∀ a, (![0, 0] : Fin 2 → Nat) a + S16x1.size a ≤ S16x1.size a
  h_S16x1 : 0 < S16x1.numel
  bcast_S_S262144x1 : S_.BroadcastsInDim S262144x1 (![] : Fin 0 → Fin S262144x1.rank)
  broadcasts_S1x1_S8192x1 : S1x1.Broadcasts S8192x1
  shapeCasts_S262144x1_S512x512x1 : S262144x1.ShapeCasts S512x512x1
  transposes_S512x512x1_S1x512x512_2_0_1 : S512x512x1.Transposes [2, 0, 1] S1x512x512
  scatter_S262144_S2097152x1_S2097152_n_0_0_1_wf : ScatterDims.WF S262144 S2097152x1 S2097152 [] [0] [0] 1
  gather_S262144_S2097152x1_S2097152_n_0_n_n_0_1_1_wf : GatherDims.WF S262144 S2097152x1 S2097152 [] [0] [] [0] [] 1 ![1]
  dot_S8192x9_S9x64_S8192x64_1_0_0_1_n_n_wf : DotDims.WF S8192x9 S9x64 S8192x64 [1] [0] [0] [1] [] []
  gather_S262144x64_S2097152x1_S2097152x64_1_0_n_n_0_1_164_wf : GatherDims.WF S262144x64 S2097152x1 S2097152x64 [1] [0] [] [0] [] 1 ![1, 64]
  scatter_S262144x64_S2097152x1_S2097152x64_1_0_0_1_wf : ScatterDims.WF S262144x64 S2097152x1 S2097152x64 [1] [0] [0] 1
  dot_S8192x64_S64x64_S8192x64_1_0_0_1_n_n_wf : DotDims.WF S8192x64 S64x64 S8192x64 [1] [0] [0] [1] [] []
  dot_S8192x64_S64x16_S8192x16_1_0_0_1_n_n_wf : DotDims.WF S8192x64 S64x16 S8192x16 [1] [0] [0] [1] [] []
  gather_S262144x16_S2097152x1_S2097152x16_1_0_n_n_0_1_116_wf : GatherDims.WF S262144x16 S2097152x1 S2097152x16 [1] [0] [] [0] [] 1 ![1, 16]
  scatter_S262144x16_S2097152x1_S2097152x16_1_0_0_1_wf : ScatterDims.WF S262144x16 S2097152x1 S2097152x16 [1] [0] [0] 1
  dot_S8192x16_S16x1_S8192x1_1_0_0_1_n_n_wf : DotDims.WF S8192x16 S16x1 S8192x1 [1] [0] [0] [1] [] []
  gather_S262144x1_S2097152x1_S2097152x1_1_0_n_n_0_1_11_wf : GatherDims.WF S262144x1 S2097152x1 S2097152x1 [1] [0] [] [0] [] 1 ![1, 1]
  scatter_S262144x1_S2097152x1_S2097152x1_1_0_0_1_wf : ScatterDims.WF S262144x1 S2097152x1 S2097152x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x9.size a ≤ S262144x9.size a
  hwx0_0 : ∀ i : grid0.Coords, EltTy.bits .f32 = 32 ∨ (Rect.block (s := S262144x9) S8192x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x64.size a ≤ S9x64.size a
  hwx0_1 : ∀ i : grid0.Coords, EltTy.bits .f32 = 32 ∨ (Rect.block (s := S9x64) S9x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S262144x64.size a
  hwx0_2 : ∀ i : grid0.Coords, EltTy.bits .f32 = 32 ∨ (Rect.block (s := S262144x64) S8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S262144x64.size a
  hwx1_0 : ∀ i : grid1.Coords, EltTy.bits .f32 = 32 ∨ (Rect.block (s := S262144x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S262144x64.size a
  hwx1_1 : ∀ i : grid1.Coords, EltTy.bits .f32 = 32 ∨ (Rect.block (s := S262144x64) S8192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x1.size a ≤ S262144x1.size a
  hwx1_2 : ∀ i : grid1.Coords, EltTy.bits .f32 = 32 ∨ (Rect.block (s := S262144x1) S8192x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8192x64.size a ≤ S262144x64.size a
  hwx1_4 : ∀ i : grid1.Coords, EltTy.bits .f32 = 32 ∨ (Rect.block (s := S262144x64) S8192x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S262144x64.size a
  hwx2_0 : ∀ i : grid2.Coords, EltTy.bits .f32 = 32 ∨ (Rect.block (s := S262144x64) S8192x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8192x64.size a ≤ S262144x64.size a
  hwx2_5 : ∀ i : grid2.Coords, EltTy.bits .f32 = 32 ∨ (Rect.block (s := S262144x64) S8192x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x64.size a ≤ S262144x64.size a
  hwx3_0 : ∀ i : grid3.Coords, EltTy.bits .f32 = 32 ∨ (Rect.block (s := S262144x64) S8192x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x64.size a ≤ S262144x64.size a
  hwx3_2 : ∀ i : grid3.Coords, EltTy.bits .f32 = 32 ∨ (Rect.block (s := S262144x64) S8192x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x64.size a ≤ S262144x64.size a
  hwx4_0 : ∀ i : grid4.Coords, EltTy.bits .f32 = 32 ∨ (Rect.block (s := S262144x64) S8192x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x64.size a ≤ S262144x64.size a
  hwx4_1 : ∀ i : grid4.Coords, EltTy.bits .f32 = 32 ∨ (Rect.block (s := S262144x64) S8192x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x1.size a ≤ S262144x1.size a
  hwx4_2 : ∀ i : grid4.Coords, EltTy.bits .f32 = 32 ∨ (Rect.block (s := S262144x1) S8192x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8192x64.size a ≤ S262144x64.size a
  hwx4_4 : ∀ i : grid4.Coords, EltTy.bits .f32 = 32 ∨ (Rect.block (s := S262144x64) S8192x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x64.size a ≤ S262144x64.size a
  hwx5_0 : ∀ i : grid5.Coords, EltTy.bits .f32 = 32 ∨ (Rect.block (s := S262144x64) S8192x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S8192x64.size a ≤ S262144x64.size a
  hwx5_5 : ∀ i : grid5.Coords, EltTy.bits .f32 = 32 ∨ (Rect.block (s := S262144x64) S8192x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8192x64.size a ≤ S262144x64.size a
  hwx6_0 : ∀ i : grid6.Coords, EltTy.bits .f32 = 32 ∨ (Rect.block (s := S262144x64) S8192x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8192x64.size a ≤ S262144x64.size a
  hwx6_2 : ∀ i : grid6.Coords, EltTy.bits .f32 = 32 ∨ (Rect.block (s := S262144x64) S8192x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8192x64.size a ≤ S262144x64.size a
  hwx7_0 : ∀ i : grid7.Coords, EltTy.bits .f32 = 32 ∨ (Rect.block (s := S262144x64) S8192x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8192x64.size a ≤ S262144x64.size a
  hwx7_1 : ∀ i : grid7.Coords, EltTy.bits .f32 = 32 ∨ (Rect.block (s := S262144x64) S8192x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8192x1.size a ≤ S262144x1.size a
  hwx7_2 : ∀ i : grid7.Coords, EltTy.bits .f32 = 32 ∨ (Rect.block (s := S262144x1) S8192x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S8192x64.size a ≤ S262144x64.size a
  hwx7_4 : ∀ i : grid7.Coords, EltTy.bits .f32 = 32 ∨ (Rect.block (s := S262144x64) S8192x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x1.size a ≤ S1x1.size a
  hwx7_5 : ∀ i : grid7.Coords, EltTy.bits .f32 = 32 ∨ (Rect.block (s := S1x1) S1x1.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x1.size a ≤ S1x1.size a
  hwx7_6 : ∀ i : grid7.Coords, EltTy.bits .f32 = 32 ∨ (Rect.block (s := S1x1) S1x1.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8192x64.size a ≤ S262144x64.size a
  hwx8_0 : ∀ i : grid8.Coords, EltTy.bits .f32 = 32 ∨ (Rect.block (s := S262144x64) S8192x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x1.size a ≤ S1x1.size a
  hwx8_1 : ∀ i : grid8.Coords, EltTy.bits .f32 = 32 ∨ (Rect.block (s := S1x1) S1x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1.size a ≤ S1x1.size a
  hwx8_2 : ∀ i : grid8.Coords, EltTy.bits .f32 = 32 ∨ (Rect.block (s := S1x1) S1x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S8192x64.size a ≤ S262144x64.size a
  hwx8_5 : ∀ i : grid8.Coords, EltTy.bits .f32 = 32 ∨ (Rect.block (s := S262144x64) S8192x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8192x64.size a ≤ S262144x64.size a
  hwx9_0 : ∀ i : grid9.Coords, EltTy.bits .f32 = 32 ∨ (Rect.block (s := S262144x64) S8192x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x16.size a ≤ S64x16.size a
  hwx9_1 : ∀ i : grid9.Coords, EltTy.bits .f32 = 32 ∨ (Rect.block (s := S64x16) S64x16.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S8192x16.size a ≤ S262144x16.size a
  hwx9_2 : ∀ i : grid9.Coords, EltTy.bits .f32 = 32 ∨ (Rect.block (s := S262144x16) S8192x16.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S8192x16.size a ≤ S262144x16.size a
  hwx10_0 : ∀ i : grid10.Coords, EltTy.bits .f32 = 32 ∨ (Rect.block (s := S262144x16) S8192x16.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S8192x16.size a ≤ S262144x16.size a
  hwx10_1 : ∀ i : grid10.Coords, EltTy.bits .f32 = 32 ∨ (Rect.block (s := S262144x16) S8192x16.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S8192x1.size a ≤ S262144x1.size a
  hwx10_2 : ∀ i : grid10.Coords, EltTy.bits .f32 = 32 ∨ (Rect.block (s := S262144x1) S8192x1.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x16.size a ≤ S1x16.size a
  hwx10_3 : ∀ i : grid10.Coords, EltTy.bits .f32 = 32 ∨ (Rect.block (s := S1x16) S1x16.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S8192x16.size a ≤ S262144x16.size a
  hwx10_4 : ∀ i : grid10.Coords, EltTy.bits .f32 = 32 ∨ (Rect.block (s := S262144x16) S8192x16.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S8192x16.size a ≤ S262144x16.size a
  hwx11_0 : ∀ i : grid11.Coords, EltTy.bits .f32 = 32 ∨ (Rect.block (s := S262144x16) S8192x16.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S16x1.size a ≤ S16x1.size a
  hwx11_1 : ∀ i : grid11.Coords, EltTy.bits .f32 = 32 ∨ (Rect.block (s := S16x1) S16x1.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S8192x1.size a ≤ S262144x1.size a
  hwx11_2 : ∀ i : grid11.Coords, EltTy.bits .f32 = 32 ∨ (Rect.block (s := S262144x1) S8192x1.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S8192x1.size a ≤ S262144x1.size a
  hwx12_0 : ∀ i : grid12.Coords, EltTy.bits .f32 = 32 ∨ (Rect.block (s := S262144x1) S8192x1.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S8192x1.size a ≤ S262144x1.size a
  hwx12_1 : ∀ i : grid12.Coords, EltTy.bits .f32 = 32 ∨ (Rect.block (s := S262144x1) S8192x1.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S8192x1.size a ≤ S262144x1.size a
  hwx12_2 : ∀ i : grid12.Coords, EltTy.bits .f32 = 32 ∨ (Rect.block (s := S262144x1) S8192x1.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x1.size a ≤ S1x1.size a
  hwx12_3 : ∀ i : grid12.Coords, EltTy.bits .f32 = 32 ∨ (Rect.block (s := S1x1) S1x1.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S8192x1.size a ≤ S262144x1.size a
  hwx12_4 : ∀ i : grid12.Coords, EltTy.bits .f32 = 32 ∨ (Rect.block (s := S262144x1) S8192x1.size (cc12_transform_4 i) (hinb12_4 i)).WholeWords (EltTy.packing .f32)

variable [Facts₀]

def scatter_S262144_S2097152x1_S2097152_n_0_0_1 : ScatterDims S262144 S2097152x1 S2097152 where
  updateWindowDims := []
  insertedWindowDims := [0]
  scatterDimsToOperandDims := [0]
  indexVectorDim := 1
  wf := scatter_S262144_S2097152x1_S2097152_n_0_0_1_wf
def gather_S262144_S2097152x1_S2097152_n_0_n_n_0_1_1 : GatherDims S262144 S2097152x1 S2097152 where
  offsetDims := []
  collapsedSliceDims := [0]
  operandBatchingDims := []
  startIndicesBatchingDims := []
  startIndexMap := [0]
  indexVectorDim := 1
  sliceSizes := ![1]
  wf := gather_S262144_S2097152x1_S2097152_n_0_n_n_0_1_1_wf
def dot_S8192x9_S9x64_S8192x64_1_0_0_1_n_n : DotDims S8192x9 S9x64 S8192x64 where
  lhsContracting := [1]
  rhsContracting := [0]
  lhsNonContracting := [0]
  rhsNonContracting := [1]
  lhsBatch := []
  rhsBatch := []
  wf := dot_S8192x9_S9x64_S8192x64_1_0_0_1_n_n_wf
def gather_S262144x64_S2097152x1_S2097152x64_1_0_n_n_0_1_164 : GatherDims S262144x64 S2097152x1 S2097152x64 where
  offsetDims := [1]
  collapsedSliceDims := [0]
  operandBatchingDims := []
  startIndicesBatchingDims := []
  startIndexMap := [0]
  indexVectorDim := 1
  sliceSizes := ![1, 64]
  wf := gather_S262144x64_S2097152x1_S2097152x64_1_0_n_n_0_1_164_wf
def scatter_S262144x64_S2097152x1_S2097152x64_1_0_0_1 : ScatterDims S262144x64 S2097152x1 S2097152x64 where
  updateWindowDims := [1]
  insertedWindowDims := [0]
  scatterDimsToOperandDims := [0]
  indexVectorDim := 1
  wf := scatter_S262144x64_S2097152x1_S2097152x64_1_0_0_1_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def gather_S262144x16_S2097152x1_S2097152x16_1_0_n_n_0_1_116 : GatherDims S262144x16 S2097152x1 S2097152x16 where
  offsetDims := [1]
  collapsedSliceDims := [0]
  operandBatchingDims := []
  startIndicesBatchingDims := []
  startIndexMap := [0]
  indexVectorDim := 1
  sliceSizes := ![1, 16]
  wf := gather_S262144x16_S2097152x1_S2097152x16_1_0_n_n_0_1_116_wf
def scatter_S262144x16_S2097152x1_S2097152x16_1_0_0_1 : ScatterDims S262144x16 S2097152x1 S2097152x16 where
  updateWindowDims := [1]
  insertedWindowDims := [0]
  scatterDimsToOperandDims := [0]
  indexVectorDim := 1
  wf := scatter_S262144x16_S2097152x1_S2097152x16_1_0_0_1_wf
def dot_S8192x16_S16x1_S8192x1_1_0_0_1_n_n : DotDims S8192x16 S16x1 S8192x1 where
  lhsContracting := [1]
  rhsContracting := [0]
  lhsNonContracting := [0]
  rhsNonContracting := [1]
  lhsBatch := []
  rhsBatch := []
  wf := dot_S8192x16_S16x1_S8192x1_1_0_0_1_n_n_wf
def gather_S262144x1_S2097152x1_S2097152x1_1_0_n_n_0_1_11 : GatherDims S262144x1 S2097152x1 S2097152x1 where
  offsetDims := [1]
  collapsedSliceDims := [0]
  operandBatchingDims := []
  startIndicesBatchingDims := []
  startIndexMap := [0]
  indexVectorDim := 1
  sliceSizes := ![1, 1]
  wf := gather_S262144x1_S2097152x1_S2097152x1_1_0_n_n_0_1_11_wf
def scatter_S262144x1_S2097152x1_S2097152x1_1_0_0_1 : ScatterDims S262144x1 S2097152x1 S2097152x1 where
  updateWindowDims := [1]
  insertedWindowDims := [0]
  scatterDimsToOperandDims := [0]
  indexVectorDim := 1
  wf := scatter_S262144x1_S2097152x1_S2097152x1_1_0_0_1_wf

abbrev win0_0 : Pipeline.Window sig grid0 :=
  Pipeline.Window.ofSpec (Memref.whole main_arg0) S8192x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S9x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S8192x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43_0) S8192x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43_1) S1x1.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43_2) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43_0) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S8192x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v58) S8192x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S8192x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v72) S8192x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S8192x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v27) S8192x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v73) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v74_0) S8192x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v74_1) S1x1.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v74_2) S1x1.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v74_0) S8192x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v86) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v87) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v88) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v89) S8192x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v89) S8192x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v90) S8192x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v103) S8192x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v90) S8192x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v27) S8192x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v104) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v105_0) S8192x64.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v105_1) S1x1.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v105_2) S1x1.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v105_0) S8192x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v116) S1x1.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v117) S1x1.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v118) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v119) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v120) S8192x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v120) S8192x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg8) S64x16.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v121) S8192x16.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v134) S8192x16.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v121) S8192x16.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v27) S8192x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v135) S1x16.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v136) S8192x16.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v136) S8192x16.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg10) S16x1.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v137) S8192x1.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v149) S8192x1.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v137) S8192x1.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v27) S8192x1.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v150) S1x1.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v151) S8192x1.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

class Facts : Prop extends Facts₀ where

variable [Facts]
-- ==== ReferenceIdeal.lean ====
abbrev S262144x9 : Shape := ⟨2, ![262144, 9]⟩
abbrev S2x2097152 : Shape := ⟨2, ![2, 2097152]⟩
abbrev S9x64 : Shape := ⟨2, ![9, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S1x2097152 : Shape := ⟨2, ![1, 2097152]⟩
abbrev S2097152 : Shape := ⟨1, ![2097152]⟩
abbrev S_ : Shape := ⟨0, ![]⟩
abbrev S262144 : Shape := ⟨1, ![262144]⟩
abbrev S2097152x1 : Shape := ⟨2, ![2097152, 1]⟩
abbrev S262144x64 : Shape := ⟨2, ![262144, 64]⟩
abbrev S2097152x64 : Shape := ⟨2, ![2097152, 64]⟩
abbrev S262144x1 : Shape := ⟨2, ![262144, 1]⟩
abbrev S1x64 : Shape := ⟨2, ![1, 64]⟩
abbrev S262144x16 : Shape := ⟨2, ![262144, 16]⟩
abbrev S2097152x16 : Shape := ⟨2, ![2097152, 16]⟩
abbrev S1x16 : Shape := ⟨2, ![1, 16]⟩
abbrev S1x1 : Shape := ⟨2, ![1, 1]⟩
abbrev S512x512x1 : Shape := ⟨3, ![512, 512, 1]⟩
abbrev S1x512x512 : Shape := ⟨3, ![1, 512, 512]⟩

abbrev nBuf : Space → Nat
  | .hbm => 391
  | .vmem => 0
  | .smem => 0
  | _ => 0

abbrev hbmTy0_0 (i : Nat) : BufTy := match i % 128 with
  | 0 => ⟨S262144x9, .f32⟩
  | 1 => ⟨S2x2097152, .i32⟩
  | 2 => ⟨S9x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x16, .f32⟩
  | 9 => ⟨S16, .f32⟩
  | 10 => ⟨S16x1, .f32⟩
  | 11 => ⟨S1, .f32⟩
  | 12 => ⟨S64, .f32⟩
  | 13 => ⟨S64, .f32⟩
  | 14 => ⟨S64, .f32⟩
  | 15 => ⟨S64, .f32⟩
  | 16 => ⟨S1x2097152, .i32⟩
  | 17 => ⟨S2097152, .i32⟩
  | 18 => ⟨S1x2097152, .i32⟩
  | 19 => ⟨S2097152, .i32⟩
  | 20 => ⟨S_, .f32⟩
  | 21 => ⟨S2097152, .f32⟩
  | 22 => ⟨S_, .f32⟩
  | 23 => ⟨S262144, .f32⟩
  | 24 => ⟨S2097152x1, .i32⟩
  | 25 => ⟨S262144, .f32⟩
  | 26 => ⟨S_, .f32⟩
  | 27 => ⟨S262144, .f32⟩
  | 28 => ⟨S262144, .f32⟩
  | 29 => ⟨S262144, .f32⟩
  | 30 => ⟨S262144x64, .f32⟩
  | 31 => ⟨S_, .i32⟩
  | 32 => ⟨S2097152, .i32⟩
  | 33 => ⟨S2097152, .i1⟩
  | 34 => ⟨S_, .i32⟩
  | 35 => ⟨S2097152, .i32⟩
  | 36 => ⟨S2097152, .i32⟩
  | 37 => ⟨S2097152, .i32⟩
  | 38 => ⟨S2097152x1, .i32⟩
  | 39 => ⟨S2097152, .f32⟩
  | 40 => ⟨S_, .i32⟩
  | 41 => ⟨S2097152, .i32⟩
  | 42 => ⟨S2097152, .i1⟩
  | 43 => ⟨S_, .i32⟩
  | 44 => ⟨S2097152, .i32⟩
  | 45 => ⟨S2097152, .i32⟩
  | 46 => ⟨S2097152, .i32⟩
  | 47 => ⟨S2097152x1, .i32⟩
  | 48 => ⟨S2097152, .f32⟩
  | 49 => ⟨S2097152, .f32⟩
  | 50 => ⟨S2097152x1, .f32⟩
  | 51 => ⟨S_, .i32⟩
  | 52 => ⟨S2097152, .i32⟩
  | 53 => ⟨S2097152, .i1⟩
  | 54 => ⟨S_, .i32⟩
  | 55 => ⟨S2097152, .i32⟩
  | 56 => ⟨S2097152, .i32⟩
  | 57 => ⟨S2097152, .i32⟩
  | 58 => ⟨S2097152x1, .i32⟩
  | 59 => ⟨S2097152x64, .f32⟩
  | 60 => ⟨S2097152x64, .f32⟩
  | 61 => ⟨S2097152x64, .f32⟩
  | 62 => ⟨S_, .f32⟩
  | 63 => ⟨S262144x64, .f32⟩
  | 64 => ⟨S2097152x1, .i32⟩
  | 65 => ⟨S262144x64, .f32⟩
  | 66 => ⟨S262144, .f32⟩
  | 67 => ⟨S262144x1, .f32⟩
  | 68 => ⟨S262144x64, .f32⟩
  | 69 => ⟨S262144x64, .f32⟩
  | 70 => ⟨S262144x64, .f32⟩
  | 71 => ⟨S1x64, .f32⟩
  | 72 => ⟨S262144x64, .f32⟩
  | 73 => ⟨S262144x64, .f32⟩
  | 74 => ⟨S_, .f32⟩
  | 75 => ⟨S_, .f32⟩
  | 76 => ⟨S_, .f32⟩
  | 77 => ⟨S_, .f32⟩
  | 78 => ⟨S262144x64, .f32⟩
  | 79 => ⟨S262144x64, .f32⟩
  | 80 => ⟨S262144x64, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S262144x64, .f32⟩
  | 89 => ⟨S262144x64, .f32⟩
  | 90 => ⟨S1x64, .f32⟩
  | 91 => ⟨S262144x64, .f32⟩
  | 92 => ⟨S262144x64, .f32⟩
  | 93 => ⟨S1x64, .f32⟩
  | 94 => ⟨S262144x64, .f32⟩
  | 95 => ⟨S262144x64, .f32⟩
  | 96 => ⟨S_, .f32⟩
  | 97 => ⟨S262144x64, .f32⟩
  | 98 => ⟨S262144x64, .i1⟩
  | 99 => ⟨S_, .f32⟩
  | 100 => ⟨S262144x64, .f32⟩
  | 101 => ⟨S262144x64, .i1⟩
  | 102 => ⟨S_, .f32⟩
  | 103 => ⟨S_, .f32⟩
  | 104 => ⟨S262144x64, .f32⟩
  | 105 => ⟨S262144x64, .f32⟩
  | 106 => ⟨S262144x64, .f32⟩
  | 107 => ⟨S_, .f32⟩
  | 108 => ⟨S262144x64, .f32⟩
  | 109 => ⟨S262144x64, .f32⟩
  | 110 => ⟨S262144x64, .f32⟩
  | 111 => ⟨S262144x64, .f32⟩
  | 112 => ⟨S_, .i32⟩
  | 113 => ⟨S2097152, .i32⟩
  | 114 => ⟨S2097152, .i1⟩
  | 115 => ⟨S_, .i32⟩
  | 116 => ⟨S2097152, .i32⟩
  | 117 => ⟨S2097152, .i32⟩
  | 118 => ⟨S2097152, .i32⟩
  | 119 => ⟨S2097152x1, .i32⟩
  | 120 => ⟨S2097152, .f32⟩
  | 121 => ⟨S_, .i32⟩
  | 122 => ⟨S2097152, .i32⟩
  | 123 => ⟨S2097152, .i1⟩
  | 124 => ⟨S_, .i32⟩
  | 125 => ⟨S2097152, .i32⟩
  | 126 => ⟨S2097152, .i32⟩
  | 127 => ⟨S2097152, .i32⟩
  | _ => ⟨S262144x9, .f32⟩

abbrev hbmTy0_1 (i : Nat) : BufTy := match i % 128 with
  | 0 => ⟨S2097152x1, .i32⟩
  | 1 => ⟨S2097152, .f32⟩
  | 2 => ⟨S2097152, .f32⟩
  | 3 => ⟨S2097152x1, .f32⟩
  | 4 => ⟨S_, .i32⟩
  | 5 => ⟨S2097152, .i32⟩
  | 6 => ⟨S2097152, .i1⟩
  | 7 => ⟨S_, .i32⟩
  | 8 => ⟨S2097152, .i32⟩
  | 9 => ⟨S2097152, .i32⟩
  | 10 => ⟨S2097152, .i32⟩
  | 11 => ⟨S2097152x1, .i32⟩
  | 12 => ⟨S2097152x64, .f32⟩
  | 13 => ⟨S2097152x64, .f32⟩
  | 14 => ⟨S2097152x64, .f32⟩
  | 15 => ⟨S_, .f32⟩
  | 16 => ⟨S262144x64, .f32⟩
  | 17 => ⟨S2097152x1, .i32⟩
  | 18 => ⟨S262144x64, .f32⟩
  | 19 => ⟨S262144, .f32⟩
  | 20 => ⟨S262144x1, .f32⟩
  | 21 => ⟨S262144x64, .f32⟩
  | 22 => ⟨S262144x64, .f32⟩
  | 23 => ⟨S262144x64, .f32⟩
  | 24 => ⟨S1x64, .f32⟩
  | 25 => ⟨S262144x64, .f32⟩
  | 26 => ⟨S262144x64, .f32⟩
  | 27 => ⟨S_, .f32⟩
  | 28 => ⟨S_, .f32⟩
  | 29 => ⟨S_, .f32⟩
  | 30 => ⟨S_, .f32⟩
  | 31 => ⟨S262144x64, .f32⟩
  | 32 => ⟨S262144x64, .f32⟩
  | 33 => ⟨S262144x64, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S262144x64, .f32⟩
  | 42 => ⟨S262144x64, .f32⟩
  | 43 => ⟨S1x64, .f32⟩
  | 44 => ⟨S262144x64, .f32⟩
  | 45 => ⟨S262144x64, .f32⟩
  | 46 => ⟨S1x64, .f32⟩
  | 47 => ⟨S262144x64, .f32⟩
  | 48 => ⟨S262144x64, .f32⟩
  | 49 => ⟨S_, .f32⟩
  | 50 => ⟨S262144x64, .f32⟩
  | 51 => ⟨S262144x64, .i1⟩
  | 52 => ⟨S_, .f32⟩
  | 53 => ⟨S262144x64, .f32⟩
  | 54 => ⟨S262144x64, .i1⟩
  | 55 => ⟨S_, .f32⟩
  | 56 => ⟨S_, .f32⟩
  | 57 => ⟨S262144x64, .f32⟩
  | 58 => ⟨S262144x64, .f32⟩
  | 59 => ⟨S262144x64, .f32⟩
  | 60 => ⟨S_, .f32⟩
  | 61 => ⟨S262144x64, .f32⟩
  | 62 => ⟨S262144x64, .f32⟩
  | 63 => ⟨S262144x64, .f32⟩
  | 64 => ⟨S262144x64, .f32⟩
  | 65 => ⟨S_, .i32⟩
  | 66 => ⟨S2097152, .i32⟩
  | 67 => ⟨S2097152, .i1⟩
  | 68 => ⟨S_, .i32⟩
  | 69 => ⟨S2097152, .i32⟩
  | 70 => ⟨S2097152, .i32⟩
  | 71 => ⟨S2097152, .i32⟩
  | 72 => ⟨S2097152x1, .i32⟩
  | 73 => ⟨S2097152, .f32⟩
  | 74 => ⟨S_, .i32⟩
  | 75 => ⟨S2097152, .i32⟩
  | 76 => ⟨S2097152, .i1⟩
  | 77 => ⟨S_, .i32⟩
  | 78 => ⟨S2097152, .i32⟩
  | 79 => ⟨S2097152, .i32⟩
  | 80 => ⟨S2097152, .i32⟩
  | 81 => ⟨S2097152x1, .i32⟩
  | 82 => ⟨S2097152, .f32⟩
  | 83 => ⟨S2097152, .f32⟩
  | 84 => ⟨S2097152x1, .f32⟩
  | 85 => ⟨S_, .i32⟩
  | 86 => ⟨S2097152, .i32⟩
  | 87 => ⟨S2097152, .i1⟩
  | 88 => ⟨S_, .i32⟩
  | 89 => ⟨S2097152, .i32⟩
  | 90 => ⟨S2097152, .i32⟩
  | 91 => ⟨S2097152, .i32⟩
  | 92 => ⟨S2097152x1, .i32⟩
  | 93 => ⟨S2097152x64, .f32⟩
  | 94 => ⟨S2097152x64, .f32⟩
  | 95 => ⟨S2097152x64, .f32⟩
  | 96 => ⟨S_, .f32⟩
  | 97 => ⟨S262144x64, .f32⟩
  | 98 => ⟨S2097152x1, .i32⟩
  | 99 => ⟨S262144x64, .f32⟩
  | 100 => ⟨S262144, .f32⟩
  | 101 => ⟨S262144x1, .f32⟩
  | 102 => ⟨S262144x64, .f32⟩
  | 103 => ⟨S262144x64, .f32⟩
  | 104 => ⟨S262144x64, .f32⟩
  | 105 => ⟨S1x64, .f32⟩
  | 106 => ⟨S262144x64, .f32⟩
  | 107 => ⟨S262144x64, .f32⟩
  | 108 => ⟨S_, .f32⟩
  | 109 => ⟨S_, .f32⟩
  | 110 => ⟨S_, .f32⟩
  | 111 => ⟨S_, .f32⟩
  | 112 => ⟨S262144x64, .f32⟩
  | 113 => ⟨S262144x64, .f32⟩
  | 114 => ⟨S262144x64, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S262144x64, .f32⟩
  | 123 => ⟨S262144x64, .f32⟩
  | 124 => ⟨S1x64, .f32⟩
  | 125 => ⟨S262144x64, .f32⟩
  | 126 => ⟨S262144x64, .f32⟩
  | 127 => ⟨S1x64, .f32⟩
  | _ => ⟨S262144x9, .f32⟩

abbrev hbmTy0_2 (i : Nat) : BufTy := match i % 128 with
  | 0 => ⟨S262144x64, .f32⟩
  | 1 => ⟨S262144x64, .f32⟩
  | 2 => ⟨S_, .f32⟩
  | 3 => ⟨S262144x64, .f32⟩
  | 4 => ⟨S262144x64, .i1⟩
  | 5 => ⟨S_, .f32⟩
  | 6 => ⟨S262144x64, .f32⟩
  | 7 => ⟨S262144x64, .i1⟩
  | 8 => ⟨S_, .f32⟩
  | 9 => ⟨S_, .f32⟩
  | 10 => ⟨S262144x64, .f32⟩
  | 11 => ⟨S262144x64, .f32⟩
  | 12 => ⟨S262144x64, .f32⟩
  | 13 => ⟨S_, .f32⟩
  | 14 => ⟨S262144x64, .f32⟩
  | 15 => ⟨S262144x64, .f32⟩
  | 16 => ⟨S262144x64, .f32⟩
  | 17 => ⟨S262144x16, .f32⟩
  | 18 => ⟨S_, .i32⟩
  | 19 => ⟨S2097152, .i32⟩
  | 20 => ⟨S2097152, .i1⟩
  | 21 => ⟨S_, .i32⟩
  | 22 => ⟨S2097152, .i32⟩
  | 23 => ⟨S2097152, .i32⟩
  | 24 => ⟨S2097152, .i32⟩
  | 25 => ⟨S2097152x1, .i32⟩
  | 26 => ⟨S2097152, .f32⟩
  | 27 => ⟨S_, .i32⟩
  | 28 => ⟨S2097152, .i32⟩
  | 29 => ⟨S2097152, .i1⟩
  | 30 => ⟨S_, .i32⟩
  | 31 => ⟨S2097152, .i32⟩
  | 32 => ⟨S2097152, .i32⟩
  | 33 => ⟨S2097152, .i32⟩
  | 34 => ⟨S2097152x1, .i32⟩
  | 35 => ⟨S2097152, .f32⟩
  | 36 => ⟨S2097152, .f32⟩
  | 37 => ⟨S2097152x1, .f32⟩
  | 38 => ⟨S_, .i32⟩
  | 39 => ⟨S2097152, .i32⟩
  | 40 => ⟨S2097152, .i1⟩
  | 41 => ⟨S_, .i32⟩
  | 42 => ⟨S2097152, .i32⟩
  | 43 => ⟨S2097152, .i32⟩
  | 44 => ⟨S2097152, .i32⟩
  | 45 => ⟨S2097152x1, .i32⟩
  | 46 => ⟨S2097152x16, .f32⟩
  | 47 => ⟨S2097152x16, .f32⟩
  | 48 => ⟨S2097152x16, .f32⟩
  | 49 => ⟨S_, .f32⟩
  | 50 => ⟨S262144x16, .f32⟩
  | 51 => ⟨S2097152x1, .i32⟩
  | 52 => ⟨S262144x16, .f32⟩
  | 53 => ⟨S262144, .f32⟩
  | 54 => ⟨S262144x1, .f32⟩
  | 55 => ⟨S262144x16, .f32⟩
  | 56 => ⟨S262144x16, .f32⟩
  | 57 => ⟨S262144x16, .f32⟩
  | 58 => ⟨S1x16, .f32⟩
  | 59 => ⟨S262144x16, .f32⟩
  | 60 => ⟨S262144x16, .f32⟩
  | 61 => ⟨S_, .f32⟩
  | 62 => ⟨S262144x16, .f32⟩
  | 63 => ⟨S262144x16, .i1⟩
  | 64 => ⟨S_, .f32⟩
  | 65 => ⟨S262144x16, .f32⟩
  | 66 => ⟨S262144x16, .i1⟩
  | 67 => ⟨S_, .f32⟩
  | 68 => ⟨S_, .f32⟩
  | 69 => ⟨S262144x16, .f32⟩
  | 70 => ⟨S262144x16, .f32⟩
  | 71 => ⟨S262144x16, .f32⟩
  | 72 => ⟨S_, .f32⟩
  | 73 => ⟨S262144x16, .f32⟩
  | 74 => ⟨S262144x16, .f32⟩
  | 75 => ⟨S262144x16, .f32⟩
  | 76 => ⟨S262144x1, .f32⟩
  | 77 => ⟨S_, .i32⟩
  | 78 => ⟨S2097152, .i32⟩
  | 79 => ⟨S2097152, .i1⟩
  | 80 => ⟨S_, .i32⟩
  | 81 => ⟨S2097152, .i32⟩
  | 82 => ⟨S2097152, .i32⟩
  | 83 => ⟨S2097152, .i32⟩
  | 84 => ⟨S2097152x1, .i32⟩
  | 85 => ⟨S2097152, .f32⟩
  | 86 => ⟨S_, .i32⟩
  | 87 => ⟨S2097152, .i32⟩
  | 88 => ⟨S2097152, .i1⟩
  | 89 => ⟨S_, .i32⟩
  | 90 => ⟨S2097152, .i32⟩
  | 91 => ⟨S2097152, .i32⟩
  | 92 => ⟨S2097152, .i32⟩
  | 93 => ⟨S2097152x1, .i32⟩
  | 94 => ⟨S2097152, .f32⟩
  | 95 => ⟨S2097152, .f32⟩
  | 96 => ⟨S2097152x1, .f32⟩
  | 97 => ⟨S_, .i32⟩
  | 98 => ⟨S2097152, .i32⟩
  | 99 => ⟨S2097152, .i1⟩
  | 100 => ⟨S_, .i32⟩
  | 101 => ⟨S2097152, .i32⟩
  | 102 => ⟨S2097152, .i32⟩
  | 103 => ⟨S2097152, .i32⟩
  | 104 => ⟨S2097152x1, .i32⟩
  | 105 => ⟨S2097152x1, .f32⟩
  | 106 => ⟨S2097152x1, .f32⟩
  | 107 => ⟨S_, .f32⟩
  | 108 => ⟨S262144x1, .f32⟩
  | 109 => ⟨S2097152x1, .i32⟩
  | 110 => ⟨S262144x1, .f32⟩
  | 111 => ⟨S262144, .f32⟩
  | 112 => ⟨S262144x1, .f32⟩
  | 113 => ⟨S262144x1, .f32⟩
  | 114 => ⟨S262144x1, .f32⟩
  | 115 => ⟨S1x1, .f32⟩
  | 116 => ⟨S262144x1, .f32⟩
  | 117 => ⟨S262144x1, .f32⟩
  | 118 => ⟨S_, .f32⟩
  | 119 => ⟨S262144x1, .f32⟩
  | 120 => ⟨S262144x1, .i1⟩
  | 121 => ⟨S_, .f32⟩
  | 122 => ⟨S262144x1, .f32⟩
  | 123 => ⟨S262144x1, .i1⟩
  | 124 => ⟨S_, .f32⟩
  | 125 => ⟨S_, .f32⟩
  | 126 => ⟨S262144x1, .f32⟩
  | 127 => ⟨S262144x1, .f32⟩
  | _ => ⟨S262144x9, .f32⟩

abbrev hbmTy0_3 (i : Nat) : BufTy := match i % 128 with
  | 0 => ⟨S262144x1, .f32⟩
  | 1 => ⟨S_, .f32⟩
  | 2 => ⟨S262144x1, .f32⟩
  | 3 => ⟨S262144x1, .f32⟩
  | 4 => ⟨S262144x1, .f32⟩
  | 5 => ⟨S512x512x1, .f32⟩
  | 6 => ⟨S1x512x512, .f32⟩
  | _ => ⟨S262144x9, .f32⟩

abbrev hbmTy (i : Nat) : BufTy := match i / 128 with
  | 0 => hbmTy0_0 i
  | 1 => hbmTy0_1 i
  | 2 => hbmTy0_2 i
  | 3 => hbmTy0_3 i
  | _ => ⟨S262144x9, .f32⟩

abbrev bufTy : (tb : Table) → Fin (tcTables nBuf tb) → BufTy
  | .hbm, ⟨i, _⟩ => hbmTy i
  | _, _ => ⟨S262144x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_5 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_v55 : Ref sig .tc := ⟨.hbm, 85, rfl⟩
abbrev main_cst_12 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call0_cst : Ref sig .tc := ⟨.hbm, 96, rfl⟩
abbrev main_call0_v0 : Ref sig .tc := ⟨.hbm, 97, rfl⟩
abbrev main_call0_v1 : Ref sig .tc := ⟨.hbm, 98, rfl⟩
abbrev main_call0_cst_0 : Ref sig .tc := ⟨.hbm, 99, rfl⟩
abbrev main_call0_v2 : Ref sig .tc := ⟨.hbm, 100, rfl⟩
abbrev main_call0_v3 : Ref sig .tc := ⟨.hbm, 101, rfl⟩
abbrev main_call0_cst_1 : Ref sig .tc := ⟨.hbm, 102, rfl⟩
abbrev main_call0_call0_v0 : Ref sig .tc := ⟨.hbm, 103, rfl⟩
abbrev main_call0_call0_v1 : Ref sig .tc := ⟨.hbm, 104, rfl⟩
abbrev main_call0_v4 : Ref sig .tc := ⟨.hbm, 105, rfl⟩
abbrev main_call0_v5 : Ref sig .tc := ⟨.hbm, 106, rfl⟩
abbrev main_call0_cst_2 : Ref sig .tc := ⟨.hbm, 107, rfl⟩
abbrev main_call0_v6 : Ref sig .tc := ⟨.hbm, 108, rfl⟩
abbrev main_call0_v7 : Ref sig .tc := ⟨.hbm, 109, rfl⟩
abbrev main_v65 : Ref sig .tc := ⟨.hbm, 110, rfl⟩
abbrev main_v66 : Ref sig .tc := ⟨.hbm, 111, rfl⟩
abbrev main_c_13 : Ref sig .tc := ⟨.hbm, 112, rfl⟩
abbrev main_v67 : Ref sig .tc := ⟨.hbm, 113, rfl⟩
abbrev main_v68 : Ref sig .tc := ⟨.hbm, 114, rfl⟩
abbrev main_c_14 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_c_15 : Ref sig .tc := ⟨.hbm, 121, rfl⟩
abbrev main_v74 : Ref sig .tc := ⟨.hbm, 122, rfl⟩
abbrev main_v75 : Ref sig .tc := ⟨.hbm, 123, rfl⟩
abbrev main_c_16 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_c_17 : Ref sig .tc := ⟨.hbm, 132, rfl⟩
abbrev main_v83 : Ref sig .tc := ⟨.hbm, 133, rfl⟩
abbrev main_v84 : Ref sig .tc := ⟨.hbm, 134, rfl⟩
abbrev main_c_18 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_cst_19 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_20 : Ref sig .tc := ⟨.hbm, 155, rfl⟩
abbrev main_v103 : Ref sig .tc := ⟨.hbm, 156, rfl⟩
abbrev main_cst_21 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_cst_22 : Ref sig .tc := ⟨.hbm, 162, rfl⟩
abbrev main_v108 : Ref sig .tc := ⟨.hbm, 163, rfl⟩
abbrev main_cst_23 : Ref sig .tc := ⟨.hbm, 164, rfl⟩
abbrev main_v109 : Ref sig .tc := ⟨.hbm, 165, rfl⟩
abbrev main_v110 : Ref sig .tc := ⟨.hbm, 166, rfl⟩
abbrev main_cst_24 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_call1_cst : Ref sig .tc := ⟨.hbm, 177, rfl⟩
abbrev main_call1_v0 : Ref sig .tc := ⟨.hbm, 178, rfl⟩
abbrev main_call1_v1 : Ref sig .tc := ⟨.hbm, 179, rfl⟩
abbrev main_call1_cst_0 : Ref sig .tc := ⟨.hbm, 180, rfl⟩
abbrev main_call1_v2 : Ref sig .tc := ⟨.hbm, 181, rfl⟩
abbrev main_call1_v3 : Ref sig .tc := ⟨.hbm, 182, rfl⟩
abbrev main_call1_cst_1 : Ref sig .tc := ⟨.hbm, 183, rfl⟩
abbrev main_call1_call0_v0 : Ref sig .tc := ⟨.hbm, 184, rfl⟩
abbrev main_call1_call0_v1 : Ref sig .tc := ⟨.hbm, 185, rfl⟩
abbrev main_call1_v4 : Ref sig .tc := ⟨.hbm, 186, rfl⟩
abbrev main_call1_v5 : Ref sig .tc := ⟨.hbm, 187, rfl⟩
abbrev main_call1_cst_2 : Ref sig .tc := ⟨.hbm, 188, rfl⟩
abbrev main_call1_v6 : Ref sig .tc := ⟨.hbm, 189, rfl⟩
abbrev main_call1_v7 : Ref sig .tc := ⟨.hbm, 190, rfl⟩
abbrev main_v120 : Ref sig .tc := ⟨.hbm, 191, rfl⟩
abbrev main_v121 : Ref sig .tc := ⟨.hbm, 192, rfl⟩
abbrev main_c_25 : Ref sig .tc := ⟨.hbm, 193, rfl⟩
abbrev main_v122 : Ref sig .tc := ⟨.hbm, 194, rfl⟩
abbrev main_v123 : Ref sig .tc := ⟨.hbm, 195, rfl⟩
abbrev main_c_26 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_c_27 : Ref sig .tc := ⟨.hbm, 202, rfl⟩
abbrev main_v129 : Ref sig .tc := ⟨.hbm, 203, rfl⟩
abbrev main_v130 : Ref sig .tc := ⟨.hbm, 204, rfl⟩
abbrev main_c_28 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_c_29 : Ref sig .tc := ⟨.hbm, 213, rfl⟩
abbrev main_v138 : Ref sig .tc := ⟨.hbm, 214, rfl⟩
abbrev main_v139 : Ref sig .tc := ⟨.hbm, 215, rfl⟩
abbrev main_c_30 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_cst_31 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_cst_32 : Ref sig .tc := ⟨.hbm, 236, rfl⟩
abbrev main_v158 : Ref sig .tc := ⟨.hbm, 237, rfl⟩
abbrev main_cst_33 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_cst_34 : Ref sig .tc := ⟨.hbm, 243, rfl⟩
abbrev main_v163 : Ref sig .tc := ⟨.hbm, 244, rfl⟩
abbrev main_cst_35 : Ref sig .tc := ⟨.hbm, 245, rfl⟩
abbrev main_v164 : Ref sig .tc := ⟨.hbm, 246, rfl⟩
abbrev main_v165 : Ref sig .tc := ⟨.hbm, 247, rfl⟩
abbrev main_cst_36 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_call2_cst : Ref sig .tc := ⟨.hbm, 258, rfl⟩
abbrev main_call2_v0 : Ref sig .tc := ⟨.hbm, 259, rfl⟩
abbrev main_call2_v1 : Ref sig .tc := ⟨.hbm, 260, rfl⟩
abbrev main_call2_cst_0 : Ref sig .tc := ⟨.hbm, 261, rfl⟩
abbrev main_call2_v2 : Ref sig .tc := ⟨.hbm, 262, rfl⟩
abbrev main_call2_v3 : Ref sig .tc := ⟨.hbm, 263, rfl⟩
abbrev main_call2_cst_1 : Ref sig .tc := ⟨.hbm, 264, rfl⟩
abbrev main_call2_call0_v0 : Ref sig .tc := ⟨.hbm, 265, rfl⟩
abbrev main_call2_call0_v1 : Ref sig .tc := ⟨.hbm, 266, rfl⟩
abbrev main_call2_v4 : Ref sig .tc := ⟨.hbm, 267, rfl⟩
abbrev main_call2_v5 : Ref sig .tc := ⟨.hbm, 268, rfl⟩
abbrev main_call2_cst_2 : Ref sig .tc := ⟨.hbm, 269, rfl⟩
abbrev main_call2_v6 : Ref sig .tc := ⟨.hbm, 270, rfl⟩
abbrev main_call2_v7 : Ref sig .tc := ⟨.hbm, 271, rfl⟩
abbrev main_v175 : Ref sig .tc := ⟨.hbm, 272, rfl⟩
abbrev main_v176 : Ref sig .tc := ⟨.hbm, 273, rfl⟩
abbrev main_c_37 : Ref sig .tc := ⟨.hbm, 274, rfl⟩
abbrev main_v177 : Ref sig .tc := ⟨.hbm, 275, rfl⟩
abbrev main_v178 : Ref sig .tc := ⟨.hbm, 276, rfl⟩
abbrev main_c_38 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_v182 : Ref sig .tc := ⟨.hbm, 281, rfl⟩
abbrev main_v183 : Ref sig .tc := ⟨.hbm, 282, rfl⟩
abbrev main_c_39 : Ref sig .tc := ⟨.hbm, 283, rfl⟩
abbrev main_v184 : Ref sig .tc := ⟨.hbm, 284, rfl⟩
abbrev main_v185 : Ref sig .tc := ⟨.hbm, 285, rfl⟩
abbrev main_c_40 : Ref sig .tc := ⟨.hbm, 286, rfl⟩
abbrev main_v186 : Ref sig .tc := ⟨.hbm, 287, rfl⟩
abbrev main_v187 : Ref sig .tc := ⟨.hbm, 288, rfl⟩
abbrev main_v188 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_v192 : Ref sig .tc := ⟨.hbm, 293, rfl⟩
abbrev main_c_41 : Ref sig .tc := ⟨.hbm, 294, rfl⟩
abbrev main_v193 : Ref sig .tc := ⟨.hbm, 295, rfl⟩
abbrev main_v194 : Ref sig .tc := ⟨.hbm, 296, rfl⟩
abbrev main_c_42 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_cst_43 : Ref sig .tc := ⟨.hbm, 305, rfl⟩
abbrev main_v202 : Ref sig .tc := ⟨.hbm, 306, rfl⟩
abbrev main_v203 : Ref sig .tc := ⟨.hbm, 307, rfl⟩
abbrev main_v204 : Ref sig .tc := ⟨.hbm, 308, rfl⟩
abbrev main_v205 : Ref sig .tc := ⟨.hbm, 309, rfl⟩
abbrev main_v206 : Ref sig .tc := ⟨.hbm, 310, rfl⟩
abbrev main_v207 : Ref sig .tc := ⟨.hbm, 311, rfl⟩
abbrev main_v208 : Ref sig .tc := ⟨.hbm, 312, rfl⟩
abbrev main_v209 : Ref sig .tc := ⟨.hbm, 313, rfl⟩
abbrev main_v210 : Ref sig .tc := ⟨.hbm, 314, rfl⟩
abbrev main_v211 : Ref sig .tc := ⟨.hbm, 315, rfl⟩
abbrev main_v212 : Ref sig .tc := ⟨.hbm, 316, rfl⟩
abbrev main_call3_cst : Ref sig .tc := ⟨.hbm, 317, rfl⟩
abbrev main_call3_v0 : Ref sig .tc := ⟨.hbm, 318, rfl⟩
abbrev main_call3_v1 : Ref sig .tc := ⟨.hbm, 319, rfl⟩
abbrev main_call3_cst_0 : Ref sig .tc := ⟨.hbm, 320, rfl⟩
abbrev main_call3_v2 : Ref sig .tc := ⟨.hbm, 321, rfl⟩
abbrev main_call3_v3 : Ref sig .tc := ⟨.hbm, 322, rfl⟩
abbrev main_call3_cst_1 : Ref sig .tc := ⟨.hbm, 323, rfl⟩
abbrev main_call3_call0_v0 : Ref sig .tc := ⟨.hbm, 324, rfl⟩
abbrev main_call3_call0_v1 : Ref sig .tc := ⟨.hbm, 325, rfl⟩
abbrev main_call3_v4 : Ref sig .tc := ⟨.hbm, 326, rfl⟩
abbrev main_call3_v5 : Ref sig .tc := ⟨.hbm, 327, rfl⟩
abbrev main_call3_cst_2 : Ref sig .tc := ⟨.hbm, 328, rfl⟩
abbrev main_call3_v6 : Ref sig .tc := ⟨.hbm, 329, rfl⟩
abbrev main_call3_v7 : Ref sig .tc := ⟨.hbm, 330, rfl⟩
abbrev main_v213 : Ref sig .tc := ⟨.hbm, 331, rfl⟩
abbrev main_v214 : Ref sig .tc := ⟨.hbm, 332, rfl⟩
abbrev main_c_44 : Ref sig .tc := ⟨.hbm, 333, rfl⟩
abbrev main_v215 : Ref sig .tc := ⟨.hbm, 334, rfl⟩
abbrev main_v216 : Ref sig .tc := ⟨.hbm, 335, rfl⟩
abbrev main_c_45 : Ref sig .tc := ⟨.hbm, 336, rfl⟩
abbrev main_v217 : Ref sig .tc := ⟨.hbm, 337, rfl⟩
abbrev main_v218 : Ref sig .tc := ⟨.hbm, 338, rfl⟩
abbrev main_v219 : Ref sig .tc := ⟨.hbm, 339, rfl⟩
abbrev main_v220 : Ref sig .tc := ⟨.hbm, 340, rfl⟩
abbrev main_v221 : Ref sig .tc := ⟨.hbm, 341, rfl⟩
abbrev main_c_46 : Ref sig .tc := ⟨.hbm, 342, rfl⟩
abbrev main_v222 : Ref sig .tc := ⟨.hbm, 343, rfl⟩
abbrev main_v223 : Ref sig .tc := ⟨.hbm, 344, rfl⟩
abbrev main_c_47 : Ref sig .tc := ⟨.hbm, 345, rfl⟩
abbrev main_v224 : Ref sig .tc := ⟨.hbm, 346, rfl⟩
abbrev main_v225 : Ref sig .tc := ⟨.hbm, 347, rfl⟩
abbrev main_v226 : Ref sig .tc := ⟨.hbm, 348, rfl⟩
abbrev main_v227 : Ref sig .tc := ⟨.hbm, 349, rfl⟩
abbrev main_v228 : Ref sig .tc := ⟨.hbm, 350, rfl⟩
abbrev main_v229 : Ref sig .tc := ⟨.hbm, 351, rfl⟩
abbrev main_v230 : Ref sig .tc := ⟨.hbm, 352, rfl⟩
abbrev main_c_48 : Ref sig .tc := ⟨.hbm, 353, rfl⟩
abbrev main_v231 : Ref sig .tc := ⟨.hbm, 354, rfl⟩
abbrev main_v232 : Ref sig .tc := ⟨.hbm, 355, rfl⟩
abbrev main_c_49 : Ref sig .tc := ⟨.hbm, 356, rfl⟩
abbrev main_v233 : Ref sig .tc := ⟨.hbm, 357, rfl⟩
abbrev main_v234 : Ref sig .tc := ⟨.hbm, 358, rfl⟩
abbrev main_v235 : Ref sig .tc := ⟨.hbm, 359, rfl⟩
abbrev main_v236 : Ref sig .tc := ⟨.hbm, 360, rfl⟩
abbrev main_v237 : Ref sig .tc := ⟨.hbm, 361, rfl⟩
abbrev main_v238 : Ref sig .tc := ⟨.hbm, 362, rfl⟩
abbrev main_cst_50 : Ref sig .tc := ⟨.hbm, 363, rfl⟩
abbrev main_v239 : Ref sig .tc := ⟨.hbm, 364, rfl⟩
abbrev main_v240 : Ref sig .tc := ⟨.hbm, 365, rfl⟩
abbrev main_v241 : Ref sig .tc := ⟨.hbm, 366, rfl⟩
abbrev main_v242 : Ref sig .tc := ⟨.hbm, 367, rfl⟩
abbrev main_v243 : Ref sig .tc := ⟨.hbm, 368, rfl⟩
abbrev main_v244 : Ref sig .tc := ⟨.hbm, 369, rfl⟩
abbrev main_v245 : Ref sig .tc := ⟨.hbm, 370, rfl⟩
abbrev main_v246 : Ref sig .tc := ⟨.hbm, 371, rfl⟩
abbrev main_v247 : Ref sig .tc := ⟨.hbm, 372, rfl⟩
abbrev main_v248 : Ref sig .tc := ⟨.hbm, 373, rfl⟩
abbrev main_call4_cst : Ref sig .tc := ⟨.hbm, 374, rfl⟩
abbrev main_call4_v0 : Ref sig .tc := ⟨.hbm, 375, rfl⟩
abbrev main_call4_v1 : Ref sig .tc := ⟨.hbm, 376, rfl⟩
abbrev main_call4_cst_0 : Ref sig .tc := ⟨.hbm, 377, rfl⟩
abbrev main_call4_v2 : Ref sig .tc := ⟨.hbm, 378, rfl⟩
abbrev main_call4_v3 : Ref sig .tc := ⟨.hbm, 379, rfl⟩
abbrev main_call4_cst_1 : Ref sig .tc := ⟨.hbm, 380, rfl⟩
abbrev main_call4_call0_v0 : Ref sig .tc := ⟨.hbm, 381, rfl⟩
abbrev main_call4_call0_v1 : Ref sig .tc := ⟨.hbm, 382, rfl⟩
abbrev main_call4_v4 : Ref sig .tc := ⟨.hbm, 383, rfl⟩
abbrev main_call4_v5 : Ref sig .tc := ⟨.hbm, 384, rfl⟩
abbrev main_call4_cst_2 : Ref sig .tc := ⟨.hbm, 385, rfl⟩
abbrev main_call4_v6 : Ref sig .tc := ⟨.hbm, 386, rfl⟩
abbrev main_call4_v7 : Ref sig .tc := ⟨.hbm, 387, rfl⟩
abbrev main_v249 : Ref sig .tc := ⟨.hbm, 388, rfl⟩
abbrev main_v250 : Ref sig .tc := ⟨.hbm, 389, rfl⟩
abbrev main_v251 : Ref sig .tc := ⟨.hbm, 390, rfl⟩

abbrev nD : Nat := 1
abbrev τ : Topo := Topo.v7x

variable {F : FTy → Type} [FloatOps F]

class Facts₀ : Prop where
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  bcast_S_S2097152 : S_.BroadcastsInDim S2097152 (![] : Fin 0 → Fin S2097152.rank)
  bcast_S_S262144 : S_.BroadcastsInDim S262144 (![] : Fin 0 → Fin S262144.rank)
  bcast_S2097152_S2097152x1_0 : S2097152.BroadcastsInDim S2097152x1 (![0] : Fin 1 → Fin S2097152x1.rank)
  bcast_S2097152x1_S2097152x64_0_1 : S2097152x1.BroadcastsInDim S2097152x64 (![0, 1] : Fin 2 → Fin S2097152x64.rank)
  bcast_S_S262144x64 : S_.BroadcastsInDim S262144x64 (![] : Fin 0 → Fin S262144x64.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  reducesTo_S262144x64_S_d0_1 : S262144x64.ReducesTo [0, 1] S_
  h_S_ : 0 < S_.numel
  bcast_S2097152x1_S2097152x16_0_1 : S2097152x1.BroadcastsInDim S2097152x16 (![0, 1] : Fin 2 → Fin S2097152x16.rank)
  bcast_S_S262144x16 : S_.BroadcastsInDim S262144x16 (![] : Fin 0 → Fin S262144x16.rank)
  bcast_S262144x1_S262144x16_0_1 : S262144x1.BroadcastsInDim S262144x16 (![0, 1] : Fin 2 → Fin S262144x16.rank)
  bcast_S16_S1x16_1 : S16.BroadcastsInDim S1x16 (![1] : Fin 1 → Fin S1x16.rank)
  bcast_S1x16_S262144x16_0_1 : S1x16.BroadcastsInDim S262144x16 (![0, 1] : Fin 2 → Fin S262144x16.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S512x512x1 : S262144x1.ShapeCasts S512x512x1
  transposes_S512x512x1_S1x512x512_2_0_1 : S512x512x1.Transposes [2, 0, 1] S1x512x512
  scatter_S262144_S2097152x1_S2097152_n_0_0_1_wf : ScatterDims.WF S262144 S2097152x1 S2097152 [] [0] [0] 1
  dot_S262144x9_S9x64_S262144x64_1_0_0_1_n_n_wf : DotDims.WF S262144x9 S9x64 S262144x64 [1] [0] [0] [1] [] []
  gather_S262144_S2097152x1_S2097152_n_0_n_n_0_1_1_wf : GatherDims.WF S262144 S2097152x1 S2097152 [] [0] [] [0] [] 1 ![1]
  gather_S262144x64_S2097152x1_S2097152x64_1_0_n_n_0_1_164_wf : GatherDims.WF S262144x64 S2097152x1 S2097152x64 [1] [0] [] [0] [] 1 ![1, 64]
  scatter_S262144x64_S2097152x1_S2097152x64_1_0_0_1_wf : ScatterDims.WF S262144x64 S2097152x1 S2097152x64 [1] [0] [0] 1
  dot_S262144x64_S64x64_S262144x64_1_0_0_1_n_n_wf : DotDims.WF S262144x64 S64x64 S262144x64 [1] [0] [0] [1] [] []
  dot_S262144x64_S64x16_S262144x16_1_0_0_1_n_n_wf : DotDims.WF S262144x64 S64x16 S262144x16 [1] [0] [0] [1] [] []
  gather_S262144x16_S2097152x1_S2097152x16_1_0_n_n_0_1_116_wf : GatherDims.WF S262144x16 S2097152x1 S2097152x16 [1] [0] [] [0] [] 1 ![1, 16]
  scatter_S262144x16_S2097152x1_S2097152x16_1_0_0_1_wf : ScatterDims.WF S262144x16 S2097152x1 S2097152x16 [1] [0] [0] 1
  dot_S262144x16_S16x1_S262144x1_1_0_0_1_n_n_wf : DotDims.WF S262144x16 S16x1 S262144x1 [1] [0] [0] [1] [] []
  gather_S262144x1_S2097152x1_S2097152x1_1_0_n_n_0_1_11_wf : GatherDims.WF S262144x1 S2097152x1 S2097152x1 [1] [0] [] [0] [] 1 ![1, 1]
  scatter_S262144x1_S2097152x1_S2097152x1_1_0_0_1_wf : ScatterDims.WF S262144x1 S2097152x1 S2097152x1 [1] [0] [0] 1

variable [Facts₀]

def scatter_S262144_S2097152x1_S2097152_n_0_0_1 : ScatterDims S262144 S2097152x1 S2097152 where
  updateWindowDims := []
  insertedWindowDims := [0]
  scatterDimsToOperandDims := [0]
  indexVectorDim := 1
  wf := scatter_S262144_S2097152x1_S2097152_n_0_0_1_wf
def dot_S262144x9_S9x64_S262144x64_1_0_0_1_n_n : DotDims S262144x9 S9x64 S262144x64 where
  lhsContracting := [1]
  rhsContracting := [0]
  lhsNonContracting := [0]
  rhsNonContracting := [1]
  lhsBatch := []
  rhsBatch := []
  wf := dot_S262144x9_S9x64_S262144x64_1_0_0_1_n_n_wf
def gather_S262144_S2097152x1_S2097152_n_0_n_n_0_1_1 : GatherDims S262144 S2097152x1 S2097152 where
  offsetDims := []
  collapsedSliceDims := [0]
  operandBatchingDims := []
  startIndicesBatchingDims := []
  startIndexMap := [0]
  indexVectorDim := 1
  sliceSizes := ![1]
  wf := gather_S262144_S2097152x1_S2097152_n_0_n_n_0_1_1_wf
def gather_S262144x64_S2097152x1_S2097152x64_1_0_n_n_0_1_164 : GatherDims S262144x64 S2097152x1 S2097152x64 where
  offsetDims := [1]
  collapsedSliceDims := [0]
  operandBatchingDims := []
  startIndicesBatchingDims := []
  startIndexMap := [0]
  indexVectorDim := 1
  sliceSizes := ![1, 64]
  wf := gather_S262144x64_S2097152x1_S2097152x64_1_0_n_n_0_1_164_wf
def scatter_S262144x64_S2097152x1_S2097152x64_1_0_0_1 : ScatterDims S262144x64 S2097152x1 S2097152x64 where
  updateWindowDims := [1]
  insertedWindowDims := [0]
  scatterDimsToOperandDims := [0]
  indexVectorDim := 1
  wf := scatter_S262144x64_S2097152x1_S2097152x64_1_0_0_1_wf
def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf
def dot_S262144x64_S64x16_S262144x16_1_0_0_1_n_n : DotDims S262144x64 S64x16 S262144x16 where
  lhsContracting := [1]
  rhsContracting := [0]
  lhsNonContracting := [0]
  rhsNonContracting := [1]
  lhsBatch := []
  rhsBatch := []
  wf := dot_S262144x64_S64x16_S262144x16_1_0_0_1_n_n_wf
def gather_S262144x16_S2097152x1_S2097152x16_1_0_n_n_0_1_116 : GatherDims S262144x16 S2097152x1 S2097152x16 where
  offsetDims := [1]
  collapsedSliceDims := [0]
  operandBatchingDims := []
  startIndicesBatchingDims := []
  startIndexMap := [0]
  indexVectorDim := 1
  sliceSizes := ![1, 16]
  wf := gather_S262144x16_S2097152x1_S2097152x16_1_0_n_n_0_1_116_wf
def scatter_S262144x16_S2097152x1_S2097152x16_1_0_0_1 : ScatterDims S262144x16 S2097152x1 S2097152x16 where
  updateWindowDims := [1]
  insertedWindowDims := [0]
  scatterDimsToOperandDims := [0]
  indexVectorDim := 1
  wf := scatter_S262144x16_S2097152x1_S2097152x16_1_0_0_1_wf
def dot_S262144x16_S16x1_S262144x1_1_0_0_1_n_n : DotDims S262144x16 S16x1 S262144x1 where
  lhsContracting := [1]
  rhsContracting := [0]
  lhsNonContracting := [0]
  rhsNonContracting := [1]
  lhsBatch := []
  rhsBatch := []
  wf := dot_S262144x16_S16x1_S262144x1_1_0_0_1_n_n_wf
def gather_S262144x1_S2097152x1_S2097152x1_1_0_n_n_0_1_11 : GatherDims S262144x1 S2097152x1 S2097152x1 where
  offsetDims := [1]
  collapsedSliceDims := [0]
  operandBatchingDims := []
  startIndicesBatchingDims := []
  startIndexMap := [0]
  indexVectorDim := 1
  sliceSizes := ![1, 1]
  wf := gather_S262144x1_S2097152x1_S2097152x1_1_0_n_n_0_1_11_wf
def scatter_S262144x1_S2097152x1_S2097152x1_1_0_0_1 : ScatterDims S262144x1 S2097152x1 S2097152x1 where
  updateWindowDims := [1]
  insertedWindowDims := [0]
  scatterDimsToOperandDims := [0]
  indexVectorDim := 1
  wf := scatter_S262144x1_S2097152x1_S2097152x1_1_0_0_1_wf

class Facts : Prop extends Facts₀ where

variable [Facts]
-- ==== Proof.KRun.lean ====
import proofs.«167728_j48945447305605_1_alg».proof.Proof.Gen.KernelIdeal.Frame

/-!
# The kernel program's run, with the result buffer read

Every weakly fair execution of the kernel program's `@main` on the TensorCores, from any memory with zero
counters, terminates without a fault, and in every final state the result buffer `main_v153` holds what the
fold of the segment boundaries' contents assigns to it at the last boundary (`Gen.W23`), while each of the
sixteen argument arrays is as launched.

The run is the composition of the thirteen regions and the ten host stretches: each segment takes the thread
state "every unscoped buffer holds the contents of the boundary before it" to the same statement at the boundary
after it. At the end every unscoped buffer is read against the final memory; the result buffer is one of them,
and so are the arguments, which the fold never writes.
-/

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of `@main`: termination without a fault, the result buffer at the last boundary's contents, the
    arguments as launched. The thread state is carried segment by segment; the last one is read against the final
    memory buffer by buffer. -/
theorem run : θ_run defs (onTc (τ := τ) (main (F := F))) ⟨m, fun _ => 0, ρ⟩ (fun r => ∀ c : Dev nD,
      r.2.mem ((c.tc : Thread nD τ).loc main_v153) = Gen.W23 m ρ c (Proc.devRef .tc main_v153)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (Gen.mem_uc main_v153 (by decide)),
       (h c _ (Gen.mem_uc main_arg0 (by decide))).trans (Gen.W23_main_arg0 m ρ c),
       (h c _ (Gen.mem_uc main_arg1 (by decide))).trans (Gen.W23_main_arg1 m ρ c),
       (h c _ (Gen.mem_uc main_arg2 (by decide))).trans (Gen.W23_main_arg2 m ρ c),
       (h c _ (Gen.mem_uc main_arg3 (by decide))).trans (Gen.W23_main_arg3 m ρ c),
       (h c _ (Gen.mem_uc main_arg4 (by decide))).trans (Gen.W23_main_arg4 m ρ c),
       (h c _ (Gen.mem_uc main_arg5 (by decide))).trans (Gen.W23_main_arg5 m ρ c),
       (h c _ (Gen.mem_uc main_arg6 (by decide))).trans (Gen.W23_main_arg6 m ρ c),
       (h c _ (Gen.mem_uc main_arg7 (by decide))).trans (Gen.W23_main_arg7 m ρ c),
       (h c _ (Gen.mem_uc main_arg8 (by decide))).trans (Gen.W23_main_arg8 m ρ c),
       (h c _ (Gen.mem_uc main_arg9 (by decide))).trans (Gen.W23_main_arg9 m ρ c),
       (h c _ (Gen.mem_uc main_arg10 (by decide))).trans (Gen.W23_main_arg10 m ρ c),
       (h c _ (Gen.mem_uc main_arg11 (by decide))).trans (Gen.W23_main_arg11 m ρ c),
       (h c _ (Gen.mem_uc main_arg12 (by decide))).trans (Gen.W23_main_arg12 m ρ c),
       (h c _ (Gen.mem_uc main_arg13 (by decide))).trans (Gen.W23_main_arg13 m ρ c),
       (h c _ (Gen.mem_uc main_arg14 (by decide))).trans (Gen.W23_main_arg14 m ρ c),
       (h c _ (Gen.mem_uc main_arg15 (by decide))).trans (Gen.W23_main_arg15 m ρ c)⟩)

end Cert.KernelIdeal.KVal

end
-- ==== Proof.Glue.lean ====
import proofs.«167728_j48945447305605_1_alg».proof.Proof.Gen.KernelIdeal

/-!
# The message passing both programs share, as functions of arrays

Both programs pass messages along the edges with the same host operations: from the edge list `e` (two rows
of node numbers: sources, then destinations) they take the two rows, make a node number that is negative
count from the end, count the edges into each node and add one (the degree with the self loop), take its
inverse square root `dis`, give each edge the weight `dis[src] · dis[dst]`, and for an array `h` of node
features sum, into each node, the weighted rows `h[src]` of the edges that end there. The operations are
named here once, exactly as both programs spell them, so that neither side of the comparison has to be
opened: they enter the comparison only as the same function applied to equal arguments (and, for the
normalisation's algebra, through the fact that they take arrays of reals to arrays of reals).
-/

noncomputable section

namespace Cert.Glue

open Idealize.ShloMosaic Cert.KernelIdeal Cert.KernelIdeal.Gen

variable {F : FTy → Type} [FloatOps F]

-- the contents of a buffer of shape `S` and element type `t`
set_option quotPrecheck false in
local notation "𝔸" S ", " t => (⟨S, t⟩ : BufTy).Contents (Elt F)

/-- The sources: row 0 of the edge list. -/
def srcT (e : 𝔸 S2x2097152, .i32) : 𝔸 S2097152, .i32 :=
  shapeCast S2097152 (extractStridedSlice S1x2097152 ![0, 0] e slices_S2x2097152_S1x2097152_0_0) shapeCasts_S1x2097152_S2097152

/-- The destinations: row 1 of the edge list. -/
def dstT (e : 𝔸 S2x2097152, .i32) : 𝔸 S2097152, .i32 :=
  shapeCast S2097152 (extractStridedSlice S1x2097152 ![1, 0] e slices_S2x2097152_S1x2097152_1_0) shapeCasts_S1x2097152_S2097152

/-- A node number as a gather index: a negative number counts from the end (262144 is added), and the
    numbers become a column. -/
def idxT (s : 𝔸 S2097152, .i32) : 𝔸 S2097152x1, .i32 :=
  broadcastInDim S2097152x1 ![0] bcast_S2097152_S2097152x1_0
    (select (cmpi .slt s (broadcastInDim S2097152 ![] bcast_S_S2097152 (constantI S_ 32 0#32)))
      (addi s (broadcastInDim S2097152 ![] bcast_S_S2097152 (constantI S_ 32 262144#32))) s)

/-- The destinations as a scatter index: the numbers as a column, as they are. -/
def colT (d : 𝔸 S2097152, .i32) : 𝔸 S2097152x1, .i32 :=
  broadcastInDim S2097152x1 ![0] bcast_S2097152_S2097152x1_0 d

/-- The degree with the self loop: the number of edges into each node, plus one. -/
def degT (d : 𝔸 S2097152, .i32) : 𝔸 S262144, .f32 :=
  addf
    (Host.scatterAdd scatter_S262144_S2097152x1_S2097152_n_0_0_1
      (broadcastInDim S262144 ![] bcast_S_S262144 (constant S_ .f32 0x00000000#32)) (colT d)
      (broadcastInDim S2097152 ![] bcast_S_S2097152 (constant S_ .f32 0x3F800000#32)))
    (broadcastInDim S262144 ![] bcast_S_S262144 (constant S_ .f32 0x3F800000#32))

/-- The inverse square root of the degree. -/
def disT (d : 𝔸 S2097152, .i32) : 𝔸 S262144, .f32 := Host.rsqrt (degT d)

/-- The weight of each edge: `dis[src] · dis[dst]`. -/
def nrmT (s d : 𝔸 S2097152, .i32) : 𝔸 S2097152, .f32 :=
  mulf (Host.gather gather_S262144_S2097152x1_S2097152_n_0_n_n_0_1_1 (disT d) (idxT s))
    (Host.gather gather_S262144_S2097152x1_S2097152_n_0_n_n_0_1_1 (disT d) (idxT d))

/-- The weighted neighbourhood sum of 64 features: into each node, the sum over the edges ending there of
    the source's row times the edge's weight. -/
def agg64T (s d : 𝔸 S2097152, .i32) (nrm : 𝔸 S2097152, .f32) (h : 𝔸 S262144x64, .f32) : 𝔸 S262144x64, .f32 :=
  Host.scatterAdd scatter_S262144x64_S2097152x1_S2097152x64_1_0_0_1
    (broadcastInDim S262144x64 ![] bcast_S_S262144x64 (constant S_ .f32 0x00000000#32)) (colT d)
    (mulf (Host.gather gather_S262144x64_S2097152x1_S2097152x64_1_0_n_n_0_1_164 h (idxT s))
      (broadcastInDim S2097152x64 ![0, 1] bcast_S2097152x1_S2097152x64_0_1
        (broadcastInDim S2097152x1 ![0] bcast_S2097152_S2097152x1_0 nrm)))

/-- The same for 16 features. -/
def agg16T (s d : 𝔸 S2097152, .i32) (nrm : 𝔸 S2097152, .f32) (h : 𝔸 S262144x16, .f32) : 𝔸 S262144x16, .f32 :=
  Host.scatterAdd scatter_S262144x16_S2097152x1_S2097152x16_1_0_0_1
    (broadcastInDim S262144x16 ![] bcast_S_S262144x16 (constant S_ .f32 0x00000000#32)) (colT d)
    (mulf (Host.gather gather_S262144x16_S2097152x1_S2097152x16_1_0_n_n_0_1_116 h (idxT s))
      (broadcastInDim S2097152x16 ![0, 1] bcast_S2097152x1_S2097152x16_0_1
        (broadcastInDim S2097152x1 ![0] bcast_S2097152_S2097152x1_0 nrm)))

/-- The same for one feature (the weights' column needs no second broadcast). -/
def agg1T (s d : 𝔸 S2097152, .i32) (nrm : 𝔸 S2097152, .f32) (h : 𝔸 S262144x1, .f32) : 𝔸 S262144x1, .f32 :=
  Host.scatterAdd scatter_S262144x1_S2097152x1_S2097152x1_1_0_0_1
    (broadcastInDim S262144x1 ![] bcast_S_S262144x1 (constant S_ .f32 0x00000000#32)) (colT d)
    (mulf (Host.gather gather_S262144x1_S2097152x1_S2097152x1_1_0_n_n_0_1_11 h (idxT s))
      (broadcastInDim S2097152x1 ![0] bcast_S2097152_S2097152x1_0 nrm))

end Cert.Glue

end
-- ==== Proof.KHostGlue.lean ====
import proofs.«167728_j48945447305605_1_alg».proof.Proof.Gen.KernelIdeal.Launch
import proofs.«167728_j48945447305605_1_alg».proof.Proof.Glue

/-!
# The kernel program's host stretches that pass the messages, read as the shared functions

Between its regions the kernel program passes messages along the edges on the host. Each such stretch of
host operations is read here at an arbitrary valuation `W` of the buffers: the buffers the later regions
read hold the shared message-passing functions of `Cert.Glue` applied to what `W` holds (the gather and the
scatter-add stay folded inside those functions), and every buffer the stretch does not write — the
arguments among them — holds what it held.
-/

noncomputable section

namespace Cert.KernelIdeal.KHost

open Idealize.ShloMosaic Idealize.ShloMosaic.TcCoe Cert.KernelIdeal Cert.KernelIdeal.Gen Cert.Glue

variable {F : FTy → Type} [FloatOps F] (W : Valuation τ sig (Elt F))

/-! ## The stretch `hostOps0`: the two rows of the edge list, the edge weights and the squared inverse root degree -/

/-- The references the stretch writes, in order. -/
abbrev writes0 : List (Ref sig .tc) :=
  [main_v0, main_v1, main_v2, main_v3, main_cst, main_v4, main_cst_0, main_v5, main_v6, main_v7,
   main_cst_1, main_v8, main_v9, main_v10, main_c, main_v11, main_v12, main_c_2, main_v13, main_v14,
   main_v15, main_v16, main_v17, main_c_3, main_v18, main_v19, main_c_4, main_v20, main_v21, main_v22,
   main_v23, main_v24, main_v25, main_v26, main_v27]

/-- Each operation of the stretch writes a reference of the list. -/
theorem hostOps0_writes :
    (hostOps0 : List (HloOp τ sig (Elt F))).Forall fun op => op.writes ⊆ (writes0.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference outside the list keeps its contents through the stretch. -/
theorem h0_keep {r : Ref sig .tc} (h : r ∉ writes0) :
    StableHlo.after hostOps0 W (Proc.devRef .tc r) = W (Proc.devRef .tc r) :=
  StableHlo.after_of_writes_sub hostOps0 W hostOps0_writes h

/-- The sources. -/
theorem h0_v1 :
    StableHlo.after hostOps0 W (Proc.devRef .tc main_v1)
      = srcT (W (Proc.devRef .tc main_arg1)) := by
  dsimp only [hostOps0]
  after_results
  rfl

/-- The destinations. -/
theorem h0_v3 :
    StableHlo.after hostOps0 W (Proc.devRef .tc main_v3)
      = dstT (W (Proc.devRef .tc main_arg1)) := by
  dsimp only [hostOps0]
  after_results
  rfl

/-- The edge weights. -/
theorem h0_v25 :
    StableHlo.after hostOps0 W (Proc.devRef .tc main_v25)
      = nrmT (srcT (W (Proc.devRef .tc main_arg1))) (dstT (W (Proc.devRef .tc main_arg1))) := by
  dsimp only [hostOps0]
  after_results_simp
  rfl

/-- The square of the inverse root degree, as a column. -/
theorem h0_v27 :
    StableHlo.after hostOps0 W (Proc.devRef .tc main_v27)
      = shapeCast S262144x1 (mulf (disT (dstT (W (Proc.devRef .tc main_arg1)))) (disT (dstT (W (Proc.devRef .tc main_arg1))))) shapeCasts_S262144_S262144x1 := by
  dsimp only [hostOps0]
  after_results_simp
  rfl

theorem h0_arg0 : StableHlo.after hostOps0 W (Proc.devRef .tc main_arg0) = W (Proc.devRef .tc main_arg0) := h0_keep W (by decide)
theorem h0_arg1 : StableHlo.after hostOps0 W (Proc.devRef .tc main_arg1) = W (Proc.devRef .tc main_arg1) := h0_keep W (by decide)
theorem h0_arg2 : StableHlo.after hostOps0 W (Proc.devRef .tc main_arg2) = W (Proc.devRef .tc main_arg2) := h0_keep W (by decide)
theorem h0_arg3 : StableHlo.after hostOps0 W (Proc.devRef .tc main_arg3) = W (Proc.devRef .tc main_arg3) := h0_keep W (by decide)
theorem h0_arg4 : StableHlo.after hostOps0 W (Proc.devRef .tc main_arg4) = W (Proc.devRef .tc main_arg4) := h0_keep W (by decide)
theorem h0_arg5 : StableHlo.after hostOps0 W (Proc.devRef .tc main_arg5) = W (Proc.devRef .tc main_arg5) := h0_keep W (by decide)
theorem h0_arg6 : StableHlo.after hostOps0 W (Proc.devRef .tc main_arg6) = W (Proc.devRef .tc main_arg6) := h0_keep W (by decide)
theorem h0_arg7 : StableHlo.after hostOps0 W (Proc.devRef .tc main_arg7) = W (Proc.devRef .tc main_arg7) := h0_keep W (by decide)
theorem h0_arg8 : StableHlo.after hostOps0 W (Proc.devRef .tc main_arg8) = W (Proc.devRef .tc main_arg8) := h0_keep W (by decide)
theorem h0_arg9 : StableHlo.after hostOps0 W (Proc.devRef .tc main_arg9) = W (Proc.devRef .tc main_arg9) := h0_keep W (by decide)
theorem h0_arg10 : StableHlo.after hostOps0 W (Proc.devRef .tc main_arg10) = W (Proc.devRef .tc main_arg10) := h0_keep W (by decide)
theorem h0_arg11 : StableHlo.after hostOps0 W (Proc.devRef .tc main_arg11) = W (Proc.devRef .tc main_arg11) := h0_keep W (by decide)
theorem h0_arg12 : StableHlo.after hostOps0 W (Proc.devRef .tc main_arg12) = W (Proc.devRef .tc main_arg12) := h0_keep W (by decide)
theorem h0_arg13 : StableHlo.after hostOps0 W (Proc.devRef .tc main_arg13) = W (Proc.devRef .tc main_arg13) := h0_keep W (by decide)
theorem h0_arg14 : StableHlo.after hostOps0 W (Proc.devRef .tc main_arg14) = W (Proc.devRef .tc main_arg14) := h0_keep W (by decide)
theorem h0_arg15 : StableHlo.after hostOps0 W (Proc.devRef .tc main_arg15) = W (Proc.devRef .tc main_arg15) := h0_keep W (by decide)

/-! ## The stretch `hostOps1`: the weighted neighbourhood sum of `main_v28` (64 features) and the bias as a row -/

/-- The references the stretch writes, in order. -/
abbrev writes1 : List (Ref sig .tc) :=
  [main_c_5, main_v29, main_v30, main_c_6, main_v31, main_v32, main_v33, main_v34, main_v35, main_v36,
   main_v37, main_v38, main_cst_7, main_v39, main_v40, main_v41, main_v42]

/-- Each operation of the stretch writes a reference of the list. -/
theorem hostOps1_writes :
    (hostOps1 : List (HloOp τ sig (Elt F))).Forall fun op => op.writes ⊆ (writes1.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference outside the list keeps its contents through the stretch. -/
theorem h1_keep {r : Ref sig .tc} (h : r ∉ writes1) :
    StableHlo.after hostOps1 W (Proc.devRef .tc r) = W (Proc.devRef .tc r) :=
  StableHlo.after_of_writes_sub hostOps1 W hostOps1_writes h

/-- The stretch's scatter result is the shared neighbourhood sum of the array `main_v28`, over the sources, the destinations and the edge weights the first stretch left. -/
theorem h1_v41 :
    StableHlo.after hostOps1 W (Proc.devRef .tc main_v41)
      = agg64T (W (Proc.devRef .tc main_v1)) (W (Proc.devRef .tc main_v3)) (W (Proc.devRef .tc main_v25)) (W (Proc.devRef .tc main_v28)) := by
  dsimp only [hostOps1]
  after_results_simp
  rfl

/-- The bias as a row. -/
theorem h1_v42 :
    StableHlo.after hostOps1 W (Proc.devRef .tc main_v42)
      = shapeCast S1x64 (W (Proc.devRef .tc main_arg3)) shapeCasts_S64_S1x64 := by
  dsimp only [hostOps1]
  after_results
  rfl

theorem h1_keep_v1 : StableHlo.after hostOps1 W (Proc.devRef .tc main_v1) = W (Proc.devRef .tc main_v1) := h1_keep W (by decide)
theorem h1_keep_v3 : StableHlo.after hostOps1 W (Proc.devRef .tc main_v3) = W (Proc.devRef .tc main_v3) := h1_keep W (by decide)
theorem h1_keep_v25 : StableHlo.after hostOps1 W (Proc.devRef .tc main_v25) = W (Proc.devRef .tc main_v25) := h1_keep W (by decide)
theorem h1_keep_v27 : StableHlo.after hostOps1 W (Proc.devRef .tc main_v27) = W (Proc.devRef .tc main_v27) := h1_keep W (by decide)
theorem h1_keep_v28 : StableHlo.after hostOps1 W (Proc.devRef .tc main_v28) = W (Proc.devRef .tc main_v28) := h1_keep W (by decide)

theorem h1_arg0 : StableHlo.after hostOps1 W (Proc.devRef .tc main_arg0) = W (Proc.devRef .tc main_arg0) := h1_keep W (by decide)
theorem h1_arg1 : StableHlo.after hostOps1 W (Proc.devRef .tc main_arg1) = W (Proc.devRef .tc main_arg1) := h1_keep W (by decide)
theorem h1_arg2 : StableHlo.after hostOps1 W (Proc.devRef .tc main_arg2) = W (Proc.devRef .tc main_arg2) := h1_keep W (by decide)
theorem h1_arg3 : StableHlo.after hostOps1 W (Proc.devRef .tc main_arg3) = W (Proc.devRef .tc main_arg3) := h1_keep W (by decide)
theorem h1_arg4 : StableHlo.after hostOps1 W (Proc.devRef .tc main_arg4) = W (Proc.devRef .tc main_arg4) := h1_keep W (by decide)
theorem h1_arg5 : StableHlo.after hostOps1 W (Proc.devRef .tc main_arg5) = W (Proc.devRef .tc main_arg5) := h1_keep W (by decide)
theorem h1_arg6 : StableHlo.after hostOps1 W (Proc.devRef .tc main_arg6) = W (Proc.devRef .tc main_arg6) := h1_keep W (by decide)
theorem h1_arg7 : StableHlo.after hostOps1 W (Proc.devRef .tc main_arg7) = W (Proc.devRef .tc main_arg7) := h1_keep W (by decide)
theorem h1_arg8 : StableHlo.after hostOps1 W (Proc.devRef .tc main_arg8) = W (Proc.devRef .tc main_arg8) := h1_keep W (by decide)
theorem h1_arg9 : StableHlo.after hostOps1 W (Proc.devRef .tc main_arg9) = W (Proc.devRef .tc main_arg9) := h1_keep W (by decide)
theorem h1_arg10 : StableHlo.after hostOps1 W (Proc.devRef .tc main_arg10) = W (Proc.devRef .tc main_arg10) := h1_keep W (by decide)
theorem h1_arg11 : StableHlo.after hostOps1 W (Proc.devRef .tc main_arg11) = W (Proc.devRef .tc main_arg11) := h1_keep W (by decide)
theorem h1_arg12 : StableHlo.after hostOps1 W (Proc.devRef .tc main_arg12) = W (Proc.devRef .tc main_arg12) := h1_keep W (by decide)
theorem h1_arg13 : StableHlo.after hostOps1 W (Proc.devRef .tc main_arg13) = W (Proc.devRef .tc main_arg13) := h1_keep W (by decide)
theorem h1_arg14 : StableHlo.after hostOps1 W (Proc.devRef .tc main_arg14) = W (Proc.devRef .tc main_arg14) := h1_keep W (by decide)
theorem h1_arg15 : StableHlo.after hostOps1 W (Proc.devRef .tc main_arg15) = W (Proc.devRef .tc main_arg15) := h1_keep W (by decide)

/-! ## The stretch `hostOps4`: the weighted neighbourhood sum of `main_v59` (64 features) and the bias as a row -/

/-- The references the stretch writes, in order. -/
abbrev writes4 : List (Ref sig .tc) :=
  [main_c_13, main_v60, main_v61, main_c_14, main_v62, main_v63, main_v64, main_v65, main_v66, main_v67,
   main_v68, main_v69, main_cst_15, main_v70, main_v71, main_v72, main_v73]

/-- Each operation of the stretch writes a reference of the list. -/
theorem hostOps4_writes :
    (hostOps4 : List (HloOp τ sig (Elt F))).Forall fun op => op.writes ⊆ (writes4.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference outside the list keeps its contents through the stretch. -/
theorem h4_keep {r : Ref sig .tc} (h : r ∉ writes4) :
    StableHlo.after hostOps4 W (Proc.devRef .tc r) = W (Proc.devRef .tc r) :=
  StableHlo.after_of_writes_sub hostOps4 W hostOps4_writes h

/-- The stretch's scatter result is the shared neighbourhood sum of the array `main_v59`, over the sources, the destinations and the edge weights the first stretch left. -/
theorem h4_v72 :
    StableHlo.after hostOps4 W (Proc.devRef .tc main_v72)
      = agg64T (W (Proc.devRef .tc main_v1)) (W (Proc.devRef .tc main_v3)) (W (Proc.devRef .tc main_v25)) (W (Proc.devRef .tc main_v59)) := by
  dsimp only [hostOps4]
  after_results_simp
  rfl

/-- The bias as a row. -/
theorem h4_v73 :
    StableHlo.after hostOps4 W (Proc.devRef .tc main_v73)
      = shapeCast S1x64 (W (Proc.devRef .tc main_arg5)) shapeCasts_S64_S1x64 := by
  dsimp only [hostOps4]
  after_results
  rfl

theorem h4_keep_v1 : StableHlo.after hostOps4 W (Proc.devRef .tc main_v1) = W (Proc.devRef .tc main_v1) := h4_keep W (by decide)
theorem h4_keep_v3 : StableHlo.after hostOps4 W (Proc.devRef .tc main_v3) = W (Proc.devRef .tc main_v3) := h4_keep W (by decide)
theorem h4_keep_v25 : StableHlo.after hostOps4 W (Proc.devRef .tc main_v25) = W (Proc.devRef .tc main_v25) := h4_keep W (by decide)
theorem h4_keep_v27 : StableHlo.after hostOps4 W (Proc.devRef .tc main_v27) = W (Proc.devRef .tc main_v27) := h4_keep W (by decide)
theorem h4_keep_v59 : StableHlo.after hostOps4 W (Proc.devRef .tc main_v59) = W (Proc.devRef .tc main_v59) := h4_keep W (by decide)

theorem h4_arg0 : StableHlo.after hostOps4 W (Proc.devRef .tc main_arg0) = W (Proc.devRef .tc main_arg0) := h4_keep W (by decide)
theorem h4_arg1 : StableHlo.after hostOps4 W (Proc.devRef .tc main_arg1) = W (Proc.devRef .tc main_arg1) := h4_keep W (by decide)
theorem h4_arg2 : StableHlo.after hostOps4 W (Proc.devRef .tc main_arg2) = W (Proc.devRef .tc main_arg2) := h4_keep W (by decide)
theorem h4_arg3 : StableHlo.after hostOps4 W (Proc.devRef .tc main_arg3) = W (Proc.devRef .tc main_arg3) := h4_keep W (by decide)
theorem h4_arg4 : StableHlo.after hostOps4 W (Proc.devRef .tc main_arg4) = W (Proc.devRef .tc main_arg4) := h4_keep W (by decide)
theorem h4_arg5 : StableHlo.after hostOps4 W (Proc.devRef .tc main_arg5) = W (Proc.devRef .tc main_arg5) := h4_keep W (by decide)
theorem h4_arg6 : StableHlo.after hostOps4 W (Proc.devRef .tc main_arg6) = W (Proc.devRef .tc main_arg6) := h4_keep W (by decide)
theorem h4_arg7 : StableHlo.after hostOps4 W (Proc.devRef .tc main_arg7) = W (Proc.devRef .tc main_arg7) := h4_keep W (by decide)
theorem h4_arg8 : StableHlo.after hostOps4 W (Proc.devRef .tc main_arg8) = W (Proc.devRef .tc main_arg8) := h4_keep W (by decide)
theorem h4_arg9 : StableHlo.after hostOps4 W (Proc.devRef .tc main_arg9) = W (Proc.devRef .tc main_arg9) := h4_keep W (by decide)
theorem h4_arg10 : StableHlo.after hostOps4 W (Proc.devRef .tc main_arg10) = W (Proc.devRef .tc main_arg10) := h4_keep W (by decide)
theorem h4_arg11 : StableHlo.after hostOps4 W (Proc.devRef .tc main_arg11) = W (Proc.devRef .tc main_arg11) := h4_keep W (by decide)
theorem h4_arg12 : StableHlo.after hostOps4 W (Proc.devRef .tc main_arg12) = W (Proc.devRef .tc main_arg12) := h4_keep W (by decide)
theorem h4_arg13 : StableHlo.after hostOps4 W (Proc.devRef .tc main_arg13) = W (Proc.devRef .tc main_arg13) := h4_keep W (by decide)
theorem h4_arg14 : StableHlo.after hostOps4 W (Proc.devRef .tc main_arg14) = W (Proc.devRef .tc main_arg14) := h4_keep W (by decide)
theorem h4_arg15 : StableHlo.after hostOps4 W (Proc.devRef .tc main_arg15) = W (Proc.devRef .tc main_arg15) := h4_keep W (by decide)

/-! ## The stretch `hostOps7`: the weighted neighbourhood sum of `main_v90` (64 features) and the bias as a row -/

/-- The references the stretch writes, in order. -/
abbrev writes7 : List (Ref sig .tc) :=
  [main_c_21, main_v91, main_v92, main_c_22, main_v93, main_v94, main_v95, main_v96, main_v97, main_v98,
   main_v99, main_v100, main_cst_23, main_v101, main_v102, main_v103, main_v104]

/-- Each operation of the stretch writes a reference of the list. -/
theorem hostOps7_writes :
    (hostOps7 : List (HloOp τ sig (Elt F))).Forall fun op => op.writes ⊆ (writes7.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference outside the list keeps its contents through the stretch. -/
theorem h7_keep {r : Ref sig .tc} (h : r ∉ writes7) :
    StableHlo.after hostOps7 W (Proc.devRef .tc r) = W (Proc.devRef .tc r) :=
  StableHlo.after_of_writes_sub hostOps7 W hostOps7_writes h

/-- The stretch's scatter result is the shared neighbourhood sum of the array `main_v90`, over the sources, the destinations and the edge weights the first stretch left. -/
theorem h7_v103 :
    StableHlo.after hostOps7 W (Proc.devRef .tc main_v103)
      = agg64T (W (Proc.devRef .tc main_v1)) (W (Proc.devRef .tc main_v3)) (W (Proc.devRef .tc main_v25)) (W (Proc.devRef .tc main_v90)) := by
  dsimp only [hostOps7]
  after_results_simp
  rfl

/-- The bias as a row. -/
theorem h7_v104 :
    StableHlo.after hostOps7 W (Proc.devRef .tc main_v104)
      = shapeCast S1x64 (W (Proc.devRef .tc main_arg7)) shapeCasts_S64_S1x64 := by
  dsimp only [hostOps7]
  after_results
  rfl

theorem h7_keep_v1 : StableHlo.after hostOps7 W (Proc.devRef .tc main_v1) = W (Proc.devRef .tc main_v1) := h7_keep W (by decide)
theorem h7_keep_v3 : StableHlo.after hostOps7 W (Proc.devRef .tc main_v3) = W (Proc.devRef .tc main_v3) := h7_keep W (by decide)
theorem h7_keep_v25 : StableHlo.after hostOps7 W (Proc.devRef .tc main_v25) = W (Proc.devRef .tc main_v25) := h7_keep W (by decide)
theorem h7_keep_v27 : StableHlo.after hostOps7 W (Proc.devRef .tc main_v27) = W (Proc.devRef .tc main_v27) := h7_keep W (by decide)
theorem h7_keep_v90 : StableHlo.after hostOps7 W (Proc.devRef .tc main_v90) = W (Proc.devRef .tc main_v90) := h7_keep W (by decide)

theorem h7_arg0 : StableHlo.after hostOps7 W (Proc.devRef .tc main_arg0) = W (Proc.devRef .tc main_arg0) := h7_keep W (by decide)
theorem h7_arg1 : StableHlo.after hostOps7 W (Proc.devRef .tc main_arg1) = W (Proc.devRef .tc main_arg1) := h7_keep W (by decide)
theorem h7_arg2 : StableHlo.after hostOps7 W (Proc.devRef .tc main_arg2) = W (Proc.devRef .tc main_arg2) := h7_keep W (by decide)
theorem h7_arg3 : StableHlo.after hostOps7 W (Proc.devRef .tc main_arg3) = W (Proc.devRef .tc main_arg3) := h7_keep W (by decide)
theorem h7_arg4 : StableHlo.after hostOps7 W (Proc.devRef .tc main_arg4) = W (Proc.devRef .tc main_arg4) := h7_keep W (by decide)
theorem h7_arg5 : StableHlo.after hostOps7 W (Proc.devRef .tc main_arg5) = W (Proc.devRef .tc main_arg5) := h7_keep W (by decide)
theorem h7_arg6 : StableHlo.after hostOps7 W (Proc.devRef .tc main_arg6) = W (Proc.devRef .tc main_arg6) := h7_keep W (by decide)
theorem h7_arg7 : StableHlo.after hostOps7 W (Proc.devRef .tc main_arg7) = W (Proc.devRef .tc main_arg7) := h7_keep W (by decide)
theorem h7_arg8 : StableHlo.after hostOps7 W (Proc.devRef .tc main_arg8) = W (Proc.devRef .tc main_arg8) := h7_keep W (by decide)
theorem h7_arg9 : StableHlo.after hostOps7 W (Proc.devRef .tc main_arg9) = W (Proc.devRef .tc main_arg9) := h7_keep W (by decide)
theorem h7_arg10 : StableHlo.after hostOps7 W (Proc.devRef .tc main_arg10) = W (Proc.devRef .tc main_arg10) := h7_keep W (by decide)
theorem h7_arg11 : StableHlo.after hostOps7 W (Proc.devRef .tc main_arg11) = W (Proc.devRef .tc main_arg11) := h7_keep W (by decide)
theorem h7_arg12 : StableHlo.after hostOps7 W (Proc.devRef .tc main_arg12) = W (Proc.devRef .tc main_arg12) := h7_keep W (by decide)
theorem h7_arg13 : StableHlo.after hostOps7 W (Proc.devRef .tc main_arg13) = W (Proc.devRef .tc main_arg13) := h7_keep W (by decide)
theorem h7_arg14 : StableHlo.after hostOps7 W (Proc.devRef .tc main_arg14) = W (Proc.devRef .tc main_arg14) := h7_keep W (by decide)
theorem h7_arg15 : StableHlo.after hostOps7 W (Proc.devRef .tc main_arg15) = W (Proc.devRef .tc main_arg15) := h7_keep W (by decide)

/-! ## The stretch `hostOps10`: the weighted neighbourhood sum of `main_v121` (16 features) and the bias as a row -/

/-- The references the stretch writes, in order. -/
abbrev writes10 : List (Ref sig .tc) :=
  [main_c_29, main_v122, main_v123, main_c_30, main_v124, main_v125, main_v126, main_v127, main_v128, main_v129,
   main_v130, main_v131, main_cst_31, main_v132, main_v133, main_v134, main_v135]

/-- Each operation of the stretch writes a reference of the list. -/
theorem hostOps10_writes :
    (hostOps10 : List (HloOp τ sig (Elt F))).Forall fun op => op.writes ⊆ (writes10.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference outside the list keeps its contents through the stretch. -/
theorem h10_keep {r : Ref sig .tc} (h : r ∉ writes10) :
    StableHlo.after hostOps10 W (Proc.devRef .tc r) = W (Proc.devRef .tc r) :=
  StableHlo.after_of_writes_sub hostOps10 W hostOps10_writes h

/-- The stretch's scatter result is the shared neighbourhood sum of the array `main_v121`, over the sources, the destinations and the edge weights the first stretch left. -/
theorem h10_v134 :
    StableHlo.after hostOps10 W (Proc.devRef .tc main_v134)
      = agg16T (W (Proc.devRef .tc main_v1)) (W (Proc.devRef .tc main_v3)) (W (Proc.devRef .tc main_v25)) (W (Proc.devRef .tc main_v121)) := by
  dsimp only [hostOps10]
  after_results_simp
  rfl

/-- The bias as a row. -/
theorem h10_v135 :
    StableHlo.after hostOps10 W (Proc.devRef .tc main_v135)
      = shapeCast S1x16 (W (Proc.devRef .tc main_arg9)) shapeCasts_S16_S1x16 := by
  dsimp only [hostOps10]
  after_results
  rfl

theorem h10_keep_v1 : StableHlo.after hostOps10 W (Proc.devRef .tc main_v1) = W (Proc.devRef .tc main_v1) := h10_keep W (by decide)
theorem h10_keep_v3 : StableHlo.after hostOps10 W (Proc.devRef .tc main_v3) = W (Proc.devRef .tc main_v3) := h10_keep W (by decide)
theorem h10_keep_v25 : StableHlo.after hostOps10 W (Proc.devRef .tc main_v25) = W (Proc.devRef .tc main_v25) := h10_keep W (by decide)
theorem h10_keep_v27 : StableHlo.after hostOps10 W (Proc.devRef .tc main_v27) = W (Proc.devRef .tc main_v27) := h10_keep W (by decide)
theorem h10_keep_v121 : StableHlo.after hostOps10 W (Proc.devRef .tc main_v121) = W (Proc.devRef .tc main_v121) := h10_keep W (by decide)

theorem h10_arg0 : StableHlo.after hostOps10 W (Proc.devRef .tc main_arg0) = W (Proc.devRef .tc main_arg0) := h10_keep W (by decide)
theorem h10_arg1 : StableHlo.after hostOps10 W (Proc.devRef .tc main_arg1) = W (Proc.devRef .tc main_arg1) := h10_keep W (by decide)
theorem h10_arg2 : StableHlo.after hostOps10 W (Proc.devRef .tc main_arg2) = W (Proc.devRef .tc main_arg2) := h10_keep W (by decide)
theorem h10_arg3 : StableHlo.after hostOps10 W (Proc.devRef .tc main_arg3) = W (Proc.devRef .tc main_arg3) := h10_keep W (by decide)
theorem h10_arg4 : StableHlo.after hostOps10 W (Proc.devRef .tc main_arg4) = W (Proc.devRef .tc main_arg4) := h10_keep W (by decide)
theorem h10_arg5 : StableHlo.after hostOps10 W (Proc.devRef .tc main_arg5) = W (Proc.devRef .tc main_arg5) := h10_keep W (by decide)
theorem h10_arg6 : StableHlo.after hostOps10 W (Proc.devRef .tc main_arg6) = W (Proc.devRef .tc main_arg6) := h10_keep W (by decide)
theorem h10_arg7 : StableHlo.after hostOps10 W (Proc.devRef .tc main_arg7) = W (Proc.devRef .tc main_arg7) := h10_keep W (by decide)
theorem h10_arg8 : StableHlo.after hostOps10 W (Proc.devRef .tc main_arg8) = W (Proc.devRef .tc main_arg8) := h10_keep W (by decide)
theorem h10_arg9 : StableHlo.after hostOps10 W (Proc.devRef .tc main_arg9) = W (Proc.devRef .tc main_arg9) := h10_keep W (by decide)
theorem h10_arg10 : StableHlo.after hostOps10 W (Proc.devRef .tc main_arg10) = W (Proc.devRef .tc main_arg10) := h10_keep W (by decide)
theorem h10_arg11 : StableHlo.after hostOps10 W (Proc.devRef .tc main_arg11) = W (Proc.devRef .tc main_arg11) := h10_keep W (by decide)
theorem h10_arg12 : StableHlo.after hostOps10 W (Proc.devRef .tc main_arg12) = W (Proc.devRef .tc main_arg12) := h10_keep W (by decide)
theorem h10_arg13 : StableHlo.after hostOps10 W (Proc.devRef .tc main_arg13) = W (Proc.devRef .tc main_arg13) := h10_keep W (by decide)
theorem h10_arg14 : StableHlo.after hostOps10 W (Proc.devRef .tc main_arg14) = W (Proc.devRef .tc main_arg14) := h10_keep W (by decide)
theorem h10_arg15 : StableHlo.after hostOps10 W (Proc.devRef .tc main_arg15) = W (Proc.devRef .tc main_arg15) := h10_keep W (by decide)

/-! ## The stretch `hostOps12`: the weighted neighbourhood sum of `main_v137` (one feature) and the bias as a row -/

/-- The references the stretch writes, in order. -/
abbrev writes12 : List (Ref sig .tc) :=
  [main_c_32, main_v138, main_v139, main_c_33, main_v140, main_v141, main_v142, main_v143, main_v144, main_v145,
   main_v146, main_cst_34, main_v147, main_v148, main_v149, main_v150]

/-- Each operation of the stretch writes a reference of the list. -/
theorem hostOps12_writes :
    (hostOps12 : List (HloOp τ sig (Elt F))).Forall fun op => op.writes ⊆ (writes12.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference outside the list keeps its contents through the stretch. -/
theorem h12_keep {r : Ref sig .tc} (h : r ∉ writes12) :
    StableHlo.after hostOps12 W (Proc.devRef .tc r) = W (Proc.devRef .tc r) :=
  StableHlo.after_of_writes_sub hostOps12 W hostOps12_writes h

/-- The stretch's scatter result is the shared neighbourhood sum of the array `main_v137`, over the sources, the destinations and the edge weights the first stretch left. -/
theorem h12_v149 :
    StableHlo.after hostOps12 W (Proc.devRef .tc main_v149)
      = agg1T (W (Proc.devRef .tc main_v1)) (W (Proc.devRef .tc main_v3)) (W (Proc.devRef .tc main_v25)) (W (Proc.devRef .tc main_v137)) := by
  dsimp only [hostOps12]
  after_results_simp
  rfl

/-- The bias as a row. -/
theorem h12_v150 :
    StableHlo.after hostOps12 W (Proc.devRef .tc main_v150)
      = shapeCast S1x1 (W (Proc.devRef .tc main_arg11)) shapeCasts_S1_S1x1 := by
  dsimp only [hostOps12]
  after_results
  rfl

theorem h12_keep_v1 : StableHlo.after hostOps12 W (Proc.devRef .tc main_v1) = W (Proc.devRef .tc main_v1) := h12_keep W (by decide)
theorem h12_keep_v3 : StableHlo.after hostOps12 W (Proc.devRef .tc main_v3) = W (Proc.devRef .tc main_v3) := h12_keep W (by decide)
theorem h12_keep_v25 : StableHlo.after hostOps12 W (Proc.devRef .tc main_v25) = W (Proc.devRef .tc main_v25) := h12_keep W (by decide)
theorem h12_keep_v27 : StableHlo.after hostOps12 W (Proc.devRef .tc main_v27) = W (Proc.devRef .tc main_v27) := h12_keep W (by decide)
theorem h12_keep_v137 : StableHlo.after hostOps12 W (Proc.devRef .tc main_v137) = W (Proc.devRef .tc main_v137) := h12_keep W (by decide)

theorem h12_arg0 : StableHlo.after hostOps12 W (Proc.devRef .tc main_arg0) = W (Proc.devRef .tc main_arg0) := h12_keep W (by decide)
theorem h12_arg1 : StableHlo.after hostOps12 W (Proc.devRef .tc main_arg1) = W (Proc.devRef .tc main_arg1) := h12_keep W (by decide)
theorem h12_arg2 : StableHlo.after hostOps12 W (Proc.devRef .tc main_arg2) = W (Proc.devRef .tc main_arg2) := h12_keep W (by decide)
theorem h12_arg3 : StableHlo.after hostOps12 W (Proc.devRef .tc main_arg3) = W (Proc.devRef .tc main_arg3) := h12_keep W (by decide)
theorem h12_arg4 : StableHlo.after hostOps12 W (Proc.devRef .tc main_arg4) = W (Proc.devRef .tc main_arg4) := h12_keep W (by decide)
theorem h12_arg5 : StableHlo.after hostOps12 W (Proc.devRef .tc main_arg5) = W (Proc.devRef .tc main_arg5) := h12_keep W (by decide)
theorem h12_arg6 : StableHlo.after hostOps12 W (Proc.devRef .tc main_arg6) = W (Proc.devRef .tc main_arg6) := h12_keep W (by decide)
theorem h12_arg7 : StableHlo.after hostOps12 W (Proc.devRef .tc main_arg7) = W (Proc.devRef .tc main_arg7) := h12_keep W (by decide)
theorem h12_arg8 : StableHlo.after hostOps12 W (Proc.devRef .tc main_arg8) = W (Proc.devRef .tc main_arg8) := h12_keep W (by decide)
theorem h12_arg9 : StableHlo.after hostOps12 W (Proc.devRef .tc main_arg9) = W (Proc.devRef .tc main_arg9) := h12_keep W (by decide)
theorem h12_arg10 : StableHlo.after hostOps12 W (Proc.devRef .tc main_arg10) = W (Proc.devRef .tc main_arg10) := h12_keep W (by decide)
theorem h12_arg11 : StableHlo.after hostOps12 W (Proc.devRef .tc main_arg11) = W (Proc.devRef .tc main_arg11) := h12_keep W (by decide)
theorem h12_arg12 : StableHlo.after hostOps12 W (Proc.devRef .tc main_arg12) = W (Proc.devRef .tc main_arg12) := h12_keep W (by decide)
theorem h12_arg13 : StableHlo.after hostOps12 W (Proc.devRef .tc main_arg13) = W (Proc.devRef .tc main_arg13) := h12_keep W (by decide)
theorem h12_arg14 : StableHlo.after hostOps12 W (Proc.devRef .tc main_arg14) = W (Proc.devRef .tc main_arg14) := h12_keep W (by decide)
theorem h12_arg15 : StableHlo.after hostOps12 W (Proc.devRef .tc main_arg15) = W (Proc.devRef .tc main_arg15) := h12_keep W (by decide)

/-! ## The stretch `hostOps13`: the result's column as a 512 × 512 image with a leading axis -/

/-- The references the stretch writes, in order. -/
abbrev writes13 : List (Ref sig .tc) :=
  [main_v152, main_v153]

/-- Each operation of the stretch writes a reference of the list. -/
theorem hostOps13_writes :
    (hostOps13 : List (HloOp τ sig (Elt F))).Forall fun op => op.writes ⊆ (writes13.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference outside the list keeps its contents through the stretch. -/
theorem h13_keep {r : Ref sig .tc} (h : r ∉ writes13) :
    StableHlo.after hostOps13 W (Proc.devRef .tc r) = W (Proc.devRef .tc r) :=
  StableHlo.after_of_writes_sub hostOps13 W hostOps13_writes h

/-- The result: the column reshaped to 512 × 512 × 1 and its last axis moved to the front. -/
theorem h13_v153 :
    StableHlo.after hostOps13 W (Proc.devRef .tc main_v153)
      = transpose S1x512x512 [2, 0, 1] (shapeCast S512x512x1 (W (Proc.devRef .tc main_v151)) shapeCasts_S262144x1_S512x512x1)
          transposes_S512x512x1_S1x512x512_2_0_1 := by
  dsimp only [hostOps13]
  after_results
  rfl

theorem h13_arg0 : StableHlo.after hostOps13 W (Proc.devRef .tc main_arg0) = W (Proc.devRef .tc main_arg0) := h13_keep W (by decide)
theorem h13_arg1 : StableHlo.after hostOps13 W (Proc.devRef .tc main_arg1) = W (Proc.devRef .tc main_arg1) := h13_keep W (by decide)
theorem h13_arg2 : StableHlo.after hostOps13 W (Proc.devRef .tc main_arg2) = W (Proc.devRef .tc main_arg2) := h13_keep W (by decide)
theorem h13_arg3 : StableHlo.after hostOps13 W (Proc.devRef .tc main_arg3) = W (Proc.devRef .tc main_arg3) := h13_keep W (by decide)
theorem h13_arg4 : StableHlo.after hostOps13 W (Proc.devRef .tc main_arg4) = W (Proc.devRef .tc main_arg4) := h13_keep W (by decide)
theorem h13_arg5 : StableHlo.after hostOps13 W (Proc.devRef .tc main_arg5) = W (Proc.devRef .tc main_arg5) := h13_keep W (by decide)
theorem h13_arg6 : StableHlo.after hostOps13 W (Proc.devRef .tc main_arg6) = W (Proc.devRef .tc main_arg6) := h13_keep W (by decide)
theorem h13_arg7 : StableHlo.after hostOps13 W (Proc.devRef .tc main_arg7) = W (Proc.devRef .tc main_arg7) := h13_keep W (by decide)
theorem h13_arg8 : StableHlo.after hostOps13 W (Proc.devRef .tc main_arg8) = W (Proc.devRef .tc main_arg8) := h13_keep W (by decide)
theorem h13_arg9 : StableHlo.after hostOps13 W (Proc.devRef .tc main_arg9) = W (Proc.devRef .tc main_arg9) := h13_keep W (by decide)
theorem h13_arg10 : StableHlo.after hostOps13 W (Proc.devRef .tc main_arg10) = W (Proc.devRef .tc main_arg10) := h13_keep W (by decide)
theorem h13_arg11 : StableHlo.after hostOps13 W (Proc.devRef .tc main_arg11) = W (Proc.devRef .tc main_arg11) := h13_keep W (by decide)
theorem h13_arg12 : StableHlo.after hostOps13 W (Proc.devRef .tc main_arg12) = W (Proc.devRef .tc main_arg12) := h13_keep W (by decide)
theorem h13_arg13 : StableHlo.after hostOps13 W (Proc.devRef .tc main_arg13) = W (Proc.devRef .tc main_arg13) := h13_keep W (by decide)
theorem h13_arg14 : StableHlo.after hostOps13 W (Proc.devRef .tc main_arg14) = W (Proc.devRef .tc main_arg14) := h13_keep W (by decide)
theorem h13_arg15 : StableHlo.after hostOps13 W (Proc.devRef .tc main_arg15) = W (Proc.devRef .tc main_arg15) := h13_keep W (by decide)

end Cert.KernelIdeal.KHost

end
-- ==== Proof.Elu.lean ====
import Idealize.ShloMosaic.PureOps.Ideal

/-!
# The exponential linear unit on the extended reals

`elu z` is `z` where `z` is positive and `exp z - 1` elsewhere. At minus infinity it is `-1`
(the exponential there is `0`), at plus infinity it is plus infinity.
-/

noncomputable section

namespace Cert.Spec

open Idealize.ShloMosaic

/-- The exponential linear unit: the identity on the positive extended reals, `exp z - 1` on the rest. -/
def elu (z : EReal) : EReal := if 0 < z then z else Ideal.exp z - 1

theorem elu_of_pos {z : EReal} (h : 0 < z) : elu z = z := if_pos h

theorem elu_of_not_pos {z : EReal} (h : ¬ 0 < z) : elu z = Ideal.exp z - 1 := if_neg h

end Cert.Spec

end
-- ==== Proof.Spec.lean ====
import Idealize.ShloMosaic.PureOps.Ideal
import proofs.«167728_j48945447305605_1_alg».proof.Proof.Elu

/-!
# The network as functions of arrays of extended reals

Arrays are curried: a node index `i`, a feature index `j`. One graph-convolution layer is

* a linear map `lin x w = x · w`,
* the neighbourhood sum `a` of `h = lin x w` (computed elsewhere, by the same gather and scatter in
  both programs, and carried here as a variable), combined with the self loop and the bias:
  `conv a h d b = a + h · d² + b` where `d` is the inverse square root of the degree,
* then either the exponential linear unit alone (`eluA`), or a normalisation over ALL entries followed by
  an affine map and the unit. The normalisation is spelt in two ways: `lnK` takes the variance as the
  mean of the squares minus the square of the mean, clamped at zero, and multiplies by the reciprocal of
  (standard deviation + ε); `lnR` takes the variance as the mean of the squared deviations and divides by
  (standard deviation + ε). On real entries the two agree (`Cert.Spec.lnK_eq_lnR`, in the module on the
  normalisation).
-/

noncomputable section

namespace Cert.Spec

open Idealize.ShloMosaic

variable {ι α β : Type} [Fintype ι] [Fintype α] [Fintype β]

/-- The number of entries of a [262144, 64] array, 2^24, as the float word the programs divide by. -/
def cnt : EReal := Ideal.ofBits .f32 0x4B800000#32
/-- The ε of the normalisation (the float nearest 1e-5). -/
def eps : EReal := Ideal.ofBits .f32 0x3727C5AC#32
/-- The float word of 1. -/
def oneW : EReal := Ideal.ofBits .f32 0x3F800000#32
/-- The float word of 0. -/
def zeroW : EReal := Ideal.ofBits .f32 0x00000000#32

/-- The linear map: `(x · w) i j = Σ_k x i k · w k j`. -/
def lin (x : ι → α → EReal) (w : α → β → EReal) : ι → β → EReal := fun i j => ∑ k, x i k * w k j

/-- Neighbourhood sum `a`, self loop `h · d²` and bias `b`, associated as `(a + h · d²) + b`. -/
def conv (a h : ι → β → EReal) (d : ι → EReal) (b : β → EReal) : ι → β → EReal :=
  fun i j => a i j + h i j * (d i * d i) + b j

/-- The exponential linear unit, entry by entry. -/
def eluA (y : ι → β → EReal) : ι → β → EReal := fun i j => elu (y i j)

/-- The sum of all entries. -/
def total (y : ι → β → EReal) : EReal := ∑ i, ∑ j, y i j

/-- The mean of all entries: their sum divided by the count word. -/
def mean (y : ι → β → EReal) : EReal := Ideal.div (total y) cnt

/-- The variance as mean of squares minus square of mean, clamped below at zero. -/
def varK (y : ι → β → EReal) : EReal :=
  max (Ideal.div (total fun i j => y i j * y i j) cnt - mean y * mean y) zeroW

/-- The reciprocal of (standard deviation + ε), from the clamped variance. -/
def invK (y : ι → β → EReal) : EReal := Ideal.div oneW (Ideal.sqrt (varK y) + eps)

/-- Normalisation, affine map and unit, multiplying by the reciprocal `invK`. -/
def lnK (y : ι → β → EReal) (g bt : β → EReal) : ι → β → EReal :=
  fun i j => elu ((y i j - mean y) * invK y * g j + bt j)

/-- The standard deviation as the root of the mean of the squared deviations. -/
def stdR (y : ι → β → EReal) : EReal :=
  Ideal.sqrt (Ideal.div (total fun i j => (y i j - mean y) * (y i j - mean y)) cnt)

/-- Normalisation, affine map and unit, dividing by (standard deviation + ε). -/
def lnR (y : ι → β → EReal) (g bt : β → EReal) : ι → β → EReal :=
  fun i j => elu (Ideal.div (y i j - mean y) (stdR y + eps) * g j + bt j)

end Cert.Spec

end
-- ==== Proof.KHostStats.lean ====
import proofs.«167728_j48945447305605_1_alg».proof.Proof.Gen.KernelIdeal.Launch
import proofs.«167728_j48945447305605_1_alg».proof.Proof.Spec
import Idealize.ShloMosaic.Lib.ValueIdx
import Idealize.ShloMosaic.Lib.ValueLayout
import Idealize.ShloMosaic.Lib.Pipeline.Value
import Idealize.ShloMosaic.Lib.StableHlo.Run

/-!
# The host stretches between the statistics and the normalisation

After each statistics region the kernel program holds two [1, 1] arrays, the total `s = Σ y` and the total of
squares `q = Σ y²`. Nineteen host operations turn them into what the normalising region reads:

* the mean `μ = s / n` (`n` the count word), as a [1, 1] array;
* the reciprocal `1 / (√(max (q / n − μ · μ) 0) + ε)`, as a [1, 1] array;
* the scale and the shift vectors of the affine map, each reshaped from [64] to a [1, 64] row.

The three stretches (after the first, the second and the third statistics region) are the same operations on
different buffers. Their scalar part is stated once, as two functions of the totals (`meanS`, `invS`) read at
the one index of a rank-0 array; each stretch's result buffer is then one of these functions, cast to [1, 1],
of the stretch's own totals. Every other buffer the normalising region or a later segment reads — the layer's
output `y`, the edge list's two rows, the edge weights, the squared inverse-root-degree column, and the sixteen
arguments — is not written by a stretch and keeps its contents.
-/

noncomputable section

namespace Cert.KernelIdeal.KHost

open Idealize.ShloMosaic Idealize.ShloMosaic.ValueIdx Cert.KernelIdeal Cert.KernelIdeal.Gen
open Cert.Spec (cnt eps oneW zeroW)

/-! ## Arrays with one entry -/

/-- A position in an array of one entry is position 0. -/
theorem val_zero {s : Shape} (h : s.numel = 1) (k : Fin s.numel) : k.val = 0 := by have := k.isLt; omega

/-- A [1, 1] array cast to rank 0 reads its one entry. -/
theorem cast_to_scalar {α : Type} (x : S1x1.Idx → α) (h : S1x1.ShapeCasts S_) (i : S_.Idx) :
    shapeCast S_ x h i = x (ix2 0 0) :=
  shapeCast_apply x h _ _ (by rw [val_zero (by decide), val_zero (by decide)])

/-- A rank-0 array cast to [1, 1] reads its one entry. -/
theorem cast_of_scalar {α : Type} (x : S_.Idx → α) (h : S_.ShapeCasts S1x1) (j : S1x1.Idx) :
    shapeCast S1x1 x h j = x ix0 :=
  shapeCast_apply x h _ _ (by rw [val_zero (by decide), val_zero (by decide)])

/-! ## The scalar part, as functions of the totals -/

/-- The mean as the stretch computes it: the total, cast to rank 0, divided by the count word. -/
def meanS (s : FVec Ideal S1x1 .f32) : FVec Ideal S_ .f32 :=
  Host.divf (shapeCast S_ s shapeCasts_S1x1_S_) (constant (F := Ideal) S_ .f32 0x4B800000#32)

/-- The reciprocal of (standard deviation + ε) as the stretch computes it from the two totals. -/
def invS (s q : FVec Ideal S1x1 .f32) : FVec Ideal S_ .f32 :=
  Host.divf (constant (F := Ideal) S_ .f32 0x3F800000#32)
    (addf
      (Host.sqrt
        (maximumf
          (subf (Host.divf (shapeCast S_ q shapeCasts_S1x1_S_) (constant (F := Ideal) S_ .f32 0x4B800000#32))
            (mulf (meanS s) (meanS s)))
          (constant (F := Ideal) S_ .f32 0x00000000#32)))
      (constant (F := Ideal) S_ .f32 0x3727C5AC#32))

/-- The mean at the one index: the total's entry divided by the count. -/
theorem meanS_apply (s : FVec Ideal S1x1 .f32) (i : S_.Idx) : meanS s i = Ideal.div (s (ix2 0 0)) cnt := by
  show Ideal.div (shapeCast S_ s shapeCasts_S1x1_S_ i) cnt = _
  rw [cast_to_scalar]

/-- The reciprocal at the one index, in the totals' entries. -/
theorem invS_apply (s q : FVec Ideal S1x1 .f32) (i : S_.Idx) :
    invS s q i = Ideal.div oneW (Ideal.sqrt (max (Ideal.div (q (ix2 0 0)) cnt
        - Ideal.div (s (ix2 0 0)) cnt * Ideal.div (s (ix2 0 0)) cnt) zeroW) + eps) := by
  show Ideal.div oneW (Ideal.sqrt (max (Ideal.div (shapeCast S_ q shapeCasts_S1x1_S_ i) cnt
        - meanS s i * meanS s i) zeroW) + eps) = _
  rw [cast_to_scalar, meanS_apply]

/-- The mean, cast back to [1, 1], at its one entry. -/
theorem mean11 (s : FVec Ideal S1x1 .f32) :
    shapeCast S1x1 (meanS s) shapeCasts_S_S1x1 (ix2 0 0) = Ideal.div (s (ix2 0 0)) cnt := by
  rw [cast_of_scalar, meanS_apply]

/-- The reciprocal, cast back to [1, 1], at its one entry. -/
theorem inv11 (s q : FVec Ideal S1x1 .f32) :
    shapeCast S1x1 (invS s q) shapeCasts_S_S1x1 (ix2 0 0)
      = Ideal.div oneW (Ideal.sqrt (max (Ideal.div (q (ix2 0 0)) cnt
          - Ideal.div (s (ix2 0 0)) cnt * Ideal.div (s (ix2 0 0)) cnt) zeroW) + eps) := by
  rw [cast_of_scalar, invS_apply]

/-- A [64] vector reshaped to a [1, 64] row reads the vector's entry. -/
theorem row64 (g : FVec Ideal S64 .f32) (j : Fin 64) :
    shapeCast S1x64 g shapeCasts_S64_S1x64 (ix2 0 j) = g (ix1 j) :=
  shapeCast_a_1a_apply g _ 0 j

variable (W : Valuation τ sig (Elt Ideal))

/-! ## The stretch after the statistics region writing `main_v43_0` -/

/-- The mean buffer is the mean function of the total. -/
theorem h2_mean_arr : StableHlo.after (hostOps2 (F := Ideal)) W (Proc.devRef .tc main_v54)
    = shapeCast S1x1 (meanS (W (Proc.devRef .tc main_v43_1))) shapeCasts_S_S1x1 := by
  dsimp only [hostOps2]; after_results; rfl

/-- The reciprocal buffer is the reciprocal function of the two totals. -/
theorem h2_inv_arr : StableHlo.after (hostOps2 (F := Ideal)) W (Proc.devRef .tc main_v55)
    = shapeCast S1x1 (invS (W (Proc.devRef .tc main_v43_1)) (W (Proc.devRef .tc main_v43_2))) shapeCasts_S_S1x1 := by
  dsimp only [hostOps2]; after_results; rfl

/-- The scale row is the scale vector reshaped. -/
theorem h2_g_arr : StableHlo.after (hostOps2 (F := Ideal)) W (Proc.devRef .tc main_v56)
    = shapeCast S1x64 (W (Proc.devRef .tc main_arg12)) shapeCasts_S64_S1x64 := by
  dsimp only [hostOps2]; after_results; rfl

/-- The shift row is the shift vector reshaped. -/
theorem h2_beta_arr : StableHlo.after (hostOps2 (F := Ideal)) W (Proc.devRef .tc main_v57)
    = shapeCast S1x64 (W (Proc.devRef .tc main_arg13)) shapeCasts_S64_S1x64 := by
  dsimp only [hostOps2]; after_results; rfl

/-- The mean: the total divided by the count. -/
theorem h2_mean : StableHlo.after (hostOps2 (F := Ideal)) W (Proc.devRef .tc main_v54) (ix2 0 0)
    = Ideal.div (W (Proc.devRef .tc main_v43_1) (ix2 0 0)) cnt :=
  (congrFun (h2_mean_arr W) (ix2 0 0)).trans (mean11 _)

/-- The reciprocal of (standard deviation + ε), the variance as the mean of squares minus the square of the mean,
    clamped at zero. -/
theorem h2_inv : StableHlo.after (hostOps2 (F := Ideal)) W (Proc.devRef .tc main_v55) (ix2 0 0)
    = Ideal.div oneW (Ideal.sqrt (max (Ideal.div (W (Proc.devRef .tc main_v43_2) (ix2 0 0)) cnt
        - Ideal.div (W (Proc.devRef .tc main_v43_1) (ix2 0 0)) cnt * Ideal.div (W (Proc.devRef .tc main_v43_1) (ix2 0 0)) cnt) zeroW) + eps) :=
  (congrFun (h2_inv_arr W) (ix2 0 0)).trans (inv11 _ _)

/-- The scale row at column `j`. -/
theorem h2_g (j : Fin 64) : StableHlo.after (hostOps2 (F := Ideal)) W (Proc.devRef .tc main_v56) (ix2 0 j)
    = W (Proc.devRef .tc main_arg12) (ix1 j) :=
  (congrFun (h2_g_arr W) (ix2 0 j)).trans (row64 _ j)

/-- The shift row at column `j`. -/
theorem h2_beta (j : Fin 64) : StableHlo.after (hostOps2 (F := Ideal)) W (Proc.devRef .tc main_v57) (ix2 0 j)
    = W (Proc.devRef .tc main_arg13) (ix1 j) :=
  (congrFun (h2_beta_arr W) (ix2 0 j)).trans (row64 _ j)

/-- A buffer that is none of the stretch's nineteen result buffers keeps its contents. -/
theorem h2_keep (b : Ref sig .tc)
    (hb : ∀ op ∈ (hostOps2 (F := Ideal)), (Proc.devRef .tc b : DevRef τ sig) ∉ op.writes) :
    StableHlo.after (hostOps2 (F := Ideal)) W (Proc.devRef .tc b) = W (Proc.devRef .tc b) :=
  StableHlo.after_of_forall_not_mem _ _ hb

theorem h2_keep_v43_0 : StableHlo.after (hostOps2 (F := Ideal)) W (Proc.devRef .tc main_v43_0) = W (Proc.devRef .tc main_v43_0) :=
  StableHlo.after_of_forall_not_mem (b := Proc.devRef .tc main_v43_0) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem h2_keep_v1 : StableHlo.after (hostOps2 (F := Ideal)) W (Proc.devRef .tc main_v1) = W (Proc.devRef .tc main_v1) :=
  StableHlo.after_of_forall_not_mem (b := Proc.devRef .tc main_v1) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem h2_keep_v3 : StableHlo.after (hostOps2 (F := Ideal)) W (Proc.devRef .tc main_v3) = W (Proc.devRef .tc main_v3) :=
  StableHlo.after_of_forall_not_mem (b := Proc.devRef .tc main_v3) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem h2_keep_v25 : StableHlo.after (hostOps2 (F := Ideal)) W (Proc.devRef .tc main_v25) = W (Proc.devRef .tc main_v25) :=
  StableHlo.after_of_forall_not_mem (b := Proc.devRef .tc main_v25) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem h2_keep_v27 : StableHlo.after (hostOps2 (F := Ideal)) W (Proc.devRef .tc main_v27) = W (Proc.devRef .tc main_v27) :=
  StableHlo.after_of_forall_not_mem (b := Proc.devRef .tc main_v27) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem h2_keep_arg0 : StableHlo.after (hostOps2 (F := Ideal)) W (Proc.devRef .tc main_arg0) = W (Proc.devRef .tc main_arg0) :=
  StableHlo.after_of_forall_not_mem (b := Proc.devRef .tc main_arg0) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem h2_keep_arg1 : StableHlo.after (hostOps2 (F := Ideal)) W (Proc.devRef .tc main_arg1) = W (Proc.devRef .tc main_arg1) :=
  StableHlo.after_of_forall_not_mem (b := Proc.devRef .tc main_arg1) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem h2_keep_arg2 : StableHlo.after (hostOps2 (F := Ideal)) W (Proc.devRef .tc main_arg2) = W (Proc.devRef .tc main_arg2) :=
  StableHlo.after_of_forall_not_mem (b := Proc.devRef .tc main_arg2) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem h2_keep_arg3 : StableHlo.after (hostOps2 (F := Ideal)) W (Proc.devRef .tc main_arg3) = W (Proc.devRef .tc main_arg3) :=
  StableHlo.after_of_forall_not_mem (b := Proc.devRef .tc main_arg3) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem h2_keep_arg4 : StableHlo.after (hostOps2 (F := Ideal)) W (Proc.devRef .tc main_arg4) = W (Proc.devRef .tc main_arg4) :=
  StableHlo.after_of_forall_not_mem (b := Proc.devRef .tc main_arg4) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem h2_keep_arg5 : StableHlo.after (hostOps2 (F := Ideal)) W (Proc.devRef .tc main_arg5) = W (Proc.devRef .tc main_arg5) :=
  StableHlo.after_of_forall_not_mem (b := Proc.devRef .tc main_arg5) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem h2_keep_arg6 : StableHlo.after (hostOps2 (F := Ideal)) W (Proc.devRef .tc main_arg6) = W (Proc.devRef .tc main_arg6) :=
  StableHlo.after_of_forall_not_mem (b := Proc.devRef .tc main_arg6) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem h2_keep_arg7 : StableHlo.after (hostOps2 (F := Ideal)) W (Proc.devRef .tc main_arg7) = W (Proc.devRef .tc main_arg7) :=
  StableHlo.after_of_forall_not_mem (b := Proc.devRef .tc main_arg7) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem h2_keep_arg8 : StableHlo.after (hostOps2 (F := Ideal)) W (Proc.devRef .tc main_arg8) = W (Proc.devRef .tc main_arg8) :=
  StableHlo.after_of_forall_not_mem (b := Proc.devRef .tc main_arg8) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem h2_keep_arg9 : StableHlo.after (hostOps2 (F := Ideal)) W (Proc.devRef .tc main_arg9) = W (Proc.devRef .tc main_arg9) :=
  StableHlo.after_of_forall_not_mem (b := Proc.devRef .tc main_arg9) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem h2_keep_arg10 : StableHlo.after (hostOps2 (F := Ideal)) W (Proc.devRef .tc main_arg10) = W (Proc.devRef .tc main_arg10) :=
  StableHlo.after_of_forall_not_mem (b := Proc.devRef .tc main_arg10) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem h2_keep_arg11 : StableHlo.after (hostOps2 (F := Ideal)) W (Proc.devRef .tc main_arg11) = W (Proc.devRef .tc main_arg11) :=
  StableHlo.after_of_forall_not_mem (b := Proc.devRef .tc main_arg11) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem h2_keep_arg12 : StableHlo.after (hostOps2 (F := Ideal)) W (Proc.devRef .tc main_arg12) = W (Proc.devRef .tc main_arg12) :=
  StableHlo.after_of_forall_not_mem (b := Proc.devRef .tc main_arg12) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem h2_keep_arg13 : StableHlo.after (hostOps2 (F := Ideal)) W (Proc.devRef .tc main_arg13) = W (Proc.devRef .tc main_arg13) :=
  StableHlo.after_of_forall_not_mem (b := Proc.devRef .tc main_arg13) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem h2_keep_arg14 : StableHlo.after (hostOps2 (F := Ideal)) W (Proc.devRef .tc main_arg14) = W (Proc.devRef .tc main_arg14) :=
  StableHlo.after_of_forall_not_mem (b := Proc.devRef .tc main_arg14) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem h2_keep_arg15 : StableHlo.after (hostOps2 (F := Ideal)) W (Proc.devRef .tc main_arg15) = W (Proc.devRef .tc main_arg15) :=
  StableHlo.after_of_forall_not_mem (b := Proc.devRef .tc main_arg15) _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

/-! ## The stretch after the statistics region writing `main_v74_0` -/

/-- The mean buffer is the mean function of the total. -/
theorem h5_mean_arr : StableHlo.after (hostOps5 (F := Ideal)) W (Proc.devRef .tc main_v85)
    = shapeCast S1x1 (meanS (W (Proc.devRef .tc main_v74_1))) shapeCasts_S_S1x1 := by
  dsimp only [hostOps5]; after_results; rfl

/-- The reciprocal buffer is the reciprocal function of the two totals. -/
theorem h5_inv_arr : StableHlo.after (hostOps5 (F := Ideal)) W (Proc.devRef .tc main_v86)
    = shapeCast S1x1 (invS (W (Proc.devRef .tc main_v74_1)) (W (Proc.devRef .tc main_v74_2))) shapeCasts_S_S1x1 := by
  dsimp only [hostOps5]; after_results; rfl

/-- The scale row is the scale vector reshaped. -/
theorem h5_g_arr : StableHlo.after (hostOps5 (F := Ideal)) W (Proc.devRef .tc main_v87)
    = shapeCast S1x64 (W (Proc.devRef .tc main_arg12)) shapeCasts_S64_S1x64 := by
  dsimp only [hostOps5]; after_results; rfl

/-- The shift row is the shift vector reshaped. -/
theorem h5_beta_arr : StableHlo.after (hostOps5 (F := Ideal)) W (Proc.devRef .tc main_v88)
    = shapeCast S1x64 (W (Proc.devRef .tc main_arg13)) shapeCasts_S64_S1x64 := by
  dsimp only [hostOps5]; after_results; rfl

/-- The mean: the total divided by the count. -/
theorem h5_mean : StableHlo.after (hostOps5 (F := Ideal)) W (Proc.devRef .tc main_v85) (ix2 0 0)
    = Ideal.div (W (Proc.devRef .tc main_v74_1) (ix2 0 0)) cnt :=
  (congrFun (h5_mean_arr W) (ix2 0 0)).trans (mean11 _)

/-- The reciprocal of (standard deviation + ε), the variance as the mean of squares minus the square of the mean,
    clamped at zero. -/
theorem h5_inv : StableHlo.after (hostOps5 (F := Ideal)) W (Proc.devRef .tc main_v86) (ix2 0 0)
    = Ideal.div oneW (Ideal.sqrt (max (Ideal.div (W (Proc.devRef .tc main_v74_2) (ix2 0 0)) cnt
        - Ideal.div (W (Proc.devRef .tc main_v74_1) (ix2 0 0)) cnt * Ideal.div (W (Proc.devRef .tc main_v74_1) (ix2 0 0)) cnt) zeroW) + eps) :=
  (congrFun (h5_inv_arr W) (ix2 0 0)).trans (inv11 _ _)

/-- The scale row at column `j`. -/
theorem h5_g (j : Fin 64) : StableHlo.after (hostOps5 (F := Ideal)) W (Proc.devRef .tc main_v87) (ix2 0 j)
    = W (Proc.devRef .tc main_arg12) (ix1 j) :=
  (congrFun (h5_g_arr W) (ix2 0 j)).trans (row64 _ j)

/-- The shift row at column `j`. -/
theorem h5_beta (j : Fin 64) : StableHlo.after (hostOps5 (F := Ideal)) W (Proc.devRef .tc main_v88) (ix2 0 j)
    = W (Proc.devRef .tc main_arg13) (ix1 j) :=
  (congrFun (h5_beta_arr W) (ix2 0 j)).trans (row64 _ j)

/-- A buffer that is none of the stretch's nineteen result buffers keeps its contents. -/
theorem h5_keep (b : Ref sig .tc)
    (hb : ∀ op ∈ (hostOps5 (F := Ideal)), (Proc.devRef .tc b : DevRef τ sig) ∉ op.writes) :
    StableHlo.after (hostOps5 (F := Ideal)) W (Proc.devRef .tc b) = W (Proc.devRef .tc b) :=
  StableHlo.after_of_forall_not_mem _ _ hb

theorem h5_keep_v74_0 : StableHlo.after (hostOps5 (F := Ideal)) W (Proc.devRef .tc main_v74_0) = W (Proc.devRef .tc main_v74_0) :=
  StableHlo.after_of_forall_not_mem (b := Proc.devRef .tc main_v74_0) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

theorem h5_keep_v1 : StableHlo.after (hostOps5 (F := Ideal)) W (Proc.devRef .tc main_v1) = W (Proc.devRef .tc main_v1) :=
  StableHlo.after_of_forall_not_mem (b := Proc.devRef .tc main_v1) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

theorem h5_keep_v3 : StableHlo.after (hostOps5 (F := Ideal)) W (Proc.devRef .tc main_v3) = W (Proc.devRef .tc main_v3) :=
  StableHlo.after_of_forall_not_mem (b := Proc.devRef .tc main_v3) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

theorem h5_keep_v25 : StableHlo.after (hostOps5 (F := Ideal)) W (Proc.devRef .tc main_v25) = W (Proc.devRef .tc main_v25) :=
  StableHlo.after_of_forall_not_mem (b := Proc.devRef .tc main_v25) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

theorem h5_keep_v27 : StableHlo.after (hostOps5 (F := Ideal)) W (Proc.devRef .tc main_v27) = W (Proc.devRef .tc main_v27) :=
  StableHlo.after_of_forall_not_mem (b := Proc.devRef .tc main_v27) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

theorem h5_keep_arg0 : StableHlo.after (hostOps5 (F := Ideal)) W (Proc.devRef .tc main_arg0) = W (Proc.devRef .tc main_arg0) :=
  StableHlo.after_of_forall_not_mem (b := Proc.devRef .tc main_arg0) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

theorem h5_keep_arg1 : StableHlo.after (hostOps5 (F := Ideal)) W (Proc.devRef .tc main_arg1) = W (Proc.devRef .tc main_arg1) :=
  StableHlo.after_of_forall_not_mem (b := Proc.devRef .tc main_arg1) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

theorem h5_keep_arg2 : StableHlo.after (hostOps5 (F := Ideal)) W (Proc.devRef .tc main_arg2) = W (Proc.devRef .tc main_arg2) :=
  StableHlo.after_of_forall_not_mem (b := Proc.devRef .tc main_arg2) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

theorem h5_keep_arg3 : StableHlo.after (hostOps5 (F := Ideal)) W (Proc.devRef .tc main_arg3) = W (Proc.devRef .tc main_arg3) :=
  StableHlo.after_of_forall_not_mem (b := Proc.devRef .tc main_arg3) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

theorem h5_keep_arg4 : StableHlo.after (hostOps5 (F := Ideal)) W (Proc.devRef .tc main_arg4) = W (Proc.devRef .tc main_arg4) :=
  StableHlo.after_of_forall_not_mem (b := Proc.devRef .tc main_arg4) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

theorem h5_keep_arg5 : StableHlo.after (hostOps5 (F := Ideal)) W (Proc.devRef .tc main_arg5) = W (Proc.devRef .tc main_arg5) :=
  StableHlo.after_of_forall_not_mem (b := Proc.devRef .tc main_arg5) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

theorem h5_keep_arg6 : StableHlo.after (hostOps5 (F := Ideal)) W (Proc.devRef .tc main_arg6) = W (Proc.devRef .tc main_arg6) :=
  StableHlo.after_of_forall_not_mem (b := Proc.devRef .tc main_arg6) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

theorem h5_keep_arg7 : StableHlo.after (hostOps5 (F := Ideal)) W (Proc.devRef .tc main_arg7) = W (Proc.devRef .tc main_arg7) :=
  StableHlo.after_of_forall_not_mem (b := Proc.devRef .tc main_arg7) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

theorem h5_keep_arg8 : StableHlo.after (hostOps5 (F := Ideal)) W (Proc.devRef .tc main_arg8) = W (Proc.devRef .tc main_arg8) :=
  StableHlo.after_of_forall_not_mem (b := Proc.devRef .tc main_arg8) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

theorem h5_keep_arg9 : StableHlo.after (hostOps5 (F := Ideal)) W (Proc.devRef .tc main_arg9) = W (Proc.devRef .tc main_arg9) :=
  StableHlo.after_of_forall_not_mem (b := Proc.devRef .tc main_arg9) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

theorem h5_keep_arg10 : StableHlo.after (hostOps5 (F := Ideal)) W (Proc.devRef .tc main_arg10) = W (Proc.devRef .tc main_arg10) :=
  StableHlo.after_of_forall_not_mem (b := Proc.devRef .tc main_arg10) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

theorem h5_keep_arg11 : StableHlo.after (hostOps5 (F := Ideal)) W (Proc.devRef .tc main_arg11) = W (Proc.devRef .tc main_arg11) :=
  StableHlo.after_of_forall_not_mem (b := Proc.devRef .tc main_arg11) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

theorem h5_keep_arg12 : StableHlo.after (hostOps5 (F := Ideal)) W (Proc.devRef .tc main_arg12) = W (Proc.devRef .tc main_arg12) :=
  StableHlo.after_of_forall_not_mem (b := Proc.devRef .tc main_arg12) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

theorem h5_keep_arg13 : StableHlo.after (hostOps5 (F := Ideal)) W (Proc.devRef .tc main_arg13) = W (Proc.devRef .tc main_arg13) :=
  StableHlo.after_of_forall_not_mem (b := Proc.devRef .tc main_arg13) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

theorem h5_keep_arg14 : StableHlo.after (hostOps5 (F := Ideal)) W (Proc.devRef .tc main_arg14) = W (Proc.devRef .tc main_arg14) :=
  StableHlo.after_of_forall_not_mem (b := Proc.devRef .tc main_arg14) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

theorem h5_keep_arg15 : StableHlo.after (hostOps5 (F := Ideal)) W (Proc.devRef .tc main_arg15) = W (Proc.devRef .tc main_arg15) :=
  StableHlo.after_of_forall_not_mem (b := Proc.devRef .tc main_arg15) _ _ (List.forall_iff_forall_mem.mp (by
    simp only [hostOps5, List.Forall, StableHlo.nullary_writes, StableHlo.unary_writes, StableHlo.binary_writes, StableHlo.reshape_writes, Finset.mem_singleton]
    repeat' apply And.intro
    all_goals exact StableHlo.devRef_ne_of_ne (by decide)))

/-! ## The stretch after the statistics region writing `main_v105_0` -/

/-- The mean buffer is the mean function of the total. -/
theorem h8_mean_arr : StableHlo.after (hostOps8 (F := Ideal)) W (Proc.devRef .tc main_v116)
    = shapeCast S1x1 (meanS (W (Proc.devRef .tc main_v105_1))) shapeCasts_S_S1x1 := by
  dsimp only [hostOps8]; after_results; rfl

/-- The reciprocal buffer is the reciprocal function of the two totals. -/
theorem h8_inv_arr : StableHlo.after (hostOps8 (F := Ideal)) W (Proc.devRef .tc main_v117)
    = shapeCast S1x1 (invS (W (Proc.devRef .tc main_v105_1)) (W (Proc.devRef .tc main_v105_2))) shapeCasts_S_S1x1 := by
  dsimp only [hostOps8]; after_results; rfl

/-- The scale row is the scale vector reshaped. -/
theorem h8_g_arr : StableHlo.after (hostOps8 (F := Ideal)) W (Proc.devRef .tc main_v118)
    = shapeCast S1x64 (W (Proc.devRef .tc main_arg14)) shapeCasts_S64_S1x64 := by
  dsimp only [hostOps8]; after_results; rfl

/-- The shift row is the shift vector reshaped. -/
theorem h8_beta_arr : StableHlo.after (hostOps8 (F := Ideal)) W (Proc.devRef .tc main_v119)
    = shapeCast S1x64 (W (Proc.devRef .tc main_arg15)) shapeCasts_S64_S1x64 := by
  dsimp only [hostOps8]; after_results; rfl

/-- The mean: the total divided by the count. -/
theorem h8_mean : StableHlo.after (hostOps8 (F := Ideal)) W (Proc.devRef .tc main_v116) (ix2 0 0)
    = Ideal.div (W (Proc.devRef .tc main_v105_1) (ix2 0 0)) cnt :=
  (congrFun (h8_mean_arr W) (ix2 0 0)).trans (mean11 _)

/-- The reciprocal of (standard deviation + ε), the variance as the mean of squares minus the square of the mean,
    clamped at zero. -/
theorem h8_inv : StableHlo.after (hostOps8 (F := Ideal)) W (Proc.devRef .tc main_v117) (ix2 0 0)
    = Ideal.div oneW (Ideal.sqrt (max (Ideal.div (W (Proc.devRef .tc main_v105_2) (ix2 0 0)) cnt
        - Ideal.div (W (Proc.devRef .tc main_v105_1) (ix2 0 0)) cnt * Ideal.div (W (Proc.devRef .tc main_v105_1) (ix2 0 0)) cnt) zeroW) + eps) :=
  (congrFun (h8_inv_arr W) (ix2 0 0)).trans (inv11 _ _)

/-- The scale row at column `j`. -/
theorem h8_g (j : Fin 64) : StableHlo.after (hostOps8 (F := Ideal)) W (Proc.devRef .tc main_v118) (ix2 0 j)
    = W (Proc.devRef .tc main_arg14) (ix1 j) :=
  (congrFun (h8_g_arr W) (ix2 0 j)).trans (row64 _ j)

/-- The shift row at column `j`. -/
theorem h8_beta (j : Fin 64) : StableHlo.after (hostOps8 (F := Ideal)) W (Proc.devRef .tc main_v119) (ix2 0 j)
    = W (Proc.devRef .tc main_arg15) (ix1 j) :=
  (congrFun (h8_beta_arr W) (ix2 0 j)).trans (row64 _ j)

/-- A buffer that is none of the stretch's nineteen result buffers keeps its contents. -/
theorem h8_keep (b : Ref sig .tc)
    (hb : ∀ op ∈ (hostOps8 (F := Ideal)), (Proc.devRef .tc b : DevRef τ sig) ∉ op.writes) :
    StableHlo.after (hostOps8 (F := Ideal)) W (Proc.devRef .tc b) = W (Proc.devRef .tc b) :=
  StableHlo.after_of_forall_not_mem _ _ hb

theorem h8_keep_v105_0 : StableHlo.after (hostOps8 (F := Ideal)) W (Proc.devRef .tc main_v105_0) = W (Proc.devRef .tc main_v105_0) :=
  StableHlo.after_of_forall_not_mem (b := Proc.devRef .tc main_v105_0) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

theorem h8_keep_v1 : StableHlo.after (hostOps8 (F := Ideal)) W (Proc.devRef .tc main_v1) = W (Proc.devRef .tc main_v1) :=
  StableHlo.after_of_forall_not_mem (b := Proc.devRef .tc main_v1) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

theorem h8_keep_v3 : StableHlo.after (hostOps8 (F := Ideal)) W (Proc.devRef .tc main_v3) = W (Proc.devRef .tc main_v3) :=
  StableHlo.after_of_forall_not_mem (b := Proc.devRef .tc main_v3) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

theorem h8_keep_v25 : StableHlo.after (hostOps8 (F := Ideal)) W (Proc.devRef .tc main_v25) = W (Proc.devRef .tc main_v25) :=
  StableHlo.after_of_forall_not_mem (b := Proc.devRef .tc main_v25) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

theorem h8_keep_v27 : StableHlo.after (hostOps8 (F := Ideal)) W (Proc.devRef .tc main_v27) = W (Proc.devRef .tc main_v27) :=
  StableHlo.after_of_forall_not_mem (b := Proc.devRef .tc main_v27) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

theorem h8_keep_arg0 : StableHlo.after (hostOps8 (F := Ideal)) W (Proc.devRef .tc main_arg0) = W (Proc.devRef .tc main_arg0) :=
  StableHlo.after_of_forall_not_mem (b := Proc.devRef .tc main_arg0) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

theorem h8_keep_arg1 : StableHlo.after (hostOps8 (F := Ideal)) W (Proc.devRef .tc main_arg1) = W (Proc.devRef .tc main_arg1) :=
  StableHlo.after_of_forall_not_mem (b := Proc.devRef .tc main_arg1) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

theorem h8_keep_arg2 : StableHlo.after (hostOps8 (F := Ideal)) W (Proc.devRef .tc main_arg2) = W (Proc.devRef .tc main_arg2) :=
  StableHlo.after_of_forall_not_mem (b := Proc.devRef .tc main_arg2) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

theorem h8_keep_arg3 : StableHlo.after (hostOps8 (F := Ideal)) W (Proc.devRef .tc main_arg3) = W (Proc.devRef .tc main_arg3) :=
  StableHlo.after_of_forall_not_mem (b := Proc.devRef .tc main_arg3) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

theorem h8_keep_arg4 : StableHlo.after (hostOps8 (F := Ideal)) W (Proc.devRef .tc main_arg4) = W (Proc.devRef .tc main_arg4) :=
  StableHlo.after_of_forall_not_mem (b := Proc.devRef .tc main_arg4) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

theorem h8_keep_arg5 : StableHlo.after (hostOps8 (F := Ideal)) W (Proc.devRef .tc main_arg5) = W (Proc.devRef .tc main_arg5) :=
  StableHlo.after_of_forall_not_mem (b := Proc.devRef .tc main_arg5) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

theorem h8_keep_arg6 : StableHlo.after (hostOps8 (F := Ideal)) W (Proc.devRef .tc main_arg6) = W (Proc.devRef .tc main_arg6) :=
  StableHlo.after_of_forall_not_mem (b := Proc.devRef .tc main_arg6) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

theorem h8_keep_arg7 : StableHlo.after (hostOps8 (F := Ideal)) W (Proc.devRef .tc main_arg7) = W (Proc.devRef .tc main_arg7) :=
  StableHlo.after_of_forall_not_mem (b := Proc.devRef .tc main_arg7) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

theorem h8_keep_arg8 : StableHlo.after (hostOps8 (F := Ideal)) W (Proc.devRef .tc main_arg8) = W (Proc.devRef .tc main_arg8) :=
  StableHlo.after_of_forall_not_mem (b := Proc.devRef .tc main_arg8) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

theorem h8_keep_arg9 : StableHlo.after (hostOps8 (F := Ideal)) W (Proc.devRef .tc main_arg9) = W (Proc.devRef .tc main_arg9) :=
  StableHlo.after_of_forall_not_mem (b := Proc.devRef .tc main_arg9) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

theorem h8_keep_arg10 : StableHlo.after (hostOps8 (F := Ideal)) W (Proc.devRef .tc main_arg10) = W (Proc.devRef .tc main_arg10) :=
  StableHlo.after_of_forall_not_mem (b := Proc.devRef .tc main_arg10) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

theorem h8_keep_arg11 : StableHlo.after (hostOps8 (F := Ideal)) W (Proc.devRef .tc main_arg11) = W (Proc.devRef .tc main_arg11) :=
  StableHlo.after_of_forall_not_mem (b := Proc.devRef .tc main_arg11) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

theorem h8_keep_arg12 : StableHlo.after (hostOps8 (F := Ideal)) W (Proc.devRef .tc main_arg12) = W (Proc.devRef .tc main_arg12) :=
  StableHlo.after_of_forall_not_mem (b := Proc.devRef .tc main_arg12) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

theorem h8_keep_arg13 : StableHlo.after (hostOps8 (F := Ideal)) W (Proc.devRef .tc main_arg13) = W (Proc.devRef .tc main_arg13) :=
  StableHlo.after_of_forall_not_mem (b := Proc.devRef .tc main_arg13) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

theorem h8_keep_arg14 : StableHlo.after (hostOps8 (F := Ideal)) W (Proc.devRef .tc main_arg14) = W (Proc.devRef .tc main_arg14) :=
  StableHlo.after_of_forall_not_mem (b := Proc.devRef .tc main_arg14) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

theorem h8_keep_arg15 : StableHlo.after (hostOps8 (F := Ideal)) W (Proc.devRef .tc main_arg15) = W (Proc.devRef .tc main_arg15) :=
  StableHlo.after_of_forall_not_mem (b := Proc.devRef .tc main_arg15) _ _ (List.forall_iff_forall_mem.mp (by
    simp only [hostOps8, List.Forall, StableHlo.nullary_writes, StableHlo.unary_writes, StableHlo.binary_writes, StableHlo.reshape_writes, Finset.mem_singleton]
    repeat' apply And.intro
    all_goals exact StableHlo.devRef_ne_of_ne (by decide)))

end Cert.KernelIdeal.KHost

end
-- ==== Proof.KKeep.lean ====
import proofs.«167728_j48945447305605_1_alg».proof.Proof.Gen.KernelIdeal.Frame
import proofs.«167728_j48945447305605_1_alg».proof.Proof.KHostGlue
import proofs.«167728_j48945447305605_1_alg».proof.Proof.KHostStats

/-!
# What the kernel program's buffers hold at the boundaries between its segments

The kernel program runs as host stretches and regions in turn; `Gen.W0 … Gen.W23` are the buffer contents
at the boundaries. No stretch and no region writes an argument array, so at every boundary an argument's
buffer holds what the launch memory `m` holds. The first stretch computes, from the edge list (argument 1),
the sources, the destinations, the edge weights and the squared inverse root degree; no later stretch and no
region writes them (a region that reads the squared inverse root degree reads it through an input window,
which is never written back), so from the first boundary on they hold the shared functions of `Cert.Glue`
of the launch edge list. One statement per buffer and boundary, each from the boundary before.
-/

noncomputable section

namespace Cert.KernelIdeal.KVal

open Idealize.ShloMosaic Idealize.ShloMosaic.TcCoe Cert.KernelIdeal Cert.KernelIdeal.Gen Cert.Glue

variable (m : (ℓ : Loc nD τ sig) → Buf (Elt Ideal) ℓ) (ρ : Dev nD → PrngReg) (c : Dev nD)

/-! ## The arguments: at every boundary what the launch memory holds -/

theorem arg0_at_W0 : W0 m ρ c (Proc.devRef .tc main_arg0) = m ((c.tc : Thread nD τ).loc main_arg0) := rfl
theorem arg0_at_W1 : W1 m ρ c (Proc.devRef .tc main_arg0) = m ((c.tc : Thread nD τ).loc main_arg0) :=
  (KHost.h0_arg0 (W0 m ρ c)).trans (arg0_at_W0 m ρ c)
theorem arg0_at_W2 : W2 m ρ c (Proc.devRef .tc main_arg0) = m ((c.tc : Thread nD τ).loc main_arg0) :=
  ((W2_arr m ρ c 0).trans (((dat0 (V1 m ρ) c).arrAt_in 0 rfl _).trans (A_eq0 (V1 m ρ) c 0))).trans (arg0_at_W1 m ρ c)
theorem arg0_at_W3 : W3 m ρ c (Proc.devRef .tc main_arg0) = m ((c.tc : Thread nD τ).loc main_arg0) :=
  (KHost.h1_arg0 (W2 m ρ c)).trans (arg0_at_W2 m ρ c)
theorem arg0_at_W4 : W4 m ρ c (Proc.devRef .tc main_arg0) = m ((c.tc : Thread nD τ).loc main_arg0) :=
  (W4_of_ne m ρ c main_arg0 (by decide)).trans (arg0_at_W3 m ρ c)
theorem arg0_at_W5 : W5 m ρ c (Proc.devRef .tc main_arg0) = m ((c.tc : Thread nD τ).loc main_arg0) :=
  (KHost.h2_keep_arg0 (W4 m ρ c)).trans (arg0_at_W4 m ρ c)
theorem arg0_at_W6 : W6 m ρ c (Proc.devRef .tc main_arg0) = m ((c.tc : Thread nD τ).loc main_arg0) :=
  (W6_of_ne m ρ c main_arg0 (by decide)).trans (arg0_at_W5 m ρ c)
theorem arg0_at_W7 : W7 m ρ c (Proc.devRef .tc main_arg0) = m ((c.tc : Thread nD τ).loc main_arg0) :=
  (W7_of_ne m ρ c main_arg0 (by decide)).trans (arg0_at_W6 m ρ c)
theorem arg0_at_W8 : W8 m ρ c (Proc.devRef .tc main_arg0) = m ((c.tc : Thread nD τ).loc main_arg0) :=
  (KHost.h4_arg0 (W7 m ρ c)).trans (arg0_at_W7 m ρ c)
theorem arg0_at_W9 : W9 m ρ c (Proc.devRef .tc main_arg0) = m ((c.tc : Thread nD τ).loc main_arg0) :=
  (W9_of_ne m ρ c main_arg0 (by decide)).trans (arg0_at_W8 m ρ c)
theorem arg0_at_W10 : W10 m ρ c (Proc.devRef .tc main_arg0) = m ((c.tc : Thread nD τ).loc main_arg0) :=
  (KHost.h5_keep_arg0 (W9 m ρ c)).trans (arg0_at_W9 m ρ c)
theorem arg0_at_W11 : W11 m ρ c (Proc.devRef .tc main_arg0) = m ((c.tc : Thread nD τ).loc main_arg0) :=
  (W11_of_ne m ρ c main_arg0 (by decide)).trans (arg0_at_W10 m ρ c)
theorem arg0_at_W12 : W12 m ρ c (Proc.devRef .tc main_arg0) = m ((c.tc : Thread nD τ).loc main_arg0) :=
  (W12_of_ne m ρ c main_arg0 (by decide)).trans (arg0_at_W11 m ρ c)
theorem arg0_at_W13 : W13 m ρ c (Proc.devRef .tc main_arg0) = m ((c.tc : Thread nD τ).loc main_arg0) :=
  (KHost.h7_arg0 (W12 m ρ c)).trans (arg0_at_W12 m ρ c)
theorem arg0_at_W14 : W14 m ρ c (Proc.devRef .tc main_arg0) = m ((c.tc : Thread nD τ).loc main_arg0) :=
  (W14_of_ne m ρ c main_arg0 (by decide)).trans (arg0_at_W13 m ρ c)
theorem arg0_at_W15 : W15 m ρ c (Proc.devRef .tc main_arg0) = m ((c.tc : Thread nD τ).loc main_arg0) :=
  (KHost.h8_keep_arg0 (W14 m ρ c)).trans (arg0_at_W14 m ρ c)
theorem arg0_at_W16 : W16 m ρ c (Proc.devRef .tc main_arg0) = m ((c.tc : Thread nD τ).loc main_arg0) :=
  (W16_of_ne m ρ c main_arg0 (by decide)).trans (arg0_at_W15 m ρ c)
theorem arg0_at_W17 : W17 m ρ c (Proc.devRef .tc main_arg0) = m ((c.tc : Thread nD τ).loc main_arg0) :=
  (W17_of_ne m ρ c main_arg0 (by decide)).trans (arg0_at_W16 m ρ c)
theorem arg0_at_W18 : W18 m ρ c (Proc.devRef .tc main_arg0) = m ((c.tc : Thread nD τ).loc main_arg0) :=
  (KHost.h10_arg0 (W17 m ρ c)).trans (arg0_at_W17 m ρ c)
theorem arg0_at_W19 : W19 m ρ c (Proc.devRef .tc main_arg0) = m ((c.tc : Thread nD τ).loc main_arg0) :=
  (W19_of_ne m ρ c main_arg0 (by decide)).trans (arg0_at_W18 m ρ c)
theorem arg0_at_W20 : W20 m ρ c (Proc.devRef .tc main_arg0) = m ((c.tc : Thread nD τ).loc main_arg0) :=
  (W20_of_ne m ρ c main_arg0 (by decide)).trans (arg0_at_W19 m ρ c)
theorem arg0_at_W21 : W21 m ρ c (Proc.devRef .tc main_arg0) = m ((c.tc : Thread nD τ).loc main_arg0) :=
  (KHost.h12_arg0 (W20 m ρ c)).trans (arg0_at_W20 m ρ c)
theorem arg0_at_W22 : W22 m ρ c (Proc.devRef .tc main_arg0) = m ((c.tc : Thread nD τ).loc main_arg0) :=
  (W22_of_ne m ρ c main_arg0 (by decide)).trans (arg0_at_W21 m ρ c)
theorem arg0_at_W23 : W23 m ρ c (Proc.devRef .tc main_arg0) = m ((c.tc : Thread nD τ).loc main_arg0) :=
  (KHost.h13_arg0 (W22 m ρ c)).trans (arg0_at_W22 m ρ c)

theorem arg1_at_W0 : W0 m ρ c (Proc.devRef .tc main_arg1) = m ((c.tc : Thread nD τ).loc main_arg1) := rfl
theorem arg1_at_W1 : W1 m ρ c (Proc.devRef .tc main_arg1) = m ((c.tc : Thread nD τ).loc main_arg1) :=
  (KHost.h0_arg1 (W0 m ρ c)).trans (arg1_at_W0 m ρ c)
theorem arg1_at_W2 : W2 m ρ c (Proc.devRef .tc main_arg1) = m ((c.tc : Thread nD τ).loc main_arg1) :=
  (W2_of_ne m ρ c main_arg1 (by decide)).trans (arg1_at_W1 m ρ c)
theorem arg1_at_W3 : W3 m ρ c (Proc.devRef .tc main_arg1) = m ((c.tc : Thread nD τ).loc main_arg1) :=
  (KHost.h1_arg1 (W2 m ρ c)).trans (arg1_at_W2 m ρ c)
theorem arg1_at_W4 : W4 m ρ c (Proc.devRef .tc main_arg1) = m ((c.tc : Thread nD τ).loc main_arg1) :=
  (W4_of_ne m ρ c main_arg1 (by decide)).trans (arg1_at_W3 m ρ c)
theorem arg1_at_W5 : W5 m ρ c (Proc.devRef .tc main_arg1) = m ((c.tc : Thread nD τ).loc main_arg1) :=
  (KHost.h2_keep_arg1 (W4 m ρ c)).trans (arg1_at_W4 m ρ c)
theorem arg1_at_W6 : W6 m ρ c (Proc.devRef .tc main_arg1) = m ((c.tc : Thread nD τ).loc main_arg1) :=
  (W6_of_ne m ρ c main_arg1 (by decide)).trans (arg1_at_W5 m ρ c)
theorem arg1_at_W7 : W7 m ρ c (Proc.devRef .tc main_arg1) = m ((c.tc : Thread nD τ).loc main_arg1) :=
  (W7_of_ne m ρ c main_arg1 (by decide)).trans (arg1_at_W6 m ρ c)
theorem arg1_at_W8 : W8 m ρ c (Proc.devRef .tc main_arg1) = m ((c.tc : Thread nD τ).loc main_arg1) :=
  (KHost.h4_arg1 (W7 m ρ c)).trans (arg1_at_W7 m ρ c)
theorem arg1_at_W9 : W9 m ρ c (Proc.devRef .tc main_arg1) = m ((c.tc : Thread nD τ).loc main_arg1) :=
  (W9_of_ne m ρ c main_arg1 (by decide)).trans (arg1_at_W8 m ρ c)
theorem arg1_at_W10 : W10 m ρ c (Proc.devRef .tc main_arg1) = m ((c.tc : Thread nD τ).loc main_arg1) :=
  (KHost.h5_keep_arg1 (W9 m ρ c)).trans (arg1_at_W9 m ρ c)
theorem arg1_at_W11 : W11 m ρ c (Proc.devRef .tc main_arg1) = m ((c.tc : Thread nD τ).loc main_arg1) :=
  (W11_of_ne m ρ c main_arg1 (by decide)).trans (arg1_at_W10 m ρ c)
theorem arg1_at_W12 : W12 m ρ c (Proc.devRef .tc main_arg1) = m ((c.tc : Thread nD τ).loc main_arg1) :=
  (W12_of_ne m ρ c main_arg1 (by decide)).trans (arg1_at_W11 m ρ c)
theorem arg1_at_W13 : W13 m ρ c (Proc.devRef .tc main_arg1) = m ((c.tc : Thread nD τ).loc main_arg1) :=
  (KHost.h7_arg1 (W12 m ρ c)).trans (arg1_at_W12 m ρ c)
theorem arg1_at_W14 : W14 m ρ c (Proc.devRef .tc main_arg1) = m ((c.tc : Thread nD τ).loc main_arg1) :=
  (W14_of_ne m ρ c main_arg1 (by decide)).trans (arg1_at_W13 m ρ c)
theorem arg1_at_W15 : W15 m ρ c (Proc.devRef .tc main_arg1) = m ((c.tc : Thread nD τ).loc main_arg1) :=
  (KHost.h8_keep_arg1 (W14 m ρ c)).trans (arg1_at_W14 m ρ c)
theorem arg1_at_W16 : W16 m ρ c (Proc.devRef .tc main_arg1) = m ((c.tc : Thread nD τ).loc main_arg1) :=
  (W16_of_ne m ρ c main_arg1 (by decide)).trans (arg1_at_W15 m ρ c)
theorem arg1_at_W17 : W17 m ρ c (Proc.devRef .tc main_arg1) = m ((c.tc : Thread nD τ).loc main_arg1) :=
  (W17_of_ne m ρ c main_arg1 (by decide)).trans (arg1_at_W16 m ρ c)
theorem arg1_at_W18 : W18 m ρ c (Proc.devRef .tc main_arg1) = m ((c.tc : Thread nD τ).loc main_arg1) :=
  (KHost.h10_arg1 (W17 m ρ c)).trans (arg1_at_W17 m ρ c)
theorem arg1_at_W19 : W19 m ρ c (Proc.devRef .tc main_arg1) = m ((c.tc : Thread nD τ).loc main_arg1) :=
  (W19_of_ne m ρ c main_arg1 (by decide)).trans (arg1_at_W18 m ρ c)
theorem arg1_at_W20 : W20 m ρ c (Proc.devRef .tc main_arg1) = m ((c.tc : Thread nD τ).loc main_arg1) :=
  (W20_of_ne m ρ c main_arg1 (by decide)).trans (arg1_at_W19 m ρ c)
theorem arg1_at_W21 : W21 m ρ c (Proc.devRef .tc main_arg1) = m ((c.tc : Thread nD τ).loc main_arg1) :=
  (KHost.h12_arg1 (W20 m ρ c)).trans (arg1_at_W20 m ρ c)
theorem arg1_at_W22 : W22 m ρ c (Proc.devRef .tc main_arg1) = m ((c.tc : Thread nD τ).loc main_arg1) :=
  (W22_of_ne m ρ c main_arg1 (by decide)).trans (arg1_at_W21 m ρ c)
theorem arg1_at_W23 : W23 m ρ c (Proc.devRef .tc main_arg1) = m ((c.tc : Thread nD τ).loc main_arg1) :=
  (KHost.h13_arg1 (W22 m ρ c)).trans (arg1_at_W22 m ρ c)

theorem arg2_at_W0 : W0 m ρ c (Proc.devRef .tc main_arg2) = m ((c.tc : Thread nD τ).loc main_arg2) := rfl
theorem arg2_at_W1 : W1 m ρ c (Proc.devRef .tc main_arg2) = m ((c.tc : Thread nD τ).loc main_arg2) :=
  (KHost.h0_arg2 (W0 m ρ c)).trans (arg2_at_W0 m ρ c)
theorem arg2_at_W2 : W2 m ρ c (Proc.devRef .tc main_arg2) = m ((c.tc : Thread nD τ).loc main_arg2) :=
  ((W2_arr m ρ c 1).trans (((dat0 (V1 m ρ) c).arrAt_in 1 rfl _).trans (A_eq0 (V1 m ρ) c 1))).trans (arg2_at_W1 m ρ c)
theorem arg2_at_W3 : W3 m ρ c (Proc.devRef .tc main_arg2) = m ((c.tc : Thread nD τ).loc main_arg2) :=
  (KHost.h1_arg2 (W2 m ρ c)).trans (arg2_at_W2 m ρ c)
theorem arg2_at_W4 : W4 m ρ c (Proc.devRef .tc main_arg2) = m ((c.tc : Thread nD τ).loc main_arg2) :=
  (W4_of_ne m ρ c main_arg2 (by decide)).trans (arg2_at_W3 m ρ c)
theorem arg2_at_W5 : W5 m ρ c (Proc.devRef .tc main_arg2) = m ((c.tc : Thread nD τ).loc main_arg2) :=
  (KHost.h2_keep_arg2 (W4 m ρ c)).trans (arg2_at_W4 m ρ c)
theorem arg2_at_W6 : W6 m ρ c (Proc.devRef .tc main_arg2) = m ((c.tc : Thread nD τ).loc main_arg2) :=
  (W6_of_ne m ρ c main_arg2 (by decide)).trans (arg2_at_W5 m ρ c)
theorem arg2_at_W7 : W7 m ρ c (Proc.devRef .tc main_arg2) = m ((c.tc : Thread nD τ).loc main_arg2) :=
  (W7_of_ne m ρ c main_arg2 (by decide)).trans (arg2_at_W6 m ρ c)
theorem arg2_at_W8 : W8 m ρ c (Proc.devRef .tc main_arg2) = m ((c.tc : Thread nD τ).loc main_arg2) :=
  (KHost.h4_arg2 (W7 m ρ c)).trans (arg2_at_W7 m ρ c)
theorem arg2_at_W9 : W9 m ρ c (Proc.devRef .tc main_arg2) = m ((c.tc : Thread nD τ).loc main_arg2) :=
  (W9_of_ne m ρ c main_arg2 (by decide)).trans (arg2_at_W8 m ρ c)
theorem arg2_at_W10 : W10 m ρ c (Proc.devRef .tc main_arg2) = m ((c.tc : Thread nD τ).loc main_arg2) :=
  (KHost.h5_keep_arg2 (W9 m ρ c)).trans (arg2_at_W9 m ρ c)
theorem arg2_at_W11 : W11 m ρ c (Proc.devRef .tc main_arg2) = m ((c.tc : Thread nD τ).loc main_arg2) :=
  (W11_of_ne m ρ c main_arg2 (by decide)).trans (arg2_at_W10 m ρ c)
theorem arg2_at_W12 : W12 m ρ c (Proc.devRef .tc main_arg2) = m ((c.tc : Thread nD τ).loc main_arg2) :=
  (W12_of_ne m ρ c main_arg2 (by decide)).trans (arg2_at_W11 m ρ c)
theorem arg2_at_W13 : W13 m ρ c (Proc.devRef .tc main_arg2) = m ((c.tc : Thread nD τ).loc main_arg2) :=
  (KHost.h7_arg2 (W12 m ρ c)).trans (arg2_at_W12 m ρ c)
theorem arg2_at_W14 : W14 m ρ c (Proc.devRef .tc main_arg2) = m ((c.tc : Thread nD τ).loc main_arg2) :=
  (W14_of_ne m ρ c main_arg2 (by decide)).trans (arg2_at_W13 m ρ c)
theorem arg2_at_W15 : W15 m ρ c (Proc.devRef .tc main_arg2) = m ((c.tc : Thread nD τ).loc main_arg2) :=
  (KHost.h8_keep_arg2 (W14 m ρ c)).trans (arg2_at_W14 m ρ c)
theorem arg2_at_W16 : W16 m ρ c (Proc.devRef .tc main_arg2) = m ((c.tc : Thread nD τ).loc main_arg2) :=
  (W16_of_ne m ρ c main_arg2 (by decide)).trans (arg2_at_W15 m ρ c)
theorem arg2_at_W17 : W17 m ρ c (Proc.devRef .tc main_arg2) = m ((c.tc : Thread nD τ).loc main_arg2) :=
  (W17_of_ne m ρ c main_arg2 (by decide)).trans (arg2_at_W16 m ρ c)
theorem arg2_at_W18 : W18 m ρ c (Proc.devRef .tc main_arg2) = m ((c.tc : Thread nD τ).loc main_arg2) :=
  (KHost.h10_arg2 (W17 m ρ c)).trans (arg2_at_W17 m ρ c)
theorem arg2_at_W19 : W19 m ρ c (Proc.devRef .tc main_arg2) = m ((c.tc : Thread nD τ).loc main_arg2) :=
  (W19_of_ne m ρ c main_arg2 (by decide)).trans (arg2_at_W18 m ρ c)
theorem arg2_at_W20 : W20 m ρ c (Proc.devRef .tc main_arg2) = m ((c.tc : Thread nD τ).loc main_arg2) :=
  (W20_of_ne m ρ c main_arg2 (by decide)).trans (arg2_at_W19 m ρ c)
theorem arg2_at_W21 : W21 m ρ c (Proc.devRef .tc main_arg2) = m ((c.tc : Thread nD τ).loc main_arg2) :=
  (KHost.h12_arg2 (W20 m ρ c)).trans (arg2_at_W20 m ρ c)
theorem arg2_at_W22 : W22 m ρ c (Proc.devRef .tc main_arg2) = m ((c.tc : Thread nD τ).loc main_arg2) :=
  (W22_of_ne m ρ c main_arg2 (by decide)).trans (arg2_at_W21 m ρ c)
theorem arg2_at_W23 : W23 m ρ c (Proc.devRef .tc main_arg2) = m ((c.tc : Thread nD τ).loc main_arg2) :=
  (KHost.h13_arg2 (W22 m ρ c)).trans (arg2_at_W22 m ρ c)

theorem arg3_at_W0 : W0 m ρ c (Proc.devRef .tc main_arg3) = m ((c.tc : Thread nD τ).loc main_arg3) := rfl
theorem arg3_at_W1 : W1 m ρ c (Proc.devRef .tc main_arg3) = m ((c.tc : Thread nD τ).loc main_arg3) :=
  (KHost.h0_arg3 (W0 m ρ c)).trans (arg3_at_W0 m ρ c)
theorem arg3_at_W2 : W2 m ρ c (Proc.devRef .tc main_arg3) = m ((c.tc : Thread nD τ).loc main_arg3) :=
  (W2_of_ne m ρ c main_arg3 (by decide)).trans (arg3_at_W1 m ρ c)
theorem arg3_at_W3 : W3 m ρ c (Proc.devRef .tc main_arg3) = m ((c.tc : Thread nD τ).loc main_arg3) :=
  (KHost.h1_arg3 (W2 m ρ c)).trans (arg3_at_W2 m ρ c)
theorem arg3_at_W4 : W4 m ρ c (Proc.devRef .tc main_arg3) = m ((c.tc : Thread nD τ).loc main_arg3) :=
  (W4_of_ne m ρ c main_arg3 (by decide)).trans (arg3_at_W3 m ρ c)
theorem arg3_at_W5 : W5 m ρ c (Proc.devRef .tc main_arg3) = m ((c.tc : Thread nD τ).loc main_arg3) :=
  (KHost.h2_keep_arg3 (W4 m ρ c)).trans (arg3_at_W4 m ρ c)
theorem arg3_at_W6 : W6 m ρ c (Proc.devRef .tc main_arg3) = m ((c.tc : Thread nD τ).loc main_arg3) :=
  (W6_of_ne m ρ c main_arg3 (by decide)).trans (arg3_at_W5 m ρ c)
theorem arg3_at_W7 : W7 m ρ c (Proc.devRef .tc main_arg3) = m ((c.tc : Thread nD τ).loc main_arg3) :=
  (W7_of_ne m ρ c main_arg3 (by decide)).trans (arg3_at_W6 m ρ c)
theorem arg3_at_W8 : W8 m ρ c (Proc.devRef .tc main_arg3) = m ((c.tc : Thread nD τ).loc main_arg3) :=
  (KHost.h4_arg3 (W7 m ρ c)).trans (arg3_at_W7 m ρ c)
theorem arg3_at_W9 : W9 m ρ c (Proc.devRef .tc main_arg3) = m ((c.tc : Thread nD τ).loc main_arg3) :=
  (W9_of_ne m ρ c main_arg3 (by decide)).trans (arg3_at_W8 m ρ c)
theorem arg3_at_W10 : W10 m ρ c (Proc.devRef .tc main_arg3) = m ((c.tc : Thread nD τ).loc main_arg3) :=
  (KHost.h5_keep_arg3 (W9 m ρ c)).trans (arg3_at_W9 m ρ c)
theorem arg3_at_W11 : W11 m ρ c (Proc.devRef .tc main_arg3) = m ((c.tc : Thread nD τ).loc main_arg3) :=
  (W11_of_ne m ρ c main_arg3 (by decide)).trans (arg3_at_W10 m ρ c)
theorem arg3_at_W12 : W12 m ρ c (Proc.devRef .tc main_arg3) = m ((c.tc : Thread nD τ).loc main_arg3) :=
  (W12_of_ne m ρ c main_arg3 (by decide)).trans (arg3_at_W11 m ρ c)
theorem arg3_at_W13 : W13 m ρ c (Proc.devRef .tc main_arg3) = m ((c.tc : Thread nD τ).loc main_arg3) :=
  (KHost.h7_arg3 (W12 m ρ c)).trans (arg3_at_W12 m ρ c)
theorem arg3_at_W14 : W14 m ρ c (Proc.devRef .tc main_arg3) = m ((c.tc : Thread nD τ).loc main_arg3) :=
  (W14_of_ne m ρ c main_arg3 (by decide)).trans (arg3_at_W13 m ρ c)
theorem arg3_at_W15 : W15 m ρ c (Proc.devRef .tc main_arg3) = m ((c.tc : Thread nD τ).loc main_arg3) :=
  (KHost.h8_keep_arg3 (W14 m ρ c)).trans (arg3_at_W14 m ρ c)
theorem arg3_at_W16 : W16 m ρ c (Proc.devRef .tc main_arg3) = m ((c.tc : Thread nD τ).loc main_arg3) :=
  (W16_of_ne m ρ c main_arg3 (by decide)).trans (arg3_at_W15 m ρ c)
theorem arg3_at_W17 : W17 m ρ c (Proc.devRef .tc main_arg3) = m ((c.tc : Thread nD τ).loc main_arg3) :=
  (W17_of_ne m ρ c main_arg3 (by decide)).trans (arg3_at_W16 m ρ c)
theorem arg3_at_W18 : W18 m ρ c (Proc.devRef .tc main_arg3) = m ((c.tc : Thread nD τ).loc main_arg3) :=
  (KHost.h10_arg3 (W17 m ρ c)).trans (arg3_at_W17 m ρ c)
theorem arg3_at_W19 : W19 m ρ c (Proc.devRef .tc main_arg3) = m ((c.tc : Thread nD τ).loc main_arg3) :=
  (W19_of_ne m ρ c main_arg3 (by decide)).trans (arg3_at_W18 m ρ c)
theorem arg3_at_W20 : W20 m ρ c (Proc.devRef .tc main_arg3) = m ((c.tc : Thread nD τ).loc main_arg3) :=
  (W20_of_ne m ρ c main_arg3 (by decide)).trans (arg3_at_W19 m ρ c)
theorem arg3_at_W21 : W21 m ρ c (Proc.devRef .tc main_arg3) = m ((c.tc : Thread nD τ).loc main_arg3) :=
  (KHost.h12_arg3 (W20 m ρ c)).trans (arg3_at_W20 m ρ c)
theorem arg3_at_W22 : W22 m ρ c (Proc.devRef .tc main_arg3) = m ((c.tc : Thread nD τ).loc main_arg3) :=
  (W22_of_ne m ρ c main_arg3 (by decide)).trans (arg3_at_W21 m ρ c)
theorem arg3_at_W23 : W23 m ρ c (Proc.devRef .tc main_arg3) = m ((c.tc : Thread nD τ).loc main_arg3) :=
  (KHost.h13_arg3 (W22 m ρ c)).trans (arg3_at_W22 m ρ c)

theorem arg4_at_W0 : W0 m ρ c (Proc.devRef .tc main_arg4) = m ((c.tc : Thread nD τ).loc main_arg4) := rfl
theorem arg4_at_W1 : W1 m ρ c (Proc.devRef .tc main_arg4) = m ((c.tc : Thread nD τ).loc main_arg4) :=
  (KHost.h0_arg4 (W0 m ρ c)).trans (arg4_at_W0 m ρ c)
theorem arg4_at_W2 : W2 m ρ c (Proc.devRef .tc main_arg4) = m ((c.tc : Thread nD τ).loc main_arg4) :=
  (W2_of_ne m ρ c main_arg4 (by decide)).trans (arg4_at_W1 m ρ c)
theorem arg4_at_W3 : W3 m ρ c (Proc.devRef .tc main_arg4) = m ((c.tc : Thread nD τ).loc main_arg4) :=
  (KHost.h1_arg4 (W2 m ρ c)).trans (arg4_at_W2 m ρ c)
theorem arg4_at_W4 : W4 m ρ c (Proc.devRef .tc main_arg4) = m ((c.tc : Thread nD τ).loc main_arg4) :=
  (W4_of_ne m ρ c main_arg4 (by decide)).trans (arg4_at_W3 m ρ c)
theorem arg4_at_W5 : W5 m ρ c (Proc.devRef .tc main_arg4) = m ((c.tc : Thread nD τ).loc main_arg4) :=
  (KHost.h2_keep_arg4 (W4 m ρ c)).trans (arg4_at_W4 m ρ c)
theorem arg4_at_W6 : W6 m ρ c (Proc.devRef .tc main_arg4) = m ((c.tc : Thread nD τ).loc main_arg4) :=
  (W6_of_ne m ρ c main_arg4 (by decide)).trans (arg4_at_W5 m ρ c)
theorem arg4_at_W7 : W7 m ρ c (Proc.devRef .tc main_arg4) = m ((c.tc : Thread nD τ).loc main_arg4) :=
  ((W7_arr m ρ c 1).trans (((dat3 (V6 m ρ) c).arrAt_in 1 rfl _).trans (A_eq3 (V6 m ρ) c 1))).trans (arg4_at_W6 m ρ c)
theorem arg4_at_W8 : W8 m ρ c (Proc.devRef .tc main_arg4) = m ((c.tc : Thread nD τ).loc main_arg4) :=
  (KHost.h4_arg4 (W7 m ρ c)).trans (arg4_at_W7 m ρ c)
theorem arg4_at_W9 : W9 m ρ c (Proc.devRef .tc main_arg4) = m ((c.tc : Thread nD τ).loc main_arg4) :=
  (W9_of_ne m ρ c main_arg4 (by decide)).trans (arg4_at_W8 m ρ c)
theorem arg4_at_W10 : W10 m ρ c (Proc.devRef .tc main_arg4) = m ((c.tc : Thread nD τ).loc main_arg4) :=
  (KHost.h5_keep_arg4 (W9 m ρ c)).trans (arg4_at_W9 m ρ c)
theorem arg4_at_W11 : W11 m ρ c (Proc.devRef .tc main_arg4) = m ((c.tc : Thread nD τ).loc main_arg4) :=
  (W11_of_ne m ρ c main_arg4 (by decide)).trans (arg4_at_W10 m ρ c)
theorem arg4_at_W12 : W12 m ρ c (Proc.devRef .tc main_arg4) = m ((c.tc : Thread nD τ).loc main_arg4) :=
  (W12_of_ne m ρ c main_arg4 (by decide)).trans (arg4_at_W11 m ρ c)
theorem arg4_at_W13 : W13 m ρ c (Proc.devRef .tc main_arg4) = m ((c.tc : Thread nD τ).loc main_arg4) :=
  (KHost.h7_arg4 (W12 m ρ c)).trans (arg4_at_W12 m ρ c)
theorem arg4_at_W14 : W14 m ρ c (Proc.devRef .tc main_arg4) = m ((c.tc : Thread nD τ).loc main_arg4) :=
  (W14_of_ne m ρ c main_arg4 (by decide)).trans (arg4_at_W13 m ρ c)
theorem arg4_at_W15 : W15 m ρ c (Proc.devRef .tc main_arg4) = m ((c.tc : Thread nD τ).loc main_arg4) :=
  (KHost.h8_keep_arg4 (W14 m ρ c)).trans (arg4_at_W14 m ρ c)
theorem arg4_at_W16 : W16 m ρ c (Proc.devRef .tc main_arg4) = m ((c.tc : Thread nD τ).loc main_arg4) :=
  (W16_of_ne m ρ c main_arg4 (by decide)).trans (arg4_at_W15 m ρ c)
theorem arg4_at_W17 : W17 m ρ c (Proc.devRef .tc main_arg4) = m ((c.tc : Thread nD τ).loc main_arg4) :=
  (W17_of_ne m ρ c main_arg4 (by decide)).trans (arg4_at_W16 m ρ c)
theorem arg4_at_W18 : W18 m ρ c (Proc.devRef .tc main_arg4) = m ((c.tc : Thread nD τ).loc main_arg4) :=
  (KHost.h10_arg4 (W17 m ρ c)).trans (arg4_at_W17 m ρ c)
theorem arg4_at_W19 : W19 m ρ c (Proc.devRef .tc main_arg4) = m ((c.tc : Thread nD τ).loc main_arg4) :=
  (W19_of_ne m ρ c main_arg4 (by decide)).trans (arg4_at_W18 m ρ c)
theorem arg4_at_W20 : W20 m ρ c (Proc.devRef .tc main_arg4) = m ((c.tc : Thread nD τ).loc main_arg4) :=
  (W20_of_ne m ρ c main_arg4 (by decide)).trans (arg4_at_W19 m ρ c)
theorem arg4_at_W21 : W21 m ρ c (Proc.devRef .tc main_arg4) = m ((c.tc : Thread nD τ).loc main_arg4) :=
  (KHost.h12_arg4 (W20 m ρ c)).trans (arg4_at_W20 m ρ c)
theorem arg4_at_W22 : W22 m ρ c (Proc.devRef .tc main_arg4) = m ((c.tc : Thread nD τ).loc main_arg4) :=
  (W22_of_ne m ρ c main_arg4 (by decide)).trans (arg4_at_W21 m ρ c)
theorem arg4_at_W23 : W23 m ρ c (Proc.devRef .tc main_arg4) = m ((c.tc : Thread nD τ).loc main_arg4) :=
  (KHost.h13_arg4 (W22 m ρ c)).trans (arg4_at_W22 m ρ c)

theorem arg5_at_W0 : W0 m ρ c (Proc.devRef .tc main_arg5) = m ((c.tc : Thread nD τ).loc main_arg5) := rfl
theorem arg5_at_W1 : W1 m ρ c (Proc.devRef .tc main_arg5) = m ((c.tc : Thread nD τ).loc main_arg5) :=
  (KHost.h0_arg5 (W0 m ρ c)).trans (arg5_at_W0 m ρ c)
theorem arg5_at_W2 : W2 m ρ c (Proc.devRef .tc main_arg5) = m ((c.tc : Thread nD τ).loc main_arg5) :=
  (W2_of_ne m ρ c main_arg5 (by decide)).trans (arg5_at_W1 m ρ c)
theorem arg5_at_W3 : W3 m ρ c (Proc.devRef .tc main_arg5) = m ((c.tc : Thread nD τ).loc main_arg5) :=
  (KHost.h1_arg5 (W2 m ρ c)).trans (arg5_at_W2 m ρ c)
theorem arg5_at_W4 : W4 m ρ c (Proc.devRef .tc main_arg5) = m ((c.tc : Thread nD τ).loc main_arg5) :=
  (W4_of_ne m ρ c main_arg5 (by decide)).trans (arg5_at_W3 m ρ c)
theorem arg5_at_W5 : W5 m ρ c (Proc.devRef .tc main_arg5) = m ((c.tc : Thread nD τ).loc main_arg5) :=
  (KHost.h2_keep_arg5 (W4 m ρ c)).trans (arg5_at_W4 m ρ c)
theorem arg5_at_W6 : W6 m ρ c (Proc.devRef .tc main_arg5) = m ((c.tc : Thread nD τ).loc main_arg5) :=
  (W6_of_ne m ρ c main_arg5 (by decide)).trans (arg5_at_W5 m ρ c)
theorem arg5_at_W7 : W7 m ρ c (Proc.devRef .tc main_arg5) = m ((c.tc : Thread nD τ).loc main_arg5) :=
  (W7_of_ne m ρ c main_arg5 (by decide)).trans (arg5_at_W6 m ρ c)
theorem arg5_at_W8 : W8 m ρ c (Proc.devRef .tc main_arg5) = m ((c.tc : Thread nD τ).loc main_arg5) :=
  (KHost.h4_arg5 (W7 m ρ c)).trans (arg5_at_W7 m ρ c)
theorem arg5_at_W9 : W9 m ρ c (Proc.devRef .tc main_arg5) = m ((c.tc : Thread nD τ).loc main_arg5) :=
  (W9_of_ne m ρ c main_arg5 (by decide)).trans (arg5_at_W8 m ρ c)
theorem arg5_at_W10 : W10 m ρ c (Proc.devRef .tc main_arg5) = m ((c.tc : Thread nD τ).loc main_arg5) :=
  (KHost.h5_keep_arg5 (W9 m ρ c)).trans (arg5_at_W9 m ρ c)
theorem arg5_at_W11 : W11 m ρ c (Proc.devRef .tc main_arg5) = m ((c.tc : Thread nD τ).loc main_arg5) :=
  (W11_of_ne m ρ c main_arg5 (by decide)).trans (arg5_at_W10 m ρ c)
theorem arg5_at_W12 : W12 m ρ c (Proc.devRef .tc main_arg5) = m ((c.tc : Thread nD τ).loc main_arg5) :=
  (W12_of_ne m ρ c main_arg5 (by decide)).trans (arg5_at_W11 m ρ c)
theorem arg5_at_W13 : W13 m ρ c (Proc.devRef .tc main_arg5) = m ((c.tc : Thread nD τ).loc main_arg5) :=
  (KHost.h7_arg5 (W12 m ρ c)).trans (arg5_at_W12 m ρ c)
theorem arg5_at_W14 : W14 m ρ c (Proc.devRef .tc main_arg5) = m ((c.tc : Thread nD τ).loc main_arg5) :=
  (W14_of_ne m ρ c main_arg5 (by decide)).trans (arg5_at_W13 m ρ c)
theorem arg5_at_W15 : W15 m ρ c (Proc.devRef .tc main_arg5) = m ((c.tc : Thread nD τ).loc main_arg5) :=
  (KHost.h8_keep_arg5 (W14 m ρ c)).trans (arg5_at_W14 m ρ c)
theorem arg5_at_W16 : W16 m ρ c (Proc.devRef .tc main_arg5) = m ((c.tc : Thread nD τ).loc main_arg5) :=
  (W16_of_ne m ρ c main_arg5 (by decide)).trans (arg5_at_W15 m ρ c)
theorem arg5_at_W17 : W17 m ρ c (Proc.devRef .tc main_arg5) = m ((c.tc : Thread nD τ).loc main_arg5) :=
  (W17_of_ne m ρ c main_arg5 (by decide)).trans (arg5_at_W16 m ρ c)
theorem arg5_at_W18 : W18 m ρ c (Proc.devRef .tc main_arg5) = m ((c.tc : Thread nD τ).loc main_arg5) :=
  (KHost.h10_arg5 (W17 m ρ c)).trans (arg5_at_W17 m ρ c)
theorem arg5_at_W19 : W19 m ρ c (Proc.devRef .tc main_arg5) = m ((c.tc : Thread nD τ).loc main_arg5) :=
  (W19_of_ne m ρ c main_arg5 (by decide)).trans (arg5_at_W18 m ρ c)
theorem arg5_at_W20 : W20 m ρ c (Proc.devRef .tc main_arg5) = m ((c.tc : Thread nD τ).loc main_arg5) :=
  (W20_of_ne m ρ c main_arg5 (by decide)).trans (arg5_at_W19 m ρ c)
theorem arg5_at_W21 : W21 m ρ c (Proc.devRef .tc main_arg5) = m ((c.tc : Thread nD τ).loc main_arg5) :=
  (KHost.h12_arg5 (W20 m ρ c)).trans (arg5_at_W20 m ρ c)
theorem arg5_at_W22 : W22 m ρ c (Proc.devRef .tc main_arg5) = m ((c.tc : Thread nD τ).loc main_arg5) :=
  (W22_of_ne m ρ c main_arg5 (by decide)).trans (arg5_at_W21 m ρ c)
theorem arg5_at_W23 : W23 m ρ c (Proc.devRef .tc main_arg5) = m ((c.tc : Thread nD τ).loc main_arg5) :=
  (KHost.h13_arg5 (W22 m ρ c)).trans (arg5_at_W22 m ρ c)

theorem arg6_at_W0 : W0 m ρ c (Proc.devRef .tc main_arg6) = m ((c.tc : Thread nD τ).loc main_arg6) := rfl
theorem arg6_at_W1 : W1 m ρ c (Proc.devRef .tc main_arg6) = m ((c.tc : Thread nD τ).loc main_arg6) :=
  (KHost.h0_arg6 (W0 m ρ c)).trans (arg6_at_W0 m ρ c)
theorem arg6_at_W2 : W2 m ρ c (Proc.devRef .tc main_arg6) = m ((c.tc : Thread nD τ).loc main_arg6) :=
  (W2_of_ne m ρ c main_arg6 (by decide)).trans (arg6_at_W1 m ρ c)
theorem arg6_at_W3 : W3 m ρ c (Proc.devRef .tc main_arg6) = m ((c.tc : Thread nD τ).loc main_arg6) :=
  (KHost.h1_arg6 (W2 m ρ c)).trans (arg6_at_W2 m ρ c)
theorem arg6_at_W4 : W4 m ρ c (Proc.devRef .tc main_arg6) = m ((c.tc : Thread nD τ).loc main_arg6) :=
  (W4_of_ne m ρ c main_arg6 (by decide)).trans (arg6_at_W3 m ρ c)
theorem arg6_at_W5 : W5 m ρ c (Proc.devRef .tc main_arg6) = m ((c.tc : Thread nD τ).loc main_arg6) :=
  (KHost.h2_keep_arg6 (W4 m ρ c)).trans (arg6_at_W4 m ρ c)
theorem arg6_at_W6 : W6 m ρ c (Proc.devRef .tc main_arg6) = m ((c.tc : Thread nD τ).loc main_arg6) :=
  (W6_of_ne m ρ c main_arg6 (by decide)).trans (arg6_at_W5 m ρ c)
theorem arg6_at_W7 : W7 m ρ c (Proc.devRef .tc main_arg6) = m ((c.tc : Thread nD τ).loc main_arg6) :=
  (W7_of_ne m ρ c main_arg6 (by decide)).trans (arg6_at_W6 m ρ c)
theorem arg6_at_W8 : W8 m ρ c (Proc.devRef .tc main_arg6) = m ((c.tc : Thread nD τ).loc main_arg6) :=
  (KHost.h4_arg6 (W7 m ρ c)).trans (arg6_at_W7 m ρ c)
theorem arg6_at_W9 : W9 m ρ c (Proc.devRef .tc main_arg6) = m ((c.tc : Thread nD τ).loc main_arg6) :=
  (W9_of_ne m ρ c main_arg6 (by decide)).trans (arg6_at_W8 m ρ c)
theorem arg6_at_W10 : W10 m ρ c (Proc.devRef .tc main_arg6) = m ((c.tc : Thread nD τ).loc main_arg6) :=
  (KHost.h5_keep_arg6 (W9 m ρ c)).trans (arg6_at_W9 m ρ c)
theorem arg6_at_W11 : W11 m ρ c (Proc.devRef .tc main_arg6) = m ((c.tc : Thread nD τ).loc main_arg6) :=
  (W11_of_ne m ρ c main_arg6 (by decide)).trans (arg6_at_W10 m ρ c)
theorem arg6_at_W12 : W12 m ρ c (Proc.devRef .tc main_arg6) = m ((c.tc : Thread nD τ).loc main_arg6) :=
  ((W12_arr m ρ c 1).trans (((dat6 (V11 m ρ) c).arrAt_in 1 rfl _).trans (A_eq6 (V11 m ρ) c 1))).trans (arg6_at_W11 m ρ c)
theorem arg6_at_W13 : W13 m ρ c (Proc.devRef .tc main_arg6) = m ((c.tc : Thread nD τ).loc main_arg6) :=
  (KHost.h7_arg6 (W12 m ρ c)).trans (arg6_at_W12 m ρ c)
theorem arg6_at_W14 : W14 m ρ c (Proc.devRef .tc main_arg6) = m ((c.tc : Thread nD τ).loc main_arg6) :=
  (W14_of_ne m ρ c main_arg6 (by decide)).trans (arg6_at_W13 m ρ c)
theorem arg6_at_W15 : W15 m ρ c (Proc.devRef .tc main_arg6) = m ((c.tc : Thread nD τ).loc main_arg6) :=
  (KHost.h8_keep_arg6 (W14 m ρ c)).trans (arg6_at_W14 m ρ c)
theorem arg6_at_W16 : W16 m ρ c (Proc.devRef .tc main_arg6) = m ((c.tc : Thread nD τ).loc main_arg6) :=
  (W16_of_ne m ρ c main_arg6 (by decide)).trans (arg6_at_W15 m ρ c)
theorem arg6_at_W17 : W17 m ρ c (Proc.devRef .tc main_arg6) = m ((c.tc : Thread nD τ).loc main_arg6) :=
  (W17_of_ne m ρ c main_arg6 (by decide)).trans (arg6_at_W16 m ρ c)
theorem arg6_at_W18 : W18 m ρ c (Proc.devRef .tc main_arg6) = m ((c.tc : Thread nD τ).loc main_arg6) :=
  (KHost.h10_arg6 (W17 m ρ c)).trans (arg6_at_W17 m ρ c)
theorem arg6_at_W19 : W19 m ρ c (Proc.devRef .tc main_arg6) = m ((c.tc : Thread nD τ).loc main_arg6) :=
  (W19_of_ne m ρ c main_arg6 (by decide)).trans (arg6_at_W18 m ρ c)
theorem arg6_at_W20 : W20 m ρ c (Proc.devRef .tc main_arg6) = m ((c.tc : Thread nD τ).loc main_arg6) :=
  (W20_of_ne m ρ c main_arg6 (by decide)).trans (arg6_at_W19 m ρ c)
theorem arg6_at_W21 : W21 m ρ c (Proc.devRef .tc main_arg6) = m ((c.tc : Thread nD τ).loc main_arg6) :=
  (KHost.h12_arg6 (W20 m ρ c)).trans (arg6_at_W20 m ρ c)
theorem arg6_at_W22 : W22 m ρ c (Proc.devRef .tc main_arg6) = m ((c.tc : Thread nD τ).loc main_arg6) :=
  (W22_of_ne m ρ c main_arg6 (by decide)).trans (arg6_at_W21 m ρ c)
theorem arg6_at_W23 : W23 m ρ c (Proc.devRef .tc main_arg6) = m ((c.tc : Thread nD τ).loc main_arg6) :=
  (KHost.h13_arg6 (W22 m ρ c)).trans (arg6_at_W22 m ρ c)

theorem arg7_at_W0 : W0 m ρ c (Proc.devRef .tc main_arg7) = m ((c.tc : Thread nD τ).loc main_arg7) := rfl
theorem arg7_at_W1 : W1 m ρ c (Proc.devRef .tc main_arg7) = m ((c.tc : Thread nD τ).loc main_arg7) :=
  (KHost.h0_arg7 (W0 m ρ c)).trans (arg7_at_W0 m ρ c)
theorem arg7_at_W2 : W2 m ρ c (Proc.devRef .tc main_arg7) = m ((c.tc : Thread nD τ).loc main_arg7) :=
  (W2_of_ne m ρ c main_arg7 (by decide)).trans (arg7_at_W1 m ρ c)
theorem arg7_at_W3 : W3 m ρ c (Proc.devRef .tc main_arg7) = m ((c.tc : Thread nD τ).loc main_arg7) :=
  (KHost.h1_arg7 (W2 m ρ c)).trans (arg7_at_W2 m ρ c)
theorem arg7_at_W4 : W4 m ρ c (Proc.devRef .tc main_arg7) = m ((c.tc : Thread nD τ).loc main_arg7) :=
  (W4_of_ne m ρ c main_arg7 (by decide)).trans (arg7_at_W3 m ρ c)
theorem arg7_at_W5 : W5 m ρ c (Proc.devRef .tc main_arg7) = m ((c.tc : Thread nD τ).loc main_arg7) :=
  (KHost.h2_keep_arg7 (W4 m ρ c)).trans (arg7_at_W4 m ρ c)
theorem arg7_at_W6 : W6 m ρ c (Proc.devRef .tc main_arg7) = m ((c.tc : Thread nD τ).loc main_arg7) :=
  (W6_of_ne m ρ c main_arg7 (by decide)).trans (arg7_at_W5 m ρ c)
theorem arg7_at_W7 : W7 m ρ c (Proc.devRef .tc main_arg7) = m ((c.tc : Thread nD τ).loc main_arg7) :=
  (W7_of_ne m ρ c main_arg7 (by decide)).trans (arg7_at_W6 m ρ c)
theorem arg7_at_W8 : W8 m ρ c (Proc.devRef .tc main_arg7) = m ((c.tc : Thread nD τ).loc main_arg7) :=
  (KHost.h4_arg7 (W7 m ρ c)).trans (arg7_at_W7 m ρ c)
theorem arg7_at_W9 : W9 m ρ c (Proc.devRef .tc main_arg7) = m ((c.tc : Thread nD τ).loc main_arg7) :=
  (W9_of_ne m ρ c main_arg7 (by decide)).trans (arg7_at_W8 m ρ c)
theorem arg7_at_W10 : W10 m ρ c (Proc.devRef .tc main_arg7) = m ((c.tc : Thread nD τ).loc main_arg7) :=
  (KHost.h5_keep_arg7 (W9 m ρ c)).trans (arg7_at_W9 m ρ c)
theorem arg7_at_W11 : W11 m ρ c (Proc.devRef .tc main_arg7) = m ((c.tc : Thread nD τ).loc main_arg7) :=
  (W11_of_ne m ρ c main_arg7 (by decide)).trans (arg7_at_W10 m ρ c)
theorem arg7_at_W12 : W12 m ρ c (Proc.devRef .tc main_arg7) = m ((c.tc : Thread nD τ).loc main_arg7) :=
  (W12_of_ne m ρ c main_arg7 (by decide)).trans (arg7_at_W11 m ρ c)
theorem arg7_at_W13 : W13 m ρ c (Proc.devRef .tc main_arg7) = m ((c.tc : Thread nD τ).loc main_arg7) :=
  (KHost.h7_arg7 (W12 m ρ c)).trans (arg7_at_W12 m ρ c)
theorem arg7_at_W14 : W14 m ρ c (Proc.devRef .tc main_arg7) = m ((c.tc : Thread nD τ).loc main_arg7) :=
  (W14_of_ne m ρ c main_arg7 (by decide)).trans (arg7_at_W13 m ρ c)
theorem arg7_at_W15 : W15 m ρ c (Proc.devRef .tc main_arg7) = m ((c.tc : Thread nD τ).loc main_arg7) :=
  (KHost.h8_keep_arg7 (W14 m ρ c)).trans (arg7_at_W14 m ρ c)
theorem arg7_at_W16 : W16 m ρ c (Proc.devRef .tc main_arg7) = m ((c.tc : Thread nD τ).loc main_arg7) :=
  (W16_of_ne m ρ c main_arg7 (by decide)).trans (arg7_at_W15 m ρ c)
theorem arg7_at_W17 : W17 m ρ c (Proc.devRef .tc main_arg7) = m ((c.tc : Thread nD τ).loc main_arg7) :=
  (W17_of_ne m ρ c main_arg7 (by decide)).trans (arg7_at_W16 m ρ c)
theorem arg7_at_W18 : W18 m ρ c (Proc.devRef .tc main_arg7) = m ((c.tc : Thread nD τ).loc main_arg7) :=
  (KHost.h10_arg7 (W17 m ρ c)).trans (arg7_at_W17 m ρ c)
theorem arg7_at_W19 : W19 m ρ c (Proc.devRef .tc main_arg7) = m ((c.tc : Thread nD τ).loc main_arg7) :=
  (W19_of_ne m ρ c main_arg7 (by decide)).trans (arg7_at_W18 m ρ c)
theorem arg7_at_W20 : W20 m ρ c (Proc.devRef .tc main_arg7) = m ((c.tc : Thread nD τ).loc main_arg7) :=
  (W20_of_ne m ρ c main_arg7 (by decide)).trans (arg7_at_W19 m ρ c)
theorem arg7_at_W21 : W21 m ρ c (Proc.devRef .tc main_arg7) = m ((c.tc : Thread nD τ).loc main_arg7) :=
  (KHost.h12_arg7 (W20 m ρ c)).trans (arg7_at_W20 m ρ c)
theorem arg7_at_W22 : W22 m ρ c (Proc.devRef .tc main_arg7) = m ((c.tc : Thread nD τ).loc main_arg7) :=
  (W22_of_ne m ρ c main_arg7 (by decide)).trans (arg7_at_W21 m ρ c)
theorem arg7_at_W23 : W23 m ρ c (Proc.devRef .tc main_arg7) = m ((c.tc : Thread nD τ).loc main_arg7) :=
  (KHost.h13_arg7 (W22 m ρ c)).trans (arg7_at_W22 m ρ c)

theorem arg8_at_W0 : W0 m ρ c (Proc.devRef .tc main_arg8) = m ((c.tc : Thread nD τ).loc main_arg8) := rfl
theorem arg8_at_W1 : W1 m ρ c (Proc.devRef .tc main_arg8) = m ((c.tc : Thread nD τ).loc main_arg8) :=
  (KHost.h0_arg8 (W0 m ρ c)).trans (arg8_at_W0 m ρ c)
theorem arg8_at_W2 : W2 m ρ c (Proc.devRef .tc main_arg8) = m ((c.tc : Thread nD τ).loc main_arg8) :=
  (W2_of_ne m ρ c main_arg8 (by decide)).trans (arg8_at_W1 m ρ c)
theorem arg8_at_W3 : W3 m ρ c (Proc.devRef .tc main_arg8) = m ((c.tc : Thread nD τ).loc main_arg8) :=
  (KHost.h1_arg8 (W2 m ρ c)).trans (arg8_at_W2 m ρ c)
theorem arg8_at_W4 : W4 m ρ c (Proc.devRef .tc main_arg8) = m ((c.tc : Thread nD τ).loc main_arg8) :=
  (W4_of_ne m ρ c main_arg8 (by decide)).trans (arg8_at_W3 m ρ c)
theorem arg8_at_W5 : W5 m ρ c (Proc.devRef .tc main_arg8) = m ((c.tc : Thread nD τ).loc main_arg8) :=
  (KHost.h2_keep_arg8 (W4 m ρ c)).trans (arg8_at_W4 m ρ c)
theorem arg8_at_W6 : W6 m ρ c (Proc.devRef .tc main_arg8) = m ((c.tc : Thread nD τ).loc main_arg8) :=
  (W6_of_ne m ρ c main_arg8 (by decide)).trans (arg8_at_W5 m ρ c)
theorem arg8_at_W7 : W7 m ρ c (Proc.devRef .tc main_arg8) = m ((c.tc : Thread nD τ).loc main_arg8) :=
  (W7_of_ne m ρ c main_arg8 (by decide)).trans (arg8_at_W6 m ρ c)
theorem arg8_at_W8 : W8 m ρ c (Proc.devRef .tc main_arg8) = m ((c.tc : Thread nD τ).loc main_arg8) :=
  (KHost.h4_arg8 (W7 m ρ c)).trans (arg8_at_W7 m ρ c)
theorem arg8_at_W9 : W9 m ρ c (Proc.devRef .tc main_arg8) = m ((c.tc : Thread nD τ).loc main_arg8) :=
  (W9_of_ne m ρ c main_arg8 (by decide)).trans (arg8_at_W8 m ρ c)
theorem arg8_at_W10 : W10 m ρ c (Proc.devRef .tc main_arg8) = m ((c.tc : Thread nD τ).loc main_arg8) :=
  (KHost.h5_keep_arg8 (W9 m ρ c)).trans (arg8_at_W9 m ρ c)
theorem arg8_at_W11 : W11 m ρ c (Proc.devRef .tc main_arg8) = m ((c.tc : Thread nD τ).loc main_arg8) :=
  (W11_of_ne m ρ c main_arg8 (by decide)).trans (arg8_at_W10 m ρ c)
theorem arg8_at_W12 : W12 m ρ c (Proc.devRef .tc main_arg8) = m ((c.tc : Thread nD τ).loc main_arg8) :=
  (W12_of_ne m ρ c main_arg8 (by decide)).trans (arg8_at_W11 m ρ c)
theorem arg8_at_W13 : W13 m ρ c (Proc.devRef .tc main_arg8) = m ((c.tc : Thread nD τ).loc main_arg8) :=
  (KHost.h7_arg8 (W12 m ρ c)).trans (arg8_at_W12 m ρ c)
theorem arg8_at_W14 : W14 m ρ c (Proc.devRef .tc main_arg8) = m ((c.tc : Thread nD τ).loc main_arg8) :=
  (W14_of_ne m ρ c main_arg8 (by decide)).trans (arg8_at_W13 m ρ c)
theorem arg8_at_W15 : W15 m ρ c (Proc.devRef .tc main_arg8) = m ((c.tc : Thread nD τ).loc main_arg8) :=
  (KHost.h8_keep_arg8 (W14 m ρ c)).trans (arg8_at_W14 m ρ c)
theorem arg8_at_W16 : W16 m ρ c (Proc.devRef .tc main_arg8) = m ((c.tc : Thread nD τ).loc main_arg8) :=
  (W16_of_ne m ρ c main_arg8 (by decide)).trans (arg8_at_W15 m ρ c)
theorem arg8_at_W17 : W17 m ρ c (Proc.devRef .tc main_arg8) = m ((c.tc : Thread nD τ).loc main_arg8) :=
  ((W17_arr m ρ c 1).trans (((dat9 (V16 m ρ) c).arrAt_in 1 rfl _).trans (A_eq9 (V16 m ρ) c 1))).trans (arg8_at_W16 m ρ c)
theorem arg8_at_W18 : W18 m ρ c (Proc.devRef .tc main_arg8) = m ((c.tc : Thread nD τ).loc main_arg8) :=
  (KHost.h10_arg8 (W17 m ρ c)).trans (arg8_at_W17 m ρ c)
theorem arg8_at_W19 : W19 m ρ c (Proc.devRef .tc main_arg8) = m ((c.tc : Thread nD τ).loc main_arg8) :=
  (W19_of_ne m ρ c main_arg8 (by decide)).trans (arg8_at_W18 m ρ c)
theorem arg8_at_W20 : W20 m ρ c (Proc.devRef .tc main_arg8) = m ((c.tc : Thread nD τ).loc main_arg8) :=
  (W20_of_ne m ρ c main_arg8 (by decide)).trans (arg8_at_W19 m ρ c)
theorem arg8_at_W21 : W21 m ρ c (Proc.devRef .tc main_arg8) = m ((c.tc : Thread nD τ).loc main_arg8) :=
  (KHost.h12_arg8 (W20 m ρ c)).trans (arg8_at_W20 m ρ c)
theorem arg8_at_W22 : W22 m ρ c (Proc.devRef .tc main_arg8) = m ((c.tc : Thread nD τ).loc main_arg8) :=
  (W22_of_ne m ρ c main_arg8 (by decide)).trans (arg8_at_W21 m ρ c)
theorem arg8_at_W23 : W23 m ρ c (Proc.devRef .tc main_arg8) = m ((c.tc : Thread nD τ).loc main_arg8) :=
  (KHost.h13_arg8 (W22 m ρ c)).trans (arg8_at_W22 m ρ c)

theorem arg9_at_W0 : W0 m ρ c (Proc.devRef .tc main_arg9) = m ((c.tc : Thread nD τ).loc main_arg9) := rfl
theorem arg9_at_W1 : W1 m ρ c (Proc.devRef .tc main_arg9) = m ((c.tc : Thread nD τ).loc main_arg9) :=
  (KHost.h0_arg9 (W0 m ρ c)).trans (arg9_at_W0 m ρ c)
theorem arg9_at_W2 : W2 m ρ c (Proc.devRef .tc main_arg9) = m ((c.tc : Thread nD τ).loc main_arg9) :=
  (W2_of_ne m ρ c main_arg9 (by decide)).trans (arg9_at_W1 m ρ c)
theorem arg9_at_W3 : W3 m ρ c (Proc.devRef .tc main_arg9) = m ((c.tc : Thread nD τ).loc main_arg9) :=
  (KHost.h1_arg9 (W2 m ρ c)).trans (arg9_at_W2 m ρ c)
theorem arg9_at_W4 : W4 m ρ c (Proc.devRef .tc main_arg9) = m ((c.tc : Thread nD τ).loc main_arg9) :=
  (W4_of_ne m ρ c main_arg9 (by decide)).trans (arg9_at_W3 m ρ c)
theorem arg9_at_W5 : W5 m ρ c (Proc.devRef .tc main_arg9) = m ((c.tc : Thread nD τ).loc main_arg9) :=
  (KHost.h2_keep_arg9 (W4 m ρ c)).trans (arg9_at_W4 m ρ c)
theorem arg9_at_W6 : W6 m ρ c (Proc.devRef .tc main_arg9) = m ((c.tc : Thread nD τ).loc main_arg9) :=
  (W6_of_ne m ρ c main_arg9 (by decide)).trans (arg9_at_W5 m ρ c)
theorem arg9_at_W7 : W7 m ρ c (Proc.devRef .tc main_arg9) = m ((c.tc : Thread nD τ).loc main_arg9) :=
  (W7_of_ne m ρ c main_arg9 (by decide)).trans (arg9_at_W6 m ρ c)
theorem arg9_at_W8 : W8 m ρ c (Proc.devRef .tc main_arg9) = m ((c.tc : Thread nD τ).loc main_arg9) :=
  (KHost.h4_arg9 (W7 m ρ c)).trans (arg9_at_W7 m ρ c)
theorem arg9_at_W9 : W9 m ρ c (Proc.devRef .tc main_arg9) = m ((c.tc : Thread nD τ).loc main_arg9) :=
  (W9_of_ne m ρ c main_arg9 (by decide)).trans (arg9_at_W8 m ρ c)
theorem arg9_at_W10 : W10 m ρ c (Proc.devRef .tc main_arg9) = m ((c.tc : Thread nD τ).loc main_arg9) :=
  (KHost.h5_keep_arg9 (W9 m ρ c)).trans (arg9_at_W9 m ρ c)
theorem arg9_at_W11 : W11 m ρ c (Proc.devRef .tc main_arg9) = m ((c.tc : Thread nD τ).loc main_arg9) :=
  (W11_of_ne m ρ c main_arg9 (by decide)).trans (arg9_at_W10 m ρ c)
theorem arg9_at_W12 : W12 m ρ c (Proc.devRef .tc main_arg9) = m ((c.tc : Thread nD τ).loc main_arg9) :=
  (W12_of_ne m ρ c main_arg9 (by decide)).trans (arg9_at_W11 m ρ c)
theorem arg9_at_W13 : W13 m ρ c (Proc.devRef .tc main_arg9) = m ((c.tc : Thread nD τ).loc main_arg9) :=
  (KHost.h7_arg9 (W12 m ρ c)).trans (arg9_at_W12 m ρ c)
theorem arg9_at_W14 : W14 m ρ c (Proc.devRef .tc main_arg9) = m ((c.tc : Thread nD τ).loc main_arg9) :=
  (W14_of_ne m ρ c main_arg9 (by decide)).trans (arg9_at_W13 m ρ c)
theorem arg9_at_W15 : W15 m ρ c (Proc.devRef .tc main_arg9) = m ((c.tc : Thread nD τ).loc main_arg9) :=
  (KHost.h8_keep_arg9 (W14 m ρ c)).trans (arg9_at_W14 m ρ c)
theorem arg9_at_W16 : W16 m ρ c (Proc.devRef .tc main_arg9) = m ((c.tc : Thread nD τ).loc main_arg9) :=
  (W16_of_ne m ρ c main_arg9 (by decide)).trans (arg9_at_W15 m ρ c)
theorem arg9_at_W17 : W17 m ρ c (Proc.devRef .tc main_arg9) = m ((c.tc : Thread nD τ).loc main_arg9) :=
  (W17_of_ne m ρ c main_arg9 (by decide)).trans (arg9_at_W16 m ρ c)
theorem arg9_at_W18 : W18 m ρ c (Proc.devRef .tc main_arg9) = m ((c.tc : Thread nD τ).loc main_arg9) :=
  (KHost.h10_arg9 (W17 m ρ c)).trans (arg9_at_W17 m ρ c)
theorem arg9_at_W19 : W19 m ρ c (Proc.devRef .tc main_arg9) = m ((c.tc : Thread nD τ).loc main_arg9) :=
  (W19_of_ne m ρ c main_arg9 (by decide)).trans (arg9_at_W18 m ρ c)
theorem arg9_at_W20 : W20 m ρ c (Proc.devRef .tc main_arg9) = m ((c.tc : Thread nD τ).loc main_arg9) :=
  (W20_of_ne m ρ c main_arg9 (by decide)).trans (arg9_at_W19 m ρ c)
theorem arg9_at_W21 : W21 m ρ c (Proc.devRef .tc main_arg9) = m ((c.tc : Thread nD τ).loc main_arg9) :=
  (KHost.h12_arg9 (W20 m ρ c)).trans (arg9_at_W20 m ρ c)
theorem arg9_at_W22 : W22 m ρ c (Proc.devRef .tc main_arg9) = m ((c.tc : Thread nD τ).loc main_arg9) :=
  (W22_of_ne m ρ c main_arg9 (by decide)).trans (arg9_at_W21 m ρ c)
theorem arg9_at_W23 : W23 m ρ c (Proc.devRef .tc main_arg9) = m ((c.tc : Thread nD τ).loc main_arg9) :=
  (KHost.h13_arg9 (W22 m ρ c)).trans (arg9_at_W22 m ρ c)

theorem arg10_at_W0 : W0 m ρ c (Proc.devRef .tc main_arg10) = m ((c.tc : Thread nD τ).loc main_arg10) := rfl
theorem arg10_at_W1 : W1 m ρ c (Proc.devRef .tc main_arg10) = m ((c.tc : Thread nD τ).loc main_arg10) :=
  (KHost.h0_arg10 (W0 m ρ c)).trans (arg10_at_W0 m ρ c)
theorem arg10_at_W2 : W2 m ρ c (Proc.devRef .tc main_arg10) = m ((c.tc : Thread nD τ).loc main_arg10) :=
  (W2_of_ne m ρ c main_arg10 (by decide)).trans (arg10_at_W1 m ρ c)
theorem arg10_at_W3 : W3 m ρ c (Proc.devRef .tc main_arg10) = m ((c.tc : Thread nD τ).loc main_arg10) :=
  (KHost.h1_arg10 (W2 m ρ c)).trans (arg10_at_W2 m ρ c)
theorem arg10_at_W4 : W4 m ρ c (Proc.devRef .tc main_arg10) = m ((c.tc : Thread nD τ).loc main_arg10) :=
  (W4_of_ne m ρ c main_arg10 (by decide)).trans (arg10_at_W3 m ρ c)
theorem arg10_at_W5 : W5 m ρ c (Proc.devRef .tc main_arg10) = m ((c.tc : Thread nD τ).loc main_arg10) :=
  (KHost.h2_keep_arg10 (W4 m ρ c)).trans (arg10_at_W4 m ρ c)
theorem arg10_at_W6 : W6 m ρ c (Proc.devRef .tc main_arg10) = m ((c.tc : Thread nD τ).loc main_arg10) :=
  (W6_of_ne m ρ c main_arg10 (by decide)).trans (arg10_at_W5 m ρ c)
theorem arg10_at_W7 : W7 m ρ c (Proc.devRef .tc main_arg10) = m ((c.tc : Thread nD τ).loc main_arg10) :=
  (W7_of_ne m ρ c main_arg10 (by decide)).trans (arg10_at_W6 m ρ c)
theorem arg10_at_W8 : W8 m ρ c (Proc.devRef .tc main_arg10) = m ((c.tc : Thread nD τ).loc main_arg10) :=
  (KHost.h4_arg10 (W7 m ρ c)).trans (arg10_at_W7 m ρ c)
theorem arg10_at_W9 : W9 m ρ c (Proc.devRef .tc main_arg10) = m ((c.tc : Thread nD τ).loc main_arg10) :=
  (W9_of_ne m ρ c main_arg10 (by decide)).trans (arg10_at_W8 m ρ c)
theorem arg10_at_W10 : W10 m ρ c (Proc.devRef .tc main_arg10) = m ((c.tc : Thread nD τ).loc main_arg10) :=
  (KHost.h5_keep_arg10 (W9 m ρ c)).trans (arg10_at_W9 m ρ c)
theorem arg10_at_W11 : W11 m ρ c (Proc.devRef .tc main_arg10) = m ((c.tc : Thread nD τ).loc main_arg10) :=
  (W11_of_ne m ρ c main_arg10 (by decide)).trans (arg10_at_W10 m ρ c)
theorem arg10_at_W12 : W12 m ρ c (Proc.devRef .tc main_arg10) = m ((c.tc : Thread nD τ).loc main_arg10) :=
  (W12_of_ne m ρ c main_arg10 (by decide)).trans (arg10_at_W11 m ρ c)
theorem arg10_at_W13 : W13 m ρ c (Proc.devRef .tc main_arg10) = m ((c.tc : Thread nD τ).loc main_arg10) :=
  (KHost.h7_arg10 (W12 m ρ c)).trans (arg10_at_W12 m ρ c)
theorem arg10_at_W14 : W14 m ρ c (Proc.devRef .tc main_arg10) = m ((c.tc : Thread nD τ).loc main_arg10) :=
  (W14_of_ne m ρ c main_arg10 (by decide)).trans (arg10_at_W13 m ρ c)
theorem arg10_at_W15 : W15 m ρ c (Proc.devRef .tc main_arg10) = m ((c.tc : Thread nD τ).loc main_arg10) :=
  (KHost.h8_keep_arg10 (W14 m ρ c)).trans (arg10_at_W14 m ρ c)
theorem arg10_at_W16 : W16 m ρ c (Proc.devRef .tc main_arg10) = m ((c.tc : Thread nD τ).loc main_arg10) :=
  (W16_of_ne m ρ c main_arg10 (by decide)).trans (arg10_at_W15 m ρ c)
theorem arg10_at_W17 : W17 m ρ c (Proc.devRef .tc main_arg10) = m ((c.tc : Thread nD τ).loc main_arg10) :=
  (W17_of_ne m ρ c main_arg10 (by decide)).trans (arg10_at_W16 m ρ c)
theorem arg10_at_W18 : W18 m ρ c (Proc.devRef .tc main_arg10) = m ((c.tc : Thread nD τ).loc main_arg10) :=
  (KHost.h10_arg10 (W17 m ρ c)).trans (arg10_at_W17 m ρ c)
theorem arg10_at_W19 : W19 m ρ c (Proc.devRef .tc main_arg10) = m ((c.tc : Thread nD τ).loc main_arg10) :=
  (W19_of_ne m ρ c main_arg10 (by decide)).trans (arg10_at_W18 m ρ c)
theorem arg10_at_W20 : W20 m ρ c (Proc.devRef .tc main_arg10) = m ((c.tc : Thread nD τ).loc main_arg10) :=
  ((W20_arr m ρ c 1).trans (((dat11 (V19 m ρ) c).arrAt_in 1 rfl _).trans (A_eq11 (V19 m ρ) c 1))).trans (arg10_at_W19 m ρ c)
theorem arg10_at_W21 : W21 m ρ c (Proc.devRef .tc main_arg10) = m ((c.tc : Thread nD τ).loc main_arg10) :=
  (KHost.h12_arg10 (W20 m ρ c)).trans (arg10_at_W20 m ρ c)
theorem arg10_at_W22 : W22 m ρ c (Proc.devRef .tc main_arg10) = m ((c.tc : Thread nD τ).loc main_arg10) :=
  (W22_of_ne m ρ c main_arg10 (by decide)).trans (arg10_at_W21 m ρ c)
theorem arg10_at_W23 : W23 m ρ c (Proc.devRef .tc main_arg10) = m ((c.tc : Thread nD τ).loc main_arg10) :=
  (KHost.h13_arg10 (W22 m ρ c)).trans (arg10_at_W22 m ρ c)

theorem arg11_at_W0 : W0 m ρ c (Proc.devRef .tc main_arg11) = m ((c.tc : Thread nD τ).loc main_arg11) := rfl
theorem arg11_at_W1 : W1 m ρ c (Proc.devRef .tc main_arg11) = m ((c.tc : Thread nD τ).loc main_arg11) :=
  (KHost.h0_arg11 (W0 m ρ c)).trans (arg11_at_W0 m ρ c)
theorem arg11_at_W2 : W2 m ρ c (Proc.devRef .tc main_arg11) = m ((c.tc : Thread nD τ).loc main_arg11) :=
  (W2_of_ne m ρ c main_arg11 (by decide)).trans (arg11_at_W1 m ρ c)
theorem arg11_at_W3 : W3 m ρ c (Proc.devRef .tc main_arg11) = m ((c.tc : Thread nD τ).loc main_arg11) :=
  (KHost.h1_arg11 (W2 m ρ c)).trans (arg11_at_W2 m ρ c)
theorem arg11_at_W4 : W4 m ρ c (Proc.devRef .tc main_arg11) = m ((c.tc : Thread nD τ).loc main_arg11) :=
  (W4_of_ne m ρ c main_arg11 (by decide)).trans (arg11_at_W3 m ρ c)
theorem arg11_at_W5 : W5 m ρ c (Proc.devRef .tc main_arg11) = m ((c.tc : Thread nD τ).loc main_arg11) :=
  (KHost.h2_keep_arg11 (W4 m ρ c)).trans (arg11_at_W4 m ρ c)
theorem arg11_at_W6 : W6 m ρ c (Proc.devRef .tc main_arg11) = m ((c.tc : Thread nD τ).loc main_arg11) :=
  (W6_of_ne m ρ c main_arg11 (by decide)).trans (arg11_at_W5 m ρ c)
theorem arg11_at_W7 : W7 m ρ c (Proc.devRef .tc main_arg11) = m ((c.tc : Thread nD τ).loc main_arg11) :=
  (W7_of_ne m ρ c main_arg11 (by decide)).trans (arg11_at_W6 m ρ c)
theorem arg11_at_W8 : W8 m ρ c (Proc.devRef .tc main_arg11) = m ((c.tc : Thread nD τ).loc main_arg11) :=
  (KHost.h4_arg11 (W7 m ρ c)).trans (arg11_at_W7 m ρ c)
theorem arg11_at_W9 : W9 m ρ c (Proc.devRef .tc main_arg11) = m ((c.tc : Thread nD τ).loc main_arg11) :=
  (W9_of_ne m ρ c main_arg11 (by decide)).trans (arg11_at_W8 m ρ c)
theorem arg11_at_W10 : W10 m ρ c (Proc.devRef .tc main_arg11) = m ((c.tc : Thread nD τ).loc main_arg11) :=
  (KHost.h5_keep_arg11 (W9 m ρ c)).trans (arg11_at_W9 m ρ c)
theorem arg11_at_W11 : W11 m ρ c (Proc.devRef .tc main_arg11) = m ((c.tc : Thread nD τ).loc main_arg11) :=
  (W11_of_ne m ρ c main_arg11 (by decide)).trans (arg11_at_W10 m ρ c)
theorem arg11_at_W12 : W12 m ρ c (Proc.devRef .tc main_arg11) = m ((c.tc : Thread nD τ).loc main_arg11) :=
  (W12_of_ne m ρ c main_arg11 (by decide)).trans (arg11_at_W11 m ρ c)
theorem arg11_at_W13 : W13 m ρ c (Proc.devRef .tc main_arg11) = m ((c.tc : Thread nD τ).loc main_arg11) :=
  (KHost.h7_arg11 (W12 m ρ c)).trans (arg11_at_W12 m ρ c)
theorem arg11_at_W14 : W14 m ρ c (Proc.devRef .tc main_arg11) = m ((c.tc : Thread nD τ).loc main_arg11) :=
  (W14_of_ne m ρ c main_arg11 (by decide)).trans (arg11_at_W13 m ρ c)
theorem arg11_at_W15 : W15 m ρ c (Proc.devRef .tc main_arg11) = m ((c.tc : Thread nD τ).loc main_arg11) :=
  (KHost.h8_keep_arg11 (W14 m ρ c)).trans (arg11_at_W14 m ρ c)
theorem arg11_at_W16 : W16 m ρ c (Proc.devRef .tc main_arg11) = m ((c.tc : Thread nD τ).loc main_arg11) :=
  (W16_of_ne m ρ c main_arg11 (by decide)).trans (arg11_at_W15 m ρ c)
theorem arg11_at_W17 : W17 m ρ c (Proc.devRef .tc main_arg11) = m ((c.tc : Thread nD τ).loc main_arg11) :=
  (W17_of_ne m ρ c main_arg11 (by decide)).trans (arg11_at_W16 m ρ c)
theorem arg11_at_W18 : W18 m ρ c (Proc.devRef .tc main_arg11) = m ((c.tc : Thread nD τ).loc main_arg11) :=
  (KHost.h10_arg11 (W17 m ρ c)).trans (arg11_at_W17 m ρ c)
theorem arg11_at_W19 : W19 m ρ c (Proc.devRef .tc main_arg11) = m ((c.tc : Thread nD τ).loc main_arg11) :=
  (W19_of_ne m ρ c main_arg11 (by decide)).trans (arg11_at_W18 m ρ c)
theorem arg11_at_W20 : W20 m ρ c (Proc.devRef .tc main_arg11) = m ((c.tc : Thread nD τ).loc main_arg11) :=
  (W20_of_ne m ρ c main_arg11 (by decide)).trans (arg11_at_W19 m ρ c)
theorem arg11_at_W21 : W21 m ρ c (Proc.devRef .tc main_arg11) = m ((c.tc : Thread nD τ).loc main_arg11) :=
  (KHost.h12_arg11 (W20 m ρ c)).trans (arg11_at_W20 m ρ c)
theorem arg11_at_W22 : W22 m ρ c (Proc.devRef .tc main_arg11) = m ((c.tc : Thread nD τ).loc main_arg11) :=
  (W22_of_ne m ρ c main_arg11 (by decide)).trans (arg11_at_W21 m ρ c)
theorem arg11_at_W23 : W23 m ρ c (Proc.devRef .tc main_arg11) = m ((c.tc : Thread nD τ).loc main_arg11) :=
  (KHost.h13_arg11 (W22 m ρ c)).trans (arg11_at_W22 m ρ c)

theorem arg12_at_W0 : W0 m ρ c (Proc.devRef .tc main_arg12) = m ((c.tc : Thread nD τ).loc main_arg12) := rfl
theorem arg12_at_W1 : W1 m ρ c (Proc.devRef .tc main_arg12) = m ((c.tc : Thread nD τ).loc main_arg12) :=
  (KHost.h0_arg12 (W0 m ρ c)).trans (arg12_at_W0 m ρ c)
theorem arg12_at_W2 : W2 m ρ c (Proc.devRef .tc main_arg12) = m ((c.tc : Thread nD τ).loc main_arg12) :=
  (W2_of_ne m ρ c main_arg12 (by decide)).trans (arg12_at_W1 m ρ c)
theorem arg12_at_W3 : W3 m ρ c (Proc.devRef .tc main_arg12) = m ((c.tc : Thread nD τ).loc main_arg12) :=
  (KHost.h1_arg12 (W2 m ρ c)).trans (arg12_at_W2 m ρ c)
theorem arg12_at_W4 : W4 m ρ c (Proc.devRef .tc main_arg12) = m ((c.tc : Thread nD τ).loc main_arg12) :=
  (W4_of_ne m ρ c main_arg12 (by decide)).trans (arg12_at_W3 m ρ c)
theorem arg12_at_W5 : W5 m ρ c (Proc.devRef .tc main_arg12) = m ((c.tc : Thread nD τ).loc main_arg12) :=
  (KHost.h2_keep_arg12 (W4 m ρ c)).trans (arg12_at_W4 m ρ c)
theorem arg12_at_W6 : W6 m ρ c (Proc.devRef .tc main_arg12) = m ((c.tc : Thread nD τ).loc main_arg12) :=
  (W6_of_ne m ρ c main_arg12 (by decide)).trans (arg12_at_W5 m ρ c)
theorem arg12_at_W7 : W7 m ρ c (Proc.devRef .tc main_arg12) = m ((c.tc : Thread nD τ).loc main_arg12) :=
  (W7_of_ne m ρ c main_arg12 (by decide)).trans (arg12_at_W6 m ρ c)
theorem arg12_at_W8 : W8 m ρ c (Proc.devRef .tc main_arg12) = m ((c.tc : Thread nD τ).loc main_arg12) :=
  (KHost.h4_arg12 (W7 m ρ c)).trans (arg12_at_W7 m ρ c)
theorem arg12_at_W9 : W9 m ρ c (Proc.devRef .tc main_arg12) = m ((c.tc : Thread nD τ).loc main_arg12) :=
  (W9_of_ne m ρ c main_arg12 (by decide)).trans (arg12_at_W8 m ρ c)
theorem arg12_at_W10 : W10 m ρ c (Proc.devRef .tc main_arg12) = m ((c.tc : Thread nD τ).loc main_arg12) :=
  (KHost.h5_keep_arg12 (W9 m ρ c)).trans (arg12_at_W9 m ρ c)
theorem arg12_at_W11 : W11 m ρ c (Proc.devRef .tc main_arg12) = m ((c.tc : Thread nD τ).loc main_arg12) :=
  (W11_of_ne m ρ c main_arg12 (by decide)).trans (arg12_at_W10 m ρ c)
theorem arg12_at_W12 : W12 m ρ c (Proc.devRef .tc main_arg12) = m ((c.tc : Thread nD τ).loc main_arg12) :=
  (W12_of_ne m ρ c main_arg12 (by decide)).trans (arg12_at_W11 m ρ c)
theorem arg12_at_W13 : W13 m ρ c (Proc.devRef .tc main_arg12) = m ((c.tc : Thread nD τ).loc main_arg12) :=
  (KHost.h7_arg12 (W12 m ρ c)).trans (arg12_at_W12 m ρ c)
theorem arg12_at_W14 : W14 m ρ c (Proc.devRef .tc main_arg12) = m ((c.tc : Thread nD τ).loc main_arg12) :=
  (W14_of_ne m ρ c main_arg12 (by decide)).trans (arg12_at_W13 m ρ c)
theorem arg12_at_W15 : W15 m ρ c (Proc.devRef .tc main_arg12) = m ((c.tc : Thread nD τ).loc main_arg12) :=
  (KHost.h8_keep_arg12 (W14 m ρ c)).trans (arg12_at_W14 m ρ c)
theorem arg12_at_W16 : W16 m ρ c (Proc.devRef .tc main_arg12) = m ((c.tc : Thread nD τ).loc main_arg12) :=
  (W16_of_ne m ρ c main_arg12 (by decide)).trans (arg12_at_W15 m ρ c)
theorem arg12_at_W17 : W17 m ρ c (Proc.devRef .tc main_arg12) = m ((c.tc : Thread nD τ).loc main_arg12) :=
  (W17_of_ne m ρ c main_arg12 (by decide)).trans (arg12_at_W16 m ρ c)
theorem arg12_at_W18 : W18 m ρ c (Proc.devRef .tc main_arg12) = m ((c.tc : Thread nD τ).loc main_arg12) :=
  (KHost.h10_arg12 (W17 m ρ c)).trans (arg12_at_W17 m ρ c)
theorem arg12_at_W19 : W19 m ρ c (Proc.devRef .tc main_arg12) = m ((c.tc : Thread nD τ).loc main_arg12) :=
  (W19_of_ne m ρ c main_arg12 (by decide)).trans (arg12_at_W18 m ρ c)
theorem arg12_at_W20 : W20 m ρ c (Proc.devRef .tc main_arg12) = m ((c.tc : Thread nD τ).loc main_arg12) :=
  (W20_of_ne m ρ c main_arg12 (by decide)).trans (arg12_at_W19 m ρ c)
theorem arg12_at_W21 : W21 m ρ c (Proc.devRef .tc main_arg12) = m ((c.tc : Thread nD τ).loc main_arg12) :=
  (KHost.h12_arg12 (W20 m ρ c)).trans (arg12_at_W20 m ρ c)
theorem arg12_at_W22 : W22 m ρ c (Proc.devRef .tc main_arg12) = m ((c.tc : Thread nD τ).loc main_arg12) :=
  (W22_of_ne m ρ c main_arg12 (by decide)).trans (arg12_at_W21 m ρ c)
theorem arg12_at_W23 : W23 m ρ c (Proc.devRef .tc main_arg12) = m ((c.tc : Thread nD τ).loc main_arg12) :=
  (KHost.h13_arg12 (W22 m ρ c)).trans (arg12_at_W22 m ρ c)

theorem arg13_at_W0 : W0 m ρ c (Proc.devRef .tc main_arg13) = m ((c.tc : Thread nD τ).loc main_arg13) := rfl
theorem arg13_at_W1 : W1 m ρ c (Proc.devRef .tc main_arg13) = m ((c.tc : Thread nD τ).loc main_arg13) :=
  (KHost.h0_arg13 (W0 m ρ c)).trans (arg13_at_W0 m ρ c)
theorem arg13_at_W2 : W2 m ρ c (Proc.devRef .tc main_arg13) = m ((c.tc : Thread nD τ).loc main_arg13) :=
  (W2_of_ne m ρ c main_arg13 (by decide)).trans (arg13_at_W1 m ρ c)
theorem arg13_at_W3 : W3 m ρ c (Proc.devRef .tc main_arg13) = m ((c.tc : Thread nD τ).loc main_arg13) :=
  (KHost.h1_arg13 (W2 m ρ c)).trans (arg13_at_W2 m ρ c)
theorem arg13_at_W4 : W4 m ρ c (Proc.devRef .tc main_arg13) = m ((c.tc : Thread nD τ).loc main_arg13) :=
  (W4_of_ne m ρ c main_arg13 (by decide)).trans (arg13_at_W3 m ρ c)
theorem arg13_at_W5 : W5 m ρ c (Proc.devRef .tc main_arg13) = m ((c.tc : Thread nD τ).loc main_arg13) :=
  (KHost.h2_keep_arg13 (W4 m ρ c)).trans (arg13_at_W4 m ρ c)
theorem arg13_at_W6 : W6 m ρ c (Proc.devRef .tc main_arg13) = m ((c.tc : Thread nD τ).loc main_arg13) :=
  (W6_of_ne m ρ c main_arg13 (by decide)).trans (arg13_at_W5 m ρ c)
theorem arg13_at_W7 : W7 m ρ c (Proc.devRef .tc main_arg13) = m ((c.tc : Thread nD τ).loc main_arg13) :=
  (W7_of_ne m ρ c main_arg13 (by decide)).trans (arg13_at_W6 m ρ c)
theorem arg13_at_W8 : W8 m ρ c (Proc.devRef .tc main_arg13) = m ((c.tc : Thread nD τ).loc main_arg13) :=
  (KHost.h4_arg13 (W7 m ρ c)).trans (arg13_at_W7 m ρ c)
theorem arg13_at_W9 : W9 m ρ c (Proc.devRef .tc main_arg13) = m ((c.tc : Thread nD τ).loc main_arg13) :=
  (W9_of_ne m ρ c main_arg13 (by decide)).trans (arg13_at_W8 m ρ c)
theorem arg13_at_W10 : W10 m ρ c (Proc.devRef .tc main_arg13) = m ((c.tc : Thread nD τ).loc main_arg13) :=
  (KHost.h5_keep_arg13 (W9 m ρ c)).trans (arg13_at_W9 m ρ c)
theorem arg13_at_W11 : W11 m ρ c (Proc.devRef .tc main_arg13) = m ((c.tc : Thread nD τ).loc main_arg13) :=
  (W11_of_ne m ρ c main_arg13 (by decide)).trans (arg13_at_W10 m ρ c)
theorem arg13_at_W12 : W12 m ρ c (Proc.devRef .tc main_arg13) = m ((c.tc : Thread nD τ).loc main_arg13) :=
  (W12_of_ne m ρ c main_arg13 (by decide)).trans (arg13_at_W11 m ρ c)
theorem arg13_at_W13 : W13 m ρ c (Proc.devRef .tc main_arg13) = m ((c.tc : Thread nD τ).loc main_arg13) :=
  (KHost.h7_arg13 (W12 m ρ c)).trans (arg13_at_W12 m ρ c)
theorem arg13_at_W14 : W14 m ρ c (Proc.devRef .tc main_arg13) = m ((c.tc : Thread nD τ).loc main_arg13) :=
  (W14_of_ne m ρ c main_arg13 (by decide)).trans (arg13_at_W13 m ρ c)
theorem arg13_at_W15 : W15 m ρ c (Proc.devRef .tc main_arg13) = m ((c.tc : Thread nD τ).loc main_arg13) :=
  (KHost.h8_keep_arg13 (W14 m ρ c)).trans (arg13_at_W14 m ρ c)
theorem arg13_at_W16 : W16 m ρ c (Proc.devRef .tc main_arg13) = m ((c.tc : Thread nD τ).loc main_arg13) :=
  (W16_of_ne m ρ c main_arg13 (by decide)).trans (arg13_at_W15 m ρ c)
theorem arg13_at_W17 : W17 m ρ c (Proc.devRef .tc main_arg13) = m ((c.tc : Thread nD τ).loc main_arg13) :=
  (W17_of_ne m ρ c main_arg13 (by decide)).trans (arg13_at_W16 m ρ c)
theorem arg13_at_W18 : W18 m ρ c (Proc.devRef .tc main_arg13) = m ((c.tc : Thread nD τ).loc main_arg13) :=
  (KHost.h10_arg13 (W17 m ρ c)).trans (arg13_at_W17 m ρ c)
theorem arg13_at_W19 : W19 m ρ c (Proc.devRef .tc main_arg13) = m ((c.tc : Thread nD τ).loc main_arg13) :=
  (W19_of_ne m ρ c main_arg13 (by decide)).trans (arg13_at_W18 m ρ c)
theorem arg13_at_W20 : W20 m ρ c (Proc.devRef .tc main_arg13) = m ((c.tc : Thread nD τ).loc main_arg13) :=
  (W20_of_ne m ρ c main_arg13 (by decide)).trans (arg13_at_W19 m ρ c)
theorem arg13_at_W21 : W21 m ρ c (Proc.devRef .tc main_arg13) = m ((c.tc : Thread nD τ).loc main_arg13) :=
  (KHost.h12_arg13 (W20 m ρ c)).trans (arg13_at_W20 m ρ c)
theorem arg13_at_W22 : W22 m ρ c (Proc.devRef .tc main_arg13) = m ((c.tc : Thread nD τ).loc main_arg13) :=
  (W22_of_ne m ρ c main_arg13 (by decide)).trans (arg13_at_W21 m ρ c)
theorem arg13_at_W23 : W23 m ρ c (Proc.devRef .tc main_arg13) = m ((c.tc : Thread nD τ).loc main_arg13) :=
  (KHost.h13_arg13 (W22 m ρ c)).trans (arg13_at_W22 m ρ c)

theorem arg14_at_W0 : W0 m ρ c (Proc.devRef .tc main_arg14) = m ((c.tc : Thread nD τ).loc main_arg14) := rfl
theorem arg14_at_W1 : W1 m ρ c (Proc.devRef .tc main_arg14) = m ((c.tc : Thread nD τ).loc main_arg14) :=
  (KHost.h0_arg14 (W0 m ρ c)).trans (arg14_at_W0 m ρ c)
theorem arg14_at_W2 : W2 m ρ c (Proc.devRef .tc main_arg14) = m ((c.tc : Thread nD τ).loc main_arg14) :=
  (W2_of_ne m ρ c main_arg14 (by decide)).trans (arg14_at_W1 m ρ c)
theorem arg14_at_W3 : W3 m ρ c (Proc.devRef .tc main_arg14) = m ((c.tc : Thread nD τ).loc main_arg14) :=
  (KHost.h1_arg14 (W2 m ρ c)).trans (arg14_at_W2 m ρ c)
theorem arg14_at_W4 : W4 m ρ c (Proc.devRef .tc main_arg14) = m ((c.tc : Thread nD τ).loc main_arg14) :=
  (W4_of_ne m ρ c main_arg14 (by decide)).trans (arg14_at_W3 m ρ c)
theorem arg14_at_W5 : W5 m ρ c (Proc.devRef .tc main_arg14) = m ((c.tc : Thread nD τ).loc main_arg14) :=
  (KHost.h2_keep_arg14 (W4 m ρ c)).trans (arg14_at_W4 m ρ c)
theorem arg14_at_W6 : W6 m ρ c (Proc.devRef .tc main_arg14) = m ((c.tc : Thread nD τ).loc main_arg14) :=
  (W6_of_ne m ρ c main_arg14 (by decide)).trans (arg14_at_W5 m ρ c)
theorem arg14_at_W7 : W7 m ρ c (Proc.devRef .tc main_arg14) = m ((c.tc : Thread nD τ).loc main_arg14) :=
  (W7_of_ne m ρ c main_arg14 (by decide)).trans (arg14_at_W6 m ρ c)
theorem arg14_at_W8 : W8 m ρ c (Proc.devRef .tc main_arg14) = m ((c.tc : Thread nD τ).loc main_arg14) :=
  (KHost.h4_arg14 (W7 m ρ c)).trans (arg14_at_W7 m ρ c)
theorem arg14_at_W9 : W9 m ρ c (Proc.devRef .tc main_arg14) = m ((c.tc : Thread nD τ).loc main_arg14) :=
  (W9_of_ne m ρ c main_arg14 (by decide)).trans (arg14_at_W8 m ρ c)
theorem arg14_at_W10 : W10 m ρ c (Proc.devRef .tc main_arg14) = m ((c.tc : Thread nD τ).loc main_arg14) :=
  (KHost.h5_keep_arg14 (W9 m ρ c)).trans (arg14_at_W9 m ρ c)
theorem arg14_at_W11 : W11 m ρ c (Proc.devRef .tc main_arg14) = m ((c.tc : Thread nD τ).loc main_arg14) :=
  (W11_of_ne m ρ c main_arg14 (by decide)).trans (arg14_at_W10 m ρ c)
theorem arg14_at_W12 : W12 m ρ c (Proc.devRef .tc main_arg14) = m ((c.tc : Thread nD τ).loc main_arg14) :=
  (W12_of_ne m ρ c main_arg14 (by decide)).trans (arg14_at_W11 m ρ c)
theorem arg14_at_W13 : W13 m ρ c (Proc.devRef .tc main_arg14) = m ((c.tc : Thread nD τ).loc main_arg14) :=
  (KHost.h7_arg14 (W12 m ρ c)).trans (arg14_at_W12 m ρ c)
theorem arg14_at_W14 : W14 m ρ c (Proc.devRef .tc main_arg14) = m ((c.tc : Thread nD τ).loc main_arg14) :=
  (W14_of_ne m ρ c main_arg14 (by decide)).trans (arg14_at_W13 m ρ c)
theorem arg14_at_W15 : W15 m ρ c (Proc.devRef .tc main_arg14) = m ((c.tc : Thread nD τ).loc main_arg14) :=
  (KHost.h8_keep_arg14 (W14 m ρ c)).trans (arg14_at_W14 m ρ c)
theorem arg14_at_W16 : W16 m ρ c (Proc.devRef .tc main_arg14) = m ((c.tc : Thread nD τ).loc main_arg14) :=
  (W16_of_ne m ρ c main_arg14 (by decide)).trans (arg14_at_W15 m ρ c)
theorem arg14_at_W17 : W17 m ρ c (Proc.devRef .tc main_arg14) = m ((c.tc : Thread nD τ).loc main_arg14) :=
  (W17_of_ne m ρ c main_arg14 (by decide)).trans (arg14_at_W16 m ρ c)
theorem arg14_at_W18 : W18 m ρ c (Proc.devRef .tc main_arg14) = m ((c.tc : Thread nD τ).loc main_arg14) :=
  (KHost.h10_arg14 (W17 m ρ c)).trans (arg14_at_W17 m ρ c)
theorem arg14_at_W19 : W19 m ρ c (Proc.devRef .tc main_arg14) = m ((c.tc : Thread nD τ).loc main_arg14) :=
  (W19_of_ne m ρ c main_arg14 (by decide)).trans (arg14_at_W18 m ρ c)
theorem arg14_at_W20 : W20 m ρ c (Proc.devRef .tc main_arg14) = m ((c.tc : Thread nD τ).loc main_arg14) :=
  (W20_of_ne m ρ c main_arg14 (by decide)).trans (arg14_at_W19 m ρ c)
theorem arg14_at_W21 : W21 m ρ c (Proc.devRef .tc main_arg14) = m ((c.tc : Thread nD τ).loc main_arg14) :=
  (KHost.h12_arg14 (W20 m ρ c)).trans (arg14_at_W20 m ρ c)
theorem arg14_at_W22 : W22 m ρ c (Proc.devRef .tc main_arg14) = m ((c.tc : Thread nD τ).loc main_arg14) :=
  (W22_of_ne m ρ c main_arg14 (by decide)).trans (arg14_at_W21 m ρ c)
theorem arg14_at_W23 : W23 m ρ c (Proc.devRef .tc main_arg14) = m ((c.tc : Thread nD τ).loc main_arg14) :=
  (KHost.h13_arg14 (W22 m ρ c)).trans (arg14_at_W22 m ρ c)

theorem arg15_at_W0 : W0 m ρ c (Proc.devRef .tc main_arg15) = m ((c.tc : Thread nD τ).loc main_arg15) := rfl
theorem arg15_at_W1 : W1 m ρ c (Proc.devRef .tc main_arg15) = m ((c.tc : Thread nD τ).loc main_arg15) :=
  (KHost.h0_arg15 (W0 m ρ c)).trans (arg15_at_W0 m ρ c)
theorem arg15_at_W2 : W2 m ρ c (Proc.devRef .tc main_arg15) = m ((c.tc : Thread nD τ).loc main_arg15) :=
  (W2_of_ne m ρ c main_arg15 (by decide)).trans (arg15_at_W1 m ρ c)
theorem arg15_at_W3 : W3 m ρ c (Proc.devRef .tc main_arg15) = m ((c.tc : Thread nD τ).loc main_arg15) :=
  (KHost.h1_arg15 (W2 m ρ c)).trans (arg15_at_W2 m ρ c)
theorem arg15_at_W4 : W4 m ρ c (Proc.devRef .tc main_arg15) = m ((c.tc : Thread nD τ).loc main_arg15) :=
  (W4_of_ne m ρ c main_arg15 (by decide)).trans (arg15_at_W3 m ρ c)
theorem arg15_at_W5 : W5 m ρ c (Proc.devRef .tc main_arg15) = m ((c.tc : Thread nD τ).loc main_arg15) :=
  (KHost.h2_keep_arg15 (W4 m ρ c)).trans (arg15_at_W4 m ρ c)
theorem arg15_at_W6 : W6 m ρ c (Proc.devRef .tc main_arg15) = m ((c.tc : Thread nD τ).loc main_arg15) :=
  (W6_of_ne m ρ c main_arg15 (by decide)).trans (arg15_at_W5 m ρ c)
theorem arg15_at_W7 : W7 m ρ c (Proc.devRef .tc main_arg15) = m ((c.tc : Thread nD τ).loc main_arg15) :=
  (W7_of_ne m ρ c main_arg15 (by decide)).trans (arg15_at_W6 m ρ c)
theorem arg15_at_W8 : W8 m ρ c (Proc.devRef .tc main_arg15) = m ((c.tc : Thread nD τ).loc main_arg15) :=
  (KHost.h4_arg15 (W7 m ρ c)).trans (arg15_at_W7 m ρ c)
theorem arg15_at_W9 : W9 m ρ c (Proc.devRef .tc main_arg15) = m ((c.tc : Thread nD τ).loc main_arg15) :=
  (W9_of_ne m ρ c main_arg15 (by decide)).trans (arg15_at_W8 m ρ c)
theorem arg15_at_W10 : W10 m ρ c (Proc.devRef .tc main_arg15) = m ((c.tc : Thread nD τ).loc main_arg15) :=
  (KHost.h5_keep_arg15 (W9 m ρ c)).trans (arg15_at_W9 m ρ c)
theorem arg15_at_W11 : W11 m ρ c (Proc.devRef .tc main_arg15) = m ((c.tc : Thread nD τ).loc main_arg15) :=
  (W11_of_ne m ρ c main_arg15 (by decide)).trans (arg15_at_W10 m ρ c)
theorem arg15_at_W12 : W12 m ρ c (Proc.devRef .tc main_arg15) = m ((c.tc : Thread nD τ).loc main_arg15) :=
  (W12_of_ne m ρ c main_arg15 (by decide)).trans (arg15_at_W11 m ρ c)
theorem arg15_at_W13 : W13 m ρ c (Proc.devRef .tc main_arg15) = m ((c.tc : Thread nD τ).loc main_arg15) :=
  (KHost.h7_arg15 (W12 m ρ c)).trans (arg15_at_W12 m ρ c)
theorem arg15_at_W14 : W14 m ρ c (Proc.devRef .tc main_arg15) = m ((c.tc : Thread nD τ).loc main_arg15) :=
  (W14_of_ne m ρ c main_arg15 (by decide)).trans (arg15_at_W13 m ρ c)
theorem arg15_at_W15 : W15 m ρ c (Proc.devRef .tc main_arg15) = m ((c.tc : Thread nD τ).loc main_arg15) :=
  (KHost.h8_keep_arg15 (W14 m ρ c)).trans (arg15_at_W14 m ρ c)
theorem arg15_at_W16 : W16 m ρ c (Proc.devRef .tc main_arg15) = m ((c.tc : Thread nD τ).loc main_arg15) :=
  (W16_of_ne m ρ c main_arg15 (by decide)).trans (arg15_at_W15 m ρ c)
theorem arg15_at_W17 : W17 m ρ c (Proc.devRef .tc main_arg15) = m ((c.tc : Thread nD τ).loc main_arg15) :=
  (W17_of_ne m ρ c main_arg15 (by decide)).trans (arg15_at_W16 m ρ c)
theorem arg15_at_W18 : W18 m ρ c (Proc.devRef .tc main_arg15) = m ((c.tc : Thread nD τ).loc main_arg15) :=
  (KHost.h10_arg15 (W17 m ρ c)).trans (arg15_at_W17 m ρ c)
theorem arg15_at_W19 : W19 m ρ c (Proc.devRef .tc main_arg15) = m ((c.tc : Thread nD τ).loc main_arg15) :=
  (W19_of_ne m ρ c main_arg15 (by decide)).trans (arg15_at_W18 m ρ c)
theorem arg15_at_W20 : W20 m ρ c (Proc.devRef .tc main_arg15) = m ((c.tc : Thread nD τ).loc main_arg15) :=
  (W20_of_ne m ρ c main_arg15 (by decide)).trans (arg15_at_W19 m ρ c)
theorem arg15_at_W21 : W21 m ρ c (Proc.devRef .tc main_arg15) = m ((c.tc : Thread nD τ).loc main_arg15) :=
  (KHost.h12_arg15 (W20 m ρ c)).trans (arg15_at_W20 m ρ c)
theorem arg15_at_W22 : W22 m ρ c (Proc.devRef .tc main_arg15) = m ((c.tc : Thread nD τ).loc main_arg15) :=
  (W22_of_ne m ρ c main_arg15 (by decide)).trans (arg15_at_W21 m ρ c)
theorem arg15_at_W23 : W23 m ρ c (Proc.devRef .tc main_arg15) = m ((c.tc : Thread nD τ).loc main_arg15) :=
  (KHost.h13_arg15 (W22 m ρ c)).trans (arg15_at_W22 m ρ c)

/-! ## The graph's arrays: from the first stretch on, the shared functions of the edge list -/

theorem v1_at_W1 : W1 m ρ c (Proc.devRef .tc main_v1)
    = srcT (m ((c.tc : Thread nD τ).loc main_arg1)) :=
  KHost.h0_v1 (W0 m ρ c)
theorem v1_at_W2 : W2 m ρ c (Proc.devRef .tc main_v1)
    = srcT (m ((c.tc : Thread nD τ).loc main_arg1)) :=
  (W2_of_ne m ρ c main_v1 (by decide)).trans (v1_at_W1 m ρ c)
theorem v1_at_W3 : W3 m ρ c (Proc.devRef .tc main_v1)
    = srcT (m ((c.tc : Thread nD τ).loc main_arg1)) :=
  (KHost.h1_keep_v1 (W2 m ρ c)).trans (v1_at_W2 m ρ c)
theorem v1_at_W4 : W4 m ρ c (Proc.devRef .tc main_v1)
    = srcT (m ((c.tc : Thread nD τ).loc main_arg1)) :=
  (W4_of_ne m ρ c main_v1 (by decide)).trans (v1_at_W3 m ρ c)
theorem v1_at_W5 : W5 m ρ c (Proc.devRef .tc main_v1)
    = srcT (m ((c.tc : Thread nD τ).loc main_arg1)) :=
  (KHost.h2_keep_v1 (W4 m ρ c)).trans (v1_at_W4 m ρ c)
theorem v1_at_W6 : W6 m ρ c (Proc.devRef .tc main_v1)
    = srcT (m ((c.tc : Thread nD τ).loc main_arg1)) :=
  (W6_of_ne m ρ c main_v1 (by decide)).trans (v1_at_W5 m ρ c)
theorem v1_at_W7 : W7 m ρ c (Proc.devRef .tc main_v1)
    = srcT (m ((c.tc : Thread nD τ).loc main_arg1)) :=
  (W7_of_ne m ρ c main_v1 (by decide)).trans (v1_at_W6 m ρ c)
theorem v1_at_W8 : W8 m ρ c (Proc.devRef .tc main_v1)
    = srcT (m ((c.tc : Thread nD τ).loc main_arg1)) :=
  (KHost.h4_keep_v1 (W7 m ρ c)).trans (v1_at_W7 m ρ c)
theorem v1_at_W9 : W9 m ρ c (Proc.devRef .tc main_v1)
    = srcT (m ((c.tc : Thread nD τ).loc main_arg1)) :=
  (W9_of_ne m ρ c main_v1 (by decide)).trans (v1_at_W8 m ρ c)
theorem v1_at_W10 : W10 m ρ c (Proc.devRef .tc main_v1)
    = srcT (m ((c.tc : Thread nD τ).loc main_arg1)) :=
  (KHost.h5_keep_v1 (W9 m ρ c)).trans (v1_at_W9 m ρ c)
theorem v1_at_W11 : W11 m ρ c (Proc.devRef .tc main_v1)
    = srcT (m ((c.tc : Thread nD τ).loc main_arg1)) :=
  (W11_of_ne m ρ c main_v1 (by decide)).trans (v1_at_W10 m ρ c)
theorem v1_at_W12 : W12 m ρ c (Proc.devRef .tc main_v1)
    = srcT (m ((c.tc : Thread nD τ).loc main_arg1)) :=
  (W12_of_ne m ρ c main_v1 (by decide)).trans (v1_at_W11 m ρ c)
theorem v1_at_W13 : W13 m ρ c (Proc.devRef .tc main_v1)
    = srcT (m ((c.tc : Thread nD τ).loc main_arg1)) :=
  (KHost.h7_keep_v1 (W12 m ρ c)).trans (v1_at_W12 m ρ c)
theorem v1_at_W14 : W14 m ρ c (Proc.devRef .tc main_v1)
    = srcT (m ((c.tc : Thread nD τ).loc main_arg1)) :=
  (W14_of_ne m ρ c main_v1 (by decide)).trans (v1_at_W13 m ρ c)
theorem v1_at_W15 : W15 m ρ c (Proc.devRef .tc main_v1)
    = srcT (m ((c.tc : Thread nD τ).loc main_arg1)) :=
  (KHost.h8_keep_v1 (W14 m ρ c)).trans (v1_at_W14 m ρ c)
theorem v1_at_W16 : W16 m ρ c (Proc.devRef .tc main_v1)
    = srcT (m ((c.tc : Thread nD τ).loc main_arg1)) :=
  (W16_of_ne m ρ c main_v1 (by decide)).trans (v1_at_W15 m ρ c)
theorem v1_at_W17 : W17 m ρ c (Proc.devRef .tc main_v1)
    = srcT (m ((c.tc : Thread nD τ).loc main_arg1)) :=
  (W17_of_ne m ρ c main_v1 (by decide)).trans (v1_at_W16 m ρ c)
theorem v1_at_W18 : W18 m ρ c (Proc.devRef .tc main_v1)
    = srcT (m ((c.tc : Thread nD τ).loc main_arg1)) :=
  (KHost.h10_keep_v1 (W17 m ρ c)).trans (v1_at_W17 m ρ c)
theorem v1_at_W19 : W19 m ρ c (Proc.devRef .tc main_v1)
    = srcT (m ((c.tc : Thread nD τ).loc main_arg1)) :=
  (W19_of_ne m ρ c main_v1 (by decide)).trans (v1_at_W18 m ρ c)
theorem v1_at_W20 : W20 m ρ c (Proc.devRef .tc main_v1)
    = srcT (m ((c.tc : Thread nD τ).loc main_arg1)) :=
  (W20_of_ne m ρ c main_v1 (by decide)).trans (v1_at_W19 m ρ c)
theorem v1_at_W21 : W21 m ρ c (Proc.devRef .tc main_v1)
    = srcT (m ((c.tc : Thread nD τ).loc main_arg1)) :=
  (KHost.h12_keep_v1 (W20 m ρ c)).trans (v1_at_W20 m ρ c)
theorem v1_at_W22 : W22 m ρ c (Proc.devRef .tc main_v1)
    = srcT (m ((c.tc : Thread nD τ).loc main_arg1)) :=
  (W22_of_ne m ρ c main_v1 (by decide)).trans (v1_at_W21 m ρ c)
theorem v1_at_W23 : W23 m ρ c (Proc.devRef .tc main_v1)
    = srcT (m ((c.tc : Thread nD τ).loc main_arg1)) :=
  (KHost.h13_keep (W22 m ρ c) (by decide)).trans (v1_at_W22 m ρ c)

theorem v3_at_W1 : W1 m ρ c (Proc.devRef .tc main_v3)
    = dstT (m ((c.tc : Thread nD τ).loc main_arg1)) :=
  KHost.h0_v3 (W0 m ρ c)
theorem v3_at_W2 : W2 m ρ c (Proc.devRef .tc main_v3)
    = dstT (m ((c.tc : Thread nD τ).loc main_arg1)) :=
  (W2_of_ne m ρ c main_v3 (by decide)).trans (v3_at_W1 m ρ c)
theorem v3_at_W3 : W3 m ρ c (Proc.devRef .tc main_v3)
    = dstT (m ((c.tc : Thread nD τ).loc main_arg1)) :=
  (KHost.h1_keep_v3 (W2 m ρ c)).trans (v3_at_W2 m ρ c)
theorem v3_at_W4 : W4 m ρ c (Proc.devRef .tc main_v3)
    = dstT (m ((c.tc : Thread nD τ).loc main_arg1)) :=
  (W4_of_ne m ρ c main_v3 (by decide)).trans (v3_at_W3 m ρ c)
theorem v3_at_W5 : W5 m ρ c (Proc.devRef .tc main_v3)
    = dstT (m ((c.tc : Thread nD τ).loc main_arg1)) :=
  (KHost.h2_keep_v3 (W4 m ρ c)).trans (v3_at_W4 m ρ c)
theorem v3_at_W6 : W6 m ρ c (Proc.devRef .tc main_v3)
    = dstT (m ((c.tc : Thread nD τ).loc main_arg1)) :=
  (W6_of_ne m ρ c main_v3 (by decide)).trans (v3_at_W5 m ρ c)
theorem v3_at_W7 : W7 m ρ c (Proc.devRef .tc main_v3)
    = dstT (m ((c.tc : Thread nD τ).loc main_arg1)) :=
  (W7_of_ne m ρ c main_v3 (by decide)).trans (v3_at_W6 m ρ c)
theorem v3_at_W8 : W8 m ρ c (Proc.devRef .tc main_v3)
    = dstT (m ((c.tc : Thread nD τ).loc main_arg1)) :=
  (KHost.h4_keep_v3 (W7 m ρ c)).trans (v3_at_W7 m ρ c)
theorem v3_at_W9 : W9 m ρ c (Proc.devRef .tc main_v3)
    = dstT (m ((c.tc : Thread nD τ).loc main_arg1)) :=
  (W9_of_ne m ρ c main_v3 (by decide)).trans (v3_at_W8 m ρ c)
theorem v3_at_W10 : W10 m ρ c (Proc.devRef .tc main_v3)
    = dstT (m ((c.tc : Thread nD τ).loc main_arg1)) :=
  (KHost.h5_keep_v3 (W9 m ρ c)).trans (v3_at_W9 m ρ c)
theorem v3_at_W11 : W11 m ρ c (Proc.devRef .tc main_v3)
    = dstT (m ((c.tc : Thread nD τ).loc main_arg1)) :=
  (W11_of_ne m ρ c main_v3 (by decide)).trans (v3_at_W10 m ρ c)
theorem v3_at_W12 : W12 m ρ c (Proc.devRef .tc main_v3)
    = dstT (m ((c.tc : Thread nD τ).loc main_arg1)) :=
  (W12_of_ne m ρ c main_v3 (by decide)).trans (v3_at_W11 m ρ c)
theorem v3_at_W13 : W13 m ρ c (Proc.devRef .tc main_v3)
    = dstT (m ((c.tc : Thread nD τ).loc main_arg1)) :=
  (KHost.h7_keep_v3 (W12 m ρ c)).trans (v3_at_W12 m ρ c)
theorem v3_at_W14 : W14 m ρ c (Proc.devRef .tc main_v3)
    = dstT (m ((c.tc : Thread nD τ).loc main_arg1)) :=
  (W14_of_ne m ρ c main_v3 (by decide)).trans (v3_at_W13 m ρ c)
theorem v3_at_W15 : W15 m ρ c (Proc.devRef .tc main_v3)
    = dstT (m ((c.tc : Thread nD τ).loc main_arg1)) :=
  (KHost.h8_keep_v3 (W14 m ρ c)).trans (v3_at_W14 m ρ c)
theorem v3_at_W16 : W16 m ρ c (Proc.devRef .tc main_v3)
    = dstT (m ((c.tc : Thread nD τ).loc main_arg1)) :=
  (W16_of_ne m ρ c main_v3 (by decide)).trans (v3_at_W15 m ρ c)
theorem v3_at_W17 : W17 m ρ c (Proc.devRef .tc main_v3)
    = dstT (m ((c.tc : Thread nD τ).loc main_arg1)) :=
  (W17_of_ne m ρ c main_v3 (by decide)).trans (v3_at_W16 m ρ c)
theorem v3_at_W18 : W18 m ρ c (Proc.devRef .tc main_v3)
    = dstT (m ((c.tc : Thread nD τ).loc main_arg1)) :=
  (KHost.h10_keep_v3 (W17 m ρ c)).trans (v3_at_W17 m ρ c)
theorem v3_at_W19 : W19 m ρ c (Proc.devRef .tc main_v3)
    = dstT (m ((c.tc : Thread nD τ).loc main_arg1)) :=
  (W19_of_ne m ρ c main_v3 (by decide)).trans (v3_at_W18 m ρ c)
theorem v3_at_W20 : W20 m ρ c (Proc.devRef .tc main_v3)
    = dstT (m ((c.tc : Thread nD τ).loc main_arg1)) :=
  (W20_of_ne m ρ c main_v3 (by decide)).trans (v3_at_W19 m ρ c)
theorem v3_at_W21 : W21 m ρ c (Proc.devRef .tc main_v3)
    = dstT (m ((c.tc : Thread nD τ).loc main_arg1)) :=
  (KHost.h12_keep_v3 (W20 m ρ c)).trans (v3_at_W20 m ρ c)
theorem v3_at_W22 : W22 m ρ c (Proc.devRef .tc main_v3)
    = dstT (m ((c.tc : Thread nD τ).loc main_arg1)) :=
  (W22_of_ne m ρ c main_v3 (by decide)).trans (v3_at_W21 m ρ c)
theorem v3_at_W23 : W23 m ρ c (Proc.devRef .tc main_v3)
    = dstT (m ((c.tc : Thread nD τ).loc main_arg1)) :=
  (KHost.h13_keep (W22 m ρ c) (by decide)).trans (v3_at_W22 m ρ c)

theorem v25_at_W1 : W1 m ρ c (Proc.devRef .tc main_v25)
    = nrmT (srcT (m ((c.tc : Thread nD τ).loc main_arg1))) (dstT (m ((c.tc : Thread nD τ).loc main_arg1))) :=
  KHost.h0_v25 (W0 m ρ c)
theorem v25_at_W2 : W2 m ρ c (Proc.devRef .tc main_v25)
    = nrmT (srcT (m ((c.tc : Thread nD τ).loc main_arg1))) (dstT (m ((c.tc : Thread nD τ).loc main_arg1))) :=
  (W2_of_ne m ρ c main_v25 (by decide)).trans (v25_at_W1 m ρ c)
theorem v25_at_W3 : W3 m ρ c (Proc.devRef .tc main_v25)
    = nrmT (srcT (m ((c.tc : Thread nD τ).loc main_arg1))) (dstT (m ((c.tc : Thread nD τ).loc main_arg1))) :=
  (KHost.h1_keep_v25 (W2 m ρ c)).trans (v25_at_W2 m ρ c)
theorem v25_at_W4 : W4 m ρ c (Proc.devRef .tc main_v25)
    = nrmT (srcT (m ((c.tc : Thread nD τ).loc main_arg1))) (dstT (m ((c.tc : Thread nD τ).loc main_arg1))) :=
  (W4_of_ne m ρ c main_v25 (by decide)).trans (v25_at_W3 m ρ c)
theorem v25_at_W5 : W5 m ρ c (Proc.devRef .tc main_v25)
    = nrmT (srcT (m ((c.tc : Thread nD τ).loc main_arg1))) (dstT (m ((c.tc : Thread nD τ).loc main_arg1))) :=
  (KHost.h2_keep_v25 (W4 m ρ c)).trans (v25_at_W4 m ρ c)
theorem v25_at_W6 : W6 m ρ c (Proc.devRef .tc main_v25)
    = nrmT (srcT (m ((c.tc : Thread nD τ).loc main_arg1))) (dstT (m ((c.tc : Thread nD τ).loc main_arg1))) :=
  (W6_of_ne m ρ c main_v25 (by decide)).trans (v25_at_W5 m ρ c)
theorem v25_at_W7 : W7 m ρ c (Proc.devRef .tc main_v25)
    = nrmT (srcT (m ((c.tc : Thread nD τ).loc main_arg1))) (dstT (m ((c.tc : Thread nD τ).loc main_arg1))) :=
  (W7_of_ne m ρ c main_v25 (by decide)).trans (v25_at_W6 m ρ c)
theorem v25_at_W8 : W8 m ρ c (Proc.devRef .tc main_v25)
    = nrmT (srcT (m ((c.tc : Thread nD τ).loc main_arg1))) (dstT (m ((c.tc : Thread nD τ).loc main_arg1))) :=
  (KHost.h4_keep_v25 (W7 m ρ c)).trans (v25_at_W7 m ρ c)
theorem v25_at_W9 : W9 m ρ c (Proc.devRef .tc main_v25)
    = nrmT (srcT (m ((c.tc : Thread nD τ).loc main_arg1))) (dstT (m ((c.tc : Thread nD τ).loc main_arg1))) :=
  (W9_of_ne m ρ c main_v25 (by decide)).trans (v25_at_W8 m ρ c)
theorem v25_at_W10 : W10 m ρ c (Proc.devRef .tc main_v25)
    = nrmT (srcT (m ((c.tc : Thread nD τ).loc main_arg1))) (dstT (m ((c.tc : Thread nD τ).loc main_arg1))) :=
  (KHost.h5_keep_v25 (W9 m ρ c)).trans (v25_at_W9 m ρ c)
theorem v25_at_W11 : W11 m ρ c (Proc.devRef .tc main_v25)
    = nrmT (srcT (m ((c.tc : Thread nD τ).loc main_arg1))) (dstT (m ((c.tc : Thread nD τ).loc main_arg1))) :=
  (W11_of_ne m ρ c main_v25 (by decide)).trans (v25_at_W10 m ρ c)
theorem v25_at_W12 : W12 m ρ c (Proc.devRef .tc main_v25)
    = nrmT (srcT (m ((c.tc : Thread nD τ).loc main_arg1))) (dstT (m ((c.tc : Thread nD τ).loc main_arg1))) :=
  (W12_of_ne m ρ c main_v25 (by decide)).trans (v25_at_W11 m ρ c)
theorem v25_at_W13 : W13 m ρ c (Proc.devRef .tc main_v25)
    = nrmT (srcT (m ((c.tc : Thread nD τ).loc main_arg1))) (dstT (m ((c.tc : Thread nD τ).loc main_arg1))) :=
  (KHost.h7_keep_v25 (W12 m ρ c)).trans (v25_at_W12 m ρ c)
theorem v25_at_W14 : W14 m ρ c (Proc.devRef .tc main_v25)
    = nrmT (srcT (m ((c.tc : Thread nD τ).loc main_arg1))) (dstT (m ((c.tc : Thread nD τ).loc main_arg1))) :=
  (W14_of_ne m ρ c main_v25 (by decide)).trans (v25_at_W13 m ρ c)
theorem v25_at_W15 : W15 m ρ c (Proc.devRef .tc main_v25)
    = nrmT (srcT (m ((c.tc : Thread nD τ).loc main_arg1))) (dstT (m ((c.tc : Thread nD τ).loc main_arg1))) :=
  (KHost.h8_keep_v25 (W14 m ρ c)).trans (v25_at_W14 m ρ c)
theorem v25_at_W16 : W16 m ρ c (Proc.devRef .tc main_v25)
    = nrmT (srcT (m ((c.tc : Thread nD τ).loc main_arg1))) (dstT (m ((c.tc : Thread nD τ).loc main_arg1))) :=
  (W16_of_ne m ρ c main_v25 (by decide)).trans (v25_at_W15 m ρ c)
theorem v25_at_W17 : W17 m ρ c (Proc.devRef .tc main_v25)
    = nrmT (srcT (m ((c.tc : Thread nD τ).loc main_arg1))) (dstT (m ((c.tc : Thread nD τ).loc main_arg1))) :=
  (W17_of_ne m ρ c main_v25 (by decide)).trans (v25_at_W16 m ρ c)
theorem v25_at_W18 : W18 m ρ c (Proc.devRef .tc main_v25)
    = nrmT (srcT (m ((c.tc : Thread nD τ).loc main_arg1))) (dstT (m ((c.tc : Thread nD τ).loc main_arg1))) :=
  (KHost.h10_keep_v25 (W17 m ρ c)).trans (v25_at_W17 m ρ c)
theorem v25_at_W19 : W19 m ρ c (Proc.devRef .tc main_v25)
    = nrmT (srcT (m ((c.tc : Thread nD τ).loc main_arg1))) (dstT (m ((c.tc : Thread nD τ).loc main_arg1))) :=
  (W19_of_ne m ρ c main_v25 (by decide)).trans (v25_at_W18 m ρ c)
theorem v25_at_W20 : W20 m ρ c (Proc.devRef .tc main_v25)
    = nrmT (srcT (m ((c.tc : Thread nD τ).loc main_arg1))) (dstT (m ((c.tc : Thread nD τ).loc main_arg1))) :=
  (W20_of_ne m ρ c main_v25 (by decide)).trans (v25_at_W19 m ρ c)
theorem v25_at_W21 : W21 m ρ c (Proc.devRef .tc main_v25)
    = nrmT (srcT (m ((c.tc : Thread nD τ).loc main_arg1))) (dstT (m ((c.tc : Thread nD τ).loc main_arg1))) :=
  (KHost.h12_keep_v25 (W20 m ρ c)).trans (v25_at_W20 m ρ c)
theorem v25_at_W22 : W22 m ρ c (Proc.devRef .tc main_v25)
    = nrmT (srcT (m ((c.tc : Thread nD τ).loc main_arg1))) (dstT (m ((c.tc : Thread nD τ).loc main_arg1))) :=
  (W22_of_ne m ρ c main_v25 (by decide)).trans (v25_at_W21 m ρ c)
theorem v25_at_W23 : W23 m ρ c (Proc.devRef .tc main_v25)
    = nrmT (srcT (m ((c.tc : Thread nD τ).loc main_arg1))) (dstT (m ((c.tc : Thread nD τ).loc main_arg1))) :=
  (KHost.h13_keep (W22 m ρ c) (by decide)).trans (v25_at_W22 m ρ c)

theorem v27_at_W1 : W1 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  KHost.h0_v27 (W0 m ρ c)
theorem v27_at_W2 : W2 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  (W2_of_ne m ρ c main_v27 (by decide)).trans (v27_at_W1 m ρ c)
theorem v27_at_W3 : W3 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  (KHost.h1_keep_v27 (W2 m ρ c)).trans (v27_at_W2 m ρ c)
theorem v27_at_W4 : W4 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  ((W4_arr m ρ c 2).trans (((dat1 (V3 m ρ) c).arrAt_in 2 rfl _).trans (A_eq1 (V3 m ρ) c 2))).trans (v27_at_W3 m ρ c)
theorem v27_at_W5 : W5 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  (KHost.h2_keep_v27 (W4 m ρ c)).trans (v27_at_W4 m ρ c)
theorem v27_at_W6 : W6 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  (W6_of_ne m ρ c main_v27 (by decide)).trans (v27_at_W5 m ρ c)
theorem v27_at_W7 : W7 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  (W7_of_ne m ρ c main_v27 (by decide)).trans (v27_at_W6 m ρ c)
theorem v27_at_W8 : W8 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  (KHost.h4_keep_v27 (W7 m ρ c)).trans (v27_at_W7 m ρ c)
theorem v27_at_W9 : W9 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  ((W9_arr m ρ c 2).trans (((dat4 (V8 m ρ) c).arrAt_in 2 rfl _).trans (A_eq4 (V8 m ρ) c 2))).trans (v27_at_W8 m ρ c)
theorem v27_at_W10 : W10 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  (KHost.h5_keep_v27 (W9 m ρ c)).trans (v27_at_W9 m ρ c)
theorem v27_at_W11 : W11 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  (W11_of_ne m ρ c main_v27 (by decide)).trans (v27_at_W10 m ρ c)
theorem v27_at_W12 : W12 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  (W12_of_ne m ρ c main_v27 (by decide)).trans (v27_at_W11 m ρ c)
theorem v27_at_W13 : W13 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  (KHost.h7_keep_v27 (W12 m ρ c)).trans (v27_at_W12 m ρ c)
theorem v27_at_W14 : W14 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  ((W14_arr m ρ c 2).trans (((dat7 (V13 m ρ) c).arrAt_in 2 rfl _).trans (A_eq7 (V13 m ρ) c 2))).trans (v27_at_W13 m ρ c)
theorem v27_at_W15 : W15 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  (KHost.h8_keep_v27 (W14 m ρ c)).trans (v27_at_W14 m ρ c)
theorem v27_at_W16 : W16 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  (W16_of_ne m ρ c main_v27 (by decide)).trans (v27_at_W15 m ρ c)
theorem v27_at_W17 : W17 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  (W17_of_ne m ρ c main_v27 (by decide)).trans (v27_at_W16 m ρ c)
theorem v27_at_W18 : W18 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  (KHost.h10_keep_v27 (W17 m ρ c)).trans (v27_at_W17 m ρ c)
theorem v27_at_W19 : W19 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  ((W19_arr m ρ c 2).trans (((dat10 (V18 m ρ) c).arrAt_in 2 rfl _).trans (A_eq10 (V18 m ρ) c 2))).trans (v27_at_W18 m ρ c)
theorem v27_at_W20 : W20 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  (W20_of_ne m ρ c main_v27 (by decide)).trans (v27_at_W19 m ρ c)
theorem v27_at_W21 : W21 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  (KHost.h12_keep_v27 (W20 m ρ c)).trans (v27_at_W20 m ρ c)
theorem v27_at_W22 : W22 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  ((W22_arr m ρ c 2).trans (((dat12 (V21 m ρ) c).arrAt_in 2 rfl _).trans (A_eq12 (V21 m ρ) c 2))).trans (v27_at_W21 m ρ c)
theorem v27_at_W23 : W23 m ρ c (Proc.devRef .tc main_v27)
    = shapeCast S262144x1 (mulf (disT (dstT (m ((c.tc : Thread nD τ).loc main_arg1)))) (disT (dstT (m ((c.tc : Thread nD τ).loc main_arg1))))) shapeCasts_S262144_S262144x1 :=
  (KHost.h13_keep (W22 m ρ c) (by decide)).trans (v27_at_W22 m ρ c)

end Cert.KernelIdeal.KVal

end
-- ==== Proof.Net.lean ====
import proofs.«167728_j48945447305605_1_alg».proof.Proof.Spec

/-!
# The five layers, stage by stage

The network's arguments as curried arrays of extended reals, with the message passing carried as three
variables `A64`, `A16`, `A1` (the weighted neighbourhood sum at 64, 16 and 1 features) and the inverse square
root of the degree `d`. Every intermediate array of either program is one of the stages named here, for the
normalisation `ln` that the program uses (`Spec.lnK` or `Spec.lnR`): `h k` is layer `k`'s linear map of the
layer's input, `y k` the sum with the neighbourhood, the self loop and the bias, `z k` the layer's output.
-/

noncomputable section

namespace Cert.Net

open Cert.Spec

/-- The 262144 nodes. -/
abbrev Node := Fin 262144

/-- The arguments, curried; `d`, `A64`, `A16`, `A1` are the graph's part. -/
structure Args where
  x : Node → Fin 9 → EReal
  W1 : Fin 9 → Fin 64 → EReal
  b1 : Fin 64 → EReal
  W2 : Fin 64 → Fin 64 → EReal
  b2 : Fin 64 → EReal
  W3 : Fin 64 → Fin 64 → EReal
  b3 : Fin 64 → EReal
  W4 : Fin 64 → Fin 16 → EReal
  b4 : Fin 16 → EReal
  W5 : Fin 16 → Fin 1 → EReal
  b5 : Fin 1 → EReal
  g2 : Fin 64 → EReal
  bt2 : Fin 64 → EReal
  g3 : Fin 64 → EReal
  bt3 : Fin 64 → EReal
  d : Node → EReal
  A64 : (Node → Fin 64 → EReal) → Node → Fin 64 → EReal
  A16 : (Node → Fin 16 → EReal) → Node → Fin 16 → EReal
  A1 : (Node → Fin 1 → EReal) → Node → Fin 1 → EReal

/-- A normalisation of a [262144, 64] array with scale and shift. -/
abbrev Ln := (Node → Fin 64 → EReal) → (Fin 64 → EReal) → (Fin 64 → EReal) → Node → Fin 64 → EReal

variable (ln : Ln) (a : Args)

def h1 : Node → Fin 64 → EReal := lin a.x a.W1
def y1 : Node → Fin 64 → EReal := conv (a.A64 (h1 a)) (h1 a) a.d a.b1
def z1 : Node → Fin 64 → EReal := ln (y1 a) a.g2 a.bt2
def h2 : Node → Fin 64 → EReal := lin (z1 ln a) a.W2
def y2 : Node → Fin 64 → EReal := conv (a.A64 (h2 ln a)) (h2 ln a) a.d a.b2
def z2 : Node → Fin 64 → EReal := ln (y2 ln a) a.g2 a.bt2
def h3 : Node → Fin 64 → EReal := lin (z2 ln a) a.W3
def y3 : Node → Fin 64 → EReal := conv (a.A64 (h3 ln a)) (h3 ln a) a.d a.b3
def z3 : Node → Fin 64 → EReal := ln (y3 ln a) a.g3 a.bt3
def h4 : Node → Fin 16 → EReal := lin (z3 ln a) a.W4
def y4 : Node → Fin 16 → EReal := conv (a.A16 (h4 ln a)) (h4 ln a) a.d a.b4
def z4 : Node → Fin 16 → EReal := eluA (y4 ln a)
def h5 : Node → Fin 1 → EReal := lin (z4 ln a) a.W5
def y5 : Node → Fin 1 → EReal := conv (a.A1 (h5 ln a)) (h5 ln a) a.d a.b5
/-- The network's result before the final re-layout: one number per node. -/
def z5 : Node → Fin 1 → EReal := eluA (y5 ln a)

end Cert.Net

end
-- ==== Proof.Cur.lean ====
import Idealize.ShloMosaic.Lib.ValueIdx
import proofs.«167728_j48945447305605_1_alg».proof.Proof.Glue
import proofs.«167728_j48945447305605_1_alg».proof.Proof.Net

/-!
# Arrays as curried functions, and the programs' arguments as the network's

A rank-2 array read at `(i, j)` and a rank-1 array read at `i`, as curried functions (`cur2`, `cur1`), with
the way back (`unc2`); and the network's arguments (`Cert.Net.Args`) made from the sixteen argument arrays:
the float arrays curried, and the graph's part — the inverse square root of the degree and the three
neighbourhood sums — the shared message-passing operations of the edge list.
-/

noncomputable section

namespace Cert.Cur

open Idealize.ShloMosaic Idealize.ShloMosaic.ValueIdx Cert.KernelIdeal Cert.KernelIdeal.Gen Cert.Glue

/-- A rank-2 array as a function of the row and the column. -/
def cur2 {n0 n1 : Nat} (x : (⟨2, ![n0, n1]⟩ : Shape).Idx → EReal) : Fin n0 → Fin n1 → EReal := fun i j => x (ix2 i j)
/-- A rank-1 array as a function of the position. -/
def cur1 {n : Nat} (x : (⟨1, ![n]⟩ : Shape).Idx → EReal) : Fin n → EReal := fun i => x (ix1 i)
/-- A function of the row and the column as a rank-2 array. -/
def unc2 {n0 n1 : Nat} (f : Fin n0 → Fin n1 → EReal) : (⟨2, ![n0, n1]⟩ : Shape).Idx → EReal := fun j => f (j 0) (j 1)

theorem unc2_cur2 {n0 n1 : Nat} (x : (⟨2, ![n0, n1]⟩ : Shape).Idx → EReal) : unc2 (cur2 x) = x :=
  funext fun j => congrArg x (eq_ix2 j).symm

theorem cur2_unc2 {n0 n1 : Nat} (f : Fin n0 → Fin n1 → EReal) : cur2 (unc2 f) = f := rfl

theorem cur2_apply {n0 n1 : Nat} (x : (⟨2, ![n0, n1]⟩ : Shape).Idx → EReal) (i : Fin n0) (j : Fin n1) :
    cur2 x i j = x (ix2 i j) := rfl

theorem cur1_apply {n : Nat} (x : (⟨1, ![n]⟩ : Shape).Idx → EReal) (i : Fin n) : cur1 x i = x (ix1 i) := rfl

-- an array of a buffer type at `Ideal`
set_option quotPrecheck false in
local notation "𝔸" S ", " t => (⟨S, t⟩ : BufTy).Contents (Elt Ideal)

/-- The network's arguments from the sixteen argument arrays, in the programs' order. -/
def argsOf (x : 𝔸 S262144x9, .f32) (e : 𝔸 S2x2097152, .i32) (W1 : 𝔸 S9x64, .f32) (b1 : 𝔸 S64, .f32)
    (W2 : 𝔸 S64x64, .f32) (b2 : 𝔸 S64, .f32) (W3 : 𝔸 S64x64, .f32) (b3 : 𝔸 S64, .f32)
    (W4 : 𝔸 S64x16, .f32) (b4 : 𝔸 S16, .f32) (W5 : 𝔸 S16x1, .f32) (b5 : 𝔸 S1, .f32)
    (g2 : 𝔸 S64, .f32) (bt2 : 𝔸 S64, .f32) (g3 : 𝔸 S64, .f32) (bt3 : 𝔸 S64, .f32) : Cert.Net.Args where
  x := cur2 x
  W1 := cur2 W1
  b1 := cur1 b1
  W2 := cur2 W2
  b2 := cur1 b2
  W3 := cur2 W3
  b3 := cur1 b3
  W4 := cur2 W4
  b4 := cur1 b4
  W5 := cur2 W5
  b5 := cur1 b5
  g2 := cur1 g2
  bt2 := cur1 bt2
  g3 := cur1 g3
  bt3 := cur1 bt3
  d := cur1 (disT (F := Ideal) (dstT e))
  A64 := fun h => cur2 (agg64T (F := Ideal) (srcT e) (dstT e) (nrmT (srcT e) (dstT e)) (unc2 h))
  A16 := fun h => cur2 (agg16T (F := Ideal) (srcT e) (dstT e) (nrmT (srcT e) (dstT e)) (unc2 h))
  A1 := fun h => cur2 (agg1T (F := Ideal) (srcT e) (dstT e) (nrmT (srcT e) (dstT e)) (unc2 h))

end Cert.Cur

end
-- ==== Proof.KArgs.lean ====
import proofs.«167728_j48945447305605_1_alg».proof.Proof.Gen.KernelIdeal
import proofs.«167728_j48945447305605_1_alg».proof.Proof.Cur

/-!
# The network's arguments at a device

The sixteen argument arrays of the program, as the memory holds them at launch on the device's TensorCore,
read as the arguments of the network (`Cert.Net.Args`): the float arrays curried, the graph's part computed
from the edge list.
-/

noncomputable section

namespace Cert.KernelIdeal.KVal

open Idealize.ShloMosaic Idealize.ShloMosaic.TcCoe Cert.KernelIdeal Cert.KernelIdeal.Gen

/-- The network's arguments: the sixteen argument arrays as launched on device `c`. -/
def argsAt (m : (ℓ : Loc nD τ sig) → Buf (Elt Ideal) ℓ) (c : Dev nD) : Cert.Net.Args :=
  Cert.Cur.argsOf (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))

variable (m : (ℓ : Loc nD τ sig) → Buf (Elt Ideal) ℓ) (c : Dev nD)

/-! Each field of the arguments, read off the definition: the float arrays curried, the graph's part the
    message-passing operations of the edge list. -/

theorem argsAt_x : (argsAt m c).x = Cert.Cur.cur2 (m ((c.tc : Thread nD τ).loc main_arg0)) := rfl
theorem argsAt_W1 : (argsAt m c).W1 = Cert.Cur.cur2 (m ((c.tc : Thread nD τ).loc main_arg2)) := rfl
theorem argsAt_b1 : (argsAt m c).b1 = Cert.Cur.cur1 (m ((c.tc : Thread nD τ).loc main_arg3)) := rfl
theorem argsAt_W2 : (argsAt m c).W2 = Cert.Cur.cur2 (m ((c.tc : Thread nD τ).loc main_arg4)) := rfl
theorem argsAt_b2 : (argsAt m c).b2 = Cert.Cur.cur1 (m ((c.tc : Thread nD τ).loc main_arg5)) := rfl
theorem argsAt_W3 : (argsAt m c).W3 = Cert.Cur.cur2 (m ((c.tc : Thread nD τ).loc main_arg6)) := rfl
theorem argsAt_b3 : (argsAt m c).b3 = Cert.Cur.cur1 (m ((c.tc : Thread nD τ).loc main_arg7)) := rfl
theorem argsAt_W4 : (argsAt m c).W4 = Cert.Cur.cur2 (m ((c.tc : Thread nD τ).loc main_arg8)) := rfl
theorem argsAt_b4 : (argsAt m c).b4 = Cert.Cur.cur1 (m ((c.tc : Thread nD τ).loc main_arg9)) := rfl
theorem argsAt_W5 : (argsAt m c).W5 = Cert.Cur.cur2 (m ((c.tc : Thread nD τ).loc main_arg10)) := rfl
theorem argsAt_b5 : (argsAt m c).b5 = Cert.Cur.cur1 (m ((c.tc : Thread nD τ).loc main_arg11)) := rfl
theorem argsAt_g2 : (argsAt m c).g2 = Cert.Cur.cur1 (m ((c.tc : Thread nD τ).loc main_arg12)) := rfl
theorem argsAt_bt2 : (argsAt m c).bt2 = Cert.Cur.cur1 (m ((c.tc : Thread nD τ).loc main_arg13)) := rfl
theorem argsAt_g3 : (argsAt m c).g3 = Cert.Cur.cur1 (m ((c.tc : Thread nD τ).loc main_arg14)) := rfl
theorem argsAt_bt3 : (argsAt m c).bt3 = Cert.Cur.cur1 (m ((c.tc : Thread nD τ).loc main_arg15)) := rfl
theorem argsAt_d : (argsAt m c).d = Cert.Cur.cur1 (Cert.Glue.disT (F := Ideal) (Cert.Glue.dstT (m ((c.tc : Thread nD τ).loc main_arg1)))) := rfl
theorem argsAt_A64 (h : Cert.Net.Node → Fin 64 → EReal) : (argsAt m c).A64 h
    = Cert.Cur.cur2 (Cert.Glue.agg64T (F := Ideal) (Cert.Glue.srcT (m ((c.tc : Thread nD τ).loc main_arg1))) (Cert.Glue.dstT (m ((c.tc : Thread nD τ).loc main_arg1)))
        (Cert.Glue.nrmT (Cert.Glue.srcT (m ((c.tc : Thread nD τ).loc main_arg1))) (Cert.Glue.dstT (m ((c.tc : Thread nD τ).loc main_arg1)))) (Cert.Cur.unc2 h)) := rfl
theorem argsAt_A16 (h : Cert.Net.Node → Fin 16 → EReal) : (argsAt m c).A16 h
    = Cert.Cur.cur2 (Cert.Glue.agg16T (F := Ideal) (Cert.Glue.srcT (m ((c.tc : Thread nD τ).loc main_arg1))) (Cert.Glue.dstT (m ((c.tc : Thread nD τ).loc main_arg1)))
        (Cert.Glue.nrmT (Cert.Glue.srcT (m ((c.tc : Thread nD τ).loc main_arg1))) (Cert.Glue.dstT (m ((c.tc : Thread nD τ).loc main_arg1)))) (Cert.Cur.unc2 h)) := rfl
theorem argsAt_A1 (h : Cert.Net.Node → Fin 1 → EReal) : (argsAt m c).A1 h
    = Cert.Cur.cur2 (Cert.Glue.agg1T (F := Ideal) (Cert.Glue.srcT (m ((c.tc : Thread nD τ).loc main_arg1))) (Cert.Glue.dstT (m ((c.tc : Thread nD τ).loc main_arg1)))
        (Cert.Glue.nrmT (Cert.Glue.srcT (m ((c.tc : Thread nD τ).loc main_arg1))) (Cert.Glue.dstT (m ((c.tc : Thread nD τ).loc main_arg1)))) (Cert.Cur.unc2 h)) := rfl

end Cert.KernelIdeal.KVal

end
-- ==== Proof.KEntry.lean ====
import Idealize.ShloMosaic.Lib.ValueLayout
import Idealize.ShloMosaic.Lib.ValueIdx
import proofs.«167728_j48945447305605_1_alg».proof.Proof.Spec

noncomputable section

namespace Cert.KernelIdeal.KVal

open Idealize.ShloMosaic Idealize.ShloMosaic.TcCoe Idealize.ShloMosaic.ValueIdx

/-! ## Reading small arrays at an index, and the two entrywise forms of a layer -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A layer's sum of neighbourhood, self loop and bias, read entry by entry off four arrays: the
    neighbourhood sum and the features at `(i, j)`, the squared scale's column at `(i, 0)`, the bias row at `(0, j)`. -/
theorem conv_entry {n : ℕ} (A H : (⟨2, ![262144, n]⟩ : Shape).Idx → EReal) (D : (⟨2, ![262144, 1]⟩ : Shape).Idx → EReal)
    (B : (⟨2, ![1, n]⟩ : Shape).Idx → EReal) (a h : Fin 262144 → Fin n → EReal) (d : Fin 262144 → EReal) (b : Fin n → EReal)
    (hA : ∀ i j, A (ix2 i j) = a i j) (hH : ∀ i j, H (ix2 i j) = h i j)
    (hD : ∀ i, D (ix2 i (0 : Fin 1)) = d i * d i) (hB : ∀ j, B (ix2 (0 : Fin 1) j) = b j) (i : Fin 262144) (j : Fin n) :
    A (ix2 i j) + H (ix2 i j) * D (ix2 i (0 : Fin 1)) + B (ix2 (0 : Fin 1) j) = Cert.Spec.conv a h d b i j := by
  rw [hA, hH, hD, hB]; rfl

/-- The normalisation with the reciprocal, read entry by entry off five arrays: the layer's sum at `(i, j)`, the
    mean and the reciprocal at `(0, 0)`, the scale and shift rows at `(0, j)`. -/
theorem lnK_entry (Yv : (⟨2, ![262144, 64]⟩ : Shape).Idx → EReal) (M S : (⟨2, ![1, 1]⟩ : Shape).Idx → EReal)
    (G Bt : (⟨2, ![1, 64]⟩ : Shape).Idx → EReal) (y : Fin 262144 → Fin 64 → EReal) (g bt : Fin 64 → EReal)
    (hY : ∀ i j, Yv (ix2 i j) = y i j) (hM : M (ix2 (0 : Fin 1) (0 : Fin 1)) = Cert.Spec.mean y)
    (hS : S (ix2 (0 : Fin 1) (0 : Fin 1)) = Cert.Spec.invK y) (hG : ∀ j, G (ix2 (0 : Fin 1) j) = g j)
    (hB : ∀ j, Bt (ix2 (0 : Fin 1) j) = bt j) (i : Fin 262144) (j : Fin 64) :
    Cert.Spec.elu ((Yv (ix2 i j) - M (ix2 (0 : Fin 1) (0 : Fin 1))) * S (ix2 (0 : Fin 1) (0 : Fin 1)) * G (ix2 (0 : Fin 1) j)
        + Bt (ix2 (0 : Fin 1) j)) = Cert.Spec.lnK y g bt i j := by
  rw [hY, hM, hS, hG, hB]; rfl

end Cert.KernelIdeal.KVal

end
-- ==== Proof.Reg0.lean ====
/- Region 0 of the kernel: the first linear layer (node features to hidden width).  Every grid point t multiplies rows 8192·t … 8192·t + 8191 of the
   input array [262144, 9] by the whole weight array [9, 64] (a matrix product into a zero accumulator, the change
   of float format being the identity on extended reals) and writes the 8192 × 64 result back as the same rows of the
   output array.  So the output array is, entry by entry, the sum over the 9 contraction positions of input times
   weight, whatever the arrays held when the region was entered. -/
import proofs.«167728_j48945447305605_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Reg0

open Idealize.ShloMosaic Idealize.ShloMosaic.TcCoe Cert.KernelIdeal Cert.KernelIdeal.Gen
open Idealize.ShloMosaic.Pipeline (Dat)
open Idealize.ShloMosaic.ValueIdx

/-- The zero offset of a whole-block access. -/
theorem hz : (![0, 0] : Fin 2 → Nat) = fun _ => 0 := funext fun a => by fin_cases a <;> rfl

/-! ## The body's arithmetic at an index -/

/-- The product's operand positions, axis by axis, at any output entry and contraction position: the left operand's row
    is the output's row, its column the contraction position; the right operand's row is the contraction position, its
    column the output's column. -/
theorem lhs0 (i : S8192x64.Idx) (q : dot_S8192x9_S9x64_S8192x64_1_0_0_1_n_n.contr.Idx) :
    (dot_S8192x9_S9x64_S8192x64_1_0_0_1_n_n.lhsIdx i q 0).val = (i 0).val := by
  unfold DotDims.lhsIdx
  rw [dif_neg (show ¬(0 : Fin S8192x9.rank) ∈ dot_S8192x9_S9x64_S8192x64_1_0_0_1_n_n.lhsBatch by decide),
    dif_pos (show (0 : Fin S8192x9.rank) ∈ dot_S8192x9_S9x64_S8192x64_1_0_0_1_n_n.lhsNonContracting by decide)]
  rfl
theorem lhs1 (i : S8192x64.Idx) (q : dot_S8192x9_S9x64_S8192x64_1_0_0_1_n_n.contr.Idx) :
    (dot_S8192x9_S9x64_S8192x64_1_0_0_1_n_n.lhsIdx i q 1).val = (q ⟨0, by decide⟩).val :=
  dot_S8192x9_S9x64_S8192x64_1_0_0_1_n_n.lhsIdx_val_of_single rfl i q
theorem rhs0 (i : S8192x64.Idx) (q : dot_S8192x9_S9x64_S8192x64_1_0_0_1_n_n.contr.Idx) :
    (dot_S8192x9_S9x64_S8192x64_1_0_0_1_n_n.rhsIdx i q 0).val = (q ⟨0, by decide⟩).val :=
  dot_S8192x9_S9x64_S8192x64_1_0_0_1_n_n.rhsIdx_val_of_single rfl i q
theorem rhs1 (i : S8192x64.Idx) (q : dot_S8192x9_S9x64_S8192x64_1_0_0_1_n_n.contr.Idx) :
    (dot_S8192x9_S9x64_S8192x64_1_0_0_1_n_n.rhsIdx i q 1).val = (i 1).val := by
  unfold DotDims.rhsIdx
  rw [dif_neg (show ¬(1 : Fin S9x64.rank) ∈ dot_S8192x9_S9x64_S8192x64_1_0_0_1_n_n.rhsBatch by decide),
    dif_pos (show (1 : Fin S9x64.rank) ∈ dot_S8192x9_S9x64_S8192x64_1_0_0_1_n_n.rhsNonContracting by decide)]
  rfl

/-- The body's stored value at entry (p, q) of its block: the sum over the 9 contraction positions of the input
    block's row p times the weight's column q (the change of float format is the identity on extended reals, and the
    accumulator is zero). -/
theorem pay (x : Vec Ideal S8192x9 .f32) (w : Vec Ideal S9x64 .f32) (p : Fin 8192) (q : Fin 64) :
    k0_pay1 (F := Ideal) x w (ix2 p q) = ∑ k : Fin 9, x (ix2 p k) * w (ix2 k q) := by
  unfold k0_pay1
  refine (Ideal.matmul_constant_zero_apply dot_S8192x9_S9x64_S8192x64_1_0_0_1_n_n none _ _ (ix2 p q)).trans ?_
  rw [← Equiv.sum_comp (contrEquiv1 dot_S8192x9_S9x64_S8192x64_1_0_0_1_n_n 9 rfl rfl).symm]
  refine Finset.sum_congr rfl fun k _ => ?_
  have hk := contrEquiv1_symm_val dot_S8192x9_S9x64_S8192x64_1_0_0_1_n_n 9 rfl rfl k
  have el : dot_S8192x9_S9x64_S8192x64_1_0_0_1_n_n.lhsIdx (ix2 p q) ((contrEquiv1 dot_S8192x9_S9x64_S8192x64_1_0_0_1_n_n 9 rfl rfl).symm k) = ix2 p k :=
    funext fun a => Fin.ext (by
      match a with
      | ⟨0, _⟩ => exact lhs0 _ _
      | ⟨1, _⟩ => exact (lhs1 _ _).trans hk)
  have er : dot_S8192x9_S9x64_S8192x64_1_0_0_1_n_n.rhsIdx (ix2 p q) ((contrEquiv1 dot_S8192x9_S9x64_S8192x64_1_0_0_1_n_n 9 rfl rfl).symm k) = ix2 k q :=
    funext fun a => Fin.ext (by
      match a with
      | ⟨0, _⟩ => exact (rhs0 _ _).trans hk
      | ⟨1, _⟩ => exact rhs1 _ _)
  rw [el, er]
  rfl

/-! ## From the blocks to the array -/

/-- The output array as one function of the two input arrays. -/
def G (a0 : S262144x9.Idx → EReal) (a1 : S9x64.Idx → EReal) : S262144x64.Idx → EReal :=
  fun i => ∑ k : Fin 9, a0 (ix2 (n0 := 262144) (i 0) k) * a1 (ix2 (n1 := 64) k (i 1))

theorem G_apply (a0 : S262144x9.Idx → EReal) (a1 : S9x64.Idx → EReal) (i : Fin 262144) (j : Fin 64) :
    G a0 a1 (ix2 i j) = ∑ k : Fin 9, a0 (ix2 i k) * a1 (ix2 k j) := rfl

/-- Where the windows' blocks sit at each of the 32 grid points: the input block and the output block at block row t,
    the weight block at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The input block at point t is rows 8192·t … 8192·t + 8191 of the input array. -/
theorem blk0_apply (c : Dev nD) (t : Fin cfg0.N) (p : Fin 8192) (k : Fin 9) (r : Fin 262144)
    (hr : r.val = 8192 * t.val + p.val) :
    (iblk0 V c 0 t : Vec Ideal S8192x9 .f32) (ix2 p k)
      = (V c (Pipeline.arrRef spec0 0) : S262144x9.Idx → EReal) (ix2 r k) := by
  obtain ⟨e0, e1, -⟩ := idx_facts t
  unfold iblk0
  rw [View.read_apply]
  show (V c (Pipeline.arrRef spec0 0) : S262144x9.Idx → EReal) _ = _
  refine congrArg (V c (Pipeline.arrRef spec0 0) : S262144x9.Idx → EReal) (funext fun a => Fin.ext ?_)
  match a with
  | ⟨0, _⟩ => show win0_0.index t (0 : Fin 2) * 8192 + 1 * p.val = r.val; rw [e0, hr]; omega
  | ⟨1, _⟩ => show win0_0.index t (1 : Fin 2) * 9 + 1 * k.val = k.val; rw [e1]; omega

/-- The weight block at every point is the whole weight array. -/
theorem blk1_apply (c : Dev nD) (t : Fin cfg0.N) (k : Fin 9) (q : Fin 64) :
    (iblk0 V c 1 t : Vec Ideal S9x64 .f32) (ix2 k q)
      = (V c (Pipeline.arrRef spec0 1) : S9x64.Idx → EReal) (ix2 k q) := by
  obtain ⟨-, -, e0, e1, -⟩ := idx_facts t
  unfold iblk0
  rw [View.read_apply]
  show (V c (Pipeline.arrRef spec0 1) : S9x64.Idx → EReal) _ = _
  refine congrArg (V c (Pipeline.arrRef spec0 1) : S9x64.Idx → EReal) (funext fun a => Fin.ext ?_)
  match a with
  | ⟨0, _⟩ => show win0_1.index t (0 : Fin 2) * 9 + 1 * k.val = k.val; rw [e0]; omega
  | ⟨1, _⟩ => show win0_1.index t (1 : Fin 2) * 64 + 1 * q.val = q.val; rw [e1]; omega

/-- Entry (p, q) of the output block at point t is entry (8192·t + p, q) of the output array. -/
theorem emb2 (t : Fin cfg0.N) (p : Fin 8192) (q : Fin 64) (r : Fin 262144) (hr : r.val = 8192 * t.val + p.val) :
    ((cfg0.win 2).blk t).view.emb (ix2 p q) = (ix2 r q : S262144x64.Idx) := by
  obtain ⟨-, -, -, -, e0, e1⟩ := idx_facts t
  refine funext fun a => Fin.ext ?_
  match a with
  | ⟨0, _⟩ => show win0_2.index t (0 : Fin 2) * 8192 + 1 * p.val = r.val; rw [e0, hr]; omega
  | ⟨1, _⟩ => show win0_2.index t (1 : Fin 2) * 64 + 1 * q.val = q.val; rw [e1]; omega

/-- What point t writes back is block t of G of the arrays as the region finds them. -/
theorem flushed_eq (c : Dev nD) (t : Fin cfg0.N) :
    (dat0 V c).flushed 2 t = ((cfg0.win 2).blk t).view.read (Elt Ideal)
      (G (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S8192x9) hz, View.ld_unit_zero (S := S9x64) hz]
  funext j
  obtain ⟨p, q, rfl⟩ : ∃ (p : Fin 8192) (q : Fin 64), j = ix2 p q := ⟨j 0, j 1, eq_ix2 j⟩
  have ht : t.val < 32 := Nat.lt_of_lt_of_eq t.isLt N_0
  obtain ⟨r, hr⟩ : ∃ r : Fin 262144, r.val = 8192 * t.val + p.val := ⟨⟨8192 * t.val + p.val, by omega⟩, rfl⟩
  show k0_pay1 (iblk0 V c 0 t) (iblk0 V c 1 t) (ix2 p q)
    = G (V c (Pipeline.arrRef spec0 0)) (V c (Pipeline.arrRef spec0 1)) (((cfg0.win 2).blk t).view.emb (ix2 p q))
  rw [emb2 t p q r hr, G_apply]
  refine (pay _ _ p q).trans ?_
  refine Finset.sum_congr rfl fun k _ => ?_
  rw [blk0_apply V c t p k r hr, blk1_apply V c t k q]

/-- An index of the output array is in point t's block iff each coordinate is in the block's range on its axis. -/
theorem mem_blk (t : Fin cfg0.N) (i : S262144x64.Idx) :
    i ∈ ((cfg0.win 2).blk t).view.set ↔ ∀ a : Fin 2, win0_2.index t a * S8192x64.size a ≤ (i a).val
      ∧ (i a).val < win0_2.index t a * S8192x64.size a + S8192x64.size a := by
  show i ∈ ((View.whole main_v28).slice (win0_2.rect t)).set ↔ _
  rw [View.set_slice_whole, Rect.mem_set_unit]
  exact Iff.rfl

/-- Every row of the output array is in the block of the point its row number divided by 8192 names. -/
theorem cover (i : S262144x64.Idx) :
    ∃ t : Fin cfg0.N, (cfg0.win 2).flush t = true ∧ i ∈ ((cfg0.win 2).blk t).view.set := by
  have hi0 : (i 0).val < 262144 := (i 0).isLt
  have hi1 : (i 1).val < 64 := (i 1).isLt
  have hN : cfg0.N = 32 := N_0
  obtain ⟨t, tv⟩ : ∃ t : Fin cfg0.N, t.val = (i 0).val / 8192 := ⟨⟨(i 0).val / 8192, by rw [hN]; omega⟩, rfl⟩
  obtain ⟨-, -, -, -, e0, e1⟩ := idx_facts t
  refine ⟨t, flush0_2 t, ?_⟩
  rw [mem_blk]
  intro a
  match a with
  | ⟨0, _⟩ =>
    show win0_2.index t (0 : Fin 2) * 8192 ≤ (i 0).val ∧ (i 0).val < win0_2.index t (0 : Fin 2) * 8192 + 8192
    rw [e0, tv]; omega
  | ⟨1, _⟩ =>
    show win0_2.index t (1 : Fin 2) * 64 ≤ (i 1).val ∧ (i 1).val < win0_2.index t (1 : Fin 2) * 64 + 64
    rw [e1]; omega

/-- The output array after the region is G of the input arrays as the region found them. -/
theorem final (c : Dev nD) :
    (dat0 V c).arrAt 2 cfg0.N = G (V c (Pipeline.arrRef spec0 0)) (V c (Pipeline.arrRef spec0 1)) :=
  (dat0 V c).arrAt_eq_of_cover 2 _ (fun t _ => flushed_eq V c t) cover

/-- Entry (i, j) of the output array the region leaves: the sum over the 9 positions k of input entry (i, k) times
    weight entry (k, j), whatever the arrays held when the region was entered (a0, a1 name the two input arrays as the
    region finds them). -/
theorem out (V : (c : Dev nD) → (b : Ref sig .tc) → Buf (Elt Ideal) ((c : Thread nD τ).loc b)) (c : Dev nD)
    (a0 : S262144x9.Idx → EReal) (a1 : S9x64.Idx → EReal)
    (h0 : V c (Pipeline.arrRef spec0 0) = a0) (h1 : V c (Pipeline.arrRef spec0 1) = a1)
    (i : Fin 262144) (j : Fin 64) :
    (dat0 (F := Ideal) V c).arrAt 2 cfg0.N (ValueIdx.ix2 i j)
      = ∑ k : Fin 9, a0 (ValueIdx.ix2 i k) * a1 (ValueIdx.ix2 k j) := by
  subst h0 h1
  rw [final V c]
  rfl

end Cert.KernelIdeal.Reg0

end
-- ==== Proof.Reg1.lean ====
/-
  The value of a statistics region of the kernel, read at the extended reals and at arbitrary contents of the
  buffers when the region is entered.

  The region walks the 262144 nodes in 32 blocks of 8192 rows. At each block it forms
      y = agg + h * dis2 + b          (agg, h : [262144, 64]; dis2 : [262144, 1] a column; b : [1, 64] a row)
  stores that block of y, and adds the block's total of y and of y * y (a sum along the 64 lanes, then down the 8192
  rows) to two [1, 1] accumulators, which are set to zero before the first block and written back after the last.

  Hence after the region: the y array holds y at every node and feature; the two [1, 1] arrays hold
  Σ_i Σ_j y i j and Σ_i Σ_j y i j * y i j. Only commutativity and associativity of addition on the extended reals are
  used (the running totals are regrouped from "block by block" to "row by row"), so no finiteness is needed.

  The steps: the body's arithmetic at an index; a block's element (r, j) of point t is row 8192 * t + r of the array;
  what each of the two cases of the body (first point, later points) leaves in its three output buffers; by
  induction on the point, the accumulators after point n hold the totals of blocks 0 … n; the blocks written back
  cover the arrays.
-/
import proofs.«167728_j48945447305605_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

open scoped BigOperators

noncomputable section
namespace Cert.KernelIdeal.Reg1
open Idealize.ShloMosaic Idealize.ShloMosaic.TcCoe Cert.KernelIdeal Cert.KernelIdeal.Gen
open Idealize.ShloMosaic.ValueIdx
open Idealize.ShloMosaic.Pipeline (Dat)

/-! ## Two layout steps of the body, read at an index -/

/-- A column [a,1] broadcast along the lanes to [a,b] reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column [a,1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-! ## The body's arithmetic at an index -/

/-- The stored block at (r, j): agg + h * dis2 + b, the column dis2 and the row b broadcast. -/
theorem pay3_apply (v3 v5 : Vec Ideal S8192x64 .f32) (v7 : Vec Ideal S8192x1 .f32) (v12 : Vec Ideal S1x64 .f32)
    (r : Fin 8192) (j : Fin 64) :
    k1_pay3 (F := Ideal) v3 v5 v7 v12 (ix2 r j)
      = v3 (ix2 r j) + v5 (ix2 r j) * v7 (ix2 r (0 : Fin 1)) + v12 (ix2 (0 : Fin 1) j) := by
  unfold k1_pay3
  simp only [shapeCast_self]
  rw [addf_apply, addf_apply, mulf_apply, broadcastTo_a1_ab_apply, broadcastTo_1b_ab_apply]

/-- The lane sum (axis 1) followed by the sum down the rows (axis 0), both kept as unit axes, of a block is the
    block's total: the sum over its rows of the sum over its lanes. -/
theorem blockTotal (x : FVec Ideal S8192x64 .f32)
    (h1 : S8192x64.Reduces [1] S8192) (c1 : S8192.ShapeCasts S8192x1) (h0 : S8192x1.Reduces [0] S1)
    (c0 : S1.ShapeCasts S1x1) (hφ : FKind.Formats .f32)
    (hacc : (0x00000000#32 : BitVec 32) = FKind.add.neutral .f32 hφ) :
    shapeCast S1x1 (multiReduction .add [0] S1
        (shapeCast S8192x1 (multiReduction .add [1] S8192 x 0x00000000#32 h1 hφ hacc) c1) 0x00000000#32 h0 hφ hacc) c0
        (ix2 (0 : Fin 1) (0 : Fin 1))
      = ∑ r : Fin 8192, ∑ j : Fin 64, x (ix2 r j) := by
  refine (shapeCast_a_1a_apply _ c0 0 0).trans ?_
  refine (Ideal.multiReduction_add_single _ _ h0 hφ hacc (ix1 0)).trans ?_
  show ∑ r : Fin 8192, _ = _
  refine Finset.sum_congr rfl fun r _ => ?_
  have e : h0.lift (ix1 (0 : Fin 1)) r = ix2 r (0 : Fin 1) := by
    funext a; apply Fin.ext
    match a with
    | ⟨0, _⟩ => rfl
    | ⟨1, _⟩ => rfl
  rw [e]
  refine (shapeCast_a_a1_apply _ c1 r 0).trans ?_
  refine (Ideal.multiReduction_add_single x _ h1 hφ hacc (ix1 r)).trans ?_
  show ∑ j : Fin 64, _ = _
  refine Finset.sum_congr rfl fun j _ => ?_
  refine congrArg x ?_
  funext a; apply Fin.ext
  match a with
  | ⟨0, _⟩ => rfl
  | ⟨1, _⟩ => rfl

/-- The value an accumulator is reset to at the first point: zero. -/
theorem pay1_apply (i : S1x1.Idx) : k1_pay1 (F := Ideal) i = 0 := Ideal.ofBits_zero_f32
theorem pay2_apply (i : S1x1.Idx) : k1_pay2 (F := Ideal) i = 0 := Ideal.ofBits_zero_f32

/-- The sum accumulator after a point: what it held plus the block's total. -/
theorem pay4_apply (v3 v5 : Vec Ideal S8192x64 .f32) (v7 : Vec Ideal S8192x1 .f32) (v12 : Vec Ideal S1x64 .f32)
    (v26 : Vec Ideal S1x1 .f32) :
    k1_pay4 (F := Ideal) v3 v5 v7 v12 v26 (ix2 (0 : Fin 1) (0 : Fin 1))
      = v26 (ix2 (0 : Fin 1) (0 : Fin 1)) + ∑ r : Fin 8192, ∑ j : Fin 64, k1_pay3 (F := Ideal) v3 v5 v7 v12 (ix2 r j) := by
  unfold k1_pay4
  simp only [shapeCast_self]
  rw [addf_apply]
  exact congrArg (v26 (ix2 (0 : Fin 1) (0 : Fin 1)) + ·) (blockTotal _ _ _ _ _ _ _)

/-- The sum-of-squares accumulator after a point: what it held plus the total of the block's squares. -/
theorem pay5_apply (v3 v5 : Vec Ideal S8192x64 .f32) (v7 : Vec Ideal S8192x1 .f32) (v12 : Vec Ideal S1x64 .f32)
    (v30 : Vec Ideal S1x1 .f32) :
    k1_pay5 (F := Ideal) v3 v5 v7 v12 v30 (ix2 (0 : Fin 1) (0 : Fin 1))
      = v30 (ix2 (0 : Fin 1) (0 : Fin 1))
        + ∑ r : Fin 8192, ∑ j : Fin 64,
            k1_pay3 (F := Ideal) v3 v5 v7 v12 (ix2 r j) * k1_pay3 (F := Ideal) v3 v5 v7 v12 (ix2 r j) := by
  unfold k1_pay5
  simp only [shapeCast_self]
  rw [addf_apply]
  exact congrArg (v30 (ix2 (0 : Fin 1) (0 : Fin 1)) + ·) (blockTotal _ _ _ _ _ _ _)

/-! ## Regrouping the rows -/

/-- Thirty-two blocks of 8192 rows are the 262144 rows: a sum block by block is the sum over all rows. -/
theorem sum_regroup {M : Type*} [AddCommMonoid M] (f : ℕ → M) :
    ∑ t ∈ Finset.range 32, ∑ r : Fin 8192, f (8192 * t + r.val) = ∑ i : Fin 262144, f i.val := by
  rw [Finset.sum_range fun t => ∑ r : Fin 8192, f (8192 * t + r.val)]
  show _ = ∑ i : Fin (32 * 8192), f i.val
  rw [← Equiv.sum_comp finProdFinEquiv, Fintype.sum_prod_type]
  refine Finset.sum_congr rfl fun t _ => Finset.sum_congr rfl fun r _ => ?_
  rw [finProdFinEquiv_apply_val, Nat.add_comm]

/-! ## The blocks of the seven windows -/

theorem hN : cfg1.N = 32 := N_1

/-- The printed index maps over the grid: the row-tiled windows sit at block (t, 0), the small operands at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Row r of block t is row 8192·t + r of the array. -/
def row (t : Fin cfg1.N) (r : Fin 8192) : Fin 262144 :=
  ⟨8192 * t.val + r.val, by have h := t.isLt; have := hN; have := r.isLt; omega⟩

theorem read_blk0 (X : S262144x64.Idx → Ideal .f32) (t : Fin cfg1.N) (r : Fin 8192) (j : Fin 64) :
    ((cfg1.win 0).blk t).view.read (Elt Ideal) X (ix2 r j) = X (ix2 (row t r) j) := by
  obtain ⟨e0, e1, -⟩ := idx_facts t
  show X (((cfg1.win 0).blk t).view.emb (ix2 r j)) = X (ix2 (row t r) j)
  refine congrArg X ?_
  funext a; apply Fin.ext
  match a with
  | ⟨0, _⟩ => show win1_0.index t (0 : Fin 2) * 8192 + 1 * r.val = 8192 * t.val + r.val; omega
  | ⟨1, _⟩ => show win1_0.index t (1 : Fin 2) * 64 + 1 * j.val = j.val; omega

theorem read_blk1 (X : S262144x64.Idx → Ideal .f32) (t : Fin cfg1.N) (r : Fin 8192) (j : Fin 64) :
    ((cfg1.win 1).blk t).view.read (Elt Ideal) X (ix2 r j) = X (ix2 (row t r) j) := by
  obtain ⟨-, -, e0, e1, -⟩ := idx_facts t
  show X (((cfg1.win 1).blk t).view.emb (ix2 r j)) = X (ix2 (row t r) j)
  refine congrArg X ?_
  funext a; apply Fin.ext
  match a with
  | ⟨0, _⟩ => show win1_1.index t (0 : Fin 2) * 8192 + 1 * r.val = 8192 * t.val + r.val; omega
  | ⟨1, _⟩ => show win1_1.index t (1 : Fin 2) * 64 + 1 * j.val = j.val; omega

theorem read_blk2 (X : S262144x1.Idx → Ideal .f32) (t : Fin cfg1.N) (r : Fin 8192) :
    ((cfg1.win 2).blk t).view.read (Elt Ideal) X (ix2 r (0 : Fin 1)) = X (ix2 (row t r) (0 : Fin 1)) := by
  obtain ⟨-, -, -, -, e0, e1, -⟩ := idx_facts t
  show X (((cfg1.win 2).blk t).view.emb (ix2 r (0 : Fin 1))) = X (ix2 (row t r) (0 : Fin 1))
  refine congrArg X ?_
  funext a; apply Fin.ext
  match a with
  | ⟨0, _⟩ => show win1_2.index t (0 : Fin 2) * 8192 + 1 * r.val = 8192 * t.val + r.val; omega
  | ⟨1, _⟩ => show win1_2.index t (1 : Fin 2) * 1 + 1 * 0 = 0; omega

theorem read_blk3 (X : S1x64.Idx → Ideal .f32) (t : Fin cfg1.N) (j : Fin 64) :
    ((cfg1.win 3).blk t).view.read (Elt Ideal) X (ix2 (0 : Fin 1) j) = X (ix2 (0 : Fin 1) j) := by
  obtain ⟨-, -, -, -, -, -, e0, e1, -⟩ := idx_facts t
  show X (((cfg1.win 3).blk t).view.emb (ix2 (0 : Fin 1) j)) = X (ix2 (0 : Fin 1) j)
  refine congrArg X ?_
  funext a; apply Fin.ext
  match a with
  | ⟨0, _⟩ => show win1_3.index t (0 : Fin 2) * 1 + 1 * 0 = 0; omega
  | ⟨1, _⟩ => show win1_3.index t (1 : Fin 2) * 64 + 1 * j.val = j.val; omega

theorem emb_blk4 (t : Fin cfg1.N) (r : Fin 8192) (j : Fin 64) :
    ((cfg1.win 4).blk t).view.emb (ix2 r j) = (ix2 (row t r) j : S262144x64.Idx) := by
  obtain ⟨-, -, -, -, -, -, -, -, e0, e1, -⟩ := idx_facts t
  funext a; apply Fin.ext
  match a with
  | ⟨0, _⟩ => show win1_4.index t (0 : Fin 2) * 8192 + 1 * r.val = 8192 * t.val + r.val; omega
  | ⟨1, _⟩ => show win1_4.index t (1 : Fin 2) * 64 + 1 * j.val = j.val; omega

/-- An index of the y array is in point t's block iff each coordinate is in the block's range on its axis. -/
theorem mem_blk4 (t : Fin cfg1.N) (i : S262144x64.Idx) :
    i ∈ ((cfg1.win 4).blk t).view.set ↔ ∀ a : Fin 2, win1_4.index t a * S8192x64.size a ≤ (i a).val
      ∧ (i a).val < win1_4.index t a * S8192x64.size a + S8192x64.size a := by
  show i ∈ ((View.whole main_v43_0).slice (win1_4.rect t)).set ↔ _
  rw [View.set_slice_whole, Rect.mem_set_unit]
  exact Iff.rfl

/-- Row i of the y array is written back by point i / 8192. -/
theorem cover4 (i : S262144x64.Idx) :
    ∃ t : Fin cfg1.N, (cfg1.win 4).flush t = true ∧ i ∈ ((cfg1.win 4).blk t).view.set := by
  have hi0 : (i 0).val < 262144 := (i 0).isLt
  have hi1 : (i 1).val < 64 := (i 1).isLt
  have ht : (i 0).val / 8192 < cfg1.N := by rw [hN]; omega
  refine ⟨⟨(i 0).val / 8192, ht⟩, flush1_4 _, ?_⟩
  rw [mem_blk4]
  obtain ⟨-, -, -, -, -, -, -, -, e0, e1, -⟩ := idx_facts ⟨(i 0).val / 8192, ht⟩
  intro a
  match a with
  | ⟨0, _⟩ =>
    show win1_4.index ⟨(i 0).val / 8192, ht⟩ (0 : Fin 2) * 8192 ≤ (i 0).val
      ∧ (i 0).val < win1_4.index ⟨(i 0).val / 8192, ht⟩ (0 : Fin 2) * 8192 + 8192
    rw [e0]; show (i 0).val / 8192 * 8192 ≤ (i 0).val ∧ (i 0).val < (i 0).val / 8192 * 8192 + 8192; omega
  | ⟨1, _⟩ =>
    show win1_4.index ⟨(i 0).val / 8192, ht⟩ (1 : Fin 2) * 64 ≤ (i 1).val
      ∧ (i 1).val < win1_4.index ⟨(i 0).val / 8192, ht⟩ (1 : Fin 2) * 64 + 64
    rw [e1]; omega

/-- The last grid point, the one that writes the two accumulators back. -/
def tlast : Fin cfg1.N := ⟨31, by rw [hN]; decide⟩

theorem mem_blk5 (t : Fin cfg1.N) (i : S1x1.Idx) :
    i ∈ ((cfg1.win 5).blk t).view.set ↔ ∀ a : Fin 2, win1_5.index t a * S1x1.size a ≤ (i a).val
      ∧ (i a).val < win1_5.index t a * S1x1.size a + S1x1.size a := by
  show i ∈ ((View.whole main_v43_1).slice (win1_5.rect t)).set ↔ _
  rw [View.set_slice_whole, Rect.mem_set_unit]
  exact Iff.rfl

theorem mem_blk6 (t : Fin cfg1.N) (i : S1x1.Idx) :
    i ∈ ((cfg1.win 6).blk t).view.set ↔ ∀ a : Fin 2, win1_6.index t a * S1x1.size a ≤ (i a).val
      ∧ (i a).val < win1_6.index t a * S1x1.size a + S1x1.size a := by
  show i ∈ ((View.whole main_v43_2).slice (win1_6.rect t)).set ↔ _
  rw [View.set_slice_whole, Rect.mem_set_unit]
  exact Iff.rfl

theorem cover5 (i : S1x1.Idx) :
    ∃ t : Fin cfg1.N, (cfg1.win 5).flush t = true ∧ i ∈ ((cfg1.win 5).blk t).view.set := by
  have hi0 : (i 0).val < 1 := (i 0).isLt
  have hi1 : (i 1).val < 1 := (i 1).isLt
  refine ⟨tlast, (flush1_5 tlast).mpr rfl, ?_⟩
  rw [mem_blk5]
  obtain ⟨-, -, -, -, -, -, -, -, -, -, e0, e1, -⟩ := idx_facts tlast
  intro a
  match a with
  | ⟨0, _⟩ =>
    show win1_5.index tlast (0 : Fin 2) * 1 ≤ (i 0).val ∧ (i 0).val < win1_5.index tlast (0 : Fin 2) * 1 + 1
    rw [e0]; omega
  | ⟨1, _⟩ =>
    show win1_5.index tlast (1 : Fin 2) * 1 ≤ (i 1).val ∧ (i 1).val < win1_5.index tlast (1 : Fin 2) * 1 + 1
    rw [e1]; omega

theorem cover6 (i : S1x1.Idx) :
    ∃ t : Fin cfg1.N, (cfg1.win 6).flush t = true ∧ i ∈ ((cfg1.win 6).blk t).view.set := by
  have hi0 : (i 0).val < 1 := (i 0).isLt
  have hi1 : (i 1).val < 1 := (i 1).isLt
  refine ⟨tlast, (flush1_6 tlast).mpr rfl, ?_⟩
  rw [mem_blk6]
  obtain ⟨-, -, -, -, -, -, -, -, -, -, -, -, e0, e1⟩ := idx_facts tlast
  intro a
  match a with
  | ⟨0, _⟩ =>
    show win1_6.index tlast (0 : Fin 2) * 1 ≤ (i 0).val ∧ (i 0).val < win1_6.index tlast (0 : Fin 2) * 1 + 1
    rw [e0]; omega
  | ⟨1, _⟩ =>
    show win1_6.index tlast (1 : Fin 2) * 1 ≤ (i 1).val ∧ (i 1).val < win1_6.index tlast (1 : Fin 2) * 1 + 1
    rw [e1]; omega

/-! ## What each case of the body leaves in its three output buffers

The body stores the block of y whole at every point; at the first point it first zeroes the two accumulators; at
every point it reads each accumulator back and stores it increased by the block's total. -/

theorem hz : (![0, 0] : Fin 2 → Nat) = fun _ => 0 := funext fun a => by fin_cases a <;> rfl

section Pieces
variable (c : Dev nD) (i : grid1.Coords)
  (a1 : Memref sig .tc .vmem S8192x64 .f32) (h1 : a1.IsWhole) (a2 : Memref sig .tc .vmem S8192x64 .f32) (h2 : a2.IsWhole)
  (a3 : Memref sig .tc .vmem S8192x1 .f32) (h3 : a3.IsWhole) (a4 : Memref sig .tc .vmem S1x64 .f32) (h4 : a4.IsWhole)
  (a5 : Memref sig .tc .vmem S8192x64 .f32) (h5 : a5.IsWhole) (a6 : Memref sig .tc .vmem S1x1 .f32) (h6 : a6.IsWhole)
  (a7 : Memref sig .tc .vmem S1x1 .f32) (h7 : a7.IsWhole)
  (x0 x1 : Vec Ideal S8192x64 .f32) (x2 : Vec Ideal S8192x1 .f32) (x3 : Vec Ideal S1x64 .f32)

/-- At a later point the y buffer holds the block of y. -/
theorem out_B_4 (hc : ¬cond1_0 i) (xo5 xo6 : Vec Ideal S1x1 .f32) :
    out1_B_4 (F := Ideal) c i a1 h1 a2 h2 a3 h3 a4 h4 a5 h5 a6 h6 a7 h7 hc x0 x1 x2 x3 xo5 xo6
      = k1_pay3 (F := Ideal) x0 x1 x2 x3 := by
  unfold out1_B_4
  rw [View.read_writes_eq_canon _ _ _ (cover1_B_4 c i a1 h1 a2 h2 a3 h3 a4 h4 a5 h5 a6 h6 a7 h7 hc x0 x1 x2 x3 xo5 xo6)]
  unfold kernelRun1_B
  dsimp only
  rw [View.canon_unit_zero hz]
  simp only [View.readAt_eq_ld, h1.read_unread, h2.read_unread, h3.read_unread, h4.read_unread,
    View.ld_unit_zero (S := S8192x64) hz, View.ld_unit_zero (S := S8192x1) hz, View.ld_unit_zero (S := S1x64) hz]

/-- At a later point the sum accumulator holds what it held, increased by the block's total. -/
theorem out_B_5 (hc : ¬cond1_0 i) (xo5 xo6 : Vec Ideal S1x1 .f32) :
    out1_B_5 (F := Ideal) c i a1 h1 a2 h2 a3 h3 a4 h4 a5 h5 a6 h6 a7 h7 hc x0 x1 x2 x3 xo5 xo6
      = k1_pay4 (F := Ideal) x0 x1 x2 x3 xo5 := by
  unfold out1_B_5
  rw [View.read_writes_eq_canon _ _ _ (cover1_B_5 c i a1 h1 a2 h2 a3 h3 a4 h4 a5 h5 a6 h6 a7 h7 hc x0 x1 x2 x3 xo5 xo6)]
  unfold kernelRun1_B
  dsimp only
  rw [View.canon_unit_zero hz]
  simp only [View.readAt_eq_ld, h1.read_unread, h2.read_unread, h3.read_unread, h4.read_unread, h6.read_unread,
    h7.read_unread, View.ld_unit_zero (S := S8192x64) hz, View.ld_unit_zero (S := S8192x1) hz,
    View.ld_unit_zero (S := S1x64) hz, View.ld_unit_zero (S := S1x1) hz]

/-- At a later point the sum-of-squares accumulator likewise. -/
theorem out_B_6 (hc : ¬cond1_0 i) (xo5 xo6 : Vec Ideal S1x1 .f32) :
    out1_B_6 (F := Ideal) c i a1 h1 a2 h2 a3 h3 a4 h4 a5 h5 a6 h6 a7 h7 hc x0 x1 x2 x3 xo5 xo6
      = k1_pay5 (F := Ideal) x0 x1 x2 x3 xo6 := by
  unfold out1_B_6
  rw [View.read_writes_eq_canon _ _ _ (cover1_B_6 c i a1 h1 a2 h2 a3 h3 a4 h4 a5 h5 a6 h6 a7 h7 hc x0 x1 x2 x3 xo5 xo6)]
  unfold kernelRun1_B
  dsimp only
  sl_unfold_words
  rw [View.canon_unit_zero hz]
  simp only [View.readAt_eq_ld, h1.read_unread, h2.read_unread, h3.read_unread, h4.read_unread, h6.read_unread,
    h7.read_unread, View.ld_unit_zero (S := S8192x64) hz, View.ld_unit_zero (S := S8192x1) hz,
    View.ld_unit_zero (S := S1x64) hz, View.ld_unit_zero (S := S1x1) hz]

/-- At the first point the y buffer holds the block of y. -/
theorem out_A_4 (hc : cond1_0 i) :
    out1_A_4 (F := Ideal) c i a1 h1 a2 h2 a3 h3 a4 h4 a5 h5 a6 h6 a7 h7 hc x0 x1 x2 x3
      = k1_pay3 (F := Ideal) x0 x1 x2 x3 := by
  unfold out1_A_4
  rw [View.read_writes_eq_canon _ _ _ (cover1_A_4 c i a1 h1 a2 h2 a3 h3 a4 h4 a5 h5 a6 h6 a7 h7 hc x0 x1 x2 x3)]
  unfold kernelRun1_A
  dsimp only
  rw [View.canon_unit_zero hz]
  simp only [View.readAt_eq_ld, h1.read_unread, h2.read_unread, h3.read_unread, h4.read_unread,
    View.ld_unit_zero (S := S8192x64) hz, View.ld_unit_zero (S := S8192x1) hz, View.ld_unit_zero (S := S1x64) hz]

/-- At the first point the sum accumulator, zeroed and read back, holds zero increased by the block's total. -/
theorem out_A_5 (hc : cond1_0 i) :
    out1_A_5 (F := Ideal) c i a1 h1 a2 h2 a3 h3 a4 h4 a5 h5 a6 h6 a7 h7 hc x0 x1 x2 x3
      = k1_pay4 (F := Ideal) x0 x1 x2 x3 (k1_pay1 (F := Ideal)) := by
  unfold out1_A_5
  rw [View.read_writes_eq_canon _ _ _ (cover1_A_5 c i a1 h1 a2 h2 a3 h3 a4 h4 a5 h5 a6 h6 a7 h7 hc x0 x1 x2 x3)]
  unfold kernelRun1_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S8192x64) hz, View.ld_unit_zero (S := S8192x1) hz, View.ld_unit_zero (S := S1x64) hz]

/-- At the first point the sum-of-squares accumulator likewise. -/
theorem out_A_6 (hc : cond1_0 i) :
    out1_A_6 (F := Ideal) c i a1 h1 a2 h2 a3 h3 a4 h4 a5 h5 a6 h6 a7 h7 hc x0 x1 x2 x3
      = k1_pay5 (F := Ideal) x0 x1 x2 x3 (k1_pay2 (F := Ideal)) := by
  unfold out1_A_6
  rw [View.read_writes_eq_canon _ _ _ (cover1_A_6 c i a1 h1 a2 h2 a3 h3 a4 h4 a5 h5 a6 h6 a7 h7 hc x0 x1 x2 x3)]
  unfold kernelRun1_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S8192x64) hz, View.ld_unit_zero (S := S8192x1) hz, View.ld_unit_zero (S := S1x64) hz]

end Pieces

/-! ## The region's value, at any entry contents -/

section Value
variable (V : (c : Dev nD) → (b : Ref sig .tc) → Buf (Elt Ideal) ((c : Thread nD τ).loc b))

/-- The four input arrays as the region finds them: agg, h [262144,64], dis2 [262144,1], b [1,64]. -/
abbrev arrA (c : Dev nD) : S262144x64.Idx → Ideal .f32 := V c (Pipeline.arrRef spec1 0)
abbrev arrH (c : Dev nD) : S262144x64.Idx → Ideal .f32 := V c (Pipeline.arrRef spec1 1)
abbrev arrD (c : Dev nD) : S262144x1.Idx → Ideal .f32 := V c (Pipeline.arrRef spec1 2)
abbrev arrB (c : Dev nD) : S1x64.Idx → Ideal .f32 := V c (Pipeline.arrRef spec1 3)

/-- y at node i, feature j: agg + h * dis2 + b. -/
def Y (c : Dev nD) (i : Fin 262144) (j : Fin 64) : EReal :=
  arrA V c (ix2 i j) + arrH V c (ix2 i j) * arrD V c (ix2 i (0 : Fin 1)) + arrB V c (ix2 (0 : Fin 1) j)

theorem Y_eq (c : Dev nD) (i : Fin 262144) (j : Fin 64) :
    Y V c i j = arrA V c (ix2 i j) + arrH V c (ix2 i j) * arrD V c (ix2 i (0 : Fin 1)) + arrB V c (ix2 (0 : Fin 1) j) := rfl

/-- The block of y that point t computes, entry (r, j), is y at row 8192·t + r. -/
theorem blk_apply (c : Dev nD) (t : Fin cfg1.N) (r : Fin 8192) (j : Fin 64) :
    k1_pay3 (F := Ideal) (iblk1 V c 0 t) (iblk1 V c 1 t) (iblk1 V c 2 t) (iblk1 V c 3 t) (ix2 r j)
      = Y V c (row t r) j := by
  rw [pay3_apply (iblk1 V c 0 t) (iblk1 V c 1 t) (iblk1 V c 2 t) (iblk1 V c 3 t) r j]
  unfold iblk1
  rw [read_blk0 (arrA V c) t r j, read_blk1 (arrH V c) t r j, read_blk2 (arrD V c) t r, read_blk3 (arrB V c) t j]
  rfl

/-- y continued by zero past the last row, so that block sums are indexed by plain naturals. -/
def Yn (c : Dev nD) (i : ℕ) (j : Fin 64) : EReal := if h : i < 262144 then Y V c ⟨i, h⟩ j else 0

theorem Yn_row (c : Dev nD) (t : Fin cfg1.N) (r : Fin 8192) (j : Fin 64) :
    Yn V c (8192 * t.val + r.val) j = Y V c (row t r) j := by
  have h : 8192 * t.val + r.val < 262144 := (row t r).isLt
  unfold Yn
  rw [dif_pos h]
  rfl

/-- Block t's total of y, and of y squared. -/
def bsum (c : Dev nD) (t : ℕ) : EReal := ∑ r : Fin 8192, ∑ j : Fin 64, Yn V c (8192 * t + r.val) j
def bsq (c : Dev nD) (t : ℕ) : EReal :=
  ∑ r : Fin 8192, ∑ j : Fin 64, Yn V c (8192 * t + r.val) j * Yn V c (8192 * t + r.val) j

theorem blk_sum (c : Dev nD) (t : Fin cfg1.N) :
    ∑ r : Fin 8192, ∑ j : Fin 64,
        k1_pay3 (F := Ideal) (iblk1 V c 0 t) (iblk1 V c 1 t) (iblk1 V c 2 t) (iblk1 V c 3 t) (ix2 r j)
      = bsum V c t.val := by
  unfold bsum
  refine Finset.sum_congr rfl fun r _ => Finset.sum_congr rfl fun j _ => ?_
  rw [blk_apply V c t r j, Yn_row V c t r j]

theorem blk_sq (c : Dev nD) (t : Fin cfg1.N) :
    ∑ r : Fin 8192, ∑ j : Fin 64,
        k1_pay3 (F := Ideal) (iblk1 V c 0 t) (iblk1 V c 1 t) (iblk1 V c 2 t) (iblk1 V c 3 t) (ix2 r j)
          * k1_pay3 (F := Ideal) (iblk1 V c 0 t) (iblk1 V c 1 t) (iblk1 V c 2 t) (iblk1 V c 3 t) (ix2 r j)
      = bsq V c t.val := by
  unfold bsq
  refine Finset.sum_congr rfl fun r _ => Finset.sum_congr rfl fun j _ => ?_
  rw [blk_apply V c t r j, Yn_row V c t r j]

/-! ### The three output buffers after each point -/

/-- Output 4's buffer after point t holds the block of y, in both cases. -/
theorem outs4 (c : Dev nD) (t : Fin cfg1.N) :
    (outsAt1 V c t.val t.isLt).1
      = k1_pay3 (F := Ideal) (iblk1 V c 0 t) (iblk1 V c 1 t) (iblk1 V c 2 t) (iblk1 V c 3 t) := by
  by_cases h0 : t.val % 32 = 0
  · rw [outsAt1_A V c t h0]
    dsimp only
    exact out_A_4 c (grid1.coords t) (ms1_0 t) (hs1_0 t) (ms1_1 t) (hs1_1 t) (ms1_2 t) (hs1_2 t) (ms1_3 t) (hs1_3 t)
      (ms1_4 t) (hs1_4 t) (ms1_5 t) (hs1_5 t) (ms1_6 t) (hs1_6 t)
      (iblk1 V c 0 t) (iblk1 V c 1 t) (iblk1 V c 2 t) (iblk1 V c 3 t) ((hcond1_0 t).mpr h0)
  · rw [outsAt1_B V c t h0]
    dsimp only
    exact out_B_4 c (grid1.coords t) (ms1_0 t) (hs1_0 t) (ms1_1 t) (hs1_1 t) (ms1_2 t) (hs1_2 t) (ms1_3 t) (hs1_3 t)
      (ms1_4 t) (hs1_4 t) (ms1_5 t) (hs1_5 t) (ms1_6 t) (hs1_6 t)
      (iblk1 V c 0 t) (iblk1 V c 1 t) (iblk1 V c 2 t) (iblk1 V c 3 t) (fun h => h0 ((hcond1_0 t).mp h))
      (outsAt1 V c (t.val - 1) (Nat.lt_of_le_of_lt (Nat.sub_le _ _) t.isLt)).2.1
      (outsAt1 V c (t.val - 1) (Nat.lt_of_le_of_lt (Nat.sub_le _ _) t.isLt)).2.2

/-- The sum accumulator after the first point: block 0's total. -/
theorem acc5_A (c : Dev nD) (t : Fin cfg1.N) (h0 : t.val % 32 = 0) :
    (outsAt1 V c t.val t.isLt).2.1 (ix2 (0 : Fin 1) (0 : Fin 1)) = bsum V c t.val := by
  rw [outsAt1_A V c t h0]
  dsimp only
  rw [out_A_5 c (grid1.coords t) (ms1_0 t) (hs1_0 t) (ms1_1 t) (hs1_1 t) (ms1_2 t) (hs1_2 t) (ms1_3 t) (hs1_3 t)
      (ms1_4 t) (hs1_4 t) (ms1_5 t) (hs1_5 t) (ms1_6 t) (hs1_6 t)
      (iblk1 V c 0 t) (iblk1 V c 1 t) (iblk1 V c 2 t) (iblk1 V c 3 t) ((hcond1_0 t).mpr h0),
    pay4_apply (iblk1 V c 0 t) (iblk1 V c 1 t) (iblk1 V c 2 t) (iblk1 V c 3 t) (k1_pay1 (F := Ideal)),
    pay1_apply, zero_add, blk_sum V c t]

/-- The sum accumulator after a later point: what the point before left plus this block's total. -/
theorem acc5_B (c : Dev nD) (t : Fin cfg1.N) (h0 : ¬t.val % 32 = 0) :
    (outsAt1 V c t.val t.isLt).2.1 (ix2 (0 : Fin 1) (0 : Fin 1))
      = (outsAt1 V c (t.val - 1) (Nat.lt_of_le_of_lt (Nat.sub_le _ _) t.isLt)).2.1 (ix2 (0 : Fin 1) (0 : Fin 1))
        + bsum V c t.val := by
  rw [outsAt1_B V c t h0]
  dsimp only
  rw [out_B_5 c (grid1.coords t) (ms1_0 t) (hs1_0 t) (ms1_1 t) (hs1_1 t) (ms1_2 t) (hs1_2 t) (ms1_3 t) (hs1_3 t)
      (ms1_4 t) (hs1_4 t) (ms1_5 t) (hs1_5 t) (ms1_6 t) (hs1_6 t)
      (iblk1 V c 0 t) (iblk1 V c 1 t) (iblk1 V c 2 t) (iblk1 V c 3 t) (fun h => h0 ((hcond1_0 t).mp h))
      (outsAt1 V c (t.val - 1) (Nat.lt_of_le_of_lt (Nat.sub_le _ _) t.isLt)).2.1
      (outsAt1 V c (t.val - 1) (Nat.lt_of_le_of_lt (Nat.sub_le _ _) t.isLt)).2.2,
    pay4_apply (iblk1 V c 0 t) (iblk1 V c 1 t) (iblk1 V c 2 t) (iblk1 V c 3 t)
      (outsAt1 V c (t.val - 1) (Nat.lt_of_le_of_lt (Nat.sub_le _ _) t.isLt)).2.1,
    blk_sum V c t]

theorem acc6_A (c : Dev nD) (t : Fin cfg1.N) (h0 : t.val % 32 = 0) :
    (outsAt1 V c t.val t.isLt).2.2 (ix2 (0 : Fin 1) (0 : Fin 1)) = bsq V c t.val := by
  rw [outsAt1_A V c t h0]
  dsimp only
  rw [out_A_6 c (grid1.coords t) (ms1_0 t) (hs1_0 t) (ms1_1 t) (hs1_1 t) (ms1_2 t) (hs1_2 t) (ms1_3 t) (hs1_3 t)
      (ms1_4 t) (hs1_4 t) (ms1_5 t) (hs1_5 t) (ms1_6 t) (hs1_6 t)
      (iblk1 V c 0 t) (iblk1 V c 1 t) (iblk1 V c 2 t) (iblk1 V c 3 t) ((hcond1_0 t).mpr h0),
    pay5_apply (iblk1 V c 0 t) (iblk1 V c 1 t) (iblk1 V c 2 t) (iblk1 V c 3 t) (k1_pay2 (F := Ideal)),
    pay2_apply, zero_add, blk_sq V c t]

theorem acc6_B (c : Dev nD) (t : Fin cfg1.N) (h0 : ¬t.val % 32 = 0) :
    (outsAt1 V c t.val t.isLt).2.2 (ix2 (0 : Fin 1) (0 : Fin 1))
      = (outsAt1 V c (t.val - 1) (Nat.lt_of_le_of_lt (Nat.sub_le _ _) t.isLt)).2.2 (ix2 (0 : Fin 1) (0 : Fin 1))
        + bsq V c t.val := by
  rw [outsAt1_B V c t h0]
  dsimp only
  rw [out_B_6 c (grid1.coords t) (ms1_0 t) (hs1_0 t) (ms1_1 t) (hs1_1 t) (ms1_2 t) (hs1_2 t) (ms1_3 t) (hs1_3 t)
      (ms1_4 t) (hs1_4 t) (ms1_5 t) (hs1_5 t) (ms1_6 t) (hs1_6 t)
      (iblk1 V c 0 t) (iblk1 V c 1 t) (iblk1 V c 2 t) (iblk1 V c 3 t) (fun h => h0 ((hcond1_0 t).mp h))
      (outsAt1 V c (t.val - 1) (Nat.lt_of_le_of_lt (Nat.sub_le _ _) t.isLt)).2.1
      (outsAt1 V c (t.val - 1) (Nat.lt_of_le_of_lt (Nat.sub_le _ _) t.isLt)).2.2,
    pay5_apply (iblk1 V c 0 t) (iblk1 V c 1 t) (iblk1 V c 2 t) (iblk1 V c 3 t)
      (outsAt1 V c (t.val - 1) (Nat.lt_of_le_of_lt (Nat.sub_le _ _) t.isLt)).2.2,
    blk_sq V c t]

/-- After point n the sum accumulator holds the totals of blocks 0 … n: by induction on the point. -/
theorem acc5 (c : Dev nD) : ∀ (n : ℕ) (h : n < cfg1.N),
    (outsAt1 V c n h).2.1 (ix2 (0 : Fin 1) (0 : Fin 1)) = ∑ t ∈ Finset.range (n + 1), bsum V c t
  | 0, h => by
    refine (acc5_A V c ⟨0, h⟩ rfl).trans ?_
    rw [Finset.sum_range_one]
  | n + 1, h => by
    have hB : ¬(⟨n + 1, h⟩ : Fin cfg1.N).val % 32 = 0 := by have := hN; dsimp only; omega
    refine (acc5_B V c ⟨n + 1, h⟩ hB).trans ?_
    show (outsAt1 V c n _).2.1 (ix2 (0 : Fin 1) (0 : Fin 1)) + bsum V c (n + 1) = _
    rw [acc5 c n, Finset.sum_range_succ _ (n + 1)]

theorem acc6 (c : Dev nD) : ∀ (n : ℕ) (h : n < cfg1.N),
    (outsAt1 V c n h).2.2 (ix2 (0 : Fin 1) (0 : Fin 1)) = ∑ t ∈ Finset.range (n + 1), bsq V c t
  | 0, h => by
    refine (acc6_A V c ⟨0, h⟩ rfl).trans ?_
    rw [Finset.sum_range_one]
  | n + 1, h => by
    have hB : ¬(⟨n + 1, h⟩ : Fin cfg1.N).val % 32 = 0 := by have := hN; dsimp only; omega
    refine (acc6_B V c ⟨n + 1, h⟩ hB).trans ?_
    show (outsAt1 V c n _).2.2 (ix2 (0 : Fin 1) (0 : Fin 1)) + bsq V c (n + 1) = _
    rw [acc6 c n, Finset.sum_range_succ _ (n + 1)]

theorem Yn_val (c : Dev nD) (i : Fin 262144) (j : Fin 64) : Yn V c i.val j = Y V c i j := by
  unfold Yn
  rw [dif_pos i.isLt]

/-- After the last point the sum accumulator holds the total of y over all rows and features. -/
theorem total5 (c : Dev nD) (t : Fin cfg1.N) (h31 : t.val = 31) :
    (outsAt1 V c t.val t.isLt).2.1 (ix2 (0 : Fin 1) (0 : Fin 1)) = ∑ i : Fin 262144, ∑ j : Fin 64, Y V c i j := by
  refine (acc5 V c t.val t.isLt).trans ?_
  rw [h31]
  show ∑ t ∈ Finset.range 32, bsum V c t = _
  unfold bsum
  rw [sum_regroup fun i => ∑ j : Fin 64, Yn V c i j]
  exact Finset.sum_congr rfl fun i _ => Finset.sum_congr rfl fun j _ => Yn_val V c i j

theorem total6 (c : Dev nD) (t : Fin cfg1.N) (h31 : t.val = 31) :
    (outsAt1 V c t.val t.isLt).2.2 (ix2 (0 : Fin 1) (0 : Fin 1))
      = ∑ i : Fin 262144, ∑ j : Fin 64, Y V c i j * Y V c i j := by
  refine (acc6 V c t.val t.isLt).trans ?_
  rw [h31]
  show ∑ t ∈ Finset.range 32, bsq V c t = _
  unfold bsq
  rw [sum_regroup fun i => ∑ j : Fin 64, Yn V c i j * Yn V c i j]
  exact Finset.sum_congr rfl fun i _ => Finset.sum_congr rfl fun j _ => by rw [Yn_val V c i j]

/-! ### From the blocks to the arrays -/

/-- The y array, whole. -/
def G4 (c : Dev nD) : S262144x64.Idx → Ideal .f32 := fun i => Y V c (i 0) (i 1)
/-- The [1,1] arrays of the two totals. -/
def G5 (c : Dev nD) : S1x1.Idx → Ideal .f32 := fun _ => ∑ i : Fin 262144, ∑ j : Fin 64, Y V c i j
def G6 (c : Dev nD) : S1x1.Idx → Ideal .f32 := fun _ => ∑ i : Fin 262144, ∑ j : Fin 64, Y V c i j * Y V c i j

/-- What point t writes back to the y array is block t of it. -/
theorem flushed4_eq (c : Dev nD) (t : Fin cfg1.N) :
    (dat1 V c).flushed 4 t = ((cfg1.win 4).blk t).view.read (Elt Ideal) (G4 V c) := by
  show (cfg1.win 4).cut (grid1.coords t) ((dat1 V c).after 4 t) = _
  rw [after1_4, outs4 V c t]
  funext y
  obtain ⟨r, j, rfl⟩ : ∃ (r : Fin 8192) (j : Fin 64), y = ix2 r j := ⟨y 0, y 1, eq_ix2 y⟩
  show k1_pay3 (F := Ideal) (iblk1 V c 0 t) (iblk1 V c 1 t) (iblk1 V c 2 t) (iblk1 V c 3 t) (ix2 r j)
    = G4 V c (((cfg1.win 4).blk t).view.emb (ix2 r j))
  rw [emb_blk4 t r j, blk_apply V c t r j]
  rfl

theorem y_arr (c : Dev nD) : (dat1 V c).arrAt 4 cfg1.N = G4 V c :=
  (dat1 V c).arrAt_eq_of_cover 4 (G4 V c) (fun t _ => flushed4_eq V c t) cover4

/-- The y array after the region: y at every node and feature. -/
theorem y_out (c : Dev nD) (i : Fin 262144) (j : Fin 64) :
    (dat1 (F := Ideal) V c).arrAt 4 cfg1.N (ix2 i j) = Y V c i j := by
  rw [y_arr V c]
  rfl

theorem idx11 (y : S1x1.Idx) : y = ix2 (0 : Fin 1) (0 : Fin 1) := by
  have h0 : (y 0).val < 1 := (y 0).isLt
  have h1 : (y 1).val < 1 := (y 1).isLt
  funext a; apply Fin.ext
  match a with
  | ⟨0, _⟩ => show (y 0).val = 0; omega
  | ⟨1, _⟩ => show (y 1).val = 0; omega

/-- The one write-back of the sum accumulator, at the last point, writes the total. -/
theorem flushed5_eq (c : Dev nD) (t : Fin cfg1.N) (hf : (cfg1.win 5).flush t = true) :
    (dat1 V c).flushed 5 t = ((cfg1.win 5).blk t).view.read (Elt Ideal) (G5 V c) := by
  have h31 : t.val = 31 := by have := (flush1_5 t).mp hf; have := t.isLt; have := hN; omega
  have e := total5 V c t h31
  unfold G5
  generalize (∑ i : Fin 262144, ∑ j : Fin 64, Y V c i j) = s at e ⊢
  show (cfg1.win 5).cut (grid1.coords t) ((dat1 V c).after 5 t) = _
  rw [after1_5]
  funext y
  obtain rfl := idx11 y
  exact e

theorem flushed6_eq (c : Dev nD) (t : Fin cfg1.N) (hf : (cfg1.win 6).flush t = true) :
    (dat1 V c).flushed 6 t = ((cfg1.win 6).blk t).view.read (Elt Ideal) (G6 V c) := by
  have h31 : t.val = 31 := by have := (flush1_6 t).mp hf; have := t.isLt; have := hN; omega
  have e := total6 V c t h31
  unfold G6
  generalize (∑ i : Fin 262144, ∑ j : Fin 64, Y V c i j * Y V c i j) = s at e ⊢
  show (cfg1.win 6).cut (grid1.coords t) ((dat1 V c).after 6 t) = _
  rw [after1_6]
  funext y
  obtain rfl := idx11 y
  exact e

theorem sum_arr (c : Dev nD) : (dat1 V c).arrAt 5 cfg1.N = G5 V c :=
  (dat1 V c).arrAt_eq_of_cover 5 (G5 V c) (flushed5_eq V c) cover5

theorem sumsq_arr (c : Dev nD) : (dat1 V c).arrAt 6 cfg1.N = G6 V c :=
  (dat1 V c).arrAt_eq_of_cover 6 (G6 V c) (flushed6_eq V c) cover6

/-- The [1,1] sum output after the region: the total of y. -/
theorem sum_out (c : Dev nD) :
    (dat1 (F := Ideal) V c).arrAt 5 cfg1.N (ix2 (0 : Fin 1) (0 : Fin 1)) = ∑ i : Fin 262144, ∑ j : Fin 64, Y V c i j := by
  rw [sum_arr V c]
  rfl

/-- The [1,1] sum-of-squares output after the region: the total of y squared. -/
theorem sumsq_out (c : Dev nD) :
    (dat1 (F := Ideal) V c).arrAt 6 cfg1.N (ix2 (0 : Fin 1) (0 : Fin 1))
      = ∑ i : Fin 262144, ∑ j : Fin 64, Y V c i j * Y V c i j := by
  rw [sumsq_arr V c]
  rfl

end Value

end Cert.KernelIdeal.Reg1

end
-- ==== Proof.Reg2.lean ====
import proofs.«167728_j48945447305605_1_alg».proof.Proof.Gen.KernelIdeal.Frame
import proofs.«167728_j48945447305605_1_alg».proof.Proof.Elu
import Idealize.ShloMosaic.Lib.ValueIdx
import Idealize.ShloMosaic.Lib.ValueLayout
import Idealize.ShloMosaic.Lib.IdealHost
import Idealize.ShloMosaic.Lib.Pipeline.Value

/-!
# Region 2: normalise, scale, shift, then the exponential linear unit

The region reads a `[262144, 64]` array `y` in 32 blocks of 8192 rows, together with four small operands that
are the same single block at every grid point: a mean and an inverse standard deviation (both `[1, 1]`), a gain
and a shift (both `[1, 64]`). Each grid point computes, entry by entry of its block,
`z = ((y - mean) * invstd) * gain + shift` and stores `z` where `z > 0` and `exp z - 1` elsewhere.

Since every operation of the body is pointwise (the small operands being broadcast), the block that point `t`
writes back is the restriction to rows `8192 t … 8192 t + 8191` of ONE function of the whole arrays, and the 32
blocks tile the output array: row `r` is written by point `r / 8192`. Hence the array the region leaves is that
function, index by index.
-/

noncomputable section

namespace Cert.KernelIdeal.Reg2

open Idealize.ShloMosaic Idealize.ShloMosaic.TcCoe Idealize.ShloMosaic.ValueIdx Cert.KernelIdeal Cert.KernelIdeal.Gen

/-! ## The body's arithmetic at an index -/

/-- Selecting on the comparison `z > 0` is the case split on `0 < z`. -/
theorem select_gt_zero (z w : EReal) : Scalar.select (Ideal.cmp .ogt z 0) z w = if 0 < z then z else w := by
  unfold Ideal.cmp Scalar.select
  by_cases h : (0 : EReal) < z
  · simp [h]
  · simp [h]

/-- A `[1, 1]` array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The exponential of a vector at an index is the exponential of the entry. -/
theorem exp_apply {s : Shape} {φ : FTy} (a : FVec Ideal s φ) (i : s.Idx) : exp a i = Ideal.exp (a i) := rfl

/-- The stored value at entry `(p, q)` of a block: the unit applied to `((y - mean) * invstd) * gain + shift`,
    the mean and the inverse deviation read at their one entry, the gain and the shift at column `q`. -/
theorem pay_apply (v0 v2 : Vec Ideal S1x1 .f32) (v4 : Vec Ideal S8192x64 .f32) (v10 v14 : Vec Ideal S1x64 .f32)
    (p : Fin 8192) (q : Fin 64) :
    k2_pay1 (F := Ideal) v0 v2 v4 v10 v14 (ix2 p q)
      = Cert.Spec.elu ((v4 (ix2 p q) - v0 (ix2 (0 : Fin 1) (0 : Fin 1))) * v2 (ix2 (0 : Fin 1) (0 : Fin 1))
          * v10 (ix2 (0 : Fin 1) q) + v14 (ix2 (0 : Fin 1) q)) := by
  unfold k2_pay1
  simp only [shapeCast_self]
  have b0 : broadcastTo S8192x64 v0 broadcasts_S1x1_S8192x64 (ix2 p q) = v0 (ix2 (0 : Fin 1) (0 : Fin 1)) :=
    broadcastTo_11_ab_apply v0 _ p q
  have b2 : broadcastTo S8192x64 v2 broadcasts_S1x1_S8192x64 (ix2 p q) = v2 (ix2 (0 : Fin 1) (0 : Fin 1)) :=
    broadcastTo_11_ab_apply v2 _ p q
  have b10 : broadcastTo S8192x64 v10 broadcasts_S1x64_S8192x64 (ix2 p q) = v10 (ix2 (0 : Fin 1) q) :=
    broadcastTo_1b_ab_apply v10 _ p q
  have b14 : broadcastTo S8192x64 v14 broadcasts_S1x64_S8192x64 (ix2 p q) = v14 (ix2 (0 : Fin 1) q) :=
    broadcastTo_1b_ab_apply v14 _ p q
  simp only [select_apply, cmpf_apply, subf_apply, exp_apply, addf_apply, mulf_apply, broadcast_apply, b0, b2, b10, b14,
    Ideal.ofBits_def, Ideal.ofBits_zero_f32, Ideal.ofBits_one_f32]
  exact select_gt_zero _ _

theorem zero_offsets : (![0, 0] : Fin 2 → Nat) = fun _ => 0 := funext fun a => by fin_cases a <;> rfl

/-- What the body leaves in the output's staging buffer, at entry `(p, q)`, from the contents of the five input
    buffers: the body loads each buffer whole and stores the result whole. -/
theorem out_apply (x0 : Vec Ideal S8192x64 .f32) (x1 x2 : Vec Ideal S1x1 .f32) (x3 x4 : Vec Ideal S1x64 .f32)
    (p : Fin 8192) (q : Fin 64) :
    out2_5 (F := Ideal) x0 x1 x2 x3 x4 (ix2 p q)
      = Cert.Spec.elu ((x0 (ix2 p q) - x1 (ix2 (0 : Fin 1) (0 : Fin 1))) * x2 (ix2 (0 : Fin 1) (0 : Fin 1))
          * x3 (ix2 (0 : Fin 1) q) + x4 (ix2 (0 : Fin 1) q)) := by
  unfold out2_5
  rw [View.canon_unit_zero zero_offsets]
  simp only [View.ld_unit_zero (S := S8192x64) zero_offsets, View.ld_unit_zero (S := S1x1) zero_offsets,
    View.ld_unit_zero (S := S1x64) zero_offsets]
  exact pay_apply x1 x2 x0 x3 x4 p q

/-- The same at any index `y` of the block. -/
theorem out_apply_idx (x0 : Vec Ideal S8192x64 .f32) (x1 x2 : Vec Ideal S1x1 .f32) (x3 x4 : Vec Ideal S1x64 .f32)
    (y : S8192x64.Idx) :
    out2_5 (F := Ideal) x0 x1 x2 x3 x4 y
      = Cert.Spec.elu ((x0 y - x1 (ix2 (0 : Fin 1) (0 : Fin 1))) * x2 (ix2 (0 : Fin 1) (0 : Fin 1))
          * x3 (ix2 (0 : Fin 1) (y 1 : Fin 64)) + x4 (ix2 (0 : Fin 1) (y 1 : Fin 64))) := by
  obtain ⟨p, q, rfl⟩ : ∃ (p : Fin 8192) (q : Fin 64), y = ix2 p q := ⟨y 0, y 1, eq_ix2 y⟩
  exact out_apply x0 x1 x2 x3 x4 p q

/-! ## The blocks over the grid -/

/-- The block indices over the grid: the two row-tiled windows are at block `(t, 0)` at point `t`, the four small
    operands at block `(0, 0)` at every point. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- An index of the output array is in point `t`'s block iff each coordinate is in the block's range on its axis. -/
theorem mem_blk (t : Fin cfg2.N) (k : S262144x64.Idx) :
    k ∈ ((cfg2.win 5).blk t).view.set ↔ ∀ a : Fin 2, win2_5.index t a * S8192x64.size a ≤ (k a).val
      ∧ (k a).val < win2_5.index t a * S8192x64.size a + S8192x64.size a := by
  show k ∈ ((View.whole main_v58).slice (win2_5.rect t)).set ↔ _
  rw [View.set_slice_whole, Rect.mem_set_unit]
  exact Iff.rfl

/-- Row `r` of the output array is in the block of point `r / 8192`, and every point writes its block back. -/
theorem covered (k : S262144x64.Idx) :
    ∃ t : Fin cfg2.N, (cfg2.win 5).flush t = true ∧ k ∈ ((cfg2.win 5).blk t).view.set := by
  have hk0 : (k 0).val < 262144 := idx2_lt0 k
  have hk1 : (k 1).val < 64 := idx2_lt1 k
  have hN : cfg2.N = 32 := N_2
  obtain ⟨t, ht⟩ : ∃ t : Fin cfg2.N, t.val = (k 0).val / 8192 := ⟨⟨(k 0).val / 8192, by omega⟩, rfl⟩
  obtain ⟨-, -, -, -, -, -, -, -, -, -, e0, e1⟩ := index_facts t
  refine ⟨t, flush2_5 t, ?_⟩
  rw [mem_blk]
  intro a
  match a with
  | ⟨0, _⟩ =>
    show win2_5.index t (0 : Fin 2) * 8192 ≤ (k 0).val ∧ (k 0).val < win2_5.index t (0 : Fin 2) * 8192 + 8192
    omega
  | ⟨1, _⟩ =>
    show win2_5.index t (1 : Fin 2) * 64 ≤ (k 1).val ∧ (k 1).val < win2_5.index t (1 : Fin 2) * 64 + 64
    omega

/-! ## The input blocks as entries of the arrays -/

variable (V : (c : Dev nD) → (b : Ref sig .tc) → Buf (Elt Ideal) ((c : Thread nD τ).loc b))

/-- The five input arrays as the region finds them, each at its literal shape: `y` (window 0), -/
abbrev yArr (c : Dev nD) : S262144x64.Idx → EReal := V c (Pipeline.arrRef spec2 0)
/-- the mean (window 1), -/
abbrev meanArr (c : Dev nD) : S1x1.Idx → EReal := V c (Pipeline.arrRef spec2 1)
/-- the inverse standard deviation (window 2), -/
abbrev invstdArr (c : Dev nD) : S1x1.Idx → EReal := V c (Pipeline.arrRef spec2 2)
/-- the gain (window 3), -/
abbrev gainArr (c : Dev nD) : S1x64.Idx → EReal := V c (Pipeline.arrRef spec2 3)
/-- and the shift (window 4). -/
abbrev shiftArr (c : Dev nD) : S1x64.Idx → EReal := V c (Pipeline.arrRef spec2 4)

/-- Entry `(p, q)` of the block of `y` at point `t` is entry `(8192 t + p, q)` of the array. -/
theorem y_block (c : Dev nD) (t : Fin cfg2.N) (y : S8192x64.Idx) (k : S262144x64.Idx)
    (hk0 : (k 0).val = 8192 * t.val + (y 0).val) (hk1 : (k 1).val = (y 1).val) :
    (iblk2 (F := Ideal) V c 0 t : Vec Ideal S8192x64 .f32) y
      = yArr V c k := by
  obtain ⟨e0, e1, -⟩ := index_facts t
  unfold iblk2
  rw [View.read_apply]
  show yArr V c _ = yArr V c k
  refine congrArg (yArr V c) (funext fun a => Fin.ext ?_)
  match a with
  | ⟨0, _⟩ => show win2_0.index t (0 : Fin 2) * 8192 + 1 * (y 0).val = (k 0).val; omega
  | ⟨1, _⟩ => show win2_0.index t (1 : Fin 2) * 64 + 1 * (y 1).val = (k 1).val; omega

/-- The one entry of the mean's block is the one entry of its array, at every point. -/
theorem mean_block (c : Dev nD) (t : Fin cfg2.N) :
    (iblk2 (F := Ideal) V c 1 t : Vec Ideal S1x1 .f32) (ix2 (0 : Fin 1) (0 : Fin 1))
      = meanArr V c (ix2 (0 : Fin 1) (0 : Fin 1)) := by
  obtain ⟨-, -, e0, e1, -⟩ := index_facts t
  unfold iblk2
  rw [View.read_apply]
  show meanArr V c _ = meanArr V c _
  refine congrArg (meanArr V c) (funext fun a => Fin.ext ?_)
  match a with
  | ⟨0, _⟩ => show win2_1.index t (0 : Fin 2) * 1 + 1 * 0 = 0; omega
  | ⟨1, _⟩ => show win2_1.index t (1 : Fin 2) * 1 + 1 * 0 = 0; omega

/-- The one entry of the inverse deviation's block is the one entry of its array, at every point. -/
theorem invstd_block (c : Dev nD) (t : Fin cfg2.N) :
    (iblk2 (F := Ideal) V c 2 t : Vec Ideal S1x1 .f32) (ix2 (0 : Fin 1) (0 : Fin 1))
      = invstdArr V c (ix2 (0 : Fin 1) (0 : Fin 1)) := by
  obtain ⟨-, -, -, -, e0, e1, -⟩ := index_facts t
  unfold iblk2
  rw [View.read_apply]
  show invstdArr V c _ = invstdArr V c _
  refine congrArg (invstdArr V c) (funext fun a => Fin.ext ?_)
  match a with
  | ⟨0, _⟩ => show win2_2.index t (0 : Fin 2) * 1 + 1 * 0 = 0; omega
  | ⟨1, _⟩ => show win2_2.index t (1 : Fin 2) * 1 + 1 * 0 = 0; omega

/-- Column `q` of the gain's block is column `q` of its array, at every point. -/
theorem gain_block (c : Dev nD) (t : Fin cfg2.N) (q q' : Fin 64) (hq : q'.val = q.val) :
    (iblk2 (F := Ideal) V c 3 t : Vec Ideal S1x64 .f32) (ix2 (0 : Fin 1) q)
      = gainArr V c (ix2 (0 : Fin 1) q') := by
  obtain ⟨-, -, -, -, -, -, e0, e1, -⟩ := index_facts t
  unfold iblk2
  rw [View.read_apply]
  show gainArr V c _ = gainArr V c _
  refine congrArg (gainArr V c) (funext fun a => Fin.ext ?_)
  match a with
  | ⟨0, _⟩ => show win2_3.index t (0 : Fin 2) * 1 + 1 * 0 = 0; omega
  | ⟨1, _⟩ => show win2_3.index t (1 : Fin 2) * 64 + 1 * q.val = q'.val; omega

/-- Column `q` of the shift's block is column `q` of its array, at every point. -/
theorem shift_block (c : Dev nD) (t : Fin cfg2.N) (q q' : Fin 64) (hq : q'.val = q.val) :
    (iblk2 (F := Ideal) V c 4 t : Vec Ideal S1x64 .f32) (ix2 (0 : Fin 1) q)
      = shiftArr V c (ix2 (0 : Fin 1) q') := by
  obtain ⟨-, -, -, -, -, -, -, -, e0, e1, -⟩ := index_facts t
  unfold iblk2
  rw [View.read_apply]
  show shiftArr V c _ = shiftArr V c _
  refine congrArg (shiftArr V c) (funext fun a => Fin.ext ?_)
  match a with
  | ⟨0, _⟩ => show win2_4.index t (0 : Fin 2) * 1 + 1 * 0 = 0; omega
  | ⟨1, _⟩ => show win2_4.index t (1 : Fin 2) * 64 + 1 * q.val = q'.val; omega

/-! ## The array the region leaves -/

/-- The whole output array as one function of the five input arrays as the region finds them. -/
def result (c : Dev nD) : S262144x64.Idx → EReal := fun k =>
  Cert.Spec.elu ((yArr V c k
        - meanArr V c (ix2 (0 : Fin 1) (0 : Fin 1)))
      * invstdArr V c (ix2 (0 : Fin 1) (0 : Fin 1))
      * gainArr V c (ix2 (0 : Fin 1) (k 1 : Fin 64))
    + shiftArr V c (ix2 (0 : Fin 1) (k 1 : Fin 64)))

/-- What point `t` writes back is block `t` of `result`. -/
theorem flushed_eq (c : Dev nD) (t : Fin cfg2.N) :
    (dat2 (F := Ideal) V c).flushed 5 t = ((cfg2.win 5).blk t).view.read (Elt Ideal) (result V c) := by
  show (cfg2.win 5).cut (grid2.coords t) ((dat2 (F := Ideal) V c).after 5 t) = _
  rw [after2_5]
  obtain ⟨-, -, -, -, -, -, -, -, -, -, e0, e1⟩ := index_facts t
  funext y
  have hy0 : (y 0).val < 8192 := (y 0).isLt
  have hy1 : (y 1).val < 64 := (y 1).isLt
  have hk0 : ((((cfg2.win 5).blk t).view.emb y) 0).val = 8192 * t.val + (y 0).val := by
    show win2_5.index t (0 : Fin 2) * 8192 + 1 * (y 0).val = _; omega
  have hk1 : ((((cfg2.win 5).blk t).view.emb y) 1).val = (y 1).val := by
    show win2_5.index t (1 : Fin 2) * 64 + 1 * (y 1).val = _; omega
  show out2_5 (F := Ideal) (iblk2 V c 0 t) (iblk2 V c 1 t) (iblk2 V c 2 t) (iblk2 V c 3 t) (iblk2 V c 4 t) y
      = result V c (((cfg2.win 5).blk t).view.emb y)
  refine (out_apply_idx (iblk2 V c 0 t) (iblk2 V c 1 t) (iblk2 V c 2 t) (iblk2 V c 3 t) (iblk2 V c 4 t) y).trans ?_
  rw [y_block V c t y (((cfg2.win 5).blk t).view.emb y) hk0 hk1,
    mean_block V c t, invstd_block V c t,
    gain_block V c t (y 1 : Fin 64) ((((cfg2.win 5).blk t).view.emb y) 1 : Fin 64) hk1,
    shift_block V c t (y 1 : Fin 64) ((((cfg2.win 5).blk t).view.emb y) 1 : Fin 64) hk1]
  rfl

/-- The array the region leaves for its output window is `result`. -/
theorem final (c : Dev nD) : (dat2 (F := Ideal) V c).arrAt 5 cfg2.N = result V c :=
  (dat2 (F := Ideal) V c).arrAt_eq_of_cover 5 (result V c) (fun t _ => flushed_eq V c t) covered

/-- THE REGION'S VALUE: entry `(i, j)` of the output array is the exponential linear unit of
    `((y i j - mean) * invstd) * gain j + shift j`, read off the arrays as the region finds them. -/
theorem out (V : (c : Dev nD) → (b : Ref sig .tc) → Buf (Elt Ideal) ((c : Thread nD τ).loc b)) (c : Dev nD)
    (i : Fin 262144) (j : Fin 64) :
    (dat2 (F := Ideal) V c).arrAt 5 cfg2.N (ix2 i j)
      = Cert.Spec.elu ((yArr V c (ix2 i j)
            - meanArr V c (ix2 (0 : Fin 1) (0 : Fin 1)))
          * invstdArr V c (ix2 (0 : Fin 1) (0 : Fin 1))
          * gainArr V c (ix2 (0 : Fin 1) j)
        + shiftArr V c (ix2 (0 : Fin 1) j)) :=
  congrFun (final V c) (ix2 i j)

end Cert.KernelIdeal.Reg2

end
-- ==== Proof.KStages.lean ====
import proofs.«167728_j48945447305605_1_alg».proof.Proof.Gen.KernelIdeal.Frame
import proofs.«167728_j48945447305605_1_alg».proof.Proof.KHostGlue
import proofs.«167728_j48945447305605_1_alg».proof.Proof.KHostStats
import proofs.«167728_j48945447305605_1_alg».proof.Proof.KKeep
import proofs.«167728_j48945447305605_1_alg».proof.Proof.KArgs
import proofs.«167728_j48945447305605_1_alg».proof.Proof.KEntry
import proofs.«167728_j48945447305605_1_alg».proof.Proof.Reg0
import proofs.«167728_j48945447305605_1_alg».proof.Proof.Reg1
import proofs.«167728_j48945447305605_1_alg».proof.Proof.Reg2
import Idealize.ShloMosaic.Lib.ValueLayout

noncomputable section

namespace Cert.KernelIdeal.KVal

open Idealize.ShloMosaic Idealize.ShloMosaic.TcCoe Idealize.ShloMosaic.ValueIdx
open Cert.KernelIdeal Cert.KernelIdeal.Gen Cert.Cur Cert.Glue

variable (m : (ℓ : Loc nD τ sig) → Buf (Elt Ideal) ℓ) (ρ : Dev nD → PrngReg) (c : Dev nD)

/-! ## Layer 1

Each stage reads the region's output array at an entry (the boundary's array lemma, then the region's value
lemma at the contents the region was entered with), and reads each of the region's input arrays at the entry
it uses: a host stretch's result, a carried buffer, or the previous stage. -/

/-- The first linear map. -/
theorem k_h1 : cur2 (W2 m ρ c (Proc.devRef .tc main_v28)) = Net.h1 (argsAt m c) := by
  funext i j
  have h := Reg0.out (V1 m ρ) c _ _ (arg0_at_W1 m ρ c) (arg2_at_W1 m ρ c) i j
  have e := congrFun (W2_arr m ρ c 2) (ix2 i j)
  unfold Net.h1 Cert.Spec.lin
  rw [argsAt_x, argsAt_W1]
  exact e.trans h

theorem l1_v28 : W2 m ρ c (Proc.devRef .tc main_v28) = unc2 (Net.h1 (argsAt m c)) := by
  rw [← k_h1 m ρ c, unc2_cur2]

/-- The neighbourhood sum of the first linear map, as the stretch before the statistics region leaves it. -/
theorem l1_v41 : W3 m ρ c (Proc.devRef .tc main_v41)
    = agg64T (F := Ideal) (srcT (m ((c.tc : Thread nD τ).loc main_arg1))) (dstT (m ((c.tc : Thread nD τ).loc main_arg1)))
        (nrmT (srcT (m ((c.tc : Thread nD τ).loc main_arg1))) (dstT (m ((c.tc : Thread nD τ).loc main_arg1)))) (unc2 (Net.h1 (argsAt m c))) := by
  refine (KHost.h1_v41 (W2 m ρ c)).trans ?_
  rw [v1_at_W2 m ρ c, v3_at_W2 m ρ c, v25_at_W2 m ρ c, l1_v28 m ρ c]

theorem l1_v42 : W3 m ρ c (Proc.devRef .tc main_v42) = shapeCast S1x64 (m ((c.tc : Thread nD τ).loc main_arg3)) shapeCasts_S64_S1x64 := by
  refine (KHost.h1_v42 (W2 m ρ c)).trans ?_
  rw [arg3_at_W2 m ρ c]

/-- The statistics region's combined entry is the layer's sum. -/
theorem l1_y_entry (i : Fin 262144) (j : Fin 64) : Reg1.Y (V3 m ρ) c i j = Net.y1 (argsAt m c) i j := by
  rw [Reg1.Y_eq]
  unfold Net.y1
  refine conv_entry (Reg1.arrA (V3 m ρ) c) (Reg1.arrH (V3 m ρ) c) (Reg1.arrD (V3 m ρ) c) (Reg1.arrB (V3 m ρ) c)
    ((argsAt m c).A64 (Net.h1 (argsAt m c))) (Net.h1 (argsAt m c)) (argsAt m c).d (argsAt m c).b1 ?_ ?_ ?_ ?_ i j
  · intro i j
    rw [argsAt_A64, cur2_apply]
    exact congrFun (l1_v41 m ρ c) (ix2 i j)
  · intro i j
    exact congrFun ((KHost.h1_keep_v28 (W2 m ρ c)).trans (l1_v28 m ρ c)) (ix2 i j)
  · intro i
    rw [argsAt_d, cur1_apply]
    exact ((congrFun (v27_at_W3 m ρ c) (ix2 i 0)).trans (shapeCast_a_a1_apply _ _ i 0)).trans (mulf_apply _ _ _)
  · intro j
    rw [argsAt_b1, cur1_apply]
    exact (congrFun (l1_v42 m ρ c) (ix2 0 j)).trans (shapeCast_a_1a_apply _ _ 0 j)

/-- The layer's sum. -/
theorem k_y1 : cur2 (W4 m ρ c (Proc.devRef .tc main_v43_0)) = Net.y1 (argsAt m c) := by
  funext i j
  exact ((congrFun (W4_arr m ρ c 4) (ix2 i j)).trans (Reg1.y_out (V3 m ρ) c i j)).trans (l1_y_entry m ρ c i j)

theorem l1_sum : (∑ i : Fin 262144, ∑ j : Fin 64, Reg1.Y (V3 m ρ) c i j) = Cert.Spec.total (Net.y1 (argsAt m c)) :=
  Finset.sum_congr rfl fun i _ => Finset.sum_congr rfl fun j _ => l1_y_entry m ρ c i j

theorem l1_sumsq : (∑ i : Fin 262144, ∑ j : Fin 64, Reg1.Y (V3 m ρ) c i j * Reg1.Y (V3 m ρ) c i j)
    = Cert.Spec.total fun i j => Net.y1 (argsAt m c) i j * Net.y1 (argsAt m c) i j :=
  Finset.sum_congr rfl fun i _ => Finset.sum_congr rfl fun j _ => by rw [l1_y_entry m ρ c i j]

/-- The total of the layer's sum. -/
theorem k_s1 : W4 m ρ c (Proc.devRef .tc main_v43_1) (ix2 (0 : Fin 1) (0 : Fin 1)) = Cert.Spec.total (Net.y1 (argsAt m c)) :=
  ((congrFun (W4_arr m ρ c 5) (ix2 0 0)).trans (Reg1.sum_out (V3 m ρ) c)).trans (l1_sum m ρ c)

/-- The total of its squares. -/
theorem k_q1 : W4 m ρ c (Proc.devRef .tc main_v43_2) (ix2 (0 : Fin 1) (0 : Fin 1))
    = Cert.Spec.total fun i j => Net.y1 (argsAt m c) i j * Net.y1 (argsAt m c) i j :=
  ((congrFun (W4_arr m ρ c 6) (ix2 0 0)).trans (Reg1.sumsq_out (V3 m ρ) c)).trans (l1_sumsq m ρ c)

/-- The layer's output: normalisation, affine map and unit. -/
theorem k_z1 : cur2 (W6 m ρ c (Proc.devRef .tc main_v58)) = Net.z1 Cert.Spec.lnK (argsAt m c) := by
  funext i j
  refine ((congrFun (W6_arr m ρ c 5) (ix2 i j)).trans (Reg2.out (V5 m ρ) c i j)).trans ?_
  unfold Net.z1
  refine lnK_entry (Reg2.yArr (V5 m ρ) c) (Reg2.meanArr (V5 m ρ) c) (Reg2.invstdArr (V5 m ρ) c) (Reg2.gainArr (V5 m ρ) c)
    (Reg2.shiftArr (V5 m ρ) c) (Net.y1 (argsAt m c)) (argsAt m c).g2 (argsAt m c).bt2 ?_ ?_ ?_ ?_ ?_ i j
  · intro i j
    exact (congrFun (KHost.h2_keep_v43_0 (W4 m ρ c)) (ix2 i j)).trans (congrFun (congrFun (k_y1 m ρ c) i) j)
  · refine (KHost.h2_mean (W4 m ρ c)).trans ?_
    rw [k_s1 m ρ c]; rfl
  · refine (KHost.h2_inv (W4 m ρ c)).trans ?_
    rw [k_s1 m ρ c, k_q1 m ρ c]; rfl
  · intro j
    rw [argsAt_g2, cur1_apply]
    exact (KHost.h2_g (W4 m ρ c) j).trans (congrFun (arg12_at_W4 m ρ c) (ix1 j))
  · intro j
    rw [argsAt_bt2, cur1_apply]
    exact (KHost.h2_beta (W4 m ρ c) j).trans (congrFun (arg13_at_W4 m ρ c) (ix1 j))

end Cert.KernelIdeal.KVal

end
-- ==== Proof.Reg3.lean ====
/- Region 3 of the kernel: a linear layer of hidden width.  Every grid point t multiplies rows 8192·t … 8192·t + 8191 of the
   input array [262144, 64] by the whole weight array [64, 64] (a matrix product into a zero accumulator, the change
   of float format being the identity on extended reals) and writes the 8192 × 64 result back as the same rows of the
   output array.  So the output array is, entry by entry, the sum over the 64 contraction positions of input times
   weight, whatever the arrays held when the region was entered. -/
import proofs.«167728_j48945447305605_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Reg3

open Idealize.ShloMosaic Idealize.ShloMosaic.TcCoe Cert.KernelIdeal Cert.KernelIdeal.Gen
open Idealize.ShloMosaic.Pipeline (Dat)
open Idealize.ShloMosaic.ValueIdx

/-- The zero offset of a whole-block access. -/
theorem hz : (![0, 0] : Fin 2 → Nat) = fun _ => 0 := funext fun a => by fin_cases a <;> rfl

/-! ## The body's arithmetic at an index -/

/-- The product's operand positions, axis by axis, at any output entry and contraction position: the left operand's row
    is the output's row, its column the contraction position; the right operand's row is the contraction position, its
    column the output's column. -/
theorem lhs0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide),
    dif_pos (show (0 : Fin S8192x64.rank) ∈ dot_S8192x64_S64x64_S8192x64_1_0_0_1_n_n.lhsNonContracting by decide)]
  rfl
theorem lhs1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem rhs0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem rhs1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide),
    dif_pos (show (1 : Fin S64x64.rank) ∈ dot_S8192x64_S64x64_S8192x64_1_0_0_1_n_n.rhsNonContracting by decide)]
  rfl

/-- The body's stored value at entry (p, q) of its block: the sum over the 64 contraction positions of the input
    block's row p times the weight's column q (the cast to the same shape and the change of float format are the identity on
    extended reals, and the accumulator is zero). -/
theorem pay (x : Vec Ideal S8192x64 .f32) (w : Vec Ideal S64x64 .f32) (p : Fin 8192) (q : Fin 64) :
    k3_pay1 (F := Ideal) x w (ix2 p q) = ∑ k : Fin 64, x (ix2 p k) * w (ix2 k q) := by
  unfold k3_pay1
  refine (Ideal.matmul_constant_zero_apply dot_S8192x64_S64x64_S8192x64_1_0_0_1_n_n none _ _ (ix2 p q)).trans ?_
  rw [← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 p q) ((contrEquiv1 dot_S8192x64_S64x64_S8192x64_1_0_0_1_n_n 64 rfl rfl).symm k) = ix2 p k :=
    funext fun a => Fin.ext (by
      match a with
      | ⟨0, _⟩ => exact lhs0 _ _
      | ⟨1, _⟩ => exact (lhs1 _ _).trans hk)
  have er : dot_S8192x64_S64x64_S8192x64_1_0_0_1_n_n.rhsIdx (ix2 p q) ((contrEquiv1 dot_S8192x64_S64x64_S8192x64_1_0_0_1_n_n 64 rfl rfl).symm k) = ix2 k q :=
    funext fun a => Fin.ext (by
      match a with
      | ⟨0, _⟩ => exact (rhs0 _ _).trans hk
      | ⟨1, _⟩ => exact rhs1 _ _)
  rw [el, er]
  exact congrArg (· * w (ix2 k q)) (congrFun (shapeCast_self x shapeCasts_S8192x64_S8192x64) (ix2 p k))

/-! ## From the blocks to the array -/

/-- The output array as one function of the two input arrays. -/
def G (a0 : S262144x64.Idx → EReal) (a1 : S64x64.Idx → EReal) : S262144x64.Idx → EReal :=
  fun i => ∑ k : Fin 64, a0 (ix2 (n0 := 262144) (i 0) k) * a1 (ix2 (n1 := 64) k (i 1))

theorem G_apply (a0 : S262144x64.Idx → EReal) (a1 : S64x64.Idx → EReal) (i : Fin 262144) (j : Fin 64) :
    G a0 a1 (ix2 i j) = ∑ k : Fin 64, a0 (ix2 i k) * a1 (ix2 k j) := rfl

/-- Where the windows' blocks sit at each of the 32 grid points: the input block and the output block at block row t,
    the weight block at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- The input block at point t is rows 8192·t … 8192·t + 8191 of the input array. -/
theorem blk0_apply (c : Dev nD) (t : Fin cfg3.N) (p : Fin 8192) (k : Fin 64) (r : Fin 262144)
    (hr : r.val = 8192 * t.val + p.val) :
    (iblk3 V c 0 t : Vec Ideal S8192x64 .f32) (ix2 p k)
      = (V c (Pipeline.arrRef spec3 0) : S262144x64.Idx → EReal) (ix2 r k) := by
  obtain ⟨e0, e1, -⟩ := idx_facts t
  unfold iblk3
  rw [View.read_apply]
  show (V c (Pipeline.arrRef spec3 0) : S262144x64.Idx → EReal) _ = _
  refine congrArg (V c (Pipeline.arrRef spec3 0) : S262144x64.Idx → EReal) (funext fun a => Fin.ext ?_)
  match a with
  | ⟨0, _⟩ => show win3_0.index t (0 : Fin 2) * 8192 + 1 * p.val = r.val; rw [e0, hr]; omega
  | ⟨1, _⟩ => show win3_0.index t (1 : Fin 2) * 64 + 1 * k.val = k.val; rw [e1]; omega

/-- The weight block at every point is the whole weight array. -/
theorem blk1_apply (c : Dev nD) (t : Fin cfg3.N) (k : Fin 64) (q : Fin 64) :
    (iblk3 V c 1 t : Vec Ideal S64x64 .f32) (ix2 k q)
      = (V c (Pipeline.arrRef spec3 1) : S64x64.Idx → EReal) (ix2 k q) := by
  obtain ⟨-, -, e0, e1, -⟩ := idx_facts t
  unfold iblk3
  rw [View.read_apply]
  show (V c (Pipeline.arrRef spec3 1) : S64x64.Idx → EReal) _ = _
  refine congrArg (V c (Pipeline.arrRef spec3 1) : S64x64.Idx → EReal) (funext fun a => Fin.ext ?_)
  match a with
  | ⟨0, _⟩ => show win3_1.index t (0 : Fin 2) * 64 + 1 * k.val = k.val; rw [e0]; omega
  | ⟨1, _⟩ => show win3_1.index t (1 : Fin 2) * 64 + 1 * q.val = q.val; rw [e1]; omega

/-- Entry (p, q) of the output block at point t is entry (8192·t + p, q) of the output array. -/
theorem emb2 (t : Fin cfg3.N) (p : Fin 8192) (q : Fin 64) (r : Fin 262144) (hr : r.val = 8192 * t.val + p.val) :
    ((cfg3.win 2).blk t).view.emb (ix2 p q) = (ix2 r q : S262144x64.Idx) := by
  obtain ⟨-, -, -, -, e0, e1⟩ := idx_facts t
  refine funext fun a => Fin.ext ?_
  match a with
  | ⟨0, _⟩ => show win3_2.index t (0 : Fin 2) * 8192 + 1 * p.val = r.val; rw [e0, hr]; omega
  | ⟨1, _⟩ => show win3_2.index t (1 : Fin 2) * 64 + 1 * q.val = q.val; rw [e1]; omega

/-- What point t writes back is block t of G of the arrays as the region finds them. -/
theorem flushed_eq (c : Dev nD) (t : Fin cfg3.N) :
    (dat3 V c).flushed 2 t = ((cfg3.win 2).blk t).view.read (Elt Ideal)
      (G (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S8192x64) hz, View.ld_unit_zero (S := S64x64) hz]
  funext j
  obtain ⟨p, q, rfl⟩ : ∃ (p : Fin 8192) (q : Fin 64), j = ix2 p q := ⟨j 0, j 1, eq_ix2 j⟩
  have ht : t.val < 32 := Nat.lt_of_lt_of_eq t.isLt N_3
  obtain ⟨r, hr⟩ : ∃ r : Fin 262144, r.val = 8192 * t.val + p.val := ⟨⟨8192 * t.val + p.val, by omega⟩, rfl⟩
  show k3_pay1 (iblk3 V c 0 t) (iblk3 V c 1 t) (ix2 p q)
    = G (V c (Pipeline.arrRef spec3 0)) (V c (Pipeline.arrRef spec3 1)) (((cfg3.win 2).blk t).view.emb (ix2 p q))
  rw [emb2 t p q r hr, G_apply]
  refine (pay _ _ p q).trans ?_
  refine Finset.sum_congr rfl fun k _ => ?_
  rw [blk0_apply V c t p k r hr, blk1_apply V c t k q]

/-- An index of the output array is in point t's block iff each coordinate is in the block's range on its axis. -/
theorem mem_blk (t : Fin cfg3.N) (i : S262144x64.Idx) :
    i ∈ ((cfg3.win 2).blk t).view.set ↔ ∀ a : Fin 2, win3_2.index t a * S8192x64.size a ≤ (i a).val
      ∧ (i a).val < win3_2.index t a * S8192x64.size a + S8192x64.size a := by
  show i ∈ ((View.whole main_v59).slice (win3_2.rect t)).set ↔ _
  rw [View.set_slice_whole, Rect.mem_set_unit]
  exact Iff.rfl

/-- Every row of the output array is in the block of the point its row number divided by 8192 names. -/
theorem cover (i : S262144x64.Idx) :
    ∃ t : Fin cfg3.N, (cfg3.win 2).flush t = true ∧ i ∈ ((cfg3.win 2).blk t).view.set := by
  have hi0 : (i 0).val < 262144 := (i 0).isLt
  have hi1 : (i 1).val < 64 := (i 1).isLt
  have hN : cfg3.N = 32 := N_3
  obtain ⟨t, tv⟩ : ∃ t : Fin cfg3.N, t.val = (i 0).val / 8192 := ⟨⟨(i 0).val / 8192, by rw [hN]; omega⟩, rfl⟩
  obtain ⟨-, -, -, -, e0, e1⟩ := idx_facts t
  refine ⟨t, flush3_2 t, ?_⟩
  rw [mem_blk]
  intro a
  match a with
  | ⟨0, _⟩ =>
    show win3_2.index t (0 : Fin 2) * 8192 ≤ (i 0).val ∧ (i 0).val < win3_2.index t (0 : Fin 2) * 8192 + 8192
    rw [e0, tv]; omega
  | ⟨1, _⟩ =>
    show win3_2.index t (1 : Fin 2) * 64 ≤ (i 1).val ∧ (i 1).val < win3_2.index t (1 : Fin 2) * 64 + 64
    rw [e1]; omega

/-- The output array after the region is G of the input arrays as the region found them. -/
theorem final (c : Dev nD) :
    (dat3 V c).arrAt 2 cfg3.N = G (V c (Pipeline.arrRef spec3 0)) (V c (Pipeline.arrRef spec3 1)) :=
  (dat3 V c).arrAt_eq_of_cover 2 _ (fun t _ => flushed_eq V c t) cover

/-- Entry (i, j) of the output array the region leaves: the sum over the 64 positions k of input entry (i, k) times
    weight entry (k, j), whatever the arrays held when the region was entered (a0, a1 name the two input arrays as the
    region finds them). -/
theorem out (V : (c : Dev nD) → (b : Ref sig .tc) → Buf (Elt Ideal) ((c : Thread nD τ).loc b)) (c : Dev nD)
    (a0 : S262144x64.Idx → EReal) (a1 : S64x64.Idx → EReal)
    (h0 : V c (Pipeline.arrRef spec3 0) = a0) (h1 : V c (Pipeline.arrRef spec3 1) = a1)
    (i : Fin 262144) (j : Fin 64) :
    (dat3 (F := Ideal) V c).arrAt 2 cfg3.N (ValueIdx.ix2 i j)
      = ∑ k : Fin 64, a0 (ValueIdx.ix2 i k) * a1 (ValueIdx.ix2 k j) := by
  subst h0 h1
  rw [final V c]
  rfl

end Cert.KernelIdeal.Reg3

end
-- ==== Proof.Reg4.lean ====
/-
  The value of a statistics region of the kernel, read at the extended reals and at arbitrary contents of the
  buffers when the region is entered.

  The region walks the 262144 nodes in 32 blocks of 8192 rows. At each block it forms
      y = agg + h * dis2 + b          (agg, h : [262144, 64]; dis2 : [262144, 1] a column; b : [1, 64] a row)
  stores that block of y, and adds the block's total of y and of y * y (a sum along the 64 lanes, then down the 8192
  rows) to two [1, 1] accumulators, which are set to zero before the first block and written back after the last.

  Hence after the region: the y array holds y at every node and feature; the two [1, 1] arrays hold
  Σ_i Σ_j y i j and Σ_i Σ_j y i j * y i j. Only commutativity and associativity of addition on the extended reals are
  used (the running totals are regrouped from "block by block" to "row by row"), so no finiteness is needed.

  The steps: the body's arithmetic at an index; a block's element (r, j) of point t is row 8192 * t + r of the array;
  what each of the two cases of the body (first point, later points) leaves in its three output buffers; by
  induction on the point, the accumulators after point n hold the totals of blocks 0 … n; the blocks written back
  cover the arrays.
-/
import proofs.«167728_j48945447305605_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

open scoped BigOperators

noncomputable section
namespace Cert.KernelIdeal.Reg4
open Idealize.ShloMosaic Idealize.ShloMosaic.TcCoe Cert.KernelIdeal Cert.KernelIdeal.Gen
open Idealize.ShloMosaic.ValueIdx
open Idealize.ShloMosaic.Pipeline (Dat)

/-! ## Two layout steps of the body, read at an index -/

/-- A column [a,1] broadcast along the lanes to [a,b] reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column [a,1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-! ## The body's arithmetic at an index -/

/-- The stored block at (r, j): agg + h * dis2 + b, the column dis2 and the row b broadcast. -/
theorem pay3_apply (v3 v5 : Vec Ideal S8192x64 .f32) (v7 : Vec Ideal S8192x1 .f32) (v12 : Vec Ideal S1x64 .f32)
    (r : Fin 8192) (j : Fin 64) :
    k4_pay3 (F := Ideal) v3 v5 v7 v12 (ix2 r j)
      = v3 (ix2 r j) + v5 (ix2 r j) * v7 (ix2 r (0 : Fin 1)) + v12 (ix2 (0 : Fin 1) j) := by
  unfold k4_pay3
  simp only [shapeCast_self]
  rw [addf_apply, addf_apply, mulf_apply, broadcastTo_a1_ab_apply, broadcastTo_1b_ab_apply]

/-- The lane sum (axis 1) followed by the sum down the rows (axis 0), both kept as unit axes, of a block is the
    block's total: the sum over its rows of the sum over its lanes. -/
theorem blockTotal (x : FVec Ideal S8192x64 .f32)
    (h1 : S8192x64.Reduces [1] S8192) (c1 : S8192.ShapeCasts S8192x1) (h0 : S8192x1.Reduces [0] S1)
    (c0 : S1.ShapeCasts S1x1) (hφ : FKind.Formats .f32)
    (hacc : (0x00000000#32 : BitVec 32) = FKind.add.neutral .f32 hφ) :
    shapeCast S1x1 (multiReduction .add [0] S1
        (shapeCast S8192x1 (multiReduction .add [1] S8192 x 0x00000000#32 h1 hφ hacc) c1) 0x00000000#32 h0 hφ hacc) c0
        (ix2 (0 : Fin 1) (0 : Fin 1))
      = ∑ r : Fin 8192, ∑ j : Fin 64, x (ix2 r j) := by
  refine (shapeCast_a_1a_apply _ c0 0 0).trans ?_
  refine (Ideal.multiReduction_add_single _ _ h0 hφ hacc (ix1 0)).trans ?_
  show ∑ r : Fin 8192, _ = _
  refine Finset.sum_congr rfl fun r _ => ?_
  have e : h0.lift (ix1 (0 : Fin 1)) r = ix2 r (0 : Fin 1) := by
    funext a; apply Fin.ext
    match a with
    | ⟨0, _⟩ => rfl
    | ⟨1, _⟩ => rfl
  rw [e]
  refine (shapeCast_a_a1_apply _ c1 r 0).trans ?_
  refine (Ideal.multiReduction_add_single x _ h1 hφ hacc (ix1 r)).trans ?_
  show ∑ j : Fin 64, _ = _
  refine Finset.sum_congr rfl fun j _ => ?_
  refine congrArg x ?_
  funext a; apply Fin.ext
  match a with
  | ⟨0, _⟩ => rfl
  | ⟨1, _⟩ => rfl

/-- The value an accumulator is reset to at the first point: zero. -/
theorem pay1_apply (i : S1x1.Idx) : k4_pay1 (F := Ideal) i = 0 := Ideal.ofBits_zero_f32
theorem pay2_apply (i : S1x1.Idx) : k4_pay2 (F := Ideal) i = 0 := Ideal.ofBits_zero_f32

/-- The sum accumulator after a point: what it held plus the block's total. -/
theorem pay4_apply (v3 v5 : Vec Ideal S8192x64 .f32) (v7 : Vec Ideal S8192x1 .f32) (v12 : Vec Ideal S1x64 .f32)
    (v26 : Vec Ideal S1x1 .f32) :
    k4_pay4 (F := Ideal) v3 v5 v7 v12 v26 (ix2 (0 : Fin 1) (0 : Fin 1))
      = v26 (ix2 (0 : Fin 1) (0 : Fin 1)) + ∑ r : Fin 8192, ∑ j : Fin 64, k4_pay3 (F := Ideal) v3 v5 v7 v12 (ix2 r j) := by
  unfold k4_pay4
  simp only [shapeCast_self]
  rw [addf_apply]
  exact congrArg (v26 (ix2 (0 : Fin 1) (0 : Fin 1)) + ·) (blockTotal _ _ _ _ _ _ _)

/-- The sum-of-squares accumulator after a point: what it held plus the total of the block's squares. -/
theorem pay5_apply (v3 v5 : Vec Ideal S8192x64 .f32) (v7 : Vec Ideal S8192x1 .f32) (v12 : Vec Ideal S1x64 .f32)
    (v30 : Vec Ideal S1x1 .f32) :
    k4_pay5 (F := Ideal) v3 v5 v7 v12 v30 (ix2 (0 : Fin 1) (0 : Fin 1))
      = v30 (ix2 (0 : Fin 1) (0 : Fin 1))
        + ∑ r : Fin 8192, ∑ j : Fin 64,
            k4_pay3 (F := Ideal) v3 v5 v7 v12 (ix2 r j) * k4_pay3 (F := Ideal) v3 v5 v7 v12 (ix2 r j) := by
  unfold k4_pay5
  simp only [shapeCast_self]
  rw [addf_apply]
  exact congrArg (v30 (ix2 (0 : Fin 1) (0 : Fin 1)) + ·) (blockTotal _ _ _ _ _ _ _)

/-! ## Regrouping the rows -/

/-- Thirty-two blocks of 8192 rows are the 262144 rows: a sum block by block is the sum over all rows. -/
theorem sum_regroup {M : Type*} [AddCommMonoid M] (f : ℕ → M) :
    ∑ t ∈ Finset.range 32, ∑ r : Fin 8192, f (8192 * t + r.val) = ∑ i : Fin 262144, f i.val := by
  rw [Finset.sum_range fun t => ∑ r : Fin 8192, f (8192 * t + r.val)]
  show _ = ∑ i : Fin (32 * 8192), f i.val
  rw [← Equiv.sum_comp finProdFinEquiv, Fintype.sum_prod_type]
  refine Finset.sum_congr rfl fun t _ => Finset.sum_congr rfl fun r _ => ?_
  rw [finProdFinEquiv_apply_val, Nat.add_comm]

/-! ## The blocks of the seven windows -/

theorem hN : cfg4.N = 32 := N_4

/-- The printed index maps over the grid: the row-tiled windows sit at block (t, 0), the small operands at (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- Row r of block t is row 8192·t + r of the array. -/
def row (t : Fin cfg4.N) (r : Fin 8192) : Fin 262144 :=
  ⟨8192 * t.val + r.val, by have h := t.isLt; have := hN; have := r.isLt; omega⟩

theorem read_blk0 (X : S262144x64.Idx → Ideal .f32) (t : Fin cfg4.N) (r : Fin 8192) (j : Fin 64) :
    ((cfg4.win 0).blk t).view.read (Elt Ideal) X (ix2 r j) = X (ix2 (row t r) j) := by
  obtain ⟨e0, e1, -⟩ := idx_facts t
  show X (((cfg4.win 0).blk t).view.emb (ix2 r j)) = X (ix2 (row t r) j)
  refine congrArg X ?_
  funext a; apply Fin.ext
  match a with
  | ⟨0, _⟩ => show win4_0.index t (0 : Fin 2) * 8192 + 1 * r.val = 8192 * t.val + r.val; omega
  | ⟨1, _⟩ => show win4_0.index t (1 : Fin 2) * 64 + 1 * j.val = j.val; omega

theorem read_blk1 (X : S262144x64.Idx → Ideal .f32) (t : Fin cfg4.N) (r : Fin 8192) (j : Fin 64) :
    ((cfg4.win 1).blk t).view.read (Elt Ideal) X (ix2 r j) = X (ix2 (row t r) j) := by
  obtain ⟨-, -, e0, e1, -⟩ := idx_facts t
  show X (((cfg4.win 1).blk t).view.emb (ix2 r j)) = X (ix2 (row t r) j)
  refine congrArg X ?_
  funext a; apply Fin.ext
  match a with
  | ⟨0, _⟩ => show win4_1.index t (0 : Fin 2) * 8192 + 1 * r.val = 8192 * t.val + r.val; omega
  | ⟨1, _⟩ => show win4_1.index t (1 : Fin 2) * 64 + 1 * j.val = j.val; omega

theorem read_blk2 (X : S262144x1.Idx → Ideal .f32) (t : Fin cfg4.N) (r : Fin 8192) :
    ((cfg4.win 2).blk t).view.read (Elt Ideal) X (ix2 r (0 : Fin 1)) = X (ix2 (row t r) (0 : Fin 1)) := by
  obtain ⟨-, -, -, -, e0, e1, -⟩ := idx_facts t
  show X (((cfg4.win 2).blk t).view.emb (ix2 r (0 : Fin 1))) = X (ix2 (row t r) (0 : Fin 1))
  refine congrArg X ?_
  funext a; apply Fin.ext
  match a with
  | ⟨0, _⟩ => show win4_2.index t (0 : Fin 2) * 8192 + 1 * r.val = 8192 * t.val + r.val; omega
  | ⟨1, _⟩ => show win4_2.index t (1 : Fin 2) * 1 + 1 * 0 = 0; omega

theorem read_blk3 (X : S1x64.Idx → Ideal .f32) (t : Fin cfg4.N) (j : Fin 64) :
    ((cfg4.win 3).blk t).view.read (Elt Ideal) X (ix2 (0 : Fin 1) j) = X (ix2 (0 : Fin 1) j) := by
  obtain ⟨-, -, -, -, -, -, e0, e1, -⟩ := idx_facts t
  show X (((cfg4.win 3).blk t).view.emb (ix2 (0 : Fin 1) j)) = X (ix2 (0 : Fin 1) j)
  refine congrArg X ?_
  funext a; apply Fin.ext
  match a with
  | ⟨0, _⟩ => show win4_3.index t (0 : Fin 2) * 1 + 1 * 0 = 0; omega
  | ⟨1, _⟩ => show win4_3.index t (1 : Fin 2) * 64 + 1 * j.val = j.val; omega

theorem emb_blk4 (t : Fin cfg4.N) (r : Fin 8192) (j : Fin 64) :
    ((cfg4.win 4).blk t).view.emb (ix2 r j) = (ix2 (row t r) j : S262144x64.Idx) := by
  obtain ⟨-, -, -, -, -, -, -, -, e0, e1, -⟩ := idx_facts t
  funext a; apply Fin.ext
  match a with
  | ⟨0, _⟩ => show win4_4.index t (0 : Fin 2) * 8192 + 1 * r.val = 8192 * t.val + r.val; omega
  | ⟨1, _⟩ => show win4_4.index t (1 : Fin 2) * 64 + 1 * j.val = j.val; omega

/-- An index of the y array is in point t's block iff each coordinate is in the block's range on its axis. -/
theorem mem_blk4 (t : Fin cfg4.N) (i : S262144x64.Idx) :
    i ∈ ((cfg4.win 4).blk t).view.set ↔ ∀ a : Fin 2, win4_4.index t a * S8192x64.size a ≤ (i a).val
      ∧ (i a).val < win4_4.index t a * S8192x64.size a + S8192x64.size a := by
  show i ∈ ((View.whole main_v74_0).slice (win4_4.rect t)).set ↔ _
  rw [View.set_slice_whole, Rect.mem_set_unit]
  exact Iff.rfl

/-- Row i of the y array is written back by point i / 8192. -/
theorem cover4 (i : S262144x64.Idx) :
    ∃ t : Fin cfg4.N, (cfg4.win 4).flush t = true ∧ i ∈ ((cfg4.win 4).blk t).view.set := by
  have hi0 : (i 0).val < 262144 := (i 0).isLt
  have hi1 : (i 1).val < 64 := (i 1).isLt
  have ht : (i 0).val / 8192 < cfg4.N := by rw [hN]; omega
  refine ⟨⟨(i 0).val / 8192, ht⟩, flush4_4 _, ?_⟩
  rw [mem_blk4]
  obtain ⟨-, -, -, -, -, -, -, -, e0, e1, -⟩ := idx_facts ⟨(i 0).val / 8192, ht⟩
  intro a
  match a with
  | ⟨0, _⟩ =>
    show win4_4.index ⟨(i 0).val / 8192, ht⟩ (0 : Fin 2) * 8192 ≤ (i 0).val
      ∧ (i 0).val < win4_4.index ⟨(i 0).val / 8192, ht⟩ (0 : Fin 2) * 8192 + 8192
    rw [e0]; show (i 0).val / 8192 * 8192 ≤ (i 0).val ∧ (i 0).val < (i 0).val / 8192 * 8192 + 8192; omega
  | ⟨1, _⟩ =>
    show win4_4.index ⟨(i 0).val / 8192, ht⟩ (1 : Fin 2) * 64 ≤ (i 1).val
      ∧ (i 1).val < win4_4.index ⟨(i 0).val / 8192, ht⟩ (1 : Fin 2) * 64 + 64
    rw [e1]; omega

/-- The last grid point, the one that writes the two accumulators back. -/
def tlast : Fin cfg4.N := ⟨31, by rw [hN]; decide⟩

theorem mem_blk5 (t : Fin cfg4.N) (i : S1x1.Idx) :
    i ∈ ((cfg4.win 5).blk t).view.set ↔ ∀ a : Fin 2, win4_5.index t a * S1x1.size a ≤ (i a).val
      ∧ (i a).val < win4_5.index t a * S1x1.size a + S1x1.size a := by
  show i ∈ ((View.whole main_v74_1).slice (win4_5.rect t)).set ↔ _
  rw [View.set_slice_whole, Rect.mem_set_unit]
  exact Iff.rfl

theorem mem_blk6 (t : Fin cfg4.N) (i : S1x1.Idx) :
    i ∈ ((cfg4.win 6).blk t).view.set ↔ ∀ a : Fin 2, win4_6.index t a * S1x1.size a ≤ (i a).val
      ∧ (i a).val < win4_6.index t a * S1x1.size a + S1x1.size a := by
  show i ∈ ((View.whole main_v74_2).slice (win4_6.rect t)).set ↔ _
  rw [View.set_slice_whole, Rect.mem_set_unit]
  exact Iff.rfl

theorem cover5 (i : S1x1.Idx) :
    ∃ t : Fin cfg4.N, (cfg4.win 5).flush t = true ∧ i ∈ ((cfg4.win 5).blk t).view.set := by
  have hi0 : (i 0).val < 1 := (i 0).isLt
  have hi1 : (i 1).val < 1 := (i 1).isLt
  refine ⟨tlast, (flush4_5 tlast).mpr rfl, ?_⟩
  rw [mem_blk5]
  obtain ⟨-, -, -, -, -, -, -, -, -, -, e0, e1, -⟩ := idx_facts tlast
  intro a
  match a with
  | ⟨0, _⟩ =>
    show win4_5.index tlast (0 : Fin 2) * 1 ≤ (i 0).val ∧ (i 0).val < win4_5.index tlast (0 : Fin 2) * 1 + 1
    rw [e0]; omega
  | ⟨1, _⟩ =>
    show win4_5.index tlast (1 : Fin 2) * 1 ≤ (i 1).val ∧ (i 1).val < win4_5.index tlast (1 : Fin 2) * 1 + 1
    rw [e1]; omega

theorem cover6 (i : S1x1.Idx) :
    ∃ t : Fin cfg4.N, (cfg4.win 6).flush t = true ∧ i ∈ ((cfg4.win 6).blk t).view.set := by
  have hi0 : (i 0).val < 1 := (i 0).isLt
  have hi1 : (i 1).val < 1 := (i 1).isLt
  refine ⟨tlast, (flush4_6 tlast).mpr rfl, ?_⟩
  rw [mem_blk6]
  obtain ⟨-, -, -, -, -, -, -, -, -, -, -, -, e0, e1⟩ := idx_facts tlast
  intro a
  match a with
  | ⟨0, _⟩ =>
    show win4_6.index tlast (0 : Fin 2) * 1 ≤ (i 0).val ∧ (i 0).val < win4_6.index tlast (0 : Fin 2) * 1 + 1
    rw [e0]; omega
  | ⟨1, _⟩ =>
    show win4_6.index tlast (1 : Fin 2) * 1 ≤ (i 1).val ∧ (i 1).val < win4_6.index tlast (1 : Fin 2) * 1 + 1
    rw [e1]; omega

/-! ## What each case of the body leaves in its three output buffers

The body stores the block of y whole at every point; at the first point it first zeroes the two accumulators; at
every point it reads each accumulator back and stores it increased by the block's total. -/

theorem hz : (![0, 0] : Fin 2 → Nat) = fun _ => 0 := funext fun a => by fin_cases a <;> rfl

section Pieces
variable (c : Dev nD) (i : grid4.Coords)
  (a1 : Memref sig .tc .vmem S8192x64 .f32) (h1 : a1.IsWhole) (a2 : Memref sig .tc .vmem S8192x64 .f32) (h2 : a2.IsWhole)
  (a3 : Memref sig .tc .vmem S8192x1 .f32) (h3 : a3.IsWhole) (a4 : Memref sig .tc .vmem S1x64 .f32) (h4 : a4.IsWhole)
  (a5 : Memref sig .tc .vmem S8192x64 .f32) (h5 : a5.IsWhole) (a6 : Memref sig .tc .vmem S1x1 .f32) (h6 : a6.IsWhole)
  (a7 : Memref sig .tc .vmem S1x1 .f32) (h7 : a7.IsWhole)
  (x0 x1 : Vec Ideal S8192x64 .f32) (x2 : Vec Ideal S8192x1 .f32) (x3 : Vec Ideal S1x64 .f32)

/-- At a later point the y buffer holds the block of y. -/
theorem out_B_4 (hc : ¬cond4_0 i) (xo5 xo6 : Vec Ideal S1x1 .f32) :
    out4_B_4 (F := Ideal) c i a1 h1 a2 h2 a3 h3 a4 h4 a5 h5 a6 h6 a7 h7 hc x0 x1 x2 x3 xo5 xo6
      = k4_pay3 (F := Ideal) x0 x1 x2 x3 := by
  unfold out4_B_4
  rw [View.read_writes_eq_canon _ _ _ (cover4_B_4 c i a1 h1 a2 h2 a3 h3 a4 h4 a5 h5 a6 h6 a7 h7 hc x0 x1 x2 x3 xo5 xo6)]
  unfold kernelRun4_B
  dsimp only
  rw [View.canon_unit_zero hz]
  simp only [View.readAt_eq_ld, h1.read_unread, h2.read_unread, h3.read_unread, h4.read_unread,
    View.ld_unit_zero (S := S8192x64) hz, View.ld_unit_zero (S := S8192x1) hz, View.ld_unit_zero (S := S1x64) hz]

/-- At a later point the sum accumulator holds what it held, increased by the block's total. -/
theorem out_B_5 (hc : ¬cond4_0 i) (xo5 xo6 : Vec Ideal S1x1 .f32) :
    out4_B_5 (F := Ideal) c i a1 h1 a2 h2 a3 h3 a4 h4 a5 h5 a6 h6 a7 h7 hc x0 x1 x2 x3 xo5 xo6
      = k4_pay4 (F := Ideal) x0 x1 x2 x3 xo5 := by
  unfold out4_B_5
  rw [View.read_writes_eq_canon _ _ _ (cover4_B_5 c i a1 h1 a2 h2 a3 h3 a4 h4 a5 h5 a6 h6 a7 h7 hc x0 x1 x2 x3 xo5 xo6)]
  unfold kernelRun4_B
  dsimp only
  rw [View.canon_unit_zero hz]
  simp only [View.readAt_eq_ld, h1.read_unread, h2.read_unread, h3.read_unread, h4.read_unread, h6.read_unread,
    h7.read_unread, View.ld_unit_zero (S := S8192x64) hz, View.ld_unit_zero (S := S8192x1) hz,
    View.ld_unit_zero (S := S1x64) hz, View.ld_unit_zero (S := S1x1) hz]

/-- At a later point the sum-of-squares accumulator likewise. -/
theorem out_B_6 (hc : ¬cond4_0 i) (xo5 xo6 : Vec Ideal S1x1 .f32) :
    out4_B_6 (F := Ideal) c i a1 h1 a2 h2 a3 h3 a4 h4 a5 h5 a6 h6 a7 h7 hc x0 x1 x2 x3 xo5 xo6
      = k4_pay5 (F := Ideal) x0 x1 x2 x3 xo6 := by
  unfold out4_B_6
  rw [View.read_writes_eq_canon _ _ _ (cover4_B_6 c i a1 h1 a2 h2 a3 h3 a4 h4 a5 h5 a6 h6 a7 h7 hc x0 x1 x2 x3 xo5 xo6)]
  unfold kernelRun4_B
  dsimp only
  sl_unfold_words
  rw [View.canon_unit_zero hz]
  simp only [View.readAt_eq_ld, h1.read_unread, h2.read_unread, h3.read_unread, h4.read_unread, h6.read_unread,
    h7.read_unread, View.ld_unit_zero (S := S8192x64) hz, View.ld_unit_zero (S := S8192x1) hz,
    View.ld_unit_zero (S := S1x64) hz, View.ld_unit_zero (S := S1x1) hz]

/-- At the first point the y buffer holds the block of y. -/
theorem out_A_4 (hc : cond4_0 i) :
    out4_A_4 (F := Ideal) c i a1 h1 a2 h2 a3 h3 a4 h4 a5 h5 a6 h6 a7 h7 hc x0 x1 x2 x3
      = k4_pay3 (F := Ideal) x0 x1 x2 x3 := by
  unfold out4_A_4
  rw [View.read_writes_eq_canon _ _ _ (cover4_A_4 c i a1 h1 a2 h2 a3 h3 a4 h4 a5 h5 a6 h6 a7 h7 hc x0 x1 x2 x3)]
  unfold kernelRun4_A
  dsimp only
  rw [View.canon_unit_zero hz]
  simp only [View.readAt_eq_ld, h1.read_unread, h2.read_unread, h3.read_unread, h4.read_unread,
    View.ld_unit_zero (S := S8192x64) hz, View.ld_unit_zero (S := S8192x1) hz, View.ld_unit_zero (S := S1x64) hz]

/-- At the first point the sum accumulator, zeroed and read back, holds zero increased by the block's total. -/
theorem out_A_5 (hc : cond4_0 i) :
    out4_A_5 (F := Ideal) c i a1 h1 a2 h2 a3 h3 a4 h4 a5 h5 a6 h6 a7 h7 hc x0 x1 x2 x3
      = k4_pay4 (F := Ideal) x0 x1 x2 x3 (k4_pay1 (F := Ideal)) := by
  unfold out4_A_5
  rw [View.read_writes_eq_canon _ _ _ (cover4_A_5 c i a1 h1 a2 h2 a3 h3 a4 h4 a5 h5 a6 h6 a7 h7 hc x0 x1 x2 x3)]
  unfold kernelRun4_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S8192x64) hz, View.ld_unit_zero (S := S8192x1) hz, View.ld_unit_zero (S := S1x64) hz]

/-- At the first point the sum-of-squares accumulator likewise. -/
theorem out_A_6 (hc : cond4_0 i) :
    out4_A_6 (F := Ideal) c i a1 h1 a2 h2 a3 h3 a4 h4 a5 h5 a6 h6 a7 h7 hc x0 x1 x2 x3
      = k4_pay5 (F := Ideal) x0 x1 x2 x3 (k4_pay2 (F := Ideal)) := by
  unfold out4_A_6
  rw [View.read_writes_eq_canon _ _ _ (cover4_A_6 c i a1 h1 a2 h2 a3 h3 a4 h4 a5 h5 a6 h6 a7 h7 hc x0 x1 x2 x3)]
  unfold kernelRun4_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S8192x64) hz, View.ld_unit_zero (S := S8192x1) hz, View.ld_unit_zero (S := S1x64) hz]

end Pieces

/-! ## The region's value, at any entry contents -/

section Value
variable (V : (c : Dev nD) → (b : Ref sig .tc) → Buf (Elt Ideal) ((c : Thread nD τ).loc b))

/-- The four input arrays as the region finds them: agg, h [262144,64], dis2 [262144,1], b [1,64]. -/
abbrev arrA (c : Dev nD) : S262144x64.Idx → Ideal .f32 := V c (Pipeline.arrRef spec4 0)
abbrev arrH (c : Dev nD) : S262144x64.Idx → Ideal .f32 := V c (Pipeline.arrRef spec4 1)
abbrev arrD (c : Dev nD) : S262144x1.Idx → Ideal .f32 := V c (Pipeline.arrRef spec4 2)
abbrev arrB (c : Dev nD) : S1x64.Idx → Ideal .f32 := V c (Pipeline.arrRef spec4 3)

/-- y at node i, feature j: agg + h * dis2 + b. -/
def Y (c : Dev nD) (i : Fin 262144) (j : Fin 64) : EReal :=
  arrA V c (ix2 i j) + arrH V c (ix2 i j) * arrD V c (ix2 i (0 : Fin 1)) + arrB V c (ix2 (0 : Fin 1) j)

theorem Y_eq (c : Dev nD) (i : Fin 262144) (j : Fin 64) :
    Y V c i j = arrA V c (ix2 i j) + arrH V c (ix2 i j) * arrD V c (ix2 i (0 : Fin 1)) + arrB V c (ix2 (0 : Fin 1) j) := rfl

/-- The block of y that point t computes, entry (r, j), is y at row 8192·t + r. -/
theorem blk_apply (c : Dev nD) (t : Fin cfg4.N) (r : Fin 8192) (j : Fin 64) :
    k4_pay3 (F := Ideal) (iblk4 V c 0 t) (iblk4 V c 1 t) (iblk4 V c 2 t) (iblk4 V c 3 t) (ix2 r j)
      = Y V c (row t r) j := by
  rw [pay3_apply (iblk4 V c 0 t) (iblk4 V c 1 t) (iblk4 V c 2 t) (iblk4 V c 3 t) r j]
  unfold iblk4
  rw [read_blk0 (arrA V c) t r j, read_blk1 (arrH V c) t r j, read_blk2 (arrD V c) t r, read_blk3 (arrB V c) t j]
  rfl

/-- y continued by zero past the last row, so that block sums are indexed by plain naturals. -/
def Yn (c : Dev nD) (i : ℕ) (j : Fin 64) : EReal := if h : i < 262144 then Y V c ⟨i, h⟩ j else 0

theorem Yn_row (c : Dev nD) (t : Fin cfg4.N) (r : Fin 8192) (j : Fin 64) :
    Yn V c (8192 * t.val + r.val) j = Y V c (row t r) j := by
  have h : 8192 * t.val + r.val < 262144 := (row t r).isLt
  unfold Yn
  rw [dif_pos h]
  rfl

/-- Block t's total of y, and of y squared. -/
def bsum (c : Dev nD) (t : ℕ) : EReal := ∑ r : Fin 8192, ∑ j : Fin 64, Yn V c (8192 * t + r.val) j
def bsq (c : Dev nD) (t : ℕ) : EReal :=
  ∑ r : Fin 8192, ∑ j : Fin 64, Yn V c (8192 * t + r.val) j * Yn V c (8192 * t + r.val) j

theorem blk_sum (c : Dev nD) (t : Fin cfg4.N) :
    ∑ r : Fin 8192, ∑ j : Fin 64,
        k4_pay3 (F := Ideal) (iblk4 V c 0 t) (iblk4 V c 1 t) (iblk4 V c 2 t) (iblk4 V c 3 t) (ix2 r j)
      = bsum V c t.val := by
  unfold bsum
  refine Finset.sum_congr rfl fun r _ => Finset.sum_congr rfl fun j _ => ?_
  rw [blk_apply V c t r j, Yn_row V c t r j]

theorem blk_sq (c : Dev nD) (t : Fin cfg4.N) :
    ∑ r : Fin 8192, ∑ j : Fin 64,
        k4_pay3 (F := Ideal) (iblk4 V c 0 t) (iblk4 V c 1 t) (iblk4 V c 2 t) (iblk4 V c 3 t) (ix2 r j)
          * k4_pay3 (F := Ideal) (iblk4 V c 0 t) (iblk4 V c 1 t) (iblk4 V c 2 t) (iblk4 V c 3 t) (ix2 r j)
      = bsq V c t.val := by
  unfold bsq
  refine Finset.sum_congr rfl fun r _ => Finset.sum_congr rfl fun j _ => ?_
  rw [blk_apply V c t r j, Yn_row V c t r j]

/-! ### The three output buffers after each point -/

/-- Output 4's buffer after point t holds the block of y, in both cases. -/
theorem outs4 (c : Dev nD) (t : Fin cfg4.N) :
    (outsAt4 V c t.val t.isLt).1
      = k4_pay3 (F := Ideal) (iblk4 V c 0 t) (iblk4 V c 1 t) (iblk4 V c 2 t) (iblk4 V c 3 t) := by
  by_cases h0 : t.val % 32 = 0
  · rw [outsAt4_A V c t h0]
    dsimp only
    exact out_A_4 c (grid4.coords t) (ms4_0 t) (hs4_0 t) (ms4_1 t) (hs4_1 t) (ms4_2 t) (hs4_2 t) (ms4_3 t) (hs4_3 t)
      (ms4_4 t) (hs4_4 t) (ms4_5 t) (hs4_5 t) (ms4_6 t) (hs4_6 t)
      (iblk4 V c 0 t) (iblk4 V c 1 t) (iblk4 V c 2 t) (iblk4 V c 3 t) ((hcond4_0 t).mpr h0)
  · rw [outsAt4_B V c t h0]
    dsimp only
    exact out_B_4 c (grid4.coords t) (ms4_0 t) (hs4_0 t) (ms4_1 t) (hs4_1 t) (ms4_2 t) (hs4_2 t) (ms4_3 t) (hs4_3 t)
      (ms4_4 t) (hs4_4 t) (ms4_5 t) (hs4_5 t) (ms4_6 t) (hs4_6 t)
      (iblk4 V c 0 t) (iblk4 V c 1 t) (iblk4 V c 2 t) (iblk4 V c 3 t) (fun h => h0 ((hcond4_0 t).mp h))
      (outsAt4 V c (t.val - 1) (Nat.lt_of_le_of_lt (Nat.sub_le _ _) t.isLt)).2.1
      (outsAt4 V c (t.val - 1) (Nat.lt_of_le_of_lt (Nat.sub_le _ _) t.isLt)).2.2

/-- The sum accumulator after the first point: block 0's total. -/
theorem acc5_A (c : Dev nD) (t : Fin cfg4.N) (h0 : t.val % 32 = 0) :
    (outsAt4 V c t.val t.isLt).2.1 (ix2 (0 : Fin 1) (0 : Fin 1)) = bsum V c t.val := by
  rw [outsAt4_A V c t h0]
  dsimp only
  rw [out_A_5 c (grid4.coords t) (ms4_0 t) (hs4_0 t) (ms4_1 t) (hs4_1 t) (ms4_2 t) (hs4_2 t) (ms4_3 t) (hs4_3 t)
      (ms4_4 t) (hs4_4 t) (ms4_5 t) (hs4_5 t) (ms4_6 t) (hs4_6 t)
      (iblk4 V c 0 t) (iblk4 V c 1 t) (iblk4 V c 2 t) (iblk4 V c 3 t) ((hcond4_0 t).mpr h0),
    pay4_apply (iblk4 V c 0 t) (iblk4 V c 1 t) (iblk4 V c 2 t) (iblk4 V c 3 t) (k4_pay1 (F := Ideal)),
    pay1_apply, zero_add, blk_sum V c t]

/-- The sum accumulator after a later point: what the point before left plus this block's total. -/
theorem acc5_B (c : Dev nD) (t : Fin cfg4.N) (h0 : ¬t.val % 32 = 0) :
    (outsAt4 V c t.val t.isLt).2.1 (ix2 (0 : Fin 1) (0 : Fin 1))
      = (outsAt4 V c (t.val - 1) (Nat.lt_of_le_of_lt (Nat.sub_le _ _) t.isLt)).2.1 (ix2 (0 : Fin 1) (0 : Fin 1))
        + bsum V c t.val := by
  rw [outsAt4_B V c t h0]
  dsimp only
  rw [out_B_5 c (grid4.coords t) (ms4_0 t) (hs4_0 t) (ms4_1 t) (hs4_1 t) (ms4_2 t) (hs4_2 t) (ms4_3 t) (hs4_3 t)
      (ms4_4 t) (hs4_4 t) (ms4_5 t) (hs4_5 t) (ms4_6 t) (hs4_6 t)
      (iblk4 V c 0 t) (iblk4 V c 1 t) (iblk4 V c 2 t) (iblk4 V c 3 t) (fun h => h0 ((hcond4_0 t).mp h))
      (outsAt4 V c (t.val - 1) (Nat.lt_of_le_of_lt (Nat.sub_le _ _) t.isLt)).2.1
      (outsAt4 V c (t.val - 1) (Nat.lt_of_le_of_lt (Nat.sub_le _ _) t.isLt)).2.2,
    pay4_apply (iblk4 V c 0 t) (iblk4 V c 1 t) (iblk4 V c 2 t) (iblk4 V c 3 t)
      (outsAt4 V c (t.val - 1) (Nat.lt_of_le_of_lt (Nat.sub_le _ _) t.isLt)).2.1,
    blk_sum V c t]

theorem acc6_A (c : Dev nD) (t : Fin cfg4.N) (h0 : t.val % 32 = 0) :
    (outsAt4 V c t.val t.isLt).2.2 (ix2 (0 : Fin 1) (0 : Fin 1)) = bsq V c t.val := by
  rw [outsAt4_A V c t h0]
  dsimp only
  rw [out_A_6 c (grid4.coords t) (ms4_0 t) (hs4_0 t) (ms4_1 t) (hs4_1 t) (ms4_2 t) (hs4_2 t) (ms4_3 t) (hs4_3 t)
      (ms4_4 t) (hs4_4 t) (ms4_5 t) (hs4_5 t) (ms4_6 t) (hs4_6 t)
      (iblk4 V c 0 t) (iblk4 V c 1 t) (iblk4 V c 2 t) (iblk4 V c 3 t) ((hcond4_0 t).mpr h0),
    pay5_apply (iblk4 V c 0 t) (iblk4 V c 1 t) (iblk4 V c 2 t) (iblk4 V c 3 t) (k4_pay2 (F := Ideal)),
    pay2_apply, zero_add, blk_sq V c t]

theorem acc6_B (c : Dev nD) (t : Fin cfg4.N) (h0 : ¬t.val % 32 = 0) :
    (outsAt4 V c t.val t.isLt).2.2 (ix2 (0 : Fin 1) (0 : Fin 1))
      = (outsAt4 V c (t.val - 1) (Nat.lt_of_le_of_lt (Nat.sub_le _ _) t.isLt)).2.2 (ix2 (0 : Fin 1) (0 : Fin 1))
        + bsq V c t.val := by
  rw [outsAt4_B V c t h0]
  dsimp only
  rw [out_B_6 c (grid4.coords t) (ms4_0 t) (hs4_0 t) (ms4_1 t) (hs4_1 t) (ms4_2 t) (hs4_2 t) (ms4_3 t) (hs4_3 t)
      (ms4_4 t) (hs4_4 t) (ms4_5 t) (hs4_5 t) (ms4_6 t) (hs4_6 t)
      (iblk4 V c 0 t) (iblk4 V c 1 t) (iblk4 V c 2 t) (iblk4 V c 3 t) (fun h => h0 ((hcond4_0 t).mp h))
      (outsAt4 V c (t.val - 1) (Nat.lt_of_le_of_lt (Nat.sub_le _ _) t.isLt)).2.1
      (outsAt4 V c (t.val - 1) (Nat.lt_of_le_of_lt (Nat.sub_le _ _) t.isLt)).2.2,
    pay5_apply (iblk4 V c 0 t) (iblk4 V c 1 t) (iblk4 V c 2 t) (iblk4 V c 3 t)
      (outsAt4 V c (t.val - 1) (Nat.lt_of_le_of_lt (Nat.sub_le _ _) t.isLt)).2.2,
    blk_sq V c t]

/-- After point n the sum accumulator holds the totals of blocks 0 … n: by induction on the point. -/
theorem acc5 (c : Dev nD) : ∀ (n : ℕ) (h : n < cfg4.N),
    (outsAt4 V c n h).2.1 (ix2 (0 : Fin 1) (0 : Fin 1)) = ∑ t ∈ Finset.range (n + 1), bsum V c t
  | 0, h => by
    refine (acc5_A V c ⟨0, h⟩ rfl).trans ?_
    rw [Finset.sum_range_one]
  | n + 1, h => by
    have hB : ¬(⟨n + 1, h⟩ : Fin cfg4.N).val % 32 = 0 := by have := hN; dsimp only; omega
    refine (acc5_B V c ⟨n + 1, h⟩ hB).trans ?_
    show (outsAt4 V c n _).2.1 (ix2 (0 : Fin 1) (0 : Fin 1)) + bsum V c (n + 1) = _
    rw [acc5 c n, Finset.sum_range_succ _ (n + 1)]

theorem acc6 (c : Dev nD) : ∀ (n : ℕ) (h : n < cfg4.N),
    (outsAt4 V c n h).2.2 (ix2 (0 : Fin 1) (0 : Fin 1)) = ∑ t ∈ Finset.range (n + 1), bsq V c t
  | 0, h => by
    refine (acc6_A V c ⟨0, h⟩ rfl).trans ?_
    rw [Finset.sum_range_one]
  | n + 1, h => by
    have hB : ¬(⟨n + 1, h⟩ : Fin cfg4.N).val % 32 = 0 := by have := hN; dsimp only; omega
    refine (acc6_B V c ⟨n + 1, h⟩ hB).trans ?_
    show (outsAt4 V c n _).2.2 (ix2 (0 : Fin 1) (0 : Fin 1)) + bsq V c (n + 1) = _
    rw [acc6 c n, Finset.sum_range_succ _ (n + 1)]

theorem Yn_val (c : Dev nD) (i : Fin 262144) (j : Fin 64) : Yn V c i.val j = Y V c i j := by
  unfold Yn
  rw [dif_pos i.isLt]

/-- After the last point the sum accumulator holds the total of y over all rows and features. -/
theorem total5 (c : Dev nD) (t : Fin cfg4.N) (h31 : t.val = 31) :
    (outsAt4 V c t.val t.isLt).2.1 (ix2 (0 : Fin 1) (0 : Fin 1)) = ∑ i : Fin 262144, ∑ j : Fin 64, Y V c i j := by
  refine (acc5 V c t.val t.isLt).trans ?_
  rw [h31]
  show ∑ t ∈ Finset.range 32, bsum V c t = _
  unfold bsum
  rw [sum_regroup fun i => ∑ j : Fin 64, Yn V c i j]
  exact Finset.sum_congr rfl fun i _ => Finset.sum_congr rfl fun j _ => Yn_val V c i j

theorem total6 (c : Dev nD) (t : Fin cfg4.N) (h31 : t.val = 31) :
    (outsAt4 V c t.val t.isLt).2.2 (ix2 (0 : Fin 1) (0 : Fin 1))
      = ∑ i : Fin 262144, ∑ j : Fin 64, Y V c i j * Y V c i j := by
  refine (acc6 V c t.val t.isLt).trans ?_
  rw [h31]
  show ∑ t ∈ Finset.range 32, bsq V c t = _
  unfold bsq
  rw [sum_regroup fun i => ∑ j : Fin 64, Yn V c i j * Yn V c i j]
  exact Finset.sum_congr rfl fun i _ => Finset.sum_congr rfl fun j _ => by rw [Yn_val V c i j]

/-! ### From the blocks to the arrays -/

/-- The y array, whole. -/
def G4 (c : Dev nD) : S262144x64.Idx → Ideal .f32 := fun i => Y V c (i 0) (i 1)
/-- The [1,1] arrays of the two totals. -/
def G5 (c : Dev nD) : S1x1.Idx → Ideal .f32 := fun _ => ∑ i : Fin 262144, ∑ j : Fin 64, Y V c i j
def G6 (c : Dev nD) : S1x1.Idx → Ideal .f32 := fun _ => ∑ i : Fin 262144, ∑ j : Fin 64, Y V c i j * Y V c i j

/-- What point t writes back to the y array is block t of it. -/
theorem flushed4_eq (c : Dev nD) (t : Fin cfg4.N) :
    (dat4 V c).flushed 4 t = ((cfg4.win 4).blk t).view.read (Elt Ideal) (G4 V c) := by
  show (cfg4.win 4).cut (grid4.coords t) ((dat4 V c).after 4 t) = _
  rw [after4_4, outs4 V c t]
  funext y
  obtain ⟨r, j, rfl⟩ : ∃ (r : Fin 8192) (j : Fin 64), y = ix2 r j := ⟨y 0, y 1, eq_ix2 y⟩
  show k4_pay3 (F := Ideal) (iblk4 V c 0 t) (iblk4 V c 1 t) (iblk4 V c 2 t) (iblk4 V c 3 t) (ix2 r j)
    = G4 V c (((cfg4.win 4).blk t).view.emb (ix2 r j))
  rw [emb_blk4 t r j, blk_apply V c t r j]
  rfl

theorem y_arr (c : Dev nD) : (dat4 V c).arrAt 4 cfg4.N = G4 V c :=
  (dat4 V c).arrAt_eq_of_cover 4 (G4 V c) (fun t _ => flushed4_eq V c t) cover4

/-- The y array after the region: y at every node and feature. -/
theorem y_out (c : Dev nD) (i : Fin 262144) (j : Fin 64) :
    (dat4 (F := Ideal) V c).arrAt 4 cfg4.N (ix2 i j) = Y V c i j := by
  rw [y_arr V c]
  rfl

theorem idx11 (y : S1x1.Idx) : y = ix2 (0 : Fin 1) (0 : Fin 1) := by
  have h0 : (y 0).val < 1 := (y 0).isLt
  have h1 : (y 1).val < 1 := (y 1).isLt
  funext a; apply Fin.ext
  match a with
  | ⟨0, _⟩ => show (y 0).val = 0; omega
  | ⟨1, _⟩ => show (y 1).val = 0; omega

/-- The one write-back of the sum accumulator, at the last point, writes the total. -/
theorem flushed5_eq (c : Dev nD) (t : Fin cfg4.N) (hf : (cfg4.win 5).flush t = true) :
    (dat4 V c).flushed 5 t = ((cfg4.win 5).blk t).view.read (Elt Ideal) (G5 V c) := by
  have h31 : t.val = 31 := by have := (flush4_5 t).mp hf; have := t.isLt; have := hN; omega
  have e := total5 V c t h31
  unfold G5
  generalize (∑ i : Fin 262144, ∑ j : Fin 64, Y V c i j) = s at e ⊢
  show (cfg4.win 5).cut (grid4.coords t) ((dat4 V c).after 5 t) = _
  rw [after4_5]
  funext y
  obtain rfl := idx11 y
  exact e

theorem flushed6_eq (c : Dev nD) (t : Fin cfg4.N) (hf : (cfg4.win 6).flush t = true) :
    (dat4 V c).flushed 6 t = ((cfg4.win 6).blk t).view.read (Elt Ideal) (G6 V c) := by
  have h31 : t.val = 31 := by have := (flush4_6 t).mp hf; have := t.isLt; have := hN; omega
  have e := total6 V c t h31
  unfold G6
  generalize (∑ i : Fin 262144, ∑ j : Fin 64, Y V c i j * Y V c i j) = s at e ⊢
  show (cfg4.win 6).cut (grid4.coords t) ((dat4 V c).after 6 t) = _
  rw [after4_6]
  funext y
  obtain rfl := idx11 y
  exact e

theorem sum_arr (c : Dev nD) : (dat4 V c).arrAt 5 cfg4.N = G5 V c :=
  (dat4 V c).arrAt_eq_of_cover 5 (G5 V c) (flushed5_eq V c) cover5

theorem sumsq_arr (c : Dev nD) : (dat4 V c).arrAt 6 cfg4.N = G6 V c :=
  (dat4 V c).arrAt_eq_of_cover 6 (G6 V c) (flushed6_eq V c) cover6

/-- The [1,1] sum output after the region: the total of y. -/
theorem sum_out (c : Dev nD) :
    (dat4 (F := Ideal) V c).arrAt 5 cfg4.N (ix2 (0 : Fin 1) (0 : Fin 1)) = ∑ i : Fin 262144, ∑ j : Fin 64, Y V c i j := by
  rw [sum_arr V c]
  rfl

/-- The [1,1] sum-of-squares output after the region: the total of y squared. -/
theorem sumsq_out (c : Dev nD) :
    (dat4 (F := Ideal) V c).arrAt 6 cfg4.N (ix2 (0 : Fin 1) (0 : Fin 1))
      = ∑ i : Fin 262144, ∑ j : Fin 64, Y V c i j * Y V c i j := by
  rw [sumsq_arr V c]
  rfl

end Value

end Cert.KernelIdeal.Reg4

end
-- ==== Proof.Reg5.lean ====
import proofs.«167728_j48945447305605_1_alg».proof.Proof.Gen.KernelIdeal.Frame
import proofs.«167728_j48945447305605_1_alg».proof.Proof.Elu
import Idealize.ShloMosaic.Lib.ValueIdx
import Idealize.ShloMosaic.Lib.ValueLayout
import Idealize.ShloMosaic.Lib.IdealHost
import Idealize.ShloMosaic.Lib.Pipeline.Value

/-!
# Region 5: normalise, scale, shift, then the exponential linear unit

The region reads a `[262144, 64]` array `y` in 32 blocks of 8192 rows, together with four small operands that
are the same single block at every grid point: a mean and an inverse standard deviation (both `[1, 1]`), a gain
and a shift (both `[1, 64]`). Each grid point computes, entry by entry of its block,
`z = ((y - mean) * invstd) * gain + shift` and stores `z` where `z > 0` and `exp z - 1` elsewhere.

Since every operation of the body is pointwise (the small operands being broadcast), the block that point `t`
writes back is the restriction to rows `8192 t … 8192 t + 8191` of ONE function of the whole arrays, and the 32
blocks tile the output array: row `r` is written by point `r / 8192`. Hence the array the region leaves is that
function, index by index.
-/

noncomputable section

namespace Cert.KernelIdeal.Reg5

open Idealize.ShloMosaic Idealize.ShloMosaic.TcCoe Idealize.ShloMosaic.ValueIdx Cert.KernelIdeal Cert.KernelIdeal.Gen

/-! ## The body's arithmetic at an index -/

/-- Selecting on the comparison `z > 0` is the case split on `0 < z`. -/
theorem select_gt_zero (z w : EReal) : Scalar.select (Ideal.cmp .ogt z 0) z w = if 0 < z then z else w := by
  unfold Ideal.cmp Scalar.select
  by_cases h : (0 : EReal) < z
  · simp [h]
  · simp [h]

/-- A `[1, 1]` array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The exponential of a vector at an index is the exponential of the entry. -/
theorem exp_apply {s : Shape} {φ : FTy} (a : FVec Ideal s φ) (i : s.Idx) : exp a i = Ideal.exp (a i) := rfl

/-- The stored value at entry `(p, q)` of a block: the unit applied to `((y - mean) * invstd) * gain + shift`,
    the mean and the inverse deviation read at their one entry, the gain and the shift at column `q`. -/
theorem pay_apply (v0 v2 : Vec Ideal S1x1 .f32) (v4 : Vec Ideal S8192x64 .f32) (v10 v14 : Vec Ideal S1x64 .f32)
    (p : Fin 8192) (q : Fin 64) :
    k5_pay1 (F := Ideal) v0 v2 v4 v10 v14 (ix2 p q)
      = Cert.Spec.elu ((v4 (ix2 p q) - v0 (ix2 (0 : Fin 1) (0 : Fin 1))) * v2 (ix2 (0 : Fin 1) (0 : Fin 1))
          * v10 (ix2 (0 : Fin 1) q) + v14 (ix2 (0 : Fin 1) q)) := by
  unfold k5_pay1
  simp only [shapeCast_self]
  have b0 : broadcastTo S8192x64 v0 broadcasts_S1x1_S8192x64 (ix2 p q) = v0 (ix2 (0 : Fin 1) (0 : Fin 1)) :=
    broadcastTo_11_ab_apply v0 _ p q
  have b2 : broadcastTo S8192x64 v2 broadcasts_S1x1_S8192x64 (ix2 p q) = v2 (ix2 (0 : Fin 1) (0 : Fin 1)) :=
    broadcastTo_11_ab_apply v2 _ p q
  have b10 : broadcastTo S8192x64 v10 broadcasts_S1x64_S8192x64 (ix2 p q) = v10 (ix2 (0 : Fin 1) q) :=
    broadcastTo_1b_ab_apply v10 _ p q
  have b14 : broadcastTo S8192x64 v14 broadcasts_S1x64_S8192x64 (ix2 p q) = v14 (ix2 (0 : Fin 1) q) :=
    broadcastTo_1b_ab_apply v14 _ p q
  simp only [select_apply, cmpf_apply, subf_apply, exp_apply, addf_apply, mulf_apply, broadcast_apply, b0, b2, b10, b14,
    Ideal.ofBits_def, Ideal.ofBits_zero_f32, Ideal.ofBits_one_f32]
  exact select_gt_zero _ _

theorem zero_offsets : (![0, 0] : Fin 2 → Nat) = fun _ => 0 := funext fun a => by fin_cases a <;> rfl

/-- What the body leaves in the output's staging buffer, at entry `(p, q)`, from the contents of the five input
    buffers: the body loads each buffer whole and stores the result whole. -/
theorem out_apply (x0 : Vec Ideal S8192x64 .f32) (x1 x2 : Vec Ideal S1x1 .f32) (x3 x4 : Vec Ideal S1x64 .f32)
    (p : Fin 8192) (q : Fin 64) :
    out5_5 (F := Ideal) x0 x1 x2 x3 x4 (ix2 p q)
      = Cert.Spec.elu ((x0 (ix2 p q) - x1 (ix2 (0 : Fin 1) (0 : Fin 1))) * x2 (ix2 (0 : Fin 1) (0 : Fin 1))
          * x3 (ix2 (0 : Fin 1) q) + x4 (ix2 (0 : Fin 1) q)) := by
  unfold out5_5
  rw [View.canon_unit_zero zero_offsets]
  simp only [View.ld_unit_zero (S := S8192x64) zero_offsets, View.ld_unit_zero (S := S1x1) zero_offsets,
    View.ld_unit_zero (S := S1x64) zero_offsets]
  exact pay_apply x1 x2 x0 x3 x4 p q

/-- The same at any index `y` of the block. -/
theorem out_apply_idx (x0 : Vec Ideal S8192x64 .f32) (x1 x2 : Vec Ideal S1x1 .f32) (x3 x4 : Vec Ideal S1x64 .f32)
    (y : S8192x64.Idx) :
    out5_5 (F := Ideal) x0 x1 x2 x3 x4 y
      = Cert.Spec.elu ((x0 y - x1 (ix2 (0 : Fin 1) (0 : Fin 1))) * x2 (ix2 (0 : Fin 1) (0 : Fin 1))
          * x3 (ix2 (0 : Fin 1) (y 1 : Fin 64)) + x4 (ix2 (0 : Fin 1) (y 1 : Fin 64))) := by
  obtain ⟨p, q, rfl⟩ : ∃ (p : Fin 8192) (q : Fin 64), y = ix2 p q := ⟨y 0, y 1, eq_ix2 y⟩
  exact out_apply x0 x1 x2 x3 x4 p q

/-! ## The blocks over the grid -/

/-- The block indices over the grid: the two row-tiled windows are at block `(t, 0)` at point `t`, the four small
    operands at block `(0, 0)` at every point. -/
theorem index_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- An index of the output array is in point `t`'s block iff each coordinate is in the block's range on its axis. -/
theorem mem_blk (t : Fin cfg5.N) (k : S262144x64.Idx) :
    k ∈ ((cfg5.win 5).blk t).view.set ↔ ∀ a : Fin 2, win5_5.index t a * S8192x64.size a ≤ (k a).val
      ∧ (k a).val < win5_5.index t a * S8192x64.size a + S8192x64.size a := by
  show k ∈ ((View.whole main_v89).slice (win5_5.rect t)).set ↔ _
  rw [View.set_slice_whole, Rect.mem_set_unit]
  exact Iff.rfl

/-- Row `r` of the output array is in the block of point `r / 8192`, and every point writes its block back. -/
theorem covered (k : S262144x64.Idx) :
    ∃ t : Fin cfg5.N, (cfg5.win 5).flush t = true ∧ k ∈ ((cfg5.win 5).blk t).view.set := by
  have hk0 : (k 0).val < 262144 := idx2_lt0 k
  have hk1 : (k 1).val < 64 := idx2_lt1 k
  have hN : cfg5.N = 32 := N_5
  obtain ⟨t, ht⟩ : ∃ t : Fin cfg5.N, t.val = (k 0).val / 8192 := ⟨⟨(k 0).val / 8192, by omega⟩, rfl⟩
  obtain ⟨-, -, -, -, -, -, -, -, -, -, e0, e1⟩ := index_facts t
  refine ⟨t, flush5_5 t, ?_⟩
  rw [mem_blk]
  intro a
  match a with
  | ⟨0, _⟩ =>
    show win5_5.index t (0 : Fin 2) * 8192 ≤ (k 0).val ∧ (k 0).val < win5_5.index t (0 : Fin 2) * 8192 + 8192
    omega
  | ⟨1, _⟩ =>
    show win5_5.index t (1 : Fin 2) * 64 ≤ (k 1).val ∧ (k 1).val < win5_5.index t (1 : Fin 2) * 64 + 64
    omega

/-! ## The input blocks as entries of the arrays -/

variable (V : (c : Dev nD) → (b : Ref sig .tc) → Buf (Elt Ideal) ((c : Thread nD τ).loc b))

/-- The five input arrays as the region finds them, each at its literal shape: `y` (window 0), -/
abbrev yArr (c : Dev nD) : S262144x64.Idx → EReal := V c (Pipeline.arrRef spec5 0)
/-- the mean (window 1), -/
abbrev meanArr (c : Dev nD) : S1x1.Idx → EReal := V c (Pipeline.arrRef spec5 1)
/-- the inverse standard deviation (window 2), -/
abbrev invstdArr (c : Dev nD) : S1x1.Idx → EReal := V c (Pipeline.arrRef spec5 2)
/-- the gain (window 3), -/
abbrev gainArr (c : Dev nD) : S1x64.Idx → EReal := V c (Pipeline.arrRef spec5 3)
/-- and the shift (window 4). -/
abbrev shiftArr (c : Dev nD) : S1x64.Idx → EReal := V c (Pipeline.arrRef spec5 4)

/-- Entry `(p, q)` of the block of `y` at point `t` is entry `(8192 t + p, q)` of the array. -/
theorem y_block (c : Dev nD) (t : Fin cfg5.N) (y : S8192x64.Idx) (k : S262144x64.Idx)
    (hk0 : (k 0).val = 8192 * t.val + (y 0).val) (hk1 : (k 1).val = (y 1).val) :
    (iblk5 (F := Ideal) V c 0 t : Vec Ideal S8192x64 .f32) y
      = yArr V c k := by
  obtain ⟨e0, e1, -⟩ := index_facts t
  unfold iblk5
  rw [View.read_apply]
  show yArr V c _ = yArr V c k
  refine congrArg (yArr V c) (funext fun a => Fin.ext ?_)
  match a with
  | ⟨0, _⟩ => show win5_0.index t (0 : Fin 2) * 8192 + 1 * (y 0).val = (k 0).val; omega
  | ⟨1, _⟩ => show win5_0.index t (1 : Fin 2) * 64 + 1 * (y 1).val = (k 1).val; omega

/-- The one entry of the mean's block is the one entry of its array, at every point. -/
theorem mean_block (c : Dev nD) (t : Fin cfg5.N) :
    (iblk5 (F := Ideal) V c 1 t : Vec Ideal S1x1 .f32) (ix2 (0 : Fin 1) (0 : Fin 1))
      = meanArr V c (ix2 (0 : Fin 1) (0 : Fin 1)) := by
  obtain ⟨-, -, e0, e1, -⟩ := index_facts t
  unfold iblk5
  rw [View.read_apply]
  show meanArr V c _ = meanArr V c _
  refine congrArg (meanArr V c) (funext fun a => Fin.ext ?_)
  match a with
  | ⟨0, _⟩ => show win5_1.index t (0 : Fin 2) * 1 + 1 * 0 = 0; omega
  | ⟨1, _⟩ => show win5_1.index t (1 : Fin 2) * 1 + 1 * 0 = 0; omega

/-- The one entry of the inverse deviation's block is the one entry of its array, at every point. -/
theorem invstd_block (c : Dev nD) (t : Fin cfg5.N) :
    (iblk5 (F := Ideal) V c 2 t : Vec Ideal S1x1 .f32) (ix2 (0 : Fin 1) (0 : Fin 1))
      = invstdArr V c (ix2 (0 : Fin 1) (0 : Fin 1)) := by
  obtain ⟨-, -, -, -, e0, e1, -⟩ := index_facts t
  unfold iblk5
  rw [View.read_apply]
  show invstdArr V c _ = invstdArr V c _
  refine congrArg (invstdArr V c) (funext fun a => Fin.ext ?_)
  match a with
  | ⟨0, _⟩ => show win5_2.index t (0 : Fin 2) * 1 + 1 * 0 = 0; omega
  | ⟨1, _⟩ => show win5_2.index t (1 : Fin 2) * 1 + 1 * 0 = 0; omega

/-- Column `q` of the gain's block is column `q` of its array, at every point. -/
theorem gain_block (c : Dev nD) (t : Fin cfg5.N) (q q' : Fin 64) (hq : q'.val = q.val) :
    (iblk5 (F := Ideal) V c 3 t : Vec Ideal S1x64 .f32) (ix2 (0 : Fin 1) q)
      = gainArr V c (ix2 (0 : Fin 1) q') := by
  obtain ⟨-, -, -, -, -, -, e0, e1, -⟩ := index_facts t
  unfold iblk5
  rw [View.read_apply]
  show gainArr V c _ = gainArr V c _
  refine congrArg (gainArr V c) (funext fun a => Fin.ext ?_)
  match a with
  | ⟨0, _⟩ => show win5_3.index t (0 : Fin 2) * 1 + 1 * 0 = 0; omega
  | ⟨1, _⟩ => show win5_3.index t (1 : Fin 2) * 64 + 1 * q.val = q'.val; omega

/-- Column `q` of the shift's block is column `q` of its array, at every point. -/
theorem shift_block (c : Dev nD) (t : Fin cfg5.N) (q q' : Fin 64) (hq : q'.val = q.val) :
    (iblk5 (F := Ideal) V c 4 t : Vec Ideal S1x64 .f32) (ix2 (0 : Fin 1) q)
      = shiftArr V c (ix2 (0 : Fin 1) q') := by
  obtain ⟨-, -, -, -, -, -, -, -, e0, e1, -⟩ := index_facts t
  unfold iblk5
  rw [View.read_apply]
  show shiftArr V c _ = shiftArr V c _
  refine congrArg (shiftArr V c) (funext fun a => Fin.ext ?_)
  match a with
  | ⟨0, _⟩ => show win5_4.index t (0 : Fin 2) * 1 + 1 * 0 = 0; omega
  | ⟨1, _⟩ => show win5_4.index t (1 : Fin 2) * 64 + 1 * q.val = q'.val; omega

/-! ## The array the region leaves -/

/-- The whole output array as one function of the five input arrays as the region finds them. -/
def result (c : Dev nD) : S262144x64.Idx → EReal := fun k =>
  Cert.Spec.elu ((yArr V c k
        - meanArr V c (ix2 (0 : Fin 1) (0 : Fin 1)))
      * invstdArr V c (ix2 (0 : Fin 1) (0 : Fin 1))
      * gainArr V c (ix2 (0 : Fin 1) (k 1 : Fin 64))
    + shiftArr V c (ix2 (0 : Fin 1) (k 1 : Fin 64)))

/-- What point `t` writes back is block `t` of `result`. -/
theorem flushed_eq (c : Dev nD) (t : Fin cfg5.N) :
    (dat5 (F := Ideal) V c).flushed 5 t = ((cfg5.win 5).blk t).view.read (Elt Ideal) (result V c) := by
  show (cfg5.win 5).cut (grid5.coords t) ((dat5 (F := Ideal) V c).after 5 t) = _
  rw [after5_5]
  obtain ⟨-, -, -, -, -, -, -, -, -, -, e0, e1⟩ := index_facts t
  funext y
  have hy0 : (y 0).val < 8192 := (y 0).isLt
  have hy1 : (y 1).val < 64 := (y 1).isLt
  have hk0 : ((((cfg5.win 5).blk t).view.emb y) 0).val = 8192 * t.val + (y 0).val := by
    show win5_5.index t (0 : Fin 2) * 8192 + 1 * (y 0).val = _; omega
  have hk1 : ((((cfg5.win 5).blk t).view.emb y) 1).val = (y 1).val := by
    show win5_5.index t (1 : Fin 2) * 64 + 1 * (y 1).val = _; omega
  show out5_5 (F := Ideal) (iblk5 V c 0 t) (iblk5 V c 1 t) (iblk5 V c 2 t) (iblk5 V c 3 t) (iblk5 V c 4 t) y
      = result V c (((cfg5.win 5).blk t).view.emb y)
  refine (out_apply_idx (iblk5 V c 0 t) (iblk5 V c 1 t) (iblk5 V c 2 t) (iblk5 V c 3 t) (iblk5 V c 4 t) y).trans ?_
  rw [y_block V c t y (((cfg5.win 5).blk t).view.emb y) hk0 hk1,
    mean_block V c t, invstd_block V c t,
    gain_block V c t (y 1 : Fin 64) ((((cfg5.win 5).blk t).view.emb y) 1 : Fin 64) hk1,
    shift_block V c t (y 1 : Fin 64) ((((cfg5.win 5).blk t).view.emb y) 1 : Fin 64) hk1]
  rfl

/-- The array the region leaves for its output window is `result`. -/
theorem final (c : Dev nD) : (dat5 (F := Ideal) V c).arrAt 5 cfg5.N = result V c :=
  (dat5 (F := Ideal) V c).arrAt_eq_of_cover 5 (result V c) (fun t _ => flushed_eq V c t) covered

/-- THE REGION'S VALUE: entry `(i, j)` of the output array is the exponential linear unit of
    `((y i j - mean) * invstd) * gain j + shift j`, read off the arrays as the region finds them. -/
theorem out (V : (c : Dev nD) → (b : Ref sig .tc) → Buf (Elt Ideal) ((c : Thread nD τ).loc b)) (c : Dev nD)
    (i : Fin 262144) (j : Fin 64) :
    (dat5 (F := Ideal) V c).arrAt 5 cfg5.N (ix2 i j)
      = Cert.Spec.elu ((yArr V c (ix2 i j)
            - meanArr V c (ix2 (0 : Fin 1) (0 : Fin 1)))
          * invstdArr V c (ix2 (0 : Fin 1) (0 : Fin 1))
          * gainArr V c (ix2 (0 : Fin 1) j)
        + shiftArr V c (ix2 (0 : Fin 1) j)) :=
  congrFun (final V c) (ix2 i j)

end Cert.KernelIdeal.Reg5

end
-- ==== Proof.KStages2.lean ====
import proofs.«167728_j48945447305605_1_alg».proof.Proof.Reg3
import proofs.«167728_j48945447305605_1_alg».proof.Proof.Reg4
import proofs.«167728_j48945447305605_1_alg».proof.Proof.Reg5
import proofs.«167728_j48945447305605_1_alg».proof.Proof.KKeep
import proofs.«167728_j48945447305605_1_alg».proof.Proof.KArgs
import proofs.«167728_j48945447305605_1_alg».proof.Proof.KEntry
import Idealize.ShloMosaic.Lib.ValueLayout
import proofs.«167728_j48945447305605_1_alg».proof.Proof.Net

/-!
# The second layer of the kernel program, boundary by boundary

From the first layer's output `z1` in the buffer `main_v58` at the boundary after the first normalising region, the
second layer's stages are read off the buffers at the following boundaries: the linear map `h2 = z1 · W2` in
`main_v59` (a region), the sum `y2` of the neighbourhood sum of `h2`, the self loop and the bias in `main_v74_0`
together with the totals of `y2` and of its squares (a host stretch, then a region), and the normalised, scaled,
shifted output `z2` in `main_v89` (a host stretch computing the mean and the reciprocal deviation from the two
totals, then a region).
-/

noncomputable section

namespace Cert.KernelIdeal.KVal

open Idealize.ShloMosaic Idealize.ShloMosaic.TcCoe Idealize.ShloMosaic.ValueIdx Cert.KernelIdeal Cert.KernelIdeal.Gen
open Cert.Glue

variable (m : (ℓ : Loc nD τ sig) → Buf (Elt Ideal) ℓ) (ρ : Dev nD → PrngReg) (c : Dev nD)

/-- The second layer's linear map: the region multiplies the rows of `z1` by the weight matrix, which is the
    argument's since no segment writes an argument. -/
theorem k_h2
    (hz1 : Cert.Cur.cur2 (n0 := 262144) (n1 := 64) (W6 m ρ c (Proc.devRef .tc main_v58)) = Cert.Net.z1 Cert.Spec.lnK (argsAt m c)) :
    Cert.Cur.cur2 (n0 := 262144) (n1 := 64) (W7 m ρ c (Proc.devRef .tc main_v59)) = Cert.Net.h2 Cert.Spec.lnK (argsAt m c) := by
  funext i j
  refine (congrFun (W7_arr m ρ c 2) (ix2 i j)).trans ?_
  refine (Reg3.out (V6 m ρ) c (W6 m ρ c (Proc.devRef .tc main_v58)) (m ((c.tc : Thread nD τ).loc main_arg4)) rfl
    (arg4_at_W6 m ρ c) i j).trans ?_
  show _ = ∑ k : Fin 64, Cert.Net.z1 Cert.Spec.lnK (argsAt m c) i k * (argsAt m c).W2 k j
  rw [← hz1]
  rfl

/-- The linear map's buffer as an array. -/
theorem l2_v59 (hh : Cert.Cur.cur2 (n0 := 262144) (n1 := 64) (W7 m ρ c (Proc.devRef .tc main_v59)) = Cert.Net.h2 Cert.Spec.lnK (argsAt m c)) :
    (W7 m ρ c (Proc.devRef .tc main_v59) : S262144x64.Idx → EReal) = Cert.Cur.unc2 (Cert.Net.h2 Cert.Spec.lnK (argsAt m c)) := by
  rw [← hh]; exact (Cert.Cur.unc2_cur2 _).symm

/-- The neighbourhood sum of the second linear map, as the stretch before the statistics region leaves it: the
    shared scatter over the edges of the launch edge list. -/
theorem l2_v72 (hh : Cert.Cur.cur2 (n0 := 262144) (n1 := 64) (W7 m ρ c (Proc.devRef .tc main_v59)) = Cert.Net.h2 Cert.Spec.lnK (argsAt m c)) :
    W8 m ρ c (Proc.devRef .tc main_v72)
      = agg64T (F := Ideal) (srcT (m ((c.tc : Thread nD τ).loc main_arg1))) (dstT (m ((c.tc : Thread nD τ).loc main_arg1))) (nrmT (srcT (m ((c.tc : Thread nD τ).loc main_arg1))) (dstT (m ((c.tc : Thread nD τ).loc main_arg1))))
          (Cert.Cur.unc2 (Cert.Net.h2 Cert.Spec.lnK (argsAt m c))) := by
  refine (KHost.h4_v72 (W7 m ρ c)).trans ?_
  rw [v1_at_W7 m ρ c, v3_at_W7 m ρ c, v25_at_W7 m ρ c, l2_v59 m ρ c hh]

/-- The bias row the same stretch leaves. -/
theorem l2_v73 : W8 m ρ c (Proc.devRef .tc main_v73)
    = shapeCast S1x64 (m ((c.tc : Thread nD τ).loc main_arg5)) shapeCasts_S64_S1x64 := by
  refine (KHost.h4_v73 (W7 m ρ c)).trans ?_
  rw [arg5_at_W7 m ρ c]

/-- The statistics region's combined entry is the layer's sum: the neighbourhood sum of `h2`, `h2` times the
    squared inverse root degree, and the bias. -/
theorem l2_y_entry (hh : Cert.Cur.cur2 (n0 := 262144) (n1 := 64) (W7 m ρ c (Proc.devRef .tc main_v59)) = Cert.Net.h2 Cert.Spec.lnK (argsAt m c)) (i : Fin 262144) (j : Fin 64) :
    Reg4.Y (V8 m ρ) c i j = Cert.Net.y2 Cert.Spec.lnK (argsAt m c) i j := by
  rw [Reg4.Y_eq]
  unfold Cert.Net.y2
  refine conv_entry (Reg4.arrA (V8 m ρ) c) (Reg4.arrH (V8 m ρ) c) (Reg4.arrD (V8 m ρ) c) (Reg4.arrB (V8 m ρ) c)
    ((argsAt m c).A64 (Cert.Net.h2 Cert.Spec.lnK (argsAt m c))) (Cert.Net.h2 Cert.Spec.lnK (argsAt m c)) (argsAt m c).d (argsAt m c).b2
    ?_ ?_ ?_ ?_ i j
  · intro i j
    rw [argsAt_A64, Cert.Cur.cur2_apply]
    exact congrFun (l2_v72 m ρ c hh) (ix2 i j)
  · intro i j
    exact congrFun ((KHost.h4_keep_v59 (W7 m ρ c)).trans (l2_v59 m ρ c hh)) (ix2 i j)
  · intro i
    rw [argsAt_d, Cert.Cur.cur1_apply]
    exact ((congrFun (v27_at_W8 m ρ c) (ix2 i 0)).trans (shapeCast_a_a1_apply _ _ i 0)).trans (mulf_apply _ _ _)
  · intro j
    rw [argsAt_b2, Cert.Cur.cur1_apply]
    exact (congrFun (l2_v73 m ρ c) (ix2 0 j)).trans (shapeCast_a_1a_apply _ _ 0 j)

/-- The array `y2` after the region. -/
theorem k_y2 (hh : Cert.Cur.cur2 (n0 := 262144) (n1 := 64) (W7 m ρ c (Proc.devRef .tc main_v59)) = Cert.Net.h2 Cert.Spec.lnK (argsAt m c)) :
    Cert.Cur.cur2 (n0 := 262144) (n1 := 64) (W9 m ρ c (Proc.devRef .tc main_v74_0)) = Cert.Net.y2 Cert.Spec.lnK (argsAt m c) := by
  funext i j
  exact ((congrFun (W9_arr m ρ c 4) (ix2 i j)).trans (Reg4.y_out (V8 m ρ) c i j)).trans (l2_y_entry m ρ c hh i j)

theorem l2_sum (hh : Cert.Cur.cur2 (n0 := 262144) (n1 := 64) (W7 m ρ c (Proc.devRef .tc main_v59)) = Cert.Net.h2 Cert.Spec.lnK (argsAt m c)) :
    (∑ i : Fin 262144, ∑ j : Fin 64, Reg4.Y (V8 m ρ) c i j) = Cert.Spec.total (Cert.Net.y2 Cert.Spec.lnK (argsAt m c)) :=
  Finset.sum_congr rfl fun i _ => Finset.sum_congr rfl fun j _ => l2_y_entry m ρ c hh i j

theorem l2_sumsq (hh : Cert.Cur.cur2 (n0 := 262144) (n1 := 64) (W7 m ρ c (Proc.devRef .tc main_v59)) = Cert.Net.h2 Cert.Spec.lnK (argsAt m c)) :
    (∑ i : Fin 262144, ∑ j : Fin 64, Reg4.Y (V8 m ρ) c i j * Reg4.Y (V8 m ρ) c i j)
      = Cert.Spec.total fun i j => Cert.Net.y2 Cert.Spec.lnK (argsAt m c) i j * Cert.Net.y2 Cert.Spec.lnK (argsAt m c) i j :=
  Finset.sum_congr rfl fun i _ => Finset.sum_congr rfl fun j _ => by rw [l2_y_entry m ρ c hh i j]

/-- The total of `y2`, which the region accumulates over its grid points. -/
theorem k_s2 (hh : Cert.Cur.cur2 (n0 := 262144) (n1 := 64) (W7 m ρ c (Proc.devRef .tc main_v59)) = Cert.Net.h2 Cert.Spec.lnK (argsAt m c)) :
    (W9 m ρ c (Proc.devRef .tc main_v74_1) : S1x1.Idx → EReal) (ix2 (0 : Fin 1) (0 : Fin 1))
      = Cert.Spec.total (Cert.Net.y2 Cert.Spec.lnK (argsAt m c)) :=
  ((congrFun (W9_arr m ρ c 5) (ix2 0 0)).trans (Reg4.sum_out (V8 m ρ) c)).trans (l2_sum m ρ c hh)

/-- The total of the squares of `y2`, likewise. -/
theorem k_q2 (hh : Cert.Cur.cur2 (n0 := 262144) (n1 := 64) (W7 m ρ c (Proc.devRef .tc main_v59)) = Cert.Net.h2 Cert.Spec.lnK (argsAt m c)) :
    (W9 m ρ c (Proc.devRef .tc main_v74_2) : S1x1.Idx → EReal) (ix2 (0 : Fin 1) (0 : Fin 1))
      = Cert.Spec.total fun i j => Cert.Net.y2 Cert.Spec.lnK (argsAt m c) i j * Cert.Net.y2 Cert.Spec.lnK (argsAt m c) i j :=
  ((congrFun (W9_arr m ρ c 6) (ix2 0 0)).trans (Reg4.sumsq_out (V8 m ρ) c)).trans (l2_sumsq m ρ c hh)

/-- The normalised output of the second layer: the region reads `y2`, the mean and the reciprocal deviation the
    stretch before it computed from the two totals, and the scale and shift rows, which are the arguments'. -/
theorem k_z2
    (hy : Cert.Cur.cur2 (n0 := 262144) (n1 := 64) (W9 m ρ c (Proc.devRef .tc main_v74_0)) = Cert.Net.y2 Cert.Spec.lnK (argsAt m c))
    (hs : (W9 m ρ c (Proc.devRef .tc main_v74_1) : S1x1.Idx → EReal) (ix2 (0 : Fin 1) (0 : Fin 1))
      = Cert.Spec.total (Cert.Net.y2 Cert.Spec.lnK (argsAt m c)))
    (hq : (W9 m ρ c (Proc.devRef .tc main_v74_2) : S1x1.Idx → EReal) (ix2 (0 : Fin 1) (0 : Fin 1))
      = Cert.Spec.total fun i j => Cert.Net.y2 Cert.Spec.lnK (argsAt m c) i j * Cert.Net.y2 Cert.Spec.lnK (argsAt m c) i j) :
    Cert.Cur.cur2 (n0 := 262144) (n1 := 64) (W11 m ρ c (Proc.devRef .tc main_v89)) = Cert.Net.z2 Cert.Spec.lnK (argsAt m c) := by
  funext i j
  refine (congrFun (W11_arr m ρ c 5) (ix2 i j)).trans ?_
  refine (Reg5.out (V10 m ρ) c i j).trans ?_
  have e0 : Reg5.yArr (V10 m ρ) c (ix2 i j) = Cert.Net.y2 Cert.Spec.lnK (argsAt m c) i j :=
    (congrFun (KHost.h5_keep_v74_0 (W9 m ρ c)) (ix2 i j)).trans (congrFun (congrFun hy i) j)
  have e1 : Reg5.meanArr (V10 m ρ) c (ix2 (0 : Fin 1) (0 : Fin 1)) = Cert.Spec.mean (Cert.Net.y2 Cert.Spec.lnK (argsAt m c)) :=
    (KHost.h5_mean (W9 m ρ c)).trans (congrArg (fun s => Ideal.div s Cert.Spec.cnt) hs)
  have e2 : Reg5.invstdArr (V10 m ρ) c (ix2 (0 : Fin 1) (0 : Fin 1)) = Cert.Spec.invK (Cert.Net.y2 Cert.Spec.lnK (argsAt m c)) := by
    refine (KHost.h5_inv (W9 m ρ c)).trans ?_
    rw [hs, hq]
    rfl
  have e3 : Reg5.gainArr (V10 m ρ) c (ix2 (0 : Fin 1) j) = (argsAt m c).g2 j :=
    (KHost.h5_g (W9 m ρ c) j).trans (congrFun (arg12_at_W9 m ρ c) (ix1 j))
  have e4 : Reg5.shiftArr (V10 m ρ) c (ix2 (0 : Fin 1) j) = (argsAt m c).bt2 j :=
    (KHost.h5_beta (W9 m ρ c) j).trans (congrFun (arg13_at_W9 m ρ c) (ix1 j))
  rw [e0, e1, e2, e3, e4]
  rfl

/-- THE SECOND LAYER: from `z1` at the boundary after the first normalising region to `z2` at the boundary after
    the second. -/
theorem l2_z2_of_z1
    (hz1 : Cert.Cur.cur2 (n0 := 262144) (n1 := 64) (W6 m ρ c (Proc.devRef .tc main_v58)) = Cert.Net.z1 Cert.Spec.lnK (argsAt m c)) :
    Cert.Cur.cur2 (n0 := 262144) (n1 := 64) (W11 m ρ c (Proc.devRef .tc main_v89)) = Cert.Net.z2 Cert.Spec.lnK (argsAt m c) :=
  k_z2 m ρ c (k_y2 m ρ c (k_h2 m ρ c hz1)) (k_s2 m ρ c (k_h2 m ρ c hz1)) (k_q2 m ρ c (k_h2 m ρ c hz1))

end Cert.KernelIdeal.KVal

end
-- ==== Proof.Reg6.lean ====
/- Region 6 of the kernel: a linear layer of hidden width.  Every grid point t multiplies rows 8192·t … 8192·t + 8191 of the
   input array [262144, 64] by the whole weight array [64, 64] (a matrix product into a zero accumulator, the change
   of float format being the identity on extended reals) and writes the 8192 × 64 result back as the same rows of the
   output array.  So the output array is, entry by entry, the sum over the 64 contraction positions of input times
   weight, whatever the arrays held when the region was entered. -/
import proofs.«167728_j48945447305605_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Reg6

open Idealize.ShloMosaic Idealize.ShloMosaic.TcCoe Cert.KernelIdeal Cert.KernelIdeal.Gen
open Idealize.ShloMosaic.Pipeline (Dat)
open Idealize.ShloMosaic.ValueIdx

/-- The zero offset of a whole-block access. -/
theorem hz : (![0, 0] : Fin 2 → Nat) = fun _ => 0 := funext fun a => by fin_cases a <;> rfl

/-! ## The body's arithmetic at an index -/

/-- The product's operand positions, axis by axis, at any output entry and contraction position: the left operand's row
    is the output's row, its column the contraction position; the right operand's row is the contraction position, its
    column the output's column. -/
theorem lhs0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide),
    dif_pos (show (0 : Fin S8192x64.rank) ∈ dot_S8192x64_S64x64_S8192x64_1_0_0_1_n_n.lhsNonContracting by decide)]
  rfl
theorem lhs1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem rhs0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem rhs1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide),
    dif_pos (show (1 : Fin S64x64.rank) ∈ dot_S8192x64_S64x64_S8192x64_1_0_0_1_n_n.rhsNonContracting by decide)]
  rfl

/-- The body's stored value at entry (p, q) of its block: the sum over the 64 contraction positions of the input
    block's row p times the weight's column q (the cast to the same shape and the change of float format are the identity on
    extended reals, and the accumulator is zero). -/
theorem pay (x : Vec Ideal S8192x64 .f32) (w : Vec Ideal S64x64 .f32) (p : Fin 8192) (q : Fin 64) :
    k6_pay1 (F := Ideal) x w (ix2 p q) = ∑ k : Fin 64, x (ix2 p k) * w (ix2 k q) := by
  unfold k6_pay1
  refine (Ideal.matmul_constant_zero_apply dot_S8192x64_S64x64_S8192x64_1_0_0_1_n_n none _ _ (ix2 p q)).trans ?_
  rw [← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 p q) ((contrEquiv1 dot_S8192x64_S64x64_S8192x64_1_0_0_1_n_n 64 rfl rfl).symm k) = ix2 p k :=
    funext fun a => Fin.ext (by
      match a with
      | ⟨0, _⟩ => exact lhs0 _ _
      | ⟨1, _⟩ => exact (lhs1 _ _).trans hk)
  have er : dot_S8192x64_S64x64_S8192x64_1_0_0_1_n_n.rhsIdx (ix2 p q) ((contrEquiv1 dot_S8192x64_S64x64_S8192x64_1_0_0_1_n_n 64 rfl rfl).symm k) = ix2 k q :=
    funext fun a => Fin.ext (by
      match a with
      | ⟨0, _⟩ => exact (rhs0 _ _).trans hk
      | ⟨1, _⟩ => exact rhs1 _ _)
  rw [el, er]
  exact congrArg (· * w (ix2 k q)) (congrFun (shapeCast_self x shapeCasts_S8192x64_S8192x64) (ix2 p k))

/-! ## From the blocks to the array -/

/-- The output array as one function of the two input arrays. -/
def G (a0 : S262144x64.Idx → EReal) (a1 : S64x64.Idx → EReal) : S262144x64.Idx → EReal :=
  fun i => ∑ k : Fin 64, a0 (ix2 (n0 := 262144) (i 0) k) * a1 (ix2 (n1 := 64) k (i 1))

theorem G_apply (a0 : S262144x64.Idx → EReal) (a1 : S64x64.Idx → EReal) (i : Fin 262144) (j : Fin 64) :
    G a0 a1 (ix2 i j) = ∑ k : Fin 64, a0 (ix2 i k) * a1 (ix2 k j) := rfl

/-- Where the windows' blocks sit at each of the 32 grid points: the input block and the output block at block row t,
    the weight block at the origin. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

variable (V : (c : Dev nD) → (b : Ref sig .tc) → Buf (Elt Ideal) ((c : Thread nD τ).loc b))

/-- The input block at point t is rows 8192·t … 8192·t + 8191 of the input array. -/
theorem blk0_apply (c : Dev nD) (t : Fin cfg6.N) (p : Fin 8192) (k : Fin 64) (r : Fin 262144)
    (hr : r.val = 8192 * t.val + p.val) :
    (iblk6 V c 0 t : Vec Ideal S8192x64 .f32) (ix2 p k)
      = (V c (Pipeline.arrRef spec6 0) : S262144x64.Idx → EReal) (ix2 r k) := by
  obtain ⟨e0, e1, -⟩ := idx_facts t
  unfold iblk6
  rw [View.read_apply]
  show (V c (Pipeline.arrRef spec6 0) : S262144x64.Idx → EReal) _ = _
  refine congrArg (V c (Pipeline.arrRef spec6 0) : S262144x64.Idx → EReal) (funext fun a => Fin.ext ?_)
  match a with
  | ⟨0, _⟩ => show win6_0.index t (0 : Fin 2) * 8192 + 1 * p.val = r.val; rw [e0, hr]; omega
  | ⟨1, _⟩ => show win6_0.index t (1 : Fin 2) * 64 + 1 * k.val = k.val; rw [e1]; omega

/-- The weight block at every point is the whole weight array. -/
theorem blk1_apply (c : Dev nD) (t : Fin cfg6.N) (k : Fin 64) (q : Fin 64) :
    (iblk6 V c 1 t : Vec Ideal S64x64 .f32) (ix2 k q)
      = (V c (Pipeline.arrRef spec6 1) : S64x64.Idx → EReal) (ix2 k q) := by
  obtain ⟨-, -, e0, e1, -⟩ := idx_facts t
  unfold iblk6
  rw [View.read_apply]
  show (V c (Pipeline.arrRef spec6 1) : S64x64.Idx → EReal) _ = _
  refine congrArg (V c (Pipeline.arrRef spec6 1) : S64x64.Idx → EReal) (funext fun a => Fin.ext ?_)
  match a with
  | ⟨0, _⟩ => show win6_1.index t (0 : Fin 2) * 64 + 1 * k.val = k.val; rw [e0]; omega
  | ⟨1, _⟩ => show win6_1.index t (1 : Fin 2) * 64 + 1 * q.val = q.val; rw [e1]; omega

/-- Entry (p, q) of the output block at point t is entry (8192·t + p, q) of the output array. -/
theorem emb2 (t : Fin cfg6.N) (p : Fin 8192) (q : Fin 64) (r : Fin 262144) (hr : r.val = 8192 * t.val + p.val) :
    ((cfg6.win 2).blk t).view.emb (ix2 p q) = (ix2 r q : S262144x64.Idx) := by
  obtain ⟨-, -, -, -, e0, e1⟩ := idx_facts t
  refine funext fun a => Fin.ext ?_
  match a with
  | ⟨0, _⟩ => show win6_2.index t (0 : Fin 2) * 8192 + 1 * p.val = r.val; rw [e0, hr]; omega
  | ⟨1, _⟩ => show win6_2.index t (1 : Fin 2) * 64 + 1 * q.val = q.val; rw [e1]; omega

/-- What point t writes back is block t of G of the arrays as the region finds them. -/
theorem flushed_eq (c : Dev nD) (t : Fin cfg6.N) :
    (dat6 V c).flushed 2 t = ((cfg6.win 2).blk t).view.read (Elt Ideal)
      (G (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S8192x64) hz, View.ld_unit_zero (S := S64x64) hz]
  funext j
  obtain ⟨p, q, rfl⟩ : ∃ (p : Fin 8192) (q : Fin 64), j = ix2 p q := ⟨j 0, j 1, eq_ix2 j⟩
  have ht : t.val < 32 := Nat.lt_of_lt_of_eq t.isLt N_6
  obtain ⟨r, hr⟩ : ∃ r : Fin 262144, r.val = 8192 * t.val + p.val := ⟨⟨8192 * t.val + p.val, by omega⟩, rfl⟩
  show k6_pay1 (iblk6 V c 0 t) (iblk6 V c 1 t) (ix2 p q)
    = G (V c (Pipeline.arrRef spec6 0)) (V c (Pipeline.arrRef spec6 1)) (((cfg6.win 2).blk t).view.emb (ix2 p q))
  rw [emb2 t p q r hr, G_apply]
  refine (pay _ _ p q).trans ?_
  refine Finset.sum_congr rfl fun k _ => ?_
  rw [blk0_apply V c t p k r hr, blk1_apply V c t k q]

/-- An index of the output array is in point t's block iff each coordinate is in the block's range on its axis. -/
theorem mem_blk (t : Fin cfg6.N) (i : S262144x64.Idx) :
    i ∈ ((cfg6.win 2).blk t).view.set ↔ ∀ a : Fin 2, win6_2.index t a * S8192x64.size a ≤ (i a).val
      ∧ (i a).val < win6_2.index t a * S8192x64.size a + S8192x64.size a := by
  show i ∈ ((View.whole main_v90).slice (win6_2.rect t)).set ↔ _
  rw [View.set_slice_whole, Rect.mem_set_unit]
  exact Iff.rfl

/-- Every row of the output array is in the block of the point its row number divided by 8192 names. -/
theorem cover (i : S262144x64.Idx) :
    ∃ t : Fin cfg6.N, (cfg6.win 2).flush t = true ∧ i ∈ ((cfg6.win 2).blk t).view.set := by
  have hi0 : (i 0).val < 262144 := (i 0).isLt
  have hi1 : (i 1).val < 64 := (i 1).isLt
  have hN : cfg6.N = 32 := N_6
  obtain ⟨t, tv⟩ : ∃ t : Fin cfg6.N, t.val = (i 0).val / 8192 := ⟨⟨(i 0).val / 8192, by rw [hN]; omega⟩, rfl⟩
  obtain ⟨-, -, -, -, e0, e1⟩ := idx_facts t
  refine ⟨t, flush6_2 t, ?_⟩
  rw [mem_blk]
  intro a
  match a with
  | ⟨0, _⟩ =>
    show win6_2.index t (0 : Fin 2) * 8192 ≤ (i 0).val ∧ (i 0).val < win6_2.index t (0 : Fin 2) * 8192 + 8192
    rw [e0, tv]; omega
  | ⟨1, _⟩ =>
    show win6_2.index t (1 : Fin 2) * 64 ≤ (i 1).val ∧ (i 1).val < win6_2.index t (1 : Fin 2) * 64 + 64
    rw [e1]; omega

/-- The output array after the region is G of the input arrays as the region found them. -/
theorem final (c : Dev nD) :
    (dat6 V c).arrAt 2 cfg6.N = G (V c (Pipeline.arrRef spec6 0)) (V c (Pipeline.arrRef spec6 1)) :=
  (dat6 V c).arrAt_eq_of_cover 2 _ (fun t _ => flushed_eq V c t) cover

/-- Entry (i, j) of the output array the region leaves: the sum over the 64 positions k of input entry (i, k) times
    weight entry (k, j), whatever the arrays held when the region was entered (a0, a1 name the two input arrays as the
    region finds them). -/
theorem out (V : (c : Dev nD) → (b : Ref sig .tc) → Buf (Elt Ideal) ((c : Thread nD τ).loc b)) (c : Dev nD)
    (a0 : S262144x64.Idx → EReal) (a1 : S64x64.Idx → EReal)
    (h0 : V c (Pipeline.arrRef spec6 0) = a0) (h1 : V c (Pipeline.arrRef spec6 1) = a1)
    (i : Fin 262144) (j : Fin 64) :
    (dat6 (F := Ideal) V c).arrAt 2 cfg6.N (ValueIdx.ix2 i j)
      = ∑ k : Fin 64, a0 (ValueIdx.ix2 i k) * a1 (ValueIdx.ix2 k j) := by
  subst h0 h1
  rw [final V c]
  rfl

end Cert.KernelIdeal.Reg6

end
-- ==== Proof.Reg7.lean ====
/-
  The value of a statistics region of the kernel, read at the extended reals and at arbitrary contents of the
  buffers when the region is entered.

  The region walks the 262144 nodes in 32 blocks of 8192 rows. At each block it forms
      y = agg + h * dis2 + b          (agg, h : [262144, 64]; dis2 : [262144, 1] a column; b : [1, 64] a row)
  stores that block of y, and adds the block's total of y and of y * y (a sum along the 64 lanes, then down the 8192
  rows) to two [1, 1] accumulators, which are set to zero before the first block and written back after the last.

  Hence after the region: the y array holds y at every node and feature; the two [1, 1] arrays hold
  Σ_i Σ_j y i j and Σ_i Σ_j y i j * y i j. Only commutativity and associativity of addition on the extended reals are
  used (the running totals are regrouped from "block by block" to "row by row"), so no finiteness is needed.

  The steps: the body's arithmetic at an index; a block's element (r, j) of point t is row 8192 * t + r of the array;
  what each of the two cases of the body (first point, later points) leaves in its three output buffers; by
  induction on the point, the accumulators after point n hold the totals of blocks 0 … n; the blocks written back
  cover the arrays.
-/
import proofs.«167728_j48945447305605_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

open scoped BigOperators

noncomputable section
namespace Cert.KernelIdeal.Reg7
open Idealize.ShloMosaic Idealize.ShloMosaic.TcCoe Cert.KernelIdeal Cert.KernelIdeal.Gen
open Idealize.ShloMosaic.ValueIdx
open Idealize.ShloMosaic.Pipeline (Dat)

/-! ## Two layout steps of the body, read at an index -/

/-- A column [a,1] broadcast along the lanes to [a,b] reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column [a,1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-! ## The body's arithmetic at an index -/

/-- The stored block at (r, j): agg + h * dis2 + b, the column dis2 and the row b broadcast. -/
theorem pay3_apply (v3 v5 : Vec Ideal S8192x64 .f32) (v7 : Vec Ideal S8192x1 .f32) (v12 : Vec Ideal S1x64 .f32)
    (r : Fin 8192) (j : Fin 64) :
    k7_pay3 (F := Ideal) v3 v5 v7 v12 (ix2 r j)
      = v3 (ix2 r j) + v5 (ix2 r j) * v7 (ix2 r (0 : Fin 1)) + v12 (ix2 (0 : Fin 1) j) := by
  unfold k7_pay3
  simp only [shapeCast_self]
  rw [addf_apply, addf_apply, mulf_apply, broadcastTo_a1_ab_apply, broadcastTo_1b_ab_apply]

/-- The lane sum (axis 1) followed by the sum down the rows (axis 0), both kept as unit axes, of a block is the
    block's total: the sum over its rows of the sum over its lanes. -/
theorem blockTotal (x : FVec Ideal S8192x64 .f32)
    (h1 : S8192x64.Reduces [1] S8192) (c1 : S8192.ShapeCasts S8192x1) (h0 : S8192x1.Reduces [0] S1)
    (c0 : S1.ShapeCasts S1x1) (hφ : FKind.Formats .f32)
    (hacc : (0x00000000#32 : BitVec 32) = FKind.add.neutral .f32 hφ) :
    shapeCast S1x1 (multiReduction .add [0] S1
        (shapeCast S8192x1 (multiReduction .add [1] S8192 x 0x00000000#32 h1 hφ hacc) c1) 0x00000000#32 h0 hφ hacc) c0
        (ix2 (0 : Fin 1) (0 : Fin 1))
      = ∑ r : Fin 8192, ∑ j : Fin 64, x (ix2 r j) := by
  refine (shapeCast_a_1a_apply _ c0 0 0).trans ?_
  refine (Ideal.multiReduction_add_single _ _ h0 hφ hacc (ix1 0)).trans ?_
  show ∑ r : Fin 8192, _ = _
  refine Finset.sum_congr rfl fun r _ => ?_
  have e : h0.lift (ix1 (0 : Fin 1)) r = ix2 r (0 : Fin 1) := by
    funext a; apply Fin.ext
    match a with
    | ⟨0, _⟩ => rfl
    | ⟨1, _⟩ => rfl
  rw [e]
  refine (shapeCast_a_a1_apply _ c1 r 0).trans ?_
  refine (Ideal.multiReduction_add_single x _ h1 hφ hacc (ix1 r)).trans ?_
  show ∑ j : Fin 64, _ = _
  refine Finset.sum_congr rfl fun j _ => ?_
  refine congrArg x ?_
  funext a; apply Fin.ext
  match a with
  | ⟨0, _⟩ => rfl
  | ⟨1, _⟩ => rfl

/-- The value an accumulator is reset to at the first point: zero. -/
theorem pay1_apply (i : S1x1.Idx) : k7_pay1 (F := Ideal) i = 0 := Ideal.ofBits_zero_f32
theorem pay2_apply (i : S1x1.Idx) : k7_pay2 (F := Ideal) i = 0 := Ideal.ofBits_zero_f32

/-- The sum accumulator after a point: what it held plus the block's total. -/
theorem pay4_apply (v3 v5 : Vec Ideal S8192x64 .f32) (v7 : Vec Ideal S8192x1 .f32) (v12 : Vec Ideal S1x64 .f32)
    (v26 : Vec Ideal S1x1 .f32) :
    k7_pay4 (F := Ideal) v3 v5 v7 v12 v26 (ix2 (0 : Fin 1) (0 : Fin 1))
      = v26 (ix2 (0 : Fin 1) (0 : Fin 1)) + ∑ r : Fin 8192, ∑ j : Fin 64, k7_pay3 (F := Ideal) v3 v5 v7 v12 (ix2 r j) := by
  unfold k7_pay4
  simp only [shapeCast_self]
  rw [addf_apply]
  exact congrArg (v26 (ix2 (0 : Fin 1) (0 : Fin 1)) + ·) (blockTotal _ _ _ _ _ _ _)

/-- The sum-of-squares accumulator after a point: what it held plus the total of the block's squares. -/
theorem pay5_apply (v3 v5 : Vec Ideal S8192x64 .f32) (v7 : Vec Ideal S8192x1 .f32) (v12 : Vec Ideal S1x64 .f32)
    (v30 : Vec Ideal S1x1 .f32) :
    k7_pay5 (F := Ideal) v3 v5 v7 v12 v30 (ix2 (0 : Fin 1) (0 : Fin 1))
      = v30 (ix2 (0 : Fin 1) (0 : Fin 1))
        + ∑ r : Fin 8192, ∑ j : Fin 64,
            k7_pay3 (F := Ideal) v3 v5 v7 v12 (ix2 r j) * k7_pay3 (F := Ideal) v3 v5 v7 v12 (ix2 r j) := by
  unfold k7_pay5
  simp only [shapeCast_self]
  rw [addf_apply]
  exact congrArg (v30 (ix2 (0 : Fin 1) (0 : Fin 1)) + ·) (blockTotal _ _ _ _ _ _ _)

/-! ## Regrouping the rows -/

/-- Thirty-two blocks of 8192 rows are the 262144 rows: a sum block by block is the sum over all rows. -/
theorem sum_regroup {M : Type*} [AddCommMonoid M] (f : ℕ → M) :
    ∑ t ∈ Finset.range 32, ∑ r : Fin 8192, f (8192 * t + r.val) = ∑ i : Fin 262144, f i.val := by
  rw [Finset.sum_range fun t => ∑ r : Fin 8192, f (8192 * t + r.val)]
  show _ = ∑ i : Fin (32 * 8192), f i.val
  rw [← Equiv.sum_comp finProdFinEquiv, Fintype.sum_prod_type]
  refine Finset.sum_congr rfl fun t _ => Finset.sum_congr rfl fun r _ => ?_
  rw [finProdFinEquiv_apply_val, Nat.add_comm]

/-! ## The blocks of the seven windows -/

theorem hN : cfg7.N = 32 := N_7

/-- The printed index maps over the grid: the row-tiled windows sit at block (t, 0), the small operands at (0, 0). -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0 :=
  (by decide +kernel : ∀ t : Fin grid7.N, _)

/-- Row r of block t is row 8192·t + r of the array. -/
def row (t : Fin cfg7.N) (r : Fin 8192) : Fin 262144 :=
  ⟨8192 * t.val + r.val, by have h := t.isLt; have := hN; have := r.isLt; omega⟩

theorem read_blk0 (X : S262144x64.Idx → Ideal .f32) (t : Fin cfg7.N) (r : Fin 8192) (j : Fin 64) :
    ((cfg7.win 0).blk t).view.read (Elt Ideal) X (ix2 r j) = X (ix2 (row t r) j) := by
  obtain ⟨e0, e1, -⟩ := idx_facts t
  show X (((cfg7.win 0).blk t).view.emb (ix2 r j)) = X (ix2 (row t r) j)
  refine congrArg X ?_
  funext a; apply Fin.ext
  match a with
  | ⟨0, _⟩ => show win7_0.index t (0 : Fin 2) * 8192 + 1 * r.val = 8192 * t.val + r.val; omega
  | ⟨1, _⟩ => show win7_0.index t (1 : Fin 2) * 64 + 1 * j.val = j.val; omega

theorem read_blk1 (X : S262144x64.Idx → Ideal .f32) (t : Fin cfg7.N) (r : Fin 8192) (j : Fin 64) :
    ((cfg7.win 1).blk t).view.read (Elt Ideal) X (ix2 r j) = X (ix2 (row t r) j) := by
  obtain ⟨-, -, e0, e1, -⟩ := idx_facts t
  show X (((cfg7.win 1).blk t).view.emb (ix2 r j)) = X (ix2 (row t r) j)
  refine congrArg X ?_
  funext a; apply Fin.ext
  match a with
  | ⟨0, _⟩ => show win7_1.index t (0 : Fin 2) * 8192 + 1 * r.val = 8192 * t.val + r.val; omega
  | ⟨1, _⟩ => show win7_1.index t (1 : Fin 2) * 64 + 1 * j.val = j.val; omega

theorem read_blk2 (X : S262144x1.Idx → Ideal .f32) (t : Fin cfg7.N) (r : Fin 8192) :
    ((cfg7.win 2).blk t).view.read (Elt Ideal) X (ix2 r (0 : Fin 1)) = X (ix2 (row t r) (0 : Fin 1)) := by
  obtain ⟨-, -, -, -, e0, e1, -⟩ := idx_facts t
  show X (((cfg7.win 2).blk t).view.emb (ix2 r (0 : Fin 1))) = X (ix2 (row t r) (0 : Fin 1))
  refine congrArg X ?_
  funext a; apply Fin.ext
  match a with
  | ⟨0, _⟩ => show win7_2.index t (0 : Fin 2) * 8192 + 1 * r.val = 8192 * t.val + r.val; omega
  | ⟨1, _⟩ => show win7_2.index t (1 : Fin 2) * 1 + 1 * 0 = 0; omega

theorem read_blk3 (X : S1x64.Idx → Ideal .f32) (t : Fin cfg7.N) (j : Fin 64) :
    ((cfg7.win 3).blk t).view.read (Elt Ideal) X (ix2 (0 : Fin 1) j) = X (ix2 (0 : Fin 1) j) := by
  obtain ⟨-, -, -, -, -, -, e0, e1, -⟩ := idx_facts t
  show X (((cfg7.win 3).blk t).view.emb (ix2 (0 : Fin 1) j)) = X (ix2 (0 : Fin 1) j)
  refine congrArg X ?_
  funext a; apply Fin.ext
  match a with
  | ⟨0, _⟩ => show win7_3.index t (0 : Fin 2) * 1 + 1 * 0 = 0; omega
  | ⟨1, _⟩ => show win7_3.index t (1 : Fin 2) * 64 + 1 * j.val = j.val; omega

theorem emb_blk4 (t : Fin cfg7.N) (r : Fin 8192) (j : Fin 64) :
    ((cfg7.win 4).blk t).view.emb (ix2 r j) = (ix2 (row t r) j : S262144x64.Idx) := by
  obtain ⟨-, -, -, -, -, -, -, -, e0, e1, -⟩ := idx_facts t
  funext a; apply Fin.ext
  match a with
  | ⟨0, _⟩ => show win7_4.index t (0 : Fin 2) * 8192 + 1 * r.val = 8192 * t.val + r.val; omega
  | ⟨1, _⟩ => show win7_4.index t (1 : Fin 2) * 64 + 1 * j.val = j.val; omega

/-- An index of the y array is in point t's block iff each coordinate is in the block's range on its axis. -/
theorem mem_blk4 (t : Fin cfg7.N) (i : S262144x64.Idx) :
    i ∈ ((cfg7.win 4).blk t).view.set ↔ ∀ a : Fin 2, win7_4.index t a * S8192x64.size a ≤ (i a).val
      ∧ (i a).val < win7_4.index t a * S8192x64.size a + S8192x64.size a := by
  show i ∈ ((View.whole main_v105_0).slice (win7_4.rect t)).set ↔ _
  rw [View.set_slice_whole, Rect.mem_set_unit]
  exact Iff.rfl

/-- Row i of the y array is written back by point i / 8192. -/
theorem cover4 (i : S262144x64.Idx) :
    ∃ t : Fin cfg7.N, (cfg7.win 4).flush t = true ∧ i ∈ ((cfg7.win 4).blk t).view.set := by
  have hi0 : (i 0).val < 262144 := (i 0).isLt
  have hi1 : (i 1).val < 64 := (i 1).isLt
  have ht : (i 0).val / 8192 < cfg7.N := by rw [hN]; omega
  refine ⟨⟨(i 0).val / 8192, ht⟩, flush7_4 _, ?_⟩
  rw [mem_blk4]
  obtain ⟨-, -, -, -, -, -, -, -, e0, e1, -⟩ := idx_facts ⟨(i 0).val / 8192, ht⟩
  intro a
  match a with
  | ⟨0, _⟩ =>
    show win7_4.index ⟨(i 0).val / 8192, ht⟩ (0 : Fin 2) * 8192 ≤ (i 0).val
      ∧ (i 0).val < win7_4.index ⟨(i 0).val / 8192, ht⟩ (0 : Fin 2) * 8192 + 8192
    rw [e0]; show (i 0).val / 8192 * 8192 ≤ (i 0).val ∧ (i 0).val < (i 0).val / 8192 * 8192 + 8192; omega
  | ⟨1, _⟩ =>
    show win7_4.index ⟨(i 0).val / 8192, ht⟩ (1 : Fin 2) * 64 ≤ (i 1).val
      ∧ (i 1).val < win7_4.index ⟨(i 0).val / 8192, ht⟩ (1 : Fin 2) * 64 + 64
    rw [e1]; omega

/-- The last grid point, the one that writes the two accumulators back. -/
def tlast : Fin cfg7.N := ⟨31, by rw [hN]; decide⟩

theorem mem_blk5 (t : Fin cfg7.N) (i : S1x1.Idx) :
    i ∈ ((cfg7.win 5).blk t).view.set ↔ ∀ a : Fin 2, win7_5.index t a * S1x1.size a ≤ (i a).val
      ∧ (i a).val < win7_5.index t a * S1x1.size a + S1x1.size a := by
  show i ∈ ((View.whole main_v105_1).slice (win7_5.rect t)).set ↔ _
  rw [View.set_slice_whole, Rect.mem_set_unit]
  exact Iff.rfl

theorem mem_blk6 (t : Fin cfg7.N) (i : S1x1.Idx) :
    i ∈ ((cfg7.win 6).blk t).view.set ↔ ∀ a : Fin 2, win7_6.index t a * S1x1.size a ≤ (i a).val
      ∧ (i a).val < win7_6.index t a * S1x1.size a + S1x1.size a := by
  show i ∈ ((View.whole main_v105_2).slice (win7_6.rect t)).set ↔ _
  rw [View.set_slice_whole, Rect.mem_set_unit]
  exact Iff.rfl

theorem cover5 (i : S1x1.Idx) :
    ∃ t : Fin cfg7.N, (cfg7.win 5).flush t = true ∧ i ∈ ((cfg7.win 5).blk t).view.set := by
  have hi0 : (i 0).val < 1 := (i 0).isLt
  have hi1 : (i 1).val < 1 := (i 1).isLt
  refine ⟨tlast, (flush7_5 tlast).mpr rfl, ?_⟩
  rw [mem_blk5]
  obtain ⟨-, -, -, -, -, -, -, -, -, -, e0, e1, -⟩ := idx_facts tlast
  intro a
  match a with
  | ⟨0, _⟩ =>
    show win7_5.index tlast (0 : Fin 2) * 1 ≤ (i 0).val ∧ (i 0).val < win7_5.index tlast (0 : Fin 2) * 1 + 1
    rw [e0]; omega
  | ⟨1, _⟩ =>
    show win7_5.index tlast (1 : Fin 2) * 1 ≤ (i 1).val ∧ (i 1).val < win7_5.index tlast (1 : Fin 2) * 1 + 1
    rw [e1]; omega

theorem cover6 (i : S1x1.Idx) :
    ∃ t : Fin cfg7.N, (cfg7.win 6).flush t = true ∧ i ∈ ((cfg7.win 6).blk t).view.set := by
  have hi0 : (i 0).val < 1 := (i 0).isLt
  have hi1 : (i 1).val < 1 := (i 1).isLt
  refine ⟨tlast, (flush7_6 tlast).mpr rfl, ?_⟩
  rw [mem_blk6]
  obtain ⟨-, -, -, -, -, -, -, -, -, -, -, -, e0, e1⟩ := idx_facts tlast
  intro a
  match a with
  | ⟨0, _⟩ =>
    show win7_6.index tlast (0 : Fin 2) * 1 ≤ (i 0).val ∧ (i 0).val < win7_6.index tlast (0 : Fin 2) * 1 + 1
    rw [e0]; omega
  | ⟨1, _⟩ =>
    show win7_6.index tlast (1 : Fin 2) * 1 ≤ (i 1).val ∧ (i 1).val < win7_6.index tlast (1 : Fin 2) * 1 + 1
    rw [e1]; omega

/-! ## What each case of the body leaves in its three output buffers

The body stores the block of y whole at every point; at the first point it first zeroes the two accumulators; at
every point it reads each accumulator back and stores it increased by the block's total. -/

theorem hz : (![0, 0] : Fin 2 → Nat) = fun _ => 0 := funext fun a => by fin_cases a <;> rfl

section Pieces
variable (c : Dev nD) (i : grid7.Coords)
  (a1 : Memref sig .tc .vmem S8192x64 .f32) (h1 : a1.IsWhole) (a2 : Memref sig .tc .vmem S8192x64 .f32) (h2 : a2.IsWhole)
  (a3 : Memref sig .tc .vmem S8192x1 .f32) (h3 : a3.IsWhole) (a4 : Memref sig .tc .vmem S1x64 .f32) (h4 : a4.IsWhole)
  (a5 : Memref sig .tc .vmem S8192x64 .f32) (h5 : a5.IsWhole) (a6 : Memref sig .tc .vmem S1x1 .f32) (h6 : a6.IsWhole)
  (a7 : Memref sig .tc .vmem S1x1 .f32) (h7 : a7.IsWhole)
  (x0 x1 : Vec Ideal S8192x64 .f32) (x2 : Vec Ideal S8192x1 .f32) (x3 : Vec Ideal S1x64 .f32)

/-- At a later point the y buffer holds the block of y. -/
theorem out_B_4 (hc : ¬cond7_0 i) (xo5 xo6 : Vec Ideal S1x1 .f32) :
    out7_B_4 (F := Ideal) c i a1 h1 a2 h2 a3 h3 a4 h4 a5 h5 a6 h6 a7 h7 hc x0 x1 x2 x3 xo5 xo6
      = k7_pay3 (F := Ideal) x0 x1 x2 x3 := by
  unfold out7_B_4
  rw [View.read_writes_eq_canon _ _ _ (cover7_B_4 c i a1 h1 a2 h2 a3 h3 a4 h4 a5 h5 a6 h6 a7 h7 hc x0 x1 x2 x3 xo5 xo6)]
  unfold kernelRun7_B
  dsimp only
  rw [View.canon_unit_zero hz]
  simp only [View.readAt_eq_ld, h1.read_unread, h2.read_unread, h3.read_unread, h4.read_unread,
    View.ld_unit_zero (S := S8192x64) hz, View.ld_unit_zero (S := S8192x1) hz, View.ld_unit_zero (S := S1x64) hz]

/-- At a later point the sum accumulator holds what it held, increased by the block's total. -/
theorem out_B_5 (hc : ¬cond7_0 i) (xo5 xo6 : Vec Ideal S1x1 .f32) :
    out7_B_5 (F := Ideal) c i a1 h1 a2 h2 a3 h3 a4 h4 a5 h5 a6 h6 a7 h7 hc x0 x1 x2 x3 xo5 xo6
      = k7_pay4 (F := Ideal) x0 x1 x2 x3 xo5 := by
  unfold out7_B_5
  rw [View.read_writes_eq_canon _ _ _ (cover7_B_5 c i a1 h1 a2 h2 a3 h3 a4 h4 a5 h5 a6 h6 a7 h7 hc x0 x1 x2 x3 xo5 xo6)]
  unfold kernelRun7_B
  dsimp only
  rw [View.canon_unit_zero hz]
  simp only [View.readAt_eq_ld, h1.read_unread, h2.read_unread, h3.read_unread, h4.read_unread, h6.read_unread,
    h7.read_unread, View.ld_unit_zero (S := S8192x64) hz, View.ld_unit_zero (S := S8192x1) hz,
    View.ld_unit_zero (S := S1x64) hz, View.ld_unit_zero (S := S1x1) hz]

/-- At a later point the sum-of-squares accumulator likewise. -/
theorem out_B_6 (hc : ¬cond7_0 i) (xo5 xo6 : Vec Ideal S1x1 .f32) :
    out7_B_6 (F := Ideal) c i a1 h1 a2 h2 a3 h3 a4 h4 a5 h5 a6 h6 a7 h7 hc x0 x1 x2 x3 xo5 xo6
      = k7_pay5 (F := Ideal) x0 x1 x2 x3 xo6 := by
  unfold out7_B_6
  rw [View.read_writes_eq_canon _ _ _ (cover7_B_6 c i a1 h1 a2 h2 a3 h3 a4 h4 a5 h5 a6 h6 a7 h7 hc x0 x1 x2 x3 xo5 xo6)]
  unfold kernelRun7_B
  dsimp only
  sl_unfold_words
  rw [View.canon_unit_zero hz]
  simp only [View.readAt_eq_ld, h1.read_unread, h2.read_unread, h3.read_unread, h4.read_unread, h6.read_unread,
    h7.read_unread, View.ld_unit_zero (S := S8192x64) hz, View.ld_unit_zero (S := S8192x1) hz,
    View.ld_unit_zero (S := S1x64) hz, View.ld_unit_zero (S := S1x1) hz]

/-- At the first point the y buffer holds the block of y. -/
theorem out_A_4 (hc : cond7_0 i) :
    out7_A_4 (F := Ideal) c i a1 h1 a2 h2 a3 h3 a4 h4 a5 h5 a6 h6 a7 h7 hc x0 x1 x2 x3
      = k7_pay3 (F := Ideal) x0 x1 x2 x3 := by
  unfold out7_A_4
  rw [View.read_writes_eq_canon _ _ _ (cover7_A_4 c i a1 h1 a2 h2 a3 h3 a4 h4 a5 h5 a6 h6 a7 h7 hc x0 x1 x2 x3)]
  unfold kernelRun7_A
  dsimp only
  rw [View.canon_unit_zero hz]
  simp only [View.readAt_eq_ld, h1.read_unread, h2.read_unread, h3.read_unread, h4.read_unread,
    View.ld_unit_zero (S := S8192x64) hz, View.ld_unit_zero (S := S8192x1) hz, View.ld_unit_zero (S := S1x64) hz]

/-- At the first point the sum accumulator, zeroed and read back, holds zero increased by the block's total. -/
theorem out_A_5 (hc : cond7_0 i) :
    out7_A_5 (F := Ideal) c i a1 h1 a2 h2 a3 h3 a4 h4 a5 h5 a6 h6 a7 h7 hc x0 x1 x2 x3
      = k7_pay4 (F := Ideal) x0 x1 x2 x3 (k7_pay1 (F := Ideal)) := by
  unfold out7_A_5
  rw [View.read_writes_eq_canon _ _ _ (cover7_A_5 c i a1 h1 a2 h2 a3 h3 a4 h4 a5 h5 a6 h6 a7 h7 hc x0 x1 x2 x3)]
  unfold kernelRun7_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S8192x64) hz, View.ld_unit_zero (S := S8192x1) hz, View.ld_unit_zero (S := S1x64) hz]

/-- At the first point the sum-of-squares accumulator likewise. -/
theorem out_A_6 (hc : cond7_0 i) :
    out7_A_6 (F := Ideal) c i a1 h1 a2 h2 a3 h3 a4 h4 a5 h5 a6 h6 a7 h7 hc x0 x1 x2 x3
      = k7_pay5 (F := Ideal) x0 x1 x2 x3 (k7_pay2 (F := Ideal)) := by
  unfold out7_A_6
  rw [View.read_writes_eq_canon _ _ _ (cover7_A_6 c i a1 h1 a2 h2 a3 h3 a4 h4 a5 h5 a6 h6 a7 h7 hc x0 x1 x2 x3)]
  unfold kernelRun7_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S8192x64) hz, View.ld_unit_zero (S := S8192x1) hz, View.ld_unit_zero (S := S1x64) hz]

end Pieces

/-! ## The region's value, at any entry contents -/

section Value
variable (V : (c : Dev nD) → (b : Ref sig .tc) → Buf (Elt Ideal) ((c : Thread nD τ).loc b))

/-- The four input arrays as the region finds them: agg, h [262144,64], dis2 [262144,1], b [1,64]. -/
abbrev arrA (c : Dev nD) : S262144x64.Idx → Ideal .f32 := V c (Pipeline.arrRef spec7 0)
abbrev arrH (c : Dev nD) : S262144x64.Idx → Ideal .f32 := V c (Pipeline.arrRef spec7 1)
abbrev arrD (c : Dev nD) : S262144x1.Idx → Ideal .f32 := V c (Pipeline.arrRef spec7 2)
abbrev arrB (c : Dev nD) : S1x64.Idx → Ideal .f32 := V c (Pipeline.arrRef spec7 3)

/-- y at node i, feature j: agg + h * dis2 + b. -/
def Y (c : Dev nD) (i : Fin 262144) (j : Fin 64) : EReal :=
  arrA V c (ix2 i j) + arrH V c (ix2 i j) * arrD V c (ix2 i (0 : Fin 1)) + arrB V c (ix2 (0 : Fin 1) j)

theorem Y_eq (c : Dev nD) (i : Fin 262144) (j : Fin 64) :
    Y V c i j = arrA V c (ix2 i j) + arrH V c (ix2 i j) * arrD V c (ix2 i (0 : Fin 1)) + arrB V c (ix2 (0 : Fin 1) j) := rfl

/-- The block of y that point t computes, entry (r, j), is y at row 8192·t + r. -/
theorem blk_apply (c : Dev nD) (t : Fin cfg7.N) (r : Fin 8192) (j : Fin 64) :
    k7_pay3 (F := Ideal) (iblk7 V c 0 t) (iblk7 V c 1 t) (iblk7 V c 2 t) (iblk7 V c 3 t) (ix2 r j)
      = Y V c (row t r) j := by
  rw [pay3_apply (iblk7 V c 0 t) (iblk7 V c 1 t) (iblk7 V c 2 t) (iblk7 V c 3 t) r j]
  unfold iblk7
  rw [read_blk0 (arrA V c) t r j, read_blk1 (arrH V c) t r j, read_blk2 (arrD V c) t r, read_blk3 (arrB V c) t j]
  rfl

/-- y continued by zero past the last row, so that block sums are indexed by plain naturals. -/
def Yn (c : Dev nD) (i : ℕ) (j : Fin 64) : EReal := if h : i < 262144 then Y V c ⟨i, h⟩ j else 0

theorem Yn_row (c : Dev nD) (t : Fin cfg7.N) (r : Fin 8192) (j : Fin 64) :
    Yn V c (8192 * t.val + r.val) j = Y V c (row t r) j := by
  have h : 8192 * t.val + r.val < 262144 := (row t r).isLt
  unfold Yn
  rw [dif_pos h]
  rfl

/-- Block t's total of y, and of y squared. -/
def bsum (c : Dev nD) (t : ℕ) : EReal := ∑ r : Fin 8192, ∑ j : Fin 64, Yn V c (8192 * t + r.val) j
def bsq (c : Dev nD) (t : ℕ) : EReal :=
  ∑ r : Fin 8192, ∑ j : Fin 64, Yn V c (8192 * t + r.val) j * Yn V c (8192 * t + r.val) j

theorem blk_sum (c : Dev nD) (t : Fin cfg7.N) :
    ∑ r : Fin 8192, ∑ j : Fin 64,
        k7_pay3 (F := Ideal) (iblk7 V c 0 t) (iblk7 V c 1 t) (iblk7 V c 2 t) (iblk7 V c 3 t) (ix2 r j)
      = bsum V c t.val := by
  unfold bsum
  refine Finset.sum_congr rfl fun r _ => Finset.sum_congr rfl fun j _ => ?_
  rw [blk_apply V c t r j, Yn_row V c t r j]

theorem blk_sq (c : Dev nD) (t : Fin cfg7.N) :
    ∑ r : Fin 8192, ∑ j : Fin 64,
        k7_pay3 (F := Ideal) (iblk7 V c 0 t) (iblk7 V c 1 t) (iblk7 V c 2 t) (iblk7 V c 3 t) (ix2 r j)
          * k7_pay3 (F := Ideal) (iblk7 V c 0 t) (iblk7 V c 1 t) (iblk7 V c 2 t) (iblk7 V c 3 t) (ix2 r j)
      = bsq V c t.val := by
  unfold bsq
  refine Finset.sum_congr rfl fun r _ => Finset.sum_congr rfl fun j _ => ?_
  rw [blk_apply V c t r j, Yn_row V c t r j]

/-! ### The three output buffers after each point -/

/-- Output 4's buffer after point t holds the block of y, in both cases. -/
theorem outs4 (c : Dev nD) (t : Fin cfg7.N) :
    (outsAt7 V c t.val t.isLt).1
      = k7_pay3 (F := Ideal) (iblk7 V c 0 t) (iblk7 V c 1 t) (iblk7 V c 2 t) (iblk7 V c 3 t) := by
  by_cases h0 : t.val % 32 = 0
  · rw [outsAt7_A V c t h0]
    dsimp only
    exact out_A_4 c (grid7.coords t) (ms7_0 t) (hs7_0 t) (ms7_1 t) (hs7_1 t) (ms7_2 t) (hs7_2 t) (ms7_3 t) (hs7_3 t)
      (ms7_4 t) (hs7_4 t) (ms7_5 t) (hs7_5 t) (ms7_6 t) (hs7_6 t)
      (iblk7 V c 0 t) (iblk7 V c 1 t) (iblk7 V c 2 t) (iblk7 V c 3 t) ((hcond7_0 t).mpr h0)
  · rw [outsAt7_B V c t h0]
    dsimp only
    exact out_B_4 c (grid7.coords t) (ms7_0 t) (hs7_0 t) (ms7_1 t) (hs7_1 t) (ms7_2 t) (hs7_2 t) (ms7_3 t) (hs7_3 t)
      (ms7_4 t) (hs7_4 t) (ms7_5 t) (hs7_5 t) (ms7_6 t) (hs7_6 t)
      (iblk7 V c 0 t) (iblk7 V c 1 t) (iblk7 V c 2 t) (iblk7 V c 3 t) (fun h => h0 ((hcond7_0 t).mp h))
      (outsAt7 V c (t.val - 1) (Nat.lt_of_le_of_lt (Nat.sub_le _ _) t.isLt)).2.1
      (outsAt7 V c (t.val - 1) (Nat.lt_of_le_of_lt (Nat.sub_le _ _) t.isLt)).2.2

/-- The sum accumulator after the first point: block 0's total. -/
theorem acc5_A (c : Dev nD) (t : Fin cfg7.N) (h0 : t.val % 32 = 0) :
    (outsAt7 V c t.val t.isLt).2.1 (ix2 (0 : Fin 1) (0 : Fin 1)) = bsum V c t.val := by
  rw [outsAt7_A V c t h0]
  dsimp only
  rw [out_A_5 c (grid7.coords t) (ms7_0 t) (hs7_0 t) (ms7_1 t) (hs7_1 t) (ms7_2 t) (hs7_2 t) (ms7_3 t) (hs7_3 t)
      (ms7_4 t) (hs7_4 t) (ms7_5 t) (hs7_5 t) (ms7_6 t) (hs7_6 t)
      (iblk7 V c 0 t) (iblk7 V c 1 t) (iblk7 V c 2 t) (iblk7 V c 3 t) ((hcond7_0 t).mpr h0),
    pay4_apply (iblk7 V c 0 t) (iblk7 V c 1 t) (iblk7 V c 2 t) (iblk7 V c 3 t) (k7_pay1 (F := Ideal)),
    pay1_apply, zero_add, blk_sum V c t]

/-- The sum accumulator after a later point: what the point before left plus this block's total. -/
theorem acc5_B (c : Dev nD) (t : Fin cfg7.N) (h0 : ¬t.val % 32 = 0) :
    (outsAt7 V c t.val t.isLt).2.1 (ix2 (0 : Fin 1) (0 : Fin 1))
      = (outsAt7 V c (t.val - 1) (Nat.lt_of_le_of_lt (Nat.sub_le _ _) t.isLt)).2.1 (ix2 (0 : Fin 1) (0 : Fin 1))
        + bsum V c t.val := by
  rw [outsAt7_B V c t h0]
  dsimp only
  rw [out_B_5 c (grid7.coords t) (ms7_0 t) (hs7_0 t) (ms7_1 t) (hs7_1 t) (ms7_2 t) (hs7_2 t) (ms7_3 t) (hs7_3 t)
      (ms7_4 t) (hs7_4 t) (ms7_5 t) (hs7_5 t) (ms7_6 t) (hs7_6 t)
      (iblk7 V c 0 t) (iblk7 V c 1 t) (iblk7 V c 2 t) (iblk7 V c 3 t) (fun h => h0 ((hcond7_0 t).mp h))
      (outsAt7 V c (t.val - 1) (Nat.lt_of_le_of_lt (Nat.sub_le _ _) t.isLt)).2.1
      (outsAt7 V c (t.val - 1) (Nat.lt_of_le_of_lt (Nat.sub_le _ _) t.isLt)).2.2,
    pay4_apply (iblk7 V c 0 t) (iblk7 V c 1 t) (iblk7 V c 2 t) (iblk7 V c 3 t)
      (outsAt7 V c (t.val - 1) (Nat.lt_of_le_of_lt (Nat.sub_le _ _) t.isLt)).2.1,
    blk_sum V c t]

theorem acc6_A (c : Dev nD) (t : Fin cfg7.N) (h0 : t.val % 32 = 0) :
    (outsAt7 V c t.val t.isLt).2.2 (ix2 (0 : Fin 1) (0 : Fin 1)) = bsq V c t.val := by
  rw [outsAt7_A V c t h0]
  dsimp only
  rw [out_A_6 c (grid7.coords t) (ms7_0 t) (hs7_0 t) (ms7_1 t) (hs7_1 t) (ms7_2 t) (hs7_2 t) (ms7_3 t) (hs7_3 t)
      (ms7_4 t) (hs7_4 t) (ms7_5 t) (hs7_5 t) (ms7_6 t) (hs7_6 t)
      (iblk7 V c 0 t) (iblk7 V c 1 t) (iblk7 V c 2 t) (iblk7 V c 3 t) ((hcond7_0 t).mpr h0),
    pay5_apply (iblk7 V c 0 t) (iblk7 V c 1 t) (iblk7 V c 2 t) (iblk7 V c 3 t) (k7_pay2 (F := Ideal)),
    pay2_apply, zero_add, blk_sq V c t]

theorem acc6_B (c : Dev nD) (t : Fin cfg7.N) (h0 : ¬t.val % 32 = 0) :
    (outsAt7 V c t.val t.isLt).2.2 (ix2 (0 : Fin 1) (0 : Fin 1))
      = (outsAt7 V c (t.val - 1) (Nat.lt_of_le_of_lt (Nat.sub_le _ _) t.isLt)).2.2 (ix2 (0 : Fin 1) (0 : Fin 1))
        + bsq V c t.val := by
  rw [outsAt7_B V c t h0]
  dsimp only
  rw [out_B_6 c (grid7.coords t) (ms7_0 t) (hs7_0 t) (ms7_1 t) (hs7_1 t) (ms7_2 t) (hs7_2 t) (ms7_3 t) (hs7_3 t)
      (ms7_4 t) (hs7_4 t) (ms7_5 t) (hs7_5 t) (ms7_6 t) (hs7_6 t)
      (iblk7 V c 0 t) (iblk7 V c 1 t) (iblk7 V c 2 t) (iblk7 V c 3 t) (fun h => h0 ((hcond7_0 t).mp h))
      (outsAt7 V c (t.val - 1) (Nat.lt_of_le_of_lt (Nat.sub_le _ _) t.isLt)).2.1
      (outsAt7 V c (t.val - 1) (Nat.lt_of_le_of_lt (Nat.sub_le _ _) t.isLt)).2.2,
    pay5_apply (iblk7 V c 0 t) (iblk7 V c 1 t) (iblk7 V c 2 t) (iblk7 V c 3 t)
      (outsAt7 V c (t.val - 1) (Nat.lt_of_le_of_lt (Nat.sub_le _ _) t.isLt)).2.2,
    blk_sq V c t]

/-- After point n the sum accumulator holds the totals of blocks 0 … n: by induction on the point. -/
theorem acc5 (c : Dev nD) : ∀ (n : ℕ) (h : n < cfg7.N),
    (outsAt7 V c n h).2.1 (ix2 (0 : Fin 1) (0 : Fin 1)) = ∑ t ∈ Finset.range (n + 1), bsum V c t
  | 0, h => by
    refine (acc5_A V c ⟨0, h⟩ rfl).trans ?_
    rw [Finset.sum_range_one]
  | n + 1, h => by
    have hB : ¬(⟨n + 1, h⟩ : Fin cfg7.N).val % 32 = 0 := by have := hN; dsimp only; omega
    refine (acc5_B V c ⟨n + 1, h⟩ hB).trans ?_
    show (outsAt7 V c n _).2.1 (ix2 (0 : Fin 1) (0 : Fin 1)) + bsum V c (n + 1) = _
    rw [acc5 c n, Finset.sum_range_succ _ (n + 1)]

theorem acc6 (c : Dev nD) : ∀ (n : ℕ) (h : n < cfg7.N),
    (outsAt7 V c n h).2.2 (ix2 (0 : Fin 1) (0 : Fin 1)) = ∑ t ∈ Finset.range (n + 1), bsq V c t
  | 0, h => by
    refine (acc6_A V c ⟨0, h⟩ rfl).trans ?_
    rw [Finset.sum_range_one]
  | n + 1, h => by
    have hB : ¬(⟨n + 1, h⟩ : Fin cfg7.N).val % 32 = 0 := by have := hN; dsimp only; omega
    refine (acc6_B V c ⟨n + 1, h⟩ hB).trans ?_
    show (outsAt7 V c n _).2.2 (ix2 (0 : Fin 1) (0 : Fin 1)) + bsq V c (n + 1) = _
    rw [acc6 c n, Finset.sum_range_succ _ (n + 1)]

theorem Yn_val (c : Dev nD) (i : Fin 262144) (j : Fin 64) : Yn V c i.val j = Y V c i j := by
  unfold Yn
  rw [dif_pos i.isLt]

/-- After the last point the sum accumulator holds the total of y over all rows and features. -/
theorem total5 (c : Dev nD) (t : Fin cfg7.N) (h31 : t.val = 31) :
    (outsAt7 V c t.val t.isLt).2.1 (ix2 (0 : Fin 1) (0 : Fin 1)) = ∑ i : Fin 262144, ∑ j : Fin 64, Y V c i j := by
  refine (acc5 V c t.val t.isLt).trans ?_
  rw [h31]
  show ∑ t ∈ Finset.range 32, bsum V c t = _
  unfold bsum
  rw [sum_regroup fun i => ∑ j : Fin 64, Yn V c i j]
  exact Finset.sum_congr rfl fun i _ => Finset.sum_congr rfl fun j _ => Yn_val V c i j

theorem total6 (c : Dev nD) (t : Fin cfg7.N) (h31 : t.val = 31) :
    (outsAt7 V c t.val t.isLt).2.2 (ix2 (0 : Fin 1) (0 : Fin 1))
      = ∑ i : Fin 262144, ∑ j : Fin 64, Y V c i j * Y V c i j := by
  refine (acc6 V c t.val t.isLt).trans ?_
  rw [h31]
  show ∑ t ∈ Finset.range 32, bsq V c t = _
  unfold bsq
  rw [sum_regroup fun i => ∑ j : Fin 64, Yn V c i j * Yn V c i j]
  exact Finset.sum_congr rfl fun i _ => Finset.sum_congr rfl fun j _ => by rw [Yn_val V c i j]

/-! ### From the blocks to the arrays -/

/-- The y array, whole. -/
def G4 (c : Dev nD) : S262144x64.Idx → Ideal .f32 := fun i => Y V c (i 0) (i 1)
/-- The [1,1] arrays of the two totals. -/
def G5 (c : Dev nD) : S1x1.Idx → Ideal .f32 := fun _ => ∑ i : Fin 262144, ∑ j : Fin 64, Y V c i j
def G6 (c : Dev nD) : S1x1.Idx → Ideal .f32 := fun _ => ∑ i : Fin 262144, ∑ j : Fin 64, Y V c i j * Y V c i j

/-- What point t writes back to the y array is block t of it. -/
theorem flushed4_eq (c : Dev nD) (t : Fin cfg7.N) :
    (dat7 V c).flushed 4 t = ((cfg7.win 4).blk t).view.read (Elt Ideal) (G4 V c) := by
  show (cfg7.win 4).cut (grid7.coords t) ((dat7 V c).after 4 t) = _
  rw [after7_4, outs4 V c t]
  funext y
  obtain ⟨r, j, rfl⟩ : ∃ (r : Fin 8192) (j : Fin 64), y = ix2 r j := ⟨y 0, y 1, eq_ix2 y⟩
  show k7_pay3 (F := Ideal) (iblk7 V c 0 t) (iblk7 V c 1 t) (iblk7 V c 2 t) (iblk7 V c 3 t) (ix2 r j)
    = G4 V c (((cfg7.win 4).blk t).view.emb (ix2 r j))
  rw [emb_blk4 t r j, blk_apply V c t r j]
  rfl

theorem y_arr (c : Dev nD) : (dat7 V c).arrAt 4 cfg7.N = G4 V c :=
  (dat7 V c).arrAt_eq_of_cover 4 (G4 V c) (fun t _ => flushed4_eq V c t) cover4

/-- The y array after the region: y at every node and feature. -/
theorem y_out (c : Dev nD) (i : Fin 262144) (j : Fin 64) :
    (dat7 (F := Ideal) V c).arrAt 4 cfg7.N (ix2 i j) = Y V c i j := by
  rw [y_arr V c]
  rfl

theorem idx11 (y : S1x1.Idx) : y = ix2 (0 : Fin 1) (0 : Fin 1) := by
  have h0 : (y 0).val < 1 := (y 0).isLt
  have h1 : (y 1).val < 1 := (y 1).isLt
  funext a; apply Fin.ext
  match a with
  | ⟨0, _⟩ => show (y 0).val = 0; omega
  | ⟨1, _⟩ => show (y 1).val = 0; omega

/-- The one write-back of the sum accumulator, at the last point, writes the total. -/
theorem flushed5_eq (c : Dev nD) (t : Fin cfg7.N) (hf : (cfg7.win 5).flush t = true) :
    (dat7 V c).flushed 5 t = ((cfg7.win 5).blk t).view.read (Elt Ideal) (G5 V c) := by
  have h31 : t.val = 31 := by have := (flush7_5 t).mp hf; have := t.isLt; have := hN; omega
  have e := total5 V c t h31
  unfold G5
  generalize (∑ i : Fin 262144, ∑ j : Fin 64, Y V c i j) = s at e ⊢
  show (cfg7.win 5).cut (grid7.coords t) ((dat7 V c).after 5 t) = _
  rw [after7_5]
  funext y
  obtain rfl := idx11 y
  exact e

theorem flushed6_eq (c : Dev nD) (t : Fin cfg7.N) (hf : (cfg7.win 6).flush t = true) :
    (dat7 V c).flushed 6 t = ((cfg7.win 6).blk t).view.read (Elt Ideal) (G6 V c) := by
  have h31 : t.val = 31 := by have := (flush7_6 t).mp hf; have := t.isLt; have := hN; omega
  have e := total6 V c t h31
  unfold G6
  generalize (∑ i : Fin 262144, ∑ j : Fin 64, Y V c i j * Y V c i j) = s at e ⊢
  show (cfg7.win 6).cut (grid7.coords t) ((dat7 V c).after 6 t) = _
  rw [after7_6]
  funext y
  obtain rfl := idx11 y
  exact e

theorem sum_arr (c : Dev nD) : (dat7 V c).arrAt 5 cfg7.N = G5 V c :=
  (dat7 V c).arrAt_eq_of_cover 5 (G5 V c) (flushed5_eq V c) cover5

theorem sumsq_arr (c : Dev nD) : (dat7 V c).arrAt 6 cfg7.N = G6 V c :=
  (dat7 V c).arrAt_eq_of_cover 6 (G6 V c) (flushed6_eq V c) cover6

/-- The [1,1] sum output after the region: the total of y. -/
theorem sum_out (c : Dev nD) :
    (dat7 (F := Ideal) V c).arrAt 5 cfg7.N (ix2 (0 : Fin 1) (0 : Fin 1)) = ∑ i : Fin 262144, ∑ j : Fin 64, Y V c i j := by
  rw [sum_arr V c]
  rfl

/-- The [1,1] sum-of-squares output after the region: the total of y squared. -/
theorem sumsq_out (c : Dev nD) :
    (dat7 (F := Ideal) V c).arrAt 6 cfg7.N (ix2 (0 : Fin 1) (0 : Fin 1))
      = ∑ i : Fin 262144, ∑ j : Fin 64, Y V c i j * Y V c i j := by
  rw [sumsq_arr V c]
  rfl

end Value

end Cert.KernelIdeal.Reg7

end
-- ==== Proof.Reg8.lean ====
import proofs.«167728_j48945447305605_1_alg».proof.Proof.Gen.KernelIdeal.Frame
import proofs.«167728_j48945447305605_1_alg».proof.Proof.Elu
import Idealize.ShloMosaic.Lib.ValueIdx
import Idealize.ShloMosaic.Lib.ValueLayout
import Idealize.ShloMosaic.Lib.IdealHost
import Idealize.ShloMosaic.Lib.Pipeline.Value

/-!
# Region 8: normalise, scale, shift, then the exponential linear unit

The region reads a `[262144, 64]` array `y` in 32 blocks of 8192 rows, together with four small operands that
are the same single block at every grid point: a mean and an inverse standard deviation (both `[1, 1]`), a gain
and a shift (both `[1, 64]`). Each grid point computes, entry by entry of its block,
`z = ((y - mean) * invstd) * gain + shift` and stores `z` where `z > 0` and `exp z - 1` elsewhere.

Since every operation of the body is pointwise (the small operands being broadcast), the block that point `t`
writes back is the restriction to rows `8192 t … 8192 t + 8191` of ONE function of the whole arrays, and the 32
blocks tile the output array: row `r` is written by point `r / 8192`. Hence the array the region leaves is that
function, index by index.
-/

noncomputable section

namespace Cert.KernelIdeal.Reg8

open Idealize.ShloMosaic Idealize.ShloMosaic.TcCoe Idealize.ShloMosaic.ValueIdx Cert.KernelIdeal Cert.KernelIdeal.Gen

/-! ## The body's arithmetic at an index -/

/-- Selecting on the comparison `z > 0` is the case split on `0 < z`. -/
theorem select_gt_zero (z w : EReal) : Scalar.select (Ideal.cmp .ogt z 0) z w = if 0 < z then z else w := by
  unfold Ideal.cmp Scalar.select
  by_cases h : (0 : EReal) < z
  · simp [h]
  · simp [h]

/-- A `[1, 1]` array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The exponential of a vector at an index is the exponential of the entry. -/
theorem exp_apply {s : Shape} {φ : FTy} (a : FVec Ideal s φ) (i : s.Idx) : exp a i = Ideal.exp (a i) := rfl

/-- The stored value at entry `(p, q)` of a block: the unit applied to `((y - mean) * invstd) * gain + shift`,
    the mean and the inverse deviation read at their one entry, the gain and the shift at column `q`. -/
theorem pay_apply (v0 v2 : Vec Ideal S1x1 .f32) (v4 : Vec Ideal S8192x64 .f32) (v10 v14 : Vec Ideal S1x64 .f32)
    (p : Fin 8192) (q : Fin 64) :
    k8_pay1 (F := Ideal) v0 v2 v4 v10 v14 (ix2 p q)
      = Cert.Spec.elu ((v4 (ix2 p q) - v0 (ix2 (0 : Fin 1) (0 : Fin 1))) * v2 (ix2 (0 : Fin 1) (0 : Fin 1))
          * v10 (ix2 (0 : Fin 1) q) + v14 (ix2 (0 : Fin 1) q)) := by
  unfold k8_pay1
  simp only [shapeCast_self]
  have b0 : broadcastTo S8192x64 v0 broadcasts_S1x1_S8192x64 (ix2 p q) = v0 (ix2 (0 : Fin 1) (0 : Fin 1)) :=
    broadcastTo_11_ab_apply v0 _ p q
  have b2 : broadcastTo S8192x64 v2 broadcasts_S1x1_S8192x64 (ix2 p q) = v2 (ix2 (0 : Fin 1) (0 : Fin 1)) :=
    broadcastTo_11_ab_apply v2 _ p q
  have b10 : broadcastTo S8192x64 v10 broadcasts_S1x64_S8192x64 (ix2 p q) = v10 (ix2 (0 : Fin 1) q) :=
    broadcastTo_1b_ab_apply v10 _ p q
  have b14 : broadcastTo S8192x64 v14 broadcasts_S1x64_S8192x64 (ix2 p q) = v14 (ix2 (0 : Fin 1) q) :=
    broadcastTo_1b_ab_apply v14 _ p q
  simp only [select_apply, cmpf_apply, subf_apply, exp_apply, addf_apply, mulf_apply, broadcast_apply, b0, b2, b10, b14,
    Ideal.ofBits_def, Ideal.ofBits_zero_f32, Ideal.ofBits_one_f32]
  exact select_gt_zero _ _

theorem zero_offsets : (![0, 0] : Fin 2 → Nat) = fun _ => 0 := funext fun a => by fin_cases a <;> rfl

/-- What the body leaves in the output's staging buffer, at entry `(p, q)`, from the contents of the five input
    buffers: the body loads each buffer whole and stores the result whole. -/
theorem out_apply (x0 : Vec Ideal S8192x64 .f32) (x1 x2 : Vec Ideal S1x1 .f32) (x3 x4 : Vec Ideal S1x64 .f32)
    (p : Fin 8192) (q : Fin 64) :
    out8_5 (F := Ideal) x0 x1 x2 x3 x4 (ix2 p q)
      = Cert.Spec.elu ((x0 (ix2 p q) - x1 (ix2 (0 : Fin 1) (0 : Fin 1))) * x2 (ix2 (0 : Fin 1) (0 : Fin 1))
          * x3 (ix2 (0 : Fin 1) q) + x4 (ix2 (0 : Fin 1) q)) := by
  unfold out8_5
  rw [View.canon_unit_zero zero_offsets]
  simp only [View.ld_unit_zero (S := S8192x64) zero_offsets, View.ld_unit_zero (S := S1x1) zero_offsets,
    View.ld_unit_zero (S := S1x64) zero_offsets]
  exact pay_apply x1 x2 x0 x3 x4 p q

/-- The same at any index `y` of the block. -/
theorem out_apply_idx (x0 : Vec Ideal S8192x64 .f32) (x1 x2 : Vec Ideal S1x1 .f32) (x3 x4 : Vec Ideal S1x64 .f32)
    (y : S8192x64.Idx) :
    out8_5 (F := Ideal) x0 x1 x2 x3 x4 y
      = Cert.Spec.elu ((x0 y - x1 (ix2 (0 : Fin 1) (0 : Fin 1))) * x2 (ix2 (0 : Fin 1) (0 : Fin 1))
          * x3 (ix2 (0 : Fin 1) (y 1 : Fin 64)) + x4 (ix2 (0 : Fin 1) (y 1 : Fin 64))) := by
  obtain ⟨p, q, rfl⟩ : ∃ (p : Fin 8192) (q : Fin 64), y = ix2 p q := ⟨y 0, y 1, eq_ix2 y⟩
  exact out_apply x0 x1 x2 x3 x4 p q

/-! ## The blocks over the grid -/

/-- The block indices over the grid: the two row-tiled windows are at block `(t, 0)` at point `t`, the four small
    operands at block `(0, 0)` at every point. -/
theorem index_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- An index of the output array is in point `t`'s block iff each coordinate is in the block's range on its axis. -/
theorem mem_blk (t : Fin cfg8.N) (k : S262144x64.Idx) :
    k ∈ ((cfg8.win 5).blk t).view.set ↔ ∀ a : Fin 2, win8_5.index t a * S8192x64.size a ≤ (k a).val
      ∧ (k a).val < win8_5.index t a * S8192x64.size a + S8192x64.size a := by
  show k ∈ ((View.whole main_v120).slice (win8_5.rect t)).set ↔ _
  rw [View.set_slice_whole, Rect.mem_set_unit]
  exact Iff.rfl

/-- Row `r` of the output array is in the block of point `r / 8192`, and every point writes its block back. -/
theorem covered (k : S262144x64.Idx) :
    ∃ t : Fin cfg8.N, (cfg8.win 5).flush t = true ∧ k ∈ ((cfg8.win 5).blk t).view.set := by
  have hk0 : (k 0).val < 262144 := idx2_lt0 k
  have hk1 : (k 1).val < 64 := idx2_lt1 k
  have hN : cfg8.N = 32 := N_8
  obtain ⟨t, ht⟩ : ∃ t : Fin cfg8.N, t.val = (k 0).val / 8192 := ⟨⟨(k 0).val / 8192, by omega⟩, rfl⟩
  obtain ⟨-, -, -, -, -, -, -, -, -, -, e0, e1⟩ := index_facts t
  refine ⟨t, flush8_5 t, ?_⟩
  rw [mem_blk]
  intro a
  match a with
  | ⟨0, _⟩ =>
    show win8_5.index t (0 : Fin 2) * 8192 ≤ (k 0).val ∧ (k 0).val < win8_5.index t (0 : Fin 2) * 8192 + 8192
    omega
  | ⟨1, _⟩ =>
    show win8_5.index t (1 : Fin 2) * 64 ≤ (k 1).val ∧ (k 1).val < win8_5.index t (1 : Fin 2) * 64 + 64
    omega

/-! ## The input blocks as entries of the arrays -/

variable (V : (c : Dev nD) → (b : Ref sig .tc) → Buf (Elt Ideal) ((c : Thread nD τ).loc b))

/-- The five input arrays as the region finds them, each at its literal shape: `y` (window 0), -/
abbrev yArr (c : Dev nD) : S262144x64.Idx → EReal := V c (Pipeline.arrRef spec8 0)
/-- the mean (window 1), -/
abbrev meanArr (c : Dev nD) : S1x1.Idx → EReal := V c (Pipeline.arrRef spec8 1)
/-- the inverse standard deviation (window 2), -/
abbrev invstdArr (c : Dev nD) : S1x1.Idx → EReal := V c (Pipeline.arrRef spec8 2)
/-- the gain (window 3), -/
abbrev gainArr (c : Dev nD) : S1x64.Idx → EReal := V c (Pipeline.arrRef spec8 3)
/-- and the shift (window 4). -/
abbrev shiftArr (c : Dev nD) : S1x64.Idx → EReal := V c (Pipeline.arrRef spec8 4)

/-- Entry `(p, q)` of the block of `y` at point `t` is entry `(8192 t + p, q)` of the array. -/
theorem y_block (c : Dev nD) (t : Fin cfg8.N) (y : S8192x64.Idx) (k : S262144x64.Idx)
    (hk0 : (k 0).val = 8192 * t.val + (y 0).val) (hk1 : (k 1).val = (y 1).val) :
    (iblk8 (F := Ideal) V c 0 t : Vec Ideal S8192x64 .f32) y
      = yArr V c k := by
  obtain ⟨e0, e1, -⟩ := index_facts t
  unfold iblk8
  rw [View.read_apply]
  show yArr V c _ = yArr V c k
  refine congrArg (yArr V c) (funext fun a => Fin.ext ?_)
  match a with
  | ⟨0, _⟩ => show win8_0.index t (0 : Fin 2) * 8192 + 1 * (y 0).val = (k 0).val; omega
  | ⟨1, _⟩ => show win8_0.index t (1 : Fin 2) * 64 + 1 * (y 1).val = (k 1).val; omega

/-- The one entry of the mean's block is the one entry of its array, at every point. -/
theorem mean_block (c : Dev nD) (t : Fin cfg8.N) :
    (iblk8 (F := Ideal) V c 1 t : Vec Ideal S1x1 .f32) (ix2 (0 : Fin 1) (0 : Fin 1))
      = meanArr V c (ix2 (0 : Fin 1) (0 : Fin 1)) := by
  obtain ⟨-, -, e0, e1, -⟩ := index_facts t
  unfold iblk8
  rw [View.read_apply]
  show meanArr V c _ = meanArr V c _
  refine congrArg (meanArr V c) (funext fun a => Fin.ext ?_)
  match a with
  | ⟨0, _⟩ => show win8_1.index t (0 : Fin 2) * 1 + 1 * 0 = 0; omega
  | ⟨1, _⟩ => show win8_1.index t (1 : Fin 2) * 1 + 1 * 0 = 0; omega

/-- The one entry of the inverse deviation's block is the one entry of its array, at every point. -/
theorem invstd_block (c : Dev nD) (t : Fin cfg8.N) :
    (iblk8 (F := Ideal) V c 2 t : Vec Ideal S1x1 .f32) (ix2 (0 : Fin 1) (0 : Fin 1))
      = invstdArr V c (ix2 (0 : Fin 1) (0 : Fin 1)) := by
  obtain ⟨-, -, -, -, e0, e1, -⟩ := index_facts t
  unfold iblk8
  rw [View.read_apply]
  show invstdArr V c _ = invstdArr V c _
  refine congrArg (invstdArr V c) (funext fun a => Fin.ext ?_)
  match a with
  | ⟨0, _⟩ => show win8_2.index t (0 : Fin 2) * 1 + 1 * 0 = 0; omega
  | ⟨1, _⟩ => show win8_2.index t (1 : Fin 2) * 1 + 1 * 0 = 0; omega

/-- Column `q` of the gain's block is column `q` of its array, at every point. -/
theorem gain_block (c : Dev nD) (t : Fin cfg8.N) (q q' : Fin 64) (hq : q'.val = q.val) :
    (iblk8 (F := Ideal) V c 3 t : Vec Ideal S1x64 .f32) (ix2 (0 : Fin 1) q)
      = gainArr V c (ix2 (0 : Fin 1) q') := by
  obtain ⟨-, -, -, -, -, -, e0, e1, -⟩ := index_facts t
  unfold iblk8
  rw [View.read_apply]
  show gainArr V c _ = gainArr V c _
  refine congrArg (gainArr V c) (funext fun a => Fin.ext ?_)
  match a with
  | ⟨0, _⟩ => show win8_3.index t (0 : Fin 2) * 1 + 1 * 0 = 0; omega
  | ⟨1, _⟩ => show win8_3.index t (1 : Fin 2) * 64 + 1 * q.val = q'.val; omega

/-- Column `q` of the shift's block is column `q` of its array, at every point. -/
theorem shift_block (c : Dev nD) (t : Fin cfg8.N) (q q' : Fin 64) (hq : q'.val = q.val) :
    (iblk8 (F := Ideal) V c 4 t : Vec Ideal S1x64 .f32) (ix2 (0 : Fin 1) q)
      = shiftArr V c (ix2 (0 : Fin 1) q') := by
  obtain ⟨-, -, -, -, -, -, -, -, e0, e1, -⟩ := index_facts t
  unfold iblk8
  rw [View.read_apply]
  show shiftArr V c _ = shiftArr V c _
  refine congrArg (shiftArr V c) (funext fun a => Fin.ext ?_)
  match a with
  | ⟨0, _⟩ => show win8_4.index t (0 : Fin 2) * 1 + 1 * 0 = 0; omega
  | ⟨1, _⟩ => show win8_4.index t (1 : Fin 2) * 64 + 1 * q.val = q'.val; omega

/-! ## The array the region leaves -/

/-- The whole output array as one function of the five input arrays as the region finds them. -/
def result (c : Dev nD) : S262144x64.Idx → EReal := fun k =>
  Cert.Spec.elu ((yArr V c k
        - meanArr V c (ix2 (0 : Fin 1) (0 : Fin 1)))
      * invstdArr V c (ix2 (0 : Fin 1) (0 : Fin 1))
      * gainArr V c (ix2 (0 : Fin 1) (k 1 : Fin 64))
    + shiftArr V c (ix2 (0 : Fin 1) (k 1 : Fin 64)))

/-- What point `t` writes back is block `t` of `result`. -/
theorem flushed_eq (c : Dev nD) (t : Fin cfg8.N) :
    (dat8 (F := Ideal) V c).flushed 5 t = ((cfg8.win 5).blk t).view.read (Elt Ideal) (result V c) := by
  show (cfg8.win 5).cut (grid8.coords t) ((dat8 (F := Ideal) V c).after 5 t) = _
  rw [after8_5]
  obtain ⟨-, -, -, -, -, -, -, -, -, -, e0, e1⟩ := index_facts t
  funext y
  have hy0 : (y 0).val < 8192 := (y 0).isLt
  have hy1 : (y 1).val < 64 := (y 1).isLt
  have hk0 : ((((cfg8.win 5).blk t).view.emb y) 0).val = 8192 * t.val + (y 0).val := by
    show win8_5.index t (0 : Fin 2) * 8192 + 1 * (y 0).val = _; omega
  have hk1 : ((((cfg8.win 5).blk t).view.emb y) 1).val = (y 1).val := by
    show win8_5.index t (1 : Fin 2) * 64 + 1 * (y 1).val = _; omega
  show out8_5 (F := Ideal) (iblk8 V c 0 t) (iblk8 V c 1 t) (iblk8 V c 2 t) (iblk8 V c 3 t) (iblk8 V c 4 t) y
      = result V c (((cfg8.win 5).blk t).view.emb y)
  refine (out_apply_idx (iblk8 V c 0 t) (iblk8 V c 1 t) (iblk8 V c 2 t) (iblk8 V c 3 t) (iblk8 V c 4 t) y).trans ?_
  rw [y_block V c t y (((cfg8.win 5).blk t).view.emb y) hk0 hk1,
    mean_block V c t, invstd_block V c t,
    gain_block V c t (y 1 : Fin 64) ((((cfg8.win 5).blk t).view.emb y) 1 : Fin 64) hk1,
    shift_block V c t (y 1 : Fin 64) ((((cfg8.win 5).blk t).view.emb y) 1 : Fin 64) hk1]
  rfl

/-- The array the region leaves for its output window is `result`. -/
theorem final (c : Dev nD) : (dat8 (F := Ideal) V c).arrAt 5 cfg8.N = result V c :=
  (dat8 (F := Ideal) V c).arrAt_eq_of_cover 5 (result V c) (fun t _ => flushed_eq V c t) covered

/-- THE REGION'S VALUE: entry `(i, j)` of the output array is the exponential linear unit of
    `((y i j - mean) * invstd) * gain j + shift j`, read off the arrays as the region finds them. -/
theorem out (V : (c : Dev nD) → (b : Ref sig .tc) → Buf (Elt Ideal) ((c : Thread nD τ).loc b)) (c : Dev nD)
    (i : Fin 262144) (j : Fin 64) :
    (dat8 (F := Ideal) V c).arrAt 5 cfg8.N (ix2 i j)
      = Cert.Spec.elu ((yArr V c (ix2 i j)
            - meanArr V c (ix2 (0 : Fin 1) (0 : Fin 1)))
          * invstdArr V c (ix2 (0 : Fin 1) (0 : Fin 1))
          * gainArr V c (ix2 (0 : Fin 1) j)
        + shiftArr V c (ix2 (0 : Fin 1) j)) :=
  congrFun (final V c) (ix2 i j)

end Cert.KernelIdeal.Reg8

end
-- ==== Proof.KStages3.lean ====
import proofs.«167728_j48945447305605_1_alg».proof.Proof.Gen.KernelIdeal.Frame
import proofs.«167728_j48945447305605_1_alg».proof.Proof.KHostGlue
import proofs.«167728_j48945447305605_1_alg».proof.Proof.KHostStats
import proofs.«167728_j48945447305605_1_alg».proof.Proof.KKeep
import proofs.«167728_j48945447305605_1_alg».proof.Proof.KArgs
import proofs.«167728_j48945447305605_1_alg».proof.Proof.KEntry
import proofs.«167728_j48945447305605_1_alg».proof.Proof.Reg6
import proofs.«167728_j48945447305605_1_alg».proof.Proof.Reg7
import proofs.«167728_j48945447305605_1_alg».proof.Proof.Reg8
import Idealize.ShloMosaic.Lib.ValueLayout

/-!
# The third layer of the kernel program, boundary by boundary

From the second layer's output `z2` in the buffer `main_v89` at the boundary after the second normalising region,
the third layer's stages are read off the buffers at the following boundaries: the linear map `h3 = z2 · W3` in
`main_v90` (a region), the sum `y3` of the neighbourhood sum of `h3`, the self loop and the bias in `main_v105_0`
together with the totals of `y3` and of its squares (a host stretch, then a region), and the normalised, scaled,
shifted output `z3` in `main_v120` (a host stretch computing the mean and the reciprocal deviation from the two
totals, then a region). The scale and shift rows of this layer's normalisation are the arguments `g3` and `bt3`.

Each stage reads the region's output array at an entry (the boundary's array, then the region's value at the
contents the region was entered with), and reads each of the region's input arrays at the entry it uses: a host
stretch's result, a buffer carried unchanged across the segments, or the previous stage. Every statement is under
the one hypothesis that `main_v89` holds `z2` at the boundary where the layer starts.
-/

noncomputable section

namespace Cert.KernelIdeal.KVal

open Idealize.ShloMosaic Idealize.ShloMosaic.TcCoe Idealize.ShloMosaic.ValueIdx
open Cert.KernelIdeal Cert.KernelIdeal.Gen Cert.Cur Cert.Glue

variable (m : (ℓ : Loc nD τ sig) → Buf (Elt Ideal) ℓ) (ρ : Dev nD → PrngReg) (c : Dev nD)

/-- The layer's input as an array: `main_v89` holds `z2`, uncurried. -/
theorem l3_v89 (hz2 : cur2 (W11 m ρ c (Proc.devRef .tc main_v89)) = Net.z2 Cert.Spec.lnK (argsAt m c)) :
    W11 m ρ c (Proc.devRef .tc main_v89) = unc2 (Net.z2 Cert.Spec.lnK (argsAt m c)) := by
  rw [← hz2, unc2_cur2]

/-- The third linear map: the region multiplies the rows of `z2` by the weight matrix, which is the argument's
    since no segment writes an argument. -/
theorem k_h3 (hz2 : cur2 (W11 m ρ c (Proc.devRef .tc main_v89)) = Net.z2 Cert.Spec.lnK (argsAt m c)) :
    cur2 (W12 m ρ c (Proc.devRef .tc main_v90)) = Net.h3 Cert.Spec.lnK (argsAt m c) := by
  funext i j
  have h := Reg6.out (V11 m ρ) c _ _ (l3_v89 m ρ c hz2) (arg6_at_W11 m ρ c) i j
  have e := congrFun (W12_arr m ρ c 2) (ix2 i j)
  unfold Net.h3 Cert.Spec.lin
  rw [argsAt_W3]
  exact e.trans h

theorem l3_v90 (hz2 : cur2 (W11 m ρ c (Proc.devRef .tc main_v89)) = Net.z2 Cert.Spec.lnK (argsAt m c)) :
    W12 m ρ c (Proc.devRef .tc main_v90) = unc2 (Net.h3 Cert.Spec.lnK (argsAt m c)) := by
  rw [← k_h3 m ρ c hz2, unc2_cur2]

/-- The neighbourhood sum of the third linear map, as the stretch before the statistics region leaves it. -/
theorem l3_v103 (hz2 : cur2 (W11 m ρ c (Proc.devRef .tc main_v89)) = Net.z2 Cert.Spec.lnK (argsAt m c)) :
    W13 m ρ c (Proc.devRef .tc main_v103)
      = agg64T (F := Ideal) (srcT (m ((c.tc : Thread nD τ).loc main_arg1))) (dstT (m ((c.tc : Thread nD τ).loc main_arg1)))
          (nrmT (srcT (m ((c.tc : Thread nD τ).loc main_arg1))) (dstT (m ((c.tc : Thread nD τ).loc main_arg1))))
          (unc2 (Net.h3 Cert.Spec.lnK (argsAt m c))) := by
  refine (KHost.h7_v103 (W12 m ρ c)).trans ?_
  rw [v1_at_W12 m ρ c, v3_at_W12 m ρ c, v25_at_W12 m ρ c, l3_v90 m ρ c hz2]

/-- The bias as a row, as the same stretch leaves it. -/
theorem l3_v104 : W13 m ρ c (Proc.devRef .tc main_v104)
    = shapeCast S1x64 (m ((c.tc : Thread nD τ).loc main_arg7)) shapeCasts_S64_S1x64 := by
  refine (KHost.h7_v104 (W12 m ρ c)).trans ?_
  rw [arg7_at_W12 m ρ c]

/-- The statistics region's combined entry is the layer's sum: the neighbourhood sum of `h3`, plus `h3` times the
    squared inverse root degree, plus the bias. -/
theorem l3_y_entry (hz2 : cur2 (W11 m ρ c (Proc.devRef .tc main_v89)) = Net.z2 Cert.Spec.lnK (argsAt m c))
    (i : Fin 262144) (j : Fin 64) : Reg7.Y (V13 m ρ) c i j = Net.y3 Cert.Spec.lnK (argsAt m c) i j := by
  rw [Reg7.Y_eq]
  unfold Net.y3
  refine conv_entry (Reg7.arrA (V13 m ρ) c) (Reg7.arrH (V13 m ρ) c) (Reg7.arrD (V13 m ρ) c) (Reg7.arrB (V13 m ρ) c)
    ((argsAt m c).A64 (Net.h3 Cert.Spec.lnK (argsAt m c))) (Net.h3 Cert.Spec.lnK (argsAt m c)) (argsAt m c).d (argsAt m c).b3
    ?_ ?_ ?_ ?_ i j
  · intro i j
    rw [argsAt_A64, cur2_apply]
    exact congrFun (l3_v103 m ρ c hz2) (ix2 i j)
  · intro i j
    exact congrFun ((KHost.h7_keep_v90 (W12 m ρ c)).trans (l3_v90 m ρ c hz2)) (ix2 i j)
  · intro i
    rw [argsAt_d, cur1_apply]
    exact ((congrFun (v27_at_W13 m ρ c) (ix2 i 0)).trans (shapeCast_a_a1_apply _ _ i 0)).trans (mulf_apply _ _ _)
  · intro j
    rw [argsAt_b3, cur1_apply]
    exact (congrFun (l3_v104 m ρ c) (ix2 0 j)).trans (shapeCast_a_1a_apply _ _ 0 j)

/-- The layer's sum `y3`, in the statistics region's first output. -/
theorem k_y3 (hz2 : cur2 (W11 m ρ c (Proc.devRef .tc main_v89)) = Net.z2 Cert.Spec.lnK (argsAt m c)) :
    cur2 (W14 m ρ c (Proc.devRef .tc main_v105_0)) = Net.y3 Cert.Spec.lnK (argsAt m c) := by
  funext i j
  exact ((congrFun (W14_arr m ρ c 4) (ix2 i j)).trans (Reg7.y_out (V13 m ρ) c i j)).trans (l3_y_entry m ρ c hz2 i j)

theorem l3_sum (hz2 : cur2 (W11 m ρ c (Proc.devRef .tc main_v89)) = Net.z2 Cert.Spec.lnK (argsAt m c)) :
    (∑ i : Fin 262144, ∑ j : Fin 64, Reg7.Y (V13 m ρ) c i j) = Cert.Spec.total (Net.y3 Cert.Spec.lnK (argsAt m c)) :=
  Finset.sum_congr rfl fun i _ => Finset.sum_congr rfl fun j _ => l3_y_entry m ρ c hz2 i j

theorem l3_sumsq (hz2 : cur2 (W11 m ρ c (Proc.devRef .tc main_v89)) = Net.z2 Cert.Spec.lnK (argsAt m c)) :
    (∑ i : Fin 262144, ∑ j : Fin 64, Reg7.Y (V13 m ρ) c i j * Reg7.Y (V13 m ρ) c i j)
      = Cert.Spec.total fun i j => Net.y3 Cert.Spec.lnK (argsAt m c) i j * Net.y3 Cert.Spec.lnK (argsAt m c) i j :=
  Finset.sum_congr rfl fun i _ => Finset.sum_congr rfl fun j _ => by rw [l3_y_entry m ρ c hz2 i j]

/-- The total of `y3`, which the region accumulates over its grid points. -/
theorem k_s3 (hz2 : cur2 (W11 m ρ c (Proc.devRef .tc main_v89)) = Net.z2 Cert.Spec.lnK (argsAt m c)) :
    W14 m ρ c (Proc.devRef .tc main_v105_1) (ix2 (0 : Fin 1) (0 : Fin 1)) = Cert.Spec.total (Net.y3 Cert.Spec.lnK (argsAt m c)) :=
  ((congrFun (W14_arr m ρ c 5) (ix2 0 0)).trans (Reg7.sum_out (V13 m ρ) c)).trans (l3_sum m ρ c hz2)

/-- The total of the squares of `y3`, likewise. -/
theorem k_q3 (hz2 : cur2 (W11 m ρ c (Proc.devRef .tc main_v89)) = Net.z2 Cert.Spec.lnK (argsAt m c)) :
    W14 m ρ c (Proc.devRef .tc main_v105_2) (ix2 (0 : Fin 1) (0 : Fin 1))
      = Cert.Spec.total fun i j => Net.y3 Cert.Spec.lnK (argsAt m c) i j * Net.y3 Cert.Spec.lnK (argsAt m c) i j :=
  ((congrFun (W14_arr m ρ c 6) (ix2 0 0)).trans (Reg7.sumsq_out (V13 m ρ) c)).trans (l3_sumsq m ρ c hz2)

/-- The layer's output `z3`: the region reads `y3`, the mean and the reciprocal deviation the stretch before it
    computed from the two totals, and the scale and shift rows, which are the arguments'. -/
theorem k_z3 (hz2 : cur2 (W11 m ρ c (Proc.devRef .tc main_v89)) = Net.z2 Cert.Spec.lnK (argsAt m c)) :
    cur2 (W16 m ρ c (Proc.devRef .tc main_v120)) = Net.z3 Cert.Spec.lnK (argsAt m c) := by
  funext i j
  refine ((congrFun (W16_arr m ρ c 5) (ix2 i j)).trans (Reg8.out (V15 m ρ) c i j)).trans ?_
  unfold Net.z3
  refine lnK_entry (Reg8.yArr (V15 m ρ) c) (Reg8.meanArr (V15 m ρ) c) (Reg8.invstdArr (V15 m ρ) c) (Reg8.gainArr (V15 m ρ) c)
    (Reg8.shiftArr (V15 m ρ) c) (Net.y3 Cert.Spec.lnK (argsAt m c)) (argsAt m c).g3 (argsAt m c).bt3 ?_ ?_ ?_ ?_ ?_ i j
  · intro i j
    exact (congrFun (KHost.h8_keep_v105_0 (W14 m ρ c)) (ix2 i j)).trans (congrFun (congrFun (k_y3 m ρ c hz2) i) j)
  · refine (KHost.h8_mean (W14 m ρ c)).trans ?_
    rw [k_s3 m ρ c hz2]; rfl
  · refine (KHost.h8_inv (W14 m ρ c)).trans ?_
    rw [k_s3 m ρ c hz2, k_q3 m ρ c hz2]; rfl
  · intro j
    rw [argsAt_g3, cur1_apply]
    exact (KHost.h8_g (W14 m ρ c) j).trans (congrFun (arg14_at_W14 m ρ c) (ix1 j))
  · intro j
    rw [argsAt_bt3, cur1_apply]
    exact (KHost.h8_beta (W14 m ρ c) j).trans (congrFun (arg15_at_W14 m ρ c) (ix1 j))

end Cert.KernelIdeal.KVal

end
-- ==== Proof.Reg9.lean ====
/- Region 9 of the kernel: the linear layer from hidden width 64 to width 16.  Every grid point t multiplies rows 8192·t … 8192·t + 8191 of the
   input array [262144, 64] by the whole weight array [64, 16] (a matrix product into a zero accumulator, the change
   of float format being the identity on extended reals) and writes the 8192 × 16 result back as the same rows of the
   output array.  So the output array is, entry by entry, the sum over the 64 contraction positions of input times
   weight, whatever the arrays held when the region was entered. -/
import proofs.«167728_j48945447305605_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Reg9

open Idealize.ShloMosaic Idealize.ShloMosaic.TcCoe Cert.KernelIdeal Cert.KernelIdeal.Gen
open Idealize.ShloMosaic.Pipeline (Dat)
open Idealize.ShloMosaic.ValueIdx

/-- The zero offset of a whole-block access. -/
theorem hz : (![0, 0] : Fin 2 → Nat) = fun _ => 0 := funext fun a => by fin_cases a <;> rfl

/-! ## The body's arithmetic at an index -/

/-- The product's operand positions, axis by axis, at any output entry and contraction position: the left operand's row
    is the output's row, its column the contraction position; the right operand's row is the contraction position, its
    column the output's column. -/
theorem lhs0 (i : S8192x16.Idx) (q : dot_S8192x64_S64x16_S8192x16_1_0_0_1_n_n.contr.Idx) :
    (dot_S8192x64_S64x16_S8192x16_1_0_0_1_n_n.lhsIdx i q 0).val = (i 0).val := by
  unfold DotDims.lhsIdx
  rw [dif_neg (show ¬(0 : Fin S8192x64.rank) ∈ dot_S8192x64_S64x16_S8192x16_1_0_0_1_n_n.lhsBatch by decide),
    dif_pos (show (0 : Fin S8192x64.rank) ∈ dot_S8192x64_S64x16_S8192x16_1_0_0_1_n_n.lhsNonContracting by decide)]
  rfl
theorem lhs1 (i : S8192x16.Idx) (q : dot_S8192x64_S64x16_S8192x16_1_0_0_1_n_n.contr.Idx) :
    (dot_S8192x64_S64x16_S8192x16_1_0_0_1_n_n.lhsIdx i q 1).val = (q ⟨0, by decide⟩).val :=
  dot_S8192x64_S64x16_S8192x16_1_0_0_1_n_n.lhsIdx_val_of_single rfl i q
theorem rhs0 (i : S8192x16.Idx) (q : dot_S8192x64_S64x16_S8192x16_1_0_0_1_n_n.contr.Idx) :
    (dot_S8192x64_S64x16_S8192x16_1_0_0_1_n_n.rhsIdx i q 0).val = (q ⟨0, by decide⟩).val :=
  dot_S8192x64_S64x16_S8192x16_1_0_0_1_n_n.rhsIdx_val_of_single rfl i q
theorem rhs1 (i : S8192x16.Idx) (q : dot_S8192x64_S64x16_S8192x16_1_0_0_1_n_n.contr.Idx) :
    (dot_S8192x64_S64x16_S8192x16_1_0_0_1_n_n.rhsIdx i q 1).val = (i 1).val := by
  unfold DotDims.rhsIdx
  rw [dif_neg (show ¬(1 : Fin S64x16.rank) ∈ dot_S8192x64_S64x16_S8192x16_1_0_0_1_n_n.rhsBatch by decide),
    dif_pos (show (1 : Fin S64x16.rank) ∈ dot_S8192x64_S64x16_S8192x16_1_0_0_1_n_n.rhsNonContracting by decide)]
  rfl

/-- The body's stored value at entry (p, q) of its block: the sum over the 64 contraction positions of the input
    block's row p times the weight's column q (the cast to the same shape and the change of float format are the identity on
    extended reals, and the accumulator is zero). -/
theorem pay (x : Vec Ideal S8192x64 .f32) (w : Vec Ideal S64x16 .f32) (p : Fin 8192) (q : Fin 16) :
    k9_pay1 (F := Ideal) x w (ix2 p q) = ∑ k : Fin 64, x (ix2 p k) * w (ix2 k q) := by
  unfold k9_pay1
  refine (Ideal.matmul_constant_zero_apply dot_S8192x64_S64x16_S8192x16_1_0_0_1_n_n none _ _ (ix2 p q)).trans ?_
  rw [← Equiv.sum_comp (contrEquiv1 dot_S8192x64_S64x16_S8192x16_1_0_0_1_n_n 64 rfl rfl).symm]
  refine Finset.sum_congr rfl fun k _ => ?_
  have hk := contrEquiv1_symm_val dot_S8192x64_S64x16_S8192x16_1_0_0_1_n_n 64 rfl rfl k
  have el : dot_S8192x64_S64x16_S8192x16_1_0_0_1_n_n.lhsIdx (ix2 p q) ((contrEquiv1 dot_S8192x64_S64x16_S8192x16_1_0_0_1_n_n 64 rfl rfl).symm k) = ix2 p k :=
    funext fun a => Fin.ext (by
      match a with
      | ⟨0, _⟩ => exact lhs0 _ _
      | ⟨1, _⟩ => exact (lhs1 _ _).trans hk)
  have er : dot_S8192x64_S64x16_S8192x16_1_0_0_1_n_n.rhsIdx (ix2 p q) ((contrEquiv1 dot_S8192x64_S64x16_S8192x16_1_0_0_1_n_n 64 rfl rfl).symm k) = ix2 k q :=
    funext fun a => Fin.ext (by
      match a with
      | ⟨0, _⟩ => exact (rhs0 _ _).trans hk
      | ⟨1, _⟩ => exact rhs1 _ _)
  rw [el, er]
  exact congrArg (· * w (ix2 k q)) (congrFun (shapeCast_self x shapeCasts_S8192x64_S8192x64) (ix2 p k))

/-! ## From the blocks to the array -/

/-- The output array as one function of the two input arrays. -/
def G (a0 : S262144x64.Idx → EReal) (a1 : S64x16.Idx → EReal) : S262144x16.Idx → EReal :=
  fun i => ∑ k : Fin 64, a0 (ix2 (n0 := 262144) (i 0) k) * a1 (ix2 (n1 := 16) k (i 1))

theorem G_apply (a0 : S262144x64.Idx → EReal) (a1 : S64x16.Idx → EReal) (i : Fin 262144) (j : Fin 16) :
    G a0 a1 (ix2 i j) = ∑ k : Fin 64, a0 (ix2 i k) * a1 (ix2 k j) := rfl

/-- Where the windows' blocks sit at each of the 32 grid points: the input block and the output block at block row t,
    the weight block at the origin. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

variable (V : (c : Dev nD) → (b : Ref sig .tc) → Buf (Elt Ideal) ((c : Thread nD τ).loc b))

/-- The input block at point t is rows 8192·t … 8192·t + 8191 of the input array. -/
theorem blk0_apply (c : Dev nD) (t : Fin cfg9.N) (p : Fin 8192) (k : Fin 64) (r : Fin 262144)
    (hr : r.val = 8192 * t.val + p.val) :
    (iblk9 V c 0 t : Vec Ideal S8192x64 .f32) (ix2 p k)
      = (V c (Pipeline.arrRef spec9 0) : S262144x64.Idx → EReal) (ix2 r k) := by
  obtain ⟨e0, e1, -⟩ := idx_facts t
  unfold iblk9
  rw [View.read_apply]
  show (V c (Pipeline.arrRef spec9 0) : S262144x64.Idx → EReal) _ = _
  refine congrArg (V c (Pipeline.arrRef spec9 0) : S262144x64.Idx → EReal) (funext fun a => Fin.ext ?_)
  match a with
  | ⟨0, _⟩ => show win9_0.index t (0 : Fin 2) * 8192 + 1 * p.val = r.val; rw [e0, hr]; omega
  | ⟨1, _⟩ => show win9_0.index t (1 : Fin 2) * 64 + 1 * k.val = k.val; rw [e1]; omega

/-- The weight block at every point is the whole weight array. -/
theorem blk1_apply (c : Dev nD) (t : Fin cfg9.N) (k : Fin 64) (q : Fin 16) :
    (iblk9 V c 1 t : Vec Ideal S64x16 .f32) (ix2 k q)
      = (V c (Pipeline.arrRef spec9 1) : S64x16.Idx → EReal) (ix2 k q) := by
  obtain ⟨-, -, e0, e1, -⟩ := idx_facts t
  unfold iblk9
  rw [View.read_apply]
  show (V c (Pipeline.arrRef spec9 1) : S64x16.Idx → EReal) _ = _
  refine congrArg (V c (Pipeline.arrRef spec9 1) : S64x16.Idx → EReal) (funext fun a => Fin.ext ?_)
  match a with
  | ⟨0, _⟩ => show win9_1.index t (0 : Fin 2) * 64 + 1 * k.val = k.val; rw [e0]; omega
  | ⟨1, _⟩ => show win9_1.index t (1 : Fin 2) * 16 + 1 * q.val = q.val; rw [e1]; omega

/-- Entry (p, q) of the output block at point t is entry (8192·t + p, q) of the output array. -/
theorem emb2 (t : Fin cfg9.N) (p : Fin 8192) (q : Fin 16) (r : Fin 262144) (hr : r.val = 8192 * t.val + p.val) :
    ((cfg9.win 2).blk t).view.emb (ix2 p q) = (ix2 r q : S262144x16.Idx) := by
  obtain ⟨-, -, -, -, e0, e1⟩ := idx_facts t
  refine funext fun a => Fin.ext ?_
  match a with
  | ⟨0, _⟩ => show win9_2.index t (0 : Fin 2) * 8192 + 1 * p.val = r.val; rw [e0, hr]; omega
  | ⟨1, _⟩ => show win9_2.index t (1 : Fin 2) * 16 + 1 * q.val = q.val; rw [e1]; omega

/-- What point t writes back is block t of G of the arrays as the region finds them. -/
theorem flushed_eq (c : Dev nD) (t : Fin cfg9.N) :
    (dat9 V c).flushed 2 t = ((cfg9.win 2).blk t).view.read (Elt Ideal)
      (G (V c (Pipeline.arrRef spec9 0)) (V c (Pipeline.arrRef spec9 1))) := by
  show (cfg9.win 2).cut (grid9.coords t) ((dat9 V c).after 2 t) = _
  rw [after9_2]
  unfold out9_2
  rw [View.canon_unit_zero hz]
  simp only [View.ld_unit_zero (S := S8192x64) hz, View.ld_unit_zero (S := S64x16) hz]
  funext j
  obtain ⟨p, q, rfl⟩ : ∃ (p : Fin 8192) (q : Fin 16), j = ix2 p q := ⟨j 0, j 1, eq_ix2 j⟩
  have ht : t.val < 32 := Nat.lt_of_lt_of_eq t.isLt N_9
  obtain ⟨r, hr⟩ : ∃ r : Fin 262144, r.val = 8192 * t.val + p.val := ⟨⟨8192 * t.val + p.val, by omega⟩, rfl⟩
  show k9_pay1 (iblk9 V c 0 t) (iblk9 V c 1 t) (ix2 p q)
    = G (V c (Pipeline.arrRef spec9 0)) (V c (Pipeline.arrRef spec9 1)) (((cfg9.win 2).blk t).view.emb (ix2 p q))
  rw [emb2 t p q r hr, G_apply]
  refine (pay _ _ p q).trans ?_
  refine Finset.sum_congr rfl fun k _ => ?_
  rw [blk0_apply V c t p k r hr, blk1_apply V c t k q]

/-- An index of the output array is in point t's block iff each coordinate is in the block's range on its axis. -/
theorem mem_blk (t : Fin cfg9.N) (i : S262144x16.Idx) :
    i ∈ ((cfg9.win 2).blk t).view.set ↔ ∀ a : Fin 2, win9_2.index t a * S8192x16.size a ≤ (i a).val
      ∧ (i a).val < win9_2.index t a * S8192x16.size a + S8192x16.size a := by
  show i ∈ ((View.whole main_v121).slice (win9_2.rect t)).set ↔ _
  rw [View.set_slice_whole, Rect.mem_set_unit]
  exact Iff.rfl

/-- Every row of the output array is in the block of the point its row number divided by 8192 names. -/
theorem cover (i : S262144x16.Idx) :
    ∃ t : Fin cfg9.N, (cfg9.win 2).flush t = true ∧ i ∈ ((cfg9.win 2).blk t).view.set := by
  have hi0 : (i 0).val < 262144 := (i 0).isLt
  have hi1 : (i 1).val < 16 := (i 1).isLt
  have hN : cfg9.N = 32 := N_9
  obtain ⟨t, tv⟩ : ∃ t : Fin cfg9.N, t.val = (i 0).val / 8192 := ⟨⟨(i 0).val / 8192, by rw [hN]; omega⟩, rfl⟩
  obtain ⟨-, -, -, -, e0, e1⟩ := idx_facts t
  refine ⟨t, flush9_2 t, ?_⟩
  rw [mem_blk]
  intro a
  match a with
  | ⟨0, _⟩ =>
    show win9_2.index t (0 : Fin 2) * 8192 ≤ (i 0).val ∧ (i 0).val < win9_2.index t (0 : Fin 2) * 8192 + 8192
    rw [e0, tv]; omega
  | ⟨1, _⟩ =>
    show win9_2.index t (1 : Fin 2) * 16 ≤ (i 1).val ∧ (i 1).val < win9_2.index t (1 : Fin 2) * 16 + 16
    rw [e1]; omega

/-- The output array after the region is G of the input arrays as the region found them. -/
theorem final (c : Dev nD) :
    (dat9 V c).arrAt 2 cfg9.N = G (V c (Pipeline.arrRef spec9 0)) (V c (Pipeline.arrRef spec9 1)) :=
  (dat9 V c).arrAt_eq_of_cover 2 _ (fun t _ => flushed_eq V c t) cover

/-- Entry (i, j) of the output array the region leaves: the sum over the 64 positions k of input entry (i, k) times
    weight entry (k, j), whatever the arrays held when the region was entered (a0, a1 name the two input arrays as the
    region finds them). -/
theorem out (V : (c : Dev nD) → (b : Ref sig .tc) → Buf (Elt Ideal) ((c : Thread nD τ).loc b)) (c : Dev nD)
    (a0 : S262144x64.Idx → EReal) (a1 : S64x16.Idx → EReal)
    (h0 : V c (Pipeline.arrRef spec9 0) = a0) (h1 : V c (Pipeline.arrRef spec9 1) = a1)
    (i : Fin 262144) (j : Fin 16) :
    (dat9 (F := Ideal) V c).arrAt 2 cfg9.N (ValueIdx.ix2 i j)
      = ∑ k : Fin 64, a0 (ValueIdx.ix2 i k) * a1 (ValueIdx.ix2 k j) := by
  subst h0 h1
  rw [final V c]
  rfl

end Cert.KernelIdeal.Reg9

end
-- ==== Proof.Reg10.lean ====
import proofs.«167728_j48945447305605_1_alg».proof.Proof.Gen.KernelIdeal.Frame
import proofs.«167728_j48945447305605_1_alg».proof.Proof.Elu
import Idealize.ShloMosaic.Lib.Pipeline.Value
import Idealize.ShloMosaic.Lib.ValueLayout
import Idealize.ShloMosaic.Lib.IdealHost

/-!
# Region 10: the finalize step with the exponential linear unit, 16 features per node

The region walks the 262144 nodes in 32 blocks of 8192 rows. At each block it reads the aggregated
messages `agg` and the node features `h` (both 8192 × 16), the column `dis2` of per-node scales
(8192 × 1) and the bias row `b` (1 × 16, the same at every block), and writes

  `elu (agg + h * dis2 + b)`

entry by entry, `dis2` spread along the features and `b` down the nodes, the sum associated as
`(agg + h * dis2) + b`. Nothing is carried from one block to the next and the 32 output blocks tile the
output array, so after the region the output array holds, at node `i` and feature `j`,

  `elu (agg i j + h i j * dis2 i 0 + b 0 j)`

of the arrays as the region found them. The file proves this for arbitrary entry contents.
-/

noncomputable section

namespace Cert.KernelIdeal.Reg10

open Idealize.ShloMosaic Idealize.ShloMosaic.TcCoe Cert.KernelIdeal Cert.KernelIdeal.Gen
open Idealize.ShloMosaic.ValueIdx
open Idealize.ShloMosaic.Pipeline (Dat)

/-! ## The body's arithmetic at one entry of a block -/

/-- A column of 8192 entries spread along the 16 feature columns reads, at `(p, q)`, the column's entry at `p`. -/
theorem bcast_col (v : Vec Ideal S8192x1 .f32) (h : S8192x1.Broadcasts S8192x16) (p : Fin 8192) (q : Fin 16) :
    broadcastTo S8192x16 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A row of 16 entries spread down the 8192 rows reads, at `(p, q)`, the row's entry at `q`. -/
theorem bcast_row (v : Vec Ideal S1x16 .f32) (h : S1x16.Broadcasts S8192x16) (p : Fin 8192) (q : Fin 16) :
    broadcastTo S8192x16 v h (ix2 p q) = v (ix2 (0 : Fin 1) q) :=
  broadcastTo_1b_ab_apply v h p q

/-- The exponential of a vector at an index is the exponential of the entry. -/
theorem exp_apply {s : Shape} {φ : FTy} (a : FVec Ideal s φ) (i : s.Idx) : exp a i = Ideal.exp (a i) := rfl

/-- Choosing by the one-bit answer to "is `y` greater than zero" is the `if` on `0 < y`. -/
theorem select_gt (y a b : EReal) : Scalar.select (Ideal.cmp .ogt y 0) a b = if 0 < y then a else b := by
  unfold Ideal.cmp Scalar.select
  by_cases h : 0 < y
  · simp [h]
  · simp [h]

/-- The body's stored value at row `p`, feature `q` of a block: the exponential linear unit of
    `agg + h * dis2 + b` there. The two shape casts are identities, the words `0x00000000` and `0x3F800000`
    are zero and one. -/
theorem pay_apply (x0 x1 : Vec Ideal S8192x16 .f32) (x2 : Vec Ideal S8192x1 .f32) (x3 : Vec Ideal S1x16 .f32)
    (p : Fin 8192) (q : Fin 16) :
    k10_pay1 x0 x1 x2 x3 (ix2 p q)
      = Cert.Spec.elu (x0 (ix2 p q) + x1 (ix2 p q) * x2 (ix2 p (0 : Fin 1)) + x3 (ix2 (0 : Fin 1) q)) := by
  unfold k10_pay1
  simp only [shapeCast_self]
  rw [select_apply, cmpf_apply, subf_apply, exp_apply, addf_apply, addf_apply, mulf_apply, broadcast_apply, broadcast_apply,
    bcast_col, bcast_row, Ideal.ofBits_def, Ideal.ofBits_def, Ideal.ofBits_zero_f32, Ideal.ofBits_one_f32, Ideal.cmpf_def]
  exact select_gt _ _ _

/-- The same at any index of the block, the index split into its row and its feature. -/
theorem pay_at (x0 x1 : Vec Ideal S8192x16 .f32) (x2 : Vec Ideal S8192x1 .f32) (x3 : Vec Ideal S1x16 .f32)
    (y : S8192x16.Idx) :
    k10_pay1 x0 x1 x2 x3 y
      = Cert.Spec.elu (x0 y + x1 y * x2 (ix2 (y 0 : Fin 8192) (0 : Fin 1)) + x3 (ix2 (0 : Fin 1) (y 1 : Fin 16))) := by
  obtain ⟨p, q, rfl⟩ : ∃ (p : Fin 8192) (q : Fin 16), y = ix2 p q := ⟨y 0, y 1, eq_ix2 y⟩
  exact pay_apply x0 x1 x2 x3 p q

/-! ## The whole output array as one function of the input arrays -/

/-- What the output array holds after the region: at node `i 0` and feature `i 1`, the exponential linear
    unit of `agg + h * dis2 + b`, the scale read in the node's row and the bias in the feature's column. -/
abbrev G (A H : S262144x16.Idx → EReal) (D : S262144x1.Idx → EReal) (B : S1x16.Idx → EReal) : S262144x16.Idx → EReal :=
  fun i => Cert.Spec.elu (A i + H i * D (ix2 (i 0 : Fin 262144) (0 : Fin 1)) + B (ix2 (0 : Fin 1) (i 1 : Fin 16)))

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t` (decided over the 32 points): the four node-indexed
    windows are at block row `t`, the bias window stays at its one block. -/
theorem idx_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0 :=
  (by decide +kernel : ∀ t : Fin grid10.N, _)

/-- The block of `agg` at point `t` is rows `8192 t … 8192 t + 8191` of the array. -/
theorem blk0 (c : Dev nD) (t : Fin cfg10.N) (y : S8192x16.Idx) (i : S262144x16.Idx)
    (h0 : (i 0).val = 8192 * t.val + (y 0).val) (h1 : (i 1).val = (y 1).val) :
    (iblk10 V c 0 t : Vec Ideal S8192x16 .f32) y = (V c (Pipeline.arrRef spec10 0) : S262144x16.Idx → EReal) i := by
  obtain ⟨e0, e1, -⟩ := idx_facts t
  unfold iblk10
  rw [View.read_apply]
  show V c (Pipeline.arrRef spec10 0) _ = V c (Pipeline.arrRef spec10 0) _
  refine congrArg (V c (Pipeline.arrRef spec10 0)) ?_
  funext a
  apply Fin.ext
  match a with
  | ⟨0, _⟩ => show win10_0.index t (0 : Fin 2) * 8192 + 1 * (y 0).val = (i 0).val; rw [e0, h0]; omega
  | ⟨1, _⟩ => show win10_0.index t (1 : Fin 2) * 16 + 1 * (y 1).val = (i 1).val; rw [e1, h1]; omega

/-- The block of `h` at point `t` is rows `8192 t … 8192 t + 8191` of the array. -/
theorem blk1 (c : Dev nD) (t : Fin cfg10.N) (y : S8192x16.Idx) (i : S262144x16.Idx)
    (h0 : (i 0).val = 8192 * t.val + (y 0).val) (h1 : (i 1).val = (y 1).val) :
    (iblk10 V c 1 t : Vec Ideal S8192x16 .f32) y = (V c (Pipeline.arrRef spec10 1) : S262144x16.Idx → EReal) i := by
  obtain ⟨-, -, e0, e1, -⟩ := idx_facts t
  unfold iblk10
  rw [View.read_apply]
  show V c (Pipeline.arrRef spec10 1) _ = V c (Pipeline.arrRef spec10 1) _
  refine congrArg (V c (Pipeline.arrRef spec10 1)) ?_
  funext a
  apply Fin.ext
  match a with
  | ⟨0, _⟩ => show win10_1.index t (0 : Fin 2) * 8192 + 1 * (y 0).val = (i 0).val; rw [e0, h0]; omega
  | ⟨1, _⟩ => show win10_1.index t (1 : Fin 2) * 16 + 1 * (y 1).val = (i 1).val; rw [e1, h1]; omega

/-- The block of the scale column at point `t` is rows `8192 t … 8192 t + 8191` of the column. -/
theorem blk2 (c : Dev nD) (t : Fin cfg10.N) (y : S8192x1.Idx) (i : S262144x1.Idx)
    (h0 : (i 0).val = 8192 * t.val + (y 0).val) (h1 : (i 1).val = (y 1).val) :
    (iblk10 V c 2 t : Vec Ideal S8192x1 .f32) y = (V c (Pipeline.arrRef spec10 2) : S262144x1.Idx → EReal) i := by
  obtain ⟨-, -, -, -, e0, e1, -⟩ := idx_facts t
  unfold iblk10
  rw [View.read_apply]
  show V c (Pipeline.arrRef spec10 2) _ = V c (Pipeline.arrRef spec10 2) _
  refine congrArg (V c (Pipeline.arrRef spec10 2)) ?_
  funext a
  apply Fin.ext
  match a with
  | ⟨0, _⟩ => show win10_2.index t (0 : Fin 2) * 8192 + 1 * (y 0).val = (i 0).val; rw [e0, h0]; omega
  | ⟨1, _⟩ => show win10_2.index t (1 : Fin 2) * 1 + 1 * (y 1).val = (i 1).val; rw [e1, h1]; omega

/-- The bias window's one block is the whole bias row, at every point. -/
theorem blk3 (c : Dev nD) (t : Fin cfg10.N) (y : S1x16.Idx) (i : S1x16.Idx)
    (h0 : (i 0).val = (y 0).val) (h1 : (i 1).val = (y 1).val) :
    (iblk10 V c 3 t : Vec Ideal S1x16 .f32) y = (V c (Pipeline.arrRef spec10 3) : S1x16.Idx → EReal) i := by
  obtain ⟨-, -, -, -, -, -, e0, e1, -⟩ := idx_facts t
  unfold iblk10
  rw [View.read_apply]
  show V c (Pipeline.arrRef spec10 3) _ = V c (Pipeline.arrRef spec10 3) _
  refine congrArg (V c (Pipeline.arrRef spec10 3)) ?_
  funext a
  apply Fin.ext
  match a with
  | ⟨0, _⟩ => show win10_3.index t (0 : Fin 2) * 1 + 1 * (y 0).val = (i 0).val; rw [e0, h0]; omega
  | ⟨1, _⟩ => show win10_3.index t (1 : Fin 2) * 16 + 1 * (y 1).val = (i 1).val; rw [e1, h1]; omega

/-! ## From the blocks to the array -/

/-- What point `t` writes back is block `t` of `G` of the arrays as the region found them: the body's one
    store covers its whole buffer, its value at a block index is `pay_at`, and each input block read at that
    index is the input array read at the same node and feature. -/
theorem flushed_eq (c : Dev nD) (t : Fin cfg10.N) :
    (dat10 (F := Ideal) V c).flushed 4 t
      = ((cfg10.win 4).blk t).view.read (Elt Ideal)
          (G (V c (Pipeline.arrRef spec10 0)) (V c (Pipeline.arrRef spec10 1)) (V c (Pipeline.arrRef spec10 2)) (V c (Pipeline.arrRef spec10 3))) := by
  show (cfg10.win 4).cut (grid10.coords t) ((dat10 (F := Ideal) V c).after 4 t) = _
  rw [after10_4]
  unfold out10_4
  rw [View.canon_unit_zero hz]
  simp only [View.ld_unit_zero (S := S8192x16) hz, View.ld_unit_zero (S := S8192x1) hz, View.ld_unit_zero (S := S1x16) hz]
  obtain ⟨-, -, -, -, -, -, -, -, e0, e1⟩ := idx_facts t
  funext j
  show k10_pay1 (iblk10 V c 0 t) (iblk10 V c 1 t) (iblk10 V c 2 t) (iblk10 V c 3 t) j
      = G (V c (Pipeline.arrRef spec10 0)) (V c (Pipeline.arrRef spec10 1)) (V c (Pipeline.arrRef spec10 2)) (V c (Pipeline.arrRef spec10 3))
          (((cfg10.win 4).blk t).view.emb j)
  have hi0 : (((((cfg10.win 4).blk t).view.emb j : S262144x16.Idx) 0).val : Nat) = 8192 * t.val + (j 0).val := by
    show win10_4.index t (0 : Fin 2) * 8192 + 1 * (j 0).val = _
    rw [e0]; omega
  have hi1 : (((((cfg10.win 4).blk t).view.emb j : S262144x16.Idx) 1).val : Nat) = (j 1).val := by
    show win10_4.index t (1 : Fin 2) * 16 + 1 * (j 1).val = _
    rw [e1]; omega
  refine (pay_at (iblk10 V c 0 t) (iblk10 V c 1 t) (iblk10 V c 2 t) (iblk10 V c 3 t) j).trans ?_
  refine congrArg Cert.Spec.elu ?_
  refine congrArg₂ (· + ·) (congrArg₂ (· + ·) (blk0 V c t j _ hi0 hi1) (congrArg₂ (· * ·) (blk1 V c t j _ hi0 hi1) (blk2 V c t _ _ hi0 rfl))) (blk3 V c t _ _ rfl hi1)

/-- A node-and-feature index lies in point `t`'s output block iff each coordinate is in the block's range. -/
theorem mem_blk (t : Fin cfg10.N) (i : S262144x16.Idx) :
    i ∈ ((cfg10.win 4).blk t).view.set ↔ ∀ a : Fin 2, win10_4.index t a * S8192x16.size a ≤ (i a).val ∧ (i a).val < win10_4.index t a * S8192x16.size a + S8192x16.size a := by
  show i ∈ ((View.whole main_v136).slice (win10_4.rect t)).set ↔ _
  rw [View.set_slice_whole, Rect.mem_set_unit]
  exact Iff.rfl

/-- Every index of the output array is in the block of the point that owns its node: node `r` belongs to
    point `r / 8192`, and every point writes its block back. -/
theorem cover (i : S262144x16.Idx) :
    ∃ t : Fin cfg10.N, (cfg10.win 4).flush t = true ∧ i ∈ ((cfg10.win 4).blk t).view.set := by
  have hi0 : (i 0).val < 262144 := (i 0).isLt
  have hi1 : (i 1).val < 16 := (i 1).isLt
  obtain ⟨t, ht⟩ : ∃ t : Fin cfg10.N, t.val = (i 0).val / 8192 :=
    ⟨⟨(i 0).val / 8192, by rw [show cfg10.N = 32 from N_10]; omega⟩, rfl⟩
  obtain ⟨-, -, -, -, -, -, -, -, e0, e1⟩ := idx_facts t
  refine ⟨t, flush10_4 t, ?_⟩
  rw [mem_blk]
  intro a
  match a with
  | ⟨0, _⟩ => show win10_4.index t (0 : Fin 2) * 8192 ≤ (i 0).val ∧ (i 0).val < win10_4.index t (0 : Fin 2) * 8192 + 8192; rw [e0, ht]; omega
  | ⟨1, _⟩ => show win10_4.index t (1 : Fin 2) * 16 ≤ (i 1).val ∧ (i 1).val < win10_4.index t (1 : Fin 2) * 16 + 16; rw [e1]; omega

/-- The output array after the region is `G` of the input arrays as the region found them. -/
theorem final (c : Dev nD) :
    (dat10 (F := Ideal) V c).arrAt 4 cfg10.N
      = G (V c (Pipeline.arrRef spec10 0)) (V c (Pipeline.arrRef spec10 1)) (V c (Pipeline.arrRef spec10 2)) (V c (Pipeline.arrRef spec10 3)) :=
  (dat10 (F := Ideal) V c).arrAt_eq_of_cover 4 _ (fun t _ => flushed_eq V c t) cover

/-- The four input arrays as the region finds them, as functions of node and feature: the aggregated
    messages, the node features, the per-node scales and the bias. -/
abbrev A (c : Dev nD) : S262144x16.Idx → EReal := V c (Pipeline.arrRef spec10 0)
abbrev H (c : Dev nD) : S262144x16.Idx → EReal := V c (Pipeline.arrRef spec10 1)
abbrev D (c : Dev nD) : S262144x1.Idx → EReal := V c (Pipeline.arrRef spec10 2)
abbrev B (c : Dev nD) : S1x16.Idx → EReal := V c (Pipeline.arrRef spec10 3)

/-- The output array at node `i`, feature `j`: the exponential linear unit of
    `agg i j + h i j * dis2 i 0 + b 0 j`, read in the arrays as the region found them. -/
theorem out (c : Dev nD) (i : Fin 262144) (j : Fin 16) :
    (dat10 (F := Ideal) V c).arrAt 4 cfg10.N (ix2 i j)
      = Cert.Spec.elu (A V c (ix2 i j) + H V c (ix2 i j) * D V c (ix2 i (0 : Fin 1)) + B V c (ix2 (0 : Fin 1) j)) :=
  congrFun (final V c) (ix2 i j)

end Cert.KernelIdeal.Reg10

end
-- ==== Proof.Reg11.lean ====
/- Region 11 of the kernel: the last linear layer, from width 16 to one column.  Every grid point t multiplies rows 8192·t … 8192·t + 8191 of the
   input array [262144, 16] by the whole weight array [16, 1] (a matrix product into a zero accumulator, the change
   of float format being the identity on extended reals) and writes the 8192 × 1 result back as the same rows of the
   output array.  So the output array is, entry by entry, the sum over the 16 contraction positions of input times
   weight, whatever the arrays held when the region was entered. -/
import proofs.«167728_j48945447305605_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Reg11

open Idealize.ShloMosaic Idealize.ShloMosaic.TcCoe Cert.KernelIdeal Cert.KernelIdeal.Gen
open Idealize.ShloMosaic.Pipeline (Dat)
open Idealize.ShloMosaic.ValueIdx

/-- The zero offset of a whole-block access. -/
theorem hz : (![0, 0] : Fin 2 → Nat) = fun _ => 0 := funext fun a => by fin_cases a <;> rfl

/-! ## The body's arithmetic at an index -/

/-- The product's operand positions, axis by axis, at any output entry and contraction position: the left operand's row
    is the output's row, its column the contraction position; the right operand's row is the contraction position, its
    column the output's column. -/
theorem lhs0 (i : S8192x1.Idx) (q : dot_S8192x16_S16x1_S8192x1_1_0_0_1_n_n.contr.Idx) :
    (dot_S8192x16_S16x1_S8192x1_1_0_0_1_n_n.lhsIdx i q 0).val = (i 0).val := by
  unfold DotDims.lhsIdx
  rw [dif_neg (show ¬(0 : Fin S8192x16.rank) ∈ dot_S8192x16_S16x1_S8192x1_1_0_0_1_n_n.lhsBatch by decide),
    dif_pos (show (0 : Fin S8192x16.rank) ∈ dot_S8192x16_S16x1_S8192x1_1_0_0_1_n_n.lhsNonContracting by decide)]
  rfl
theorem lhs1 (i : S8192x1.Idx) (q : dot_S8192x16_S16x1_S8192x1_1_0_0_1_n_n.contr.Idx) :
    (dot_S8192x16_S16x1_S8192x1_1_0_0_1_n_n.lhsIdx i q 1).val = (q ⟨0, by decide⟩).val :=
  dot_S8192x16_S16x1_S8192x1_1_0_0_1_n_n.lhsIdx_val_of_single rfl i q
theorem rhs0 (i : S8192x1.Idx) (q : dot_S8192x16_S16x1_S8192x1_1_0_0_1_n_n.contr.Idx) :
    (dot_S8192x16_S16x1_S8192x1_1_0_0_1_n_n.rhsIdx i q 0).val = (q ⟨0, by decide⟩).val :=
  dot_S8192x16_S16x1_S8192x1_1_0_0_1_n_n.rhsIdx_val_of_single rfl i q
theorem rhs1 (i : S8192x1.Idx) (q : dot_S8192x16_S16x1_S8192x1_1_0_0_1_n_n.contr.Idx) :
    (dot_S8192x16_S16x1_S8192x1_1_0_0_1_n_n.rhsIdx i q 1).val = (i 1).val := by
  unfold DotDims.rhsIdx
  rw [dif_neg (show ¬(1 : Fin S16x1.rank) ∈ dot_S8192x16_S16x1_S8192x1_1_0_0_1_n_n.rhsBatch by decide),
    dif_pos (show (1 : Fin S16x1.rank) ∈ dot_S8192x16_S16x1_S8192x1_1_0_0_1_n_n.rhsNonContracting by decide)]
  rfl

/-- The body's stored value at entry (p, q) of its block: the sum over the 16 contraction positions of the input
    block's row p times the weight's column q (the cast to the same shape and the change of float format are the identity on
    extended reals, and the accumulator is zero). -/
theorem pay (x : Vec Ideal S8192x16 .f32) (w : Vec Ideal S16x1 .f32) (p : Fin 8192) (q : Fin 1) :
    k11_pay1 (F := Ideal) x w (ix2 p q) = ∑ k : Fin 16, x (ix2 p k) * w (ix2 k q) := by
  unfold k11_pay1
  refine (Ideal.matmul_constant_zero_apply dot_S8192x16_S16x1_S8192x1_1_0_0_1_n_n none _ _ (ix2 p q)).trans ?_
  rw [← Equiv.sum_comp (contrEquiv1 dot_S8192x16_S16x1_S8192x1_1_0_0_1_n_n 16 rfl rfl).symm]
  refine Finset.sum_congr rfl fun k _ => ?_
  have hk := contrEquiv1_symm_val dot_S8192x16_S16x1_S8192x1_1_0_0_1_n_n 16 rfl rfl k
  have el : dot_S8192x16_S16x1_S8192x1_1_0_0_1_n_n.lhsIdx (ix2 p q) ((contrEquiv1 dot_S8192x16_S16x1_S8192x1_1_0_0_1_n_n 16 rfl rfl).symm k) = ix2 p k :=
    funext fun a => Fin.ext (by
      match a with
      | ⟨0, _⟩ => exact lhs0 _ _
      | ⟨1, _⟩ => exact (lhs1 _ _).trans hk)
  have er : dot_S8192x16_S16x1_S8192x1_1_0_0_1_n_n.rhsIdx (ix2 p q) ((contrEquiv1 dot_S8192x16_S16x1_S8192x1_1_0_0_1_n_n 16 rfl rfl).symm k) = ix2 k q :=
    funext fun a => Fin.ext (by
      match a with
      | ⟨0, _⟩ => exact (rhs0 _ _).trans hk
      | ⟨1, _⟩ => exact rhs1 _ _)
  rw [el, er]
  exact congrArg (· * w (ix2 k q)) (congrFun (shapeCast_self x shapeCasts_S8192x16_S8192x16) (ix2 p k))

/-! ## From the blocks to the array -/

/-- The output array as one function of the two input arrays. -/
def G (a0 : S262144x16.Idx → EReal) (a1 : S16x1.Idx → EReal) : S262144x1.Idx → EReal :=
  fun i => ∑ k : Fin 16, a0 (ix2 (n0 := 262144) (i 0) k) * a1 (ix2 (n1 := 1) k (i 1))

theorem G_apply (a0 : S262144x16.Idx → EReal) (a1 : S16x1.Idx → EReal) (i : Fin 262144) (j : Fin 1) :
    G a0 a1 (ix2 i j) = ∑ k : Fin 16, a0 (ix2 i k) * a1 (ix2 k j) := rfl

/-- Where the windows' blocks sit at each of the 32 grid points: the input block and the output block at block row t,
    the weight block at the origin. -/
theorem idx_facts : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

variable (V : (c : Dev nD) → (b : Ref sig .tc) → Buf (Elt Ideal) ((c : Thread nD τ).loc b))

/-- The input block at point t is rows 8192·t … 8192·t + 8191 of the input array. -/
theorem blk0_apply (c : Dev nD) (t : Fin cfg11.N) (p : Fin 8192) (k : Fin 16) (r : Fin 262144)
    (hr : r.val = 8192 * t.val + p.val) :
    (iblk11 V c 0 t : Vec Ideal S8192x16 .f32) (ix2 p k)
      = (V c (Pipeline.arrRef spec11 0) : S262144x16.Idx → EReal) (ix2 r k) := by
  obtain ⟨e0, e1, -⟩ := idx_facts t
  unfold iblk11
  rw [View.read_apply]
  show (V c (Pipeline.arrRef spec11 0) : S262144x16.Idx → EReal) _ = _
  refine congrArg (V c (Pipeline.arrRef spec11 0) : S262144x16.Idx → EReal) (funext fun a => Fin.ext ?_)
  match a with
  | ⟨0, _⟩ => show win11_0.index t (0 : Fin 2) * 8192 + 1 * p.val = r.val; rw [e0, hr]; omega
  | ⟨1, _⟩ => show win11_0.index t (1 : Fin 2) * 16 + 1 * k.val = k.val; rw [e1]; omega

/-- The weight block at every point is the whole weight array. -/
theorem blk1_apply (c : Dev nD) (t : Fin cfg11.N) (k : Fin 16) (q : Fin 1) :
    (iblk11 V c 1 t : Vec Ideal S16x1 .f32) (ix2 k q)
      = (V c (Pipeline.arrRef spec11 1) : S16x1.Idx → EReal) (ix2 k q) := by
  obtain ⟨-, -, e0, e1, -⟩ := idx_facts t
  unfold iblk11
  rw [View.read_apply]
  show (V c (Pipeline.arrRef spec11 1) : S16x1.Idx → EReal) _ = _
  refine congrArg (V c (Pipeline.arrRef spec11 1) : S16x1.Idx → EReal) (funext fun a => Fin.ext ?_)
  match a with
  | ⟨0, _⟩ => show win11_1.index t (0 : Fin 2) * 16 + 1 * k.val = k.val; rw [e0]; omega
  | ⟨1, _⟩ => show win11_1.index t (1 : Fin 2) * 1 + 1 * q.val = q.val; rw [e1]; omega

/-- Entry (p, q) of the output block at point t is entry (8192·t + p, q) of the output array. -/
theorem emb2 (t : Fin cfg11.N) (p : Fin 8192) (q : Fin 1) (r : Fin 262144) (hr : r.val = 8192 * t.val + p.val) :
    ((cfg11.win 2).blk t).view.emb (ix2 p q) = (ix2 r q : S262144x1.Idx) := by
  obtain ⟨-, -, -, -, e0, e1⟩ := idx_facts t
  refine funext fun a => Fin.ext ?_
  match a with
  | ⟨0, _⟩ => show win11_2.index t (0 : Fin 2) * 8192 + 1 * p.val = r.val; rw [e0, hr]; omega
  | ⟨1, _⟩ => show win11_2.index t (1 : Fin 2) * 1 + 1 * q.val = q.val; rw [e1]; omega

/-- What point t writes back is block t of G of the arrays as the region finds them. -/
theorem flushed_eq (c : Dev nD) (t : Fin cfg11.N) :
    (dat11 V c).flushed 2 t = ((cfg11.win 2).blk t).view.read (Elt Ideal)
      (G (V c (Pipeline.arrRef spec11 0)) (V c (Pipeline.arrRef spec11 1))) := by
  show (cfg11.win 2).cut (grid11.coords t) ((dat11 V c).after 2 t) = _
  rw [after11_2]
  unfold out11_2
  rw [View.canon_unit_zero hz]
  simp only [View.ld_unit_zero (S := S8192x16) hz, View.ld_unit_zero (S := S16x1) hz]
  funext j
  obtain ⟨p, q, rfl⟩ : ∃ (p : Fin 8192) (q : Fin 1), j = ix2 p q := ⟨j 0, j 1, eq_ix2 j⟩
  have ht : t.val < 32 := Nat.lt_of_lt_of_eq t.isLt N_11
  obtain ⟨r, hr⟩ : ∃ r : Fin 262144, r.val = 8192 * t.val + p.val := ⟨⟨8192 * t.val + p.val, by omega⟩, rfl⟩
  show k11_pay1 (iblk11 V c 0 t) (iblk11 V c 1 t) (ix2 p q)
    = G (V c (Pipeline.arrRef spec11 0)) (V c (Pipeline.arrRef spec11 1)) (((cfg11.win 2).blk t).view.emb (ix2 p q))
  rw [emb2 t p q r hr, G_apply]
  refine (pay _ _ p q).trans ?_
  refine Finset.sum_congr rfl fun k _ => ?_
  rw [blk0_apply V c t p k r hr, blk1_apply V c t k q]

/-- An index of the output array is in point t's block iff each coordinate is in the block's range on its axis. -/
theorem mem_blk (t : Fin cfg11.N) (i : S262144x1.Idx) :
    i ∈ ((cfg11.win 2).blk t).view.set ↔ ∀ a : Fin 2, win11_2.index t a * S8192x1.size a ≤ (i a).val
      ∧ (i a).val < win11_2.index t a * S8192x1.size a + S8192x1.size a := by
  show i ∈ ((View.whole main_v137).slice (win11_2.rect t)).set ↔ _
  rw [View.set_slice_whole, Rect.mem_set_unit]
  exact Iff.rfl

/-- Every row of the output array is in the block of the point its row number divided by 8192 names. -/
theorem cover (i : S262144x1.Idx) :
    ∃ t : Fin cfg11.N, (cfg11.win 2).flush t = true ∧ i ∈ ((cfg11.win 2).blk t).view.set := by
  have hi0 : (i 0).val < 262144 := (i 0).isLt
  have hi1 : (i 1).val < 1 := (i 1).isLt
  have hN : cfg11.N = 32 := N_11
  obtain ⟨t, tv⟩ : ∃ t : Fin cfg11.N, t.val = (i 0).val / 8192 := ⟨⟨(i 0).val / 8192, by rw [hN]; omega⟩, rfl⟩
  obtain ⟨-, -, -, -, e0, e1⟩ := idx_facts t
  refine ⟨t, flush11_2 t, ?_⟩
  rw [mem_blk]
  intro a
  match a with
  | ⟨0, _⟩ =>
    show win11_2.index t (0 : Fin 2) * 8192 ≤ (i 0).val ∧ (i 0).val < win11_2.index t (0 : Fin 2) * 8192 + 8192
    rw [e0, tv]; omega
  | ⟨1, _⟩ =>
    show win11_2.index t (1 : Fin 2) * 1 ≤ (i 1).val ∧ (i 1).val < win11_2.index t (1 : Fin 2) * 1 + 1
    rw [e1]; omega

/-- The output array after the region is G of the input arrays as the region found them. -/
theorem final (c : Dev nD) :
    (dat11 V c).arrAt 2 cfg11.N = G (V c (Pipeline.arrRef spec11 0)) (V c (Pipeline.arrRef spec11 1)) :=
  (dat11 V c).arrAt_eq_of_cover 2 _ (fun t _ => flushed_eq V c t) cover

/-- Entry (i, j) of the output array the region leaves: the sum over the 16 positions k of input entry (i, k) times
    weight entry (k, j), whatever the arrays held when the region was entered (a0, a1 name the two input arrays as the
    region finds them). -/
theorem out (V : (c : Dev nD) → (b : Ref sig .tc) → Buf (Elt Ideal) ((c : Thread nD τ).loc b)) (c : Dev nD)
    (a0 : S262144x16.Idx → EReal) (a1 : S16x1.Idx → EReal)
    (h0 : V c (Pipeline.arrRef spec11 0) = a0) (h1 : V c (Pipeline.arrRef spec11 1) = a1)
    (i : Fin 262144) (j : Fin 1) :
    (dat11 (F := Ideal) V c).arrAt 2 cfg11.N (ValueIdx.ix2 i j)
      = ∑ k : Fin 16, a0 (ValueIdx.ix2 i k) * a1 (ValueIdx.ix2 k j) := by
  subst h0 h1
  rw [final V c]
  rfl

end Cert.KernelIdeal.Reg11

end
-- ==== Proof.Reg12.lean ====
import proofs.«167728_j48945447305605_1_alg».proof.Proof.Gen.KernelIdeal.Frame
import proofs.«167728_j48945447305605_1_alg».proof.Proof.Elu
import Idealize.ShloMosaic.Lib.Pipeline.Value
import Idealize.ShloMosaic.Lib.ValueLayout
import Idealize.ShloMosaic.Lib.IdealHost

/-!
# Region 12: the finalize step with the exponential linear unit, one feature per node

The region walks the 262144 nodes in 32 blocks of 8192 rows. At each block it reads the aggregated
messages `agg`, the node values `h` and the per-node scales `dis2` (each a column of 8192 entries) and the
one bias entry `b` (1 × 1, the same at every block), and writes

  `elu (agg + h * dis2 + b)`

entry by entry, the bias spread down the nodes, the sum associated as `(agg + h * dis2) + b`. Nothing is
carried from one block to the next and the 32 output blocks tile the output column, so after the region the
output holds, at node `i` (and the one feature `j`),

  `elu (agg i j + h i j * dis2 i 0 + b 0 j)`

of the arrays as the region found them. The file proves this for arbitrary entry contents.
-/

noncomputable section

namespace Cert.KernelIdeal.Reg12

open Idealize.ShloMosaic Idealize.ShloMosaic.TcCoe Cert.KernelIdeal Cert.KernelIdeal.Gen
open Idealize.ShloMosaic.ValueIdx
open Idealize.ShloMosaic.Pipeline (Dat)

/-! ## The body's arithmetic at one entry of a block -/

/-- The one bias entry spread down the 8192 rows reads, at `(p, q)`, that entry. -/
theorem bcast_row (v : Vec Ideal S1x1 .f32) (h : S1x1.Broadcasts S8192x1) (p : Fin 8192) (q : Fin 1) :
    broadcastTo S8192x1 v h (ix2 p q) = v (ix2 (0 : Fin 1) q) :=
  broadcastTo_1b_ab_apply v h p q

/-- The exponential of a vector at an index is the exponential of the entry. -/
theorem exp_apply {s : Shape} {φ : FTy} (a : FVec Ideal s φ) (i : s.Idx) : exp a i = Ideal.exp (a i) := rfl

/-- Choosing by the one-bit answer to "is `y` greater than zero" is the `if` on `0 < y`. -/
theorem select_gt (y a b : EReal) : Scalar.select (Ideal.cmp .ogt y 0) a b = if 0 < y then a else b := by
  unfold Ideal.cmp Scalar.select
  by_cases h : 0 < y
  · simp [h]
  · simp [h]

/-- The body's stored value at row `p` of a block (the one feature `q` is feature 0): the exponential
    linear unit of `agg + h * dis2 + b` there. The shape casts are identities, the words `0x00000000` and
    `0x3F800000` are zero and one. -/
theorem pay_apply (x0 x1 x2 : Vec Ideal S8192x1 .f32) (x3 : Vec Ideal S1x1 .f32)
    (p : Fin 8192) (q : Fin 1) :
    k12_pay1 x0 x1 x2 x3 (ix2 p q)
      = Cert.Spec.elu (x0 (ix2 p q) + x1 (ix2 p q) * x2 (ix2 p (0 : Fin 1)) + x3 (ix2 (0 : Fin 1) q)) := by
  have hq : q = 0 := Fin.fin_one_eq_zero q
  subst hq
  unfold k12_pay1
  simp only [shapeCast_self]
  rw [select_apply, cmpf_apply, subf_apply, exp_apply, addf_apply, addf_apply, mulf_apply, broadcast_apply, broadcast_apply,
    bcast_row, Ideal.ofBits_def, Ideal.ofBits_def, Ideal.ofBits_zero_f32, Ideal.ofBits_one_f32, Ideal.cmpf_def]
  exact select_gt _ _ _

/-- The same at any index of the block, the index split into its row and its feature. -/
theorem pay_at (x0 x1 : Vec Ideal S8192x1 .f32) (x2 : Vec Ideal S8192x1 .f32) (x3 : Vec Ideal S1x1 .f32)
    (y : S8192x1.Idx) :
    k12_pay1 x0 x1 x2 x3 y
      = Cert.Spec.elu (x0 y + x1 y * x2 (ix2 (y 0 : Fin 8192) (0 : Fin 1)) + x3 (ix2 (0 : Fin 1) (y 1 : Fin 1))) := by
  obtain ⟨p, q, rfl⟩ : ∃ (p : Fin 8192) (q : Fin 1), y = ix2 p q := ⟨y 0, y 1, eq_ix2 y⟩
  exact pay_apply x0 x1 x2 x3 p q

/-! ## The whole output array as one function of the input arrays -/

/-- What the output array holds after the region: at node `i 0` and feature `i 1`, the exponential linear
    unit of `agg + h * dis2 + b`, the scale read in the node's row and the bias at its one entry. -/
abbrev G (A H : S262144x1.Idx → EReal) (D : S262144x1.Idx → EReal) (B : S1x1.Idx → EReal) : S262144x1.Idx → EReal :=
  fun i => Cert.Spec.elu (A i + H i * D (ix2 (i 0 : Fin 262144) (0 : Fin 1)) + B (ix2 (0 : Fin 1) (i 1 : Fin 1)))

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t` (decided over the 32 points): the four node-indexed
    windows are at block row `t`, the bias window stays at its one block. -/
theorem idx_facts : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0
    ∧ win12_3.index t (0 : Fin 2) = 0 ∧ win12_3.index t (1 : Fin 2) = 0
    ∧ win12_4.index t (0 : Fin 2) = t.val ∧ win12_4.index t (1 : Fin 2) = 0 :=
  (by decide +kernel : ∀ t : Fin grid12.N, _)

/-- The block of `agg` at point `t` is rows `8192 t … 8192 t + 8191` of the array. -/
theorem blk0 (c : Dev nD) (t : Fin cfg12.N) (y : S8192x1.Idx) (i : S262144x1.Idx)
    (h0 : (i 0).val = 8192 * t.val + (y 0).val) (h1 : (i 1).val = (y 1).val) :
    (iblk12 V c 0 t : Vec Ideal S8192x1 .f32) y = (V c (Pipeline.arrRef spec12 0) : S262144x1.Idx → EReal) i := by
  obtain ⟨e0, e1, -⟩ := idx_facts t
  unfold iblk12
  rw [View.read_apply]
  show V c (Pipeline.arrRef spec12 0) _ = V c (Pipeline.arrRef spec12 0) _
  refine congrArg (V c (Pipeline.arrRef spec12 0)) ?_
  funext a
  apply Fin.ext
  match a with
  | ⟨0, _⟩ => show win12_0.index t (0 : Fin 2) * 8192 + 1 * (y 0).val = (i 0).val; rw [e0, h0]; omega
  | ⟨1, _⟩ => show win12_0.index t (1 : Fin 2) * 1 + 1 * (y 1).val = (i 1).val; rw [e1, h1]; omega

/-- The block of `h` at point `t` is rows `8192 t … 8192 t + 8191` of the array. -/
theorem blk1 (c : Dev nD) (t : Fin cfg12.N) (y : S8192x1.Idx) (i : S262144x1.Idx)
    (h0 : (i 0).val = 8192 * t.val + (y 0).val) (h1 : (i 1).val = (y 1).val) :
    (iblk12 V c 1 t : Vec Ideal S8192x1 .f32) y = (V c (Pipeline.arrRef spec12 1) : S262144x1.Idx → EReal) i := by
  obtain ⟨-, -, e0, e1, -⟩ := idx_facts t
  unfold iblk12
  rw [View.read_apply]
  show V c (Pipeline.arrRef spec12 1) _ = V c (Pipeline.arrRef spec12 1) _
  refine congrArg (V c (Pipeline.arrRef spec12 1)) ?_
  funext a
  apply Fin.ext
  match a with
  | ⟨0, _⟩ => show win12_1.index t (0 : Fin 2) * 8192 + 1 * (y 0).val = (i 0).val; rw [e0, h0]; omega
  | ⟨1, _⟩ => show win12_1.index t (1 : Fin 2) * 1 + 1 * (y 1).val = (i 1).val; rw [e1, h1]; omega

/-- The block of the scale column at point `t` is rows `8192 t … 8192 t + 8191` of the column. -/
theorem blk2 (c : Dev nD) (t : Fin cfg12.N) (y : S8192x1.Idx) (i : S262144x1.Idx)
    (h0 : (i 0).val = 8192 * t.val + (y 0).val) (h1 : (i 1).val = (y 1).val) :
    (iblk12 V c 2 t : Vec Ideal S8192x1 .f32) y = (V c (Pipeline.arrRef spec12 2) : S262144x1.Idx → EReal) i := by
  obtain ⟨-, -, -, -, e0, e1, -⟩ := idx_facts t
  unfold iblk12
  rw [View.read_apply]
  show V c (Pipeline.arrRef spec12 2) _ = V c (Pipeline.arrRef spec12 2) _
  refine congrArg (V c (Pipeline.arrRef spec12 2)) ?_
  funext a
  apply Fin.ext
  match a with
  | ⟨0, _⟩ => show win12_2.index t (0 : Fin 2) * 8192 + 1 * (y 0).val = (i 0).val; rw [e0, h0]; omega
  | ⟨1, _⟩ => show win12_2.index t (1 : Fin 2) * 1 + 1 * (y 1).val = (i 1).val; rw [e1, h1]; omega

/-- The bias window's one block is the whole bias row, at every point. -/
theorem blk3 (c : Dev nD) (t : Fin cfg12.N) (y : S1x1.Idx) (i : S1x1.Idx)
    (h0 : (i 0).val = (y 0).val) (h1 : (i 1).val = (y 1).val) :
    (iblk12 V c 3 t : Vec Ideal S1x1 .f32) y = (V c (Pipeline.arrRef spec12 3) : S1x1.Idx → EReal) i := by
  obtain ⟨-, -, -, -, -, -, e0, e1, -⟩ := idx_facts t
  unfold iblk12
  rw [View.read_apply]
  show V c (Pipeline.arrRef spec12 3) _ = V c (Pipeline.arrRef spec12 3) _
  refine congrArg (V c (Pipeline.arrRef spec12 3)) ?_
  funext a
  apply Fin.ext
  match a with
  | ⟨0, _⟩ => show win12_3.index t (0 : Fin 2) * 1 + 1 * (y 0).val = (i 0).val; rw [e0, h0]; omega
  | ⟨1, _⟩ => show win12_3.index t (1 : Fin 2) * 1 + 1 * (y 1).val = (i 1).val; rw [e1, h1]; omega

/-! ## From the blocks to the array -/

/-- What point `t` writes back is block `t` of `G` of the arrays as the region found them: the body's one
    store covers its whole buffer, its value at a block index is `pay_at`, and each input block read at that
    index is the input array read at the same node and feature. -/
theorem flushed_eq (c : Dev nD) (t : Fin cfg12.N) :
    (dat12 (F := Ideal) V c).flushed 4 t
      = ((cfg12.win 4).blk t).view.read (Elt Ideal)
          (G (V c (Pipeline.arrRef spec12 0)) (V c (Pipeline.arrRef spec12 1)) (V c (Pipeline.arrRef spec12 2)) (V c (Pipeline.arrRef spec12 3))) := by
  show (cfg12.win 4).cut (grid12.coords t) ((dat12 (F := Ideal) V c).after 4 t) = _
  rw [after12_4]
  unfold out12_4
  rw [View.canon_unit_zero hz]
  simp only [View.ld_unit_zero (S := S8192x1) hz, View.ld_unit_zero (S := S1x1) hz]
  obtain ⟨-, -, -, -, -, -, -, -, e0, e1⟩ := idx_facts t
  funext j
  show k12_pay1 (iblk12 V c 0 t) (iblk12 V c 1 t) (iblk12 V c 2 t) (iblk12 V c 3 t) j
      = G (V c (Pipeline.arrRef spec12 0)) (V c (Pipeline.arrRef spec12 1)) (V c (Pipeline.arrRef spec12 2)) (V c (Pipeline.arrRef spec12 3))
          (((cfg12.win 4).blk t).view.emb j)
  have hi0 : (((((cfg12.win 4).blk t).view.emb j : S262144x1.Idx) 0).val : Nat) = 8192 * t.val + (j 0).val := by
    show win12_4.index t (0 : Fin 2) * 8192 + 1 * (j 0).val = _
    rw [e0]; omega
  have hi1 : (((((cfg12.win 4).blk t).view.emb j : S262144x1.Idx) 1).val : Nat) = (j 1).val := by
    show win12_4.index t (1 : Fin 2) * 1 + 1 * (j 1).val = _
    rw [e1]; omega
  refine (pay_at (iblk12 V c 0 t) (iblk12 V c 1 t) (iblk12 V c 2 t) (iblk12 V c 3 t) j).trans ?_
  refine congrArg Cert.Spec.elu ?_
  refine congrArg₂ (· + ·) (congrArg₂ (· + ·) (blk0 V c t j _ hi0 hi1) (congrArg₂ (· * ·) (blk1 V c t j _ hi0 hi1) (blk2 V c t _ _ hi0 rfl))) (blk3 V c t _ _ rfl hi1)

/-- A node-and-feature index lies in point `t`'s output block iff each coordinate is in the block's range. -/
theorem mem_blk (t : Fin cfg12.N) (i : S262144x1.Idx) :
    i ∈ ((cfg12.win 4).blk t).view.set ↔ ∀ a : Fin 2, win12_4.index t a * S8192x1.size a ≤ (i a).val ∧ (i a).val < win12_4.index t a * S8192x1.size a + S8192x1.size a := by
  show i ∈ ((View.whole main_v151).slice (win12_4.rect t)).set ↔ _
  rw [View.set_slice_whole, Rect.mem_set_unit]
  exact Iff.rfl

/-- Every index of the output array is in the block of the point that owns its node: node `r` belongs to
    point `r / 8192`, and every point writes its block back. -/
theorem cover (i : S262144x1.Idx) :
    ∃ t : Fin cfg12.N, (cfg12.win 4).flush t = true ∧ i ∈ ((cfg12.win 4).blk t).view.set := by
  have hi0 : (i 0).val < 262144 := (i 0).isLt
  have hi1 : (i 1).val < 1 := (i 1).isLt
  obtain ⟨t, ht⟩ : ∃ t : Fin cfg12.N, t.val = (i 0).val / 8192 :=
    ⟨⟨(i 0).val / 8192, by rw [show cfg12.N = 32 from N_12]; omega⟩, rfl⟩
  obtain ⟨-, -, -, -, -, -, -, -, e0, e1⟩ := idx_facts t
  refine ⟨t, flush12_4 t, ?_⟩
  rw [mem_blk]
  intro a
  match a with
  | ⟨0, _⟩ => show win12_4.index t (0 : Fin 2) * 8192 ≤ (i 0).val ∧ (i 0).val < win12_4.index t (0 : Fin 2) * 8192 + 8192; rw [e0, ht]; omega
  | ⟨1, _⟩ => show win12_4.index t (1 : Fin 2) * 1 ≤ (i 1).val ∧ (i 1).val < win12_4.index t (1 : Fin 2) * 1 + 1; rw [e1]; omega

/-- The output array after the region is `G` of the input arrays as the region found them. -/
theorem final (c : Dev nD) :
    (dat12 (F := Ideal) V c).arrAt 4 cfg12.N
      = G (V c (Pipeline.arrRef spec12 0)) (V c (Pipeline.arrRef spec12 1)) (V c (Pipeline.arrRef spec12 2)) (V c (Pipeline.arrRef spec12 3)) :=
  (dat12 (F := Ideal) V c).arrAt_eq_of_cover 4 _ (fun t _ => flushed_eq V c t) cover

/-- The four input arrays as the region finds them, as functions of node and feature: the aggregated
    messages, the node features, the per-node scales and the bias. -/
abbrev A (c : Dev nD) : S262144x1.Idx → EReal := V c (Pipeline.arrRef spec12 0)
abbrev H (c : Dev nD) : S262144x1.Idx → EReal := V c (Pipeline.arrRef spec12 1)
abbrev D (c : Dev nD) : S262144x1.Idx → EReal := V c (Pipeline.arrRef spec12 2)
abbrev B (c : Dev nD) : S1x1.Idx → EReal := V c (Pipeline.arrRef spec12 3)

/-- The output array at node `i`, feature `j`: the exponential linear unit of
    `agg i j + h i j * dis2 i 0 + b 0 j`, read in the arrays as the region found them. -/
theorem out (c : Dev nD) (i : Fin 262144) (j : Fin 1) :
    (dat12 (F := Ideal) V c).arrAt 4 cfg12.N (ix2 i j)
      = Cert.Spec.elu (A V c (ix2 i j) + H V c (ix2 i j) * D V c (ix2 i (0 : Fin 1)) + B V c (ix2 (0 : Fin 1) j)) :=
  congrFun (final V c) (ix2 i j)

end Cert.KernelIdeal.Reg12

end
-- ==== Proof.KStagesTail.lean ====
import proofs.«167728_j48945447305605_1_alg».proof.Proof.Gen.KernelIdeal.Frame
import proofs.«167728_j48945447305605_1_alg».proof.Proof.KHostGlue
import proofs.«167728_j48945447305605_1_alg».proof.Proof.Cur
import proofs.«167728_j48945447305605_1_alg».proof.Proof.KArgs
import proofs.«167728_j48945447305605_1_alg».proof.Proof.KKeep
import proofs.«167728_j48945447305605_1_alg».proof.Proof.KEntry
import proofs.«167728_j48945447305605_1_alg».proof.Proof.Reg9
import proofs.«167728_j48945447305605_1_alg».proof.Proof.Reg10
import proofs.«167728_j48945447305605_1_alg».proof.Proof.Reg11
import proofs.«167728_j48945447305605_1_alg».proof.Proof.Reg12
import Idealize.ShloMosaic.Lib.ValueLayout
import Idealize.ShloMosaic.Lib.Pipeline.Value

/-!
# The kernel program's last two layers and its result

From the third layer's output (a hypothesis here: the buffer `main_v120`, curried, is the network's stage `z3`
for the kernel's normalisation) to the result buffer. Each step reads one segment of the run:

* region 9 multiplies the [262144, 64] array by the [64, 16] weight array: stage `h4`;
* the host stretch before region 10 takes the neighbourhood sum of `h4` by the shared message passing and lays
  the bias out as a row; region 10 adds the neighbourhood sum, the self loop `h4 · d²` and the bias and applies
  the exponential linear unit: stage `z4`;
* region 11 multiplies by the [16, 1] weight array: stage `h5`; the next stretch and region 12 do for one
  feature what the previous pair did for sixteen: stage `z5`;
* the last stretch reshapes the [262144, 1] column to 512 × 512 × 1 and moves the unit axis to the front.

The buffers a step reads but no step since the launch (or since the first host stretch) has written — the weight
and bias arguments, the edge list's two rows, the edge weights and the column of squared scales — are read
back to their first contents by the lemmas on kept buffers. The gather and the scatter-add stay inside the shared
message-passing functions: they are only ever applied to equal arguments.
-/

noncomputable section

namespace Cert.KernelIdeal.KVal

open Idealize.ShloMosaic Idealize.ShloMosaic.TcCoe Idealize.ShloMosaic.ValueIdx Cert.KernelIdeal Cert.KernelIdeal.Gen
open Cert.Cur Cert.Glue Cert.KernelIdeal.KHost

/-! ## Entries of the shared arithmetic, on arbitrary arrays -/

/-- The column of squares of a vector, at row `i`: the square of the vector's entry. -/
theorem t_sq_col (v : FVec Ideal S262144 .f32) (i : Fin 262144) :
    shapeCast S262144x1 (mulf v v) shapeCasts_S262144_S262144x1 (ix2 i (0 : Fin 1)) = cur1 v i * cur1 v i :=
  (shapeCast_a_a1_apply (mulf v v) _ i 0).trans rfl

/-- An array times a weight array, entry by entry, is the linear map of the curried arrays. -/
theorem t_lin {p q : ℕ} (X : (⟨2, ![262144, p]⟩ : Shape).Idx → EReal) (Wt : (⟨2, ![p, q]⟩ : Shape).Idx → EReal)
    (x : Fin 262144 → Fin p → EReal) (hX : cur2 X = x) (i : Fin 262144) (j : Fin q) :
    ∑ k : Fin p, X (ix2 i k) * Wt (ix2 k j) = Cert.Spec.lin x (cur2 Wt) i j := by
  subst hX; rfl

/-- The neighbourhood sum at 16 features of an array, from buffers holding the sources, the destinations and the edge
    weights of an edge list `E`, is the shared function of the curried array. -/
theorem t_agg16 (E : (⟨S2x2097152, .i32⟩ : BufTy).Contents (Elt Ideal)) (s d : (⟨S2097152, .i32⟩ : BufTy).Contents (Elt Ideal))
    (n : (⟨S2097152, .f32⟩ : BufTy).Contents (Elt Ideal)) (X : (⟨S262144x16, .f32⟩ : BufTy).Contents (Elt Ideal))
    (h : Fin 262144 → Fin 16 → EReal) (hs : s = srcT E) (hd : d = dstT E) (hn : n = nrmT (srcT E) (dstT E)) (hX : cur2 X = h)
    (i : Fin 262144) (j : Fin 16) :
    agg16T (F := Ideal) s d n X (ix2 i j)
      = cur2 (agg16T (F := Ideal) (srcT E) (dstT E) (nrmT (srcT E) (dstT E)) (unc2 h)) i j := by
  subst hs hd hn hX; rw [unc2_cur2, cur2_apply]

/-- The same at one feature. -/
theorem t_agg1 (E : (⟨S2x2097152, .i32⟩ : BufTy).Contents (Elt Ideal)) (s d : (⟨S2097152, .i32⟩ : BufTy).Contents (Elt Ideal))
    (n : (⟨S2097152, .f32⟩ : BufTy).Contents (Elt Ideal)) (X : (⟨S262144x1, .f32⟩ : BufTy).Contents (Elt Ideal))
    (h : Fin 262144 → Fin 1 → EReal) (hs : s = srcT E) (hd : d = dstT E) (hn : n = nrmT (srcT E) (dstT E)) (hX : cur2 X = h)
    (i : Fin 262144) (j : Fin 1) :
    agg1T (F := Ideal) s d n X (ix2 i j)
      = cur2 (agg1T (F := Ideal) (srcT E) (dstT E) (nrmT (srcT E) (dstT E)) (unc2 h)) i j := by
  subst hs hd hn hX; rw [unc2_cur2, cur2_apply]

/-! ## The last two layers' stages, opened one step -/

theorem t_h4_eq (ln : Cert.Net.Ln) (a : Cert.Net.Args) : Net.h4 ln a = Cert.Spec.lin (Net.z3 ln a) a.W4 := rfl
theorem t_z4_apply (ln : Cert.Net.Ln) (a : Cert.Net.Args) (i : Fin 262144) (j : Fin 16) :
    Net.z4 ln a i j = Cert.Spec.elu (Cert.Spec.conv (a.A16 (Net.h4 ln a)) (Net.h4 ln a) a.d a.b4 i j) := rfl
theorem t_h5_eq (ln : Cert.Net.Ln) (a : Cert.Net.Args) : Net.h5 ln a = Cert.Spec.lin (Net.z4 ln a) a.W5 := rfl
theorem t_z5_apply (ln : Cert.Net.Ln) (a : Cert.Net.Args) (i : Fin 262144) (j : Fin 1) :
    Net.z5 ln a i j = Cert.Spec.elu (Cert.Spec.conv (a.A1 (Net.h5 ln a)) (Net.h5 ln a) a.d a.b5 i j) := rfl

variable (m : (ℓ : Loc nD τ sig) → Buf (Elt Ideal) ℓ) (ρ : Dev nD → PrngReg) (c : Dev nD)

/-! ## The network's arguments at the launch memory, field by field -/

theorem t_argsAt_W4 : (argsAt m c).W4 = cur2 (m ((c.tc : Thread nD τ).loc main_arg8)) := rfl
theorem t_argsAt_b4 : (argsAt m c).b4 = cur1 (m ((c.tc : Thread nD τ).loc main_arg9)) := rfl
theorem t_argsAt_W5 : (argsAt m c).W5 = cur2 (m ((c.tc : Thread nD τ).loc main_arg10)) := rfl
theorem t_argsAt_b5 : (argsAt m c).b5 = cur1 (m ((c.tc : Thread nD τ).loc main_arg11)) := rfl
theorem t_argsAt_d : (argsAt m c).d = cur1 (disT (F := Ideal) (dstT (m ((c.tc : Thread nD τ).loc main_arg1)))) := rfl
theorem t_argsAt_A16 (h : Fin 262144 → Fin 16 → EReal) : (argsAt m c).A16 h
    = cur2 (agg16T (F := Ideal) (srcT (m ((c.tc : Thread nD τ).loc main_arg1))) (dstT (m ((c.tc : Thread nD τ).loc main_arg1))) (nrmT (srcT (m ((c.tc : Thread nD τ).loc main_arg1))) (dstT (m ((c.tc : Thread nD τ).loc main_arg1)))) (unc2 h)) := rfl
theorem t_argsAt_A1 (h : Fin 262144 → Fin 1 → EReal) : (argsAt m c).A1 h
    = cur2 (agg1T (F := Ideal) (srcT (m ((c.tc : Thread nD τ).loc main_arg1))) (dstT (m ((c.tc : Thread nD τ).loc main_arg1))) (nrmT (srcT (m ((c.tc : Thread nD τ).loc main_arg1))) (dstT (m ((c.tc : Thread nD τ).loc main_arg1)))) (unc2 h)) := rfl

/-! ## Layer 4 -/

/-- Region 9 leaves in `main_v121` the linear map of the previous layer's output by the layer's weight array. -/
theorem k_h4 (hz : cur2 (W16 m ρ c (Proc.devRef .tc main_v120)) = Net.z3 Cert.Spec.lnK (argsAt m c)) :
    cur2 (W17 m ρ c (Proc.devRef .tc main_v121)) = Net.h4 Cert.Spec.lnK (argsAt m c) := by
  funext i j
  refine (cur2_apply _ i j).trans ?_
  refine (congrFun (W17_arr m ρ c 2) (ix2 i j)).trans ?_
  refine (Reg9.out (V16 m ρ) c (W16 m ρ c (Proc.devRef .tc main_v120)) (m ((c.tc : Thread nD τ).loc main_arg8))
    rfl (arg8_at_W16 m ρ c) i j).trans ?_
  refine (t_lin (W16 m ρ c (Proc.devRef .tc main_v120)) (m ((c.tc : Thread nD τ).loc main_arg8)) _ hz i j).trans ?_
  rw [t_h4_eq, t_argsAt_W4]

/-- The neighbourhood sum the host stretch leaves in `main_v134` is the network's, of the linear map. -/
theorem t_a4 (hh : cur2 (W17 m ρ c (Proc.devRef .tc main_v121)) = Net.h4 Cert.Spec.lnK (argsAt m c))
    (i : Fin 262144) (j : Fin 16) :
    (W18 m ρ c (Proc.devRef .tc main_v134) : S262144x16.Idx → EReal) (ix2 i j)
      = (argsAt m c).A16 (Net.h4 Cert.Spec.lnK (argsAt m c)) i j := by
  refine (congrFun (h10_v134 (W17 m ρ c)) (ix2 i j)).trans ?_
  refine (t_agg16 (m ((c.tc : Thread nD τ).loc main_arg1)) _ _ _ _ _ (v1_at_W17 m ρ c) (v3_at_W17 m ρ c) (v25_at_W17 m ρ c) hh i j).trans ?_
  rw [t_argsAt_A16]

/-- The features the finalising region reads are the linear map, kept through the host stretch. -/
theorem t_f4 (hh : cur2 (W17 m ρ c (Proc.devRef .tc main_v121)) = Net.h4 Cert.Spec.lnK (argsAt m c))
    (i : Fin 262144) (j : Fin 16) :
    (W18 m ρ c (Proc.devRef .tc main_v121) : S262144x16.Idx → EReal) (ix2 i j) = Net.h4 Cert.Spec.lnK (argsAt m c) i j :=
  (congrFun (h10_keep_v121 (W17 m ρ c)) (ix2 i j)).trans
    ((cur2_apply _ i j).symm.trans (congrFun (congrFun hh i) j))

/-- The column of squared scales the finalising region reads, at row `i`. -/
theorem t_d4 (i : Fin 262144) :
    (W18 m ρ c (Proc.devRef .tc main_v27) : S262144x1.Idx → EReal) (ix2 i (0 : Fin 1)) = (argsAt m c).d i * (argsAt m c).d i := by
  refine (congrFun (v27_at_W18 m ρ c) (ix2 i (0 : Fin 1))).trans ?_
  refine (t_sq_col _ i).trans ?_
  rw [t_argsAt_d]

/-- The bias row the finalising region reads, at column `j`. -/
theorem t_b4 (j : Fin 16) :
    (W18 m ρ c (Proc.devRef .tc main_v135) : S1x16.Idx → EReal) (ix2 (0 : Fin 1) j) = (argsAt m c).b4 j := by
  refine (congrFun (h10_v135 (W17 m ρ c)) (ix2 (0 : Fin 1) j)).trans ?_
  refine (congrArg (fun X => shapeCast S1x16 X shapeCasts_S16_S1x16 (ix2 (0 : Fin 1) j)) (arg9_at_W17 m ρ c)).trans ?_
  refine (shapeCast_a_1a_apply _ _ 0 j).trans ?_
  rw [t_argsAt_b4, cur1_apply]

/-- Region 10 leaves in `main_v136` the layer's output. -/
theorem k_z4 (hh : cur2 (W17 m ρ c (Proc.devRef .tc main_v121)) = Net.h4 Cert.Spec.lnK (argsAt m c)) :
    cur2 (W19 m ρ c (Proc.devRef .tc main_v136)) = Net.z4 Cert.Spec.lnK (argsAt m c) := by
  funext i j
  refine (cur2_apply _ i j).trans ?_
  refine (congrFun (W19_arr m ρ c 4) (ix2 i j)).trans ?_
  refine (Reg10.out (V18 m ρ) c i j).trans ?_
  refine Eq.trans ?_ (t_z4_apply _ _ i j).symm
  refine congrArg Cert.Spec.elu ?_
  exact conv_entry (Reg10.A (V18 m ρ) c) (Reg10.H (V18 m ρ) c) (Reg10.D (V18 m ρ) c) (Reg10.B (V18 m ρ) c)
    _ _ _ _ (t_a4 m ρ c hh) (t_f4 m ρ c hh) (t_d4 m ρ c) (t_b4 m ρ c) i j

/-! ## Layer 5 -/

/-- Region 11 leaves in `main_v137` the linear map of the previous layer's output by the layer's weight array. -/
theorem k_h5 (hz : cur2 (W19 m ρ c (Proc.devRef .tc main_v136)) = Net.z4 Cert.Spec.lnK (argsAt m c)) :
    cur2 (W20 m ρ c (Proc.devRef .tc main_v137)) = Net.h5 Cert.Spec.lnK (argsAt m c) := by
  funext i j
  refine (cur2_apply _ i j).trans ?_
  refine (congrFun (W20_arr m ρ c 2) (ix2 i j)).trans ?_
  refine (Reg11.out (V19 m ρ) c (W19 m ρ c (Proc.devRef .tc main_v136)) (m ((c.tc : Thread nD τ).loc main_arg10))
    rfl (arg10_at_W19 m ρ c) i j).trans ?_
  refine (t_lin (W19 m ρ c (Proc.devRef .tc main_v136)) (m ((c.tc : Thread nD τ).loc main_arg10)) _ hz i j).trans ?_
  rw [t_h5_eq, t_argsAt_W5]

/-- The neighbourhood sum the host stretch leaves in `main_v149` is the network's, of the linear map. -/
theorem t_a5 (hh : cur2 (W20 m ρ c (Proc.devRef .tc main_v137)) = Net.h5 Cert.Spec.lnK (argsAt m c))
    (i : Fin 262144) (j : Fin 1) :
    (W21 m ρ c (Proc.devRef .tc main_v149) : S262144x1.Idx → EReal) (ix2 i j)
      = (argsAt m c).A1 (Net.h5 Cert.Spec.lnK (argsAt m c)) i j := by
  refine (congrFun (h12_v149 (W20 m ρ c)) (ix2 i j)).trans ?_
  refine (t_agg1 (m ((c.tc : Thread nD τ).loc main_arg1)) _ _ _ _ _ (v1_at_W20 m ρ c) (v3_at_W20 m ρ c) (v25_at_W20 m ρ c) hh i j).trans ?_
  rw [t_argsAt_A1]

/-- The features the finalising region reads are the linear map, kept through the host stretch. -/
theorem t_f5 (hh : cur2 (W20 m ρ c (Proc.devRef .tc main_v137)) = Net.h5 Cert.Spec.lnK (argsAt m c))
    (i : Fin 262144) (j : Fin 1) :
    (W21 m ρ c (Proc.devRef .tc main_v137) : S262144x1.Idx → EReal) (ix2 i j) = Net.h5 Cert.Spec.lnK (argsAt m c) i j :=
  (congrFun (h12_keep_v137 (W20 m ρ c)) (ix2 i j)).trans
    ((cur2_apply _ i j).symm.trans (congrFun (congrFun hh i) j))

/-- The column of squared scales the finalising region reads, at row `i`. -/
theorem t_d5 (i : Fin 262144) :
    (W21 m ρ c (Proc.devRef .tc main_v27) : S262144x1.Idx → EReal) (ix2 i (0 : Fin 1)) = (argsAt m c).d i * (argsAt m c).d i := by
  refine (congrFun (v27_at_W21 m ρ c) (ix2 i (0 : Fin 1))).trans ?_
  refine (t_sq_col _ i).trans ?_
  rw [t_argsAt_d]

/-- The bias row the finalising region reads, at column `j`. -/
theorem t_b5 (j : Fin 1) :
    (W21 m ρ c (Proc.devRef .tc main_v150) : S1x1.Idx → EReal) (ix2 (0 : Fin 1) j) = (argsAt m c).b5 j := by
  refine (congrFun (h12_v150 (W20 m ρ c)) (ix2 (0 : Fin 1) j)).trans ?_
  refine (congrArg (fun X => shapeCast S1x1 X shapeCasts_S1_S1x1 (ix2 (0 : Fin 1) j)) (arg11_at_W20 m ρ c)).trans ?_
  refine (shapeCast_a_1a_apply _ _ 0 j).trans ?_
  rw [t_argsAt_b5, cur1_apply]

/-- Region 12 leaves in `main_v151` the layer's output. -/
theorem k_z5 (hh : cur2 (W20 m ρ c (Proc.devRef .tc main_v137)) = Net.h5 Cert.Spec.lnK (argsAt m c)) :
    cur2 (W22 m ρ c (Proc.devRef .tc main_v151)) = Net.z5 Cert.Spec.lnK (argsAt m c) := by
  funext i j
  refine (cur2_apply _ i j).trans ?_
  refine (congrFun (W22_arr m ρ c 4) (ix2 i j)).trans ?_
  refine (Reg12.out (V21 m ρ) c i j).trans ?_
  refine Eq.trans ?_ (t_z5_apply _ _ i j).symm
  refine congrArg Cert.Spec.elu ?_
  exact conv_entry (Reg12.A (V21 m ρ) c) (Reg12.H (V21 m ρ) c) (Reg12.D (V21 m ρ) c) (Reg12.B (V21 m ρ) c)
    _ _ _ _ (t_a5 m ρ c hh) (t_f5 m ρ c hh) (t_d5 m ρ c) (t_b5 m ρ c) i j

/-! ## The result buffer -/

/-- The last stretch reshapes the column of results to 512 × 512 × 1 and moves the last axis to the front. -/
theorem t_value (hz5 : cur2 (W22 m ρ c (Proc.devRef .tc main_v151)) = Net.z5 Cert.Spec.lnK (argsAt m c)) :
    W23 m ρ c (Proc.devRef .tc main_v153)
      = transpose S1x512x512 [2, 0, 1]
          (shapeCast S512x512x1 (unc2 (Net.z5 Cert.Spec.lnK (argsAt m c))) shapeCasts_S262144x1_S512x512x1)
          transposes_S512x512x1_S1x512x512_2_0_1 :=
  (h13_v153 (W22 m ρ c)).trans
    (congrArg (fun X => transpose S1x512x512 [2, 0, 1] (shapeCast S512x512x1 X shapeCasts_S262144x1_S512x512x1)
        transposes_S512x512x1_S1x512x512_2_0_1)
      ((unc2_cur2 (W22 m ρ c (Proc.devRef .tc main_v151))).symm.trans (congrArg unc2 hz5)))

/-- From the third layer's output to the result buffer: the four stages above, chained. -/
theorem kernel_value_of (hz3 : cur2 (W16 m ρ c (Proc.devRef .tc main_v120)) = Net.z3 Cert.Spec.lnK (argsAt m c)) :
    W23 m ρ c (Proc.devRef .tc main_v153)
      = transpose S1x512x512 [2, 0, 1]
          (shapeCast S512x512x1 (unc2 (Net.z5 Cert.Spec.lnK (argsAt m c))) shapeCasts_S262144x1_S512x512x1)
          transposes_S512x512x1_S1x512x512_2_0_1 :=
  t_value m ρ c (k_z5 m ρ c (k_h5 m ρ c (k_z4 m ρ c (k_h4 m ρ c hz3))))

end Cert.KernelIdeal.KVal

end
-- ==== Proof.KValue.lean ====
import proofs.«167728_j48945447305605_1_alg».proof.Proof.KStages
import proofs.«167728_j48945447305605_1_alg».proof.Proof.KStages2
import proofs.«167728_j48945447305605_1_alg».proof.Proof.KStages3
import proofs.«167728_j48945447305605_1_alg».proof.Proof.KStagesTail

/-!
# What the kernel's result buffer holds

The stages follow one another along the kernel's run: the first layer's output feeds the second layer's linear
map, and so on through the five layers; the result buffer is the last layer's output, one number per node, laid
out as [1, 512, 512]. All three normalised layers use the kernel's spelling of the normalisation (`Spec.lnK`).
-/

noncomputable section

namespace Cert.KernelIdeal.KVal

open Idealize.ShloMosaic Idealize.ShloMosaic.TcCoe Cert.KernelIdeal Cert.KernelIdeal.Gen

/-- The kernel's result: the network with the kernel's normalisation, of the launch arguments. -/
theorem kernel_value (m : (ℓ : Loc nD τ sig) → Buf (Elt Ideal) ℓ) (ρ : Dev nD → PrngReg) (c : Dev nD) :
    W23 m ρ c (Proc.devRef .tc main_v153)
      = transpose S1x512x512 [2, 0, 1]
          (shapeCast S512x512x1 (Cert.Cur.unc2 (Cert.Net.z5 Cert.Spec.lnK (argsAt m c))) shapeCasts_S262144x1_S512x512x1)
          transposes_S512x512x1_S1x512x512_2_0_1 :=
  kernel_value_of m ρ c (k_z3 m ρ c (l2_z2_of_z1 m ρ c (k_z1 m ρ c)))

end Cert.KernelIdeal.KVal

end
-- ==== Proof.RefOps.lean ====
import proofs.«167728_j48945447305605_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal.Gen Idealize.ShloMosaic Idealize.ShloMosaic.TcCoe Idealize.SL.Sem Idealize.ShloMosaic.StableHlo

variable {F : FTy → Type} [FloatOps F]

/-! The reference's @main as lists of its host operations in program order, one list per window of
    sixty statements of @main. A call of `@elu` (and the two `@_where` calls inside it) is listed
    inline at its call site: the callee's operations over the typed references of that call's buffer
    record, the caller's operand as the typed reference of its buffer. -/

/-- The operations of @main's window 0, calls inlined. -/
abbrev ops0 : List (HloOp τ sig (Elt F)) :=
  [ unary main_arg1 main_v0 ((extractStridedSlice S1x2097152 ![0, 0] · slices_S2x2097152_S1x2097152_0_0) : (⟨S2x2097152, .i32⟩ : BufTy).Contents (Elt F) → (⟨S1x2097152, .i32⟩ : BufTy).Contents (Elt F)),
    reshape main_v0 main_v1 rfl shapeCasts_S1x2097152_S2097152,
    unary main_arg1 main_v2 ((extractStridedSlice S1x2097152 ![1, 0] · slices_S2x2097152_S1x2097152_1_0) : (⟨S2x2097152, .i32⟩ : BufTy).Contents (Elt F) → (⟨S1x2097152, .i32⟩ : BufTy).Contents (Elt F)),
    reshape main_v2 main_v3 rfl shapeCasts_S1x2097152_S2097152,
    nullary main_cst (constant S_ .f32 0x3F800000#32),
    unary main_cst main_v4 (broadcastInDim S2097152 ![] bcast_S_S2097152 : (⟨S_, .f32⟩ : BufTy).Contents (Elt F) → (⟨S2097152, .f32⟩ : BufTy).Contents (Elt F)),
    nullary main_cst_0 (constant S_ .f32 0x00000000#32),
    unary main_cst_0 main_v5 (broadcastInDim S262144 ![] bcast_S_S262144 : (⟨S_, .f32⟩ : BufTy).Contents (Elt F) → (⟨S262144, .f32⟩ : BufTy).Contents (Elt F)),
    unary main_v3 main_v6 (broadcastInDim S2097152x1 ![0] bcast_S2097152_S2097152x1_0 : (⟨S2097152, .i32⟩ : BufTy).Contents (Elt F) → (⟨S2097152x1, .i32⟩ : BufTy).Contents (Elt F)),
    ternary main_v5 main_v6 main_v4 main_v7 ((fun x i u => Host.scatterAdd scatter_S262144_S2097152x1_S2097152_n_0_0_1 x i u) : (⟨S262144, .f32⟩ : BufTy).Contents (Elt F) → (⟨S2097152x1, .i32⟩ : BufTy).Contents (Elt F) → (⟨S2097152, .f32⟩ : BufTy).Contents (Elt F) → (⟨S262144, .f32⟩ : BufTy).Contents (Elt F)),
    nullary main_cst_1 (constant S_ .f32 0x3F800000#32),
    unary main_cst_1 main_v8 (broadcastInDim S262144 ![] bcast_S_S262144 : (⟨S_, .f32⟩ : BufTy).Contents (Elt F) → (⟨S262144, .f32⟩ : BufTy).Contents (Elt F)),
    binary main_v7 main_v8 main_v9 (addf : (⟨S262144, .f32⟩ : BufTy).Contents (Elt F) → (⟨S262144, .f32⟩ : BufTy).Contents (Elt F) → (⟨S262144, .f32⟩ : BufTy).Contents (Elt F)),
    unary main_v9 main_v10 (Host.rsqrt : (⟨S262144, .f32⟩ : BufTy).Contents (Elt F) → (⟨S262144, .f32⟩ : BufTy).Contents (Elt F)),
    binary main_arg0 main_arg2 main_v11 ((fun l r => Host.dotGeneral dot_S262144x9_S9x64_S262144x64_1_0_0_1_n_n none l r) : (⟨S262144x9, .f32⟩ : BufTy).Contents (Elt F) → (⟨S9x64, .f32⟩ : BufTy).Contents (Elt F) → (⟨S262144x64, .f32⟩ : BufTy).Contents (Elt F)),
    nullary main_c (constantI S_ 32 0#32),
    unary main_c main_v12 (broadcastInDim S2097152 ![] bcast_S_S2097152 : (⟨S_, .i32⟩ : BufTy).Contents (Elt F) → (⟨S2097152, .i32⟩ : BufTy).Contents (Elt F)),
    binary main_v1 main_v12 main_v13 (cmpi .slt : (⟨S2097152, .i32⟩ : BufTy).Contents (Elt F) → (⟨S2097152, .i32⟩ : BufTy).Contents (Elt F) → (⟨S2097152, .i1⟩ : BufTy).Contents (Elt F)),
    nullary main_c_2 (constantI S_ 32 262144#32),
    unary main_c_2 main_v14 (broadcastInDim S2097152 ![] bcast_S_S2097152 : (⟨S_, .i32⟩ : BufTy).Contents (Elt F) → (⟨S2097152, .i32⟩ : BufTy).Contents (Elt F)),
    binary main_v1 main_v14 main_v15 (addi : (⟨S2097152, .i32⟩ : BufTy).Contents (Elt F) → (⟨S2097152, .i32⟩ : BufTy).Contents (Elt F) → (⟨S2097152, .i32⟩ : BufTy).Contents (Elt F)),
    ternary main_v13 main_v15 main_v1 main_v16 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v16 main_v17 (broadcastInDim S2097152x1 ![0] bcast_S2097152_S2097152x1_0 : (⟨S2097152, .i32⟩ : BufTy).Contents (Elt F) → (⟨S2097152x1, .i32⟩ : BufTy).Contents (Elt F)),
    binary main_v10 main_v17 main_v18 ((fun x i => Host.gather gather_S262144_S2097152x1_S2097152_n_0_n_n_0_1_1 x i) : (⟨S262144, .f32⟩ : BufTy).Contents (Elt F) → (⟨S2097152x1, .i32⟩ : BufTy).Contents (Elt F) → (⟨S2097152, .f32⟩ : BufTy).Contents (Elt F)),
    nullary main_c_3 (constantI S_ 32 0#32),
    unary main_c_3 main_v19 (broadcastInDim S2097152 ![] bcast_S_S2097152 : (⟨S_, .i32⟩ : BufTy).Contents (Elt F) → (⟨S2097152, .i32⟩ : BufTy).Contents (Elt F)),
    binary main_v3 main_v19 main_v20 (cmpi .slt : (⟨S2097152, .i32⟩ : BufTy).Contents (Elt F) → (⟨S2097152, .i32⟩ : BufTy).Contents (Elt F) → (⟨S2097152, .i1⟩ : BufTy).Contents (Elt F)),
    nullary main_c_4 (constantI S_ 32 262144#32),
    unary main_c_4 main_v21 (broadcastInDim S2097152 ![] bcast_S_S2097152 : (⟨S_, .i32⟩ : BufTy).Contents (Elt F) → (⟨S2097152, .i32⟩ : BufTy).Contents (Elt F)),
    binary main_v3 main_v21 main_v22 (addi : (⟨S2097152, .i32⟩ : BufTy).Contents (Elt F) → (⟨S2097152, .i32⟩ : BufTy).Contents (Elt F) → (⟨S2097152, .i32⟩ : BufTy).Contents (Elt F)),
    ternary main_v20 main_v22 main_v3 main_v23 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v23 main_v24 (broadcastInDim S2097152x1 ![0] bcast_S2097152_S2097152x1_0 : (⟨S2097152, .i32⟩ : BufTy).Contents (Elt F) → (⟨S2097152x1, .i32⟩ : BufTy).Contents (Elt F)),
    binary main_v10 main_v24 main_v25 ((fun x i => Host.gather gather_S262144_S2097152x1_S2097152_n_0_n_n_0_1_1 x i) : (⟨S262144, .f32⟩ : BufTy).Contents (Elt F) → (⟨S2097152x1, .i32⟩ : BufTy).Contents (Elt F) → (⟨S2097152, .f32⟩ : BufTy).Contents (Elt F)),
    binary main_v18 main_v25 main_v26 (mulf : (⟨S2097152, .f32⟩ : BufTy).Contents (Elt F) → (⟨S2097152, .f32⟩ : BufTy).Contents (Elt F) → (⟨S2097152, .f32⟩ : BufTy).Contents (Elt F)),
    unary main_v26 main_v27 (broadcastInDim S2097152x1 ![0] bcast_S2097152_S2097152x1_0 : (⟨S2097152, .f32⟩ : BufTy).Contents (Elt F) → (⟨S2097152x1, .f32⟩ : BufTy).Contents (Elt F)),
    nullary main_c_5 (constantI S_ 32 0#32),
    unary main_c_5 main_v28 (broadcastInDim S2097152 ![] bcast_S_S2097152 : (⟨S_, .i32⟩ : BufTy).Contents (Elt F) → (⟨S2097152, .i32⟩ : BufTy).Contents (Elt F)),
    binary main_v1 main_v28 main_v29 (cmpi .slt : (⟨S2097152, .i32⟩ : BufTy).Contents (Elt F) → (⟨S2097152, .i32⟩ : BufTy).Contents (Elt F) → (⟨S2097152, .i1⟩ : BufTy).Contents (Elt F)),
    nullary main_c_6 (constantI S_ 32 262144#32),
    unary main_c_6 main_v30 (broadcastInDim S2097152 ![] bcast_S_S2097152 : (⟨S_, .i32⟩ : BufTy).Contents (Elt F) → (⟨S2097152, .i32⟩ : BufTy).Contents (Elt F)),
    binary main_v1 main_v30 main_v31 (addi : (⟨S2097152, .i32⟩ : BufTy).Contents (Elt F) → (⟨S2097152, .i32⟩ : BufTy).Contents (Elt F) → (⟨S2097152, .i32⟩ : BufTy).Contents (Elt F)),
    ternary main_v29 main_v31 main_v1 main_v32 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v32 main_v33 (broadcastInDim S2097152x1 ![0] bcast_S2097152_S2097152x1_0 : (⟨S2097152, .i32⟩ : BufTy).Contents (Elt F) → (⟨S2097152x1, .i32⟩ : BufTy).Contents (Elt F)),
    binary main_v11 main_v33 main_v34 ((fun x i => Host.gather gather_S262144x64_S2097152x1_S2097152x64_1_0_n_n_0_1_164 x i) : (⟨S262144x64, .f32⟩ : BufTy).Contents (Elt F) → (⟨S2097152x1, .i32⟩ : BufTy).Contents (Elt F) → (⟨S2097152x64, .f32⟩ : BufTy).Contents (Elt F)),
    unary main_v27 main_v35 (broadcastInDim S2097152x64 ![0, 1] bcast_S2097152x1_S2097152x64_0_1 : (⟨S2097152x1, .f32⟩ : BufTy).Contents (Elt F) → (⟨S2097152x64, .f32⟩ : BufTy).Contents (Elt F)),
    binary main_v34 main_v35 main_v36 (mulf : (⟨S2097152x64, .f32⟩ : BufTy).Contents (Elt F) → (⟨S2097152x64, .f32⟩ : BufTy).Contents (Elt F) → (⟨S2097152x64, .f32⟩ : BufTy).Contents (Elt F)),
    nullary main_cst_7 (constant S_ .f32 0x00000000#32),
    unary main_cst_7 main_v37 (broadcastInDim S262144x64 ![] bcast_S_S262144x64 : (⟨S_, .f32⟩ : BufTy).Contents (Elt F) → (⟨S262144x64, .f32⟩ : BufTy).Contents (Elt F)),
    unary main_v3 main_v38 (broadcastInDim S2097152x1 ![0] bcast_S2097152_S2097152x1_0 : (⟨S2097152, .i32⟩ : BufTy).Contents (Elt F) → (⟨S2097152x1, .i32⟩ : BufTy).Contents (Elt F)),
    ternary main_v37 main_v38 main_v36 main_v39 ((fun x i u => Host.scatterAdd scatter_S262144x64_S2097152x1_S2097152x64_1_0_0_1 x i u) : (⟨S262144x64, .f32⟩ : BufTy).Contents (Elt F) → (⟨S2097152x1, .i32⟩ : BufTy).Contents (Elt F) → (⟨S2097152x64, .f32⟩ : BufTy).Contents (Elt F) → (⟨S262144x64, .f32⟩ : BufTy).Contents (Elt F)),
    binary main_v10 main_v10 main_v40 (mulf : (⟨S262144, .f32⟩ : BufTy).Contents (Elt F) → (⟨S262144, .f32⟩ : BufTy).Contents (Elt F) → (⟨S262144, .f32⟩ : BufTy).Contents (Elt F)),
    unary main_v40 main_v41 (broadcastInDim S262144x1 ![0] bcast_S262144_S262144x1_0 : (⟨S262144, .f32⟩ : BufTy).Contents (Elt F) → (⟨S262144x1, .f32⟩ : BufTy).Contents (Elt F)),
    unary main_v41 main_v42 (broadcastInDim S262144x64 ![0, 1] bcast_S262144x1_S262144x64_0_1 : (⟨S262144x1, .f32⟩ : BufTy).Contents (Elt F) → (⟨S262144x64, .f32⟩ : BufTy).Contents (Elt F)),
    binary main_v11 main_v42 main_v43 (mulf : (⟨S262144x64, .f32⟩ : BufTy).Contents (Elt F) → (⟨S262144x64, .f32⟩ : BufTy).Contents (Elt F) → (⟨S262144x64, .f32⟩ : BufTy).Contents (Elt F)),
    binary main_v39 main_v43 main_v44 (addf : (⟨S262144x64, .f32⟩ : BufTy).Contents (Elt F) → (⟨S262144x64, .f32⟩ : BufTy).Contents (Elt F) → (⟨S262144x64, .f32⟩ : BufTy).Contents (Elt F)),
    unary main_arg3 main_v45 (broadcastInDim S1x64 ![1] bcast_S64_S1x64_1 : (⟨S64, .f32⟩ : BufTy).Contents (Elt F) → (⟨S1x64, .f32⟩ : BufTy).Contents (Elt F)),
    unary main_v45 main_v46 (broadcastInDim S262144x64 ![0, 1] bcast_S1x64_S262144x64_0_1 : (⟨S1x64, .f32⟩ : BufTy).Contents (Elt F) → (⟨S262144x64, .f32⟩ : BufTy).Contents (Elt F)),
    binary main_v44 main_v46 main_v47 (addf : (⟨S262144x64, .f32⟩ : BufTy).Contents (Elt F) → (⟨S262144x64, .f32⟩ : BufTy).Contents (Elt F) → (⟨S262144x64, .f32⟩ : BufTy).Contents (Elt F)),
    nullary main_cst_8 (constant S_ .f32 0x00000000#32),
    binary main_v47 main_cst_8 main_v48 ((fun x v => Host.reduceAdd x v reducesTo_S262144x64_S_d0_1 h_S_) : (⟨S262144x64, .f32⟩ : BufTy).Contents (Elt F) → (⟨S_, .f32⟩ : BufTy).Contents (Elt F) → (⟨S_, .f32⟩ : BufTy).Contents (Elt F)) ]

/-- The operations of @main's window 1, calls inlined. -/
abbrev ops1 : List (HloOp τ sig (Elt F)) :=
  [ nullary main_cst_9 (constant S_ .f32 0x4B800000#32),
    binary main_v48 main_cst_9 main_v49 (Host.divf : (⟨S_, .f32⟩ : BufTy).Contents (Elt F) → (⟨S_, .f32⟩ : BufTy).Contents (Elt F) → (⟨S_, .f32⟩ : BufTy).Contents (Elt F)),
    unary main_v49 main_v50 (broadcastInDim S262144x64 ![] bcast_S_S262144x64 : (⟨S_, .f32⟩ : BufTy).Contents (Elt F) → (⟨S262144x64, .f32⟩ : BufTy).Contents (Elt F)),
    binary main_v47 main_v50 main_v51 (subf : (⟨S262144x64, .f32⟩ : BufTy).Contents (Elt F) → (⟨S262144x64, .f32⟩ : BufTy).Contents (Elt F) → (⟨S262144x64, .f32⟩ : BufTy).Contents (Elt F)),
    binary main_v51 main_v51 main_v52 (mulf : (⟨S262144x64, .f32⟩ : BufTy).Contents (Elt F) → (⟨S262144x64, .f32⟩ : BufTy).Contents (Elt F) → (⟨S262144x64, .f32⟩ : BufTy).Contents (Elt F)),
    nullary main_cst_10 (constant S_ .f32 0x00000000#32),
    binary main_v52 main_cst_10 main_v53 ((fun x v => Host.reduceAdd x v reducesTo_S262144x64_S_d0_1 h_S_) : (⟨S262144x64, .f32⟩ : BufTy).Contents (Elt F) → (⟨S_, .f32⟩ : BufTy).Contents (Elt F) → (⟨S_, .f32⟩ : BufTy).Contents (Elt F)),
    nullary main_cst_11 (constant S_ .f32 0x4B800000#32),
    binary main_v53 main_cst_11 main_v54 (Host.divf : (⟨S_, .f32⟩ : BufTy).Contents (Elt F) → (⟨S_, .f32⟩ : BufTy).Contents (Elt F) → (⟨S_, .f32⟩ : BufTy).Contents (Elt F)),
    unary main_v54 main_v55 (Host.sqrt : (⟨S_, .f32⟩ : BufTy).Contents (Elt F) → (⟨S_, .f32⟩ : BufTy).Contents (Elt F)),
    nullary main_cst_12 (constant S_ .f32 0x3727C5AC#32),
    binary main_v55 main_cst_12 main_v56 (addf : (⟨S_, .f32⟩ : BufTy).Contents (Elt F) → (⟨S_, .f32⟩ : BufTy).Contents (Elt F) → (⟨S_, .f32⟩ : BufTy).Contents (Elt F)),
    unary main_v56 main_v57 (broadcastInDim S262144x64 ![] bcast_S_S262144x64 : (⟨S_, .f32⟩ : BufTy).Contents (Elt F) → (⟨S262144x64, .f32⟩ : BufTy).Contents (Elt F)),
    binary main_v51 main_v57 main_v58 (Host.divf : (⟨S262144x64, .f32⟩ : BufTy).Contents (Elt F) → (⟨S262144x64, .f32⟩ : BufTy).Contents (Elt F) → (⟨S262144x64, .f32⟩ : BufTy).Contents (Elt F)),
    unary main_arg12 main_v59 (broadcastInDim S1x64 ![1] bcast_S64_S1x64_1 : (⟨S64, .f32⟩ : BufTy).Contents (Elt F) → (⟨S1x64, .f32⟩ : BufTy).Contents (Elt F)),
    unary main_v59 main_v60 (broadcastInDim S262144x64 ![0, 1] bcast_S1x64_S262144x64_0_1 : (⟨S1x64, .f32⟩ : BufTy).Contents (Elt F) → (⟨S262144x64, .f32⟩ : BufTy).Contents (Elt F)),
    binary main_v58 main_v60 main_v61 (mulf : (⟨S262144x64, .f32⟩ : BufTy).Contents (Elt F) → (⟨S262144x64, .f32⟩ : BufTy).Contents (Elt F) → (⟨S262144x64, .f32⟩ : BufTy).Contents (Elt F)),
    unary main_arg13 main_v62 (broadcastInDim S1x64 ![1] bcast_S64_S1x64_1 : (⟨S64, .f32⟩ : BufTy).Contents (Elt F) → (⟨S1x64, .f32⟩ : BufTy).Contents (Elt F)),
    unary main_v62 main_v63 (broadcastInDim S262144x64 ![0, 1] bcast_S1x64_S262144x64_0_1 : (⟨S1x64, .f32⟩ : BufTy).Contents (Elt F) → (⟨S262144x64, .f32⟩ : BufTy).Contents (Elt F)),
    binary main_v61 main_v63 main_v64 (addf : (⟨S262144x64, .f32⟩ : BufTy).Contents (Elt F) → (⟨S262144x64, .f32⟩ : BufTy).Contents (Elt F) → (⟨S262144x64, .f32⟩ : BufTy).Contents (Elt F)),
    TRef.nullary main_call0.cst (constant S_ .f32 0x00000000#32),
    TRef.unary main_call0.cst main_call0.v0 (broadcastInDim S262144x64 ![] bcast_S_S262144x64),
    TRef.binary (TRef.of main_v64 : TRef sig ⟨S262144x64, .f32⟩) main_call0.v0 main_call0.v1 (cmpf .ogt),
    TRef.nullary main_call0.cst_0 (constant S_ .f32 0x00000000#32),
    TRef.unary main_call0.cst_0 main_call0.v2 (broadcastInDim S262144x64 ![] bcast_S_S262144x64),
    TRef.binary (TRef.of main_v64 : TRef sig ⟨S262144x64, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S262144x64 ![] bcast_S_S262144x64),
    TRef.ternary main_call0.v3 main_call0.call0.v1 (TRef.of main_v64 : TRef sig ⟨S262144x64, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S262144x64 ![] bcast_S_S262144x64),
    TRef.binary main_call0.v6 main_call0.v5 main_call0.v7 mulf,
    TRef.ternary main_call0.v1 (TRef.of main_v64 : TRef sig ⟨S262144x64, .f32⟩) main_call0.v7 main_call0.call1.v0 select,
    binary main_v65 main_arg4 main_v66 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    nullary main_c_13 (constantI S_ 32 0#32),
    unary main_c_13 main_v67 (broadcastInDim S2097152 ![] bcast_S_S2097152 : (⟨S_, .i32⟩ : BufTy).Contents (Elt F) → (⟨S2097152, .i32⟩ : BufTy).Contents (Elt F)),
    binary main_v1 main_v67 main_v68 (cmpi .slt : (⟨S2097152, .i32⟩ : BufTy).Contents (Elt F) → (⟨S2097152, .i32⟩ : BufTy).Contents (Elt F) → (⟨S2097152, .i1⟩ : BufTy).Contents (Elt F)),
    nullary main_c_14 (constantI S_ 32 262144#32),
    unary main_c_14 main_v69 (broadcastInDim S2097152 ![] bcast_S_S2097152 : (⟨S_, .i32⟩ : BufTy).Contents (Elt F) → (⟨S2097152, .i32⟩ : BufTy).Contents (Elt F)),
    binary main_v1 main_v69 main_v70 (addi : (⟨S2097152, .i32⟩ : BufTy).Contents (Elt F) → (⟨S2097152, .i32⟩ : BufTy).Contents (Elt F) → (⟨S2097152, .i32⟩ : BufTy).Contents (Elt F)),
    ternary main_v68 main_v70 main_v1 main_v71 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v71 main_v72 (broadcastInDim S2097152x1 ![0] bcast_S2097152_S2097152x1_0 : (⟨S2097152, .i32⟩ : BufTy).Contents (Elt F) → (⟨S2097152x1, .i32⟩ : BufTy).Contents (Elt F)),
    binary main_v10 main_v72 main_v73 ((fun x i => Host.gather gather_S262144_S2097152x1_S2097152_n_0_n_n_0_1_1 x i) : (⟨S262144, .f32⟩ : BufTy).Contents (Elt F) → (⟨S2097152x1, .i32⟩ : BufTy).Contents (Elt F) → (⟨S2097152, .f32⟩ : BufTy).Contents (Elt F)),
    nullary main_c_15 (constantI S_ 32 0#32),
    unary main_c_15 main_v74 (broadcastInDim S2097152 ![] bcast_S_S2097152 : (⟨S_, .i32⟩ : BufTy).Contents (Elt F) → (⟨S2097152, .i32⟩ : BufTy).Contents (Elt F)),
    binary main_v3 main_v74 main_v75 (cmpi .slt : (⟨S2097152, .i32⟩ : BufTy).Contents (Elt F) → (⟨S2097152, .i32⟩ : BufTy).Contents (Elt F) → (⟨S2097152, .i1⟩ : BufTy).Contents (Elt F)),
    nullary main_c_16 (constantI S_ 32 262144#32),
    unary main_c_16 main_v76 (broadcastInDim S2097152 ![] bcast_S_S2097152 : (⟨S_, .i32⟩ : BufTy).Contents (Elt F) → (⟨S2097152, .i32⟩ : BufTy).Contents (Elt F)),
    binary main_v3 main_v76 main_v77 (addi : (⟨S2097152, .i32⟩ : BufTy).Contents (Elt F) → (⟨S2097152, .i32⟩ : BufTy).Contents (Elt F) → (⟨S2097152, .i32⟩ : BufTy).Contents (Elt F)),
    ternary main_v75 main_v77 main_v3 main_v78 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v78 main_v79 (broadcastInDim S2097152x1 ![0] bcast_S2097152_S2097152x1_0 : (⟨S2097152, .i32⟩ : BufTy).Contents (Elt F) → (⟨S2097152x1, .i32⟩ : BufTy).Contents (Elt F)),
    binary main_v10 main_v79 main_v80 ((fun x i => Host.gather gather_S262144_S2097152x1_S2097152_n_0_n_n_0_1_1 x i) : (⟨S262144, .f32⟩ : BufTy).Contents (Elt F) → (⟨S2097152x1, .i32⟩ : BufTy).Contents (Elt F) → (⟨S2097152, .f32⟩ : BufTy).Contents (Elt F)),
    binary main_v73 main_v80 main_v81 (mulf : (⟨S2097152, .f32⟩ : BufTy).Contents (Elt F) → (⟨S2097152, .f32⟩ : BufTy).Contents (Elt F) → (⟨S2097152, .f32⟩ : BufTy).Contents (Elt F)),
    unary main_v81 main_v82 (broadcastInDim S2097152x1 ![0] bcast_S2097152_S2097152x1_0 : (⟨S2097152, .f32⟩ : BufTy).Contents (Elt F) → (⟨S2097152x1, .f32⟩ : BufTy).Contents (Elt F)),
    nullary main_c_17 (constantI S_ 32 0#32),
    unary main_c_17 main_v83 (broadcastInDim S2097152 ![] bcast_S_S2097152 : (⟨S_, .i32⟩ : BufTy).Contents (Elt F) → (⟨S2097152, .i32⟩ : BufTy).Contents (Elt F)),
    binary main_v1 main_v83 main_v84 (cmpi .slt : (⟨S2097152, .i32⟩ : BufTy).Contents (Elt F) → (⟨S2097152, .i32⟩ : BufTy).Contents (Elt F) → (⟨S2097152, .i1⟩ : BufTy).Contents (Elt F)),
    nullary main_c_18 (constantI S_ 32 262144#32),
    unary main_c_18 main_v85 (broadcastInDim S2097152 ![] bcast_S_S2097152 : (⟨S_, .i32⟩ : BufTy).Contents (Elt F) → (⟨S2097152, .i32⟩ : BufTy).Contents (Elt F)),
    binary main_v1 main_v85 main_v86 (addi : (⟨S2097152, .i32⟩ : BufTy).Contents (Elt F) → (⟨S2097152, .i32⟩ : BufTy).Contents (Elt F) → (⟨S2097152, .i32⟩ : BufTy).Contents (Elt F)),
    ternary main_v84 main_v86 main_v1 main_v87 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v87 main_v88 (broadcastInDim S2097152x1 ![0] bcast_S2097152_S2097152x1_0 : (⟨S2097152, .i32⟩ : BufTy).Contents (Elt F) → (⟨S2097152x1, .i32⟩ : BufTy).Contents (Elt F)),
    binary main_v66 main_v88 main_v89 ((fun x i => Host.gather gather_S262144x64_S2097152x1_S2097152x64_1_0_n_n_0_1_164 x i) : (⟨S262144x64, .f32⟩ : BufTy).Contents (Elt F) → (⟨S2097152x1, .i32⟩ : BufTy).Contents (Elt F) → (⟨S2097152x64, .f32⟩ : BufTy).Contents (Elt F)),
    unary main_v82 main_v90 (broadcastInDim S2097152x64 ![0, 1] bcast_S2097152x1_S2097152x64_0_1 : (⟨S2097152x1, .f32⟩ : BufTy).Contents (Elt F) → (⟨S2097152x64, .f32⟩ : BufTy).Contents (Elt F)),
    binary main_v89 main_v90 main_v91 (mulf : (⟨S2097152x64, .f32⟩ : BufTy).Contents (Elt F) → (⟨S2097152x64, .f32⟩ : BufTy).Contents (Elt F) → (⟨S2097152x64, .f32⟩ : BufTy).Contents (Elt F)),
    nullary main_cst_19 (constant S_ .f32 0x00000000#32),
    unary main_cst_19 main_v92 (broadcastInDim S262144x64 ![] bcast_S_S262144x64 : (⟨S_, .f32⟩ : BufTy).Contents (Elt F) → (⟨S262144x64, .f32⟩ : BufTy).Contents (Elt F)),
    unary main_v3 main_v93 (broadcastInDim S2097152x1 ![0] bcast_S2097152_S2097152x1_0 : (⟨S2097152, .i32⟩ : BufTy).Contents (Elt F) → (⟨S2097152x1, .i32⟩ : BufTy).Contents (Elt F)),
    ternary main_v92 main_v93 main_v91 main_v94 ((fun x i u => Host.scatterAdd scatter_S262144x64_S2097152x1_S2097152x64_1_0_0_1 x i u) : (⟨S262144x64, .f32⟩ : BufTy).Contents (Elt F) → (⟨S2097152x1, .i32⟩ : BufTy).Contents (Elt F) → (⟨S2097152x64, .f32⟩ : BufTy).Contents (Elt F) → (⟨S262144x64, .f32⟩ : BufTy).Contents (Elt F)),
    binary main_v10 main_v10 main_v95 (mulf : (⟨S262144, .f32⟩ : BufTy).Contents (Elt F) → (⟨S262144, .f32⟩ : BufTy).Contents (Elt F) → (⟨S262144, .f32⟩ : BufTy).Contents (Elt F)),
    unary main_v95 main_v96 (broadcastInDim S262144x1 ![0] bcast_S262144_S262144x1_0 : (⟨S262144, .f32⟩ : BufTy).Contents (Elt F) → (⟨S262144x1, .f32⟩ : BufTy).Contents (Elt F)),
    unary main_v96 main_v97 (broadcastInDim S262144x64 ![0, 1] bcast_S262144x1_S262144x64_0_1 : (⟨S262144x1, .f32⟩ : BufTy).Contents (Elt F) → (⟨S262144x64, .f32⟩ : BufTy).Contents (Elt F)) ]

/-- The operations of @main's window 2, calls inlined. -/
abbrev ops2 : List (HloOp τ sig (Elt F)) :=
  [ binary main_v66 main_v97 main_v98 (mulf : (⟨S262144x64, .f32⟩ : BufTy).Contents (Elt F) → (⟨S262144x64, .f32⟩ : BufTy).Contents (Elt F) → (⟨S262144x64, .f32⟩ : BufTy).Contents (Elt F)),
    binary main_v94 main_v98 main_v99 (addf : (⟨S262144x64, .f32⟩ : BufTy).Contents (Elt F) → (⟨S262144x64, .f32⟩ : BufTy).Contents (Elt F) → (⟨S262144x64, .f32⟩ : BufTy).Contents (Elt F)),
    unary main_arg5 main_v100 (broadcastInDim S1x64 ![1] bcast_S64_S1x64_1 : (⟨S64, .f32⟩ : BufTy).Contents (Elt F) → (⟨S1x64, .f32⟩ : BufTy).Contents (Elt F)),
    unary main_v100 main_v101 (broadcastInDim S262144x64 ![0, 1] bcast_S1x64_S262144x64_0_1 : (⟨S1x64, .f32⟩ : BufTy).Contents (Elt F) → (⟨S262144x64, .f32⟩ : BufTy).Contents (Elt F)),
    binary main_v99 main_v101 main_v102 (addf : (⟨S262144x64, .f32⟩ : BufTy).Contents (Elt F) → (⟨S262144x64, .f32⟩ : BufTy).Contents (Elt F) → (⟨S262144x64, .f32⟩ : BufTy).Contents (Elt F)),
    nullary main_cst_20 (constant S_ .f32 0x00000000#32),
    binary main_v102 main_cst_20 main_v103 ((fun x v => Host.reduceAdd x v reducesTo_S262144x64_S_d0_1 h_S_) : (⟨S262144x64, .f32⟩ : BufTy).Contents (Elt F) → (⟨S_, .f32⟩ : BufTy).Contents (Elt F) → (⟨S_, .f32⟩ : BufTy).Contents (Elt F)),
    nullary main_cst_21 (constant S_ .f32 0x4B800000#32),
    binary main_v103 main_cst_21 main_v104 (Host.divf : (⟨S_, .f32⟩ : BufTy).Contents (Elt F) → (⟨S_, .f32⟩ : BufTy).Contents (Elt F) → (⟨S_, .f32⟩ : BufTy).Contents (Elt F)),
    unary main_v104 main_v105 (broadcastInDim S262144x64 ![] bcast_S_S262144x64 : (⟨S_, .f32⟩ : BufTy).Contents (Elt F) → (⟨S262144x64, .f32⟩ : BufTy).Contents (Elt F)),
    binary main_v102 main_v105 main_v106 (subf : (⟨S262144x64, .f32⟩ : BufTy).Contents (Elt F) → (⟨S262144x64, .f32⟩ : BufTy).Contents (Elt F) → (⟨S262144x64, .f32⟩ : BufTy).Contents (Elt F)),
    binary main_v106 main_v106 main_v107 (mulf : (⟨S262144x64, .f32⟩ : BufTy).Contents (Elt F) → (⟨S262144x64, .f32⟩ : BufTy).Contents (Elt F) → (⟨S262144x64, .f32⟩ : BufTy).Contents (Elt F)),
    nullary main_cst_22 (constant S_ .f32 0x00000000#32),
    binary main_v107 main_cst_22 main_v108 ((fun x v => Host.reduceAdd x v reducesTo_S262144x64_S_d0_1 h_S_) : (⟨S262144x64, .f32⟩ : BufTy).Contents (Elt F) → (⟨S_, .f32⟩ : BufTy).Contents (Elt F) → (⟨S_, .f32⟩ : BufTy).Contents (Elt F)),
    nullary main_cst_23 (constant S_ .f32 0x4B800000#32),
    binary main_v108 main_cst_23 main_v109 (Host.divf : (⟨S_, .f32⟩ : BufTy).Contents (Elt F) → (⟨S_, .f32⟩ : BufTy).Contents (Elt F) → (⟨S_, .f32⟩ : BufTy).Contents (Elt F)),
    unary main_v109 main_v110 (Host.sqrt : (⟨S_, .f32⟩ : BufTy).Contents (Elt F) → (⟨S_, .f32⟩ : BufTy).Contents (Elt F)),
    nullary main_cst_24 (constant S_ .f32 0x3727C5AC#32),
    binary main_v110 main_cst_24 main_v111 (addf : (⟨S_, .f32⟩ : BufTy).Contents (Elt F) → (⟨S_, .f32⟩ : BufTy).Contents (Elt F) → (⟨S_, .f32⟩ : BufTy).Contents (Elt F)),
    unary main_v111 main_v112 (broadcastInDim S262144x64 ![] bcast_S_S262144x64 : (⟨S_, .f32⟩ : BufTy).Contents (Elt F) → (⟨S262144x64, .f32⟩ : BufTy).Contents (Elt F)),
    binary main_v106 main_v112 main_v113 (Host.divf : (⟨S262144x64, .f32⟩ : BufTy).Contents (Elt F) → (⟨S262144x64, .f32⟩ : BufTy).Contents (Elt F) → (⟨S262144x64, .f32⟩ : BufTy).Contents (Elt F)),
    unary main_arg12 main_v114 (broadcastInDim S1x64 ![1] bcast_S64_S1x64_1 : (⟨S64, .f32⟩ : BufTy).Contents (Elt F) → (⟨S1x64, .f32⟩ : BufTy).Contents (Elt F)),
    unary main_v114 main_v115 (broadcastInDim S262144x64 ![0, 1] bcast_S1x64_S262144x64_0_1 : (⟨S1x64, .f32⟩ : BufTy).Contents (Elt F) → (⟨S262144x64, .f32⟩ : BufTy).Contents (Elt F)),
    binary main_v113 main_v115 main_v116 (mulf : (⟨S262144x64, .f32⟩ : BufTy).Contents (Elt F) → (⟨S262144x64, .f32⟩ : BufTy).Contents (Elt F) → (⟨S262144x64, .f32⟩ : BufTy).Contents (Elt F)),
    unary main_arg13 main_v117 (broadcastInDim S1x64 ![1] bcast_S64_S1x64_1 : (⟨S64, .f32⟩ : BufTy).Contents (Elt F) → (⟨S1x64, .f32⟩ : BufTy).Contents (Elt F)),
    unary main_v117 main_v118 (broadcastInDim S262144x64 ![0, 1] bcast_S1x64_S262144x64_0_1 : (⟨S1x64, .f32⟩ : BufTy).Contents (Elt F) → (⟨S262144x64, .f32⟩ : BufTy).Contents (Elt F)),
    binary main_v116 main_v118 main_v119 (addf : (⟨S262144x64, .f32⟩ : BufTy).Contents (Elt F) → (⟨S262144x64, .f32⟩ : BufTy).Contents (Elt F) → (⟨S262144x64, .f32⟩ : BufTy).Contents (Elt F)),
    TRef.nullary main_call1.cst (constant S_ .f32 0x00000000#32),
    TRef.unary main_call1.cst main_call1.v0 (broadcastInDim S262144x64 ![] bcast_S_S262144x64),
    TRef.binary (TRef.of main_v119 : TRef sig ⟨S262144x64, .f32⟩) main_call1.v0 main_call1.v1 (cmpf .ogt),
    TRef.nullary main_call1.cst_0 (constant S_ .f32 0x00000000#32),
    TRef.unary main_call1.cst_0 main_call1.v2 (broadcastInDim S262144x64 ![] bcast_S_S262144x64),
    TRef.binary (TRef.of main_v119 : TRef sig ⟨S262144x64, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S262144x64 ![] bcast_S_S262144x64),
    TRef.ternary main_call1.v3 main_call1.call0.v1 (TRef.of main_v119 : TRef sig ⟨S262144x64, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S262144x64 ![] bcast_S_S262144x64),
    TRef.binary main_call1.v6 main_call1.v5 main_call1.v7 mulf,
    TRef.ternary main_call1.v1 (TRef.of main_v119 : TRef sig ⟨S262144x64, .f32⟩) main_call1.v7 main_call1.call1.v0 select,
    binary main_v120 main_arg6 main_v121 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    nullary main_c_25 (constantI S_ 32 0#32),
    unary main_c_25 main_v122 (broadcastInDim S2097152 ![] bcast_S_S2097152 : (⟨S_, .i32⟩ : BufTy).Contents (Elt F) → (⟨S2097152, .i32⟩ : BufTy).Contents (Elt F)),
    binary main_v1 main_v122 main_v123 (cmpi .slt : (⟨S2097152, .i32⟩ : BufTy).Contents (Elt F) → (⟨S2097152, .i32⟩ : BufTy).Contents (Elt F) → (⟨S2097152, .i1⟩ : BufTy).Contents (Elt F)),
    nullary main_c_26 (constantI S_ 32 262144#32),
    unary main_c_26 main_v124 (broadcastInDim S2097152 ![] bcast_S_S2097152 : (⟨S_, .i32⟩ : BufTy).Contents (Elt F) → (⟨S2097152, .i32⟩ : BufTy).Contents (Elt F)),
    binary main_v1 main_v124 main_v125 (addi : (⟨S2097152, .i32⟩ : BufTy).Contents (Elt F) → (⟨S2097152, .i32⟩ : BufTy).Contents (Elt F) → (⟨S2097152, .i32⟩ : BufTy).Contents (Elt F)),
    ternary main_v123 main_v125 main_v1 main_v126 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v126 main_v127 (broadcastInDim S2097152x1 ![0] bcast_S2097152_S2097152x1_0 : (⟨S2097152, .i32⟩ : BufTy).Contents (Elt F) → (⟨S2097152x1, .i32⟩ : BufTy).Contents (Elt F)),
    binary main_v10 main_v127 main_v128 ((fun x i => Host.gather gather_S262144_S2097152x1_S2097152_n_0_n_n_0_1_1 x i) : (⟨S262144, .f32⟩ : BufTy).Contents (Elt F) → (⟨S2097152x1, .i32⟩ : BufTy).Contents (Elt F) → (⟨S2097152, .f32⟩ : BufTy).Contents (Elt F)),
    nullary main_c_27 (constantI S_ 32 0#32),
    unary main_c_27 main_v129 (broadcastInDim S2097152 ![] bcast_S_S2097152 : (⟨S_, .i32⟩ : BufTy).Contents (Elt F) → (⟨S2097152, .i32⟩ : BufTy).Contents (Elt F)),
    binary main_v3 main_v129 main_v130 (cmpi .slt : (⟨S2097152, .i32⟩ : BufTy).Contents (Elt F) → (⟨S2097152, .i32⟩ : BufTy).Contents (Elt F) → (⟨S2097152, .i1⟩ : BufTy).Contents (Elt F)),
    nullary main_c_28 (constantI S_ 32 262144#32),
    unary main_c_28 main_v131 (broadcastInDim S2097152 ![] bcast_S_S2097152 : (⟨S_, .i32⟩ : BufTy).Contents (Elt F) → (⟨S2097152, .i32⟩ : BufTy).Contents (Elt F)),
    binary main_v3 main_v131 main_v132 (addi : (⟨S2097152, .i32⟩ : BufTy).Contents (Elt F) → (⟨S2097152, .i32⟩ : BufTy).Contents (Elt F) → (⟨S2097152, .i32⟩ : BufTy).Contents (Elt F)),
    ternary main_v130 main_v132 main_v3 main_v133 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v133 main_v134 (broadcastInDim S2097152x1 ![0] bcast_S2097152_S2097152x1_0 : (⟨S2097152, .i32⟩ : BufTy).Contents (Elt F) → (⟨S2097152x1, .i32⟩ : BufTy).Contents (Elt F)),
    binary main_v10 main_v134 main_v135 ((fun x i => Host.gather gather_S262144_S2097152x1_S2097152_n_0_n_n_0_1_1 x i) : (⟨S262144, .f32⟩ : BufTy).Contents (Elt F) → (⟨S2097152x1, .i32⟩ : BufTy).Contents (Elt F) → (⟨S2097152, .f32⟩ : BufTy).Contents (Elt F)),
    binary main_v128 main_v135 main_v136 (mulf : (⟨S2097152, .f32⟩ : BufTy).Contents (Elt F) → (⟨S2097152, .f32⟩ : BufTy).Contents (Elt F) → (⟨S2097152, .f32⟩ : BufTy).Contents (Elt F)),
    unary main_v136 main_v137 (broadcastInDim S2097152x1 ![0] bcast_S2097152_S2097152x1_0 : (⟨S2097152, .f32⟩ : BufTy).Contents (Elt F) → (⟨S2097152x1, .f32⟩ : BufTy).Contents (Elt F)),
    nullary main_c_29 (constantI S_ 32 0#32),
    unary main_c_29 main_v138 (broadcastInDim S2097152 ![] bcast_S_S2097152 : (⟨S_, .i32⟩ : BufTy).Contents (Elt F) → (⟨S2097152, .i32⟩ : BufTy).Contents (Elt F)),
    binary main_v1 main_v138 main_v139 (cmpi .slt : (⟨S2097152, .i32⟩ : BufTy).Contents (Elt F) → (⟨S2097152, .i32⟩ : BufTy).Contents (Elt F) → (⟨S2097152, .i1⟩ : BufTy).Contents (Elt F)),
    nullary main_c_30 (constantI S_ 32 262144#32),
    unary main_c_30 main_v140 (broadcastInDim S2097152 ![] bcast_S_S2097152 : (⟨S_, .i32⟩ : BufTy).Contents (Elt F) → (⟨S2097152, .i32⟩ : BufTy).Contents (Elt F)),
    binary main_v1 main_v140 main_v141 (addi : (⟨S2097152, .i32⟩ : BufTy).Contents (Elt F) → (⟨S2097152, .i32⟩ : BufTy).Contents (Elt F) → (⟨S2097152, .i32⟩ : BufTy).Contents (Elt F)),
    ternary main_v139 main_v141 main_v1 main_v142 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v142 main_v143 (broadcastInDim S2097152x1 ![0] bcast_S2097152_S2097152x1_0 : (⟨S2097152, .i32⟩ : BufTy).Contents (Elt F) → (⟨S2097152x1, .i32⟩ : BufTy).Contents (Elt F)),
    binary main_v121 main_v143 main_v144 ((fun x i => Host.gather gather_S262144x64_S2097152x1_S2097152x64_1_0_n_n_0_1_164 x i) : (⟨S262144x64, .f32⟩ : BufTy).Contents (Elt F) → (⟨S2097152x1, .i32⟩ : BufTy).Contents (Elt F) → (⟨S2097152x64, .f32⟩ : BufTy).Contents (Elt F)),
    unary main_v137 main_v145 (broadcastInDim S2097152x64 ![0, 1] bcast_S2097152x1_S2097152x64_0_1 : (⟨S2097152x1, .f32⟩ : BufTy).Contents (Elt F) → (⟨S2097152x64, .f32⟩ : BufTy).Contents (Elt F)),
    binary main_v144 main_v145 main_v146 (mulf : (⟨S2097152x64, .f32⟩ : BufTy).Contents (Elt F) → (⟨S2097152x64, .f32⟩ : BufTy).Contents (Elt F) → (⟨S2097152x64, .f32⟩ : BufTy).Contents (Elt F)) ]

/-- The operations of @main's window 3, calls inlined. -/
abbrev ops3 : List (HloOp τ sig (Elt F)) :=
  [ nullary main_cst_31 (constant S_ .f32 0x00000000#32),
    unary main_cst_31 main_v147 (broadcastInDim S262144x64 ![] bcast_S_S262144x64 : (⟨S_, .f32⟩ : BufTy).Contents (Elt F) → (⟨S262144x64, .f32⟩ : BufTy).Contents (Elt F)),
    unary main_v3 main_v148 (broadcastInDim S2097152x1 ![0] bcast_S2097152_S2097152x1_0 : (⟨S2097152, .i32⟩ : BufTy).Contents (Elt F) → (⟨S2097152x1, .i32⟩ : BufTy).Contents (Elt F)),
    ternary main_v147 main_v148 main_v146 main_v149 ((fun x i u => Host.scatterAdd scatter_S262144x64_S2097152x1_S2097152x64_1_0_0_1 x i u) : (⟨S262144x64, .f32⟩ : BufTy).Contents (Elt F) → (⟨S2097152x1, .i32⟩ : BufTy).Contents (Elt F) → (⟨S2097152x64, .f32⟩ : BufTy).Contents (Elt F) → (⟨S262144x64, .f32⟩ : BufTy).Contents (Elt F)),
    binary main_v10 main_v10 main_v150 (mulf : (⟨S262144, .f32⟩ : BufTy).Contents (Elt F) → (⟨S262144, .f32⟩ : BufTy).Contents (Elt F) → (⟨S262144, .f32⟩ : BufTy).Contents (Elt F)),
    unary main_v150 main_v151 (broadcastInDim S262144x1 ![0] bcast_S262144_S262144x1_0 : (⟨S262144, .f32⟩ : BufTy).Contents (Elt F) → (⟨S262144x1, .f32⟩ : BufTy).Contents (Elt F)),
    unary main_v151 main_v152 (broadcastInDim S262144x64 ![0, 1] bcast_S262144x1_S262144x64_0_1 : (⟨S262144x1, .f32⟩ : BufTy).Contents (Elt F) → (⟨S262144x64, .f32⟩ : BufTy).Contents (Elt F)),
    binary main_v121 main_v152 main_v153 (mulf : (⟨S262144x64, .f32⟩ : BufTy).Contents (Elt F) → (⟨S262144x64, .f32⟩ : BufTy).Contents (Elt F) → (⟨S262144x64, .f32⟩ : BufTy).Contents (Elt F)),
    binary main_v149 main_v153 main_v154 (addf : (⟨S262144x64, .f32⟩ : BufTy).Contents (Elt F) → (⟨S262144x64, .f32⟩ : BufTy).Contents (Elt F) → (⟨S262144x64, .f32⟩ : BufTy).Contents (Elt F)),
    unary main_arg7 main_v155 (broadcastInDim S1x64 ![1] bcast_S64_S1x64_1 : (⟨S64, .f32⟩ : BufTy).Contents (Elt F) → (⟨S1x64, .f32⟩ : BufTy).Contents (Elt F)),
    unary main_v155 main_v156 (broadcastInDim S262144x64 ![0, 1] bcast_S1x64_S262144x64_0_1 : (⟨S1x64, .f32⟩ : BufTy).Contents (Elt F) → (⟨S262144x64, .f32⟩ : BufTy).Contents (Elt F)),
    binary main_v154 main_v156 main_v157 (addf : (⟨S262144x64, .f32⟩ : BufTy).Contents (Elt F) → (⟨S262144x64, .f32⟩ : BufTy).Contents (Elt F) → (⟨S262144x64, .f32⟩ : BufTy).Contents (Elt F)),
    nullary main_cst_32 (constant S_ .f32 0x00000000#32),
    binary main_v157 main_cst_32 main_v158 ((fun x v => Host.reduceAdd x v reducesTo_S262144x64_S_d0_1 h_S_) : (⟨S262144x64, .f32⟩ : BufTy).Contents (Elt F) → (⟨S_, .f32⟩ : BufTy).Contents (Elt F) → (⟨S_, .f32⟩ : BufTy).Contents (Elt F)),
    nullary main_cst_33 (constant S_ .f32 0x4B800000#32),
    binary main_v158 main_cst_33 main_v159 (Host.divf : (⟨S_, .f32⟩ : BufTy).Contents (Elt F) → (⟨S_, .f32⟩ : BufTy).Contents (Elt F) → (⟨S_, .f32⟩ : BufTy).Contents (Elt F)),
    unary main_v159 main_v160 (broadcastInDim S262144x64 ![] bcast_S_S262144x64 : (⟨S_, .f32⟩ : BufTy).Contents (Elt F) → (⟨S262144x64, .f32⟩ : BufTy).Contents (Elt F)),
    binary main_v157 main_v160 main_v161 (subf : (⟨S262144x64, .f32⟩ : BufTy).Contents (Elt F) → (⟨S262144x64, .f32⟩ : BufTy).Contents (Elt F) → (⟨S262144x64, .f32⟩ : BufTy).Contents (Elt F)),
    binary main_v161 main_v161 main_v162 (mulf : (⟨S262144x64, .f32⟩ : BufTy).Contents (Elt F) → (⟨S262144x64, .f32⟩ : BufTy).Contents (Elt F) → (⟨S262144x64, .f32⟩ : BufTy).Contents (Elt F)),
    nullary main_cst_34 (constant S_ .f32 0x00000000#32),
    binary main_v162 main_cst_34 main_v163 ((fun x v => Host.reduceAdd x v reducesTo_S262144x64_S_d0_1 h_S_) : (⟨S262144x64, .f32⟩ : BufTy).Contents (Elt F) → (⟨S_, .f32⟩ : BufTy).Contents (Elt F) → (⟨S_, .f32⟩ : BufTy).Contents (Elt F)),
    nullary main_cst_35 (constant S_ .f32 0x4B800000#32),
    binary main_v163 main_cst_35 main_v164 (Host.divf : (⟨S_, .f32⟩ : BufTy).Contents (Elt F) → (⟨S_, .f32⟩ : BufTy).Contents (Elt F) → (⟨S_, .f32⟩ : BufTy).Contents (Elt F)),
    unary main_v164 main_v165 (Host.sqrt : (⟨S_, .f32⟩ : BufTy).Contents (Elt F) → (⟨S_, .f32⟩ : BufTy).Contents (Elt F)),
    nullary main_cst_36 (constant S_ .f32 0x3727C5AC#32),
    binary main_v165 main_cst_36 main_v166 (addf : (⟨S_, .f32⟩ : BufTy).Contents (Elt F) → (⟨S_, .f32⟩ : BufTy).Contents (Elt F) → (⟨S_, .f32⟩ : BufTy).Contents (Elt F)),
    unary main_v166 main_v167 (broadcastInDim S262144x64 ![] bcast_S_S262144x64 : (⟨S_, .f32⟩ : BufTy).Contents (Elt F) → (⟨S262144x64, .f32⟩ : BufTy).Contents (Elt F)),
    binary main_v161 main_v167 main_v168 (Host.divf : (⟨S262144x64, .f32⟩ : BufTy).Contents (Elt F) → (⟨S262144x64, .f32⟩ : BufTy).Contents (Elt F) → (⟨S262144x64, .f32⟩ : BufTy).Contents (Elt F)),
    unary main_arg14 main_v169 (broadcastInDim S1x64 ![1] bcast_S64_S1x64_1 : (⟨S64, .f32⟩ : BufTy).Contents (Elt F) → (⟨S1x64, .f32⟩ : BufTy).Contents (Elt F)),
    unary main_v169 main_v170 (broadcastInDim S262144x64 ![0, 1] bcast_S1x64_S262144x64_0_1 : (⟨S1x64, .f32⟩ : BufTy).Contents (Elt F) → (⟨S262144x64, .f32⟩ : BufTy).Contents (Elt F)),
    binary main_v168 main_v170 main_v171 (mulf : (⟨S262144x64, .f32⟩ : BufTy).Contents (Elt F) → (⟨S262144x64, .f32⟩ : BufTy).Contents (Elt F) → (⟨S262144x64, .f32⟩ : BufTy).Contents (Elt F)),
    unary main_arg15 main_v172 (broadcastInDim S1x64 ![1] bcast_S64_S1x64_1 : (⟨S64, .f32⟩ : BufTy).Contents (Elt F) → (⟨S1x64, .f32⟩ : BufTy).Contents (Elt F)),
    unary main_v172 main_v173 (broadcastInDim S262144x64 ![0, 1] bcast_S1x64_S262144x64_0_1 : (⟨S1x64, .f32⟩ : BufTy).Contents (Elt F) → (⟨S262144x64, .f32⟩ : BufTy).Contents (Elt F)),
    binary main_v171 main_v173 main_v174 (addf : (⟨S262144x64, .f32⟩ : BufTy).Contents (Elt F) → (⟨S262144x64, .f32⟩ : BufTy).Contents (Elt F) → (⟨S262144x64, .f32⟩ : BufTy).Contents (Elt F)),
    TRef.nullary main_call2.cst (constant S_ .f32 0x00000000#32),
    TRef.unary main_call2.cst main_call2.v0 (broadcastInDim S262144x64 ![] bcast_S_S262144x64),
    TRef.binary (TRef.of main_v174 : TRef sig ⟨S262144x64, .f32⟩) main_call2.v0 main_call2.v1 (cmpf .ogt),
    TRef.nullary main_call2.cst_0 (constant S_ .f32 0x00000000#32),
    TRef.unary main_call2.cst_0 main_call2.v2 (broadcastInDim S262144x64 ![] bcast_S_S262144x64),
    TRef.binary (TRef.of main_v174 : TRef sig ⟨S262144x64, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S262144x64 ![] bcast_S_S262144x64),
    TRef.ternary main_call2.v3 main_call2.call0.v1 (TRef.of main_v174 : TRef sig ⟨S262144x64, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S262144x64 ![] bcast_S_S262144x64),
    TRef.binary main_call2.v6 main_call2.v5 main_call2.v7 mulf,
    TRef.ternary main_call2.v1 (TRef.of main_v174 : TRef sig ⟨S262144x64, .f32⟩) main_call2.v7 main_call2.call1.v0 select,
    binary main_v175 main_arg8 main_v176 ((fun l r => Host.dotGeneral dot_S262144x64_S64x16_S262144x16_1_0_0_1_n_n none l r) : (⟨S262144x64, .f32⟩ : BufTy).Contents (Elt F) → (⟨S64x16, .f32⟩ : BufTy).Contents (Elt F) → (⟨S262144x16, .f32⟩ : BufTy).Contents (Elt F)),
    nullary main_c_37 (constantI S_ 32 0#32),
    unary main_c_37 main_v177 (broadcastInDim S2097152 ![] bcast_S_S2097152 : (⟨S_, .i32⟩ : BufTy).Contents (Elt F) → (⟨S2097152, .i32⟩ : BufTy).Contents (Elt F)),
    binary main_v1 main_v177 main_v178 (cmpi .slt : (⟨S2097152, .i32⟩ : BufTy).Contents (Elt F) → (⟨S2097152, .i32⟩ : BufTy).Contents (Elt F) → (⟨S2097152, .i1⟩ : BufTy).Contents (Elt F)),
    nullary main_c_38 (constantI S_ 32 262144#32),
    unary main_c_38 main_v179 (broadcastInDim S2097152 ![] bcast_S_S2097152 : (⟨S_, .i32⟩ : BufTy).Contents (Elt F) → (⟨S2097152, .i32⟩ : BufTy).Contents (Elt F)),
    binary main_v1 main_v179 main_v180 (addi : (⟨S2097152, .i32⟩ : BufTy).Contents (Elt F) → (⟨S2097152, .i32⟩ : BufTy).Contents (Elt F) → (⟨S2097152, .i32⟩ : BufTy).Contents (Elt F)),
    ternary main_v178 main_v180 main_v1 main_v181 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v181 main_v182 (broadcastInDim S2097152x1 ![0] bcast_S2097152_S2097152x1_0 : (⟨S2097152, .i32⟩ : BufTy).Contents (Elt F) → (⟨S2097152x1, .i32⟩ : BufTy).Contents (Elt F)),
    binary main_v10 main_v182 main_v183 ((fun x i => Host.gather gather_S262144_S2097152x1_S2097152_n_0_n_n_0_1_1 x i) : (⟨S262144, .f32⟩ : BufTy).Contents (Elt F) → (⟨S2097152x1, .i32⟩ : BufTy).Contents (Elt F) → (⟨S2097152, .f32⟩ : BufTy).Contents (Elt F)),
    nullary main_c_39 (constantI S_ 32 0#32),
    unary main_c_39 main_v184 (broadcastInDim S2097152 ![] bcast_S_S2097152 : (⟨S_, .i32⟩ : BufTy).Contents (Elt F) → (⟨S2097152, .i32⟩ : BufTy).Contents (Elt F)),
    binary main_v3 main_v184 main_v185 (cmpi .slt : (⟨S2097152, .i32⟩ : BufTy).Contents (Elt F) → (⟨S2097152, .i32⟩ : BufTy).Contents (Elt F) → (⟨S2097152, .i1⟩ : BufTy).Contents (Elt F)),
    nullary main_c_40 (constantI S_ 32 262144#32),
    unary main_c_40 main_v186 (broadcastInDim S2097152 ![] bcast_S_S2097152 : (⟨S_, .i32⟩ : BufTy).Contents (Elt F) → (⟨S2097152, .i32⟩ : BufTy).Contents (Elt F)),
    binary main_v3 main_v186 main_v187 (addi : (⟨S2097152, .i32⟩ : BufTy).Contents (Elt F) → (⟨S2097152, .i32⟩ : BufTy).Contents (Elt F) → (⟨S2097152, .i32⟩ : BufTy).Contents (Elt F)),
    ternary main_v185 main_v187 main_v3 main_v188 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v188 main_v189 (broadcastInDim S2097152x1 ![0] bcast_S2097152_S2097152x1_0 : (⟨S2097152, .i32⟩ : BufTy).Contents (Elt F) → (⟨S2097152x1, .i32⟩ : BufTy).Contents (Elt F)),
    binary main_v10 main_v189 main_v190 ((fun x i => Host.gather gather_S262144_S2097152x1_S2097152_n_0_n_n_0_1_1 x i) : (⟨S262144, .f32⟩ : BufTy).Contents (Elt F) → (⟨S2097152x1, .i32⟩ : BufTy).Contents (Elt F) → (⟨S2097152, .f32⟩ : BufTy).Contents (Elt F)),
    binary main_v183 main_v190 main_v191 (mulf : (⟨S2097152, .f32⟩ : BufTy).Contents (Elt F) → (⟨S2097152, .f32⟩ : BufTy).Contents (Elt F) → (⟨S2097152, .f32⟩ : BufTy).Contents (Elt F)),
    unary main_v191 main_v192 (broadcastInDim S2097152x1 ![0] bcast_S2097152_S2097152x1_0 : (⟨S2097152, .f32⟩ : BufTy).Contents (Elt F) → (⟨S2097152x1, .f32⟩ : BufTy).Contents (Elt F)),
    nullary main_c_41 (constantI S_ 32 0#32),
    unary main_c_41 main_v193 (broadcastInDim S2097152 ![] bcast_S_S2097152 : (⟨S_, .i32⟩ : BufTy).Contents (Elt F) → (⟨S2097152, .i32⟩ : BufTy).Contents (Elt F)),
    binary main_v1 main_v193 main_v194 (cmpi .slt : (⟨S2097152, .i32⟩ : BufTy).Contents (Elt F) → (⟨S2097152, .i32⟩ : BufTy).Contents (Elt F) → (⟨S2097152, .i1⟩ : BufTy).Contents (Elt F)),
    nullary main_c_42 (constantI S_ 32 262144#32) ]

/-- The operations of @main's window 4, calls inlined. -/
abbrev ops4 : List (HloOp τ sig (Elt F)) :=
  [ unary main_c_42 main_v195 (broadcastInDim S2097152 ![] bcast_S_S2097152 : (⟨S_, .i32⟩ : BufTy).Contents (Elt F) → (⟨S2097152, .i32⟩ : BufTy).Contents (Elt F)),
    binary main_v1 main_v195 main_v196 (addi : (⟨S2097152, .i32⟩ : BufTy).Contents (Elt F) → (⟨S2097152, .i32⟩ : BufTy).Contents (Elt F) → (⟨S2097152, .i32⟩ : BufTy).Contents (Elt F)),
    ternary main_v194 main_v196 main_v1 main_v197 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v197 main_v198 (broadcastInDim S2097152x1 ![0] bcast_S2097152_S2097152x1_0 : (⟨S2097152, .i32⟩ : BufTy).Contents (Elt F) → (⟨S2097152x1, .i32⟩ : BufTy).Contents (Elt F)),
    binary main_v176 main_v198 main_v199 ((fun x i => Host.gather gather_S262144x16_S2097152x1_S2097152x16_1_0_n_n_0_1_116 x i) : (⟨S262144x16, .f32⟩ : BufTy).Contents (Elt F) → (⟨S2097152x1, .i32⟩ : BufTy).Contents (Elt F) → (⟨S2097152x16, .f32⟩ : BufTy).Contents (Elt F)),
    unary main_v192 main_v200 (broadcastInDim S2097152x16 ![0, 1] bcast_S2097152x1_S2097152x16_0_1 : (⟨S2097152x1, .f32⟩ : BufTy).Contents (Elt F) → (⟨S2097152x16, .f32⟩ : BufTy).Contents (Elt F)),
    binary main_v199 main_v200 main_v201 (mulf : (⟨S2097152x16, .f32⟩ : BufTy).Contents (Elt F) → (⟨S2097152x16, .f32⟩ : BufTy).Contents (Elt F) → (⟨S2097152x16, .f32⟩ : BufTy).Contents (Elt F)),
    nullary main_cst_43 (constant S_ .f32 0x00000000#32),
    unary main_cst_43 main_v202 (broadcastInDim S262144x16 ![] bcast_S_S262144x16 : (⟨S_, .f32⟩ : BufTy).Contents (Elt F) → (⟨S262144x16, .f32⟩ : BufTy).Contents (Elt F)),
    unary main_v3 main_v203 (broadcastInDim S2097152x1 ![0] bcast_S2097152_S2097152x1_0 : (⟨S2097152, .i32⟩ : BufTy).Contents (Elt F) → (⟨S2097152x1, .i32⟩ : BufTy).Contents (Elt F)),
    ternary main_v202 main_v203 main_v201 main_v204 ((fun x i u => Host.scatterAdd scatter_S262144x16_S2097152x1_S2097152x16_1_0_0_1 x i u) : (⟨S262144x16, .f32⟩ : BufTy).Contents (Elt F) → (⟨S2097152x1, .i32⟩ : BufTy).Contents (Elt F) → (⟨S2097152x16, .f32⟩ : BufTy).Contents (Elt F) → (⟨S262144x16, .f32⟩ : BufTy).Contents (Elt F)),
    binary main_v10 main_v10 main_v205 (mulf : (⟨S262144, .f32⟩ : BufTy).Contents (Elt F) → (⟨S262144, .f32⟩ : BufTy).Contents (Elt F) → (⟨S262144, .f32⟩ : BufTy).Contents (Elt F)),
    unary main_v205 main_v206 (broadcastInDim S262144x1 ![0] bcast_S262144_S262144x1_0 : (⟨S262144, .f32⟩ : BufTy).Contents (Elt F) → (⟨S262144x1, .f32⟩ : BufTy).Contents (Elt F)),
    unary main_v206 main_v207 (broadcastInDim S262144x16 ![0, 1] bcast_S262144x1_S262144x16_0_1 : (⟨S262144x1, .f32⟩ : BufTy).Contents (Elt F) → (⟨S262144x16, .f32⟩ : BufTy).Contents (Elt F)),
    binary main_v176 main_v207 main_v208 (mulf : (⟨S262144x16, .f32⟩ : BufTy).Contents (Elt F) → (⟨S262144x16, .f32⟩ : BufTy).Contents (Elt F) → (⟨S262144x16, .f32⟩ : BufTy).Contents (Elt F)),
    binary main_v204 main_v208 main_v209 (addf : (⟨S262144x16, .f32⟩ : BufTy).Contents (Elt F) → (⟨S262144x16, .f32⟩ : BufTy).Contents (Elt F) → (⟨S262144x16, .f32⟩ : BufTy).Contents (Elt F)),
    unary main_arg9 main_v210 (broadcastInDim S1x16 ![1] bcast_S16_S1x16_1 : (⟨S16, .f32⟩ : BufTy).Contents (Elt F) → (⟨S1x16, .f32⟩ : BufTy).Contents (Elt F)),
    unary main_v210 main_v211 (broadcastInDim S262144x16 ![0, 1] bcast_S1x16_S262144x16_0_1 : (⟨S1x16, .f32⟩ : BufTy).Contents (Elt F) → (⟨S262144x16, .f32⟩ : BufTy).Contents (Elt F)),
    binary main_v209 main_v211 main_v212 (addf : (⟨S262144x16, .f32⟩ : BufTy).Contents (Elt F) → (⟨S262144x16, .f32⟩ : BufTy).Contents (Elt F) → (⟨S262144x16, .f32⟩ : BufTy).Contents (Elt F)),
    TRef.nullary main_call3.cst (constant S_ .f32 0x00000000#32),
    TRef.unary main_call3.cst main_call3.v0 (broadcastInDim S262144x16 ![] bcast_S_S262144x16),
    TRef.binary (TRef.of main_v212 : TRef sig ⟨S262144x16, .f32⟩) main_call3.v0 main_call3.v1 (cmpf .ogt),
    TRef.nullary main_call3.cst_0 (constant S_ .f32 0x00000000#32),
    TRef.unary main_call3.cst_0 main_call3.v2 (broadcastInDim S262144x16 ![] bcast_S_S262144x16),
    TRef.binary (TRef.of main_v212 : TRef sig ⟨S262144x16, .f32⟩) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S262144x16 ![] bcast_S_S262144x16),
    TRef.ternary main_call3.v3 main_call3.call0.v1 (TRef.of main_v212 : TRef sig ⟨S262144x16, .f32⟩) main_call3.call0.v2 select,
    TRef.unary main_call3.call0.v2 main_call3.v5 Host.expm1,
    TRef.nullary main_call3.cst_2 (constant S_ .f32 0x3F800000#32),
    TRef.unary main_call3.cst_2 main_call3.v6 (broadcastInDim S262144x16 ![] bcast_S_S262144x16),
    TRef.binary main_call3.v6 main_call3.v5 main_call3.v7 mulf,
    TRef.ternary main_call3.v1 (TRef.of main_v212 : TRef sig ⟨S262144x16, .f32⟩) main_call3.v7 main_call3.call1.v0 select,
    binary main_v213 main_arg10 main_v214 ((fun l r => Host.dotGeneral dot_S262144x16_S16x1_S262144x1_1_0_0_1_n_n none l r) : (⟨S262144x16, .f32⟩ : BufTy).Contents (Elt F) → (⟨S16x1, .f32⟩ : BufTy).Contents (Elt F) → (⟨S262144x1, .f32⟩ : BufTy).Contents (Elt F)),
    nullary main_c_44 (constantI S_ 32 0#32),
    unary main_c_44 main_v215 (broadcastInDim S2097152 ![] bcast_S_S2097152 : (⟨S_, .i32⟩ : BufTy).Contents (Elt F) → (⟨S2097152, .i32⟩ : BufTy).Contents (Elt F)),
    binary main_v1 main_v215 main_v216 (cmpi .slt : (⟨S2097152, .i32⟩ : BufTy).Contents (Elt F) → (⟨S2097152, .i32⟩ : BufTy).Contents (Elt F) → (⟨S2097152, .i1⟩ : BufTy).Contents (Elt F)),
    nullary main_c_45 (constantI S_ 32 262144#32),
    unary main_c_45 main_v217 (broadcastInDim S2097152 ![] bcast_S_S2097152 : (⟨S_, .i32⟩ : BufTy).Contents (Elt F) → (⟨S2097152, .i32⟩ : BufTy).Contents (Elt F)),
    binary main_v1 main_v217 main_v218 (addi : (⟨S2097152, .i32⟩ : BufTy).Contents (Elt F) → (⟨S2097152, .i32⟩ : BufTy).Contents (Elt F) → (⟨S2097152, .i32⟩ : BufTy).Contents (Elt F)),
    ternary main_v216 main_v218 main_v1 main_v219 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v219 main_v220 (broadcastInDim S2097152x1 ![0] bcast_S2097152_S2097152x1_0 : (⟨S2097152, .i32⟩ : BufTy).Contents (Elt F) → (⟨S2097152x1, .i32⟩ : BufTy).Contents (Elt F)),
    binary main_v10 main_v220 main_v221 ((fun x i => Host.gather gather_S262144_S2097152x1_S2097152_n_0_n_n_0_1_1 x i) : (⟨S262144, .f32⟩ : BufTy).Contents (Elt F) → (⟨S2097152x1, .i32⟩ : BufTy).Contents (Elt F) → (⟨S2097152, .f32⟩ : BufTy).Contents (Elt F)),
    nullary main_c_46 (constantI S_ 32 0#32),
    unary main_c_46 main_v222 (broadcastInDim S2097152 ![] bcast_S_S2097152 : (⟨S_, .i32⟩ : BufTy).Contents (Elt F) → (⟨S2097152, .i32⟩ : BufTy).Contents (Elt F)),
    binary main_v3 main_v222 main_v223 (cmpi .slt : (⟨S2097152, .i32⟩ : BufTy).Contents (Elt F) → (⟨S2097152, .i32⟩ : BufTy).Contents (Elt F) → (⟨S2097152, .i1⟩ : BufTy).Contents (Elt F)),
    nullary main_c_47 (constantI S_ 32 262144#32),
    unary main_c_47 main_v224 (broadcastInDim S2097152 ![] bcast_S_S2097152 : (⟨S_, .i32⟩ : BufTy).Contents (Elt F) → (⟨S2097152, .i32⟩ : BufTy).Contents (Elt F)),
    binary main_v3 main_v224 main_v225 (addi : (⟨S2097152, .i32⟩ : BufTy).Contents (Elt F) → (⟨S2097152, .i32⟩ : BufTy).Contents (Elt F) → (⟨S2097152, .i32⟩ : BufTy).Contents (Elt F)),
    ternary main_v223 main_v225 main_v3 main_v226 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v226 main_v227 (broadcastInDim S2097152x1 ![0] bcast_S2097152_S2097152x1_0 : (⟨S2097152, .i32⟩ : BufTy).Contents (Elt F) → (⟨S2097152x1, .i32⟩ : BufTy).Contents (Elt F)),
    binary main_v10 main_v227 main_v228 ((fun x i => Host.gather gather_S262144_S2097152x1_S2097152_n_0_n_n_0_1_1 x i) : (⟨S262144, .f32⟩ : BufTy).Contents (Elt F) → (⟨S2097152x1, .i32⟩ : BufTy).Contents (Elt F) → (⟨S2097152, .f32⟩ : BufTy).Contents (Elt F)),
    binary main_v221 main_v228 main_v229 (mulf : (⟨S2097152, .f32⟩ : BufTy).Contents (Elt F) → (⟨S2097152, .f32⟩ : BufTy).Contents (Elt F) → (⟨S2097152, .f32⟩ : BufTy).Contents (Elt F)),
    unary main_v229 main_v230 (broadcastInDim S2097152x1 ![0] bcast_S2097152_S2097152x1_0 : (⟨S2097152, .f32⟩ : BufTy).Contents (Elt F) → (⟨S2097152x1, .f32⟩ : BufTy).Contents (Elt F)),
    nullary main_c_48 (constantI S_ 32 0#32),
    unary main_c_48 main_v231 (broadcastInDim S2097152 ![] bcast_S_S2097152 : (⟨S_, .i32⟩ : BufTy).Contents (Elt F) → (⟨S2097152, .i32⟩ : BufTy).Contents (Elt F)),
    binary main_v1 main_v231 main_v232 (cmpi .slt : (⟨S2097152, .i32⟩ : BufTy).Contents (Elt F) → (⟨S2097152, .i32⟩ : BufTy).Contents (Elt F) → (⟨S2097152, .i1⟩ : BufTy).Contents (Elt F)),
    nullary main_c_49 (constantI S_ 32 262144#32),
    unary main_c_49 main_v233 (broadcastInDim S2097152 ![] bcast_S_S2097152 : (⟨S_, .i32⟩ : BufTy).Contents (Elt F) → (⟨S2097152, .i32⟩ : BufTy).Contents (Elt F)),
    binary main_v1 main_v233 main_v234 (addi : (⟨S2097152, .i32⟩ : BufTy).Contents (Elt F) → (⟨S2097152, .i32⟩ : BufTy).Contents (Elt F) → (⟨S2097152, .i32⟩ : BufTy).Contents (Elt F)),
    ternary main_v232 main_v234 main_v1 main_v235 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v235 main_v236 (broadcastInDim S2097152x1 ![0] bcast_S2097152_S2097152x1_0 : (⟨S2097152, .i32⟩ : BufTy).Contents (Elt F) → (⟨S2097152x1, .i32⟩ : BufTy).Contents (Elt F)),
    binary main_v214 main_v236 main_v237 ((fun x i => Host.gather gather_S262144x1_S2097152x1_S2097152x1_1_0_n_n_0_1_11 x i) : (⟨S262144x1, .f32⟩ : BufTy).Contents (Elt F) → (⟨S2097152x1, .i32⟩ : BufTy).Contents (Elt F) → (⟨S2097152x1, .f32⟩ : BufTy).Contents (Elt F)),
    binary main_v237 main_v230 main_v238 (mulf : (⟨S2097152x1, .f32⟩ : BufTy).Contents (Elt F) → (⟨S2097152x1, .f32⟩ : BufTy).Contents (Elt F) → (⟨S2097152x1, .f32⟩ : BufTy).Contents (Elt F)),
    nullary main_cst_50 (constant S_ .f32 0x00000000#32),
    unary main_cst_50 main_v239 (broadcastInDim S262144x1 ![] bcast_S_S262144x1 : (⟨S_, .f32⟩ : BufTy).Contents (Elt F) → (⟨S262144x1, .f32⟩ : BufTy).Contents (Elt F)),
    unary main_v3 main_v240 (broadcastInDim S2097152x1 ![0] bcast_S2097152_S2097152x1_0 : (⟨S2097152, .i32⟩ : BufTy).Contents (Elt F) → (⟨S2097152x1, .i32⟩ : BufTy).Contents (Elt F)),
    ternary main_v239 main_v240 main_v238 main_v241 ((fun x i u => Host.scatterAdd scatter_S262144x1_S2097152x1_S2097152x1_1_0_0_1 x i u) : (⟨S262144x1, .f32⟩ : BufTy).Contents (Elt F) → (⟨S2097152x1, .i32⟩ : BufTy).Contents (Elt F) → (⟨S2097152x1, .f32⟩ : BufTy).Contents (Elt F) → (⟨S262144x1, .f32⟩ : BufTy).Contents (Elt F)),
    binary main_v10 main_v10 main_v242 (mulf : (⟨S262144, .f32⟩ : BufTy).Contents (Elt F) → (⟨S262144, .f32⟩ : BufTy).Contents (Elt F) → (⟨S262144, .f32⟩ : BufTy).Contents (Elt F)),
    unary main_v242 main_v243 (broadcastInDim S262144x1 ![0] bcast_S262144_S262144x1_0 : (⟨S262144, .f32⟩ : BufTy).Contents (Elt F) → (⟨S262144x1, .f32⟩ : BufTy).Contents (Elt F)),
    binary main_v214 main_v243 main_v244 (mulf : (⟨S262144x1, .f32⟩ : BufTy).Contents (Elt F) → (⟨S262144x1, .f32⟩ : BufTy).Contents (Elt F) → (⟨S262144x1, .f32⟩ : BufTy).Contents (Elt F)),
    binary main_v241 main_v244 main_v245 (addf : (⟨S262144x1, .f32⟩ : BufTy).Contents (Elt F) → (⟨S262144x1, .f32⟩ : BufTy).Contents (Elt F) → (⟨S262144x1, .f32⟩ : BufTy).Contents (Elt F)),
    unary main_arg11 main_v246 (broadcastInDim S1x1 ![1] bcast_S1_S1x1_1 : (⟨S1, .f32⟩ : BufTy).Contents (Elt F) → (⟨S1x1, .f32⟩ : BufTy).Contents (Elt F)) ]

/-- The operations of @main's window 5, calls inlined. -/
abbrev ops5 : List (HloOp τ sig (Elt F)) :=
  [ unary main_v246 main_v247 (broadcastInDim S262144x1 ![0, 1] bcast_S1x1_S262144x1_0_1 : (⟨S1x1, .f32⟩ : BufTy).Contents (Elt F) → (⟨S262144x1, .f32⟩ : BufTy).Contents (Elt F)),
    binary main_v245 main_v247 main_v248 (addf : (⟨S262144x1, .f32⟩ : BufTy).Contents (Elt F) → (⟨S262144x1, .f32⟩ : BufTy).Contents (Elt F) → (⟨S262144x1, .f32⟩ : BufTy).Contents (Elt F)),
    TRef.nullary main_call4.cst (constant S_ .f32 0x00000000#32),
    TRef.unary main_call4.cst main_call4.v0 (broadcastInDim S262144x1 ![] bcast_S_S262144x1),
    TRef.binary (TRef.of main_v248 : TRef sig ⟨S262144x1, .f32⟩) main_call4.v0 main_call4.v1 (cmpf .ogt),
    TRef.nullary main_call4.cst_0 (constant S_ .f32 0x00000000#32),
    TRef.unary main_call4.cst_0 main_call4.v2 (broadcastInDim S262144x1 ![] bcast_S_S262144x1),
    TRef.binary (TRef.of main_v248 : TRef sig ⟨S262144x1, .f32⟩) main_call4.v2 main_call4.v3 (cmpf .ogt),
    TRef.nullary main_call4.cst_1 (constant S_ .f32 0x00000000#32),
    TRef.unary main_call4.cst_1 main_call4.call0.v0 id,
    TRef.unary main_call4.call0.v0 main_call4.call0.v1 (broadcastInDim S262144x1 ![] bcast_S_S262144x1),
    TRef.ternary main_call4.v3 main_call4.call0.v1 (TRef.of main_v248 : TRef sig ⟨S262144x1, .f32⟩) main_call4.call0.v2 select,
    TRef.unary main_call4.call0.v2 main_call4.v5 Host.expm1,
    TRef.nullary main_call4.cst_2 (constant S_ .f32 0x3F800000#32),
    TRef.unary main_call4.cst_2 main_call4.v6 (broadcastInDim S262144x1 ![] bcast_S_S262144x1),
    TRef.binary main_call4.v6 main_call4.v5 main_call4.v7 mulf,
    TRef.ternary main_call4.v1 (TRef.of main_v248 : TRef sig ⟨S262144x1, .f32⟩) main_call4.v7 main_call4.call1.v0 select,
    reshape main_v249 main_v250 rfl shapeCasts_S262144x1_S512x512x1,
    unary main_v250 main_v251 ((transpose S1x512x512 [2, 0, 1] · transposes_S512x512x1_S1x512x512_2_0_1) : (⟨S512x512x1, .f32⟩ : BufTy).Contents (Elt F) → (⟨S1x512x512, .f32⟩ : BufTy).Contents (Elt F)) ]

/-- Every operation of @main in program order: the six windows' lists, one after the other. -/
abbrev ops : List (HloOp τ sig (Elt F)) :=
  ops0 ++ (ops1 ++ (ops2 ++ (ops3 ++ (ops4 ++ ops5))))

/-- The fold over the whole line is the windows' folds, composed in program order. -/
theorem after_ops (V : Valuation τ sig (Elt F)) :
    after ops V = after ops5 (after ops4 (after ops3 (after ops2 (after ops1 (after ops0 V))))) := by
  simp only [ops, StableHlo.after_append]

end Cert.ReferenceIdeal.RefRun

end
-- ==== Proof.RefRun.lean ====
import proofs.«167728_j48945447305605_1_alg».proof.Proof.RefOps

noncomputable section

namespace Cert.ReferenceIdeal.RefRun

open Cert.ReferenceIdeal.Gen Idealize.ShloMosaic Idealize.ShloMosaic.TcCoe Idealize.SL.Sem Idealize.ShloMosaic.StableHlo

variable {F : FTy → Type} [FloatOps F]

/-! ## @main is the straight line of its operations

Window by window: a window without a call is its list by unfolding; in a window with a call the callee's
definitions are unfolded at the call and the record's fields read, after which both sides are one chain of
`hlo` steps once sequencing is reassociated (`bind_assoc`, `pure_bind`). -/

set_option maxRecDepth 8192 in
theorem part0_eq (c : Dev nD) : main_part0 (F := F) c = seq ops0 := rfl

set_option maxRecDepth 8192 in
theorem part1_eq (c : Dev nD) : main_part1 (F := F) c = seq ops1 := by
  simp only [main_part1, fn_elu.body, fn_where.body, fn_where_0.body, seq, bind_assoc, pure_bind]
  rfl

set_option maxRecDepth 8192 in
theorem part2_eq (c : Dev nD) : main_part2 (F := F) c = seq ops2 := by
  simp only [main_part2, fn_elu.body, fn_where.body, fn_where_0.body, seq, bind_assoc, pure_bind]
  rfl

set_option maxRecDepth 8192 in
theorem part3_eq (c : Dev nD) : main_part3 (F := F) c = seq ops3 := by
  simp only [main_part3, fn_elu.body, fn_where.body, fn_where_0.body, seq, bind_assoc, pure_bind]
  rfl

set_option maxRecDepth 8192 in
theorem part4_eq (c : Dev nD) : main_part4 (F := F) c = seq ops4 := by
  simp only [main_part4, fn_elu_1.body, fn_where_2.body, fn_where_3.body, seq, bind_assoc, pure_bind]
  rfl

set_option maxRecDepth 8192 in
theorem part5_eq (c : Dev nD) : main_part5 (F := F) c = seq ops5 := by
  simp only [main_part5, fn_elu_4.body, fn_where_5.body, fn_where_6.body, seq, bind_assoc, pure_bind]

/-- @main is the six windows in order, and a concatenation runs as its parts one after the other. -/
theorem main_eq (c : Dev nD) : main (F := F) c = seq ops := by
  simp only [ops, seq_append, ← part0_eq c, ← part1_eq c, ← part2_eq c, ← part3_eq c, ← part4_eq c, ← part5_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub .., binary_bufs_sub .., unary_bufs_sub .., unary_bufs_sub .., binary_bufs_sub ..,
    binary_bufs_sub .., unary_bufs_sub .., unary_bufs_sub .., binary_bufs_sub .., nullary_bufs_sub .., binary_bufs_sub ..⟩

/-- No operation of the window leaves its result undetermined. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

theorem ops1_sub : (ops1 : List (HloOp τ sig (Elt F))).Forall fun op => op.bufs ⊆ tcRefs τ sig :=
  ⟨nullary_bufs_sub .., binary_bufs_sub .., unary_bufs_sub .., binary_bufs_sub .., binary_bufs_sub .., nullary_bufs_sub ..,
    binary_bufs_sub .., nullary_bufs_sub .., binary_bufs_sub .., unary_bufs_sub .., nullary_bufs_sub .., binary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., binary_bufs_sub ..,
    unary_bufs_sub .., unary_bufs_sub ..⟩

/-- No operation of the window leaves its result undetermined. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

theorem ops2_sub : (ops2 : List (HloOp τ sig (Elt F))).Forall fun op => op.bufs ⊆ tcRefs τ sig :=
  ⟨binary_bufs_sub .., binary_bufs_sub .., unary_bufs_sub .., unary_bufs_sub .., binary_bufs_sub .., nullary_bufs_sub ..,
    binary_bufs_sub .., nullary_bufs_sub .., binary_bufs_sub .., unary_bufs_sub .., binary_bufs_sub .., binary_bufs_sub ..,
    nullary_bufs_sub .., binary_bufs_sub .., nullary_bufs_sub .., binary_bufs_sub .., unary_bufs_sub .., nullary_bufs_sub ..,
    binary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub ..⟩

/-- No operation of the window leaves its result undetermined. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

theorem ops3_sub : (ops3 : List (HloOp τ sig (Elt F))).Forall fun op => op.bufs ⊆ tcRefs τ sig :=
  ⟨nullary_bufs_sub .., unary_bufs_sub .., unary_bufs_sub .., ternary_bufs_sub .., binary_bufs_sub .., unary_bufs_sub ..,
    unary_bufs_sub .., binary_bufs_sub .., binary_bufs_sub .., unary_bufs_sub .., unary_bufs_sub .., binary_bufs_sub ..,
    nullary_bufs_sub .., binary_bufs_sub .., nullary_bufs_sub .., binary_bufs_sub .., unary_bufs_sub .., binary_bufs_sub ..,
    binary_bufs_sub .., nullary_bufs_sub .., binary_bufs_sub .., nullary_bufs_sub .., binary_bufs_sub .., unary_bufs_sub ..,
    nullary_bufs_sub .., binary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., unary_bufs_sub .., nullary_bufs_sub .., unary_bufs_sub ..,
    binary_bufs_sub .., nullary_bufs_sub ..⟩

/-- No operation of the window leaves its result undetermined. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

theorem ops4_sub : (ops4 : List (HloOp τ sig (Elt F))).Forall fun op => op.bufs ⊆ tcRefs τ sig :=
  ⟨unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., binary_bufs_sub ..,
    unary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., unary_bufs_sub .., ternary_bufs_sub .., binary_bufs_sub .., unary_bufs_sub .., binary_bufs_sub ..,
    binary_bufs_sub .., unary_bufs_sub ..⟩

/-- No operation of the window leaves its result undetermined. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

theorem ops5_sub : (ops5 : List (HloOp τ sig (Elt F))).Forall fun op => op.bufs ⊆ tcRefs τ sig :=
  ⟨unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., reshape_bufs_sub ..,
    unary_bufs_sub ..⟩

/-- No operation of the window leaves its result undetermined. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h]

/-- Every operation determines its results. -/
theorem ops_fresh : ∀ op ∈ (ops : List (HloOp τ sig (Elt F))), op.fresh = ∅ := fun op h => by
  simp only [ops, List.mem_append] at h
  rcases h with h | h | h | h | h | h
  exacts [List.forall_iff_forall_mem.mp ops0_fresh op h, List.forall_iff_forall_mem.mp ops1_fresh op h,
    List.forall_iff_forall_mem.mp ops2_fresh op h, List.forall_iff_forall_mem.mp ops3_fresh op h,
    List.forall_iff_forall_mem.mp ops4_fresh op h, List.forall_iff_forall_mem.mp ops5_fresh op h]

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.LibAfterAssign.lean ====
import Idealize.ShloMosaic.Lib.StableHlo.Run

/-!
# Reading a long straight line of operations one operation at a time

`StableHlo.after ops V` is the contents of every buffer after the operations `ops`, in order, from the
contents `V`: each operation rewrites the buffers it writes and leaves the rest. Read back in one step,
the contents of the last result are the composed term of all the operations, in which a value with
several consumers is repeated once per consumer; for a long line that term is too large to compute.

This module reads the fold one operation at a time instead. Suppose the line is in SINGLE-ASSIGNMENT
form, stated by a list `ws` of references, one per operation: the `k`-th operation writes exactly the
`k`-th reference (`WritesAre ops ws`). Split the line at position `k`, into the `k` operations before and
the rest (`after_take_drop`). Then

* a reference that no operation from position `k` on writes holds, at the end, what it held after the
  first `k` operations (`after_take_at_unwritten`);
* if the result `y` of the `k`-th operation is written by no later operation, then at the end it holds
  what the `k`-th operation put there, computed from the contents after the first `k` operations
  (`after_at_written`).

Together: if moreover no operation from position `k` on writes an operand of the `k`-th operation, then
the final contents satisfy that operation's own equation — at its result, the fold holds the operation's
function of THE FOLD at its operands (`after_nullary`, `after_unary`, `after_binary`, `after_ternary`,
`after_reshape`, one per builder). The equations of a line can then be used in program order, each
rewriting the operands by the equations already obtained, and no composed term is ever formed.

For a literal line the hypotheses are computations: `WritesAre ops ws` is the conjunction of the
builders' `*_writes` facts (each `rfl`), `ops.drop k = op :: post` is `rfl`, and a reference's absence
from `ws.drop k` is decided.
-/

namespace Cert.Lib.AfterAssign

open Idealize.ShloMosaic Idealize.ShloMosaic.StableHlo

variable {τ : Topo} {sig : RefSig} {Val : EltTy → Type}

/-! ## The fold of a concatenation -/

/-- The contents after two lines run one after the other: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line split at position `k`: the fold of the rest over the fold of the first `k` operations. -/
theorem after_take_drop (k : Nat) (ops : List (HloOp τ sig Val)) (V : Valuation τ sig Val) :
    after ops V = after (ops.drop k) (after (ops.take k) V) := by
  rw [← after_append, List.take_append_drop]

/-! ## Single assignment -/

/-- The `k`-th operation of the line writes exactly the `k`-th reference of the list (and the two have
    the same length). -/
def WritesAre : List (HloOp τ sig Val) → List (Ref sig .tc) → Prop
  | [], [] => True
  | op :: ops, w :: ws => op.writes = {Proc.devRef (τ := τ) .tc w} ∧ WritesAre ops ws
  | [], _ :: _ => False
  | _ :: _, [] => False

/-- The rest of a line from position `k` writes the rest of the list from position `k`. -/
theorem WritesAre.drop : ∀ (k : Nat) {ops : List (HloOp τ sig Val)} {ws : List (Ref sig .tc)},
    WritesAre ops ws → WritesAre (ops.drop k) (ws.drop k)
  | 0, _, _, h => h
  | _ + 1, [], [], h => h
  | k + 1, _ :: _, _ :: _, h => WritesAre.drop k h.2
  | _ + 1, [], _ :: _, h => h.elim
  | _ + 1, _ :: _, [], h => h.elim

/-- A reference that is not among the references a line writes keeps its contents. -/
theorem after_of_not_written : ∀ {ops : List (HloOp τ sig Val)} {ws : List (Ref sig .tc)},
    WritesAre ops ws → ∀ (V : Valuation τ sig Val) {r : Ref sig .tc}, r ∉ ws →
      after ops V (Proc.devRef .tc r) = V (Proc.devRef .tc r)
  | [], [], _, _, _, _ => rfl
  | op :: ops, w :: ws, h, V, r, hr => by
    rw [after_cons, after_of_not_written h.2 _ (fun hm => hr (List.mem_cons_of_mem _ hm))]
    refine HloOp.result_of_not_mem _ _ ?_
    rw [h.1, Finset.mem_singleton]
    refine devRef_ne_of_ne (fun e => hr ?_)
    rw [e]
    exact List.mem_cons_self
  | [], _ :: _, h, _, _, _ => h.elim
  | _ :: _, [], h, _, _, _ => h.elim

/-- A reference that no operation from position `k` on writes holds, after the whole line, what it held
    after the first `k` operations. -/
theorem after_take_at_unwritten {ops : List (HloOp τ sig Val)} {ws : List (Ref sig .tc)}
    (h : WritesAre ops ws) (k : Nat) (V : Valuation τ sig Val) {a : Ref sig .tc} (ha : a ∉ ws.drop k) :
    after (ops.take k) V (Proc.devRef .tc a) = after ops V (Proc.devRef .tc a) := by
  rw [after_take_drop k ops V]
  exact (after_of_not_written (WritesAre.drop k h) _ ha).symm

/-- If no operation after the `k`-th writes the reference `y`, the whole line leaves at `y` what the
    `k`-th operation leaves there, from the contents after the first `k` operations. -/
theorem after_at_written {ops : List (HloOp τ sig Val)} {ws : List (Ref sig .tc)}
    (h : WritesAre ops ws) (k : Nat) {op : HloOp τ sig Val} {post : List (HloOp τ sig Val)}
    (hk : ops.drop k = op :: post) (V : Valuation τ sig Val) {y : Ref sig .tc}
    (hy : y ∉ ws.drop (k + 1)) :
    after ops V (Proc.devRef .tc y) = op.result (after (ops.take k) V) (Proc.devRef .tc y) := by
  have hpost : WritesAre post (ws.drop (k + 1)) := by
    have h' := WritesAre.drop (k + 1) h
    rwa [← List.tail_drop (l := ops) (i := k), hk, List.tail_cons] at h'
  rw [after_take_drop k ops V, hk, after_cons]
  exact after_of_not_written hpost _ hy

/-! ## Each builder's equation, at the fold itself -/

/-- A constant: if no later operation writes its result, the whole line leaves the constant there. -/
theorem after_nullary {ops : List (HloOp τ sig Val)} {ws : List (Ref sig .tc)} (h : WritesAre ops ws)
    (k : Nat) {y : Ref sig .tc} {v : y.ty.Contents Val} {hy} {post : List (HloOp τ sig Val)}
    (hk : ops.drop k = nullary (τ := τ) y v hy :: post) (V : Valuation τ sig Val)
    (hyw : y ∉ ws.drop (k + 1)) :
    after ops V (Proc.devRef .tc y) = v := by
  rw [after_at_written h k hk V hyw, nullary_result]

/-- A one-operand operation: if no later operation writes its result and none from it on writes its
    operand, the whole line leaves at the result the operation's function of what the whole line leaves
    at the operand. -/
theorem after_unary {ops : List (HloOp τ sig Val)} {ws : List (Ref sig .tc)} (h : WritesAre ops ws)
    (k : Nat) {x y : Ref sig .tc} {f : x.ty.Contents Val → y.ty.Contents Val} {hx hy}
    {post : List (HloOp τ sig Val)}
    (hk : ops.drop k = unary (τ := τ) x y f hx hy :: post) (V : Valuation τ sig Val)
    (hyw : y ∉ ws.drop (k + 1)) (hxw : x ∉ ws.drop k) :
    after ops V (Proc.devRef .tc y) = f (after ops V (Proc.devRef .tc x)) := by
  rw [after_at_written h k hk V hyw, unary_result, after_take_at_unwritten h k V hxw]

/-- A two-operand operation: if no later operation writes its result and none from it on writes an
    operand, the whole line leaves at the result the operation's function of what the whole line leaves
    at the two operands. -/
theorem after_binary {ops : List (HloOp τ sig Val)} {ws : List (Ref sig .tc)} (h : WritesAre ops ws)
    (k : Nat) {a b y : Ref sig .tc} {f : a.ty.Contents Val → b.ty.Contents Val → y.ty.Contents Val}
    {ha hb hy} {post : List (HloOp τ sig Val)}
    (hk : ops.drop k = binary (τ := τ) a b y f ha hb hy :: post) (V : Valuation τ sig Val)
    (hyw : y ∉ ws.drop (k + 1)) (haw : a ∉ ws.drop k) (hbw : b ∉ ws.drop k) :
    after ops V (Proc.devRef .tc y)
      = f (after ops V (Proc.devRef .tc a)) (after ops V (Proc.devRef .tc b)) := by
  rw [after_at_written h k hk V hyw, binary_result, after_take_at_unwritten h k V haw,
    after_take_at_unwritten h k V hbw]

/-- A three-operand operation, likewise. -/
theorem after_ternary {ops : List (HloOp τ sig Val)} {ws : List (Ref sig .tc)} (h : WritesAre ops ws)
    (k : Nat) {c a b y : Ref sig .tc}
    {f : c.ty.Contents Val → a.ty.Contents Val → b.ty.Contents Val → y.ty.Contents Val}
    {hc ha hb hy} {post : List (HloOp τ sig Val)}
    (hk : ops.drop k = ternary (τ := τ) c a b y f hc ha hb hy :: post) (V : Valuation τ sig Val)
    (hyw : y ∉ ws.drop (k + 1)) (hcw : c ∉ ws.drop k) (haw : a ∉ ws.drop k) (hbw : b ∉ ws.drop k) :
    after ops V (Proc.devRef .tc y)
      = f (after ops V (Proc.devRef .tc c)) (after ops V (Proc.devRef .tc a))
          (after ops V (Proc.devRef .tc b)) := by
  rw [after_at_written h k hk V hyw, ternary_result, after_take_at_unwritten h k V hcw,
    after_take_at_unwritten h k V haw, after_take_at_unwritten h k V hbw]

/-- A reshape: if no later operation writes its result and none from it on writes its operand, the
    whole line leaves at the result the operand's final contents in row-major order at the result's
    shape. -/
theorem after_reshape {ops : List (HloOp τ sig Val)} {ws : List (Ref sig .tc)} (h : WritesAre ops ws)
    (k : Nat) {x y : Ref sig .tc} {he : x.ty.elt = y.ty.elt} {hn : x.ty.shape.ShapeCasts y.ty.shape}
    {hx hy} {post : List (HloOp τ sig Val)}
    (hk : ops.drop k = reshape (τ := τ) (Val := Val) x y he hn hx hy :: post) (V : Valuation τ sig Val)
    (hyw : y ∉ ws.drop (k + 1)) (hxw : x ∉ ws.drop k) :
    after ops V (Proc.devRef .tc y)
      = fun i => he ▸ shapeCast y.ty.shape (after ops V (Proc.devRef .tc x)) hn i := by
  rw [after_at_written h k hk V hyw, reshape_result, after_take_at_unwritten h k V hxw]

end Cert.Lib.AfterAssign
-- ==== Proof.RefKeep.lean ====
import proofs.«167728_j48945447305605_1_alg».proof.Proof.RefOps
import proofs.«167728_j48945447305605_1_alg».proof.Proof.LibAfterAssign

/-!
# What each window of the reference writes, and what it leaves alone

The reference's operations are in single-assignment form: each operation of a window writes one buffer,
and no buffer is written twice. For each window the buffers it writes are listed in program order; a buffer
that is not in a window's list holds after the window what it held before it. Chaining the windows, a buffer
written in window `K` holds at the end of the program what window `K` left in it, and an argument of the
program holds at the end what it held at the start.
-/

noncomputable section

namespace Cert.ReferenceIdeal.RefRun

open Cert.ReferenceIdeal.Gen Idealize.ShloMosaic Idealize.ShloMosaic.TcCoe Idealize.ShloMosaic.StableHlo
open Cert.Lib.AfterAssign

variable {F : FTy → Type} [FloatOps F]

/-- The buffers window 0 writes, in program order. -/
abbrev ws0 : List (Ref sig .tc) :=
  [
    main_v0, main_v1, main_v2, main_v3, main_cst, main_v4,
    main_cst_0, main_v5, main_v6, main_v7, main_cst_1, main_v8,
    main_v9, main_v10, main_v11, main_c, main_v12, main_v13,
    main_c_2, main_v14, main_v15, main_v16, main_v17, main_v18,
    main_c_3, main_v19, main_v20, main_c_4, main_v21, main_v22,
    main_v23, main_v24, main_v25, main_v26, main_v27, main_c_5,
    main_v28, main_v29, main_c_6, main_v30, main_v31, main_v32,
    main_v33, main_v34, main_v35, main_v36, main_cst_7, main_v37,
    main_v38, main_v39, main_v40, main_v41, main_v42, main_v43,
    main_v44, main_v45, main_v46, main_v47, main_cst_8, main_v48 ]

/-- Window 0 is in single-assignment form over that list. -/
theorem writes0 : WritesAre (ops0 : List (HloOp τ sig (Elt F))) ws0 :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, trivial⟩

/-- A buffer window 0 does not write keeps its contents through it. -/
theorem keep0 (W : Valuation τ sig (Elt F)) {r : Ref sig .tc} (hr : r ∉ ws0) :
    after ops0 W (Proc.devRef .tc r) = W (Proc.devRef .tc r) :=
  after_of_not_written writes0 W hr

/-- The buffers window 1 writes, in program order. -/
abbrev ws1 : List (Ref sig .tc) :=
  [
    main_cst_9, main_v49, main_v50, main_v51, main_v52, main_cst_10,
    main_v53, main_cst_11, main_v54, main_v55, main_cst_12, main_v56,
    main_v57, main_v58, main_v59, main_v60, main_v61, main_v62,
    main_v63, main_v64, main_call0.cst.ref, main_call0.v0.ref, main_call0.v1.ref, main_call0.cst_0.ref,
    main_call0.v2.ref, main_call0.v3.ref, main_call0.cst_1.ref, main_call0.call0.v0.ref, main_call0.call0.v1.ref, main_call0.call0.v2.ref,
    main_call0.v5.ref, main_call0.cst_2.ref, main_call0.v6.ref, main_call0.v7.ref, main_call0.call1.v0.ref, main_v66,
    main_c_13, main_v67, main_v68, main_c_14, main_v69, main_v70,
    main_v71, main_v72, main_v73, main_c_15, main_v74, main_v75,
    main_c_16, main_v76, main_v77, main_v78, main_v79, main_v80,
    main_v81, main_v82, main_c_17, main_v83, main_v84, main_c_18,
    main_v85, main_v86, main_v87, main_v88, main_v89, main_v90,
    main_v91, main_cst_19, main_v92, main_v93, main_v94, main_v95,
    main_v96, main_v97 ]

/-- Window 1 is in single-assignment form over that list. -/
theorem writes1 : WritesAre (ops1 : List (HloOp τ sig (Elt F))) ws1 :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, trivial⟩

/-- A buffer window 1 does not write keeps its contents through it. -/
theorem keep1 (W : Valuation τ sig (Elt F)) {r : Ref sig .tc} (hr : r ∉ ws1) :
    after ops1 W (Proc.devRef .tc r) = W (Proc.devRef .tc r) :=
  after_of_not_written writes1 W hr

/-- The buffers window 2 writes, in program order. -/
abbrev ws2 : List (Ref sig .tc) :=
  [
    main_v98, main_v99, main_v100, main_v101, main_v102, main_cst_20,
    main_v103, main_cst_21, main_v104, main_v105, main_v106, main_v107,
    main_cst_22, main_v108, main_cst_23, main_v109, main_v110, main_cst_24,
    main_v111, main_v112, main_v113, main_v114, main_v115, main_v116,
    main_v117, main_v118, main_v119, main_call1.cst.ref, main_call1.v0.ref, main_call1.v1.ref,
    main_call1.cst_0.ref, main_call1.v2.ref, main_call1.v3.ref, main_call1.cst_1.ref, main_call1.call0.v0.ref, main_call1.call0.v1.ref,
    main_call1.call0.v2.ref, main_call1.v5.ref, main_call1.cst_2.ref, main_call1.v6.ref, main_call1.v7.ref, main_call1.call1.v0.ref,
    main_v121, main_c_25, main_v122, main_v123, main_c_26, main_v124,
    main_v125, main_v126, main_v127, main_v128, main_c_27, main_v129,
    main_v130, main_c_28, main_v131, main_v132, main_v133, main_v134,
    main_v135, main_v136, main_v137, main_c_29, main_v138, main_v139,
    main_c_30, main_v140, main_v141, main_v142, main_v143, main_v144,
    main_v145, main_v146 ]

/-- Window 2 is in single-assignment form over that list. -/
theorem writes2 : WritesAre (ops2 : List (HloOp τ sig (Elt F))) ws2 :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, trivial⟩

/-- A buffer window 2 does not write keeps its contents through it. -/
theorem keep2 (W : Valuation τ sig (Elt F)) {r : Ref sig .tc} (hr : r ∉ ws2) :
    after ops2 W (Proc.devRef .tc r) = W (Proc.devRef .tc r) :=
  after_of_not_written writes2 W hr

/-- The buffers window 3 writes, in program order. -/
abbrev ws3 : List (Ref sig .tc) :=
  [
    main_cst_31, main_v147, main_v148, main_v149, main_v150, main_v151,
    main_v152, main_v153, main_v154, main_v155, main_v156, main_v157,
    main_cst_32, main_v158, main_cst_33, main_v159, main_v160, main_v161,
    main_v162, main_cst_34, main_v163, main_cst_35, main_v164, main_v165,
    main_cst_36, main_v166, main_v167, main_v168, main_v169, main_v170,
    main_v171, main_v172, main_v173, main_v174, main_call2.cst.ref, main_call2.v0.ref,
    main_call2.v1.ref, main_call2.cst_0.ref, main_call2.v2.ref, main_call2.v3.ref, main_call2.cst_1.ref, main_call2.call0.v0.ref,
    main_call2.call0.v1.ref, main_call2.call0.v2.ref, main_call2.v5.ref, main_call2.cst_2.ref, main_call2.v6.ref, main_call2.v7.ref,
    main_call2.call1.v0.ref, main_v176, main_c_37, main_v177, main_v178, main_c_38,
    main_v179, main_v180, main_v181, main_v182, main_v183, main_c_39,
    main_v184, main_v185, main_c_40, main_v186, main_v187, main_v188,
    main_v189, main_v190, main_v191, main_v192, main_c_41, main_v193,
    main_v194, main_c_42 ]

/-- Window 3 is in single-assignment form over that list. -/
theorem writes3 : WritesAre (ops3 : List (HloOp τ sig (Elt F))) ws3 :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, trivial⟩

/-- A buffer window 3 does not write keeps its contents through it. -/
theorem keep3 (W : Valuation τ sig (Elt F)) {r : Ref sig .tc} (hr : r ∉ ws3) :
    after ops3 W (Proc.devRef .tc r) = W (Proc.devRef .tc r) :=
  after_of_not_written writes3 W hr

/-- The buffers window 4 writes, in program order. -/
abbrev ws4 : List (Ref sig .tc) :=
  [
    main_v195, main_v196, main_v197, main_v198, main_v199, main_v200,
    main_v201, main_cst_43, main_v202, main_v203, main_v204, main_v205,
    main_v206, main_v207, main_v208, main_v209, main_v210, main_v211,
    main_v212, main_call3.cst.ref, main_call3.v0.ref, main_call3.v1.ref, main_call3.cst_0.ref, main_call3.v2.ref,
    main_call3.v3.ref, main_call3.cst_1.ref, main_call3.call0.v0.ref, main_call3.call0.v1.ref, main_call3.call0.v2.ref, main_call3.v5.ref,
    main_call3.cst_2.ref, main_call3.v6.ref, main_call3.v7.ref, main_call3.call1.v0.ref, main_v214, main_c_44,
    main_v215, main_v216, main_c_45, main_v217, main_v218, main_v219,
    main_v220, main_v221, main_c_46, main_v222, main_v223, main_c_47,
    main_v224, main_v225, main_v226, main_v227, main_v228, main_v229,
    main_v230, main_c_48, main_v231, main_v232, main_c_49, main_v233,
    main_v234, main_v235, main_v236, main_v237, main_v238, main_cst_50,
    main_v239, main_v240, main_v241, main_v242, main_v243, main_v244,
    main_v245, main_v246 ]

/-- Window 4 is in single-assignment form over that list. -/
theorem writes4 : WritesAre (ops4 : List (HloOp τ sig (Elt F))) ws4 :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, trivial⟩

/-- A buffer window 4 does not write keeps its contents through it. -/
theorem keep4 (W : Valuation τ sig (Elt F)) {r : Ref sig .tc} (hr : r ∉ ws4) :
    after ops4 W (Proc.devRef .tc r) = W (Proc.devRef .tc r) :=
  after_of_not_written writes4 W hr

/-- The buffers window 5 writes, in program order. -/
abbrev ws5 : List (Ref sig .tc) :=
  [
    main_v247, main_v248, main_call4.cst.ref, main_call4.v0.ref, main_call4.v1.ref, main_call4.cst_0.ref,
    main_call4.v2.ref, main_call4.v3.ref, main_call4.cst_1.ref, main_call4.call0.v0.ref, main_call4.call0.v1.ref, main_call4.call0.v2.ref,
    main_call4.v5.ref, main_call4.cst_2.ref, main_call4.v6.ref, main_call4.v7.ref, main_call4.call1.v0.ref, main_v250,
    main_v251 ]

/-- Window 5 is in single-assignment form over that list. -/
theorem writes5 : WritesAre (ops5 : List (HloOp τ sig (Elt F))) ws5 :=
  ⟨rfl, rfl, rfl, rfl, rfl, rfl, rfl, rfl, rfl, rfl, rfl, rfl, rfl, rfl, rfl, rfl, rfl, rfl, rfl, trivial⟩

/-- A buffer window 5 does not write keeps its contents through it. -/
theorem keep5 (W : Valuation τ sig (Elt F)) {r : Ref sig .tc} (hr : r ∉ ws5) :
    after ops5 W (Proc.devRef .tc r) = W (Proc.devRef .tc r) :=
  after_of_not_written writes5 W hr

/-! ## The windows chained

`after ops V` is the six windows one after the other. A buffer that the windows after window `K` do not
write holds at the end what window `K` left. -/

/-- At the end of the program: window 5's contents. -/
theorem end_of5 (V : Valuation τ sig (Elt F)) (b : DevRef τ sig) :
    after ops V b = after ops5 (after ops4 (after ops3 (after ops2 (after ops1 (after ops0 V))))) b := by
  rw [after_ops]

/-- A buffer window 5 does not write: window 4's contents. -/
theorem end_of4 (V : Valuation τ sig (Elt F)) {r : Ref sig .tc} (h5 : r ∉ ws5) :
    after ops V (Proc.devRef .tc r)
      = after ops4 (after ops3 (after ops2 (after ops1 (after ops0 V)))) (Proc.devRef .tc r) := by
  rw [after_ops, keep5 _ h5]

/-- A buffer windows 4 and 5 do not write: window 3's contents. -/
theorem end_of3 (V : Valuation τ sig (Elt F)) {r : Ref sig .tc} (h4 : r ∉ ws4) (h5 : r ∉ ws5) :
    after ops V (Proc.devRef .tc r) = after ops3 (after ops2 (after ops1 (after ops0 V))) (Proc.devRef .tc r) := by
  rw [after_ops, keep5 _ h5, keep4 _ h4]

/-- A buffer windows 3 to 5 do not write: window 2's contents. -/
theorem end_of2 (V : Valuation τ sig (Elt F)) {r : Ref sig .tc} (h3 : r ∉ ws3) (h4 : r ∉ ws4) (h5 : r ∉ ws5) :
    after ops V (Proc.devRef .tc r) = after ops2 (after ops1 (after ops0 V)) (Proc.devRef .tc r) := by
  rw [after_ops, keep5 _ h5, keep4 _ h4, keep3 _ h3]

/-- A buffer windows 2 to 5 do not write: window 1's contents. -/
theorem end_of1 (V : Valuation τ sig (Elt F)) {r : Ref sig .tc} (h2 : r ∉ ws2) (h3 : r ∉ ws3) (h4 : r ∉ ws4)
    (h5 : r ∉ ws5) :
    after ops V (Proc.devRef .tc r) = after ops1 (after ops0 V) (Proc.devRef .tc r) := by
  rw [after_ops, keep5 _ h5, keep4 _ h4, keep3 _ h3, keep2 _ h2]

/-- A buffer windows 1 to 5 do not write: window 0's contents. -/
theorem end_of0 (V : Valuation τ sig (Elt F)) {r : Ref sig .tc} (h1 : r ∉ ws1) (h2 : r ∉ ws2) (h3 : r ∉ ws3)
    (h4 : r ∉ ws4) (h5 : r ∉ ws5) :
    after ops V (Proc.devRef .tc r) = after ops0 V (Proc.devRef .tc r) := by
  rw [after_ops, keep5 _ h5, keep4 _ h4, keep3 _ h3, keep2 _ h2, keep1 _ h1]

/-- A buffer no window writes (an argument of the program) holds at the end what it held at the start. -/
theorem end_arg (V : Valuation τ sig (Elt F)) {r : Ref sig .tc} (h0 : r ∉ ws0) (h1 : r ∉ ws1) (h2 : r ∉ ws2)
    (h3 : r ∉ ws3) (h4 : r ∉ ws4) (h5 : r ∉ ws5) :
    after ops V (Proc.devRef .tc r) = V (Proc.devRef .tc r) := by
  rw [after_ops, keep5 _ h5, keep4 _ h4, keep3 _ h3, keep2 _ h2, keep1 _ h1, keep0 _ h0]

end Cert.ReferenceIdeal.RefRun

end
-- ==== Proof.RefTerms.lean ====
import proofs.«167728_j48945447305605_1_alg».proof.ReferenceIdeal
import proofs.«167728_j48945447305605_1_alg».proof.Proof.Spec
import proofs.«167728_j48945447305605_1_alg».proof.Proof.Cur
import Idealize.ShloMosaic.Lib.ValueIdx
import Idealize.ShloMosaic.Lib.ValueLayout
import Idealize.ShloMosaic.Lib.IdealHost
import Idealize.ShloMosaic.PureOps.Ideal.Laws

/-!
# The reference program's stages as terms of arrays, read at an index

Each stage of the reference — a linear map, the combination of neighbourhood sum, self loop and bias, the exponential
linear unit, and the normalisation over all entries — is written here as ONE term over its argument arrays, spelt
operation by operation as the reference program prints it, and then read at an index as the corresponding function of
curried arrays of extended reals (`Cert.Spec`). Nothing here mentions a program state: these are statements about
terms of arrays.

* `dotR9`, `dotR64`, `dotR64x16`, `dotR16x1`: the four `dot_general`s; `cur2 (dot… x w) = lin (cur2 x) (cur2 w)`.
* `convR64`, `convR16`, `convR1`: `cur2 (conv… A h dis b) = conv (cur2 A) (cur2 h) (cur1 dis) (cur1 b)`.
* `eluR64`, `eluR16`, `eluR1`: `cur2 (elu… x) = eluA (cur2 x)`; no finiteness is needed, since both selects decide
  the same comparison and the untaken branch is never read.
* `lnR64` (through `muR64`, `cenR64`, `sdeR64`, `affR64`): `cur2 (lnR64 y g bt) = lnR (cur2 y) (cur1 g) (cur1 bt)`.
-/

noncomputable section

namespace Cert.ReferenceIdeal.RefTerms

open Idealize.ShloMosaic Idealize.ShloMosaic.ValueIdx Cert.ReferenceIdeal Cert.Cur Cert.Spec
open Facts₀ Facts

variable [Facts]

local notation "𝔸" S ", " t => BufTy.Contents (Elt Ideal) (⟨S, t⟩ : BufTy)

/-! ## Broadcasts read at an index -/

/-- A column `[n, 1]` broadcast over `m` features reads, at row `i`, the column's entry of that row. -/
theorem bcastCol_apply {α : Type} {n m : Nat}
    (h : (⟨2, ![n, 1]⟩ : Shape).BroadcastsInDim ⟨2, ![n, m]⟩ (![0, 1] : Fin 2 → Fin 2))
    (y : (⟨2, ![n, 1]⟩ : Shape).Idx → α) (i : Fin n) (j : Fin m) :
    broadcastInDim ⟨2, ![n, m]⟩ ![0, 1] h y (ix2 i j) = y (ix2 i (0 : Fin 1)) := by
  refine broadcastInDim_apply _ h y _ _ fun a => ?_
  match a with
  | ⟨0, _⟩ =>
    show i.val = if n = 1 then 0 else i.val
    split
    · omega
    · rfl
  | ⟨1, _⟩ => rfl

/-- A vector `[n]` made a column `[n, 1]` reads, at row `i`, the vector's entry `i`. -/
theorem bcastVecCol_apply {α : Type} {n : Nat}
    (h : (⟨1, ![n]⟩ : Shape).BroadcastsInDim ⟨2, ![n, 1]⟩ (![0] : Fin 1 → Fin 2))
    (y : (⟨1, ![n]⟩ : Shape).Idx → α) (i : Fin n) (j : Fin 1) :
    broadcastInDim ⟨2, ![n, 1]⟩ ![0] h y (ix2 i j) = y (ix1 i) := by
  refine broadcastInDim_apply _ h y _ _ fun a => ?_
  match a with
  | ⟨0, _⟩ =>
    show i.val = if n = 1 then 0 else i.val
    split
    · omega
    · rfl

/-- A row `[1, m]` broadcast over `n` rows reads, at feature `j`, the row's entry `j`. -/
theorem bcastRow_apply {α : Type} {n m : Nat}
    (h : (⟨2, ![1, m]⟩ : Shape).BroadcastsInDim ⟨2, ![n, m]⟩ (![0, 1] : Fin 2 → Fin 2))
    (y : (⟨2, ![1, m]⟩ : Shape).Idx → α) (i : Fin n) (j : Fin m) :
    broadcastInDim ⟨2, ![n, m]⟩ ![0, 1] h y (ix2 i j) = y (ix2 (0 : Fin 1) j) := by
  refine broadcastInDim_apply _ h y _ _ fun a => ?_
  match a with
  | ⟨0, _⟩ => rfl
  | ⟨1, _⟩ =>
    show j.val = if m = 1 then 0 else j.val
    split
    · omega
    · rfl

/-- A vector `[m]` made a row `[1, m]` reads, at feature `j`, the vector's entry `j`. -/
theorem bcastVecRow_apply {α : Type} {m : Nat}
    (h : (⟨1, ![m]⟩ : Shape).BroadcastsInDim ⟨2, ![1, m]⟩ (![1] : Fin 1 → Fin 2))
    (y : (⟨1, ![m]⟩ : Shape).Idx → α) (i : Fin 1) (j : Fin m) :
    broadcastInDim ⟨2, ![1, m]⟩ ![1] h y (ix2 i j) = y (ix1 j) := by
  refine broadcastInDim_apply _ h y _ _ fun a => ?_
  match a with
  | ⟨0, _⟩ =>
    show j.val = if m = 1 then 0 else j.val
    split
    · omega
    · rfl

/-! ## The exponential linear unit -/

/-- The reference's spelling of the unit at one extended real: both selects decide `0 < z`; on the positive side the
    first operand `z` is taken, on the other side the inner select passes `z` to `exp · - 1`. -/
theorem elu_term (z : EReal) :
    Scalar.select (Ideal.cmp .ogt z 0) z (1 * (Ideal.exp (Scalar.select (Ideal.cmp .ogt z 0) 0 z) - 1)) = elu z := by
  unfold elu Ideal.cmp Scalar.select
  by_cases h : 0 < z
  · simp [h]
  · simp [h]

/-- The exponential linear unit as the reference spells it: `where(x > 0, x, 1 · expm1(where(x > 0, 0, x)))`. -/
def eluR64 (x : 𝔸 S262144x64, .f32) : 𝔸 S262144x64, .f32 :=
  select (cmpf (F := Ideal) .ogt x (broadcastInDim S262144x64 ![] bcast_S_S262144x64 (constant (F := Ideal) S_ .f32 0x00000000#32))) x
    (mulf (F := Ideal) (broadcastInDim S262144x64 ![] bcast_S_S262144x64 (constant (F := Ideal) S_ .f32 0x3F800000#32))
      (Host.expm1 (F := Ideal) (select (cmpf (F := Ideal) .ogt x (broadcastInDim S262144x64 ![] bcast_S_S262144x64 (constant (F := Ideal) S_ .f32 0x00000000#32)))
        (broadcastInDim S262144x64 ![] bcast_S_S262144x64 (id (constant (F := Ideal) S_ .f32 0x00000000#32))) x)))

theorem eluR64_apply (x : 𝔸 S262144x64, .f32) (j : S262144x64.Idx) : eluR64 x j = elu (x j) := by
  show Scalar.select (Ideal.cmp .ogt (x j) (Ideal.ofBits .f32 0x00000000#32)) (x j)
      (Ideal.ofBits .f32 0x3F800000#32 * (Ideal.exp (Scalar.select (Ideal.cmp .ogt (x j) (Ideal.ofBits .f32 0x00000000#32))
        (Ideal.ofBits .f32 0x00000000#32) (x j)) - 1)) = elu (x j)
  rw [Ideal.ofBits_zero_f32, Ideal.ofBits_one_f32]; exact elu_term (x j)

theorem cur2_eluR64 (x : 𝔸 S262144x64, .f32) : cur2 (eluR64 x) = eluA (cur2 x) := by
  funext i j; exact eluR64_apply x (ix2 i j)

/-- The exponential linear unit as the reference spells it: `where(x > 0, x, 1 · expm1(where(x > 0, 0, x)))`. -/
def eluR16 (x : 𝔸 S262144x16, .f32) : 𝔸 S262144x16, .f32 :=
  select (cmpf (F := Ideal) .ogt x (broadcastInDim S262144x16 ![] bcast_S_S262144x16 (constant (F := Ideal) S_ .f32 0x00000000#32))) x
    (mulf (F := Ideal) (broadcastInDim S262144x16 ![] bcast_S_S262144x16 (constant (F := Ideal) S_ .f32 0x3F800000#32))
      (Host.expm1 (F := Ideal) (select (cmpf (F := Ideal) .ogt x (broadcastInDim S262144x16 ![] bcast_S_S262144x16 (constant (F := Ideal) S_ .f32 0x00000000#32)))
        (broadcastInDim S262144x16 ![] bcast_S_S262144x16 (id (constant (F := Ideal) S_ .f32 0x00000000#32))) x)))

theorem eluR16_apply (x : 𝔸 S262144x16, .f32) (j : S262144x16.Idx) : eluR16 x j = elu (x j) := by
  show Scalar.select (Ideal.cmp .ogt (x j) (Ideal.ofBits .f32 0x00000000#32)) (x j)
      (Ideal.ofBits .f32 0x3F800000#32 * (Ideal.exp (Scalar.select (Ideal.cmp .ogt (x j) (Ideal.ofBits .f32 0x00000000#32))
        (Ideal.ofBits .f32 0x00000000#32) (x j)) - 1)) = elu (x j)
  rw [Ideal.ofBits_zero_f32, Ideal.ofBits_one_f32]; exact elu_term (x j)

theorem cur2_eluR16 (x : 𝔸 S262144x16, .f32) : cur2 (eluR16 x) = eluA (cur2 x) := by
  funext i j; exact eluR16_apply x (ix2 i j)

/-- The exponential linear unit as the reference spells it: `where(x > 0, x, 1 · expm1(where(x > 0, 0, x)))`. -/
def eluR1 (x : 𝔸 S262144x1, .f32) : 𝔸 S262144x1, .f32 :=
  select (cmpf (F := Ideal) .ogt x (broadcastInDim S262144x1 ![] bcast_S_S262144x1 (constant (F := Ideal) S_ .f32 0x00000000#32))) x
    (mulf (F := Ideal) (broadcastInDim S262144x1 ![] bcast_S_S262144x1 (constant (F := Ideal) S_ .f32 0x3F800000#32))
      (Host.expm1 (F := Ideal) (select (cmpf (F := Ideal) .ogt x (broadcastInDim S262144x1 ![] bcast_S_S262144x1 (constant (F := Ideal) S_ .f32 0x00000000#32)))
        (broadcastInDim S262144x1 ![] bcast_S_S262144x1 (id (constant (F := Ideal) S_ .f32 0x00000000#32))) x)))

theorem eluR1_apply (x : 𝔸 S262144x1, .f32) (j : S262144x1.Idx) : eluR1 x j = elu (x j) := by
  show Scalar.select (Ideal.cmp .ogt (x j) (Ideal.ofBits .f32 0x00000000#32)) (x j)
      (Ideal.ofBits .f32 0x3F800000#32 * (Ideal.exp (Scalar.select (Ideal.cmp .ogt (x j) (Ideal.ofBits .f32 0x00000000#32))
        (Ideal.ofBits .f32 0x00000000#32) (x j)) - 1)) = elu (x j)
  rw [Ideal.ofBits_zero_f32, Ideal.ofBits_one_f32]; exact elu_term (x j)

theorem cur2_eluR1 (x : 𝔸 S262144x1, .f32) : cur2 (eluR1 x) = eluA (cur2 x) := by
  funext i j; exact eluR1_apply x (ix2 i j)

/-! ## Neighbourhood sum, self loop and bias -/

/-- Neighbourhood sum, self loop and bias as the reference spells them: `(A + h · bcast(bcast(dis · dis))) + bcast(bcast b)`. -/
def convR64 (A h : 𝔸 S262144x64, .f32) (dis : 𝔸 S262144, .f32) (b : 𝔸 S64, .f32) : 𝔸 S262144x64, .f32 :=
  addf (F := Ideal) (φ := .f32) (addf (F := Ideal) (φ := .f32) A (mulf (F := Ideal) (φ := .f32) h
      (broadcastInDim S262144x64 ![0, 1] bcast_S262144x1_S262144x64_0_1
        (broadcastInDim S262144x1 ![0] bcast_S262144_S262144x1_0 (mulf (F := Ideal) (φ := .f32) dis dis)))))
    (broadcastInDim S262144x64 ![0, 1] bcast_S1x64_S262144x64_0_1 (broadcastInDim S1x64 ![1] bcast_S64_S1x64_1 b))

theorem cur2_convR64 (A h : 𝔸 S262144x64, .f32) (dis : 𝔸 S262144, .f32) (b : 𝔸 S64, .f32) :
    cur2 (convR64 A h dis b) = conv (cur2 A) (cur2 h) (cur1 dis) (cur1 b) := by
  funext i j
  show A (ix2 i j) + h (ix2 i j) * (broadcastInDim S262144x64 ![0, 1] bcast_S262144x1_S262144x64_0_1
        (broadcastInDim S262144x1 ![0] bcast_S262144_S262144x1_0 (mulf (F := Ideal) (φ := .f32) dis dis)) (ix2 i j))
      + broadcastInDim S262144x64 ![0, 1] bcast_S1x64_S262144x64_0_1 (broadcastInDim S1x64 ![1] bcast_S64_S1x64_1 b) (ix2 i j)
    = A (ix2 i j) + h (ix2 i j) * (dis (ix1 i) * dis (ix1 i)) + b (ix1 j)
  rw [bcastCol_apply, bcastVecCol_apply, bcastRow_apply, bcastVecRow_apply]
  rfl

/-- Neighbourhood sum, self loop and bias as the reference spells them: `(A + h · bcast(bcast(dis · dis))) + bcast(bcast b)`. -/
def convR16 (A h : 𝔸 S262144x16, .f32) (dis : 𝔸 S262144, .f32) (b : 𝔸 S16, .f32) : 𝔸 S262144x16, .f32 :=
  addf (F := Ideal) (φ := .f32) (addf (F := Ideal) (φ := .f32) A (mulf (F := Ideal) (φ := .f32) h
      (broadcastInDim S262144x16 ![0, 1] bcast_S262144x1_S262144x16_0_1
        (broadcastInDim S262144x1 ![0] bcast_S262144_S262144x1_0 (mulf (F := Ideal) (φ := .f32) dis dis)))))
    (broadcastInDim S262144x16 ![0, 1] bcast_S1x16_S262144x16_0_1 (broadcastInDim S1x16 ![1] bcast_S16_S1x16_1 b))

theorem cur2_convR16 (A h : 𝔸 S262144x16, .f32) (dis : 𝔸 S262144, .f32) (b : 𝔸 S16, .f32) :
    cur2 (convR16 A h dis b) = conv (cur2 A) (cur2 h) (cur1 dis) (cur1 b) := by
  funext i j
  show A (ix2 i j) + h (ix2 i j) * (broadcastInDim S262144x16 ![0, 1] bcast_S262144x1_S262144x16_0_1
        (broadcastInDim S262144x1 ![0] bcast_S262144_S262144x1_0 (mulf (F := Ideal) (φ := .f32) dis dis)) (ix2 i j))
      + broadcastInDim S262144x16 ![0, 1] bcast_S1x16_S262144x16_0_1 (broadcastInDim S1x16 ![1] bcast_S16_S1x16_1 b) (ix2 i j)
    = A (ix2 i j) + h (ix2 i j) * (dis (ix1 i) * dis (ix1 i)) + b (ix1 j)
  rw [bcastCol_apply, bcastVecCol_apply, bcastRow_apply, bcastVecRow_apply]
  rfl

/-- The same for one feature: the `dis · dis` column needs no second broadcast. -/
def convR1 (A h : 𝔸 S262144x1, .f32) (dis : 𝔸 S262144, .f32) (b : 𝔸 S1, .f32) : 𝔸 S262144x1, .f32 :=
  addf (F := Ideal) (φ := .f32) (addf (F := Ideal) (φ := .f32) A (mulf (F := Ideal) (φ := .f32) h
      (broadcastInDim S262144x1 ![0] bcast_S262144_S262144x1_0 (mulf (F := Ideal) (φ := .f32) dis dis))))
    (broadcastInDim S262144x1 ![0, 1] bcast_S1x1_S262144x1_0_1 (broadcastInDim S1x1 ![1] bcast_S1_S1x1_1 b))

theorem cur2_convR1 (A h : 𝔸 S262144x1, .f32) (dis : 𝔸 S262144, .f32) (b : 𝔸 S1, .f32) :
    cur2 (convR1 A h dis b) = conv (cur2 A) (cur2 h) (cur1 dis) (cur1 b) := by
  funext i j
  show A (ix2 i j) + h (ix2 i j) * (broadcastInDim S262144x1 ![0] bcast_S262144_S262144x1_0
        (mulf (F := Ideal) (φ := .f32) dis dis) (ix2 i j))
      + broadcastInDim S262144x1 ![0, 1] bcast_S1x1_S262144x1_0_1 (broadcastInDim S1x1 ![1] bcast_S1_S1x1_1 b) (ix2 i j)
    = A (ix2 i j) + h (ix2 i j) * (dis (ix1 i) * dis (ix1 i)) + b (ix1 j)
  rw [bcastVecCol_apply, bcastRow_apply, bcastVecRow_apply]
  rfl

/-! ## The linear maps -/

theorem lhs_dotR9_0 (i : S262144x64.Idx) (q : dot_S262144x9_S9x64_S262144x64_1_0_0_1_n_n.contr.Idx) :
    (dot_S262144x9_S9x64_S262144x64_1_0_0_1_n_n.lhsIdx i q 0).val = (i 0).val := by
  unfold DotDims.lhsIdx
  rw [dif_neg (show ¬(0 : Fin S262144x9.rank) ∈ dot_S262144x9_S9x64_S262144x64_1_0_0_1_n_n.lhsBatch from List.not_mem_nil),
    dif_pos (show (0 : Fin S262144x9.rank) ∈ dot_S262144x9_S9x64_S262144x64_1_0_0_1_n_n.lhsNonContracting from List.mem_singleton.mpr rfl)]
  rfl
theorem lhs_dotR9_1 (i : S262144x64.Idx) (q : dot_S262144x9_S9x64_S262144x64_1_0_0_1_n_n.contr.Idx) :
    (dot_S262144x9_S9x64_S262144x64_1_0_0_1_n_n.lhsIdx i q 1).val = (q ⟨0, Nat.one_pos⟩).val :=
  dot_S262144x9_S9x64_S262144x64_1_0_0_1_n_n.lhsIdx_val_of_single rfl i q
theorem rhs_dotR9_0 (i : S262144x64.Idx) (q : dot_S262144x9_S9x64_S262144x64_1_0_0_1_n_n.contr.Idx) :
    (dot_S262144x9_S9x64_S262144x64_1_0_0_1_n_n.rhsIdx i q 0).val = (q ⟨0, Nat.one_pos⟩).val :=
  dot_S262144x9_S9x64_S262144x64_1_0_0_1_n_n.rhsIdx_val_of_single rfl i q
theorem rhs_dotR9_1 (i : S262144x64.Idx) (q : dot_S262144x9_S9x64_S262144x64_1_0_0_1_n_n.contr.Idx) :
    (dot_S262144x9_S9x64_S262144x64_1_0_0_1_n_n.rhsIdx i q 1).val = (i 1).val := by
  unfold DotDims.rhsIdx
  rw [dif_neg (show ¬(1 : Fin S9x64.rank) ∈ dot_S262144x9_S9x64_S262144x64_1_0_0_1_n_n.rhsBatch from List.not_mem_nil),
    dif_pos (show (1 : Fin S9x64.rank) ∈ dot_S262144x9_S9x64_S262144x64_1_0_0_1_n_n.rhsNonContracting from List.mem_singleton.mpr rfl)]
  rfl

/-- The linear map as the reference spells it: a `dot_general` contracting the features of `x` with the rows of `w`. -/
def dotR9 (x : 𝔸 S262144x9, .f32) (w : 𝔸 S9x64, .f32) : 𝔸 S262144x64, .f32 :=
  Host.dotGeneral (F := Ideal) (φ₁ := .f32) (φ₂ := .f32) dot_S262144x9_S9x64_S262144x64_1_0_0_1_n_n none x w

theorem cur2_dotR9 (x : 𝔸 S262144x9, .f32) (w : 𝔸 S9x64, .f32) : cur2 (dotR9 x w) = lin (cur2 x) (cur2 w) := by
  funext i j
  show FloatOps.dotGeneral (F := Ideal) (φ₁ := .f32) (φ₂ := .f32) dot_S262144x9_S9x64_S262144x64_1_0_0_1_n_n none .single x w (ix2 i j)
    = ∑ k : Fin 9, x (ix2 i k) * w (ix2 k j)
  rw [Ideal.dotGeneral_apply, ← Equiv.sum_comp (contrEquiv1 dot_S262144x9_S9x64_S262144x64_1_0_0_1_n_n 9 rfl rfl).symm]
  refine Finset.sum_congr rfl fun k _ => ?_
  have hk := contrEquiv1_symm_val dot_S262144x9_S9x64_S262144x64_1_0_0_1_n_n 9 rfl rfl k
  have el : dot_S262144x9_S9x64_S262144x64_1_0_0_1_n_n.lhsIdx (ix2 i j) ((contrEquiv1 dot_S262144x9_S9x64_S262144x64_1_0_0_1_n_n 9 rfl rfl).symm k) = ix2 i k :=
    funext fun a => Fin.ext (by
      match a with
      | ⟨0, _⟩ => exact lhs_dotR9_0 _ _
      | ⟨1, _⟩ => exact (lhs_dotR9_1 _ _).trans hk)
  have er : dot_S262144x9_S9x64_S262144x64_1_0_0_1_n_n.rhsIdx (ix2 i j) ((contrEquiv1 dot_S262144x9_S9x64_S262144x64_1_0_0_1_n_n 9 rfl rfl).symm k) = ix2 k j :=
    funext fun a => Fin.ext (by
      match a with
      | ⟨0, _⟩ => exact (rhs_dotR9_0 _ _).trans hk
      | ⟨1, _⟩ => exact rhs_dotR9_1 _ _)
  rw [el, er]

theorem lhs_dotR64_0 (i : S262144x64.Idx) (q : dot_S262144x64_S64x64_S262144x64_1_0_0_1_n_n.contr.Idx) :
    (dot_S262144x64_S64x64_S262144x64_1_0_0_1_n_n.lhsIdx i q 0).val = (i 0).val := by
  unfold DotDims.lhsIdx
  rw [dif_neg (show ¬(0 : Fin S262144x64.rank) ∈ dot_S262144x64_S64x64_S262144x64_1_0_0_1_n_n.lhsBatch from List.not_mem_nil),
    dif_pos (show (0 : Fin S262144x64.rank) ∈ dot_S262144x64_S64x64_S262144x64_1_0_0_1_n_n.lhsNonContracting from List.mem_singleton.mpr rfl)]
  rfl
theorem lhs_dotR64_1 (i : S262144x64.Idx) (q : dot_S262144x64_S64x64_S262144x64_1_0_0_1_n_n.contr.Idx) :
    (dot_S262144x64_S64x64_S262144x64_1_0_0_1_n_n.lhsIdx i q 1).val = (q ⟨0, Nat.one_pos⟩).val :=
  dot_S262144x64_S64x64_S262144x64_1_0_0_1_n_n.lhsIdx_val_of_single rfl i q
theorem rhs_dotR64_0 (i : S262144x64.Idx) (q : dot_S262144x64_S64x64_S262144x64_1_0_0_1_n_n.contr.Idx) :
    (dot_S262144x64_S64x64_S262144x64_1_0_0_1_n_n.rhsIdx i q 0).val = (q ⟨0, Nat.one_pos⟩).val :=
  dot_S262144x64_S64x64_S262144x64_1_0_0_1_n_n.rhsIdx_val_of_single rfl i q
theorem rhs_dotR64_1 (i : S262144x64.Idx) (q : dot_S262144x64_S64x64_S262144x64_1_0_0_1_n_n.contr.Idx) :
    (dot_S262144x64_S64x64_S262144x64_1_0_0_1_n_n.rhsIdx i q 1).val = (i 1).val := by
  unfold DotDims.rhsIdx
  rw [dif_neg (show ¬(1 : Fin S64x64.rank) ∈ dot_S262144x64_S64x64_S262144x64_1_0_0_1_n_n.rhsBatch from List.not_mem_nil),
    dif_pos (show (1 : Fin S64x64.rank) ∈ dot_S262144x64_S64x64_S262144x64_1_0_0_1_n_n.rhsNonContracting from List.mem_singleton.mpr rfl)]
  rfl

/-- The linear map as the reference spells it: a `dot_general` contracting the features of `x` with the rows of `w`. -/
def dotR64 (x : 𝔸 S262144x64, .f32) (w : 𝔸 S64x64, .f32) : 𝔸 S262144x64, .f32 :=
  Host.dotGeneral (F := Ideal) (φ₁ := .f32) (φ₂ := .f32) dot_S262144x64_S64x64_S262144x64_1_0_0_1_n_n none x w

theorem cur2_dotR64 (x : 𝔸 S262144x64, .f32) (w : 𝔸 S64x64, .f32) : cur2 (dotR64 x w) = lin (cur2 x) (cur2 w) := by
  funext i j
  show FloatOps.dotGeneral (F := Ideal) (φ₁ := .f32) (φ₂ := .f32) dot_S262144x64_S64x64_S262144x64_1_0_0_1_n_n none .single x w (ix2 i j)
    = ∑ k : Fin 64, x (ix2 i k) * w (ix2 k j)
  rw [Ideal.dotGeneral_apply, ← Equiv.sum_comp (contrEquiv1 dot_S262144x64_S64x64_S262144x64_1_0_0_1_n_n 64 rfl rfl).symm]
  refine Finset.sum_congr rfl fun k _ => ?_
  have hk := contrEquiv1_symm_val dot_S262144x64_S64x64_S262144x64_1_0_0_1_n_n 64 rfl rfl k
  have el : dot_S262144x64_S64x64_S262144x64_1_0_0_1_n_n.lhsIdx (ix2 i j) ((contrEquiv1 dot_S262144x64_S64x64_S262144x64_1_0_0_1_n_n 64 rfl rfl).symm k) = ix2 i k :=
    funext fun a => Fin.ext (by
      match a with
      | ⟨0, _⟩ => exact lhs_dotR64_0 _ _
      | ⟨1, _⟩ => exact (lhs_dotR64_1 _ _).trans hk)
  have er : dot_S262144x64_S64x64_S262144x64_1_0_0_1_n_n.rhsIdx (ix2 i j) ((contrEquiv1 dot_S262144x64_S64x64_S262144x64_1_0_0_1_n_n 64 rfl rfl).symm k) = ix2 k j :=
    funext fun a => Fin.ext (by
      match a with
      | ⟨0, _⟩ => exact (rhs_dotR64_0 _ _).trans hk
      | ⟨1, _⟩ => exact rhs_dotR64_1 _ _)
  rw [el, er]

theorem lhs_dotR64x16_0 (i : S262144x16.Idx) (q : dot_S262144x64_S64x16_S262144x16_1_0_0_1_n_n.contr.Idx) :
    (dot_S262144x64_S64x16_S262144x16_1_0_0_1_n_n.lhsIdx i q 0).val = (i 0).val := by
  unfold DotDims.lhsIdx
  rw [dif_neg (show ¬(0 : Fin S262144x64.rank) ∈ dot_S262144x64_S64x16_S262144x16_1_0_0_1_n_n.lhsBatch from List.not_mem_nil),
    dif_pos (show (0 : Fin S262144x64.rank) ∈ dot_S262144x64_S64x16_S262144x16_1_0_0_1_n_n.lhsNonContracting from List.mem_singleton.mpr rfl)]
  rfl
theorem lhs_dotR64x16_1 (i : S262144x16.Idx) (q : dot_S262144x64_S64x16_S262144x16_1_0_0_1_n_n.contr.Idx) :
    (dot_S262144x64_S64x16_S262144x16_1_0_0_1_n_n.lhsIdx i q 1).val = (q ⟨0, Nat.one_pos⟩).val :=
  dot_S262144x64_S64x16_S262144x16_1_0_0_1_n_n.lhsIdx_val_of_single rfl i q
theorem rhs_dotR64x16_0 (i : S262144x16.Idx) (q : dot_S262144x64_S64x16_S262144x16_1_0_0_1_n_n.contr.Idx) :
    (dot_S262144x64_S64x16_S262144x16_1_0_0_1_n_n.rhsIdx i q 0).val = (q ⟨0, Nat.one_pos⟩).val :=
  dot_S262144x64_S64x16_S262144x16_1_0_0_1_n_n.rhsIdx_val_of_single rfl i q
theorem rhs_dotR64x16_1 (i : S262144x16.Idx) (q : dot_S262144x64_S64x16_S262144x16_1_0_0_1_n_n.contr.Idx) :
    (dot_S262144x64_S64x16_S262144x16_1_0_0_1_n_n.rhsIdx i q 1).val = (i 1).val := by
  unfold DotDims.rhsIdx
  rw [dif_neg (show ¬(1 : Fin S64x16.rank) ∈ dot_S262144x64_S64x16_S262144x16_1_0_0_1_n_n.rhsBatch from List.not_mem_nil),
    dif_pos (show (1 : Fin S64x16.rank) ∈ dot_S262144x64_S64x16_S262144x16_1_0_0_1_n_n.rhsNonContracting from List.mem_singleton.mpr rfl)]
  rfl

/-- The linear map as the reference spells it: a `dot_general` contracting the features of `x` with the rows of `w`. -/
def dotR64x16 (x : 𝔸 S262144x64, .f32) (w : 𝔸 S64x16, .f32) : 𝔸 S262144x16, .f32 :=
  Host.dotGeneral (F := Ideal) (φ₁ := .f32) (φ₂ := .f32) dot_S262144x64_S64x16_S262144x16_1_0_0_1_n_n none x w

theorem cur2_dotR64x16 (x : 𝔸 S262144x64, .f32) (w : 𝔸 S64x16, .f32) : cur2 (dotR64x16 x w) = lin (cur2 x) (cur2 w) := by
  funext i j
  show FloatOps.dotGeneral (F := Ideal) (φ₁ := .f32) (φ₂ := .f32) dot_S262144x64_S64x16_S262144x16_1_0_0_1_n_n none .single x w (ix2 i j)
    = ∑ k : Fin 64, x (ix2 i k) * w (ix2 k j)
  rw [Ideal.dotGeneral_apply, ← Equiv.sum_comp (contrEquiv1 dot_S262144x64_S64x16_S262144x16_1_0_0_1_n_n 64 rfl rfl).symm]
  refine Finset.sum_congr rfl fun k _ => ?_
  have hk := contrEquiv1_symm_val dot_S262144x64_S64x16_S262144x16_1_0_0_1_n_n 64 rfl rfl k
  have el : dot_S262144x64_S64x16_S262144x16_1_0_0_1_n_n.lhsIdx (ix2 i j) ((contrEquiv1 dot_S262144x64_S64x16_S262144x16_1_0_0_1_n_n 64 rfl rfl).symm k) = ix2 i k :=
    funext fun a => Fin.ext (by
      match a with
      | ⟨0, _⟩ => exact lhs_dotR64x16_0 _ _
      | ⟨1, _⟩ => exact (lhs_dotR64x16_1 _ _).trans hk)
  have er : dot_S262144x64_S64x16_S262144x16_1_0_0_1_n_n.rhsIdx (ix2 i j) ((contrEquiv1 dot_S262144x64_S64x16_S262144x16_1_0_0_1_n_n 64 rfl rfl).symm k) = ix2 k j :=
    funext fun a => Fin.ext (by
      match a with
      | ⟨0, _⟩ => exact (rhs_dotR64x16_0 _ _).trans hk
      | ⟨1, _⟩ => exact rhs_dotR64x16_1 _ _)
  rw [el, er]

theorem lhs_dotR16x1_0 (i : S262144x1.Idx) (q : dot_S262144x16_S16x1_S262144x1_1_0_0_1_n_n.contr.Idx) :
    (dot_S262144x16_S16x1_S262144x1_1_0_0_1_n_n.lhsIdx i q 0).val = (i 0).val := by
  unfold DotDims.lhsIdx
  rw [dif_neg (show ¬(0 : Fin S262144x16.rank) ∈ dot_S262144x16_S16x1_S262144x1_1_0_0_1_n_n.lhsBatch from List.not_mem_nil),
    dif_pos (show (0 : Fin S262144x16.rank) ∈ dot_S262144x16_S16x1_S262144x1_1_0_0_1_n_n.lhsNonContracting from List.mem_singleton.mpr rfl)]
  rfl
theorem lhs_dotR16x1_1 (i : S262144x1.Idx) (q : dot_S262144x16_S16x1_S262144x1_1_0_0_1_n_n.contr.Idx) :
    (dot_S262144x16_S16x1_S262144x1_1_0_0_1_n_n.lhsIdx i q 1).val = (q ⟨0, Nat.one_pos⟩).val :=
  dot_S262144x16_S16x1_S262144x1_1_0_0_1_n_n.lhsIdx_val_of_single rfl i q
theorem rhs_dotR16x1_0 (i : S262144x1.Idx) (q : dot_S262144x16_S16x1_S262144x1_1_0_0_1_n_n.contr.Idx) :
    (dot_S262144x16_S16x1_S262144x1_1_0_0_1_n_n.rhsIdx i q 0).val = (q ⟨0, Nat.one_pos⟩).val :=
  dot_S262144x16_S16x1_S262144x1_1_0_0_1_n_n.rhsIdx_val_of_single rfl i q
theorem rhs_dotR16x1_1 (i : S262144x1.Idx) (q : dot_S262144x16_S16x1_S262144x1_1_0_0_1_n_n.contr.Idx) :
    (dot_S262144x16_S16x1_S262144x1_1_0_0_1_n_n.rhsIdx i q 1).val = (i 1).val := by
  unfold DotDims.rhsIdx
  rw [dif_neg (show ¬(1 : Fin S16x1.rank) ∈ dot_S262144x16_S16x1_S262144x1_1_0_0_1_n_n.rhsBatch from List.not_mem_nil),
    dif_pos (show (1 : Fin S16x1.rank) ∈ dot_S262144x16_S16x1_S262144x1_1_0_0_1_n_n.rhsNonContracting from List.mem_singleton.mpr rfl)]
  rfl

/-- The linear map as the reference spells it: a `dot_general` contracting the features of `x` with the rows of `w`. -/
def dotR16x1 (x : 𝔸 S262144x16, .f32) (w : 𝔸 S16x1, .f32) : 𝔸 S262144x1, .f32 :=
  Host.dotGeneral (F := Ideal) (φ₁ := .f32) (φ₂ := .f32) dot_S262144x16_S16x1_S262144x1_1_0_0_1_n_n none x w

theorem cur2_dotR16x1 (x : 𝔸 S262144x16, .f32) (w : 𝔸 S16x1, .f32) : cur2 (dotR16x1 x w) = lin (cur2 x) (cur2 w) := by
  funext i j
  show FloatOps.dotGeneral (F := Ideal) (φ₁ := .f32) (φ₂ := .f32) dot_S262144x16_S16x1_S262144x1_1_0_0_1_n_n none .single x w (ix2 i j)
    = ∑ k : Fin 16, x (ix2 i k) * w (ix2 k j)
  rw [Ideal.dotGeneral_apply, ← Equiv.sum_comp (contrEquiv1 dot_S262144x16_S16x1_S262144x1_1_0_0_1_n_n 16 rfl rfl).symm]
  refine Finset.sum_congr rfl fun k _ => ?_
  have hk := contrEquiv1_symm_val dot_S262144x16_S16x1_S262144x1_1_0_0_1_n_n 16 rfl rfl k
  have el : dot_S262144x16_S16x1_S262144x1_1_0_0_1_n_n.lhsIdx (ix2 i j) ((contrEquiv1 dot_S262144x16_S16x1_S262144x1_1_0_0_1_n_n 16 rfl rfl).symm k) = ix2 i k :=
    funext fun a => Fin.ext (by
      match a with
      | ⟨0, _⟩ => exact lhs_dotR16x1_0 _ _
      | ⟨1, _⟩ => exact (lhs_dotR16x1_1 _ _).trans hk)
  have er : dot_S262144x16_S16x1_S262144x1_1_0_0_1_n_n.rhsIdx (ix2 i j) ((contrEquiv1 dot_S262144x16_S16x1_S262144x1_1_0_0_1_n_n 16 rfl rfl).symm k) = ix2 k j :=
    funext fun a => Fin.ext (by
      match a with
      | ⟨0, _⟩ => exact (rhs_dotR16x1_0 _ _).trans hk
      | ⟨1, _⟩ => exact rhs_dotR16x1_1 _ _)
  rw [el, er]

/-! ## The normalisation -/

/-- The mean of all entries as the reference spells it: the sum over both axes from the zero word, divided by the count word. -/
def muR64 (y : 𝔸 S262144x64, .f32) : 𝔸 S_, .f32 :=
  Host.divf (F := Ideal) (φ := .f32)
    (Host.reduceAdd (F := Ideal) (φ := .f32) y (constant (F := Ideal) S_ .f32 0x00000000#32) reducesTo_S262144x64_S_d0_1 h_S_)
    (constant (F := Ideal) S_ .f32 0x4B800000#32)

/-- The deviations from the mean. -/
def cenR64 (y : 𝔸 S262144x64, .f32) : 𝔸 S262144x64, .f32 :=
  subf (F := Ideal) (φ := .f32) y (broadcastInDim S262144x64 ![] bcast_S_S262144x64 (muR64 y))

/-- The standard deviation plus ε: the root of the mean of the squared deviations, plus the ε word. -/
def sdeR64 (y : 𝔸 S262144x64, .f32) : 𝔸 S_, .f32 :=
  addf (F := Ideal) (φ := .f32)
    (Host.sqrt (F := Ideal) (φ := .f32) (Host.divf (F := Ideal) (φ := .f32)
      (Host.reduceAdd (F := Ideal) (φ := .f32) (mulf (F := Ideal) (φ := .f32) (cenR64 y) (cenR64 y))
        (constant (F := Ideal) S_ .f32 0x00000000#32) reducesTo_S262144x64_S_d0_1 h_S_)
      (constant (F := Ideal) S_ .f32 0x4B800000#32)))
    (constant (F := Ideal) S_ .f32 0x3727C5AC#32)

/-- The normalised, scaled and shifted entries: `(y - μ) / (σ + ε) · g + β`. -/
def affR64 (y : 𝔸 S262144x64, .f32) (g bt : 𝔸 S64, .f32) : 𝔸 S262144x64, .f32 :=
  addf (F := Ideal) (φ := .f32)
    (mulf (F := Ideal) (φ := .f32)
      (Host.divf (F := Ideal) (φ := .f32) (cenR64 y) (broadcastInDim S262144x64 ![] bcast_S_S262144x64 (sdeR64 y)))
      (broadcastInDim S262144x64 ![0, 1] bcast_S1x64_S262144x64_0_1 (broadcastInDim S1x64 ![1] bcast_S64_S1x64_1 g)))
    (broadcastInDim S262144x64 ![0, 1] bcast_S1x64_S262144x64_0_1 (broadcastInDim S1x64 ![1] bcast_S64_S1x64_1 bt))

/-- Normalisation over all entries, affine map and unit, as the reference spells them. -/
def lnR64 (y : 𝔸 S262144x64, .f32) (g bt : 𝔸 S64, .f32) : 𝔸 S262144x64, .f32 := eluR64 (affR64 y g bt)

/-- The reference's sum over both axes from the zero word is the sum of all entries. -/
theorem reduceAll_apply (x : 𝔸 S262144x64, .f32) (k : S_.Idx) :
    Host.reduceAdd (F := Ideal) (φ := .f32) x (constant (F := Ideal) S_ .f32 0x00000000#32) reducesTo_S262144x64_S_d0_1 h_S_ k
      = total (cur2 x) := by
  rw [hostReduceAdd_apply, Ideal.hostReduceAdd_total _ (fun b => b.elim0), constant_apply, Ideal.ofBits_zero_f32, zero_add,
    sum_idx2]
  rfl

theorem muR64_apply (y : 𝔸 S262144x64, .f32) (k : S_.Idx) : muR64 y k = mean (cur2 y) := by
  unfold muR64
  rw [hostDivf_apply, reduceAll_apply, constant_apply]
  rfl

theorem cenR64_apply (y : 𝔸 S262144x64, .f32) (i : Fin 262144) (j : Fin 64) :
    cenR64 y (ix2 i j) = y (ix2 i j) - mean (cur2 y) := by
  unfold cenR64
  rw [subf_apply, broadcastInDim_scalar_apply, muR64_apply]

theorem sdeR64_apply (y : 𝔸 S262144x64, .f32) (k : S_.Idx) : sdeR64 y k = stdR (cur2 y) + eps := by
  unfold sdeR64
  rw [addf_apply, constant_apply]
  show Ideal.sqrt (Host.divf (F := Ideal) (φ := .f32) _ _ k) + _ = _
  rw [hostDivf_apply, reduceAll_apply, constant_apply]
  have e : cur2 (mulf (F := Ideal) (φ := .f32) (cenR64 y) (cenR64 y))
      = fun i j => (cur2 y i j - mean (cur2 y)) * (cur2 y i j - mean (cur2 y)) := by
    funext i j
    show cenR64 y (ix2 i j) * cenR64 y (ix2 i j) = _
    rw [cenR64_apply]; rfl
  rw [e]
  rfl

theorem cur2_lnR64 (y : 𝔸 S262144x64, .f32) (g bt : 𝔸 S64, .f32) :
    cur2 (lnR64 y g bt) = lnR (cur2 y) (cur1 g) (cur1 bt) := by
  funext i j
  show eluR64 (affR64 y g bt) (ix2 i j) = _
  rw [eluR64_apply]
  unfold affR64
  rw [addf_apply, mulf_apply, hostDivf_apply, cenR64_apply, broadcastInDim_scalar_apply, sdeR64_apply,
    bcastRow_apply, bcastVecRow_apply, bcastRow_apply, bcastVecRow_apply]
  rfl

end Cert.ReferenceIdeal.RefTerms

end
-- ==== Proof.RefStagesA.lean ====
import proofs.«167728_j48945447305605_1_alg».proof.Proof.RefKeep
import proofs.«167728_j48945447305605_1_alg».proof.Proof.RefTerms
import proofs.«167728_j48945447305605_1_alg».proof.Proof.Glue

/-!
# The reference program's stages, read off the fold of its operations: the graph's part and layers one to three

For arbitrary starting contents `V`, the contents `after ops V` at the end of the reference program are
read at the buffers that hold the network's stages: the edge list's two rows and the inverse square root of
the degree, then for each layer the linear map, the combination with the neighbourhood sum, and the
normalisation with the unit, up to the third layer's linear map — each stage as ONE named term of the
previous stage's buffer and of argument buffers. The message passing appears only as the shared functions
of `Cert.Glue`.

Within one window the fold is read by rewriting each operation's result at its buffer; both sides of a
window's statement are read, so that a stage is stated over the previous stage's buffer rather than over
its composed term. A buffer written in an earlier window enters a later window as an atom of the window's
input contents; the windows are chained by the facts on which buffers a window leaves alone.
-/

noncomputable section

namespace Cert.ReferenceIdeal.RefStages

open Cert.ReferenceIdeal.Gen Idealize.ShloMosaic Idealize.ShloMosaic.TcCoe Idealize.ShloMosaic.StableHlo
open Cert.ReferenceIdeal.RefRun Cert.ReferenceIdeal.RefTerms Cert.Lib.AfterAssign

-- buffer contents of the reference program at the exact instance
local notation "𝕍" => Valuation τ sig (Elt Ideal)

/-! ## Window 0: the graph's part, the first linear map and the first combination -/

/-- The sources. -/
theorem p0_v1 (W : 𝕍) : after ops0 W (main_v1 : DevRef τ sig) = Cert.Glue.srcT (W (main_arg1 : DevRef τ sig)) := by
  after_results_simp
  all_goals rfl

/-- The destinations. -/
theorem p0_v3 (W : 𝕍) : after ops0 W (main_v3 : DevRef τ sig) = Cert.Glue.dstT (W (main_arg1 : DevRef τ sig)) := by
  after_results_simp
  all_goals rfl

/-- The inverse square root of the degree. -/
theorem p0_v10 (W : 𝕍) :
    after ops0 W (main_v10 : DevRef τ sig) = Cert.Glue.disT (Cert.Glue.dstT (W (main_arg1 : DevRef τ sig))) := by
  after_results_simp
  all_goals rfl

/-- The first linear map. -/
theorem p0_v11 (W : 𝕍) :
    after ops0 W (main_v11 : DevRef τ sig) = dotR9 (W (main_arg0 : DevRef τ sig)) (W (main_arg2 : DevRef τ sig)) := by
  after_results_simp
  all_goals rfl

/-- The first combination, over the first linear map's buffer. -/
theorem p0_v47 (W : 𝕍) :
    after ops0 W (main_v47 : DevRef τ sig)
      = convR64
          (Cert.Glue.agg64T (Cert.Glue.srcT (W (main_arg1 : DevRef τ sig))) (Cert.Glue.dstT (W (main_arg1 : DevRef τ sig)))
            (Cert.Glue.nrmT (Cert.Glue.srcT (W (main_arg1 : DevRef τ sig))) (Cert.Glue.dstT (W (main_arg1 : DevRef τ sig))))
            (after ops0 W (main_v11 : DevRef τ sig)))
          (after ops0 W (main_v11 : DevRef τ sig)) (Cert.Glue.disT (Cert.Glue.dstT (W (main_arg1 : DevRef τ sig))))
          (W (main_arg3 : DevRef τ sig)) := by
  after_results_simp
  all_goals rfl

/-- The sum of all entries of the first combination (the window's last operation). -/
theorem p0_v48 (W : 𝕍) :
    after ops0 W (main_v48 : DevRef τ sig)
      = Host.reduceAdd (F := Ideal) (φ := .f32) (after ops0 W (main_v47 : DevRef τ sig)) (constant (F := Ideal) S_ .f32 0x00000000#32)
          reducesTo_S262144x64_S_d0_1 h_S_ := by
  after_results_simp
  all_goals rfl

/-! ## Window 1: the first normalisation, the second linear map, the second neighbourhood sum -/

/-- The first normalisation with the unit, given that the window starts with the sum of all entries. -/
theorem p1_v65 (W : 𝕍)
    (h48 : W (main_v48 : DevRef τ sig)
      = Host.reduceAdd (F := Ideal) (φ := .f32) (W (main_v47 : DevRef τ sig)) (constant (F := Ideal) S_ .f32 0x00000000#32) reducesTo_S262144x64_S_d0_1 h_S_) :
    after ops1 W (main_v65 : DevRef τ sig)
      = lnR64 (W (main_v47 : DevRef τ sig)) (W (main_arg12 : DevRef τ sig)) (W (main_arg13 : DevRef τ sig)) := by
  after_results_simp
  rw [h48]
  rfl

/-- The second linear map, over the first normalisation's buffer. -/
theorem p1_v66 (W : 𝕍) :
    after ops1 W (main_v66 : DevRef τ sig) = dotR64 (after ops1 W (main_v65 : DevRef τ sig)) (W (main_arg4 : DevRef τ sig)) := by
  after_results_simp
  all_goals rfl

/-- The second neighbourhood sum, over the second linear map's buffer. -/
theorem p1_v94 (W : 𝕍) (h10 : W (main_v10 : DevRef τ sig) = Cert.Glue.disT (W (main_v3 : DevRef τ sig))) :
    after ops1 W (main_v94 : DevRef τ sig)
      = Cert.Glue.agg64T (W (main_v1 : DevRef τ sig)) (W (main_v3 : DevRef τ sig))
          (Cert.Glue.nrmT (W (main_v1 : DevRef τ sig)) (W (main_v3 : DevRef τ sig))) (after ops1 W (main_v66 : DevRef τ sig)) := by
  after_results_simp
  unfold Cert.Glue.nrmT
  rw [← h10]
  rfl

/-- The self loop's weights of the second combination. -/
theorem p1_v97 (W : 𝕍) :
    after ops1 W (main_v97 : DevRef τ sig)
      = broadcastInDim S262144x64 ![0, 1] bcast_S262144x1_S262144x64_0_1
          (broadcastInDim S262144x1 ![0] bcast_S262144_S262144x1_0
            (mulf (F := Ideal) (φ := .f32) (W (main_v10 : DevRef τ sig)) (W (main_v10 : DevRef τ sig)))) := by
  after_results_simp
  all_goals rfl

/-! ## Window 2: the second combination and normalisation, the third linear map -/

/-- The second combination's last three operations. -/
theorem p2_v102 (W : 𝕍) :
    after ops2 W (main_v102 : DevRef τ sig)
      = addf (F := Ideal) (φ := .f32)
          (addf (F := Ideal) (φ := .f32) (W (main_v94 : DevRef τ sig))
            (mulf (F := Ideal) (φ := .f32) (W (main_v66 : DevRef τ sig)) (W (main_v97 : DevRef τ sig))))
          (broadcastInDim S262144x64 ![0, 1] bcast_S1x64_S262144x64_0_1
            (broadcastInDim S1x64 ![1] bcast_S64_S1x64_1 (W (main_arg5 : DevRef τ sig)))) := by
  after_results_simp
  all_goals rfl

/-- The second normalisation with the unit, over the second combination's buffer. -/
theorem p2_v120 (W : 𝕍) :
    after ops2 W (main_v120 : DevRef τ sig)
      = lnR64 (after ops2 W (main_v102 : DevRef τ sig)) (W (main_arg12 : DevRef τ sig)) (W (main_arg13 : DevRef τ sig)) := by
  after_results_simp
  all_goals rfl

/-- The third linear map, over the second normalisation's buffer. -/
theorem p2_v121 (W : 𝕍) :
    after ops2 W (main_v121 : DevRef τ sig) = dotR64 (after ops2 W (main_v120 : DevRef τ sig)) (W (main_arg6 : DevRef τ sig)) := by
  after_results_simp
  all_goals rfl

/-! ## The stages at the end of the program -/

/-- The sources: row 0 of the edge list. -/
theorem st_src (V : 𝕍) : after ops V (main_v1 : DevRef τ sig) = Cert.Glue.srcT (V (main_arg1 : DevRef τ sig)) := by
  rw [end_of0 V (r := main_v1) (by decide) (by decide) (by decide) (by decide) (by decide)]
  exact p0_v1 V

/-- The destinations: row 1 of the edge list. -/
theorem st_dst (V : 𝕍) : after ops V (main_v3 : DevRef τ sig) = Cert.Glue.dstT (V (main_arg1 : DevRef τ sig)) := by
  rw [end_of0 V (r := main_v3) (by decide) (by decide) (by decide) (by decide) (by decide)]
  exact p0_v3 V

/-- The inverse square root of the degree. -/
theorem st_dis (V : 𝕍) :
    after ops V (main_v10 : DevRef τ sig) = Cert.Glue.disT (Cert.Glue.dstT (V (main_arg1 : DevRef τ sig))) := by
  rw [end_of0 V (r := main_v10) (by decide) (by decide) (by decide) (by decide) (by decide)]
  exact p0_v10 V

/-- Layer 1's linear map. -/
theorem st_h1 (V : 𝕍) :
    after ops V (main_v11 : DevRef τ sig) = dotR9 (V (main_arg0 : DevRef τ sig)) (V (main_arg2 : DevRef τ sig)) := by
  rw [end_of0 V (r := main_v11) (by decide) (by decide) (by decide) (by decide) (by decide)]
  exact p0_v11 V

/-- Layer 1's combination. -/
theorem st_y1 (V : 𝕍) :
    after ops V (main_v47 : DevRef τ sig)
      = convR64
          (Cert.Glue.agg64T (Cert.Glue.srcT (V (main_arg1 : DevRef τ sig))) (Cert.Glue.dstT (V (main_arg1 : DevRef τ sig)))
            (Cert.Glue.nrmT (Cert.Glue.srcT (V (main_arg1 : DevRef τ sig))) (Cert.Glue.dstT (V (main_arg1 : DevRef τ sig))))
            (after ops V (main_v11 : DevRef τ sig)))
          (after ops V (main_v11 : DevRef τ sig)) (Cert.Glue.disT (Cert.Glue.dstT (V (main_arg1 : DevRef τ sig))))
          (V (main_arg3 : DevRef τ sig)) := by
  rw [end_of0 V (r := main_v47) (by decide) (by decide) (by decide) (by decide) (by decide),
    end_of0 V (r := main_v11) (by decide) (by decide) (by decide) (by decide) (by decide)]
  exact p0_v47 V

/-- Layer 1's normalisation with the unit. -/
theorem st_z1 (V : 𝕍) :
    after ops V (main_v65 : DevRef τ sig)
      = lnR64 (after ops V (main_v47 : DevRef τ sig)) (V (main_arg12 : DevRef τ sig)) (V (main_arg13 : DevRef τ sig)) := by
  rw [end_of1 V (r := main_v65) (by decide) (by decide) (by decide) (by decide),
    end_of0 V (r := main_v47) (by decide) (by decide) (by decide) (by decide) (by decide),
    p1_v65 (after ops0 V) (p0_v48 V),
    keep0 V (r := main_arg12) (by decide), keep0 V (r := main_arg13) (by decide)]

/-- Layer 2's linear map. -/
theorem st_h2 (V : 𝕍) :
    after ops V (main_v66 : DevRef τ sig) = dotR64 (after ops V (main_v65 : DevRef τ sig)) (V (main_arg4 : DevRef τ sig)) := by
  rw [end_of1 V (r := main_v66) (by decide) (by decide) (by decide) (by decide),
    end_of1 V (r := main_v65) (by decide) (by decide) (by decide) (by decide),
    p1_v66 (after ops0 V), keep0 V (r := main_arg4) (by decide)]

/-- Layer 2's combination. -/
theorem st_y2 (V : 𝕍) :
    after ops V (main_v102 : DevRef τ sig)
      = convR64
          (Cert.Glue.agg64T (Cert.Glue.srcT (V (main_arg1 : DevRef τ sig))) (Cert.Glue.dstT (V (main_arg1 : DevRef τ sig)))
            (Cert.Glue.nrmT (Cert.Glue.srcT (V (main_arg1 : DevRef τ sig))) (Cert.Glue.dstT (V (main_arg1 : DevRef τ sig))))
            (after ops V (main_v66 : DevRef τ sig)))
          (after ops V (main_v66 : DevRef τ sig)) (Cert.Glue.disT (Cert.Glue.dstT (V (main_arg1 : DevRef τ sig))))
          (V (main_arg5 : DevRef τ sig)) := by
  have h10 : after ops0 V (main_v10 : DevRef τ sig) = Cert.Glue.disT (after ops0 V (main_v3 : DevRef τ sig)) := by
    rw [p0_v10 V, p0_v3 V]
  rw [end_of2 V (r := main_v102) (by decide) (by decide) (by decide),
    end_of1 V (r := main_v66) (by decide) (by decide) (by decide) (by decide),
    p2_v102 (after ops1 (after ops0 V)), p1_v94 (after ops0 V) h10, p1_v97 (after ops0 V),
    keep1 (after ops0 V) (r := main_arg5) (by decide), keep0 V (r := main_arg5) (by decide),
    p0_v1 V, p0_v3 V, p0_v10 V]
  rfl

/-- Layer 2's normalisation with the unit. -/
theorem st_z2 (V : 𝕍) :
    after ops V (main_v120 : DevRef τ sig)
      = lnR64 (after ops V (main_v102 : DevRef τ sig)) (V (main_arg12 : DevRef τ sig)) (V (main_arg13 : DevRef τ sig)) := by
  rw [end_of2 V (r := main_v120) (by decide) (by decide) (by decide),
    end_of2 V (r := main_v102) (by decide) (by decide) (by decide),
    p2_v120 (after ops1 (after ops0 V)),
    keep1 (after ops0 V) (r := main_arg12) (by decide), keep0 V (r := main_arg12) (by decide),
    keep1 (after ops0 V) (r := main_arg13) (by decide), keep0 V (r := main_arg13) (by decide)]

/-- Layer 3's linear map. -/
theorem st_h3 (V : 𝕍) :
    after ops V (main_v121 : DevRef τ sig) = dotR64 (after ops V (main_v120 : DevRef τ sig)) (V (main_arg6 : DevRef τ sig)) := by
  rw [end_of2 V (r := main_v121) (by decide) (by decide) (by decide),
    end_of2 V (r := main_v120) (by decide) (by decide) (by decide),
    p2_v121 (after ops1 (after ops0 V)),
    keep1 (after ops0 V) (r := main_arg6) (by decide), keep0 V (r := main_arg6) (by decide)]

/-! ## The arguments -/

/-- Argument 0 is never written. -/
theorem st_arg0 (V : 𝕍) : after ops V (main_arg0 : DevRef τ sig) = V (main_arg0 : DevRef τ sig) :=
  end_arg V (r := main_arg0) (by decide) (by decide) (by decide) (by decide) (by decide) (by decide)

/-- Argument 1 is never written. -/
theorem st_arg1 (V : 𝕍) : after ops V (main_arg1 : DevRef τ sig) = V (main_arg1 : DevRef τ sig) :=
  end_arg V (r := main_arg1) (by decide) (by decide) (by decide) (by decide) (by decide) (by decide)

/-- Argument 2 is never written. -/
theorem st_arg2 (V : 𝕍) : after ops V (main_arg2 : DevRef τ sig) = V (main_arg2 : DevRef τ sig) :=
  end_arg V (r := main_arg2) (by decide) (by decide) (by decide) (by decide) (by decide) (by decide)

/-- Argument 3 is never written. -/
theorem st_arg3 (V : 𝕍) : after ops V (main_arg3 : DevRef τ sig) = V (main_arg3 : DevRef τ sig) :=
  end_arg V (r := main_arg3) (by decide) (by decide) (by decide) (by decide) (by decide) (by decide)

/-- Argument 4 is never written. -/
theorem st_arg4 (V : 𝕍) : after ops V (main_arg4 : DevRef τ sig) = V (main_arg4 : DevRef τ sig) :=
  end_arg V (r := main_arg4) (by decide) (by decide) (by decide) (by decide) (by decide) (by decide)

/-- Argument 5 is never written. -/
theorem st_arg5 (V : 𝕍) : after ops V (main_arg5 : DevRef τ sig) = V (main_arg5 : DevRef τ sig) :=
  end_arg V (r := main_arg5) (by decide) (by decide) (by decide) (by decide) (by decide) (by decide)

/-- Argument 6 is never written. -/
theorem st_arg6 (V : 𝕍) : after ops V (main_arg6 : DevRef τ sig) = V (main_arg6 : DevRef τ sig) :=
  end_arg V (r := main_arg6) (by decide) (by decide) (by decide) (by decide) (by decide) (by decide)

/-- Argument 7 is never written. -/
theorem st_arg7 (V : 𝕍) : after ops V (main_arg7 : DevRef τ sig) = V (main_arg7 : DevRef τ sig) :=
  end_arg V (r := main_arg7) (by decide) (by decide) (by decide) (by decide) (by decide) (by decide)

/-- Argument 8 is never written. -/
theorem st_arg8 (V : 𝕍) : after ops V (main_arg8 : DevRef τ sig) = V (main_arg8 : DevRef τ sig) :=
  end_arg V (r := main_arg8) (by decide) (by decide) (by decide) (by decide) (by decide) (by decide)

/-- Argument 9 is never written. -/
theorem st_arg9 (V : 𝕍) : after ops V (main_arg9 : DevRef τ sig) = V (main_arg9 : DevRef τ sig) :=
  end_arg V (r := main_arg9) (by decide) (by decide) (by decide) (by decide) (by decide) (by decide)

/-- Argument 10 is never written. -/
theorem st_arg10 (V : 𝕍) : after ops V (main_arg10 : DevRef τ sig) = V (main_arg10 : DevRef τ sig) :=
  end_arg V (r := main_arg10) (by decide) (by decide) (by decide) (by decide) (by decide) (by decide)

/-- Argument 11 is never written. -/
theorem st_arg11 (V : 𝕍) : after ops V (main_arg11 : DevRef τ sig) = V (main_arg11 : DevRef τ sig) :=
  end_arg V (r := main_arg11) (by decide) (by decide) (by decide) (by decide) (by decide) (by decide)

/-- Argument 12 is never written. -/
theorem st_arg12 (V : 𝕍) : after ops V (main_arg12 : DevRef τ sig) = V (main_arg12 : DevRef τ sig) :=
  end_arg V (r := main_arg12) (by decide) (by decide) (by decide) (by decide) (by decide) (by decide)

/-- Argument 13 is never written. -/
theorem st_arg13 (V : 𝕍) : after ops V (main_arg13 : DevRef τ sig) = V (main_arg13 : DevRef τ sig) :=
  end_arg V (r := main_arg13) (by decide) (by decide) (by decide) (by decide) (by decide) (by decide)

/-- Argument 14 is never written. -/
theorem st_arg14 (V : 𝕍) : after ops V (main_arg14 : DevRef τ sig) = V (main_arg14 : DevRef τ sig) :=
  end_arg V (r := main_arg14) (by decide) (by decide) (by decide) (by decide) (by decide) (by decide)

/-- Argument 15 is never written. -/
theorem st_arg15 (V : 𝕍) : after ops V (main_arg15 : DevRef τ sig) = V (main_arg15 : DevRef τ sig) :=
  end_arg V (r := main_arg15) (by decide) (by decide) (by decide) (by decide) (by decide) (by decide)

end Cert.ReferenceIdeal.RefStages

end
-- ==== Proof.RefStagesB.lean ====
import proofs.«167728_j48945447305605_1_alg».proof.Proof.RefKeep
import proofs.«167728_j48945447305605_1_alg».proof.Proof.Glue
import proofs.«167728_j48945447305605_1_alg».proof.Proof.RefTerms

import Idealize.ShloMosaic.Lib.IdealHost
import Idealize.ShloMosaic.PureOps.Ideal.Laws

/-!
# The reference program's later stages, read off the fold of its operations

For arbitrary launch contents `V`, the contents `after ops V` of the reference's buffers after all of its
operations satisfy, stage by stage, the equations of the network: each stage's result buffer holds the stage's
term (`Cert.ReferenceIdeal.RefTerms`, `Cert.Glue`) of the contents of the buffers the stage reads. The program is
in single-assignment form, so every operation's own equation holds of the final contents; a stage's equation is
the composition of its operations' equations, window by window (a buffer that no later window writes holds at the
end what it held after its own window).
-/

noncomputable section

namespace Cert.ReferenceIdeal.RefStages

open Cert.ReferenceIdeal.Gen Idealize.ShloMosaic Idealize.ShloMosaic.TcCoe Idealize.SL.Sem Idealize.ShloMosaic.StableHlo
open Cert.Lib.AfterAssign Cert.ReferenceIdeal.RefRun Cert.ReferenceIdeal.RefTerms

-- an array of a buffer type at the exact instance
set_option quotPrecheck false in
local notation "𝔸" S ", " t => (⟨S, t⟩ : BufTy).Contents (Elt Ideal)

attribute [local irreducible] Host.gather Host.scatterAdd Host.reduceAdd Host.expm1 Host.rsqrt Host.sqrt Host.divf

/-- The third layer's combination: neighbourhood sum of `%121`, self loop and bias `%arg7`, in `%157`. -/
theorem st_y3 (V : Valuation τ sig (Elt Ideal))
    (h1 : after ops V (main_v1 : DevRef τ sig) = Glue.srcT (F := Ideal) (V (main_arg1 : DevRef τ sig)))
    (h3 : after ops V (main_v3 : DevRef τ sig) = Glue.dstT (F := Ideal) (V (main_arg1 : DevRef τ sig)))
    (h10 : after ops V (main_v10 : DevRef τ sig) = Glue.disT (F := Ideal) (Glue.dstT (F := Ideal) (V (main_arg1 : DevRef τ sig)))) :
    after ops V (main_v157 : DevRef τ sig)
      = convR64 (Glue.agg64T (F := Ideal) (Glue.srcT (F := Ideal) (V (main_arg1 : DevRef τ sig))) (Glue.dstT (F := Ideal) (V (main_arg1 : DevRef τ sig))) (Glue.nrmT (F := Ideal) (Glue.srcT (F := Ideal) (V (main_arg1 : DevRef τ sig))) (Glue.dstT (F := Ideal) (V (main_arg1 : DevRef τ sig)))) (after ops V (main_v121 : DevRef τ sig)))
          (after ops V (main_v121 : DevRef τ sig)) (Glue.disT (F := Ideal) (Glue.dstT (F := Ideal) (V (main_arg1 : DevRef τ sig)))) (V (main_arg7 : DevRef τ sig)) := by
  -- window 3
  rw [end_of3 V (r := main_v157) (by decide) (by decide)]
  generalize hW3 : after ops2 (after ops1 (after ops0 (V))) = W3
  have e0 := after_nullary (writes3 (F := Ideal)) 0 rfl W3 (by decide)
  have e1 := after_unary (writes3 (F := Ideal)) 1 rfl W3 (by decide) (by decide)
  have e2 := after_unary (writes3 (F := Ideal)) 2 rfl W3 (by decide) (by decide)
  have e3 := after_ternary (writes3 (F := Ideal)) 3 rfl W3 (by decide) (by decide) (by decide) (by decide)
  have e4 := after_binary (writes3 (F := Ideal)) 4 rfl W3 (by decide) (by decide) (by decide)
  have e5 := after_unary (writes3 (F := Ideal)) 5 rfl W3 (by decide) (by decide)
  have e6 := after_unary (writes3 (F := Ideal)) 6 rfl W3 (by decide) (by decide)
  have e7 := after_binary (writes3 (F := Ideal)) 7 rfl W3 (by decide) (by decide) (by decide)
  have e8 := after_binary (writes3 (F := Ideal)) 8 rfl W3 (by decide) (by decide) (by decide)
  have e9 := after_unary (writes3 (F := Ideal)) 9 rfl W3 (by decide) (by decide)
  have e10 := after_unary (writes3 (F := Ideal)) 10 rfl W3 (by decide) (by decide)
  have e11 := after_binary (writes3 (F := Ideal)) 11 rfl W3 (by decide) (by decide) (by decide)
  rw [e11, e10, e9, e8, e7, e6, e5, e4, e3, e2, e1, e0]
  clear e11 e10 e9 e8 e7 e6 e5 e4 e3 e2 e1 e0
  subst hW3
  rw [← end_of3 V (r := main_v3) (by decide) (by decide), ← end_of3 V (r := main_v146) (by decide) (by decide),
    ← end_of3 V (r := main_v121) (by decide) (by decide), ← end_of3 V (r := main_v10) (by decide) (by decide),
    ← end_of3 V (r := main_arg7) (by decide) (by decide)]
  -- window 2
  rw [end_of2 V (r := main_v146) (by decide) (by decide) (by decide)]
  generalize hW2 : after ops1 (after ops0 (V)) = W2
  have e43 := after_nullary (writes2 (F := Ideal)) 43 rfl W2 (by decide)
  have e44 := after_unary (writes2 (F := Ideal)) 44 rfl W2 (by decide) (by decide)
  have e45 := after_binary (writes2 (F := Ideal)) 45 rfl W2 (by decide) (by decide) (by decide)
  have e46 := after_nullary (writes2 (F := Ideal)) 46 rfl W2 (by decide)
  have e47 := after_unary (writes2 (F := Ideal)) 47 rfl W2 (by decide) (by decide)
  have e48 := after_binary (writes2 (F := Ideal)) 48 rfl W2 (by decide) (by decide) (by decide)
  have e49 := after_ternary (writes2 (F := Ideal)) 49 rfl W2 (by decide) (by decide) (by decide) (by decide)
  have e50 := after_unary (writes2 (F := Ideal)) 50 rfl W2 (by decide) (by decide)
  have e51 := after_binary (writes2 (F := Ideal)) 51 rfl W2 (by decide) (by decide) (by decide)
  have e52 := after_nullary (writes2 (F := Ideal)) 52 rfl W2 (by decide)
  have e53 := after_unary (writes2 (F := Ideal)) 53 rfl W2 (by decide) (by decide)
  have e54 := after_binary (writes2 (F := Ideal)) 54 rfl W2 (by decide) (by decide) (by decide)
  have e55 := after_nullary (writes2 (F := Ideal)) 55 rfl W2 (by decide)
  have e56 := after_unary (writes2 (F := Ideal)) 56 rfl W2 (by decide) (by decide)
  have e57 := after_binary (writes2 (F := Ideal)) 57 rfl W2 (by decide) (by decide) (by decide)
  have e58 := after_ternary (writes2 (F := Ideal)) 58 rfl W2 (by decide) (by decide) (by decide) (by decide)
  have e59 := after_unary (writes2 (F := Ideal)) 59 rfl W2 (by decide) (by decide)
  have e60 := after_binary (writes2 (F := Ideal)) 60 rfl W2 (by decide) (by decide) (by decide)
  have e61 := after_binary (writes2 (F := Ideal)) 61 rfl W2 (by decide) (by decide) (by decide)
  have e62 := after_unary (writes2 (F := Ideal)) 62 rfl W2 (by decide) (by decide)
  have e63 := after_nullary (writes2 (F := Ideal)) 63 rfl W2 (by decide)
  have e64 := after_unary (writes2 (F := Ideal)) 64 rfl W2 (by decide) (by decide)
  have e65 := after_binary (writes2 (F := Ideal)) 65 rfl W2 (by decide) (by decide) (by decide)
  have e66 := after_nullary (writes2 (F := Ideal)) 66 rfl W2 (by decide)
  have e67 := after_unary (writes2 (F := Ideal)) 67 rfl W2 (by decide) (by decide)
  have e68 := after_binary (writes2 (F := Ideal)) 68 rfl W2 (by decide) (by decide) (by decide)
  have e69 := after_ternary (writes2 (F := Ideal)) 69 rfl W2 (by decide) (by decide) (by decide) (by decide)
  have e70 := after_unary (writes2 (F := Ideal)) 70 rfl W2 (by decide) (by decide)
  have e71 := after_binary (writes2 (F := Ideal)) 71 rfl W2 (by decide) (by decide) (by decide)
  have e72 := after_unary (writes2 (F := Ideal)) 72 rfl W2 (by decide) (by decide)
  have e73 := after_binary (writes2 (F := Ideal)) 73 rfl W2 (by decide) (by decide) (by decide)
  rw [e73, e72, e71, e70, e69, e68, e67, e66, e65, e64, e63, e62, e61, e60, e59, e58, e57, e56, e55, e54, e53, e52,
    e51, e50, e49, e48, e47, e46, e45, e44, e43]
  clear e73 e72 e71 e70 e69 e68 e67 e66 e65 e64 e63 e62 e61 e60 e59 e58 e57 e56 e55 e54 e53 e52 e51 e50 e49 e48 e47 e46 e45 e44 e43
  subst hW2
  rw [← end_of2 V (r := main_v121) (by decide) (by decide) (by decide),
    ← end_of2 V (r := main_v1) (by decide) (by decide) (by decide),
    ← end_of2 V (r := main_v10) (by decide) (by decide) (by decide),
    ← end_of2 V (r := main_v3) (by decide) (by decide) (by decide)]
  rw [h1, h3, h10,
    end_arg V (r := main_arg7) (by decide) (by decide) (by decide) (by decide) (by decide) (by decide)]
  generalize after ops V (main_v121 : DevRef τ sig) = x121
  rfl

/-- The third layer's normalisation over all entries, affine map and unit, in `%175`. -/
theorem st_z3 (V : Valuation τ sig (Elt Ideal)) :
    after ops V (main_v175 : DevRef τ sig)
      = lnR64 (after ops V (main_v157 : DevRef τ sig)) (V (main_arg14 : DevRef τ sig)) (V (main_arg15 : DevRef τ sig)) := by
  -- window 3
  rw [end_of3 V (r := main_v175) (by decide) (by decide)]
  generalize hW3 : after ops2 (after ops1 (after ops0 (V))) = W3
  have e12 := after_nullary (writes3 (F := Ideal)) 12 rfl W3 (by decide)
  have e13 := after_binary (writes3 (F := Ideal)) 13 rfl W3 (by decide) (by decide) (by decide)
  have e14 := after_nullary (writes3 (F := Ideal)) 14 rfl W3 (by decide)
  have e15 := after_binary (writes3 (F := Ideal)) 15 rfl W3 (by decide) (by decide) (by decide)
  have e16 := after_unary (writes3 (F := Ideal)) 16 rfl W3 (by decide) (by decide)
  have e17 := after_binary (writes3 (F := Ideal)) 17 rfl W3 (by decide) (by decide) (by decide)
  have e18 := after_binary (writes3 (F := Ideal)) 18 rfl W3 (by decide) (by decide) (by decide)
  have e19 := after_nullary (writes3 (F := Ideal)) 19 rfl W3 (by decide)
  have e20 := after_binary (writes3 (F := Ideal)) 20 rfl W3 (by decide) (by decide) (by decide)
  have e21 := after_nullary (writes3 (F := Ideal)) 21 rfl W3 (by decide)
  have e22 := after_binary (writes3 (F := Ideal)) 22 rfl W3 (by decide) (by decide) (by decide)
  have e23 := after_unary (writes3 (F := Ideal)) 23 rfl W3 (by decide) (by decide)
  have e24 := after_nullary (writes3 (F := Ideal)) 24 rfl W3 (by decide)
  have e25 := after_binary (writes3 (F := Ideal)) 25 rfl W3 (by decide) (by decide) (by decide)
  have e26 := after_unary (writes3 (F := Ideal)) 26 rfl W3 (by decide) (by decide)
  have e27 := after_binary (writes3 (F := Ideal)) 27 rfl W3 (by decide) (by decide) (by decide)
  have e28 := after_unary (writes3 (F := Ideal)) 28 rfl W3 (by decide) (by decide)
  have e29 := after_unary (writes3 (F := Ideal)) 29 rfl W3 (by decide) (by decide)
  have e30 := after_binary (writes3 (F := Ideal)) 30 rfl W3 (by decide) (by decide) (by decide)
  have e31 := after_unary (writes3 (F := Ideal)) 31 rfl W3 (by decide) (by decide)
  have e32 := after_unary (writes3 (F := Ideal)) 32 rfl W3 (by decide) (by decide)
  have e33 := after_binary (writes3 (F := Ideal)) 33 rfl W3 (by decide) (by decide) (by decide)
  have e34 := after_nullary (writes3 (F := Ideal)) 34 rfl W3 (by decide)
  have e35 := after_unary (writes3 (F := Ideal)) 35 rfl W3 (by decide) (by decide)
  have e36 := after_binary (writes3 (F := Ideal)) 36 rfl W3 (by decide) (by decide) (by decide)
  have e37 := after_nullary (writes3 (F := Ideal)) 37 rfl W3 (by decide)
  have e38 := after_unary (writes3 (F := Ideal)) 38 rfl W3 (by decide) (by decide)
  have e39 := after_binary (writes3 (F := Ideal)) 39 rfl W3 (by decide) (by decide) (by decide)
  have e40 := after_nullary (writes3 (F := Ideal)) 40 rfl W3 (by decide)
  have e41 := after_unary (writes3 (F := Ideal)) 41 rfl W3 (by decide) (by decide)
  have e42 := after_unary (writes3 (F := Ideal)) 42 rfl W3 (by decide) (by decide)
  have e43 := after_ternary (writes3 (F := Ideal)) 43 rfl W3 (by decide) (by decide) (by decide) (by decide)
  have e44 := after_unary (writes3 (F := Ideal)) 44 rfl W3 (by decide) (by decide)
  have e45 := after_nullary (writes3 (F := Ideal)) 45 rfl W3 (by decide)
  have e46 := after_unary (writes3 (F := Ideal)) 46 rfl W3 (by decide) (by decide)
  have e47 := after_binary (writes3 (F := Ideal)) 47 rfl W3 (by decide) (by decide) (by decide)
  have e48 := after_ternary (writes3 (F := Ideal)) 48 rfl W3 (by decide) (by decide) (by decide) (by decide)
  rw [e48, e47, e46, e45, e44, e43, e42, e41, e40, e39, e38, e37, e36, e35, e34, e33, e32, e31, e30, e29, e28, e27,
    e26, e25, e24, e23, e22, e21, e20, e19, e18, e17, e16, e15, e14, e13, e12]
  clear e48 e47 e46 e45 e44 e43 e42 e41 e40 e39 e38 e37 e36 e35 e34 e33 e32 e31 e30 e29 e28 e27 e26 e25 e24 e23 e22 e21 e20 e19 e18 e17 e16 e15 e14 e13 e12
  subst hW3
  rw [← end_of3 V (r := main_v157) (by decide) (by decide), ← end_of3 V (r := main_arg14) (by decide) (by decide),
    ← end_of3 V (r := main_arg15) (by decide) (by decide)]
  rw [end_arg V (r := main_arg14) (by decide) (by decide) (by decide) (by decide) (by decide) (by decide),
    end_arg V (r := main_arg15) (by decide) (by decide) (by decide) (by decide) (by decide) (by decide)]
  generalize after ops V (main_v157 : DevRef τ sig) = x157
  rfl

/-- The fourth layer's linear map, in `%176`. -/
theorem st_h4 (V : Valuation τ sig (Elt Ideal)) :
    after ops V (main_v176 : DevRef τ sig)
      = dotR64x16 (after ops V (main_v175 : DevRef τ sig)) (V (main_arg8 : DevRef τ sig)) := by
  -- window 3
  rw [end_of3 V (r := main_v176) (by decide) (by decide)]
  generalize hW3 : after ops2 (after ops1 (after ops0 (V))) = W3
  have e49 := after_binary (writes3 (F := Ideal)) 49 rfl W3 (by decide) (by decide) (by decide)
  rw [e49]
  clear e49
  subst hW3
  rw [← end_of3 V (r := main_v175) (by decide) (by decide), ← end_of3 V (r := main_arg8) (by decide) (by decide)]
  rw [end_arg V (r := main_arg8) (by decide) (by decide) (by decide) (by decide) (by decide) (by decide)]
  generalize after ops V (main_v175 : DevRef τ sig) = x175
  rfl

/-- The fourth layer's combination, in `%212`. -/
theorem st_y4 (V : Valuation τ sig (Elt Ideal))
    (h1 : after ops V (main_v1 : DevRef τ sig) = Glue.srcT (F := Ideal) (V (main_arg1 : DevRef τ sig)))
    (h3 : after ops V (main_v3 : DevRef τ sig) = Glue.dstT (F := Ideal) (V (main_arg1 : DevRef τ sig)))
    (h10 : after ops V (main_v10 : DevRef τ sig) = Glue.disT (F := Ideal) (Glue.dstT (F := Ideal) (V (main_arg1 : DevRef τ sig)))) :
    after ops V (main_v212 : DevRef τ sig)
      = convR16 (Glue.agg16T (F := Ideal) (Glue.srcT (F := Ideal) (V (main_arg1 : DevRef τ sig))) (Glue.dstT (F := Ideal) (V (main_arg1 : DevRef τ sig))) (Glue.nrmT (F := Ideal) (Glue.srcT (F := Ideal) (V (main_arg1 : DevRef τ sig))) (Glue.dstT (F := Ideal) (V (main_arg1 : DevRef τ sig)))) (after ops V (main_v176 : DevRef τ sig)))
          (after ops V (main_v176 : DevRef τ sig)) (Glue.disT (F := Ideal) (Glue.dstT (F := Ideal) (V (main_arg1 : DevRef τ sig)))) (V (main_arg9 : DevRef τ sig)) := by
  -- window 4
  rw [end_of4 V (r := main_v212) (by decide)]
  generalize hW4 : after ops3 (after ops2 (after ops1 (after ops0 (V)))) = W4
  have e0 := after_unary (writes4 (F := Ideal)) 0 rfl W4 (by decide) (by decide)
  have e1 := after_binary (writes4 (F := Ideal)) 1 rfl W4 (by decide) (by decide) (by decide)
  have e2 := after_ternary (writes4 (F := Ideal)) 2 rfl W4 (by decide) (by decide) (by decide) (by decide)
  have e3 := after_unary (writes4 (F := Ideal)) 3 rfl W4 (by decide) (by decide)
  have e4 := after_binary (writes4 (F := Ideal)) 4 rfl W4 (by decide) (by decide) (by decide)
  have e5 := after_unary (writes4 (F := Ideal)) 5 rfl W4 (by decide) (by decide)
  have e6 := after_binary (writes4 (F := Ideal)) 6 rfl W4 (by decide) (by decide) (by decide)
  have e7 := after_nullary (writes4 (F := Ideal)) 7 rfl W4 (by decide)
  have e8 := after_unary (writes4 (F := Ideal)) 8 rfl W4 (by decide) (by decide)
  have e9 := after_unary (writes4 (F := Ideal)) 9 rfl W4 (by decide) (by decide)
  have e10 := after_ternary (writes4 (F := Ideal)) 10 rfl W4 (by decide) (by decide) (by decide) (by decide)
  have e11 := after_binary (writes4 (F := Ideal)) 11 rfl W4 (by decide) (by decide) (by decide)
  have e12 := after_unary (writes4 (F := Ideal)) 12 rfl W4 (by decide) (by decide)
  have e13 := after_unary (writes4 (F := Ideal)) 13 rfl W4 (by decide) (by decide)
  have e14 := after_binary (writes4 (F := Ideal)) 14 rfl W4 (by decide) (by decide) (by decide)
  have e15 := after_binary (writes4 (F := Ideal)) 15 rfl W4 (by decide) (by decide) (by decide)
  have e16 := after_unary (writes4 (F := Ideal)) 16 rfl W4 (by decide) (by decide)
  have e17 := after_unary (writes4 (F := Ideal)) 17 rfl W4 (by decide) (by decide)
  have e18 := after_binary (writes4 (F := Ideal)) 18 rfl W4 (by decide) (by decide) (by decide)
  rw [e18, e17, e16, e15, e14, e13, e12, e11, e10, e9, e8, e7, e6, e5, e4, e3, e2, e1, e0]
  clear e18 e17 e16 e15 e14 e13 e12 e11 e10 e9 e8 e7 e6 e5 e4 e3 e2 e1 e0
  subst hW4
  rw [← end_of4 V (r := main_v3) (by decide), ← end_of4 V (r := main_v176) (by decide),
    ← end_of4 V (r := main_v194) (by decide), ← end_of4 V (r := main_v1) (by decide),
    ← end_of4 V (r := main_c_42) (by decide), ← end_of4 V (r := main_v192) (by decide),
    ← end_of4 V (r := main_v10) (by decide), ← end_of4 V (r := main_arg9) (by decide)]
  -- window 3
  rw [end_of3 V (r := main_v194) (by decide) (by decide), end_of3 V (r := main_c_42) (by decide) (by decide),
    end_of3 V (r := main_v192) (by decide) (by decide)]
  generalize hW3 : after ops2 (after ops1 (after ops0 (V))) = W3
  have e50 := after_nullary (writes3 (F := Ideal)) 50 rfl W3 (by decide)
  have e51 := after_unary (writes3 (F := Ideal)) 51 rfl W3 (by decide) (by decide)
  have e52 := after_binary (writes3 (F := Ideal)) 52 rfl W3 (by decide) (by decide) (by decide)
  have e53 := after_nullary (writes3 (F := Ideal)) 53 rfl W3 (by decide)
  have e54 := after_unary (writes3 (F := Ideal)) 54 rfl W3 (by decide) (by decide)
  have e55 := after_binary (writes3 (F := Ideal)) 55 rfl W3 (by decide) (by decide) (by decide)
  have e56 := after_ternary (writes3 (F := Ideal)) 56 rfl W3 (by decide) (by decide) (by decide) (by decide)
  have e57 := after_unary (writes3 (F := Ideal)) 57 rfl W3 (by decide) (by decide)
  have e58 := after_binary (writes3 (F := Ideal)) 58 rfl W3 (by decide) (by decide) (by decide)
  have e59 := after_nullary (writes3 (F := Ideal)) 59 rfl W3 (by decide)
  have e60 := after_unary (writes3 (F := Ideal)) 60 rfl W3 (by decide) (by decide)
  have e61 := after_binary (writes3 (F := Ideal)) 61 rfl W3 (by decide) (by decide) (by decide)
  have e62 := after_nullary (writes3 (F := Ideal)) 62 rfl W3 (by decide)
  have e63 := after_unary (writes3 (F := Ideal)) 63 rfl W3 (by decide) (by decide)
  have e64 := after_binary (writes3 (F := Ideal)) 64 rfl W3 (by decide) (by decide) (by decide)
  have e65 := after_ternary (writes3 (F := Ideal)) 65 rfl W3 (by decide) (by decide) (by decide) (by decide)
  have e66 := after_unary (writes3 (F := Ideal)) 66 rfl W3 (by decide) (by decide)
  have e67 := after_binary (writes3 (F := Ideal)) 67 rfl W3 (by decide) (by decide) (by decide)
  have e68 := after_binary (writes3 (F := Ideal)) 68 rfl W3 (by decide) (by decide) (by decide)
  have e69 := after_unary (writes3 (F := Ideal)) 69 rfl W3 (by decide) (by decide)
  have e70 := after_nullary (writes3 (F := Ideal)) 70 rfl W3 (by decide)
  have e71 := after_unary (writes3 (F := Ideal)) 71 rfl W3 (by decide) (by decide)
  have e72 := after_binary (writes3 (F := Ideal)) 72 rfl W3 (by decide) (by decide) (by decide)
  have e73 := after_nullary (writes3 (F := Ideal)) 73 rfl W3 (by decide)
  rw [e73, e72, e71, e70, e69, e68, e67, e66, e65, e64, e63, e62, e61, e60, e59, e58, e57, e56, e55, e54, e53, e52,
    e51, e50]
  clear e73 e72 e71 e70 e69 e68 e67 e66 e65 e64 e63 e62 e61 e60 e59 e58 e57 e56 e55 e54 e53 e52 e51 e50
  subst hW3
  rw [← end_of3 V (r := main_v1) (by decide) (by decide), ← end_of3 V (r := main_v10) (by decide) (by decide),
    ← end_of3 V (r := main_v3) (by decide) (by decide)]
  rw [h1, h3, h10,
    end_arg V (r := main_arg9) (by decide) (by decide) (by decide) (by decide) (by decide) (by decide)]
  generalize after ops V (main_v176 : DevRef τ sig) = x176
  rfl

set_option maxHeartbeats 1000000 in
/-- The fourth layer's unit, in `%213`. -/
theorem st_z4 (V : Valuation τ sig (Elt Ideal)) :
    after ops V (main_v213 : DevRef τ sig)
      = eluR16 (after ops V (main_v212 : DevRef τ sig)) := by
  -- window 4
  rw [end_of4 V (r := main_v213) (by decide)]
  generalize hW4 : after ops3 (after ops2 (after ops1 (after ops0 (V)))) = W4
  have e19 : (after ops4 W4 (main_call3.cst.ref : DevRef τ sig)) = constant (F := Ideal) S_ .f32 0x00000000#32 := after_nullary (writes4 (F := Ideal)) 19 rfl W4 (by decide)
  have e20 : (after ops4 W4 (main_call3.v0.ref : DevRef τ sig)) = broadcastInDim S262144x16 ![] bcast_S_S262144x16 (after ops4 W4 (main_call3.cst.ref : DevRef τ sig)) := after_unary (writes4 (F := Ideal)) 20 rfl W4 (by decide) (by decide)
  have e21 : (after ops4 W4 (main_call3.v1.ref : DevRef τ sig)) = cmpf (F := Ideal) .ogt (after ops4 W4 (main_v212 : DevRef τ sig)) (after ops4 W4 (main_call3.v0.ref : DevRef τ sig)) := after_binary (writes4 (F := Ideal)) 21 rfl W4 (by decide) (by decide) (by decide)
  have e22 : (after ops4 W4 (main_call3.cst_0.ref : DevRef τ sig)) = constant (F := Ideal) S_ .f32 0x00000000#32 := after_nullary (writes4 (F := Ideal)) 22 rfl W4 (by decide)
  have e23 : (after ops4 W4 (main_call3.v2.ref : DevRef τ sig)) = broadcastInDim S262144x16 ![] bcast_S_S262144x16 (after ops4 W4 (main_call3.cst_0.ref : DevRef τ sig)) := after_unary (writes4 (F := Ideal)) 23 rfl W4 (by decide) (by decide)
  have e24 : (after ops4 W4 (main_call3.v3.ref : DevRef τ sig)) = cmpf (F := Ideal) .ogt (after ops4 W4 (main_v212 : DevRef τ sig)) (after ops4 W4 (main_call3.v2.ref : DevRef τ sig)) := after_binary (writes4 (F := Ideal)) 24 rfl W4 (by decide) (by decide) (by decide)
  have e25 : (after ops4 W4 (main_call3.cst_1.ref : DevRef τ sig)) = constant (F := Ideal) S_ .f32 0x00000000#32 := after_nullary (writes4 (F := Ideal)) 25 rfl W4 (by decide)
  have e26 : (after ops4 W4 (main_call3.call0.v0.ref : DevRef τ sig)) = id (after ops4 W4 (main_call3.cst_1.ref : DevRef τ sig)) := after_unary (writes4 (F := Ideal)) 26 rfl W4 (by decide) (by decide)
  have e27 : (after ops4 W4 (main_call3.call0.v1.ref : DevRef τ sig)) = broadcastInDim S262144x16 ![] bcast_S_S262144x16 (after ops4 W4 (main_call3.call0.v0.ref : DevRef τ sig)) := after_unary (writes4 (F := Ideal)) 27 rfl W4 (by decide) (by decide)
  have e28 : (after ops4 W4 (main_call3.call0.v2.ref : DevRef τ sig)) = select (after ops4 W4 (main_call3.v3.ref : DevRef τ sig)) (after ops4 W4 (main_call3.call0.v1.ref : DevRef τ sig)) (after ops4 W4 (main_v212 : DevRef τ sig)) := after_ternary (writes4 (F := Ideal)) 28 rfl W4 (by decide) (by decide) (by decide) (by decide)
  have e29 : (after ops4 W4 (main_call3.v5.ref : DevRef τ sig)) = Host.expm1 (F := Ideal) (after ops4 W4 (main_call3.call0.v2.ref : DevRef τ sig)) := after_unary (writes4 (F := Ideal)) 29 rfl W4 (by decide) (by decide)
  have e30 : (after ops4 W4 (main_call3.cst_2.ref : DevRef τ sig)) = constant (F := Ideal) S_ .f32 0x3F800000#32 := after_nullary (writes4 (F := Ideal)) 30 rfl W4 (by decide)
  have e31 : (after ops4 W4 (main_call3.v6.ref : DevRef τ sig)) = broadcastInDim S262144x16 ![] bcast_S_S262144x16 (after ops4 W4 (main_call3.cst_2.ref : DevRef τ sig)) := after_unary (writes4 (F := Ideal)) 31 rfl W4 (by decide) (by decide)
  have e32 : (after ops4 W4 (main_call3.v7.ref : DevRef τ sig)) = mulf (F := Ideal) (after ops4 W4 (main_call3.v6.ref : DevRef τ sig)) (after ops4 W4 (main_call3.v5.ref : DevRef τ sig)) := after_binary (writes4 (F := Ideal)) 32 rfl W4 (by decide) (by decide) (by decide)
  have e33 : (after ops4 W4 (main_call3.call1.v0.ref : DevRef τ sig)) = select (after ops4 W4 (main_call3.v1.ref : DevRef τ sig)) (after ops4 W4 (main_v212 : DevRef τ sig)) (after ops4 W4 (main_call3.v7.ref : DevRef τ sig)) := after_ternary (writes4 (F := Ideal)) 33 rfl W4 (by decide) (by decide) (by decide) (by decide)
  rw [e33, e32, e31, e30, e29, e28, e27, e26, e25, e24, e23, e22, e21, e20, e19]
  clear e33 e32 e31 e30 e29 e28 e27 e26 e25 e24 e23 e22 e21 e20 e19
  subst hW4
  rw [← end_of4 V (r := main_v212) (by decide)]
  generalize after ops V (main_v212 : DevRef τ sig) = x212
  rfl

/-- The fifth layer's linear map, in `%214`. -/
theorem st_h5 (V : Valuation τ sig (Elt Ideal)) :
    after ops V (main_v214 : DevRef τ sig)
      = dotR16x1 (after ops V (main_v213 : DevRef τ sig)) (V (main_arg10 : DevRef τ sig)) := by
  -- window 4
  rw [end_of4 V (r := main_v214) (by decide)]
  generalize hW4 : after ops3 (after ops2 (after ops1 (after ops0 (V)))) = W4
  have e34 := after_binary (writes4 (F := Ideal)) 34 rfl W4 (by decide) (by decide) (by decide)
  rw [e34]
  clear e34
  subst hW4
  rw [← end_of4 V (r := main_v213) (by decide), ← end_of4 V (r := main_arg10) (by decide)]
  rw [end_arg V (r := main_arg10) (by decide) (by decide) (by decide) (by decide) (by decide) (by decide)]
  generalize after ops V (main_v213 : DevRef τ sig) = x213
  rfl

/-- The fifth layer's combination, in `%248`. -/
theorem st_y5 (V : Valuation τ sig (Elt Ideal))
    (h1 : after ops V (main_v1 : DevRef τ sig) = Glue.srcT (F := Ideal) (V (main_arg1 : DevRef τ sig)))
    (h3 : after ops V (main_v3 : DevRef τ sig) = Glue.dstT (F := Ideal) (V (main_arg1 : DevRef τ sig)))
    (h10 : after ops V (main_v10 : DevRef τ sig) = Glue.disT (F := Ideal) (Glue.dstT (F := Ideal) (V (main_arg1 : DevRef τ sig)))) :
    after ops V (main_v248 : DevRef τ sig)
      = convR1 (Glue.agg1T (F := Ideal) (Glue.srcT (F := Ideal) (V (main_arg1 : DevRef τ sig))) (Glue.dstT (F := Ideal) (V (main_arg1 : DevRef τ sig))) (Glue.nrmT (F := Ideal) (Glue.srcT (F := Ideal) (V (main_arg1 : DevRef τ sig))) (Glue.dstT (F := Ideal) (V (main_arg1 : DevRef τ sig)))) (after ops V (main_v214 : DevRef τ sig)))
          (after ops V (main_v214 : DevRef τ sig)) (Glue.disT (F := Ideal) (Glue.dstT (F := Ideal) (V (main_arg1 : DevRef τ sig)))) (V (main_arg11 : DevRef τ sig)) := by
  -- window 5
  rw [end_of5 V (main_v248 : DevRef τ sig)]
  generalize hW5 : after ops4 (after ops3 (after ops2 (after ops1 (after ops0 (V))))) = W5
  have e0 := after_unary (writes5 (F := Ideal)) 0 rfl W5 (by decide) (by decide)
  have e1 := after_binary (writes5 (F := Ideal)) 1 rfl W5 (by decide) (by decide) (by decide)
  rw [e1, e0]
  clear e1 e0
  subst hW5
  rw [← end_of5 V (main_v245 : DevRef τ sig), ← end_of5 V (main_v246 : DevRef τ sig)]
  -- window 4
  rw [end_of4 V (r := main_v245) (by decide), end_of4 V (r := main_v246) (by decide)]
  generalize hW4 : after ops3 (after ops2 (after ops1 (after ops0 (V)))) = W4
  have e35 := after_nullary (writes4 (F := Ideal)) 35 rfl W4 (by decide)
  have e36 := after_unary (writes4 (F := Ideal)) 36 rfl W4 (by decide) (by decide)
  have e37 := after_binary (writes4 (F := Ideal)) 37 rfl W4 (by decide) (by decide) (by decide)
  have e38 := after_nullary (writes4 (F := Ideal)) 38 rfl W4 (by decide)
  have e39 := after_unary (writes4 (F := Ideal)) 39 rfl W4 (by decide) (by decide)
  have e40 := after_binary (writes4 (F := Ideal)) 40 rfl W4 (by decide) (by decide) (by decide)
  have e41 := after_ternary (writes4 (F := Ideal)) 41 rfl W4 (by decide) (by decide) (by decide) (by decide)
  have e42 := after_unary (writes4 (F := Ideal)) 42 rfl W4 (by decide) (by decide)
  have e43 := after_binary (writes4 (F := Ideal)) 43 rfl W4 (by decide) (by decide) (by decide)
  have e44 := after_nullary (writes4 (F := Ideal)) 44 rfl W4 (by decide)
  have e45 := after_unary (writes4 (F := Ideal)) 45 rfl W4 (by decide) (by decide)
  have e46 := after_binary (writes4 (F := Ideal)) 46 rfl W4 (by decide) (by decide) (by decide)
  have e47 := after_nullary (writes4 (F := Ideal)) 47 rfl W4 (by decide)
  have e48 := after_unary (writes4 (F := Ideal)) 48 rfl W4 (by decide) (by decide)
  have e49 := after_binary (writes4 (F := Ideal)) 49 rfl W4 (by decide) (by decide) (by decide)
  have e50 := after_ternary (writes4 (F := Ideal)) 50 rfl W4 (by decide) (by decide) (by decide) (by decide)
  have e51 := after_unary (writes4 (F := Ideal)) 51 rfl W4 (by decide) (by decide)
  have e52 := after_binary (writes4 (F := Ideal)) 52 rfl W4 (by decide) (by decide) (by decide)
  have e53 := after_binary (writes4 (F := Ideal)) 53 rfl W4 (by decide) (by decide) (by decide)
  have e54 := after_unary (writes4 (F := Ideal)) 54 rfl W4 (by decide) (by decide)
  have e55 := after_nullary (writes4 (F := Ideal)) 55 rfl W4 (by decide)
  have e56 := after_unary (writes4 (F := Ideal)) 56 rfl W4 (by decide) (by decide)
  have e57 := after_binary (writes4 (F := Ideal)) 57 rfl W4 (by decide) (by decide) (by decide)
  have e58 := after_nullary (writes4 (F := Ideal)) 58 rfl W4 (by decide)
  have e59 := after_unary (writes4 (F := Ideal)) 59 rfl W4 (by decide) (by decide)
  have e60 := after_binary (writes4 (F := Ideal)) 60 rfl W4 (by decide) (by decide) (by decide)
  have e61 := after_ternary (writes4 (F := Ideal)) 61 rfl W4 (by decide) (by decide) (by decide) (by decide)
  have e62 := after_unary (writes4 (F := Ideal)) 62 rfl W4 (by decide) (by decide)
  have e63 := after_binary (writes4 (F := Ideal)) 63 rfl W4 (by decide) (by decide) (by decide)
  have e64 := after_binary (writes4 (F := Ideal)) 64 rfl W4 (by decide) (by decide) (by decide)
  have e65 := after_nullary (writes4 (F := Ideal)) 65 rfl W4 (by decide)
  have e66 := after_unary (writes4 (F := Ideal)) 66 rfl W4 (by decide) (by decide)
  have e67 := after_unary (writes4 (F := Ideal)) 67 rfl W4 (by decide) (by decide)
  have e68 := after_ternary (writes4 (F := Ideal)) 68 rfl W4 (by decide) (by decide) (by decide) (by decide)
  have e69 := after_binary (writes4 (F := Ideal)) 69 rfl W4 (by decide) (by decide) (by decide)
  have e70 := after_unary (writes4 (F := Ideal)) 70 rfl W4 (by decide) (by decide)
  have e71 := after_binary (writes4 (F := Ideal)) 71 rfl W4 (by decide) (by decide) (by decide)
  have e72 := after_binary (writes4 (F := Ideal)) 72 rfl W4 (by decide) (by decide) (by decide)
  have e73 := after_unary (writes4 (F := Ideal)) 73 rfl W4 (by decide) (by decide)
  rw [e73, e72, e71, e70, e69, e68, e67, e66, e65, e64, e63, e62, e61, e60, e59, e58, e57, e56, e55, e54, e53, e52,
    e51, e50, e49, e48, e47, e46, e45, e44, e43, e42, e41, e40, e39, e38, e37, e36, e35]
  clear e73 e72 e71 e70 e69 e68 e67 e66 e65 e64 e63 e62 e61 e60 e59 e58 e57 e56 e55 e54 e53 e52 e51 e50 e49 e48 e47 e46 e45 e44 e43 e42 e41 e40 e39 e38 e37 e36 e35
  subst hW4
  rw [← end_of4 V (r := main_v3) (by decide), ← end_of4 V (r := main_v214) (by decide),
    ← end_of4 V (r := main_v1) (by decide), ← end_of4 V (r := main_v10) (by decide),
    ← end_of4 V (r := main_arg11) (by decide)]
  rw [h1, h3, h10,
    end_arg V (r := main_arg11) (by decide) (by decide) (by decide) (by decide) (by decide) (by decide)]
  generalize after ops V (main_v214 : DevRef τ sig) = x214
  rfl

/-- The fifth layer's unit, in `%249`. -/
theorem st_z5 (V : Valuation τ sig (Elt Ideal)) :
    after ops V (main_v249 : DevRef τ sig)
      = eluR1 (after ops V (main_v248 : DevRef τ sig)) := by
  -- window 5
  rw [end_of5 V (main_v249 : DevRef τ sig)]
  generalize hW5 : after ops4 (after ops3 (after ops2 (after ops1 (after ops0 (V))))) = W5
  have e2 : (after ops5 W5 (main_call4.cst.ref : DevRef τ sig)) = constant (F := Ideal) S_ .f32 0x00000000#32 := after_nullary (writes5 (F := Ideal)) 2 rfl W5 (by decide)
  have e3 : (after ops5 W5 (main_call4.v0.ref : DevRef τ sig)) = broadcastInDim S262144x1 ![] bcast_S_S262144x1 (after ops5 W5 (main_call4.cst.ref : DevRef τ sig)) := after_unary (writes5 (F := Ideal)) 3 rfl W5 (by decide) (by decide)
  have e4 : (after ops5 W5 (main_call4.v1.ref : DevRef τ sig)) = cmpf (F := Ideal) .ogt (after ops5 W5 (main_v248 : DevRef τ sig)) (after ops5 W5 (main_call4.v0.ref : DevRef τ sig)) := after_binary (writes5 (F := Ideal)) 4 rfl W5 (by decide) (by decide) (by decide)
  have e5 : (after ops5 W5 (main_call4.cst_0.ref : DevRef τ sig)) = constant (F := Ideal) S_ .f32 0x00000000#32 := after_nullary (writes5 (F := Ideal)) 5 rfl W5 (by decide)
  have e6 : (after ops5 W5 (main_call4.v2.ref : DevRef τ sig)) = broadcastInDim S262144x1 ![] bcast_S_S262144x1 (after ops5 W5 (main_call4.cst_0.ref : DevRef τ sig)) := after_unary (writes5 (F := Ideal)) 6 rfl W5 (by decide) (by decide)
  have e7 : (after ops5 W5 (main_call4.v3.ref : DevRef τ sig)) = cmpf (F := Ideal) .ogt (after ops5 W5 (main_v248 : DevRef τ sig)) (after ops5 W5 (main_call4.v2.ref : DevRef τ sig)) := after_binary (writes5 (F := Ideal)) 7 rfl W5 (by decide) (by decide) (by decide)
  have e8 : (after ops5 W5 (main_call4.cst_1.ref : DevRef τ sig)) = constant (F := Ideal) S_ .f32 0x00000000#32 := after_nullary (writes5 (F := Ideal)) 8 rfl W5 (by decide)
  have e9 : (after ops5 W5 (main_call4.call0.v0.ref : DevRef τ sig)) = id (after ops5 W5 (main_call4.cst_1.ref : DevRef τ sig)) := after_unary (writes5 (F := Ideal)) 9 rfl W5 (by decide) (by decide)
  have e10 : (after ops5 W5 (main_call4.call0.v1.ref : DevRef τ sig)) = broadcastInDim S262144x1 ![] bcast_S_S262144x1 (after ops5 W5 (main_call4.call0.v0.ref : DevRef τ sig)) := after_unary (writes5 (F := Ideal)) 10 rfl W5 (by decide) (by decide)
  have e11 : (after ops5 W5 (main_call4.call0.v2.ref : DevRef τ sig)) = select (after ops5 W5 (main_call4.v3.ref : DevRef τ sig)) (after ops5 W5 (main_call4.call0.v1.ref : DevRef τ sig)) (after ops5 W5 (main_v248 : DevRef τ sig)) := after_ternary (writes5 (F := Ideal)) 11 rfl W5 (by decide) (by decide) (by decide) (by decide)
  have e12 : (after ops5 W5 (main_call4.v5.ref : DevRef τ sig)) = Host.expm1 (F := Ideal) (after ops5 W5 (main_call4.call0.v2.ref : DevRef τ sig)) := after_unary (writes5 (F := Ideal)) 12 rfl W5 (by decide) (by decide)
  have e13 : (after ops5 W5 (main_call4.cst_2.ref : DevRef τ sig)) = constant (F := Ideal) S_ .f32 0x3F800000#32 := after_nullary (writes5 (F := Ideal)) 13 rfl W5 (by decide)
  have e14 : (after ops5 W5 (main_call4.v6.ref : DevRef τ sig)) = broadcastInDim S262144x1 ![] bcast_S_S262144x1 (after ops5 W5 (main_call4.cst_2.ref : DevRef τ sig)) := after_unary (writes5 (F := Ideal)) 14 rfl W5 (by decide) (by decide)
  have e15 : (after ops5 W5 (main_call4.v7.ref : DevRef τ sig)) = mulf (F := Ideal) (after ops5 W5 (main_call4.v6.ref : DevRef τ sig)) (after ops5 W5 (main_call4.v5.ref : DevRef τ sig)) := after_binary (writes5 (F := Ideal)) 15 rfl W5 (by decide) (by decide) (by decide)
  have e16 : (after ops5 W5 (main_call4.call1.v0.ref : DevRef τ sig)) = select (after ops5 W5 (main_call4.v1.ref : DevRef τ sig)) (after ops5 W5 (main_v248 : DevRef τ sig)) (after ops5 W5 (main_call4.v7.ref : DevRef τ sig)) := after_ternary (writes5 (F := Ideal)) 16 rfl W5 (by decide) (by decide) (by decide) (by decide)
  rw [e16, e15, e14, e13, e12, e11, e10, e9, e8, e7, e6, e5, e4, e3, e2]
  clear e16 e15 e14 e13 e12 e11 e10 e9 e8 e7 e6 e5 e4 e3 e2
  subst hW5
  rw [← end_of5 V (main_v248 : DevRef τ sig)]
  generalize after ops V (main_v248 : DevRef τ sig) = x248
  rfl

/-- The result: `%249` as a `512 × 512 × 1` array in row-major order, its last axis moved to the front. -/
theorem st_out (V : Valuation τ sig (Elt Ideal)) :
    after ops V (main_v251 : DevRef τ sig)
      = transpose S1x512x512 [2, 0, 1]
          (shapeCast S512x512x1 (after ops V (main_v249 : DevRef τ sig)) shapeCasts_S262144x1_S512x512x1)
          transposes_S512x512x1_S1x512x512_2_0_1 := by
  -- window 5
  rw [end_of5 V (main_v251 : DevRef τ sig)]
  generalize hW5 : after ops4 (after ops3 (after ops2 (after ops1 (after ops0 (V))))) = W5
  have e17 := after_reshape (writes5 (F := Ideal)) 17 rfl W5 (by decide) (by decide)
  have e18 := after_unary (writes5 (F := Ideal)) 18 rfl W5 (by decide) (by decide)
  rw [e18, e17]
  clear e18 e17
  subst hW5
  rw [← end_of5 V (main_v249 : DevRef τ sig)]
  generalize after ops V (main_v249 : DevRef τ sig) = x249
  rfl

end Cert.ReferenceIdeal.RefStages

end
-- ==== Proof.RefValue.lean ====
import proofs.«167728_j48945447305605_1_alg».proof.Proof.RefStagesA
import proofs.«167728_j48945447305605_1_alg».proof.Proof.RefStagesB
import proofs.«167728_j48945447305605_1_alg».proof.Proof.RefTerms

/-!
# The reference program's value as the network of curried arrays

For arbitrary starting contents `V` of the reference program's buffers, the buffers that hold the network's
stages at the end of the program are, read as curried arrays, the stages of `Cert.Net` at the reference's
normalisation `Cert.Spec.lnR`, for the arguments made from the sixteen argument buffers of `V`. Each stage
follows from the previous one: the stage's buffer is one named term of the previous stage's buffer, the term
read at an index is the stage's function of curried arrays, and the previous buffer is the previous stage.
The neighbourhood sum of a stage is the shared message passing applied to the previous buffer, which is the
uncurried previous stage. The program's result is the last stage re-laid by the two final operations.
-/

noncomputable section

namespace Cert.ReferenceIdeal.RefVal

open Cert.ReferenceIdeal Cert.ReferenceIdeal.Gen Idealize.ShloMosaic Idealize.ShloMosaic.TcCoe Idealize.ShloMosaic.StableHlo
open Cert.ReferenceIdeal.RefRun Cert.ReferenceIdeal.RefStages Cert.ReferenceIdeal.RefTerms Cert.Cur

-- buffer contents of the reference program at the exact instance
local notation "𝕍" => Valuation τ sig (Elt Ideal)
-- an array of a buffer type at the exact instance
local notation "𝔸" S ", " t => BufTy.Contents (Elt Ideal) (⟨S, t⟩ : BufTy)

/-- The network's arguments made from the contents of the sixteen argument buffers. -/
def argsV (V : 𝕍) : Cert.Net.Args :=
  Cert.Cur.argsOf (V (main_arg0 : DevRef τ sig)) (V (main_arg1 : DevRef τ sig)) (V (main_arg2 : DevRef τ sig))
    (V (main_arg3 : DevRef τ sig)) (V (main_arg4 : DevRef τ sig)) (V (main_arg5 : DevRef τ sig))
    (V (main_arg6 : DevRef τ sig)) (V (main_arg7 : DevRef τ sig)) (V (main_arg8 : DevRef τ sig))
    (V (main_arg9 : DevRef τ sig)) (V (main_arg10 : DevRef τ sig)) (V (main_arg11 : DevRef τ sig))
    (V (main_arg12 : DevRef τ sig)) (V (main_arg13 : DevRef τ sig)) (V (main_arg14 : DevRef τ sig))
    (V (main_arg15 : DevRef τ sig))

/-- An array whose curried reading is `f` is the uncurried `f`. -/
theorem eq_unc2 {n0 n1 : Nat} {x : (⟨2, ![n0, n1]⟩ : Shape).Idx → EReal} {f : Fin n0 → Fin n1 → EReal}
    (h : cur2 x = f) : x = unc2 f := by
  rw [← h, unc2_cur2]

/-- Layer 1's linear map. -/
theorem r_h1 (V : 𝕍) : cur2 (after ops V (main_v11 : DevRef τ sig) : 𝔸 S262144x64, .f32) = Cert.Net.h1 (argsV V) := by
  rw [st_h1 V, cur2_dotR9]
  rfl

/-- Layer 1's combination: the neighbourhood sum is the shared message passing of the linear map's array. -/
theorem r_y1 (V : 𝕍) : cur2 (after ops V (main_v47 : DevRef τ sig) : 𝔸 S262144x64, .f32) = Cert.Net.y1 (argsV V) := by
  rw [st_y1 V, cur2_convR64, eq_unc2 (r_h1 V), cur2_unc2]
  rfl

/-- Layer 1's output: normalisation, affine map and unit. -/
theorem r_z1 (V : 𝕍) : cur2 (after ops V (main_v65 : DevRef τ sig) : 𝔸 S262144x64, .f32) = Cert.Net.z1 Cert.Spec.lnR (argsV V) := by
  rw [st_z1 V, cur2_lnR64, r_y1 V]
  rfl

/-- Layer 2's linear map. -/
theorem r_h2 (V : 𝕍) : cur2 (after ops V (main_v66 : DevRef τ sig) : 𝔸 S262144x64, .f32) = Cert.Net.h2 Cert.Spec.lnR (argsV V) := by
  rw [st_h2 V, cur2_dotR64, r_z1 V]
  rfl

/-- Layer 2's combination. -/
theorem r_y2 (V : 𝕍) : cur2 (after ops V (main_v102 : DevRef τ sig) : 𝔸 S262144x64, .f32) = Cert.Net.y2 Cert.Spec.lnR (argsV V) := by
  rw [st_y2 V, cur2_convR64, eq_unc2 (r_h2 V), cur2_unc2]
  rfl

/-- Layer 2's output. -/
theorem r_z2 (V : 𝕍) : cur2 (after ops V (main_v120 : DevRef τ sig) : 𝔸 S262144x64, .f32) = Cert.Net.z2 Cert.Spec.lnR (argsV V) := by
  rw [st_z2 V, cur2_lnR64, r_y2 V]
  rfl

/-- Layer 3's linear map. -/
theorem r_h3 (V : 𝕍) : cur2 (after ops V (main_v121 : DevRef τ sig) : 𝔸 S262144x64, .f32) = Cert.Net.h3 Cert.Spec.lnR (argsV V) := by
  rw [st_h3 V, cur2_dotR64, r_z2 V]
  rfl

/-- Layer 3's combination. -/
theorem r_y3 (V : 𝕍) : cur2 (after ops V (main_v157 : DevRef τ sig) : 𝔸 S262144x64, .f32) = Cert.Net.y3 Cert.Spec.lnR (argsV V) := by
  rw [st_y3 V (st_src V) (st_dst V) (st_dis V), cur2_convR64, eq_unc2 (r_h3 V), cur2_unc2]
  rfl

/-- Layer 3's output, with the second scale and shift. -/
theorem r_z3 (V : 𝕍) : cur2 (after ops V (main_v175 : DevRef τ sig) : 𝔸 S262144x64, .f32) = Cert.Net.z3 Cert.Spec.lnR (argsV V) := by
  rw [st_z3 V, cur2_lnR64, r_y3 V]
  rfl

/-- Layer 4's linear map, to 16 features. -/
theorem r_h4 (V : 𝕍) : cur2 (after ops V (main_v176 : DevRef τ sig) : 𝔸 S262144x16, .f32) = Cert.Net.h4 Cert.Spec.lnR (argsV V) := by
  rw [st_h4 V, cur2_dotR64x16, r_z3 V]
  rfl

/-- Layer 4's combination. -/
theorem r_y4 (V : 𝕍) : cur2 (after ops V (main_v212 : DevRef τ sig) : 𝔸 S262144x16, .f32) = Cert.Net.y4 Cert.Spec.lnR (argsV V) := by
  rw [st_y4 V (st_src V) (st_dst V) (st_dis V), cur2_convR16, eq_unc2 (r_h4 V), cur2_unc2]
  rfl

/-- Layer 4's output: the unit alone. -/
theorem r_z4 (V : 𝕍) : cur2 (after ops V (main_v213 : DevRef τ sig) : 𝔸 S262144x16, .f32) = Cert.Net.z4 Cert.Spec.lnR (argsV V) := by
  rw [st_z4 V, cur2_eluR16, r_y4 V]
  rfl

/-- Layer 5's linear map, to one feature. -/
theorem r_h5 (V : 𝕍) : cur2 (after ops V (main_v214 : DevRef τ sig) : 𝔸 S262144x1, .f32) = Cert.Net.h5 Cert.Spec.lnR (argsV V) := by
  rw [st_h5 V, cur2_dotR16x1, r_z4 V]
  rfl

/-- Layer 5's combination. -/
theorem r_y5 (V : 𝕍) : cur2 (after ops V (main_v248 : DevRef τ sig) : 𝔸 S262144x1, .f32) = Cert.Net.y5 Cert.Spec.lnR (argsV V) := by
  rw [st_y5 V (st_src V) (st_dst V) (st_dis V), cur2_convR1, eq_unc2 (r_h5 V), cur2_unc2]
  rfl

/-- Layer 5's output: the unit alone; one number per node. -/
theorem r_z5 (V : 𝕍) : cur2 (after ops V (main_v249 : DevRef τ sig) : 𝔸 S262144x1, .f32) = Cert.Net.z5 Cert.Spec.lnR (argsV V) := by
  rw [st_z5 V, cur2_eluR1, r_y5 V]
  rfl

/-- The program's result: the last stage, one number per node, re-laid as a [1, 512, 512] array by the two
final operations (a reshape to [512, 512, 1] and a transposition). -/
theorem ref_value (V : 𝕍) :
    after ops V (main_v251 : DevRef τ sig)
      = transpose S1x512x512 [2, 0, 1]
          (shapeCast S512x512x1 (unc2 (Cert.Net.z5 Cert.Spec.lnR (argsV V)) : 𝔸 S262144x1, .f32) shapeCasts_S262144x1_S512x512x1)
          transposes_S512x512x1_S1x512x512_2_0_1 := by
  rw [st_out V, eq_unc2 (r_z5 V)]

end Cert.ReferenceIdeal.RefVal

end
-- ==== Proof.RealArith.lean ====
import proofs.«167728_j48945447305605_1_alg».proof.Proof.Spec

/-!
# Extended reals that are reals

`IsReal x` says `x` is (the image of) a real number. Sums, differences, products and finite sums of reals
are real, the exponential linear unit of a real is real, and a finite sum of reals is the real sum.
On reals the extended reals' arithmetic is the reals' arithmetic; the laws that fail at the infinities
(distributivity, cancellation) are used only there.
-/

noncomputable section

namespace Cert.Spec

open Idealize.ShloMosaic

/-- `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of reals, taken in the extended reals, is the real sum. -/
theorem coe_sum {κ : Type} (s : Finset κ) (f : κ → ℝ) :
    (∑ k ∈ s, (f k : EReal)) = ((∑ k ∈ s, f k : ℝ) : EReal) := by
  classical
  refine Finset.induction_on s ?_ ?_
  · simp
  · intro a s ha ih
    rw [Finset.sum_insert ha, Finset.sum_insert ha, ih, EReal.coe_add]

theorem IsReal.sum {κ : Type} (s : Finset κ) (f : κ → EReal) (h : ∀ k ∈ s, IsReal (f k)) :
    IsReal (∑ k ∈ s, f k) := by
  classical
  revert h
  refine Finset.induction_on s ?_ ?_
  · intro _; simpa using IsReal.zero
  · intro a s ha ih h
    rw [Finset.sum_insert ha]
    exact (h a (Finset.mem_insert_self a s)).add (ih fun k hk => h k (Finset.mem_insert_of_mem hk))

theorem IsReal.elu {x : EReal} (hx : IsReal x) : IsReal (elu x) := by
  obtain ⟨r, rfl⟩ := hx
  unfold Spec.elu
  split_ifs
  · exact ⟨r, rfl⟩
  · exact ⟨Real.exp r - 1, by rw [Ideal.exp_coe, EReal.coe_sub, EReal.coe_one]⟩

end Cert.Spec

end
-- ==== Proof.Consts.lean ====
import Idealize.ShloMosaic.PureOps.Ideal.Laws
import proofs.«167728_j48945447305605_1_alg».proof.Proof.Spec

/-!
# The four float words of the normalisation as reals

The count word is 2^24 = 16777216 (the number of entries of a [262144, 64] array), the ε word is the
positive real 10995116 · 2^(-40) (the float nearest 1e-5), and the words of one and zero are 1 and 0.
-/

noncomputable section

namespace Cert.Spec

open Idealize.ShloMosaic

theorem cnt_eq : cnt = ((16777216 : ℝ) : EReal) := by
  unfold cnt; simp [Ideal.ofBits, Ideal.ieee, -EReal.coe_mul]; try norm_num

/-- The ε of the normalisation as a real. -/
def epsR : ℝ := 10995116 * (2 : ℝ) ^ (-40 : ℤ)

theorem epsR_pos : 0 < epsR := by unfold epsR; positivity

theorem eps_eq : eps = ((epsR : ℝ) : EReal) := by
  unfold eps epsR; simp [Ideal.ofBits, Ideal.ieee, -EReal.coe_mul]; try norm_num

theorem oneW_eq : oneW = 1 := by
  unfold oneW; simp [Ideal.ofBits, Ideal.ieee, -EReal.coe_mul]; try norm_num

theorem zeroW_eq : zeroW = 0 := by
  unfold zeroW; exact Ideal.ofBits_zero_f32

end Cert.Spec

end
-- ==== Proof.LnEq.lean ====
import proofs.«167728_j48945447305605_1_alg».proof.Proof.RealArith
import proofs.«167728_j48945447305605_1_alg».proof.Proof.Consts

/-!
# The two spellings of the normalisation agree on real entries

For an array `y` of reals with 2^24 entries, mean `μ`:

* the mean of the squared deviations is the mean of the squares minus `μ²` (expand the square and use
  `Σ y = n μ`), and it is not negative, so clamping it at zero changes nothing;
* the standard deviation plus ε is a positive real `d`, and dividing an extended real by `d` is multiplying
  it by the real `1/d`.

Hence `lnK y g bt = lnR y g bt` for every scale `g` and shift `bt`; and when those are real the result is real.
The real entries are needed: with an infinite entry the two variances differ.
-/

noncomputable section

namespace Cert.Spec

open Idealize.ShloMosaic

variable {ι β : Type} [Fintype ι] [Fintype β]

/-- Over the reals: the mean squared deviation is the mean square minus the squared mean. -/
theorem var_identity1 {κ : Type} [Fintype κ] (f : κ → ℝ) (N : ℝ) (hN : N ≠ 0) (hcard : (Fintype.card κ : ℝ) = N) :
    (∑ k, (f k - (∑ k, f k) / N) * (f k - (∑ k, f k) / N)) / N
      = (∑ k, f k * f k) / N - ((∑ k, f k) / N) * ((∑ k, f k) / N) := by
  have h : ∀ μ : ℝ, ∑ k, (f k - μ) * (f k - μ) = (∑ k, f k * f k) - 2 * μ * (∑ k, f k) + N * (μ * μ) := by
    intro μ
    have e : ∀ k, (f k - μ) * (f k - μ) = f k * f k - 2 * μ * f k + μ * μ := fun k => by ring
    simp only [e, Finset.sum_add_distrib, Finset.sum_sub_distrib, ← Finset.mul_sum, Finset.sum_const,
      Finset.card_univ, nsmul_eq_mul, hcard]
    ring
  rw [h]
  field_simp
  ring

/-- The same for a doubly indexed family. -/
theorem var_identity (r : ι → β → ℝ) (N : ℝ) (hN : N ≠ 0)
    (hcard : (Fintype.card ι : ℝ) * (Fintype.card β : ℝ) = N) :
    (∑ i, ∑ j, (r i j - (∑ i, ∑ j, r i j) / N) * (r i j - (∑ i, ∑ j, r i j) / N)) / N
      = (∑ i, ∑ j, r i j * r i j) / N - ((∑ i, ∑ j, r i j) / N) * ((∑ i, ∑ j, r i j) / N) := by
  have hc : (Fintype.card (ι × β) : ℝ) = N := by rw [Fintype.card_prod, Nat.cast_mul, hcard]
  have := var_identity1 (fun p : ι × β => r p.1 p.2) N hN hc
  simpa only [Fintype.sum_prod_type] using this

/-- The sum of all entries of an array of reals is the real sum. -/
theorem total_of_real (y : ι → β → EReal) (r : ι → β → ℝ) (hr : ∀ i j, y i j = (r i j : EReal)) :
    total y = ((∑ i, ∑ j, r i j : ℝ) : EReal) := by
  unfold total
  rw [← coe_sum]
  refine Finset.sum_congr rfl fun i _ => ?_
  rw [← coe_sum]
  exact Finset.sum_congr rfl fun j _ => hr i j

/-- Dividing a real by the count word divides it by 2^24. -/
theorem div_cnt (a : ℝ) : Ideal.div (a : EReal) cnt = ((a / 16777216 : ℝ) : EReal) := by
  rw [cnt_eq, Ideal.div_coe (by norm_num), ← EReal.coe_mul]
  congr 1
  ring

theorem mean_of_real (y : ι → β → EReal) (r : ι → β → ℝ) (hr : ∀ i j, y i j = (r i j : EReal)) :
    mean y = (((∑ i, ∑ j, r i j) / 16777216 : ℝ) : EReal) := by
  unfold mean; rw [total_of_real y r hr, div_cnt]

/-- What the two normalisations share on an array of reals with 2^24 entries: the mean is a real `μ`, the
    reciprocal of (clamped-variance deviation + ε) is a real `c`, and dividing by (deviation of the squared
    deviations + ε) is multiplying by that same `c`. -/
theorem ln_core (y : ι → β → EReal) (r : ι → β → ℝ) (hr : ∀ i j, y i j = (r i j : EReal))
    (hcard : (Fintype.card ι : ℝ) * (Fintype.card β : ℝ) = 16777216) :
    ∃ μ c : ℝ, mean y = (μ : EReal) ∧ invK y = (c : EReal) ∧ ∀ x : EReal, Ideal.div x (stdR y + eps) = x * (c : EReal) := by
  set μ : ℝ := (∑ i, ∑ j, r i j) / 16777216 with hμ
  have hmean : mean y = (μ : EReal) := mean_of_real y r hr
  -- the variance, in its two forms
  set v : ℝ := (∑ i, ∑ j, (r i j - μ) * (r i j - μ)) / 16777216 with hv
  have hv0 : 0 ≤ v :=
    div_nonneg (Finset.sum_nonneg fun i _ => Finset.sum_nonneg fun j _ => mul_self_nonneg _) (by norm_num)
  have hvK : (∑ i, ∑ j, r i j * r i j) / 16777216 - μ * μ = v :=
    (var_identity r 16777216 (by norm_num) hcard).symm
  have hd : 0 < Real.sqrt v + epsR := add_pos_of_nonneg_of_pos (Real.sqrt_nonneg v) epsR_pos
  refine ⟨μ, 1 / (Real.sqrt v + epsR), hmean, ?_, ?_⟩
  · -- the clamped variance is v
    have hsq : total (fun i j => y i j * y i j) = ((∑ i, ∑ j, r i j * r i j : ℝ) : EReal) :=
      total_of_real _ (fun i j => r i j * r i j) fun i j => by rw [hr, EReal.coe_mul]
    have hvar : varK y = (v : EReal) := by
      unfold varK
      rw [hsq, div_cnt, hmean, ← EReal.coe_mul, ← EReal.coe_sub, hvK, zeroW_eq]
      exact max_eq_left (EReal.coe_nonneg.mpr hv0)
    unfold invK
    rw [hvar, Ideal.sqrt_coe, if_neg (not_lt.mpr hv0), eps_eq, ← EReal.coe_add, oneW_eq,
      Ideal.div_coe hd.ne', one_mul]
  · intro x
    have hdev : total (fun i j => (y i j - mean y) * (y i j - mean y))
        = ((∑ i, ∑ j, (r i j - μ) * (r i j - μ) : ℝ) : EReal) :=
      total_of_real _ (fun i j => (r i j - μ) * (r i j - μ)) fun i j => by
        rw [hmean, hr, ← EReal.coe_sub, ← EReal.coe_mul]
    have hstd : stdR y = ((Real.sqrt v : ℝ) : EReal) := by
      unfold stdR
      rw [hdev, div_cnt, Ideal.sqrt_coe, if_neg (not_lt.mpr hv0)]
    rw [hstd, eps_eq, ← EReal.coe_add, Ideal.div_coe hd.ne']

/-- On an array of reals with 2^24 entries the two normalisations agree, for any scale and shift. -/
theorem lnK_eq_lnR (y : ι → β → EReal) (g bt : β → EReal) (hy : ∀ i j, IsReal (y i j))
    (hcard : (Fintype.card ι : ℝ) * (Fintype.card β : ℝ) = 16777216) : lnK y g bt = lnR y g bt := by
  choose r hr using hy
  obtain ⟨μ, c, hmean, hinv, hdiv⟩ := ln_core y r hr hcard
  funext i j
  unfold lnK lnR
  rw [hinv, hdiv]

/-- With real scale and shift the normalised array is real. -/
theorem lnK_real (y : ι → β → EReal) (g bt : β → EReal) (hy : ∀ i j, IsReal (y i j))
    (hg : ∀ j, IsReal (g j)) (hbt : ∀ j, IsReal (bt j))
    (hcard : (Fintype.card ι : ℝ) * (Fintype.card β : ℝ) = 16777216) : ∀ i j, IsReal (lnK y g bt i j) := by
  choose r hr using hy
  obtain ⟨μ, c, hmean, hinv, hdiv⟩ := ln_core y r hr hcard
  intro i j
  unfold lnK
  rw [hinv, hmean]
  have h1 : IsReal (y i j) := ⟨r i j, hr i j⟩
  exact IsReal.elu (IsReal.add (IsReal.mul (IsReal.mul (IsReal.sub h1 (IsReal.coe μ)) (IsReal.coe c)) (hg j)) (hbt j))

end Cert.Spec

end
-- ==== Proof.NetEq.lean ====
import proofs.«167728_j48945447305605_1_alg».proof.Proof.Net
import proofs.«167728_j48945447305605_1_alg».proof.Proof.LnEq

/-!
# The network does not depend on the spelling of the normalisation

When every argument array is real and the graph's part takes real arrays to real arrays, every stage of
the network is an array of reals — a finite sum of products of reals is real, and so on through the
layers — so at each of the three normalised layers the two spellings agree (`Spec.lnK_eq_lnR`), and the
network's result is the same for both.
-/

noncomputable section

namespace Cert.Net

open Cert.Spec

/-- Every argument is an array of reals, and the graph's part keeps arrays of reals real. -/
structure Args.AllReal (a : Args) : Prop where
  x : ∀ i k, IsReal (a.x i k)
  W1 : ∀ k j, IsReal (a.W1 k j)
  b1 : ∀ j, IsReal (a.b1 j)
  W2 : ∀ k j, IsReal (a.W2 k j)
  b2 : ∀ j, IsReal (a.b2 j)
  W3 : ∀ k j, IsReal (a.W3 k j)
  b3 : ∀ j, IsReal (a.b3 j)
  W4 : ∀ k j, IsReal (a.W4 k j)
  b4 : ∀ j, IsReal (a.b4 j)
  W5 : ∀ k j, IsReal (a.W5 k j)
  b5 : ∀ j, IsReal (a.b5 j)
  g2 : ∀ j, IsReal (a.g2 j)
  bt2 : ∀ j, IsReal (a.bt2 j)
  g3 : ∀ j, IsReal (a.g3 j)
  bt3 : ∀ j, IsReal (a.bt3 j)
  d : ∀ i, IsReal (a.d i)
  A64 : ∀ h, (∀ i j, IsReal (h i j)) → ∀ i j, IsReal (a.A64 h i j)
  A16 : ∀ h, (∀ i j, IsReal (h i j)) → ∀ i j, IsReal (a.A16 h i j)
  A1 : ∀ h, (∀ i j, IsReal (h i j)) → ∀ i j, IsReal (a.A1 h i j)

section
variable {ι α β : Type} [Fintype ι] [Fintype α] [Fintype β]

theorem lin_real {x : ι → α → EReal} {w : α → β → EReal} (hx : ∀ i k, IsReal (x i k)) (hw : ∀ k j, IsReal (w k j)) :
    ∀ i j, IsReal (lin x w i j) := fun i j => IsReal.sum _ _ fun k _ => (hx i k).mul (hw k j)

theorem conv_real {a h : ι → β → EReal} {d : ι → EReal} {b : β → EReal} (ha : ∀ i j, IsReal (a i j))
    (hh : ∀ i j, IsReal (h i j)) (hd : ∀ i, IsReal (d i)) (hb : ∀ j, IsReal (b j)) : ∀ i j, IsReal (conv a h d b i j) :=
  fun i j => ((ha i j).add ((hh i j).mul ((hd i).mul (hd i)))).add (hb j)

theorem eluA_real {y : ι → β → EReal} (hy : ∀ i j, IsReal (y i j)) : ∀ i j, IsReal (eluA y i j) :=
  fun i j => (hy i j).elu
end

/-- A [262144, 64] array has 2^24 entries. -/
theorem card64 : (Fintype.card Node : ℝ) * (Fintype.card (Fin 64) : ℝ) = 16777216 := by
  simp only [Fintype.card_fin]; norm_num

/-- With real arguments the network's result is the same under both spellings of the normalisation. -/
theorem z5_eq (a : Args) (ha : a.AllReal) : z5 lnK a = z5 lnR a := by
  have r_h1 : ∀ i j, IsReal (h1 a i j) := lin_real ha.x ha.W1
  have r_y1 : ∀ i j, IsReal (y1 a i j) := conv_real (ha.A64 _ r_h1) r_h1 ha.d ha.b1
  have e_z1 : z1 lnK a = z1 lnR a := lnK_eq_lnR (y1 a) a.g2 a.bt2 r_y1 card64
  have r_z1 : ∀ i j, IsReal (z1 lnK a i j) := lnK_real (y1 a) a.g2 a.bt2 r_y1 ha.g2 ha.bt2 card64
  have e_h2 : h2 lnK a = h2 lnR a := by unfold h2; rw [e_z1]
  have r_h2 : ∀ i j, IsReal (h2 lnK a i j) := lin_real r_z1 ha.W2
  have e_y2 : y2 lnK a = y2 lnR a := by unfold y2; rw [e_h2]
  have r_y2 : ∀ i j, IsReal (y2 lnK a i j) := conv_real (ha.A64 _ r_h2) r_h2 ha.d ha.b2
  have e_z2 : z2 lnK a = z2 lnR a := by
    unfold z2; rw [← e_y2]; exact lnK_eq_lnR (y2 lnK a) a.g2 a.bt2 r_y2 card64
  have r_z2 : ∀ i j, IsReal (z2 lnK a i j) := lnK_real (y2 lnK a) a.g2 a.bt2 r_y2 ha.g2 ha.bt2 card64
  have e_h3 : h3 lnK a = h3 lnR a := by unfold h3; rw [e_z2]
  have r_h3 : ∀ i j, IsReal (h3 lnK a i j) := lin_real r_z2 ha.W3
  have e_y3 : y3 lnK a = y3 lnR a := by unfold y3; rw [e_h3]
  have r_y3 : ∀ i j, IsReal (y3 lnK a i j) := conv_real (ha.A64 _ r_h3) r_h3 ha.d ha.b3
  have e_z3 : z3 lnK a = z3 lnR a := by
    unfold z3; rw [← e_y3]; exact lnK_eq_lnR (y3 lnK a) a.g3 a.bt3 r_y3 card64
  have e_h4 : h4 lnK a = h4 lnR a := by unfold h4; rw [e_z3]
  have e_y4 : y4 lnK a = y4 lnR a := by unfold y4; rw [e_h4]
  have e_z4 : z4 lnK a = z4 lnR a := by unfold z4; rw [e_y4]
  have e_h5 : h5 lnK a = h5 lnR a := by unfold h5; rw [e_z4]
  have e_y5 : y5 lnK a = y5 lnR a := by unfold y5; rw [e_h5]
  unfold z5; rw [e_y5]

end Cert.Net

end
-- ==== Proof.PreReal.lean ====
import Idealize.ShloMosaic.Lib.ReduceAll
import Idealize.ShloMosaic.Lib.IdealHost
import Idealize.ShloMosaic.Lib.ValueIdx
import proofs.«167728_j48945447305605_1_alg».proof.Proof.Gen.Pre_finite_inputs
import proofs.«167728_j48945447305605_1_alg».proof.Proof.RealArith

/-!
# From the precondition to arrays of reals

The precondition says of each float argument `x` that `|x i| < +∞` at every index `i`: the comparisons
are folded by `and` over all axes, and the fifteen folds are conjoined. An extended real whose absolute
value is below `+∞` is neither infinity, so it is a real number. Hence every float argument is an array
of reals.
-/

noncomputable section

namespace Cert.PreReal

open Idealize.ShloMosaic Idealize.ShloMosaic.ValueIdx Cert.Pre_finite_inputs

/-- The rank-0 shape has one index. -/
instance subsingleton_scalar_idx : Subsingleton S_.Idx := ⟨fun a b => funext fun d => d.elim0⟩

/-- The float word `0x7F800000` is `+∞`. -/
theorem ofBits_inf : Ideal.ofBits .f32 0x7F800000#32 = (⊤ : EReal) := by
  simp [Ideal.ofBits, Ideal.ieee]

/-- An extended real with `|x| < +∞` is a real: `|+∞| = |-∞| = +∞` is not below `+∞`. -/
theorem isReal_of_abs_lt_top (x : EReal) (h : Ideal.cmp .olt (max x (-x)) ⊤ = 1#1) : Spec.IsReal x := by
  induction x using EReal.rec with
  | bot => simp [Ideal.cmp] at h
  | coe r => exact ⟨r, rfl⟩
  | top => simp [Ideal.cmp] at h

/-- One conjunct of the precondition, for an array of any shape: if the fold by `and` over all axes of
`|x i| < +∞` is 1, every entry of `x` is a real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) :
    ∀ i, Spec.IsReal (x i) := by
  intro i
  have h1 := Host.reduce_andi_all _ _ hr hu ix0 e i
  rw [cmpf_apply, broadcastInDim_scalar_apply, constant_apply, ofBits_inf] at h1
  exact isReal_of_abs_lt_top (x i) h1

/-- Under the precondition every float argument is an array of reals. -/
theorem real_of_pre (a0 : FVec Ideal S262144x9 .f32) (a1 : IVec S2x2097152 32) (a2 : FVec Ideal S9x64 .f32)
    (a3 : FVec Ideal S64 .f32) (a4 : FVec Ideal S64x64 .f32) (a5 : FVec Ideal S64 .f32)
    (a6 : FVec Ideal S64x64 .f32) (a7 : FVec Ideal S64 .f32) (a8 : FVec Ideal S64x16 .f32)
    (a9 : FVec Ideal S16 .f32) (a10 : FVec Ideal S16x1 .f32) (a11 : FVec Ideal S1 .f32)
    (a12 a13 a14 a15 : FVec Ideal S64 .f32)
    (h : Cert.Pre_finite_inputs.fn (F := Ideal) a0 a1 a2 a3 a4 a5 a6 a7 a8 a9 a10 a11 a12 a13 a14 a15
      = (fun _ => 1#1)) :
    (∀ i, Spec.IsReal (a0 i)) ∧ (∀ i, Spec.IsReal (a2 i)) ∧ (∀ i, Spec.IsReal (a3 i)) ∧
    (∀ i, Spec.IsReal (a4 i)) ∧ (∀ i, Spec.IsReal (a5 i)) ∧ (∀ i, Spec.IsReal (a6 i)) ∧
    (∀ i, Spec.IsReal (a7 i)) ∧ (∀ i, Spec.IsReal (a8 i)) ∧ (∀ i, Spec.IsReal (a9 i)) ∧
    (∀ i, Spec.IsReal (a10 i)) ∧ (∀ i, Spec.IsReal (a11 i)) ∧ (∀ i, Spec.IsReal (a12 i)) ∧
    (∀ i, Spec.IsReal (a13 i)) ∧ (∀ i, Spec.IsReal (a14 i)) ∧ (∀ i, Spec.IsReal (a15 i)) := by
  have h0 := congrFun h ix0
  dsimp only [fn, fn_part1, fn_part2, fn_part3, fn_part4, andi] at h0
  simp only [IntOp.andi_eq_one] at h0
  obtain ⟨⟨⟨⟨⟨⟨⟨⟨⟨⟨⟨⟨⟨⟨e0, e2⟩, e3⟩, e4⟩, e5⟩, e6⟩, e7⟩, e8⟩, e9⟩, e10⟩, e11⟩, e12⟩, e13⟩, e14⟩, e15⟩ := h0
  exact ⟨real_of_all a0 _ _ _ e0, real_of_all a2 _ _ _ e2, real_of_all a3 _ _ _ e3, real_of_all a4 _ _ _ e4,
    real_of_all a5 _ _ _ e5, real_of_all a6 _ _ _ e6, real_of_all a7 _ _ _ e7, real_of_all a8 _ _ _ e8,
    real_of_all a9 _ _ _ e9, real_of_all a10 _ _ _ e10, real_of_all a11 _ _ _ e11, real_of_all a12 _ _ _ e12,
    real_of_all a13 _ _ _ e13, real_of_all a14 _ _ _ e14, real_of_all a15 _ _ _ e15⟩

end Cert.PreReal

end
-- ==== Proof.LibScatterGather.lean ====
/-
  A gather and an accumulating scatter along the leading axis, read at an index.

  `x[idx]` of an array `x` at an integer array `idx : [E]` lowers to a gather whose start indices are printed
  `[E, 1]` (the index vector on axis 1): of a flat array `[N]` the result's element `e` is `x` at the start index
  `idx[e, 0]` read signed and clamped into `[0, N − 1]`; of a matrix `[N, C]` the result's element `(e, f)` is
  `x` at that row and column `f`. The accumulating scatter with the same index array (a segment sum) adds update
  `e` (update `(e, f)` into column `f`) at the row `idx[e, 0]` read signed and NOT clamped: an update whose row
  is outside `[0, N)` is dropped. On the extended reals the scatter's value at a row is therefore the operand
  plus the sum of the updates whose index word is that row.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## The gathers -/

section Gather
variable {α : Type}

/-- The dimension numbers of `x[idx]` for a flat operand `[N]`, start indices `[E, 1]` and result `[E]`. -/
abbrev take1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the start index `idx[e, 0]`, read signed and clamped. -/
theorem gather_take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (take1Dims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (take1Dims N E wf).start (ix1 e) idx 0 + (take1Dims N E wf).batchCoord (ix1 e) 0
    + (take1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N E wf).startIndexMap from List.mem_singleton.mpr rfl)]
  have hsi : (take1Dims N E wf).siIdx (ix1 e) ⟨List.idxOf (0 : Fin 1) (take1Dims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx]` for a matrix operand `[N, C]`, start indices `[E, 1]` and result `[E, C]`. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rows_coord0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (0 : Fin 2) + (rowsDims N C E wf).batchCoord (ix2 e f) (0 : Fin 2)
      + (rowsDims N C E wf).offCoord (ix2 e f) (0 : Fin 2) = min (idx (ix2 e (0 : Fin 1))).toInt.toNat (N - 1) := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsDims N C E wf).startIndexMap from List.mem_singleton.mpr rfl)]
  have hsi : (rowsDims N C E wf).siIdx (ix2 e f) ⟨List.idxOf (0 : Fin 2) (rowsDims N C E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rows_coord1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (1 : Fin 2) + (rowsDims N C E wf).batchCoord (ix2 e f) (1 : Fin 2)
      + (rowsDims N C E wf).offCoord (ix2 e f) (1 : Fin 2) = f.val := by
  rw [GatherDims.batchCoord_eq_zero _ _ _ List.not_mem_nil, Nat.add_zero]
  have hs : (rowsDims N C E wf).start (ix2 e f) idx (1 : Fin 2) = 0 := by
    unfold GatherDims.start
    rw [dif_neg (show (1 : Fin 2) ∉ [(0 : Fin 2)] by decide)]
  have ho : (rowsDims N C E wf).offCoord (ix2 e f) (1 : Fin 2) = f.val := by
    unfold GatherDims.offCoord
    rw [dif_pos ((GatherDims.mem_sKept _ _).2 ⟨(show (1 : Fin 2) ∉ [(0 : Fin 2)] by decide), List.not_mem_nil⟩)]
    rfl
  rw [hs, ho, Nat.zero_add]

/-- The row gather read at `(e, f)`: the operand at the row `idx[e, 0]`, read signed and clamped, and column `f`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims N C E wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ => exact rows_coord0 wf idx e f
  | ⟨1, _⟩ => exact rows_coord1 wf idx e f

end Gather

/-! ## The accumulating scatters -/

section Scatter

/-- The dimension numbers of `x.at[idx].add(u)` for a flat operand `[N]`, scatter indices `[E, 1]`, updates `[E]`. -/
abbrev scat1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem scat1_start {N E w : Nat} (wf : ScatterDims.WF ⟨1, ![N]⟩ ⟨2, ![E, 1]⟩ ⟨1, ![E]⟩ [] [0] [0] 1)
    (idx : IVec ⟨2, ![E, 1]⟩ w) (e : Fin E) :
    (scat1Dims N E wf).start (ix1 e) idx (0 : Fin 1) = (idx (ix2 e (0 : Fin 1))).toInt := by
  unfold ScatterDims.start
  rw [dif_pos (show (0 : Fin 1) ∈ (scat1Dims N E wf).scatterDimsToOperandDims from List.mem_singleton.mpr rfl)]
  have hsi : (scat1Dims N E wf).siIdx (ix1 e) ⟨List.idxOf (0 : Fin 1) (scat1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat1_window {N E : Nat} (wf : ScatterDims.WF ⟨1, ![N]⟩ ⟨2, ![E, 1]⟩ ⟨1, ![E]⟩ [] [0] [0] 1) (e : Fin E) :
    (scat1Dims N E wf).window (ix1 e) (0 : Fin 1) = 0 := by
  unfold ScatterDims.window
  rw [dif_neg (show (0 : Fin 1) ∉ (scat1Dims N E wf).sKept by simp [ScatterDims.sKept, Shape.kept])]

/-- Update `e` of the flat scatter lands on row `n` exactly when its index word, read signed, is `n`. -/
theorem scat1_resultIdx?_eq_some_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scat1Dims N E wf).resultIdx? (ix1 e) idx = some (ix1 n) ↔ (idx (ix2 e (0 : Fin 1))).toInt = (n.val : Int) := by
  unfold ScatterDims.resultIdx?
  constructor
  · intro h
    split at h
    · rename_i hr
      have h0 := congrFun (Option.some.inj h) (0 : Fin 1)
      have hv := congrArg Fin.val h0
      have hr0 := hr (0 : Fin 1)
      rw [scat1_start, scat1_window] at hr0
      simp only [scat1_start, scat1_window] at hv
      change ((idx (ix2 e (0 : Fin 1))).toInt + ((0 : Nat) : Int)).toNat = n.val at hv
      omega
    · exact absurd h (by simp)
  · intro hv
    have hr : ∀ a, 0 ≤ (scat1Dims N E wf).start (ix1 e) idx a + ((scat1Dims N E wf).window (ix1 e) a : Int)
        ∧ (scat1Dims N E wf).start (ix1 e) idx a + ((scat1Dims N E wf).window (ix1 e) a : Int) < ((⟨1, ![N]⟩ : Shape).size a : Int) := by
      intro a
      obtain rfl : a = 0 := Subsingleton.elim _ _
      rw [scat1_start, scat1_window, hv]
      have := n.isLt
      change (0 : Int) ≤ (n.val : Int) + ((0 : Nat) : Int) ∧ (n.val : Int) + ((0 : Nat) : Int) < (N : Int)
      omega
    rw [dif_pos hr]
    congr 1
    funext a
    obtain rfl : a = 0 := Subsingleton.elim _ _
    refine Fin.ext ?_
    show ((scat1Dims N E wf).start (ix1 e) idx 0 + ((scat1Dims N E wf).window (ix1 e) 0 : Int)).toNat = n.val
    rw [scat1_start, scat1_window, hv]
    omega

/-- The dimension numbers of `x.at[idx].add(u)` for a matrix operand `[N, C]`, scatter indices `[E, 1]`, updates `[E, C]`. -/
abbrev scatRowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem scatRows_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (0 : Fin 2) = (idx (ix2 e (0 : Fin 1))).toInt := by
  unfold ScatterDims.start
  rw [dif_pos (show (0 : Fin 2) ∈ (scatRowsDims N C E wf).scatterDimsToOperandDims from List.mem_singleton.mpr rfl)]
  have hsi : (scatRowsDims N C E wf).siIdx (ix2 e f) ⟨List.idxOf (0 : Fin 2) (scatRowsDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatRows_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (1 : Fin 2) = 0 := by
  unfold ScatterDims.start
  rw [dif_neg (show (1 : Fin 2) ∉ [(0 : Fin 2)] by decide)]

theorem scatRows_window0 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (0 : Fin 2) = 0 := by
  unfold ScatterDims.window
  rw [dif_neg (show (0 : Fin 2) ∉ (scatRowsDims N C E wf).sKept by simp [ScatterDims.sKept, Shape.kept])]

theorem scatRows_window1 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (1 : Fin 2) = f.val := by
  unfold ScatterDims.window
  rw [dif_pos (show (1 : Fin 2) ∈ (scatRowsDims N C E wf).sKept by simp [ScatterDims.sKept, Shape.kept])]
  rfl

/-- Update `(e, f)` of the row scatter lands on `(n, g)` exactly when its index word, read signed, is `n` and `f = g`. -/
theorem scatRows_resultIdx?_eq_some_iff {N C E w : Nat}
    (wf : ScatterDims.WF ⟨2, ![N, C]⟩ ⟨2, ![E, 1]⟩ ⟨2, ![E, C]⟩ [1] [0] [0] 1)
    (idx : IVec ⟨2, ![E, 1]⟩ w) (e : Fin E) (f : Fin C) (n : Fin N) (g : Fin C) :
    (scatRowsDims N C E wf).resultIdx? (ix2 e f) idx = some (ix2 n g)
      ↔ (idx (ix2 e (0 : Fin 1))).toInt = (n.val : Int) ∧ f = g := by
  unfold ScatterDims.resultIdx?
  constructor
  · intro h
    split at h
    · rename_i hr
      have hfun := Option.some.inj h
      have hv0 := congrArg Fin.val (congrFun hfun (0 : Fin 2))
      have hv1 := congrArg Fin.val (congrFun hfun (1 : Fin 2))
      have hr0 := hr (0 : Fin 2)
      rw [scatRows_start0, scatRows_window0] at hr0
      simp only [scatRows_start0, scatRows_window0] at hv0
      simp only [scatRows_start1, scatRows_window1] at hv1
      change ((idx (ix2 e (0 : Fin 1))).toInt + ((0 : Nat) : Int)).toNat = n.val at hv0
      change ((0 : Int) + ((f.val : Nat) : Int)).toNat = g.val at hv1
      refine ⟨by omega, Fin.ext (by omega)⟩
    · exact absurd h (by simp)
  · rintro ⟨hv, rfl⟩
    have hr : ∀ a, 0 ≤ (scatRowsDims N C E wf).start (ix2 e f) idx a + ((scatRowsDims N C E wf).window (ix2 e f) a : Int)
        ∧ (scatRowsDims N C E wf).start (ix2 e f) idx a + ((scatRowsDims N C E wf).window (ix2 e f) a : Int)
            < ((⟨2, ![N, C]⟩ : Shape).size a : Int) := by
      intro a
      match a with
      | ⟨0, _⟩ =>
        have := n.isLt
        change 0 ≤ (scatRowsDims N C E wf).start (ix2 e f) idx (0 : Fin 2) + ((scatRowsDims N C E wf).window (ix2 e f) (0 : Fin 2) : Int)
          ∧ (scatRowsDims N C E wf).start (ix2 e f) idx (0 : Fin 2) + ((scatRowsDims N C E wf).window (ix2 e f) (0 : Fin 2) : Int) < (N : Int)
        rw [scatRows_start0, scatRows_window0, hv]
        omega
      | ⟨1, _⟩ =>
        have := f.isLt
        change 0 ≤ (scatRowsDims N C E wf).start (ix2 e f) idx (1 : Fin 2) + ((scatRowsDims N C E wf).window (ix2 e f) (1 : Fin 2) : Int)
          ∧ (scatRowsDims N C E wf).start (ix2 e f) idx (1 : Fin 2) + ((scatRowsDims N C E wf).window (ix2 e f) (1 : Fin 2) : Int) < (C : Int)
        rw [scatRows_start1, scatRows_window1]
        omega
    rw [dif_pos hr]
    congr 1
    funext a
    refine Fin.ext ?_
    match a with
    | ⟨0, _⟩ =>
      show ((scatRowsDims N C E wf).start (ix2 e f) idx (0 : Fin 2) + ((scatRowsDims N C E wf).window (ix2 e f) (0 : Fin 2) : Int)).toNat = n.val
      rw [scatRows_start0, scatRows_window0, hv]
      omega
    | ⟨1, _⟩ =>
      show ((scatRowsDims N C E wf).start (ix2 e f) idx (1 : Fin 2) + ((scatRowsDims N C E wf).window (ix2 e f) (1 : Fin 2) : Int)).toNat = f.val
      rw [scatRows_start1, scatRows_window1]
      omega

/-! ## The scatters' values on the extended reals -/

/-- A flat index is its one coordinate. -/
def idxEquiv1 {n : Nat} : (⟨1, ![n]⟩ : Shape).Idx ≃ Fin n where
  toFun j := j 0
  invFun := ix1
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- The flat accumulating scatter at row `n`: the operand plus the updates whose index word is `n`. -/
theorem scatterAdd1_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (scat1Dims N E wf) x idx upd (ix1 n)
      = x (ix1 n) + ∑ e ∈ Finset.univ.filter (fun e : Fin E => (idx (ix2 e (0 : Fin 1))).toInt = (n.val : Int)), upd (ix1 e) := by
  show Ideal.hostScatterAdd (scat1Dims N E wf) x idx upd (ix1 n) = _
  unfold Ideal.hostScatterAdd
  congr 1
  rw [Finset.sum_filter, Finset.sum_filter, sum_idx1]
  exact Finset.sum_congr rfl fun e _ => if_congr (scat1_resultIdx?_eq_some_iff wf idx e n) rfl rfl

/-- The row accumulating scatter at `(n, g)`: the operand plus column `g` of the updates whose index word is `n`. -/
theorem scatterAddRows_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (g : Fin C) :
    Host.scatterAdd (scatRowsDims N C E wf) x idx upd (ix2 n g)
      = x (ix2 n g) + ∑ e ∈ Finset.univ.filter (fun e : Fin E => (idx (ix2 e (0 : Fin 1))).toInt = (n.val : Int)), upd (ix2 e g) := by
  show Ideal.hostScatterAdd (scatRowsDims N C E wf) x idx upd (ix2 n g) = _
  unfold Ideal.hostScatterAdd
  congr 1
  rw [Finset.sum_filter, Finset.sum_filter, sum_idx2]
  refine Finset.sum_congr rfl fun e _ => ?_
  have h : ∀ f : Fin C, (if (scatRowsDims N C E wf).resultIdx? (ix2 e f) idx = some (ix2 n g) then upd (ix2 e f) else 0)
      = if f = g then (if (idx (ix2 e (0 : Fin 1))).toInt = (n.val : Int) then upd (ix2 e f) else 0) else 0 := by
    intro f
    rw [if_congr (scatRows_resultIdx?_eq_some_iff wf idx e f n g) rfl rfl]
    by_cases hf : f = g
    · rw [if_pos hf]; exact if_congr (and_iff_left hf) rfl rfl
    · rw [if_neg hf, if_neg (fun h => hf h.2)]
  rw [Finset.sum_congr rfl fun f _ => h f, Finset.sum_ite_eq' Finset.univ g]
  rw [if_pos (Finset.mem_univ g)]

end Scatter

end Cert.Lib.ScatterGather

end
-- ==== Proof.GlueReal.lean ====
import proofs.«167728_j48945447305605_1_alg».proof.Proof.Glue
import proofs.«167728_j48945447305605_1_alg».proof.Proof.RealArith
import proofs.«167728_j48945447305605_1_alg».proof.Proof.LibScatterGather
import Idealize.ShloMosaic.Lib.ValueIdx
import Idealize.ShloMosaic.Lib.IdealHost
import Idealize.ShloMosaic.Lib.Pipeline.Value

/-!
# The message passing takes arrays of reals to arrays of reals

The degree of a node is `0 + (one for every edge whose destination word is the node) + 1`: a real that is at
least one, so its inverse square root is the real `(√r)⁻¹`. An edge's weight is a product of two entries of
that array (a gather reads an entry of its operand whatever the index word is: the word is clamped into range),
and a neighbourhood sum is `0` plus a finite sum of products of an entry of the feature array and an edge's
weight (a scatter-add adds, at each place, the updates whose index word is that place and drops the others).
Nothing here needs the value of any of these: only that finite sums and products of reals are real.
-/

noncomputable section

open scoped BigOperators

namespace Cert.Glue

open Idealize.ShloMosaic Idealize.ShloMosaic.ValueIdx Cert.KernelIdeal Cert.KernelIdeal.Gen Cert.Spec
open Cert.Lib.ScatterGather

/-! ## The two float words -/

theorem word_zero : Ideal.ofBits .f32 0x00000000#32 = 0 := Ideal.ofBits_zero_f32

theorem word_one : Ideal.ofBits .f32 0x3F800000#32 = ((1 : ℝ) : EReal) := by
  simp [Ideal.ofBits, Ideal.ieee, -EReal.coe_mul]; try norm_num

/-! ## Gathers and scatter-adds of reals, whatever the index words -/

/-- An entry of a flat gather is an entry of the operand. -/
theorem gather1_real {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → EReal) (idx : IVec ⟨2, ![E, 1]⟩ w) (hx : ∀ n : Fin N, IsReal (x (ix1 n)))
    (e : Fin E) : IsReal (Host.gather (take1Dims N E wf) x idx (ix1 e)) := by
  rw [gather_take1_apply hN]; exact hx _

/-- An entry of a row gather is an entry of the operand in the same column. -/
theorem gatherRows_real {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → EReal) (idx : IVec ⟨2, ![E, 1]⟩ w)
    (hx : ∀ (n : Fin N) (f : Fin C), IsReal (x (ix2 n f))) (e : Fin E) (f : Fin C) :
    IsReal (Host.gather (rowsDims N C E wf) x idx (ix2 e f)) := by
  rw [gather_rows_apply hN]; exact hx _ _

/-- A flat scatter-add of reals into reals is real. -/
theorem scatterAdd1_real {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ)
    (hx : ∀ n : Fin N, IsReal (x (ix1 n))) (hu : ∀ e : Fin E, IsReal (upd (ix1 e))) (n : Fin N) :
    IsReal (Host.scatterAdd (scat1Dims N E wf) x idx upd (ix1 n)) := by
  rw [scatterAdd1_apply]
  exact (hx n).add (IsReal.sum _ _ fun e _ => hu e)

/-- A row scatter-add of reals into reals is real. -/
theorem scatterAddRows_real {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (hx : ∀ (n : Fin N) (g : Fin C), IsReal (x (ix2 n g))) (hu : ∀ (e : Fin E) (g : Fin C), IsReal (upd (ix2 e g)))
    (n : Fin N) (g : Fin C) :
    IsReal (Host.scatterAdd (scatRowsDims N C E wf) x idx upd (ix2 n g)) := by
  rw [scatterAddRows_apply]
  exact (hx n g).add (IsReal.sum _ _ fun e _ => hu e g)

/-! ## The degree and its inverse square root -/

/-- The degree with the self loop is a real that is at least one: `0`, plus a one for each edge into the node,
    plus one. -/
theorem degT_pos (d : (⟨S2097152, .i32⟩ : BufTy).Contents (Elt Ideal)) (i : Fin 262144) :
    ∃ r : ℝ, 0 < r ∧ degT (F := Ideal) d (ix1 i) = (r : EReal) := by
  have hD : scatter_S262144_S2097152x1_S2097152_n_0_0_1
      = scat1Dims 262144 2097152 scatter_S262144_S2097152x1_S2097152_n_0_0_1_wf := rfl
  unfold degT
  rw [addf_apply, hD, scatterAdd1_apply, broadcastInDim_scalar_apply, broadcastInDim_scalar_apply,
    constant_apply, constant_apply, word_zero, word_one]
  have hu : ∀ e : Fin 2097152,
      broadcastInDim S2097152 ![] bcast_S_S2097152 (constant (F := Ideal) S_ .f32 0x3F800000#32) (ix1 e)
        = (((fun _ : Fin 2097152 => (1 : ℝ)) e : ℝ) : EReal) := fun e => by
    rw [broadcastInDim_scalar_apply, constant_apply, word_one]
  rw [Finset.sum_congr rfl fun e _ => hu e, coe_sum, zero_add, ← EReal.coe_add]
  refine ⟨_, ?_, rfl⟩
  have : (0 : ℝ) ≤ ∑ k ∈ Finset.univ.filter
      (fun e : Fin 2097152 => (colT (F := Ideal) d (ix2 e (0 : Fin 1))).toInt = ((i : Fin 262144).val : Int)), (1 : ℝ) :=
    Finset.sum_nonneg fun _ _ => zero_le_one
  linarith

/-- The host's inverse square root at an index. -/
theorem hostRsqrt_apply {s : Shape} {φ : FTy} (x : FVec Ideal s φ) (i : s.Idx) :
    Host.rsqrt x i = Ideal.rsqrt (x i) := rfl

theorem disT_real (d : (⟨S2097152, .i32⟩ : BufTy).Contents (Elt Ideal)) (i : Fin 262144) :
    IsReal (disT (F := Ideal) d (ix1 i)) := by
  obtain ⟨r, hr, h⟩ := degT_pos d i
  unfold disT
  rw [hostRsqrt_apply, h, Ideal.rsqrt_coe, if_neg (not_lt.2 hr.le), if_neg hr.ne']
  exact IsReal.coe _

/-! ## The edges' weights -/

theorem nrmT_real (s d : (⟨S2097152, .i32⟩ : BufTy).Contents (Elt Ideal)) (e : Fin 2097152) :
    IsReal (nrmT (F := Ideal) s d (ix1 e)) := by
  have hG : gather_S262144_S2097152x1_S2097152_n_0_n_n_0_1_1
      = take1Dims 262144 2097152 gather_S262144_S2097152x1_S2097152_n_0_n_n_0_1_1_wf := rfl
  unfold nrmT
  rw [mulf_apply, hG]
  exact (gather1_real (by decide) _ _ _ (disT_real d) e).mul (gather1_real (by decide) _ _ _ (disT_real d) e)

/-! ## The neighbourhood sums -/

/-- The weights' column read at `(e, 0)`. -/
theorem nrmCol_apply (nrm : (⟨S2097152, .f32⟩ : BufTy).Contents (Elt Ideal)) (e : Fin 2097152) :
    broadcastInDim S2097152x1 ![0] bcast_S2097152_S2097152x1_0 nrm (ix2 e (0 : Fin 1)) = nrm (ix1 e) :=
  broadcastInDim_apply _ _ nrm _ (ix1 e) fun a => by
    match a with
    | ⟨0, _⟩ => rfl

theorem agg64T_real (s d : (⟨S2097152, .i32⟩ : BufTy).Contents (Elt Ideal))
    (nrm : (⟨S2097152, .f32⟩ : BufTy).Contents (Elt Ideal)) (h : (⟨S262144x64, .f32⟩ : BufTy).Contents (Elt Ideal))
    (hn : ∀ e : Fin 2097152, IsReal (nrm (ix1 e))) (hh : ∀ (i : Fin 262144) (j : Fin 64), IsReal (h (ix2 i j))) :
    ∀ (i : Fin 262144) (j : Fin 64), IsReal (agg64T (F := Ideal) s d nrm h (ix2 i j)) := by
  have hS : scatter_S262144x64_S2097152x1_S2097152x64_1_0_0_1
      = scatRowsDims 262144 64 2097152 scatter_S262144x64_S2097152x1_S2097152x64_1_0_0_1_wf := rfl
  have hG : gather_S262144x64_S2097152x1_S2097152x64_1_0_n_n_0_1_164
      = rowsDims 262144 64 2097152 gather_S262144x64_S2097152x1_S2097152x64_1_0_n_n_0_1_164_wf := rfl
  intro i j
  unfold agg64T
  rw [hS, hG]
  refine scatterAddRows_real _ _ _ _ (fun n g => ?_) (fun e g => ?_) i j
  · rw [broadcastInDim_scalar_apply, constant_apply, word_zero]; exact IsReal.zero
  · rw [mulf_apply]
    refine (gatherRows_real (by decide) _ _ _ hh e g).mul ?_
    rw [broadcastInDim_apply _ bcast_S2097152x1_S2097152x64_0_1 _ (ix2 e g) (ix2 e (0 : Fin 1)) (fun a => by
      match a with
      | ⟨0, _⟩ => rfl
      | ⟨1, _⟩ => rfl), nrmCol_apply]
    exact hn e

theorem agg16T_real (s d : (⟨S2097152, .i32⟩ : BufTy).Contents (Elt Ideal))
    (nrm : (⟨S2097152, .f32⟩ : BufTy).Contents (Elt Ideal)) (h : (⟨S262144x16, .f32⟩ : BufTy).Contents (Elt Ideal))
    (hn : ∀ e : Fin 2097152, IsReal (nrm (ix1 e))) (hh : ∀ (i : Fin 262144) (j : Fin 16), IsReal (h (ix2 i j))) :
    ∀ (i : Fin 262144) (j : Fin 16), IsReal (agg16T (F := Ideal) s d nrm h (ix2 i j)) := by
  have hS : scatter_S262144x16_S2097152x1_S2097152x16_1_0_0_1
      = scatRowsDims 262144 16 2097152 scatter_S262144x16_S2097152x1_S2097152x16_1_0_0_1_wf := rfl
  have hG : gather_S262144x16_S2097152x1_S2097152x16_1_0_n_n_0_1_116
      = rowsDims 262144 16 2097152 gather_S262144x16_S2097152x1_S2097152x16_1_0_n_n_0_1_116_wf := rfl
  intro i j
  unfold agg16T
  rw [hS, hG]
  refine scatterAddRows_real _ _ _ _ (fun n g => ?_) (fun e g => ?_) i j
  · rw [broadcastInDim_scalar_apply, constant_apply, word_zero]; exact IsReal.zero
  · rw [mulf_apply]
    refine (gatherRows_real (by decide) _ _ _ hh e g).mul ?_
    rw [broadcastInDim_apply _ bcast_S2097152x1_S2097152x16_0_1 _ (ix2 e g) (ix2 e (0 : Fin 1)) (fun a => by
      match a with
      | ⟨0, _⟩ => rfl
      | ⟨1, _⟩ => rfl), nrmCol_apply]
    exact hn e

theorem agg1T_real (s d : (⟨S2097152, .i32⟩ : BufTy).Contents (Elt Ideal))
    (nrm : (⟨S2097152, .f32⟩ : BufTy).Contents (Elt Ideal)) (h : (⟨S262144x1, .f32⟩ : BufTy).Contents (Elt Ideal))
    (hn : ∀ e : Fin 2097152, IsReal (nrm (ix1 e))) (hh : ∀ (i : Fin 262144) (j : Fin 1), IsReal (h (ix2 i j))) :
    ∀ (i : Fin 262144) (j : Fin 1), IsReal (agg1T (F := Ideal) s d nrm h (ix2 i j)) := by
  have hS : scatter_S262144x1_S2097152x1_S2097152x1_1_0_0_1
      = scatRowsDims 262144 1 2097152 scatter_S262144x1_S2097152x1_S2097152x1_1_0_0_1_wf := rfl
  have hG : gather_S262144x1_S2097152x1_S2097152x1_1_0_n_n_0_1_11
      = rowsDims 262144 1 2097152 gather_S262144x1_S2097152x1_S2097152x1_1_0_n_n_0_1_11_wf := rfl
  intro i j
  unfold agg1T
  rw [hS, hG]
  refine scatterAddRows_real _ _ _ _ (fun n g => ?_) (fun e g => ?_) i j
  · rw [broadcastInDim_scalar_apply, constant_apply, word_zero]; exact IsReal.zero
  · rw [mulf_apply]
    refine (gatherRows_real (by decide) _ _ _ hh e g).mul ?_
    obtain rfl : g = 0 := Subsingleton.elim _ _
    rw [nrmCol_apply]
    exact hn e

end Cert.Glue

end
-- ==== Proof.ArgsReal.lean ====
import proofs.«167728_j48945447305605_1_alg».proof.Proof.Cur
import proofs.«167728_j48945447305605_1_alg».proof.Proof.NetEq
import proofs.«167728_j48945447305605_1_alg».proof.Proof.GlueReal

/-!
# The programs' arguments are real

When every float argument array is an array of reals, the network's arguments made from them are real in the
sense the network's comparison needs: the float arrays are the hypotheses read at an index, the inverse square
root of the degree is real whatever the edge list is, and each neighbourhood sum takes an array of reals to an
array of reals because the edges' weights are real.
-/

noncomputable section

namespace Cert.Cur

open Idealize.ShloMosaic Idealize.ShloMosaic.ValueIdx Cert.KernelIdeal Cert.KernelIdeal.Gen Cert.Glue

-- an array of a buffer type at `Ideal`
set_option quotPrecheck false in
local notation "𝔸" S ", " t => (⟨S, t⟩ : BufTy).Contents (Elt Ideal)

theorem argsOf_allReal (x : 𝔸 S262144x9, .f32) (e : 𝔸 S2x2097152, .i32) (W1 : 𝔸 S9x64, .f32) (b1 : 𝔸 S64, .f32)
    (W2 : 𝔸 S64x64, .f32) (b2 : 𝔸 S64, .f32) (W3 : 𝔸 S64x64, .f32) (b3 : 𝔸 S64, .f32)
    (W4 : 𝔸 S64x16, .f32) (b4 : 𝔸 S16, .f32) (W5 : 𝔸 S16x1, .f32) (b5 : 𝔸 S1, .f32)
    (g2 : 𝔸 S64, .f32) (bt2 : 𝔸 S64, .f32) (g3 : 𝔸 S64, .f32) (bt3 : 𝔸 S64, .f32)
    (hx : ∀ i, Spec.IsReal (x i)) (hW1 : ∀ i, Spec.IsReal (W1 i)) (hb1 : ∀ i, Spec.IsReal (b1 i))
    (hW2 : ∀ i, Spec.IsReal (W2 i)) (hb2 : ∀ i, Spec.IsReal (b2 i)) (hW3 : ∀ i, Spec.IsReal (W3 i))
    (hb3 : ∀ i, Spec.IsReal (b3 i)) (hW4 : ∀ i, Spec.IsReal (W4 i)) (hb4 : ∀ i, Spec.IsReal (b4 i))
    (hW5 : ∀ i, Spec.IsReal (W5 i)) (hb5 : ∀ i, Spec.IsReal (b5 i)) (hg2 : ∀ i, Spec.IsReal (g2 i))
    (hbt2 : ∀ i, Spec.IsReal (bt2 i)) (hg3 : ∀ i, Spec.IsReal (g3 i)) (hbt3 : ∀ i, Spec.IsReal (bt3 i)) :
    (argsOf x e W1 b1 W2 b2 W3 b3 W4 b4 W5 b5 g2 bt2 g3 bt3).AllReal where
  x := fun i k => hx (ix2 i k)
  W1 := fun k j => hW1 (ix2 k j)
  b1 := fun j => hb1 (ix1 j)
  W2 := fun k j => hW2 (ix2 k j)
  b2 := fun j => hb2 (ix1 j)
  W3 := fun k j => hW3 (ix2 k j)
  b3 := fun j => hb3 (ix1 j)
  W4 := fun k j => hW4 (ix2 k j)
  b4 := fun j => hb4 (ix1 j)
  W5 := fun k j => hW5 (ix2 k j)
  b5 := fun j => hb5 (ix1 j)
  g2 := fun j => hg2 (ix1 j)
  bt2 := fun j => hbt2 (ix1 j)
  g3 := fun j => hg3 (ix1 j)
  bt3 := fun j => hbt3 (ix1 j)
  d := fun i => disT_real (dstT e) i
  A64 := fun h hh i j =>
    agg64T_real (srcT e) (dstT e) (nrmT (srcT e) (dstT e)) (unc2 h) (nrmT_real (srcT e) (dstT e)) (fun i j => hh i j) i j
  A16 := fun h hh i j =>
    agg16T_real (srcT e) (dstT e) (nrmT (srcT e) (dstT e)) (unc2 h) (nrmT_real (srcT e) (dstT e)) (fun i j => hh i j) i j
  A1 := fun h hh i j =>
    agg1T_real (srcT e) (dstT e) (nrmT (srcT e) (dstT e)) (unc2 h) (nrmT_real (srcT e) (dstT e)) (fun i j => hh i j) i j

end Cert.Cur

end
-- ==== Proof.lean ====
/-
  The certificate of a five-layer graph convolutional network over 262144 nodes and 2097152 edges.

  Both programs compute, layer by layer, h = x · W, the weighted sum of h over each node's incoming edges (the
  same gather and scatter-add operations in both, applied to equal arrays), y = that sum + h · dis² + b with dis
  the inverse square root of the degree; the first three layers then normalise y over ALL its 2^24 entries,
  scale, shift and apply the exponential linear unit, the last two apply the unit alone; the result is laid out
  as [1, 512, 512]. The kernel does the dense parts in thirteen pipelined regions (the linear maps, the combine
  with the running totals of y and y², the normalise-and-unit, the combine-and-unit) and takes the variance as
  the mean of the squares minus the square of the mean, clamped at zero, multiplying by the reciprocal of
  (deviation + ε); the reference takes it as the mean of the squared deviations and divides. At the ideal
  instance the matrix products are plain sums, the sums over blocks and lanes are the sum over all entries, the
  unit spelt with exp(z) − 1 is the unit spelt with expm1, and on REAL entries the two variances agree and the
  clamp is idle; the entries are real because the float arguments are finite (the precondition) and sums,
  products, inverse square roots of positive reals and the unit keep reals real. So the two results are equal.

  The modules: Spec, Net (the network as functions of curried arrays), LnEq, NetEq (the two normalisations
  agree on reals; so does the network), Glue, GlueReal (the shared message passing, and that it keeps reals
  real), Reg0 … Reg12 (what each region leaves in its output arrays), KHostGlue, KHostStats, KKeep, KStages…,
  KValue (the kernel's host operations and the stages along its run), KRun (the kernel's run with its result
  named), RefOps, RefRun (the reference's operations in order and its run), RefKeep, RefStages…, RefTerms,
  RefValue (the reference's stages), PreReal, ArgsReal (finite arguments are real).
-/
import proofs.«167728_j48945447305605_1_alg».proof.Defs
import proofs.«167728_j48945447305605_1_alg».proof.Proof.Gen.Kernel
import proofs.«167728_j48945447305605_1_alg».proof.Proof.Gen.Kernel.Frame
import proofs.«167728_j48945447305605_1_alg».proof.Proof.Gen.KernelIdeal
import proofs.«167728_j48945447305605_1_alg».proof.Proof.Gen.KernelIdeal.Frame
import proofs.«167728_j48945447305605_1_alg».proof.Proof.Gen.ReferenceIdeal
import proofs.«167728_j48945447305605_1_alg».proof.Proof.Gen.Pre_finite_inputs
import proofs.«167728_j48945447305605_1_alg».proof.Proof.KRun
import proofs.«167728_j48945447305605_1_alg».proof.Proof.KValue
import proofs.«167728_j48945447305605_1_alg».proof.Proof.RefRun
import proofs.«167728_j48945447305605_1_alg».proof.Proof.RefKeep
import proofs.«167728_j48945447305605_1_alg».proof.Proof.RefValue
import proofs.«167728_j48945447305605_1_alg».proof.Proof.NetEq
import proofs.«167728_j48945447305605_1_alg».proof.Proof.PreReal
import proofs.«167728_j48945447305605_1_alg».proof.Proof.ArgsReal
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs: every buffer ends at the fold of its operations over the launch contents, and no
    operation writes an argument. -/
theorem frame_ri : Cert.frame_ReferenceIdeal := fun m ρ _ =>
  (θ_run (Cert.ReferenceIdeal.defs (F := Ideal)) _ _).mono
    (fun _ h c => ⟨(h c Cert.ReferenceIdeal.main_arg0).trans (Cert.ReferenceIdeal.RefRun.end_arg _ (by decide) (by decide) (by decide) (by decide) (by decide) (by decide)),
      (h c Cert.ReferenceIdeal.main_arg1).trans (Cert.ReferenceIdeal.RefRun.end_arg _ (by decide) (by decide) (by decide) (by decide) (by decide) (by decide)),
      (h c Cert.ReferenceIdeal.main_arg2).trans (Cert.ReferenceIdeal.RefRun.end_arg _ (by decide) (by decide) (by decide) (by decide) (by decide) (by decide)),
      (h c Cert.ReferenceIdeal.main_arg3).trans (Cert.ReferenceIdeal.RefRun.end_arg _ (by decide) (by decide) (by decide) (by decide) (by decide) (by decide)),
      (h c Cert.ReferenceIdeal.main_arg4).trans (Cert.ReferenceIdeal.RefRun.end_arg _ (by decide) (by decide) (by decide) (by decide) (by decide) (by decide)),
      (h c Cert.ReferenceIdeal.main_arg5).trans (Cert.ReferenceIdeal.RefRun.end_arg _ (by decide) (by decide) (by decide) (by decide) (by decide) (by decide)),
      (h c Cert.ReferenceIdeal.main_arg6).trans (Cert.ReferenceIdeal.RefRun.end_arg _ (by decide) (by decide) (by decide) (by decide) (by decide) (by decide)),
      (h c Cert.ReferenceIdeal.main_arg7).trans (Cert.ReferenceIdeal.RefRun.end_arg _ (by decide) (by decide) (by decide) (by decide) (by decide) (by decide)),
      (h c Cert.ReferenceIdeal.main_arg8).trans (Cert.ReferenceIdeal.RefRun.end_arg _ (by decide) (by decide) (by decide) (by decide) (by decide) (by decide)),
      (h c Cert.ReferenceIdeal.main_arg9).trans (Cert.ReferenceIdeal.RefRun.end_arg _ (by decide) (by decide) (by decide) (by decide) (by decide) (by decide)),
      (h c Cert.ReferenceIdeal.main_arg10).trans (Cert.ReferenceIdeal.RefRun.end_arg _ (by decide) (by decide) (by decide) (by decide) (by decide) (by decide)),
      (h c Cert.ReferenceIdeal.main_arg11).trans (Cert.ReferenceIdeal.RefRun.end_arg _ (by decide) (by decide) (by decide) (by decide) (by decide) (by decide)),
      (h c Cert.ReferenceIdeal.main_arg12).trans (Cert.ReferenceIdeal.RefRun.end_arg _ (by decide) (by decide) (by decide) (by decide) (by decide) (by decide)),
      (h c Cert.ReferenceIdeal.main_arg13).trans (Cert.ReferenceIdeal.RefRun.end_arg _ (by decide) (by decide) (by decide) (by decide) (by decide) (by decide)),
      (h c Cert.ReferenceIdeal.main_arg14).trans (Cert.ReferenceIdeal.RefRun.end_arg _ (by decide) (by decide) (by decide) (by decide) (by decide) (by decide)),
      (h c Cert.ReferenceIdeal.main_arg15).trans (Cert.ReferenceIdeal.RefRun.end_arg _ (by decide) (by decide) (by decide) (by decide) (by decide) (by decide))⟩)
    (Cert.ReferenceIdeal.RefRun.run_main (F := Ideal) m ρ)

/-- The ideal pass rewrote no operation. -/
theorem preserves : Cert.preserves_Kernel_KernelIdeal := trivial

/-- Memories that agree on the sixteen arguments give the two programs the same network arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.RefVal.argsV (launchContents m' c) = Cert.KernelIdeal.KVal.argsAt m c := by
  obtain ⟨h0, h1, h2, h3, h4, h5, h6, h7, h8, h9, h10, h11, h12, h13, h14, h15⟩ := h
  unfold Cert.ReferenceIdeal.RefVal.argsV Cert.KernelIdeal.KVal.argsAt
  show Cert.Cur.argsOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) = _
  rw [h0, h1, h2, h3, h4, h5, h6, h7, h8, h9, h10, h11, h12, h13, h14, h15]

/-- Finite float arguments make the network's arguments real (and the message passing keeps reals real). -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) : (Cert.KernelIdeal.KVal.argsAt m c).AllReal := by
  obtain ⟨r0, r2, r3, r4, r5, r6, r7, r8, r9, r10, r11, r12, r13, r14, r15⟩ :=
    Cert.PreReal.real_of_pre _ _ _ _ _ _ _ _ _ _ _ _ _ _ _ _ (hpre c)
  exact Cert.Cur.argsOf_allReal _ _ _ _ _ _ _ _ _ _ _ _ _ _ _ _ r0 r2 r3 r4 r5 r6 r7 r8 r9 r10 r11 r12 r13 r14 r15

/-- Both programs end with the network's result, re-laid as [1, 512, 512]: the kernel with the variance as mean
    square minus squared mean, the reference with the mean squared deviation; on the real arrays that finite
    arguments give, the two are the same network. -/
theorem algebraic : Cert.algebraic_KernelIdeal_ReferenceIdeal := by
  intro m ρ m' ρ' hpre hagree
  refine ⟨fun c => Cert.KernelIdeal.Gen.W23 m ρ c (Proc.devRef .tc Cert.KernelIdeal.main_v153),
    Cert.KernelIdeal.KVal.run (F := Ideal) m ρ, ?_⟩
  refine (θ_run (Cert.ReferenceIdeal.defs (F := Ideal)) _ _).mono (fun r h c => ⟨?_,
      (h c Cert.ReferenceIdeal.main_arg0).trans (Cert.ReferenceIdeal.RefRun.end_arg _ (by decide) (by decide) (by decide) (by decide) (by decide) (by decide)),
      (h c Cert.ReferenceIdeal.main_arg1).trans (Cert.ReferenceIdeal.RefRun.end_arg _ (by decide) (by decide) (by decide) (by decide) (by decide) (by decide)),
      (h c Cert.ReferenceIdeal.main_arg2).trans (Cert.ReferenceIdeal.RefRun.end_arg _ (by decide) (by decide) (by decide) (by decide) (by decide) (by decide)),
      (h c Cert.ReferenceIdeal.main_arg3).trans (Cert.ReferenceIdeal.RefRun.end_arg _ (by decide) (by decide) (by decide) (by decide) (by decide) (by decide)),
      (h c Cert.ReferenceIdeal.main_arg4).trans (Cert.ReferenceIdeal.RefRun.end_arg _ (by decide) (by decide) (by decide) (by decide) (by decide) (by decide)),
      (h c Cert.ReferenceIdeal.main_arg5).trans (Cert.ReferenceIdeal.RefRun.end_arg _ (by decide) (by decide) (by decide) (by decide) (by decide) (by decide)),
      (h c Cert.ReferenceIdeal.main_arg6).trans (Cert.ReferenceIdeal.RefRun.end_arg _ (by decide) (by decide) (by decide) (by decide) (by decide) (by decide)),
      (h c Cert.ReferenceIdeal.main_arg7).trans (Cert.ReferenceIdeal.RefRun.end_arg _ (by decide) (by decide) (by decide) (by decide) (by decide) (by decide)),
      (h c Cert.ReferenceIdeal.main_arg8).trans (Cert.ReferenceIdeal.RefRun.end_arg _ (by decide) (by decide) (by decide) (by decide) (by decide) (by decide)),
      (h c Cert.ReferenceIdeal.main_arg9).trans (Cert.ReferenceIdeal.RefRun.end_arg _ (by decide) (by decide) (by decide) (by decide) (by decide) (by decide)),
      (h c Cert.ReferenceIdeal.main_arg10).trans (Cert.ReferenceIdeal.RefRun.end_arg _ (by decide) (by decide) (by decide) (by decide) (by decide) (by decide)),
      (h c Cert.ReferenceIdeal.main_arg11).trans (Cert.ReferenceIdeal.RefRun.end_arg _ (by decide) (by decide) (by decide) (by decide) (by decide) (by decide)),
      (h c Cert.ReferenceIdeal.main_arg12).trans (Cert.ReferenceIdeal.RefRun.end_arg _ (by decide) (by decide) (by decide) (by decide) (by decide) (by decide)),
      (h c Cert.ReferenceIdeal.main_arg13).trans (Cert.ReferenceIdeal.RefRun.end_arg _ (by decide) (by decide) (by decide) (by decide) (by decide) (by decide)),
      (h c Cert.ReferenceIdeal.main_arg14).trans (Cert.ReferenceIdeal.RefRun.end_arg _ (by decide) (by decide) (by decide) (by decide) (by decide) (by decide)),
      (h c Cert.ReferenceIdeal.main_arg15).trans (Cert.ReferenceIdeal.RefRun.end_arg _ (by decide) (by decide) (by decide) (by decide) (by decide) (by decide))⟩)
    (Cert.ReferenceIdeal.RefRun.run_main (F := Ideal) m' ρ')
  rw [h c Cert.ReferenceIdeal.main_v251, Cert.ReferenceIdeal.RefVal.ref_value, args_agree m m' c (hagree c),
    ← Cert.Net.z5_eq _ (args_real m hpre c)]
  exact (Cert.KernelIdeal.KVal.kernel_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
